-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x96 : Shape := ⟨2, ![128, 96]⟩
abbrev S96 : Shape := ⟨1, ![96]⟩
abbrev S96x96 : Shape := ⟨2, ![96, 96]⟩
abbrev S96x64 : Shape := ⟨2, ![96, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x96 : S_.BroadcastsInDim S128x96 (![] : Fin 0 → Fin S128x96.rank)
  reducesTo_S128x96_S_d0_1 : S128x96.ReducesTo [0, 1] S_
  bcast_S_S96 : S_.BroadcastsInDim S96 (![] : Fin 0 → Fin S96.rank)
  reducesTo_S96_S_d0 : S96.ReducesTo [0] S_
  bcast_S_S96x96 : S_.BroadcastsInDim S96x96 (![] : Fin 0 → Fin S96x96.rank)
  reducesTo_S96x96_S_d0_1 : S96x96.ReducesTo [0, 1] S_
  bcast_S_S96x64 : S_.BroadcastsInDim S96x64 (![] : Fin 0 → Fin S96x64.rank)
  reducesTo_S96x64_S_d0_1 : S96x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg15 : FVec F S64 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  main_v73

def fn_part3 {F : FTy → Type} [FloatOps F] (main_arg12 : FVec F S96 .f32) (main_arg13 : FVec F S96 .f32) (main_arg14 : FVec F S96x64 .f32) (main_arg15 : FVec F S64 .f32) (main_v48 : IVec S_ 1) (main_v49 : FVec F S96 .f32) (main_v50 : FVec F S96 .f32) : IVec S_ 1 :=
  let main_v51 : IVec S96 1 := cmpf .olt main_v49 main_v50
  let main_c_19 : IVec S_ 1 := constantI S_ 1 1#1
  let main_v52 : IVec S_ 1 := (fun x v => Host.reduce IntOp.andi x v reducesTo_S96_S_d0 h_S_) main_v51 main_c_19
  let main_v53 : IVec S_ 1 := andi main_v48 main_v52
  let main_v54 : FVec F S96 .f32 := Host.absf main_arg12
  let main_cst_20 : FVec F S_ .f32 := constant S_ .f32 0x7F800000#32
  let main_v55 : FVec F S96 .f32 := broadcastInDim S96 ![] bcast_S_S96 main_cst_20
  let main_v56 : IVec S96 1 := cmpf .olt main_v54 main_v55
  let main_c_21 : IVec S_ 1 := constantI S_ 1 1#1
  let main_v57 : IVec S_ 1 := (fun x v => Host.reduce IntOp.andi x v reducesTo_S96_S_d0 h_S_) main_v56 main_c_21
  let main_v58 : IVec S_ 1 := andi main_v53 main_v57
  let main_v59 : FVec F S96 .f32 := Host.absf main_arg13
  let main_cst_22 : FVec F S_ .f32 := constant S_ .f32 0x7F800000#32
  let main_v60 : FVec F S96 .f32 := broadcastInDim S96 ![] bcast_S_S96 main_cst_22
  let main_v61 : IVec S96 1 := cmpf .olt main_v59 main_v60
  let main_c_23 : IVec S_ 1 := constantI S_ 1 1#1
  let main_v62 : IVec S_ 1 := (fun x v => Host.reduce IntOp.andi x v reducesTo_S96_S_d0 h_S_) main_v61 main_c_23
  let main_v63 : IVec S_ 1 := andi main_v58 main_v62
  let main_v64 : FVec F S96x64 .f32 := Host.absf main_arg14
  let main_cst_24 : FVec F S_ .f32 := constant S_ .f32 0x7F800000#32
  let main_v65 : FVec F S96x64 .f32 := broadcastInDim S96x64 ![] bcast_S_S96x64 main_cst_24
  let main_v66 : IVec S96x64 1 := cmpf .olt main_v64 main_v65
  let main_c_25 : IVec S_ 1 := constantI S_ 1 1#1
  let main_v67 : IVec S_ 1 := (fun x v => Host.reduce IntOp.andi x v reducesTo_S96x64_S_d0_1 h_S_) main_v66 main_c_25
  fn_part4 (F := F) main_arg15 main_v63 main_v67

def fn_part2 {F : FTy → Type} [FloatOps F] (main_arg8 : FVec F S96 .f32) (main_arg9 : FVec F S96 .f32) (main_arg10 : FVec F S96x96 .f32) (main_arg11 : FVec F S96 .f32) (main_arg12 : FVec F S96 .f32) (main_arg13 : FVec F S96 .f32) (main_arg14 : FVec F S96x64 .f32) (main_arg15 : FVec F S64 .f32) (main_v33 : IVec S_ 1) : IVec S_ 1 :=
  let main_v34 : FVec F S96 .f32 := Host.absf main_arg8
  let main_cst_12 : FVec F S_ .f32 := constant S_ .f32 0x7F800000#32
  let main_v35 : FVec F S96 .f32 := broadcastInDim S96 ![] bcast_S_S96 main_cst_12
  let main_v36 : IVec S96 1 := cmpf .olt main_v34 main_v35
  let main_c_13 : IVec S_ 1 := constantI S_ 1 1#1
  let main_v37 : IVec S_ 1 := (fun x v => Host.reduce IntOp.andi x v reducesTo_S96_S_d0 h_S_) main_v36 main_c_13
  let main_v38 : IVec S_ 1 := andi main_v33 main_v37
  let main_v39 : FVec F S96 .f32 := Host.absf main_arg9
  let main_cst_14 : FVec F S_ .f32 := constant S_ .f32 0x7F800000#32
  let main_v40 : FVec F S96 .f32 := broadcastInDim S96 ![] bcast_S_S96 main_cst_14
  let main_v41 : IVec S96 1 := cmpf .olt main_v39 main_v40
  let main_c_15 : IVec S_ 1 := constantI S_ 1 1#1
  let main_v42 : IVec S_ 1 := (fun x v => Host.reduce IntOp.andi x v reducesTo_S96_S_d0 h_S_) main_v41 main_c_15
  let main_v43 : IVec S_ 1 := andi main_v38 main_v42
  let main_v44 : FVec F S96x96 .f32 := Host.absf main_arg10
  let main_cst_16 : FVec F S_ .f32 := constant S_ .f32 0x7F800000#32
  let main_v45 : FVec F S96x96 .f32 := broadcastInDim S96x96 ![] bcast_S_S96x96 main_cst_16
  let main_v46 : IVec S96x96 1 := cmpf .olt main_v44 main_v45
  let main_c_17 : IVec S_ 1 := constantI S_ 1 1#1
  let main_v47 : IVec S_ 1 := (fun x v => Host.reduce IntOp.andi x v reducesTo_S96x96_S_d0_1 h_S_) main_v46 main_c_17
  let main_v48 : IVec S_ 1 := andi main_v43 main_v47
  let main_v49 : FVec F S96 .f32 := Host.absf main_arg11
  let main_cst_18 : FVec F S_ .f32 := constant S_ .f32 0x7F800000#32
  let main_v50 : FVec F S96 .f32 := broadcastInDim S96 ![] bcast_S_S96 main_cst_18
  fn_part3 (F := F) main_arg12 main_arg13 main_arg14 main_arg15 main_v48 main_v49 main_v50

def fn_part1 {F : FTy → Type} [FloatOps F] (main_arg5 : FVec F S96 .f32) (main_arg6 : FVec F S96x96 .f32) (main_arg7 : FVec F S96 .f32) (main_arg8 : FVec F S96 .f32) (main_arg9 : FVec F S96 .f32) (main_arg10 : FVec F S96x96 .f32) (main_arg11 : FVec F S96 .f32) (main_arg12 : FVec F S96 .f32) (main_arg13 : FVec F S96 .f32) (main_arg14 : FVec F S96x64 .f32) (main_arg15 : FVec F S64 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96 .f32 := Host.absf main_arg5
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S96x96 .f32 := Host.absf main_arg6
  let main_cst_8 : FVec F S_ .f32 := constant S_ .f32 0x7F800000#32
  let main_v25 : FVec F S96x96 .f32 := broadcastInDim S96x96 ![] bcast_S_S96x96 main_cst_8
  let main_v26 : IVec S96x96 1 := cmpf .olt main_v24 main_v25
  let main_c_9 : IVec S_ 1 := constantI S_ 1 1#1
  let main_v27 : IVec S_ 1 := (fun x v => Host.reduce IntOp.andi x v reducesTo_S96x96_S_d0_1 h_S_) main_v26 main_c_9
  let main_v28 : IVec S_ 1 := andi main_v23 main_v27
  let main_v29 : FVec F S96 .f32 := Host.absf main_arg7
  let main_cst_10 : FVec F S_ .f32 := constant S_ .f32 0x7F800000#32
  let main_v30 : FVec F S96 .f32 := broadcastInDim S96 ![] bcast_S_S96 main_cst_10
  let main_v31 : IVec S96 1 := cmpf .olt main_v29 main_v30
  let main_c_11 : IVec S_ 1 := constantI S_ 1 1#1
  let main_v32 : IVec S_ 1 := (fun x v => Host.reduce IntOp.andi x v reducesTo_S96_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S50000x128 .f32) (main_arg1 : IVec S2x800000 32) (main_arg2 : FVec F S128x96 .f32) (main_arg3 : FVec F S96 .f32) (main_arg4 : FVec F S96 .f32) (main_arg5 : FVec F S96 .f32) (main_arg6 : FVec F S96x96 .f32) (main_arg7 : FVec F S96 .f32) (main_arg8 : FVec F S96 .f32) (main_arg9 : FVec F S96 .f32) (main_arg10 : FVec F S96x96 .f32) (main_arg11 : FVec F S96 .f32) (main_arg12 : FVec F S96 .f32) (main_arg13 : FVec F S96 .f32) (main_arg14 : FVec F S96x64 .f32) (main_arg15 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x96 .f32 := Host.absf main_arg2
  let main_cst_0 : FVec F S_ .f32 := constant S_ .f32 0x7F800000#32
  let main_v5 : FVec F S128x96 .f32 := broadcastInDim S128x96 ![] bcast_S_S128x96 main_cst_0
  let main_v6 : IVec S128x96 1 := cmpf .olt main_v4 main_v5
  let main_c_1 : IVec S_ 1 := constantI S_ 1 1#1
  let main_v7 : IVec S_ 1 := (fun x v => Host.reduce IntOp.andi x v reducesTo_S128x96_S_d0_1 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96 .f32 := Host.absf main_arg4
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x128 : Shape := ⟨2, ![50000, 128]⟩
abbrev S2x800000 : Shape := ⟨2, ![2, 800000]⟩
abbrev S128x96 : Shape := ⟨2, ![128, 96]⟩
abbrev S96 : Shape := ⟨1, ![96]⟩
abbrev S96x96 : Shape := ⟨2, ![96, 96]⟩
abbrev S96x64 : Shape := ⟨2, ![96, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S50000x96 : Shape := ⟨2, ![50000, 96]⟩
abbrev S5000x128 : Shape := ⟨2, ![5000, 128]⟩
abbrev S5000x1 : Shape := ⟨2, ![5000, 1]⟩
abbrev S5000x96 : Shape := ⟨2, ![5000, 96]⟩
abbrev S850000x96 : Shape := ⟨2, ![850000, 96]⟩
abbrev S1x96 : Shape := ⟨2, ![1, 96]⟩
abbrev S1x64 : Shape := ⟨2, ![1, 64]⟩
abbrev S50000x64 : Shape := ⟨2, ![50000, 64]⟩
abbrev S5000x64 : Shape := ⟨2, ![5000, 64]⟩
abbrev S5000 : Shape := ⟨1, ![5000]⟩

abbrev nBuf : Space → Nat
  | .hbm => 119
  | .vmem => 76
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x96, .f32⟩
  | .hbm, ⟨3, _⟩ => ⟨S96, .f32⟩
  | .hbm, ⟨4, _⟩ => ⟨S96, .f32⟩
  | .hbm, ⟨5, _⟩ => ⟨S96, .f32⟩
  | .hbm, ⟨6, _⟩ => ⟨S96x96, .f32⟩
  | .hbm, ⟨7, _⟩ => ⟨S96, .f32⟩
  | .hbm, ⟨8, _⟩ => ⟨S96, .f32⟩
  | .hbm, ⟨9, _⟩ => ⟨S96, .f32⟩
  | .hbm, ⟨10, _⟩ => ⟨S96x96, .f32⟩
  | .hbm, ⟨11, _⟩ => ⟨S96, .f32⟩
  | .hbm, ⟨12, _⟩ => ⟨S96, .f32⟩
  | .hbm, ⟨13, _⟩ => ⟨S96, .f32⟩
  | .hbm, ⟨14, _⟩ => ⟨S96x64, .f32⟩
  | .hbm, ⟨15, _⟩ => ⟨S64, .f32⟩
  | .hbm, ⟨16, _⟩ => ⟨S50000, .i32⟩
  | .hbm, ⟨17, _⟩ => ⟨S1x800000, .i32⟩
  | .hbm, ⟨18, _⟩ => ⟨S800000, .i32⟩
  | .hbm, ⟨19, _⟩ => ⟨S850000, .i32⟩
  | .hbm, ⟨20, _⟩ => ⟨S1x800000, .i32⟩
  | .hbm, ⟨21, _⟩ => ⟨S800000, .i32⟩
  | .hbm, ⟨22, _⟩ => ⟨S850000, .i32⟩
  | .hbm, ⟨23, _⟩ => ⟨S_, .f32⟩
  | .hbm, ⟨24, _⟩ => ⟨S850000, .f32⟩
  | .hbm, ⟨25, _⟩ => ⟨S_, .f32⟩
  | .hbm, ⟨26, _⟩ => ⟨S50000, .f32⟩
  | .hbm, ⟨27, _⟩ => ⟨S850000x1, .i32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x96, .bf16⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000x96, .bf16⟩
  | .hbm, ⟨41, _⟩ => ⟨S850000x96, .f32⟩
  | .hbm, ⟨42, _⟩ => ⟨S_, .f32⟩
  | .hbm, ⟨43, _⟩ => ⟨S50000x96, .f32⟩
  | .hbm, ⟨44, _⟩ => ⟨S850000x1, .i32⟩
  | .hbm, ⟨45, _⟩ => ⟨S50000x96, .f32⟩
  | .hbm, ⟨46, _⟩ => ⟨S1x96, .f32⟩
  | .hbm, ⟨47, _⟩ => ⟨S1x96, .f32⟩
  | .hbm, ⟨48, _⟩ => ⟨S1x96, .f32⟩
  | .hbm, ⟨49, _⟩ => ⟨S96, .f32⟩
  | .hbm, ⟨50, _⟩ => ⟨S_, .f32⟩
  | .hbm, ⟨51, _⟩ => ⟨S96, .f32⟩
  | .hbm, ⟨52, _⟩ => ⟨S96, .f32⟩
  | .hbm, ⟨53, _⟩ => ⟨S96, .f32⟩
  | .hbm, ⟨54, _⟩ => ⟨S_, .f32⟩
  | .hbm, ⟨55, _⟩ => ⟨S96, .f32⟩
  | .hbm, ⟨56, _⟩ => ⟨S96, .f32⟩
  | .hbm, ⟨57, _⟩ => ⟨S96, .f32⟩
  | .hbm, ⟨58, _⟩ => ⟨S96, .f32⟩
  | .hbm, ⟨59, _⟩ => ⟨S1x96, .f32⟩
  | .hbm, ⟨60, _⟩ => ⟨S1x96, .f32⟩
  | .hbm, ⟨61, _⟩ => ⟨S1x96, .f32⟩
  | .hbm, ⟨62, _⟩ => ⟨S1x96, .f32⟩
  | .hbm, ⟨63, _⟩ => ⟨S1x96, .f32⟩
  | .hbm, ⟨64, _⟩ => ⟨S50000x96, .bf16⟩
  | .hbm, ⟨65, _⟩ => ⟨S50000x96, .bf16⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x96, .bf16⟩
  | .hbm, ⟨75, _⟩ => ⟨S850000x96, .f32⟩
  | .hbm, ⟨76, _⟩ => ⟨S_, .f32⟩
  | .hbm, ⟨77, _⟩ => ⟨S50000x96, .f32⟩
  | .hbm, ⟨78, _⟩ => ⟨S850000x1, .i32⟩
  | .hbm, ⟨79, _⟩ => ⟨S50000x96, .f32⟩
  | .hbm, ⟨80, _⟩ => ⟨S1x96, .f32⟩
  | .hbm, ⟨81, _⟩ => ⟨S1x96, .f32⟩
  | .hbm, ⟨82, _⟩ => ⟨S1x96, .f32⟩
  | .hbm, ⟨83, _⟩ => ⟨S96, .f32⟩
  | .hbm, ⟨84, _⟩ => ⟨S_, .f32⟩
  | .hbm, ⟨85, _⟩ => ⟨S96, .f32⟩
  | .hbm, ⟨86, _⟩ => ⟨S96, .f32⟩
  | .hbm, ⟨87, _⟩ => ⟨S96, .f32⟩
  | .hbm, ⟨88, _⟩ => ⟨S_, .f32⟩
  | .hbm, ⟨89, _⟩ => ⟨S96, .f32⟩
  | .hbm, ⟨90, _⟩ => ⟨S96, .f32⟩
  | .hbm, ⟨91, _⟩ => ⟨S96, .f32⟩
  | .hbm, ⟨92, _⟩ => ⟨S96, .f32⟩
  | .hbm, ⟨93, _⟩ => ⟨S1x96, .f32⟩
  | .hbm, ⟨94, _⟩ => ⟨S1x96, .f32⟩
  | .hbm, ⟨95, _⟩ => ⟨S1x96, .f32⟩
  | .hbm, ⟨96, _⟩ => ⟨S1x96, .f32⟩
  | .hbm, ⟨97, _⟩ => ⟨S1x96, .f32⟩
  | .hbm, ⟨98, _⟩ => ⟨S50000x96, .bf16⟩
  | .hbm, ⟨99, _⟩ => ⟨S1x96, .f32⟩
  | .hbm, ⟨100, _⟩ => ⟨S50000x96, .f32⟩
  | .hbm, ⟨101, _⟩ => ⟨S1x96, .f32⟩
  | .hbm, ⟨102, _⟩ => ⟨S1x96, .f32⟩
  | .hbm, ⟨103, _⟩ => ⟨S96, .f32⟩
  | .hbm, ⟨104, _⟩ => ⟨S_, .f32⟩
  | .hbm, ⟨105, _⟩ => ⟨S96, .f32⟩
  | .hbm, ⟨106, _⟩ => ⟨S96, .f32⟩
  | .hbm, ⟨107, _⟩ => ⟨S96, .f32⟩
  | .hbm, ⟨108, _⟩ => ⟨S_, .f32⟩
  | .hbm, ⟨109, _⟩ => ⟨S96, .f32⟩
  | .hbm, ⟨110, _⟩ => ⟨S96, .f32⟩
  | .hbm, ⟨111, _⟩ => ⟨S96, .f32⟩
  | .hbm, ⟨112, _⟩ => ⟨S96, .f32⟩
  | .hbm, ⟨113, _⟩ => ⟨S1x96, .f32⟩
  | .hbm, ⟨114, _⟩ => ⟨S1x96, .f32⟩
  | .hbm, ⟨115, _⟩ => ⟨S1x96, .f32⟩
  | .hbm, ⟨116, _⟩ => ⟨S1x96, .f32⟩
  | .hbm, ⟨117, _⟩ => ⟨S1x64, .f32⟩
  | .hbm, ⟨118, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x96, .f32⟩
  | .local _ .vmem, ⟨3, _⟩ => ⟨S5000x1, .f32⟩
  | .local _ .vmem, ⟨4, _⟩ => ⟨S5000x1, .f32⟩
  | .local _ .vmem, ⟨5, _⟩ => ⟨S5000x96, .bf16⟩
  | .local _ .vmem, ⟨6, _⟩ => ⟨S5000x96, .bf16⟩
  | .local _ .vmem, ⟨7, _⟩ => ⟨S5000x96, .f32⟩
  | .local _ .vmem, ⟨8, _⟩ => ⟨S5000x96, .f32⟩
  | .local _ .vmem, ⟨9, _⟩ => ⟨S5000x1, .f32⟩
  | .local _ .vmem, ⟨10, _⟩ => ⟨S5000x1, .f32⟩
  | .local _ .vmem, ⟨11, _⟩ => ⟨S1x96, .f32⟩
  | .local _ .vmem, ⟨12, _⟩ => ⟨S1x96, .f32⟩
  | .local _ .vmem, ⟨13, _⟩ => ⟨S1x96, .f32⟩
  | .local _ .vmem, ⟨14, _⟩ => ⟨S1x96, .f32⟩
  | .local _ .vmem, ⟨15, _⟩ => ⟨S1x96, .f32⟩
  | .local _ .vmem, ⟨16, _⟩ => ⟨S5000x96, .f32⟩
  | .local _ .vmem, ⟨17, _⟩ => ⟨S5000x96, .f32⟩
  | .local _ .vmem, ⟨18, _⟩ => ⟨S5000x1, .f32⟩
  | .local _ .vmem, ⟨19, _⟩ => ⟨S5000x1, .f32⟩
  | .local _ .vmem, ⟨20, _⟩ => ⟨S1x96, .f32⟩
  | .local _ .vmem, ⟨21, _⟩ => ⟨S1x96, .f32⟩
  | .local _ .vmem, ⟨22, _⟩ => ⟨S1x96, .f32⟩
  | .local _ .vmem, ⟨23, _⟩ => ⟨S1x96, .f32⟩
  | .local _ .vmem, ⟨24, _⟩ => ⟨S1x96, .f32⟩
  | .local _ .vmem, ⟨25, _⟩ => ⟨S5000x96, .bf16⟩
  | .local _ .vmem, ⟨26, _⟩ => ⟨S5000x96, .bf16⟩
  | .local _ .vmem, ⟨27, _⟩ => ⟨S5000x96, .bf16⟩
  | .local _ .vmem, ⟨28, _⟩ => ⟨S5000x96, .bf16⟩
  | .local _ .vmem, ⟨29, _⟩ => ⟨S96x96, .f32⟩
  | .local _ .vmem, ⟨30, _⟩ => ⟨S5000x1, .f32⟩
  | .local _ .vmem, ⟨31, _⟩ => ⟨S5000x1, .f32⟩
  | .local _ .vmem, ⟨32, _⟩ => ⟨S5000x96, .bf16⟩
  | .local _ .vmem, ⟨33, _⟩ => ⟨S5000x96, .bf16⟩
  | .local _ .vmem, ⟨34, _⟩ => ⟨S5000x96, .f32⟩
  | .local _ .vmem, ⟨35, _⟩ => ⟨S5000x96, .f32⟩
  | .local _ .vmem, ⟨36, _⟩ => ⟨S5000x1, .f32⟩
  | .local _ .vmem, ⟨37, _⟩ => ⟨S5000x1, .f32⟩
  | .local _ .vmem, ⟨38, _⟩ => ⟨S1x96, .f32⟩
  | .local _ .vmem, ⟨39, _⟩ => ⟨S1x96, .f32⟩
  | .local _ .vmem, ⟨40, _⟩ => ⟨S1x96, .f32⟩
  | .local _ .vmem, ⟨41, _⟩ => ⟨S1x96, .f32⟩
  | .local _ .vmem, ⟨42, _⟩ => ⟨S1x96, .f32⟩
  | .local _ .vmem, ⟨43, _⟩ => ⟨S5000x96, .f32⟩
  | .local _ .vmem, ⟨44, _⟩ => ⟨S5000x96, .f32⟩
  | .local _ .vmem, ⟨45, _⟩ => ⟨S5000x1, .f32⟩
  | .local _ .vmem, ⟨46, _⟩ => ⟨S5000x1, .f32⟩
  | .local _ .vmem, ⟨47, _⟩ => ⟨S1x96, .f32⟩
  | .local _ .vmem, ⟨48, _⟩ => ⟨S1x96, .f32⟩
  | .local _ .vmem, ⟨49, _⟩ => ⟨S1x96, .f32⟩
  | .local _ .vmem, ⟨50, _⟩ => ⟨S1x96, .f32⟩
  | .local _ .vmem, ⟨51, _⟩ => ⟨S1x96, .f32⟩
  | .local _ .vmem, ⟨52, _⟩ => ⟨S5000x96, .bf16⟩
  | .local _ .vmem, ⟨53, _⟩ => ⟨S5000x96, .bf16⟩
  | .local _ .vmem, ⟨54, _⟩ => ⟨S5000x96, .bf16⟩
  | .local _ .vmem, ⟨55, _⟩ => ⟨S5000x96, .bf16⟩
  | .local _ .vmem, ⟨56, _⟩ => ⟨S96x96, .f32⟩
  | .local _ .vmem, ⟨57, _⟩ => ⟨S1x96, .f32⟩
  | .local _ .vmem, ⟨58, _⟩ => ⟨S5000x96, .f32⟩
  | .local _ .vmem, ⟨59, _⟩ => ⟨S5000x96, .f32⟩
  | .local _ .vmem, ⟨60, _⟩ => ⟨S5000x96, .f32⟩
  | .local _ .vmem, ⟨61, _⟩ => ⟨S5000x96, .f32⟩
  | .local _ .vmem, ⟨62, _⟩ => ⟨S1x96, .f32⟩
  | .local _ .vmem, ⟨63, _⟩ => ⟨S1x96, .f32⟩
  | .local _ .vmem, ⟨64, _⟩ => ⟨S1x96, .f32⟩
  | .local _ .vmem, ⟨65, _⟩ => ⟨S1x96, .f32⟩
  | .local _ .vmem, ⟨66, _⟩ => ⟨S5000x96, .f32⟩
  | .local _ .vmem, ⟨67, _⟩ => ⟨S5000x96, .f32⟩
  | .local _ .vmem, ⟨68, _⟩ => ⟨S1x96, .f32⟩
  | .local _ .vmem, ⟨69, _⟩ => ⟨S1x96, .f32⟩
  | .local _ .vmem, ⟨70, _⟩ => ⟨S1x96, .f32⟩
  | .local _ .vmem, ⟨71, _⟩ => ⟨S1x96, .f32⟩
  | .local _ .vmem, ⟨72, _⟩ => ⟨S96x64, .f32⟩
  | .local _ .vmem, ⟨73, _⟩ => ⟨S1x64, .f32⟩
  | .local _ .vmem, ⟨74, _⟩ => ⟨S5000x64, .f32⟩
  | .local _ .vmem, ⟨75, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_2 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26_0 : Ref sig .tc := ⟨.hbm, 47, rfl⟩
abbrev main_v26_1 : Ref sig .tc := ⟨.hbm, 48, rfl⟩
abbrev main_v27 : Ref sig .tc := ⟨.hbm, 49, rfl⟩
abbrev main_cst_3 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_4 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_5 : Ref sig .tc := ⟨.hbm, 66, rfl⟩
abbrev main_v42 : Ref sig .tc := ⟨.hbm, 67, rfl⟩
abbrev main_v43 : Ref sig .tc := ⟨.hbm, 68, rfl⟩
abbrev main_c_6 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_7 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54_0 : Ref sig .tc := ⟨.hbm, 81, rfl⟩
abbrev main_v54_1 : Ref sig .tc := ⟨.hbm, 82, rfl⟩
abbrev main_v55 : Ref sig .tc := ⟨.hbm, 83, rfl⟩
abbrev main_cst_8 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_9 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71_0 : Ref sig .tc := ⟨.hbm, 101, rfl⟩
abbrev main_v71_1 : Ref sig .tc := ⟨.hbm, 102, rfl⟩
abbrev main_v72 : Ref sig .tc := ⟨.hbm, 103, rfl⟩
abbrev main_cst_10 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_11 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_scratch0 : Ref sig .tc := ⟨.vmem, 14, rfl⟩
abbrev cc1_scratch1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg7_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg3_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_scratch0 : Ref sig .tc := ⟨.vmem, 41, rfl⟩
abbrev cc4_scratch1 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg1_1 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg5_0 : Ref sig .tc := ⟨.vmem, 50, rfl⟩
abbrev cc5_stg6_0 : Ref sig .tc := ⟨.vmem, 51, rfl⟩
abbrev cc5_stg7_0 : Ref sig .tc := ⟨.vmem, 52, rfl⟩
abbrev cc5_stg7_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg2_0 : Ref sig .tc := ⟨.vmem, 57, rfl⟩
abbrev cc6_stg3_0 : Ref sig .tc := ⟨.vmem, 58, rfl⟩
abbrev cc6_stg3_1 : Ref sig .tc := ⟨.vmem, 59, rfl⟩
abbrev cc7_stg0_0 : Ref sig .tc := ⟨.vmem, 60, rfl⟩
abbrev cc7_stg0_1 : Ref sig .tc := ⟨.vmem, 61, rfl⟩
abbrev cc7_stg1_0 : Ref sig .tc := ⟨.vmem, 62, rfl⟩
abbrev cc7_stg2_0 : Ref sig .tc := ⟨.vmem, 63, rfl⟩
abbrev cc7_scratch0 : Ref sig .tc := ⟨.vmem, 64, rfl⟩
abbrev cc7_scratch1 : Ref sig .tc := ⟨.vmem, 65, rfl⟩
abbrev cc8_stg0_0 : Ref sig .tc := ⟨.vmem, 66, rfl⟩
abbrev cc8_stg0_1 : Ref sig .tc := ⟨.vmem, 67, rfl⟩
abbrev cc8_stg1_0 : Ref sig .tc := ⟨.vmem, 68, rfl⟩
abbrev cc8_stg2_0 : Ref sig .tc := ⟨.vmem, 69, rfl⟩
abbrev cc8_stg3_0 : Ref sig .tc := ⟨.vmem, 70, rfl⟩
abbrev cc8_stg4_0 : Ref sig .tc := ⟨.vmem, 71, rfl⟩
abbrev cc8_stg5_0 : Ref sig .tc := ⟨.vmem, 72, rfl⟩
abbrev cc8_stg6_0 : Ref sig .tc := ⟨.vmem, 73, rfl⟩
abbrev cc8_stg7_0 : Ref sig .tc := ⟨.vmem, 74, rfl⟩
abbrev cc8_stg7_1 : Ref sig .tc := ⟨.vmem, 75, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem7_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem2_1 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc5_sem0_0 : DmaSem sig := 39
abbrev cc5_sem0_1 : DmaSem sig := 40
abbrev cc5_sem1_0 : DmaSem sig := 41
abbrev cc5_sem1_1 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem6_0 : DmaSem sig := 47
abbrev cc5_sem7_0 : DmaSem sig := 48
abbrev cc5_sem7_1 : DmaSem sig := 49
abbrev cc6_sem0_0 : DmaSem sig := 50
abbrev cc6_sem0_1 : DmaSem sig := 51
abbrev cc6_sem1_0 : DmaSem sig := 52
abbrev cc6_sem2_0 : DmaSem sig := 53
abbrev cc6_sem3_0 : DmaSem sig := 54
abbrev cc6_sem3_1 : DmaSem sig := 55
abbrev cc7_sem0_0 : DmaSem sig := 56
abbrev cc7_sem0_1 : DmaSem sig := 57
abbrev cc7_sem1_0 : DmaSem sig := 58
abbrev cc7_sem2_0 : DmaSem sig := 59
abbrev cc8_sem0_0 : DmaSem sig := 60
abbrev cc8_sem0_1 : DmaSem sig := 61
abbrev cc8_sem1_0 : DmaSem sig := 62
abbrev cc8_sem2_0 : DmaSem sig := 63
abbrev cc8_sem3_0 : DmaSem sig := 64
abbrev cc8_sem4_0 : DmaSem sig := 65
abbrev cc8_sem5_0 : DmaSem sig := 66
abbrev cc8_sem6_0 : DmaSem sig := 67
abbrev cc8_sem7_0 : DmaSem sig := 68
abbrev cc8_sem7_1 : DmaSem sig := 69

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x96 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v28 : BitVec 1 := Scalar.cmpi .eq arg0 c9_i32
  let v29 : BitVec 32 := Scalar.extui v28
  let c0_i32_15 : BitVec 32 := 0#32
  let v30 : BitVec 1 := Scalar.cmpi .ne v29 c0_i32_15
  v30

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x96 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x96 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x96 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x96 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x96 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x96 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x96 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S96x96 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x96 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v28 : BitVec 1 := Scalar.cmpi .eq arg0 c9_i32
  let v29 : BitVec 32 := Scalar.extui v28
  let c0_i32_15 : BitVec 32 := 0#32
  let v30 : BitVec 1 := Scalar.cmpi .ne v29 c0_i32_15
  v30

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x96 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x96 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x96 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x96 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x96 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x96 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x96 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x96 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x96 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x96 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S5000x96 .bf16 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x96 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S96x96 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x96 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x96 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def k7_cond2 (i : grid7.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_11 : BitVec 32 := 0#32
  let v22 : BitVec 1 := Scalar.cmpi .ne v21 c0_i32_11
  v22

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x96 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x96 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x96 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x96 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x96 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x96 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x96 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x96 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S96x64 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x64 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 2 → Memref sig .tc .vmem S5000x64 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x96_S128x96_0_0 : ∀ a, (![0, 0] : Fin 2 → Nat) a + S128x96.size a ≤ S128x96.size a
  h_S128x96 : 0 < S128x96.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x96 : S5000x1.Broadcasts S5000x96
  inb_S5000x96_S5000x96_0_0 : ∀ a, (![0, 0] : Fin 2 → Nat) a + S5000x96.size a ≤ S5000x96.size a
  h_S5000x96 : 0 < S5000x96.numel
  packedbf16_S5000x96_S5000x96_0_0 : (Rect.unit (s := S5000x96) ![0, 0] S5000x96.size inb_S5000x96_S5000x96_0_0).PackedRows (EltTy.packing .bf16)
  bcast_S_S50000x96 : S_.BroadcastsInDim S50000x96 (![] : Fin 0 → Fin S50000x96.rank)
  shapeCasts_S96_S1x96 : S96.ShapeCasts S1x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  shapeCasts_S5000x96_S5000x96 : S5000x96.ShapeCasts S5000x96
  broadcasts_S1x96_S5000x96 : S1x96.Broadcasts S5000x96
  reduces_S5000x96_S96 : S5000x96.Reduces [0] S96
  shapeCasts_S1x96_S96 : S1x96.ShapeCasts S96
  bcast_S_S96 : S_.BroadcastsInDim S96 (![] : Fin 0 → Fin S96.rank)
  inb_S96x96_S96x96_0_0 : ∀ a, (![0, 0] : Fin 2 → Nat) a + S96x96.size a ≤ S96x96.size a
  h_S96x96 : 0 < S96x96.numel
  shapeCasts_S64_S1x64 : S64.ShapeCasts S1x64
  inb_S96x64_S96x64_0_0 : ∀ a, (![0, 0] : Fin 2 → Nat) a + S96x64.size a ≤ S96x64.size a
  h_S96x64 : 0 < S96x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  scatter_S50000_S850000x1_S850000_n_0_0_1_wf : ScatterDims.WF S50000 S850000x1 S850000 [] [0] [0] 1
  dot_S5000x128_S128x96_S5000x96_1_0_0_1_n_n_wf : DotDims.WF S5000x128 S128x96 S5000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S5000x96_S96x96_S5000x96_1_0_0_1_n_n_wf : DotDims.WF S5000x96 S96x96 S5000x96 [1] [0] [0] [1] [] []
  dot_S5000x96_S96x64_S5000x64_1_0_0_1_n_n_wf : DotDims.WF S5000x96 S96x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x96.size a ≤ S128x96.size a
  hwx0_1 : ∀ i : grid0.Coords, EltTy.bits .f32 = 32 ∨ (Rect.block (s := S128x96) S128x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x96.size a ≤ S50000x96.size a
  hwx0_3 : ∀ i : grid0.Coords, EltTy.bits .bf16 = 32 ∨ (Rect.block (s := S50000x96) S5000x96.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x96.size a ≤ S1x96.size a
  hwx1_2 : ∀ i : grid1.Coords, EltTy.bits .f32 = 32 ∨ (Rect.block (s := S1x96) S1x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x96.size a ≤ S1x96.size a
  hwx1_3 : ∀ i : grid1.Coords, EltTy.bits .f32 = 32 ∨ (Rect.block (s := S1x96) S1x96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x96.size a ≤ S1x96.size a
  hwx1_4 : ∀ i : grid1.Coords, EltTy.bits .f32 = 32 ∨ (Rect.block (s := S1x96) S1x96.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x96.size a ≤ S1x96.size a
  hwx2_2 : ∀ i : grid2.Coords, EltTy.bits .f32 = 32 ∨ (Rect.block (s := S1x96) S1x96.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x96.size a ≤ S1x96.size a
  hwx2_3 : ∀ i : grid2.Coords, EltTy.bits .f32 = 32 ∨ (Rect.block (s := S1x96) S1x96.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x96.size a ≤ S1x96.size a
  hwx2_4 : ∀ i : grid2.Coords, EltTy.bits .f32 = 32 ∨ (Rect.block (s := S1x96) S1x96.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x96.size a ≤ S1x96.size a
  hwx2_5 : ∀ i : grid2.Coords, EltTy.bits .f32 = 32 ∨ (Rect.block (s := S1x96) S1x96.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x96.size a ≤ S1x96.size a
  hwx2_6 : ∀ i : grid2.Coords, EltTy.bits .f32 = 32 ∨ (Rect.block (s := S1x96) S1x96.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x96.size a ≤ S50000x96.size a
  hwx2_7 : ∀ i : grid2.Coords, EltTy.bits .bf16 = 32 ∨ (Rect.block (s := S50000x96) S5000x96.size (cc2_transform_7 i) (hinb2_7 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x96.size a ≤ S50000x96.size a
  hwx3_0 : ∀ i : grid3.Coords, EltTy.bits .bf16 = 32 ∨ (Rect.block (s := S50000x96) S5000x96.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S96x96.size a ≤ S96x96.size a
  hwx3_1 : ∀ i : grid3.Coords, EltTy.bits .f32 = 32 ∨ (Rect.block (s := S96x96) S96x96.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x96.size a ≤ S50000x96.size a
  hwx3_3 : ∀ i : grid3.Coords, EltTy.bits .bf16 = 32 ∨ (Rect.block (s := S50000x96) S5000x96.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x96.size a ≤ S50000x96.size a
  hwx4_0 : ∀ i : grid4.Coords, EltTy.bits .f32 = 32 ∨ (Rect.block (s := S50000x96) S5000x96.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .f32 = 32 ∨ (Rect.block (s := S50000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x96.size a ≤ S1x96.size a
  hwx4_2 : ∀ i : grid4.Coords, EltTy.bits .f32 = 32 ∨ (Rect.block (s := S1x96) S1x96.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x96.size a ≤ S1x96.size a
  hwx4_3 : ∀ i : grid4.Coords, EltTy.bits .f32 = 32 ∨ (Rect.block (s := S1x96) S1x96.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x96.size a ≤ S1x96.size a
  hwx4_4 : ∀ i : grid4.Coords, EltTy.bits .f32 = 32 ∨ (Rect.block (s := S1x96) S1x96.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x96.size a ≤ S50000x96.size a
  hwx5_0 : ∀ i : grid5.Coords, EltTy.bits .f32 = 32 ∨ (Rect.block (s := S50000x96) S5000x96.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S50000x1.size a
  hwx5_1 : ∀ i : grid5.Coords, EltTy.bits .f32 = 32 ∨ (Rect.block (s := S50000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x96.size a ≤ S1x96.size a
  hwx5_2 : ∀ i : grid5.Coords, EltTy.bits .f32 = 32 ∨ (Rect.block (s := S1x96) S1x96.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x96.size a ≤ S1x96.size a
  hwx5_3 : ∀ i : grid5.Coords, EltTy.bits .f32 = 32 ∨ (Rect.block (s := S1x96) S1x96.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x96.size a ≤ S1x96.size a
  hwx5_4 : ∀ i : grid5.Coords, EltTy.bits .f32 = 32 ∨ (Rect.block (s := S1x96) S1x96.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x96.size a ≤ S1x96.size a
  hwx5_5 : ∀ i : grid5.Coords, EltTy.bits .f32 = 32 ∨ (Rect.block (s := S1x96) S1x96.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x96.size a ≤ S1x96.size a
  hwx5_6 : ∀ i : grid5.Coords, EltTy.bits .f32 = 32 ∨ (Rect.block (s := S1x96) S1x96.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x96.size a ≤ S50000x96.size a
  hwx5_7 : ∀ i : grid5.Coords, EltTy.bits .bf16 = 32 ∨ (Rect.block (s := S50000x96) S5000x96.size (cc5_transform_7 i) (hinb5_7 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x96.size a ≤ S50000x96.size a
  hwx6_0 : ∀ i : grid6.Coords, EltTy.bits .bf16 = 32 ∨ (Rect.block (s := S50000x96) S5000x96.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S96x96.size a ≤ S96x96.size a
  hwx6_1 : ∀ i : grid6.Coords, EltTy.bits .f32 = 32 ∨ (Rect.block (s := S96x96) S96x96.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x96.size a ≤ S1x96.size a
  hwx6_2 : ∀ i : grid6.Coords, EltTy.bits .f32 = 32 ∨ (Rect.block (s := S1x96) S1x96.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x96.size a ≤ S50000x96.size a
  hwx6_3 : ∀ i : grid6.Coords, EltTy.bits .f32 = 32 ∨ (Rect.block (s := S50000x96) S5000x96.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x96.size a ≤ S50000x96.size a
  hwx7_0 : ∀ i : grid7.Coords, EltTy.bits .f32 = 32 ∨ (Rect.block (s := S50000x96) S5000x96.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x96.size a ≤ S1x96.size a
  hwx7_1 : ∀ i : grid7.Coords, EltTy.bits .f32 = 32 ∨ (Rect.block (s := S1x96) S1x96.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x96.size a ≤ S1x96.size a
  hwx7_2 : ∀ i : grid7.Coords, EltTy.bits .f32 = 32 ∨ (Rect.block (s := S1x96) S1x96.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x96.size a ≤ S50000x96.size a
  hwx8_0 : ∀ i : grid8.Coords, EltTy.bits .f32 = 32 ∨ (Rect.block (s := S50000x96) S5000x96.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x96.size a ≤ S1x96.size a
  hwx8_1 : ∀ i : grid8.Coords, EltTy.bits .f32 = 32 ∨ (Rect.block (s := S1x96) S1x96.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x96.size a ≤ S1x96.size a
  hwx8_2 : ∀ i : grid8.Coords, EltTy.bits .f32 = 32 ∨ (Rect.block (s := S1x96) S1x96.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x96.size a ≤ S1x96.size a
  hwx8_3 : ∀ i : grid8.Coords, EltTy.bits .f32 = 32 ∨ (Rect.block (s := S1x96) S1x96.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x96.size a ≤ S1x96.size a
  hwx8_4 : ∀ i : grid8.Coords, EltTy.bits .f32 = 32 ∨ (Rect.block (s := S1x96) S1x96.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S96x64.size a ≤ S96x64.size a
  hwx8_5 : ∀ i : grid8.Coords, EltTy.bits .f32 = 32 ∨ (Rect.block (s := S96x64) S96x64.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x64.size a ≤ S1x64.size a
  hwx8_6 : ∀ i : grid8.Coords, EltTy.bits .f32 = 32 ∨ (Rect.block (s := S1x64) S1x64.size (cc8_transform_6 i) (hinb8_6 i)).WholeWords (EltTy.packing .f32)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S5000x64.size a ≤ S50000x64.size a
  hwx8_7 : ∀ i : grid8.Coords, EltTy.bits .f32 = 32 ∨ (Rect.block (s := S50000x64) S5000x64.size (cc8_transform_7 i) (hinb8_7 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x96_S5000x96_1_0_0_1_n_n : DotDims S5000x128 S128x96 S5000x96 where
  lhsContracting := [1]
  rhsContracting := [0]
  lhsNonContracting := [0]
  rhsNonContracting := [1]
  lhsBatch := []
  rhsBatch := []
  wf := dot_S5000x128_S128x96_S5000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def dot_S5000x96_S96x64_S5000x64_1_0_0_1_n_n : DotDims S5000x96 S96x64 S5000x64 where
  lhsContracting := [1]
  rhsContracting := [0]
  lhsNonContracting := [0]
  rhsNonContracting := [1]
  lhsBatch := []
  rhsBatch := []
  wf := dot_S5000x96_S96x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x96.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26_0) S1x96.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26_1) S1x96.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun i => !(k1_cond2 i == 1#1) | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v24) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v35) S1x96.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v36) S1x96.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37) S1x96.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v38) S1x96.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v39) S1x96.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v40) S5000x96.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v40) S5000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S96x96.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v41) S5000x96.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v52) S5000x96.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v12) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v53) S1x96.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v54_0) S1x96.size cc4_transform_3 reads4_3 true true 1 stage4_3 sem4_3
    hrank4 hreads4_3 hinb4_3 nbuf4_3 (Memref.isWhole_whole _) hwx4_3 hstage4_3

abbrev win4_4 : Pipeline.Window sig grid4 :=
  Pipeline.Window.ofSpec (Memref.whole main_v54_1) S1x96.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun i => !(k4_cond2 i == 1#1) | 4 => fun i => !(k4_cond2 i == 1#1) | ⟨_ + 5, h⟩ => absurd h (Nat.not_lt.2 (Nat.le_add_left _ _))

abbrev win5_0 : Pipeline.Window sig grid5 :=
  Pipeline.Window.ofSpec (Memref.whole main_v52) S5000x96.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v12) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v63) S1x96.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v64) S1x96.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v65) S1x96.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v66) S1x96.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v67) S1x96.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v68) S5000x96.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v68) S5000x96.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S96x96.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v69) S1x96.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v70) S5000x96.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v70) S5000x96.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v71_0) S1x96.size cc7_transform_1 reads7_1 true true 1 stage7_1 sem7_1
    hrank7 hreads7_1 hinb7_1 nbuf7_1 (Memref.isWhole_whole _) hwx7_1 hstage7_1

abbrev win7_2 : Pipeline.Window sig grid7 :=
  Pipeline.Window.ofSpec (Memref.whole main_v71_1) S1x96.size cc7_transform_2 reads7_2 true true 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev idle7 : Fin 3 → grid7.Coords → Bool := fun | 0 => fun _ => false | 1 => fun i => !(k7_cond2 i == 1#1) | 2 => fun i => !(k7_cond2 i == 1#1) | ⟨_ + 3, h⟩ => absurd h (Nat.not_lt.2 (Nat.le_add_left _ _))

abbrev win8_0 : Pipeline.Window sig grid8 :=
  Pipeline.Window.ofSpec (Memref.whole main_v70) S5000x96.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v80) S1x96.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v81) S1x96.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v82) S1x96.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v83) S1x96.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_arg14) S96x64.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v84) S1x64.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v85) S5000x64.size cc8_transform_7 reads8_7 true false 2 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x96 : Shape := ⟨2, ![128, 96]⟩
abbrev S96 : Shape := ⟨1, ![96]⟩
abbrev S96x96 : Shape := ⟨2, ![96, 96]⟩
abbrev S96x64 : Shape := ⟨2, ![96, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x96 : Shape := ⟨2, ![50000, 96]⟩
abbrev S850000x96 : Shape := ⟨2, ![850000, 96]⟩
abbrev S1x96 : Shape := ⟨2, ![1, 96]⟩
abbrev S50000x64 : Shape := ⟨2, ![50000, 64]⟩
abbrev S1x64 : Shape := ⟨2, ![1, 64]⟩
abbrev S50000x1 : Shape := ⟨2, ![50000, 1]⟩

abbrev nBuf : Space → Nat
  | .hbm => 267
  | .vmem => 0
  | .smem => 0
  | _ => 0

abbrev hbmTy0_0 (i : Nat) : BufTy := match i % 128 with
  | 0 => ⟨S50000x128, .f32⟩
  | 1 => ⟨S2x800000, .i32⟩
  | 2 => ⟨S128x96, .f32⟩
  | 3 => ⟨S96, .f32⟩
  | 4 => ⟨S96, .f32⟩
  | 5 => ⟨S96, .f32⟩
  | 6 => ⟨S96x96, .f32⟩
  | 7 => ⟨S96, .f32⟩
  | 8 => ⟨S96, .f32⟩
  | 9 => ⟨S96, .f32⟩
  | 10 => ⟨S96x96, .f32⟩
  | 11 => ⟨S96, .f32⟩
  | 12 => ⟨S96, .f32⟩
  | 13 => ⟨S96, .f32⟩
  | 14 => ⟨S96x64, .f32⟩
  | 15 => ⟨S64, .f32⟩
  | 16 => ⟨S50000, .i32⟩
  | 17 => ⟨S1x800000, .i32⟩
  | 18 => ⟨S800000, .i32⟩
  | 19 => ⟨S850000, .i32⟩
  | 20 => ⟨S1x800000, .i32⟩
  | 21 => ⟨S800000, .i32⟩
  | 22 => ⟨S850000, .i32⟩
  | 23 => ⟨S_, .f32⟩
  | 24 => ⟨S850000, .f32⟩
  | 25 => ⟨S_, .f32⟩
  | 26 => ⟨S50000, .f32⟩
  | 27 => ⟨S850000x1, .i32⟩
  | 28 => ⟨S50000, .f32⟩
  | 29 => ⟨S50000, .f32⟩
  | 30 => ⟨S50000x96, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x96, .f32⟩
  | 59 => ⟨S850000x1, .f32⟩
  | 60 => ⟨S850000x96, .f32⟩
  | 61 => ⟨S850000x96, .f32⟩
  | 62 => ⟨S_, .f32⟩
  | 63 => ⟨S50000x96, .f32⟩
  | 64 => ⟨S850000x1, .i32⟩
  | 65 => ⟨S50000x96, .f32⟩
  | 66 => ⟨S1x96, .f32⟩
  | 67 => ⟨S50000x96, .f32⟩
  | 68 => ⟨S50000x96, .f32⟩
  | 69 => ⟨S_, .f32⟩
  | 70 => ⟨S96, .f32⟩
  | 71 => ⟨S_, .f32⟩
  | 72 => ⟨S96, .f32⟩
  | 73 => ⟨S96, .f32⟩
  | 74 => ⟨S_, .i32⟩
  | 75 => ⟨S_, .f32⟩
  | 76 => ⟨S96, .f32⟩
  | 77 => ⟨S1x96, .f32⟩
  | 78 => ⟨S_, .f32⟩
  | 79 => ⟨S1x96, .f32⟩
  | 80 => ⟨S1x96, .f32⟩
  | 81 => ⟨S50000x96, .f32⟩
  | 82 => ⟨S50000x96, .f32⟩
  | 83 => ⟨S50000x96, .f32⟩
  | 84 => ⟨S_, .f32⟩
  | 85 => ⟨S_, .f32⟩
  | 86 => ⟨S_, .f32⟩
  | 87 => ⟨S_, .f32⟩
  | 88 => ⟨S96, .f32⟩
  | 89 => ⟨S96, .f32⟩
  | 90 => ⟨S96, .f32⟩
  | 91 => ⟨S_, .f32⟩
  | 92 => ⟨S_, .i1⟩
  | 93 => ⟨S_, .f32⟩
  | 94 => ⟨S_, .f32⟩
  | 95 => ⟨S96, .f32⟩
  | 96 => ⟨S96, .f32⟩
  | 97 => ⟨S1x96, .f32⟩
  | 98 => ⟨S50000x96, .f32⟩
  | 99 => ⟨S50000x96, .f32⟩
  | 100 => ⟨S1x96, .f32⟩
  | 101 => ⟨S50000x96, .f32⟩
  | 102 => ⟨S50000x96, .f32⟩
  | 103 => ⟨S_, .f32⟩
  | 104 => ⟨S96, .f32⟩
  | 105 => ⟨S96, .f32⟩
  | 106 => ⟨S96, .f32⟩
  | 107 => ⟨S1x96, .f32⟩
  | 108 => ⟨S50000x96, .f32⟩
  | 109 => ⟨S50000x96, .f32⟩
  | 110 => ⟨S1x96, .f32⟩
  | 111 => ⟨S50000x96, .f32⟩
  | 112 => ⟨S50000x96, .f32⟩
  | 113 => ⟨S_, .f32⟩
  | 114 => ⟨S50000x96, .f32⟩
  | 115 => ⟨S50000x96, .f32⟩
  | 116 => ⟨S50000x96, .f32⟩
  | 117 => ⟨S_, .i32⟩
  | 118 => ⟨S850000, .i32⟩
  | 119 => ⟨S850000, .i1⟩
  | 120 => ⟨S_, .i32⟩
  | 121 => ⟨S850000, .i32⟩
  | 122 => ⟨S850000, .i32⟩
  | 123 => ⟨S850000, .i32⟩
  | 124 => ⟨S850000x1, .i32⟩
  | 125 => ⟨S850000, .f32⟩
  | 126 => ⟨S_, .i32⟩
  | 127 => ⟨S850000, .i32⟩
  | _ => ⟨S50000x128, .f32⟩

abbrev hbmTy0_1 (i : Nat) : BufTy := match i % 128 with
  | 0 => ⟨S850000, .i1⟩
  | 1 => ⟨S_, .i32⟩
  | 2 => ⟨S850000, .i32⟩
  | 3 => ⟨S850000, .i32⟩
  | 4 => ⟨S850000, .i32⟩
  | 5 => ⟨S850000x1, .i32⟩
  | 6 => ⟨S850000, .f32⟩
  | 7 => ⟨S850000, .f32⟩
  | 8 => ⟨S_, .i32⟩
  | 9 => ⟨S850000, .i32⟩
  | 10 => ⟨S850000, .i1⟩
  | 11 => ⟨S_, .i32⟩
  | 12 => ⟨S850000, .i32⟩
  | 13 => ⟨S850000, .i32⟩
  | 14 => ⟨S850000, .i32⟩
  | 15 => ⟨S850000x1, .i32⟩
  | 16 => ⟨S850000x96, .f32⟩
  | 17 => ⟨S850000x1, .f32⟩
  | 18 => ⟨S850000x96, .f32⟩
  | 19 => ⟨S850000x96, .f32⟩
  | 20 => ⟨S_, .f32⟩
  | 21 => ⟨S50000x96, .f32⟩
  | 22 => ⟨S850000x1, .i32⟩
  | 23 => ⟨S50000x96, .f32⟩
  | 24 => ⟨S1x96, .f32⟩
  | 25 => ⟨S50000x96, .f32⟩
  | 26 => ⟨S50000x96, .f32⟩
  | 27 => ⟨S_, .f32⟩
  | 28 => ⟨S96, .f32⟩
  | 29 => ⟨S_, .f32⟩
  | 30 => ⟨S96, .f32⟩
  | 31 => ⟨S96, .f32⟩
  | 32 => ⟨S_, .i32⟩
  | 33 => ⟨S_, .f32⟩
  | 34 => ⟨S96, .f32⟩
  | 35 => ⟨S1x96, .f32⟩
  | 36 => ⟨S_, .f32⟩
  | 37 => ⟨S1x96, .f32⟩
  | 38 => ⟨S1x96, .f32⟩
  | 39 => ⟨S50000x96, .f32⟩
  | 40 => ⟨S50000x96, .f32⟩
  | 41 => ⟨S50000x96, .f32⟩
  | 42 => ⟨S_, .f32⟩
  | 43 => ⟨S_, .f32⟩
  | 44 => ⟨S_, .f32⟩
  | 45 => ⟨S_, .f32⟩
  | 46 => ⟨S96, .f32⟩
  | 47 => ⟨S96, .f32⟩
  | 48 => ⟨S96, .f32⟩
  | 49 => ⟨S_, .f32⟩
  | 50 => ⟨S_, .i1⟩
  | 51 => ⟨S_, .f32⟩
  | 52 => ⟨S_, .f32⟩
  | 53 => ⟨S96, .f32⟩
  | 54 => ⟨S96, .f32⟩
  | 55 => ⟨S1x96, .f32⟩
  | 56 => ⟨S50000x96, .f32⟩
  | 57 => ⟨S50000x96, .f32⟩
  | 58 => ⟨S1x96, .f32⟩
  | 59 => ⟨S50000x96, .f32⟩
  | 60 => ⟨S50000x96, .f32⟩
  | 61 => ⟨S_, .f32⟩
  | 62 => ⟨S96, .f32⟩
  | 63 => ⟨S96, .f32⟩
  | 64 => ⟨S96, .f32⟩
  | 65 => ⟨S1x96, .f32⟩
  | 66 => ⟨S50000x96, .f32⟩
  | 67 => ⟨S50000x96, .f32⟩
  | 68 => ⟨S1x96, .f32⟩
  | 69 => ⟨S50000x96, .f32⟩
  | 70 => ⟨S50000x96, .f32⟩
  | 71 => ⟨S_, .f32⟩
  | 72 => ⟨S50000x96, .f32⟩
  | 73 => ⟨S50000x96, .f32⟩
  | 74 => ⟨S50000x96, .f32⟩
  | 75 => ⟨S1x96, .f32⟩
  | 76 => ⟨S50000x96, .f32⟩
  | 77 => ⟨S50000x96, .f32⟩
  | 78 => ⟨S_, .f32⟩
  | 79 => ⟨S96, .f32⟩
  | 80 => ⟨S_, .f32⟩
  | 81 => ⟨S96, .f32⟩
  | 82 => ⟨S96, .f32⟩
  | 83 => ⟨S_, .i32⟩
  | 84 => ⟨S_, .f32⟩
  | 85 => ⟨S96, .f32⟩
  | 86 => ⟨S1x96, .f32⟩
  | 87 => ⟨S_, .f32⟩
  | 88 => ⟨S1x96, .f32⟩
  | 89 => ⟨S1x96, .f32⟩
  | 90 => ⟨S50000x96, .f32⟩
  | 91 => ⟨S50000x96, .f32⟩
  | 92 => ⟨S50000x96, .f32⟩
  | 93 => ⟨S_, .f32⟩
  | 94 => ⟨S_, .f32⟩
  | 95 => ⟨S_, .f32⟩
  | 96 => ⟨S_, .f32⟩
  | 97 => ⟨S96, .f32⟩
  | 98 => ⟨S96, .f32⟩
  | 99 => ⟨S96, .f32⟩
  | 100 => ⟨S_, .f32⟩
  | 101 => ⟨S_, .i1⟩
  | 102 => ⟨S_, .f32⟩
  | 103 => ⟨S_, .f32⟩
  | 104 => ⟨S96, .f32⟩
  | 105 => ⟨S96, .f32⟩
  | 106 => ⟨S1x96, .f32⟩
  | 107 => ⟨S50000x96, .f32⟩
  | 108 => ⟨S50000x96, .f32⟩
  | 109 => ⟨S1x96, .f32⟩
  | 110 => ⟨S50000x96, .f32⟩
  | 111 => ⟨S50000x96, .f32⟩
  | 112 => ⟨S_, .f32⟩
  | 113 => ⟨S96, .f32⟩
  | 114 => ⟨S96, .f32⟩
  | 115 => ⟨S96, .f32⟩
  | 116 => ⟨S1x96, .f32⟩
  | 117 => ⟨S50000x96, .f32⟩
  | 118 => ⟨S50000x96, .f32⟩
  | 119 => ⟨S1x96, .f32⟩
  | 120 => ⟨S50000x96, .f32⟩
  | 121 => ⟨S50000x96, .f32⟩
  | 122 => ⟨S_, .f32⟩
  | 123 => ⟨S50000x96, .f32⟩
  | 124 => ⟨S50000x96, .f32⟩
  | 125 => ⟨S50000x64, .f32⟩
  | 126 => ⟨S1x64, .f32⟩
  | 127 => ⟨S50000x64, .f32⟩
  | _ => ⟨S50000x128, .f32⟩

abbrev hbmTy0_2 (i : Nat) : BufTy := match i % 128 with
  | 0 => ⟨S50000x64, .f32⟩
  | 1 => ⟨S50000x64, .f32⟩
  | 2 => ⟨S_, .f32⟩
  | 3 => ⟨S50000, .f32⟩
  | 4 => ⟨S50000x1, .f32⟩
  | 5 => ⟨S50000x1, .f32⟩
  | 6 => ⟨S_, .f32⟩
  | 7 => ⟨S50000x1, .f32⟩
  | 8 => ⟨S50000x1, .f32⟩
  | 9 => ⟨S50000x64, .f32⟩
  | 10 => ⟨S50000x64, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_1 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_2 : Ref sig .tc := ⟨.hbm, 40, rfl⟩
abbrev main_v20 : Ref sig .tc := ⟨.hbm, 41, rfl⟩
abbrev main_v21 : Ref sig .tc := ⟨.hbm, 42, rfl⟩
abbrev main_c_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_4 : Ref sig .tc := ⟨.hbm, 50, rfl⟩
abbrev main_v28 : Ref sig .tc := ⟨.hbm, 51, rfl⟩
abbrev main_v29 : Ref sig .tc := ⟨.hbm, 52, rfl⟩
abbrev main_c_5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_6 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_7 : Ref sig .tc := ⟨.hbm, 69, rfl⟩
abbrev main_v44 : Ref sig .tc := ⟨.hbm, 70, rfl⟩
abbrev main_cst_8 : Ref sig .tc := ⟨.hbm, 71, rfl⟩
abbrev main_v45 : Ref sig .tc := ⟨.hbm, 72, rfl⟩
abbrev main_v46 : Ref sig .tc := ⟨.hbm, 73, rfl⟩
abbrev main_c_9 : Ref sig .tc := ⟨.hbm, 74, rfl⟩
abbrev main_call0_cst : Ref sig .tc := ⟨.hbm, 75, rfl⟩
abbrev main_call0_v0 : Ref sig .tc := ⟨.hbm, 76, rfl⟩
abbrev main_call0_v1 : Ref sig .tc := ⟨.hbm, 77, rfl⟩
abbrev main_call0_cst_0 : Ref sig .tc := ⟨.hbm, 78, rfl⟩
abbrev main_call0_v2 : Ref sig .tc := ⟨.hbm, 79, rfl⟩
abbrev main_call0_v3 : Ref sig .tc := ⟨.hbm, 80, rfl⟩
abbrev main_call0_v4 : Ref sig .tc := ⟨.hbm, 81, rfl⟩
abbrev main_call0_v5 : Ref sig .tc := ⟨.hbm, 82, rfl⟩
abbrev main_call0_v6 : Ref sig .tc := ⟨.hbm, 83, rfl⟩
abbrev main_call0_v7 : Ref sig .tc := ⟨.hbm, 84, rfl⟩
abbrev main_call0_cst_1 : Ref sig .tc := ⟨.hbm, 85, rfl⟩
abbrev main_call0_v8 : Ref sig .tc := ⟨.hbm, 86, rfl⟩
abbrev main_call0_cst_2 : Ref sig .tc := ⟨.hbm, 87, rfl⟩
abbrev main_call0_v9 : Ref sig .tc := ⟨.hbm, 88, rfl⟩
abbrev main_call0_v10 : Ref sig .tc := ⟨.hbm, 89, rfl⟩
abbrev main_call0_v11 : Ref sig .tc := ⟨.hbm, 90, rfl⟩
abbrev main_call0_cst_3 : Ref sig .tc := ⟨.hbm, 91, rfl⟩
abbrev main_call0_v12 : Ref sig .tc := ⟨.hbm, 92, rfl⟩
abbrev main_call0_cst_4 : Ref sig .tc := ⟨.hbm, 93, rfl⟩
abbrev main_call0_call0_v0 : Ref sig .tc := ⟨.hbm, 94, rfl⟩
abbrev main_call0_call0_v1 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_cst_10 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_call1_cst : Ref sig .tc := ⟨.hbm, 113, rfl⟩
abbrev main_call1_v0 : Ref sig .tc := ⟨.hbm, 114, rfl⟩
abbrev main_v63 : Ref sig .tc := ⟨.hbm, 115, rfl⟩
abbrev main_v64 : Ref sig .tc := ⟨.hbm, 116, rfl⟩
abbrev main_c_11 : Ref sig .tc := ⟨.hbm, 117, rfl⟩
abbrev main_v65 : Ref sig .tc := ⟨.hbm, 118, rfl⟩
abbrev main_v66 : Ref sig .tc := ⟨.hbm, 119, rfl⟩
abbrev main_c_12 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_c_13 : Ref sig .tc := ⟨.hbm, 126, rfl⟩
abbrev main_v72 : Ref sig .tc := ⟨.hbm, 127, rfl⟩
abbrev main_v73 : Ref sig .tc := ⟨.hbm, 128, rfl⟩
abbrev main_c_14 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_c_15 : Ref sig .tc := ⟨.hbm, 136, rfl⟩
abbrev main_v80 : Ref sig .tc := ⟨.hbm, 137, rfl⟩
abbrev main_v81 : Ref sig .tc := ⟨.hbm, 138, rfl⟩
abbrev main_c_16 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_cst_17 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_cst_18 : Ref sig .tc := ⟨.hbm, 155, rfl⟩
abbrev main_v96 : Ref sig .tc := ⟨.hbm, 156, rfl⟩
abbrev main_cst_19 : Ref sig .tc := ⟨.hbm, 157, rfl⟩
abbrev main_v97 : Ref sig .tc := ⟨.hbm, 158, rfl⟩
abbrev main_v98 : Ref sig .tc := ⟨.hbm, 159, rfl⟩
abbrev main_c_20 : Ref sig .tc := ⟨.hbm, 160, rfl⟩
abbrev main_call2_cst : Ref sig .tc := ⟨.hbm, 161, rfl⟩
abbrev main_call2_v0 : Ref sig .tc := ⟨.hbm, 162, rfl⟩
abbrev main_call2_v1 : Ref sig .tc := ⟨.hbm, 163, rfl⟩
abbrev main_call2_cst_0 : Ref sig .tc := ⟨.hbm, 164, rfl⟩
abbrev main_call2_v2 : Ref sig .tc := ⟨.hbm, 165, rfl⟩
abbrev main_call2_v3 : Ref sig .tc := ⟨.hbm, 166, rfl⟩
abbrev main_call2_v4 : Ref sig .tc := ⟨.hbm, 167, rfl⟩
abbrev main_call2_v5 : Ref sig .tc := ⟨.hbm, 168, rfl⟩
abbrev main_call2_v6 : Ref sig .tc := ⟨.hbm, 169, rfl⟩
abbrev main_call2_v7 : Ref sig .tc := ⟨.hbm, 170, rfl⟩
abbrev main_call2_cst_1 : Ref sig .tc := ⟨.hbm, 171, rfl⟩
abbrev main_call2_v8 : Ref sig .tc := ⟨.hbm, 172, rfl⟩
abbrev main_call2_cst_2 : Ref sig .tc := ⟨.hbm, 173, rfl⟩
abbrev main_call2_v9 : Ref sig .tc := ⟨.hbm, 174, rfl⟩
abbrev main_call2_v10 : Ref sig .tc := ⟨.hbm, 175, rfl⟩
abbrev main_call2_v11 : Ref sig .tc := ⟨.hbm, 176, rfl⟩
abbrev main_call2_cst_3 : Ref sig .tc := ⟨.hbm, 177, rfl⟩
abbrev main_call2_v12 : Ref sig .tc := ⟨.hbm, 178, rfl⟩
abbrev main_call2_cst_4 : Ref sig .tc := ⟨.hbm, 179, rfl⟩
abbrev main_call2_call0_v0 : Ref sig .tc := ⟨.hbm, 180, rfl⟩
abbrev main_call2_call0_v1 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_v104 : Ref sig .tc := ⟨.hbm, 187, rfl⟩
abbrev main_v105 : Ref sig .tc := ⟨.hbm, 188, rfl⟩
abbrev main_cst_21 : Ref sig .tc := ⟨.hbm, 189, rfl⟩
abbrev main_v106 : Ref sig .tc := ⟨.hbm, 190, rfl⟩
abbrev main_v107 : Ref sig .tc := ⟨.hbm, 191, rfl⟩
abbrev main_v108 : Ref sig .tc := ⟨.hbm, 192, rfl⟩
abbrev main_v109 : Ref sig .tc := ⟨.hbm, 193, rfl⟩
abbrev main_v110 : Ref sig .tc := ⟨.hbm, 194, rfl⟩
abbrev main_v111 : Ref sig .tc := ⟨.hbm, 195, rfl⟩
abbrev main_v112 : Ref sig .tc := ⟨.hbm, 196, rfl⟩
abbrev main_v113 : Ref sig .tc := ⟨.hbm, 197, rfl⟩
abbrev main_v114 : Ref sig .tc := ⟨.hbm, 198, rfl⟩
abbrev main_call3_cst : Ref sig .tc := ⟨.hbm, 199, rfl⟩
abbrev main_call3_v0 : Ref sig .tc := ⟨.hbm, 200, rfl⟩
abbrev main_v115 : Ref sig .tc := ⟨.hbm, 201, rfl⟩
abbrev main_v116 : Ref sig .tc := ⟨.hbm, 202, rfl⟩
abbrev main_v117 : Ref sig .tc := ⟨.hbm, 203, rfl⟩
abbrev main_v118 : Ref sig .tc := ⟨.hbm, 204, rfl⟩
abbrev main_v119 : Ref sig .tc := ⟨.hbm, 205, rfl⟩
abbrev main_cst_22 : Ref sig .tc := ⟨.hbm, 206, rfl⟩
abbrev main_v120 : Ref sig .tc := ⟨.hbm, 207, rfl⟩
abbrev main_cst_23 : Ref sig .tc := ⟨.hbm, 208, rfl⟩
abbrev main_v121 : Ref sig .tc := ⟨.hbm, 209, rfl⟩
abbrev main_v122 : Ref sig .tc := ⟨.hbm, 210, rfl⟩
abbrev main_c_24 : Ref sig .tc := ⟨.hbm, 211, rfl⟩
abbrev main_call4_cst : Ref sig .tc := ⟨.hbm, 212, rfl⟩
abbrev main_call4_v0 : Ref sig .tc := ⟨.hbm, 213, rfl⟩
abbrev main_call4_v1 : Ref sig .tc := ⟨.hbm, 214, rfl⟩
abbrev main_call4_cst_0 : Ref sig .tc := ⟨.hbm, 215, rfl⟩
abbrev main_call4_v2 : Ref sig .tc := ⟨.hbm, 216, rfl⟩
abbrev main_call4_v3 : Ref sig .tc := ⟨.hbm, 217, rfl⟩
abbrev main_call4_v4 : Ref sig .tc := ⟨.hbm, 218, rfl⟩
abbrev main_call4_v5 : Ref sig .tc := ⟨.hbm, 219, rfl⟩
abbrev main_call4_v6 : Ref sig .tc := ⟨.hbm, 220, rfl⟩
abbrev main_call4_v7 : Ref sig .tc := ⟨.hbm, 221, rfl⟩
abbrev main_call4_cst_1 : Ref sig .tc := ⟨.hbm, 222, rfl⟩
abbrev main_call4_v8 : Ref sig .tc := ⟨.hbm, 223, rfl⟩
abbrev main_call4_cst_2 : Ref sig .tc := ⟨.hbm, 224, rfl⟩
abbrev main_call4_v9 : Ref sig .tc := ⟨.hbm, 225, rfl⟩
abbrev main_call4_v10 : Ref sig .tc := ⟨.hbm, 226, rfl⟩
abbrev main_call4_v11 : Ref sig .tc := ⟨.hbm, 227, rfl⟩
abbrev main_call4_cst_3 : Ref sig .tc := ⟨.hbm, 228, rfl⟩
abbrev main_call4_v12 : Ref sig .tc := ⟨.hbm, 229, rfl⟩
abbrev main_call4_cst_4 : Ref sig .tc := ⟨.hbm, 230, rfl⟩
abbrev main_call4_call0_v0 : Ref sig .tc := ⟨.hbm, 231, rfl⟩
abbrev main_call4_call0_v1 : Ref sig .tc := ⟨.hbm, 232, rfl⟩
abbrev main_v123 : Ref sig .tc := ⟨.hbm, 233, rfl⟩
abbrev main_v124 : Ref sig .tc := ⟨.hbm, 234, rfl⟩
abbrev main_v125 : Ref sig .tc := ⟨.hbm, 235, rfl⟩
abbrev main_v126 : Ref sig .tc := ⟨.hbm, 236, rfl⟩
abbrev main_v127 : Ref sig .tc := ⟨.hbm, 237, rfl⟩
abbrev main_v128 : Ref sig .tc := ⟨.hbm, 238, rfl⟩
abbrev main_v129 : Ref sig .tc := ⟨.hbm, 239, rfl⟩
abbrev main_cst_25 : Ref sig .tc := ⟨.hbm, 240, rfl⟩
abbrev main_v130 : Ref sig .tc := ⟨.hbm, 241, rfl⟩
abbrev main_v131 : Ref sig .tc := ⟨.hbm, 242, rfl⟩
abbrev main_v132 : Ref sig .tc := ⟨.hbm, 243, rfl⟩
abbrev main_v133 : Ref sig .tc := ⟨.hbm, 244, rfl⟩
abbrev main_v134 : Ref sig .tc := ⟨.hbm, 245, rfl⟩
abbrev main_v135 : Ref sig .tc := ⟨.hbm, 246, rfl⟩
abbrev main_v136 : Ref sig .tc := ⟨.hbm, 247, rfl⟩
abbrev main_v137 : Ref sig .tc := ⟨.hbm, 248, rfl⟩
abbrev main_v138 : Ref sig .tc := ⟨.hbm, 249, rfl⟩
abbrev main_call5_cst : Ref sig .tc := ⟨.hbm, 250, rfl⟩
abbrev main_call5_v0 : Ref sig .tc := ⟨.hbm, 251, rfl⟩
abbrev main_v139 : Ref sig .tc := ⟨.hbm, 252, rfl⟩
abbrev main_v140 : Ref sig .tc := ⟨.hbm, 253, rfl⟩
abbrev main_v141 : Ref sig .tc := ⟨.hbm, 254, rfl⟩
abbrev main_v142 : Ref sig .tc := ⟨.hbm, 255, rfl⟩
abbrev main_v143 : Ref sig .tc := ⟨.hbm, 256, rfl⟩
abbrev main_call6_v0 : Ref sig .tc := ⟨.hbm, 257, rfl⟩
abbrev main_call6_cst : Ref sig .tc := ⟨.hbm, 258, rfl⟩
abbrev main_call6_v1 : Ref sig .tc := ⟨.hbm, 259, rfl⟩
abbrev main_call6_v2 : Ref sig .tc := ⟨.hbm, 260, rfl⟩
abbrev main_v144 : Ref sig .tc := ⟨.hbm, 261, rfl⟩
abbrev main_cst_26 : Ref sig .tc := ⟨.hbm, 262, rfl⟩
abbrev main_v145 : Ref sig .tc := ⟨.hbm, 263, rfl⟩
abbrev main_v146 : Ref sig .tc := ⟨.hbm, 264, rfl⟩
abbrev main_v147 : Ref sig .tc := ⟨.hbm, 265, rfl⟩
abbrev main_v148 : Ref sig .tc := ⟨.hbm, 266, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  reducesTo_S50000x96_S96_d0 : S50000x96.ReducesTo [0] S96
  h_S_ : 0 < S_.numel
  bcast_S_S96 : S_.BroadcastsInDim S96 (![] : Fin 0 → Fin S96.rank)
  bcast_S_S1x96 : S_.BroadcastsInDim S1x96 (![] : Fin 0 → Fin S1x96.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  scatter_S50000_S850000x1_S850000_n_0_0_1_wf : ScatterDims.WF S50000 S850000x1 S850000 [] [0] [0] 1
  dot_S50000x128_S128x96_S50000x96_1_0_0_1_n_n_wf : DotDims.WF S50000x128 S128x96 S50000x96 [1] [0] [0] [1] [] []
  gather_S50000_S850000x1_S850000_n_0_n_n_0_1_1_wf : GatherDims.WF S50000 S850000x1 S850000 [] [0] [] [0] [] 1 ![1]
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S50000x96_S96x96_S50000x96_1_0_0_1_n_n_wf : DotDims.WF S50000x96 S96x96 S50000x96 [1] [0] [0] [1] [] []
  dot_S50000x96_S96x64_S50000x64_1_0_0_1_n_n_wf : DotDims.WF S50000x96 S96x64 S50000x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x128_S128x96_S50000x96_1_0_0_1_n_n : DotDims S50000x128 S128x96 S50000x96 where
  lhsContracting := [1]
  rhsContracting := [0]
  lhsNonContracting := [0]
  rhsNonContracting := [1]
  lhsBatch := []
  rhsBatch := []
  wf := dot_S50000x128_S128x96_S50000x96_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def dot_S50000x96_S96x64_S50000x64_1_0_0_1_n_n : DotDims S50000x96 S96x64 S50000x64 where
  lhsContracting := [1]
  rhsContracting := [0]
  lhsNonContracting := [0]
  rhsNonContracting := [1]
  lhsBatch := []
  rhsBatch := []
  wf := dot_S50000x96_S96x64_S50000x64_1_0_0_1_n_n_wf

class Facts : Prop extends Facts₀ where

variable [Facts]
-- ==== Proof.K.BodyA0.lean ====
/- Region 0 of the program, at any float model: the body run on one grid point. Every input window's block is
   read whole and the one output window's block is written whole, once: a row tile of the features (window 0) times the weight matrix (window 1), both rounded to bf16, each row scaled by its entry of the column vector (window 2), rounded to bf16.
   Stated at a parameter `V`, the buffer contents when the region is entered: each window's block at a point, what
   the body leaves in the output window's buffer as a function of the input blocks, the body's triple on whole staging
   buffers, the pipeline's proof data and the body obligation at every point. -/
import proofs.«115743_j55052890800725_2_alg».proof.Proof.Gen.Kernel.Launch
import proofs.«115743_j55052890800725_2_alg».proof.Proof.Gen.Kernel.Skeleton
import proofs.«115743_j55052890800725_2_alg».proof.Proof.Gen.Kernel.Points
import Idealize.ShloMosaic.Lib.Pipeline.FrameBody
import Idealize.ShloMosaic.Lib.Ring
import Idealize.ShloMosaic.Lib.Tactic

-- membership in a rectangle of long extents is decided by a structural recursion, one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (when it is not
    fetched its block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not (when it is not
    fetched its block index has not moved), for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not (when it is not
    fetched its block index has not moved), for any proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each window's whole block -/

abbrev r0_0 : Rect S5000x128 := Rect.unit (s := S5000x128) ![0, 0] S5000x128.size inb_S5000x128_S5000x128_0_0
abbrev r0_1 : Rect S128x96 := Rect.unit (s := S128x96) ![0, 0] S128x96.size inb_S128x96_S128x96_0_0
abbrev r0_2 : Rect S5000x1 := Rect.unit (s := S5000x1) ![0, 0] S5000x1.size inb_S5000x1_S5000x1_0_0
abbrev r0_3 : Rect S5000x96 := Rect.unit (s := S5000x96) ![0, 0] S5000x96.size inb_S5000x96_S5000x96_0_0

/-! ## What the body leaves in the output window's buffer -/

/-- Window 3's staging buffer after the body, from the input windows' blocks: the one store, of the whole block. -/
def out0_3 (x0 : Vec F S5000x128 .f32) (x1 : Vec F S128x96 .f32) (x2 : Vec F S5000x1 .f32) : Vec F S5000x96 .bf16 :=
  View.canon [⟨r0_3, k0_pay1 (View.ld x0 r0_0) (View.ld x1 r0_1) (View.ld x2 r0_2)⟩]

/-- The one store covers the buffer. -/
theorem cover0_3 (p0 : Vec F S5000x96 .bf16) (y : S5000x96.Idx) :
    ∃ pc ∈ ([⟨r0_3, p0⟩] : List (View.Piece (Elt F) S5000x96 .bf16)), y ∈ pc.1.set :=
  View.cover_of_tiled [⟨r0_3, p0⟩] S5000x96.size (by rfl) y

/-! ## The body's triple -/

set_option maxHeartbeats 1000000 in
/-- The body on whole staging buffers, the inputs' at contents `xW` and the output's at anything (the body reads it
    before overwriting it), runs to the continuation holding the inputs' as they were and the output's at `out0_3` of
    the inputs'. -/
theorem sound_kernel0 (c : Dev nD) (E : Set ℕ) (i : grid0.Coords) (arg1 : Memref sig .tc .vmem S5000x128 .f32) (harg1 : arg1.IsWhole) (arg2 : Memref sig .tc .vmem S128x96 .f32) (harg2 : arg2.IsWhole) (arg3 : Memref sig .tc .vmem S5000x1 .f32) (harg3 : arg3.IsWhole) (arg4 : Memref sig .tc .vmem S5000x96 .bf16) (harg4 : arg4.IsWhole)
    (x0 : Vec F S5000x128 .f32) (x1 : Vec F S128x96 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__matmul_prescale_kernel i arg1 harg1 arg2 harg2 arg3 harg3 arg4 harg4) K := by
  simp only [cc0__matmul_prescale_kernel_eq_skeleton]; unfold cc0__matmul_prescale_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the region's pipeline on core `c`: the arrays as the region finds them; after the body at point
    `t` each input's buffer at its block and the output's at `out0_3` of the input blocks; the invariant keeps
    everything else untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `sound_kernel0` applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.BodyA2.lean ====
/- Region 2 of the program, at any float model: the body run on one grid point. Every input window's block is
   read whole and the one output window's block is written whole, once: a row tile (window 0) scaled per row (window 1) plus the bias row (window 2), centred at the mean row (window 5), scaled by the gain row (window 3) and by the reciprocal square root of the variance row (window 6) plus epsilon, plus the shift row (window 4), clamped below at zero, rounded to bf16.
   Stated at a parameter `V`, the buffer contents when the region is entered: each window's block at a point, what
   the body leaves in the output window's buffer as a function of the input blocks, the body's triple on whole staging
   buffers, the pipeline's proof data and the body obligation at every point. -/
import proofs.«115743_j55052890800725_2_alg».proof.Proof.Gen.Kernel.Launch
import proofs.«115743_j55052890800725_2_alg».proof.Proof.Gen.Kernel.Skeleton
import proofs.«115743_j55052890800725_2_alg».proof.Proof.Gen.Kernel.Points
import Idealize.ShloMosaic.Lib.Pipeline.FrameBody
import Idealize.ShloMosaic.Lib.Ring
import Idealize.ShloMosaic.Lib.Tactic

-- membership in a rectangle of long extents is decided by a structural recursion, one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (when it is not
    fetched its block index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not (when it is not
    fetched its block index has not moved), for any proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not (when it is not
    fetched its block index has not moved), for any proof data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not (when it is not
    fetched its block index has not moved), for any proof data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not (when it is not
    fetched its block index has not moved), for any proof data whose array is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not (when it is not
    fetched its block index has not moved), for any proof data whose array is `V`'s and whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not (when it is not
    fetched its block index has not moved), for any proof data whose array is `V`'s and whose body leaves the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each window's whole block -/

abbrev r2_0 : Rect S5000x96 := Rect.unit (s := S5000x96) ![0, 0] S5000x96.size inb_S5000x96_S5000x96_0_0
abbrev r2_1 : Rect S5000x1 := Rect.unit (s := S5000x1) ![0, 0] S5000x1.size inb_S5000x1_S5000x1_0_0
abbrev r2_2 : Rect S1x96 := Rect.unit (s := S1x96) ![0, 0] S1x96.size inb_S1x96_S1x96_0_0
abbrev r2_3 : Rect S1x96 := Rect.unit (s := S1x96) ![0, 0] S1x96.size inb_S1x96_S1x96_0_0
abbrev r2_4 : Rect S1x96 := Rect.unit (s := S1x96) ![0, 0] S1x96.size inb_S1x96_S1x96_0_0
abbrev r2_5 : Rect S1x96 := Rect.unit (s := S1x96) ![0, 0] S1x96.size inb_S1x96_S1x96_0_0
abbrev r2_6 : Rect S1x96 := Rect.unit (s := S1x96) ![0, 0] S1x96.size inb_S1x96_S1x96_0_0
abbrev r2_7 : Rect S5000x96 := Rect.unit (s := S5000x96) ![0, 0] S5000x96.size inb_S5000x96_S5000x96_0_0

/-! ## What the body leaves in the output window's buffer -/

/-- Window 7's staging buffer after the body, from the input windows' blocks: the one store, of the whole block. -/
def out2_7 (x0 : Vec F S5000x96 .f32) (x1 : Vec F S5000x1 .f32) (x2 : Vec F S1x96 .f32) (x3 : Vec F S1x96 .f32) (x4 : Vec F S1x96 .f32) (x5 : Vec F S1x96 .f32) (x6 : Vec F S1x96 .f32) : Vec F S5000x96 .bf16 :=
  View.canon [⟨r2_7, k2_pay1 (View.ld x0 r2_0) (View.ld x1 r2_1) (View.ld x2 r2_2) (View.ld x6 r2_6) (View.ld x3 r2_3) (View.ld x5 r2_5) (View.ld x4 r2_4)⟩]

/-- The one store covers the buffer. -/
theorem cover2_7 (p0 : Vec F S5000x96 .bf16) (y : S5000x96.Idx) :
    ∃ pc ∈ ([⟨r2_7, p0⟩] : List (View.Piece (Elt F) S5000x96 .bf16)), y ∈ pc.1.set :=
  View.cover_of_tiled [⟨r2_7, p0⟩] S5000x96.size (by rfl) y

/-! ## The body's triple -/

set_option maxHeartbeats 1000000 in
/-- The body on whole staging buffers, the inputs' at contents `xW` and the output's at anything (the body reads it
    before overwriting it), runs to the continuation holding the inputs' as they were and the output's at `out2_7` of
    the inputs'. -/
theorem sound_kernel2 (c : Dev nD) (E : Set ℕ) (i : grid2.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (arg8 : Memref sig .tc .vmem S5000x96 .bf16) (harg8 : arg8.IsWhole)
    (x0 : Vec F S5000x96 .f32) (x1 : Vec F S5000x1 .f32) (x2 : Vec F S1x96 .f32) (x3 : Vec F S1x96 .f32) (x4 : Vec F S1x96 .f32) (x5 : Vec F S1x96 .f32) (x6 : Vec F S1x96 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E (cc2__bn_norm_relu_prescale_kernel i arg1 harg1 arg2 harg2 arg3 harg3 arg4 harg4 arg5 harg5 arg6 harg6 arg7 harg7 arg8 harg8) K := by
  simp only [cc2__bn_norm_relu_prescale_kernel_eq_skeleton]; unfold cc2__bn_norm_relu_prescale_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The pipeline's proof data -/

/-- The proof data of the region's pipeline on core `c`: the arrays as the region finds them; after the body at point
    `t` each input's buffer at its block and the output's at `out2_7` of the input blocks; the invariant keeps
    everything else untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' buffers hold their blocks, so `sound_kernel2` applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.BodyA3.lean ====
/- Region 3 of the program, at any float model: the body run on one grid point. Every input window's block is
   read whole and the one output window's block is written whole, once: a bf16 row tile (window 0) times the weight matrix (window 1) rounded to bf16, each row scaled by its entry of the column vector (window 2), rounded to bf16.
   Stated at a parameter `V`, the buffer contents when the region is entered: each window's block at a point, what
   the body leaves in the output window's buffer as a function of the input blocks, the body's triple on whole staging
   buffers, the pipeline's proof data and the body obligation at every point. -/
import proofs.«115743_j55052890800725_2_alg».proof.Proof.Gen.Kernel.Launch
import proofs.«115743_j55052890800725_2_alg».proof.Proof.Gen.Kernel.Skeleton
import proofs.«115743_j55052890800725_2_alg».proof.Proof.Gen.Kernel.Points
import Idealize.ShloMosaic.Lib.Pipeline.FrameBody
import Idealize.ShloMosaic.Lib.Ring
import Idealize.ShloMosaic.Lib.Tactic

-- membership in a rectangle of long extents is decided by a structural recursion, one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not (when it is not
    fetched its block index has not moved), for any proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not (when it is not
    fetched its block index has not moved), for any proof data whose array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not (when it is not
    fetched its block index has not moved), for any proof data whose array is `V`'s and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each window's whole block -/

abbrev r3_0 : Rect S5000x96 := Rect.unit (s := S5000x96) ![0, 0] S5000x96.size inb_S5000x96_S5000x96_0_0
abbrev r3_1 : Rect S96x96 := Rect.unit (s := S96x96) ![0, 0] S96x96.size inb_S96x96_S96x96_0_0
abbrev r3_2 : Rect S5000x1 := Rect.unit (s := S5000x1) ![0, 0] S5000x1.size inb_S5000x1_S5000x1_0_0
abbrev r3_3 : Rect S5000x96 := Rect.unit (s := S5000x96) ![0, 0] S5000x96.size inb_S5000x96_S5000x96_0_0

/-! ## What the body leaves in the output window's buffer -/

/-- Window 3's staging buffer after the body, from the input windows' blocks: the one store, of the whole block. -/
def out3_3 (x0 : Vec F S5000x96 .bf16) (x1 : Vec F S96x96 .f32) (x2 : Vec F S5000x1 .f32) : Vec F S5000x96 .bf16 :=
  View.canon [⟨r3_3, k3_pay1 (View.ld x0 r3_0) (View.ld x1 r3_1) (View.ld x2 r3_2)⟩]

/-- The one store covers the buffer. -/
theorem cover3_3 (p0 : Vec F S5000x96 .bf16) (y : S5000x96.Idx) :
    ∃ pc ∈ ([⟨r3_3, p0⟩] : List (View.Piece (Elt F) S5000x96 .bf16)), y ∈ pc.1.set :=
  View.cover_of_tiled [⟨r3_3, p0⟩] S5000x96.size (by rfl) y

/-! ## The body's triple -/

set_option maxHeartbeats 1000000 in
/-- The body on whole staging buffers, the inputs' at contents `xW` and the output's at anything (the body reads it
    before overwriting it), runs to the continuation holding the inputs' as they were and the output's at `out3_3` of
    the inputs'. -/
theorem sound_kernel3 (c : Dev nD) (E : Set ℕ) (i : grid3.Coords) (arg1 : Memref sig .tc .vmem S5000x96 .bf16) (harg1 : arg1.IsWhole) (arg2 : Memref sig .tc .vmem S96x96 .f32) (harg2 : arg2.IsWhole) (arg3 : Memref sig .tc .vmem S5000x1 .f32) (harg3 : arg3.IsWhole) (arg4 : Memref sig .tc .vmem S5000x96 .bf16) (harg4 : arg4.IsWhole)
    (x0 : Vec F S5000x96 .bf16) (x1 : Vec F S96x96 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__matmul_prescale_kernel i arg1 harg1 arg2 harg2 arg3 harg3 arg4 harg4) K := by
  simp only [cc3__matmul_prescale_kernel_eq_skeleton]; unfold cc3__matmul_prescale_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of the region's pipeline on core `c`: the arrays as the region finds them; after the body at point
    `t` each input's buffer at its block and the output's at `out3_3` of the input blocks; the invariant keeps
    everything else untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so `sound_kernel3` applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.BodyA5.lean ====
/- Region 5 of the program, at any float model: the body run on one grid point. Every input window's block is
   read whole and the one output window's block is written whole, once: a row tile (window 0) scaled per row (window 1) plus the bias row (window 2), centred at the mean row (window 5), scaled by the gain row (window 3) and by the reciprocal square root of the variance row (window 6) plus epsilon, plus the shift row (window 4), clamped below at zero, rounded to bf16.
   Stated at a parameter `V`, the buffer contents when the region is entered: each window's block at a point, what
   the body leaves in the output window's buffer as a function of the input blocks, the body's triple on whole staging
   buffers, the pipeline's proof data and the body obligation at every point. -/
import proofs.«115743_j55052890800725_2_alg».proof.Proof.Gen.Kernel.Launch
import proofs.«115743_j55052890800725_2_alg».proof.Proof.Gen.Kernel.Skeleton
import proofs.«115743_j55052890800725_2_alg».proof.Proof.Gen.Kernel.Points
import Idealize.ShloMosaic.Lib.Pipeline.FrameBody
import Idealize.ShloMosaic.Lib.Ring
import Idealize.ShloMosaic.Lib.Tactic

-- membership in a rectangle of long extents is decided by a structural recursion, one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not (when it is not
    fetched its block index has not moved), for any proof data whose array is `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, fetched there or not (when it is not
    fetched its block index has not moved), for any proof data whose array is `V`'s and whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, fetched there or not (when it is not
    fetched its block index has not moved), for any proof data whose array is `V`'s and whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's current staging buffer holds its block at every point, fetched there or not (when it is not
    fetched its block index has not moved), for any proof data whose array is `V`'s and whose body leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4's current staging buffer holds its block at every point, fetched there or not (when it is not
    fetched its block index has not moved), for any proof data whose array is `V`'s and whose body leaves the block in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
/-- Input window 5's current staging buffer holds its block at every point, fetched there or not (when it is not
    fetched its block index has not moved), for any proof data whose array is `V`'s and whose body leaves the block in place. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
/-- Input window 6's current staging buffer holds its block at every point, fetched there or not (when it is not
    fetched its block index has not moved), for any proof data whose array is `V`'s and whose body leaves the block in place. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each window's whole block -/

abbrev r5_0 : Rect S5000x96 := Rect.unit (s := S5000x96) ![0, 0] S5000x96.size inb_S5000x96_S5000x96_0_0
abbrev r5_1 : Rect S5000x1 := Rect.unit (s := S5000x1) ![0, 0] S5000x1.size inb_S5000x1_S5000x1_0_0
abbrev r5_2 : Rect S1x96 := Rect.unit (s := S1x96) ![0, 0] S1x96.size inb_S1x96_S1x96_0_0
abbrev r5_3 : Rect S1x96 := Rect.unit (s := S1x96) ![0, 0] S1x96.size inb_S1x96_S1x96_0_0
abbrev r5_4 : Rect S1x96 := Rect.unit (s := S1x96) ![0, 0] S1x96.size inb_S1x96_S1x96_0_0
abbrev r5_5 : Rect S1x96 := Rect.unit (s := S1x96) ![0, 0] S1x96.size inb_S1x96_S1x96_0_0
abbrev r5_6 : Rect S1x96 := Rect.unit (s := S1x96) ![0, 0] S1x96.size inb_S1x96_S1x96_0_0
abbrev r5_7 : Rect S5000x96 := Rect.unit (s := S5000x96) ![0, 0] S5000x96.size inb_S5000x96_S5000x96_0_0

/-! ## What the body leaves in the output window's buffer -/

/-- Window 7's staging buffer after the body, from the input windows' blocks: the one store, of the whole block. -/
def out5_7 (x0 : Vec F S5000x96 .f32) (x1 : Vec F S5000x1 .f32) (x2 : Vec F S1x96 .f32) (x3 : Vec F S1x96 .f32) (x4 : Vec F S1x96 .f32) (x5 : Vec F S1x96 .f32) (x6 : Vec F S1x96 .f32) : Vec F S5000x96 .bf16 :=
  View.canon [⟨r5_7, k5_pay1 (View.ld x0 r5_0) (View.ld x1 r5_1) (View.ld x2 r5_2) (View.ld x6 r5_6) (View.ld x3 r5_3) (View.ld x5 r5_5) (View.ld x4 r5_4)⟩]

/-- The one store covers the buffer. -/
theorem cover5_7 (p0 : Vec F S5000x96 .bf16) (y : S5000x96.Idx) :
    ∃ pc ∈ ([⟨r5_7, p0⟩] : List (View.Piece (Elt F) S5000x96 .bf16)), y ∈ pc.1.set :=
  View.cover_of_tiled [⟨r5_7, p0⟩] S5000x96.size (by rfl) y

/-! ## The body's triple -/

set_option maxHeartbeats 1000000 in
/-- The body on whole staging buffers, the inputs' at contents `xW` and the output's at anything (the body reads it
    before overwriting it), runs to the continuation holding the inputs' as they were and the output's at `out5_7` of
    the inputs'. -/
theorem sound_kernel5 (c : Dev nD) (E : Set ℕ) (i : grid5.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (arg8 : Memref sig .tc .vmem S5000x96 .bf16) (harg8 : arg8.IsWhole)
    (x0 : Vec F S5000x96 .f32) (x1 : Vec F S5000x1 .f32) (x2 : Vec F S1x96 .f32) (x3 : Vec F S1x96 .f32) (x4 : Vec F S1x96 .f32) (x5 : Vec F S1x96 .f32) (x6 : Vec F S1x96 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out5_7 x0 x1 x2 x3 x4 x5 x6)) -∗ K ⟨⟩))
      ⊢ wp frame (wpE (defs₀ (F := F)) Variants.none c none) E (cc5__bn_norm_relu_prescale_kernel i arg1 harg1 arg2 harg2 arg3 harg3 arg4 harg4 arg5 harg5 arg6 harg6 arg7 harg7 arg8 harg8) K := by
  simp only [cc5__bn_norm_relu_prescale_kernel_eq_skeleton]; unfold cc5__bn_norm_relu_prescale_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover5_7 _)

/-! ## The pipeline's proof data -/

/-- The proof data of the region's pipeline on core `c`: the arrays as the region finds them; after the body at point
    `t` each input's buffer at its block and the output's at `out5_7` of the input blocks; the invariant keeps
    everything else untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) (iblk5 V c 6 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

/-- The body at any point: the inputs' buffers hold their blocks, so `sound_kernel5` applies; the invariant and what
    the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ (grid5.coords t) _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.BodyA6.lean ====
/- Region 6 of the program, at any float model: the body run on one grid point. Every input window's block is
   read whole and the one output window's block is written whole, once: a bf16 row tile (window 0) times the weight matrix (window 1) rounded to bf16, plus the bias row (window 2).
   Stated at a parameter `V`, the buffer contents when the region is entered: each window's block at a point, what
   the body leaves in the output window's buffer as a function of the input blocks, the body's triple on whole staging
   buffers, the pipeline's proof data and the body obligation at every point. -/
import proofs.«115743_j55052890800725_2_alg».proof.Proof.Gen.Kernel.Launch
import proofs.«115743_j55052890800725_2_alg».proof.Proof.Gen.Kernel.Skeleton
import proofs.«115743_j55052890800725_2_alg».proof.Proof.Gen.Kernel.Points
import Idealize.ShloMosaic.Lib.Pipeline.FrameBody
import Idealize.ShloMosaic.Lib.Ring
import Idealize.ShloMosaic.Lib.Tactic

-- membership in a rectangle of long extents is decided by a structural recursion, one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not (when it is not
    fetched its block index has not moved), for any proof data whose array is `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1's current staging buffer holds its block at every point, fetched there or not (when it is not
    fetched its block index has not moved), for any proof data whose array is `V`'s and whose body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2's current staging buffer holds its block at every point, fetched there or not (when it is not
    fetched its block index has not moved), for any proof data whose array is `V`'s and whose body leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each window's whole block -/

abbrev r6_0 : Rect S5000x96 := Rect.unit (s := S5000x96) ![0, 0] S5000x96.size inb_S5000x96_S5000x96_0_0
abbrev r6_1 : Rect S96x96 := Rect.unit (s := S96x96) ![0, 0] S96x96.size inb_S96x96_S96x96_0_0
abbrev r6_2 : Rect S1x96 := Rect.unit (s := S1x96) ![0, 0] S1x96.size inb_S1x96_S1x96_0_0
abbrev r6_3 : Rect S5000x96 := Rect.unit (s := S5000x96) ![0, 0] S5000x96.size inb_S5000x96_S5000x96_0_0

/-! ## What the body leaves in the output window's buffer -/

/-- Window 3's staging buffer after the body, from the input windows' blocks: the one store, of the whole block. -/
def out6_3 (x0 : Vec F S5000x96 .bf16) (x1 : Vec F S96x96 .f32) (x2 : Vec F S1x96 .f32) : Vec F S5000x96 .f32 :=
  View.canon [⟨r6_3, k6_pay1 (View.ld x0 r6_0) (View.ld x1 r6_1) (View.ld x2 r6_2)⟩]

/-- The one store covers the buffer. -/
theorem cover6_3 (p0 : Vec F S5000x96 .f32) (y : S5000x96.Idx) :
    ∃ pc ∈ ([⟨r6_3, p0⟩] : List (View.Piece (Elt F) S5000x96 .f32)), y ∈ pc.1.set :=
  View.cover_of_tiled [⟨r6_3, p0⟩] S5000x96.size (by rfl) y

/-! ## The body's triple -/

set_option maxHeartbeats 1000000 in
/-- The body on whole staging buffers, the inputs' at contents `xW` and the output's at anything (the body reads it
    before overwriting it), runs to the continuation holding the inputs' as they were and the output's at `out6_3` of
    the inputs'. -/
theorem sound_kernel6 (c : Dev nD) (E : Set ℕ) (i : grid6.Coords) (arg1 : Memref sig .tc .vmem S5000x96 .bf16) (harg1 : arg1.IsWhole) (arg2 : Memref sig .tc .vmem S96x96 .f32) (harg2 : arg2.IsWhole) (arg3 : Memref sig .tc .vmem S1x96 .f32) (harg3 : arg3.IsWhole) (arg4 : Memref sig .tc .vmem S5000x96 .f32) (harg4 : arg4.IsWhole)
    (x0 : Vec F S5000x96 .bf16) (x1 : Vec F S96x96 .f32) (x2 : Vec F S1x96 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__matmul_bias_kernel i arg1 harg1 arg2 harg2 arg3 harg3 arg4 harg4) K := by
  simp only [cc6__matmul_bias_kernel_eq_skeleton]; unfold cc6__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The pipeline's proof data -/

/-- The proof data of the region's pipeline on core `c`: the arrays as the region finds them; after the body at point
    `t` each input's buffer at its block and the output's at `out6_3` of the input blocks; the invariant keeps
    everything else untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' buffers hold their blocks, so `sound_kernel6` applies; the invariant and what
    the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.BodyA8.lean ====
/- Region 8 of the program, at any float model: the body run on one grid point. Every input window's block is
   read whole and the one output window's block is written whole, once: a row tile (window 0) normalised with the mean, variance, gain and shift rows (windows 1 to 4), clamped below at zero, times the projection matrix (window 5) plus its bias row (window 6), each row then divided by its Euclidean norm.
   Stated at a parameter `V`, the buffer contents when the region is entered: each window's block at a point, what
   the body leaves in the output window's buffer as a function of the input blocks, the body's triple on whole staging
   buffers, the pipeline's proof data and the body obligation at every point. -/
import proofs.«115743_j55052890800725_2_alg».proof.Proof.Gen.Kernel.Launch
import proofs.«115743_j55052890800725_2_alg».proof.Proof.Gen.Kernel.Skeleton
import proofs.«115743_j55052890800725_2_alg».proof.Proof.Gen.Kernel.Points
import Idealize.ShloMosaic.Lib.Pipeline.FrameBody
import Idealize.ShloMosaic.Lib.Ring
import Idealize.ShloMosaic.Lib.Tactic

-- membership in a rectangle of long extents is decided by a structural recursion, one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not (when it is not
    fetched its block index has not moved), for any proof data whose array is `V`'s and whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- Input window 1's current staging buffer holds its block at every point, fetched there or not (when it is not
    fetched its block index has not moved), for any proof data whose array is `V`'s and whose body leaves the block in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
/-- Input window 2's current staging buffer holds its block at every point, fetched there or not (when it is not
    fetched its block index has not moved), for any proof data whose array is `V`'s and whose body leaves the block in place. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
/-- Input window 3's current staging buffer holds its block at every point, fetched there or not (when it is not
    fetched its block index has not moved), for any proof data whose array is `V`'s and whose body leaves the block in place. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
/-- Input window 4's current staging buffer holds its block at every point, fetched there or not (when it is not
    fetched its block index has not moved), for any proof data whose array is `V`'s and whose body leaves the block in place. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)
/-- Input window 5's current staging buffer holds its block at every point, fetched there or not (when it is not
    fetched its block index has not moved), for any proof data whose array is `V`'s and whose body leaves the block in place. -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)
/-- Input window 6's current staging buffer holds its block at every point, fetched there or not (when it is not
    fetched its block index has not moved), for any proof data whose array is `V`'s and whose body leaves the block in place. -/
theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each window's whole block -/

abbrev r8_0 : Rect S5000x96 := Rect.unit (s := S5000x96) ![0, 0] S5000x96.size inb_S5000x96_S5000x96_0_0
abbrev r8_1 : Rect S1x96 := Rect.unit (s := S1x96) ![0, 0] S1x96.size inb_S1x96_S1x96_0_0
abbrev r8_2 : Rect S1x96 := Rect.unit (s := S1x96) ![0, 0] S1x96.size inb_S1x96_S1x96_0_0
abbrev r8_3 : Rect S1x96 := Rect.unit (s := S1x96) ![0, 0] S1x96.size inb_S1x96_S1x96_0_0
abbrev r8_4 : Rect S1x96 := Rect.unit (s := S1x96) ![0, 0] S1x96.size inb_S1x96_S1x96_0_0
abbrev r8_5 : Rect S96x64 := Rect.unit (s := S96x64) ![0, 0] S96x64.size inb_S96x64_S96x64_0_0
abbrev r8_6 : Rect S1x64 := Rect.unit (s := S1x64) ![0, 0] S1x64.size inb_S1x64_S1x64_0_0
abbrev r8_7 : Rect S5000x64 := Rect.unit (s := S5000x64) ![0, 0] S5000x64.size inb_S5000x64_S5000x64_0_0

/-! ## What the body leaves in the output window's buffer -/

/-- Window 7's staging buffer after the body, from the input windows' blocks: the one store, of the whole block. -/
def out8_7 (x0 : Vec F S5000x96 .f32) (x1 : Vec F S1x96 .f32) (x2 : Vec F S1x96 .f32) (x3 : Vec F S1x96 .f32) (x4 : Vec F S1x96 .f32) (x5 : Vec F S96x64 .f32) (x6 : Vec F S1x64 .f32) : Vec F S5000x64 .f32 :=
  View.canon [⟨r8_7, k8_pay1 (View.ld x0 r8_0) (View.ld x4 r8_4) (View.ld x1 r8_1) (View.ld x3 r8_3) (View.ld x2 r8_2) (View.ld x5 r8_5) (View.ld x6 r8_6)⟩]

/-- The one store covers the buffer. -/
theorem cover8_7 (p0 : Vec F S5000x64 .f32) (y : S5000x64.Idx) :
    ∃ pc ∈ ([⟨r8_7, p0⟩] : List (View.Piece (Elt F) S5000x64 .f32)), y ∈ pc.1.set :=
  View.cover_of_tiled [⟨r8_7, p0⟩] S5000x64.size (by rfl) y

/-! ## The body's triple -/

set_option maxHeartbeats 1000000 in
/-- The body on whole staging buffers, the inputs' at contents `xW` and the output's at anything (the body reads it
    before overwriting it), runs to the continuation holding the inputs' as they were and the output's at `out8_7` of
    the inputs'. -/
theorem sound_kernel8 (c : Dev nD) (E : Set ℕ) (i : grid8.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S96x64 .f32) (harg6 : arg6.IsWhole) (arg7 : Memref sig .tc .vmem S1x64 .f32) (harg7 : arg7.IsWhole) (arg8 : Memref sig .tc .vmem S5000x64 .f32) (harg8 : arg8.IsWhole)
    (x0 : Vec F S5000x96 .f32) (x1 : Vec F S1x96 .f32) (x2 : Vec F S1x96 .f32) (x3 : Vec F S1x96 .f32) (x4 : Vec F S1x96 .f32) (x5 : Vec F S96x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out8_7 x0 x1 x2 x3 x4 x5 x6)) -∗ K ⟨⟩))
      ⊢ wp frame (wpE (defs₀ (F := F)) Variants.none c none) E (cc8__bn_relu_matmul_l2_kernel i arg1 harg1 arg2 harg2 arg3 harg3 arg4 harg4 arg5 harg5 arg6 harg6 arg7 harg7 arg8 harg8) K := by
  simp only [cc8__bn_relu_matmul_l2_kernel_eq_skeleton]; unfold cc8__bn_relu_matmul_l2_kernel_skel
  simp only [k8_part1_eq_skeleton]; unfold k8_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover8_7 _)

/-! ## The pipeline's proof data -/

/-- The proof data of the region's pipeline on core `c`: the arrays as the region finds them; after the body at point
    `t` each input's buffer at its block and the output's at `out8_7` of the input blocks; the invariant keeps
    everything else untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => out8_7 (iblk8 V c 0 t) (iblk8 V c 1 t) (iblk8 V c 2 t) (iblk8 V c 3 t) (iblk8 V c 4 t) (iblk8 V c 5 t) (iblk8 V c 6 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = out8_7 (iblk8 V c 0 t) (iblk8 V c 1 t) (iblk8 V c 2 t) (iblk8 V c 3 t) (iblk8 V c 4 t) (iblk8 V c 5 t) (iblk8 V c 6 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
theorem before8_6 (c : Dev nD) (t : Fin cfg8.N) (d) : (dat8 V c).before 6 t d = iblk8 V c 6 t :=
  before8_6_of V (dat8 V c) (A_eq8 V c 6) (after8_6 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t))

/-- The body at any point: the inputs' buffers hold their blocks, so `sound_kernel8` applies; the invariant and what
    the core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel8 c Set.univ (grid8.coords t) _ _ _ _ _ _ _ _ _ _ _ _ _ _ _ _ (iblk8 V c 0 t) (iblk8 V c 1 t) (iblk8 V c 2 t) (iblk8 V c 3 t) (iblk8 V c 4 t) (iblk8 V c 5 t) (iblk8 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.K.BodyR1Kit.lean ====
import proofs.«115743_j55052890800725_2_alg».proof.Proof.Gen.Kernel.Launch
import proofs.«115743_j55052890800725_2_alg».proof.Proof.Gen.Kernel.Skeleton
import proofs.«115743_j55052890800725_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1 (`cc1__bn_stats_prescale_kernel`): what its three control cases share

The body resets its two scratch rows at the grid's first point, adds the point's column sums and column sums of
squares into them at every point, and copies them into the two output windows at the last point. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, in closed form over the grid -/

/-- The first conditional's condition: the point is the grid's first. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

/-- The second conditional's condition: the point is the grid's last. -/
abbrev cond1_1 (i : grid1.Coords) : Prop := k1_cond2 i = 1#1
theorem hcond1_1 : ∀ t : Fin cfg1.N, cond1_1 (grid1.coords t) ↔ t.val = 9 :=
  (by decide +kernel : ∀ t : Fin grid1.N, cond1_1 (grid1.coords t) ↔ t.val = 9)

/-! ## Where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Output window 3 is idle and not written back at every point but the last, where it is live. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel
/-- Output window 4 is idle and not written back at every point but the last, where it is live. -/
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
theorem liveAt1_4_C : ∀ t : Fin cfg1.N, ¬cond1_0 (grid1.coords t) → cond1_1 (grid1.coords t) → cfg1.idle 4 (grid1.coords t) = false := by decide +kernel

/-! ## The memrefs the body is called with -/

/-- One staging buffer of each output window, through which its contents are stated. -/
abbrev VO1_3 : View sig .tc .vmem S1x96 .f32 := (Memref.whole cc1_stg3_0 : Memref sig .tc .vmem S1x96 .f32).view
abbrev VO1_4 : View sig .tc .vmem S1x96 .f32 := (Memref.whole cc1_stg4_0 : Memref sig .tc .vmem S1x96 .f32).view
abbrev ms1_0 (t : Fin cfg1.N) : Memref sig .tc .vmem S5000x96 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x96 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x96 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x96 .f32 := win1_4.stage (cfg1.slots t 4)
abbrev hs1_4 (t : Fin cfg1.N) : (ms1_4 t).IsWhole := hstage1_4 ((cfg1.slots t 4).cast nbuf1_4)
/-- The two scratch rows: whole scoped buffers of the kernel's own, carried from point to point. -/
abbrev scM1_0 : Memref sig .tc .vmem S1x96 .f32 := Memref.whole cc1_scratch0
abbrev scM1_1 : Memref sig .tc .vmem S1x96 .f32 := Memref.whole cc1_scratch1
abbrev VS1_0 : View sig .tc .vmem S1x96 .f32 := scM1_0.view
abbrev VS1_1 : View sig .tc .vmem S1x96 .f32 := scM1_1.view

/-- The class's invariant with the two scratch rows as memrefs owned at some contents, the other scoped buffers
    unopened. -/
theorem PhiA1_eq (c : Dev nD) :
    (Pipeline.ΦA spec1 c : sProp 𝕄)
      = iprop((iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

end Cert.Kernel.Hand

end
-- ==== Proof.K.BodyR1Runs.lean ====
import proofs.«115743_j55052890800725_2_alg».proof.Proof.K.BodyR1Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1 (`cc1__bn_stats_prescale_kernel`): the body run in each of its three control cases -/

set_option maxHeartbeats 1000000 in
/-- The body at the grid's first point (both scratch rows reset, then accumulated into; the output windows untouched): the pieces its stores leave in each output window's buffer and in each scratch row (last
    first), with the triple — from the inputs' buffers at their contents, the outputs' at contents handed back untouched, the scratch rows at anything,
    the body runs to the continuation holding the inputs' buffers as they were and every stored buffer with its pieces
    written. -/
noncomputable def kernelRun1_A (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : cond1_0 i) (hc1 : ¬cond1_1 i)
    (x0 : Vec F S5000x96 .f32) (x1 : Vec F S5000x1 .f32) (x2 : Vec F S1x96 .f32) :
    Σ' (L3 : List (View.Piece (Elt F) S1x96 .f32)) (L4 : List (View.Piece (Elt F) S1x96 .f32)) (LS0 : List (View.Piece (Elt F) S1x96 .f32)), { LS1 : List (View.Piece (Elt F) S1x96 .f32) //
      ∀ (xi3 xi4 : Vec F S1x96 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__bn_stats_prescale_kernel i arg1 harg1 arg2 harg2 arg3 harg3 arg4 harg4 arg5 harg5 arg6 harg6 arg7 harg7) K } := by
  refine ⟨[], [], ?_, ?_, fun xi3 xi4 E K => ?run⟩
  case run =>
    simp only [cc1__bn_stats_prescale_kernel_eq_skeleton]; unfold cc1__bn_stats_prescale_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

set_option maxHeartbeats 1000000 in
/-- The body at a middle point (both scratch rows accumulated into; the output windows untouched): the pieces its stores leave in each output window's buffer and in each scratch row (last
    first), with the triple — from the inputs' buffers at their contents, the outputs' at contents handed back untouched, the scratch rows at what the point before left,
    the body runs to the continuation holding the inputs' buffers as they were and every stored buffer with its pieces
    written. -/
noncomputable def kernelRun1_B (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond1_0 i) (hc1 : ¬cond1_1 i)
    (x0 : Vec F S5000x96 .f32) (x1 : Vec F S5000x1 .f32) (x2 : Vec F S1x96 .f32) (xs0 : Vec F S1x96 .f32) (xs1 : Vec F S1x96 .f32) :
    Σ' (L3 : List (View.Piece (Elt F) S1x96 .f32)) (L4 : List (View.Piece (Elt F) S1x96 .f32)) (LS0 : List (View.Piece (Elt F) S1x96 .f32)), { LS1 : List (View.Piece (Elt F) S1x96 .f32) //
      ∀ (xi3 xi4 : Vec F S1x96 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__bn_stats_prescale_kernel i arg1 harg1 arg2 harg2 arg3 harg3 arg4 harg4 arg5 harg5 arg6 harg6 arg7 harg7) K } := by
  refine ⟨[], [], ?_, ?_, fun xi3 xi4 E K => ?run⟩
  case run =>
    simp only [cc1__bn_stats_prescale_kernel_eq_skeleton]; unfold cc1__bn_stats_prescale_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

set_option maxHeartbeats 1000000 in
/-- The body at the grid's last point (both scratch rows accumulated into, then copied into the output windows): the pieces its stores leave in each output window's buffer and in each scratch row (last
    first), with the triple — from the inputs' buffers at their contents, the outputs' at anything, the scratch rows at what the point before left,
    the body runs to the continuation holding the inputs' buffers as they were and every stored buffer with its pieces
    written. -/
noncomputable def kernelRun1_C (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond1_0 i) (hc1 : cond1_1 i)
    (x0 : Vec F S5000x96 .f32) (x1 : Vec F S5000x1 .f32) (x2 : Vec F S1x96 .f32) (xs0 : Vec F S1x96 .f32) (xs1 : Vec F S1x96 .f32) :
    Σ' (L3 : List (View.Piece (Elt F) S1x96 .f32)) (L4 : List (View.Piece (Elt F) S1x96 .f32)) (LS0 : List (View.Piece (Elt F) S1x96 .f32)), { LS1 : List (View.Piece (Elt F) S1x96 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__bn_stats_prescale_kernel i arg1 harg1 arg2 harg2 arg3 harg3 arg4 harg4 arg5 harg5 arg6 harg6 arg7 harg7) K } := by
  refine ⟨?_, ?_, ?_, ?_, fun E K => ?run⟩
  case run =>
    simp only [cc1__bn_stats_prescale_kernel_eq_skeleton]; unfold cc1__bn_stats_prescale_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [HS0]; · iexists _; iexact HS0
    iexists _; iexact HS1

end Cert.Kernel.Hand

end
-- ==== Proof.K.BodyR1.lean ====
import proofs.«115743_j55052890800725_2_alg».proof.Proof.K.BodyR1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1 (`cc1__bn_stats_prescale_kernel`): what its buffers hold point by point, the proof data, the body obligation -/

/-! ## What each case leaves in the output windows' buffers and in the scratch rows -/

/-- Case A stores nothing into output window 3 (idle there and not written back): a placeholder nothing consults. -/
def out1_A_3 (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : cond1_0 i) (hc1 : ¬cond1_1 i)
    (x0 : Vec F S5000x96 .f32) (x1 : Vec F S5000x1 .f32) (x2 : Vec F S1x96 .f32) : Vec F S1x96 .f32 :=
  VO1_3.read (Elt F) (VO1_3.writes (Elt F) VO1_3.junk (kernelRun1_A c i arg1 harg1 arg2 harg2 arg3 harg3 arg4 harg4 arg5 harg5 arg6 harg6 arg7 harg7 hc0 hc1 x0 x1 x2).1)

/-- Case A stores nothing into output window 4 (idle there and not written back): a placeholder nothing consults. -/
def out1_A_4 (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : cond1_0 i) (hc1 : ¬cond1_1 i)
    (x0 : Vec F S5000x96 .f32) (x1 : Vec F S5000x1 .f32) (x2 : Vec F S1x96 .f32) : Vec F S1x96 .f32 :=
  VO1_4.read (Elt F) (VO1_4.writes (Elt F) VO1_4.junk (kernelRun1_A c i arg1 harg1 arg2 harg2 arg3 harg3 arg4 harg4 arg5 harg5 arg6 harg6 arg7 harg7 hc0 hc1 x0 x1 x2).2.1)

/-- Case A's stores into scratch row 0 cover it. -/
theorem scover1_A_0 (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : cond1_0 i) (hc1 : ¬cond1_1 i)
    (x0 : Vec F S5000x96 .f32) (x1 : Vec F S5000x1 .f32) (x2 : Vec F S1x96 .f32) (y : S1x96.Idx) :
    ∃ pc ∈ (kernelRun1_A c i arg1 harg1 arg2 harg2 arg3 harg3 arg4 harg4 arg5 harg5 arg6 harg6 arg7 harg7 hc0 hc1 x0 x1 x2).2.2.1, y ∈ pc.1.set :=
  View.cover_of_tiledL (kernelRun1_A c i arg1 harg1 arg2 harg2 arg3 harg3 arg4 harg4 arg5 harg5 arg6 harg6 arg7 harg7 hc0 hc1 x0 x1 x2).2.2.1 S1x96.size (by sl_kernel_rfl) y

/-- What case A leaves in scratch row 0: its pieces read back. -/
def sout1_A_0 (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : cond1_0 i) (hc1 : ¬cond1_1 i)
    (x0 : Vec F S5000x96 .f32) (x1 : Vec F S5000x1 .f32) (x2 : Vec F S1x96 .f32) : Vec F S1x96 .f32 :=
  VS1_0.read (Elt F) (VS1_0.writes (Elt F) VS1_0.junk (kernelRun1_A c i arg1 harg1 arg2 harg2 arg3 harg3 arg4 harg4 arg5 harg5 arg6 harg6 arg7 harg7 hc0 hc1 x0 x1 x2).2.2.1)

/-- Case A's stores into scratch row 1 cover it. -/
theorem scover1_A_1 (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : cond1_0 i) (hc1 : ¬cond1_1 i)
    (x0 : Vec F S5000x96 .f32) (x1 : Vec F S5000x1 .f32) (x2 : Vec F S1x96 .f32) (y : S1x96.Idx) :
    ∃ pc ∈ (kernelRun1_A c i arg1 harg1 arg2 harg2 arg3 harg3 arg4 harg4 arg5 harg5 arg6 harg6 arg7 harg7 hc0 hc1 x0 x1 x2).2.2.2.1, y ∈ pc.1.set :=
  View.cover_of_tiledL (kernelRun1_A c i arg1 harg1 arg2 harg2 arg3 harg3 arg4 harg4 arg5 harg5 arg6 harg6 arg7 harg7 hc0 hc1 x0 x1 x2).2.2.2.1 S1x96.size (by sl_kernel_rfl) y

/-- What case A leaves in scratch row 1: its pieces read back. -/
def sout1_A_1 (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : cond1_0 i) (hc1 : ¬cond1_1 i)
    (x0 : Vec F S5000x96 .f32) (x1 : Vec F S5000x1 .f32) (x2 : Vec F S1x96 .f32) : Vec F S1x96 .f32 :=
  VS1_1.read (Elt F) (VS1_1.writes (Elt F) VS1_1.junk (kernelRun1_A c i arg1 harg1 arg2 harg2 arg3 harg3 arg4 harg4 arg5 harg5 arg6 harg6 arg7 harg7 hc0 hc1 x0 x1 x2).2.2.2.1)

/-- Case B stores nothing into output window 3 (idle there and not written back): a placeholder nothing consults. -/
def out1_B_3 (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond1_0 i) (hc1 : ¬cond1_1 i)
    (x0 : Vec F S5000x96 .f32) (x1 : Vec F S5000x1 .f32) (x2 : Vec F S1x96 .f32) (xs0 : Vec F S1x96 .f32) (xs1 : Vec F S1x96 .f32) : Vec F S1x96 .f32 :=
  VO1_3.read (Elt F) (VO1_3.writes (Elt F) VO1_3.junk (kernelRun1_B c i arg1 harg1 arg2 harg2 arg3 harg3 arg4 harg4 arg5 harg5 arg6 harg6 arg7 harg7 hc0 hc1 x0 x1 x2 xs0 xs1).1)

/-- Case B stores nothing into output window 4 (idle there and not written back): a placeholder nothing consults. -/
def out1_B_4 (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond1_0 i) (hc1 : ¬cond1_1 i)
    (x0 : Vec F S5000x96 .f32) (x1 : Vec F S5000x1 .f32) (x2 : Vec F S1x96 .f32) (xs0 : Vec F S1x96 .f32) (xs1 : Vec F S1x96 .f32) : Vec F S1x96 .f32 :=
  VO1_4.read (Elt F) (VO1_4.writes (Elt F) VO1_4.junk (kernelRun1_B c i arg1 harg1 arg2 harg2 arg3 harg3 arg4 harg4 arg5 harg5 arg6 harg6 arg7 harg7 hc0 hc1 x0 x1 x2 xs0 xs1).2.1)

/-- Case B's stores into scratch row 0 cover it. -/
theorem scover1_B_0 (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond1_0 i) (hc1 : ¬cond1_1 i)
    (x0 : Vec F S5000x96 .f32) (x1 : Vec F S5000x1 .f32) (x2 : Vec F S1x96 .f32) (xs0 : Vec F S1x96 .f32) (xs1 : Vec F S1x96 .f32) (y : S1x96.Idx) :
    ∃ pc ∈ (kernelRun1_B c i arg1 harg1 arg2 harg2 arg3 harg3 arg4 harg4 arg5 harg5 arg6 harg6 arg7 harg7 hc0 hc1 x0 x1 x2 xs0 xs1).2.2.1, y ∈ pc.1.set :=
  View.cover_of_tiledL (kernelRun1_B c i arg1 harg1 arg2 harg2 arg3 harg3 arg4 harg4 arg5 harg5 arg6 harg6 arg7 harg7 hc0 hc1 x0 x1 x2 xs0 xs1).2.2.1 S1x96.size (by sl_kernel_rfl) y

/-- What case B leaves in scratch row 0: its pieces read back. -/
def sout1_B_0 (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond1_0 i) (hc1 : ¬cond1_1 i)
    (x0 : Vec F S5000x96 .f32) (x1 : Vec F S5000x1 .f32) (x2 : Vec F S1x96 .f32) (xs0 : Vec F S1x96 .f32) (xs1 : Vec F S1x96 .f32) : Vec F S1x96 .f32 :=
  VS1_0.read (Elt F) (VS1_0.writes (Elt F) VS1_0.junk (kernelRun1_B c i arg1 harg1 arg2 harg2 arg3 harg3 arg4 harg4 arg5 harg5 arg6 harg6 arg7 harg7 hc0 hc1 x0 x1 x2 xs0 xs1).2.2.1)

/-- Case B's stores into scratch row 1 cover it. -/
theorem scover1_B_1 (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond1_0 i) (hc1 : ¬cond1_1 i)
    (x0 : Vec F S5000x96 .f32) (x1 : Vec F S5000x1 .f32) (x2 : Vec F S1x96 .f32) (xs0 : Vec F S1x96 .f32) (xs1 : Vec F S1x96 .f32) (y : S1x96.Idx) :
    ∃ pc ∈ (kernelRun1_B c i arg1 harg1 arg2 harg2 arg3 harg3 arg4 harg4 arg5 harg5 arg6 harg6 arg7 harg7 hc0 hc1 x0 x1 x2 xs0 xs1).2.2.2.1, y ∈ pc.1.set :=
  View.cover_of_tiledL (kernelRun1_B c i arg1 harg1 arg2 harg2 arg3 harg3 arg4 harg4 arg5 harg5 arg6 harg6 arg7 harg7 hc0 hc1 x0 x1 x2 xs0 xs1).2.2.2.1 S1x96.size (by sl_kernel_rfl) y

/-- What case B leaves in scratch row 1: its pieces read back. -/
def sout1_B_1 (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond1_0 i) (hc1 : ¬cond1_1 i)
    (x0 : Vec F S5000x96 .f32) (x1 : Vec F S5000x1 .f32) (x2 : Vec F S1x96 .f32) (xs0 : Vec F S1x96 .f32) (xs1 : Vec F S1x96 .f32) : Vec F S1x96 .f32 :=
  VS1_1.read (Elt F) (VS1_1.writes (Elt F) VS1_1.junk (kernelRun1_B c i arg1 harg1 arg2 harg2 arg3 harg3 arg4 harg4 arg5 harg5 arg6 harg6 arg7 harg7 hc0 hc1 x0 x1 x2 xs0 xs1).2.2.2.1)

/-- At the last point the store into output window 3 covers its block. -/
theorem cover1_C_3 (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond1_0 i) (hc1 : cond1_1 i)
    (x0 : Vec F S5000x96 .f32) (x1 : Vec F S5000x1 .f32) (x2 : Vec F S1x96 .f32) (xs0 : Vec F S1x96 .f32) (xs1 : Vec F S1x96 .f32) (y : S1x96.Idx) :
    ∃ pc ∈ (kernelRun1_C c i arg1 harg1 arg2 harg2 arg3 harg3 arg4 harg4 arg5 harg5 arg6 harg6 arg7 harg7 hc0 hc1 x0 x1 x2 xs0 xs1).1, y ∈ pc.1.set :=
  View.cover_of_tiledL (kernelRun1_C c i arg1 harg1 arg2 harg2 arg3 harg3 arg4 harg4 arg5 harg5 arg6 harg6 arg7 harg7 hc0 hc1 x0 x1 x2 xs0 xs1).1 S1x96.size (by sl_kernel_rfl) y

/-- What the last point leaves in output window 3's buffer: its pieces read back. -/
def out1_C_3 (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond1_0 i) (hc1 : cond1_1 i)
    (x0 : Vec F S5000x96 .f32) (x1 : Vec F S5000x1 .f32) (x2 : Vec F S1x96 .f32) (xs0 : Vec F S1x96 .f32) (xs1 : Vec F S1x96 .f32) : Vec F S1x96 .f32 :=
  VO1_3.read (Elt F) (VO1_3.writes (Elt F) VO1_3.junk (kernelRun1_C c i arg1 harg1 arg2 harg2 arg3 harg3 arg4 harg4 arg5 harg5 arg6 harg6 arg7 harg7 hc0 hc1 x0 x1 x2 xs0 xs1).1)

/-- At the last point the store into output window 4 covers its block. -/
theorem cover1_C_4 (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond1_0 i) (hc1 : cond1_1 i)
    (x0 : Vec F S5000x96 .f32) (x1 : Vec F S5000x1 .f32) (x2 : Vec F S1x96 .f32) (xs0 : Vec F S1x96 .f32) (xs1 : Vec F S1x96 .f32) (y : S1x96.Idx) :
    ∃ pc ∈ (kernelRun1_C c i arg1 harg1 arg2 harg2 arg3 harg3 arg4 harg4 arg5 harg5 arg6 harg6 arg7 harg7 hc0 hc1 x0 x1 x2 xs0 xs1).2.1, y ∈ pc.1.set :=
  View.cover_of_tiledL (kernelRun1_C c i arg1 harg1 arg2 harg2 arg3 harg3 arg4 harg4 arg5 harg5 arg6 harg6 arg7 harg7 hc0 hc1 x0 x1 x2 xs0 xs1).2.1 S1x96.size (by sl_kernel_rfl) y

/-- What the last point leaves in output window 4's buffer: its pieces read back. -/
def out1_C_4 (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond1_0 i) (hc1 : cond1_1 i)
    (x0 : Vec F S5000x96 .f32) (x1 : Vec F S5000x1 .f32) (x2 : Vec F S1x96 .f32) (xs0 : Vec F S1x96 .f32) (xs1 : Vec F S1x96 .f32) : Vec F S1x96 .f32 :=
  VO1_4.read (Elt F) (VO1_4.writes (Elt F) VO1_4.junk (kernelRun1_C c i arg1 harg1 arg2 harg2 arg3 harg3 arg4 harg4 arg5 harg5 arg6 harg6 arg7 harg7 hc0 hc1 x0 x1 x2 xs0 xs1).2.1)

/-- Case C's stores into scratch row 0 cover it. -/
theorem scover1_C_0 (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond1_0 i) (hc1 : cond1_1 i)
    (x0 : Vec F S5000x96 .f32) (x1 : Vec F S5000x1 .f32) (x2 : Vec F S1x96 .f32) (xs0 : Vec F S1x96 .f32) (xs1 : Vec F S1x96 .f32) (y : S1x96.Idx) :
    ∃ pc ∈ (kernelRun1_C c i arg1 harg1 arg2 harg2 arg3 harg3 arg4 harg4 arg5 harg5 arg6 harg6 arg7 harg7 hc0 hc1 x0 x1 x2 xs0 xs1).2.2.1, y ∈ pc.1.set :=
  View.cover_of_tiledL (kernelRun1_C c i arg1 harg1 arg2 harg2 arg3 harg3 arg4 harg4 arg5 harg5 arg6 harg6 arg7 harg7 hc0 hc1 x0 x1 x2 xs0 xs1).2.2.1 S1x96.size (by sl_kernel_rfl) y

/-- What case C leaves in scratch row 0: its pieces read back. -/
def sout1_C_0 (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond1_0 i) (hc1 : cond1_1 i)
    (x0 : Vec F S5000x96 .f32) (x1 : Vec F S5000x1 .f32) (x2 : Vec F S1x96 .f32) (xs0 : Vec F S1x96 .f32) (xs1 : Vec F S1x96 .f32) : Vec F S1x96 .f32 :=
  VS1_0.read (Elt F) (VS1_0.writes (Elt F) VS1_0.junk (kernelRun1_C c i arg1 harg1 arg2 harg2 arg3 harg3 arg4 harg4 arg5 harg5 arg6 harg6 arg7 harg7 hc0 hc1 x0 x1 x2 xs0 xs1).2.2.1)

/-- Case C's stores into scratch row 1 cover it. -/
theorem scover1_C_1 (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond1_0 i) (hc1 : cond1_1 i)
    (x0 : Vec F S5000x96 .f32) (x1 : Vec F S5000x1 .f32) (x2 : Vec F S1x96 .f32) (xs0 : Vec F S1x96 .f32) (xs1 : Vec F S1x96 .f32) (y : S1x96.Idx) :
    ∃ pc ∈ (kernelRun1_C c i arg1 harg1 arg2 harg2 arg3 harg3 arg4 harg4 arg5 harg5 arg6 harg6 arg7 harg7 hc0 hc1 x0 x1 x2 xs0 xs1).2.2.2.1, y ∈ pc.1.set :=
  View.cover_of_tiledL (kernelRun1_C c i arg1 harg1 arg2 harg2 arg3 harg3 arg4 harg4 arg5 harg5 arg6 harg6 arg7 harg7 hc0 hc1 x0 x1 x2 xs0 xs1).2.2.2.1 S1x96.size (by sl_kernel_rfl) y

/-- What case C leaves in scratch row 1: its pieces read back. -/
def sout1_C_1 (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond1_0 i) (hc1 : cond1_1 i)
    (x0 : Vec F S5000x96 .f32) (x1 : Vec F S5000x1 .f32) (x2 : Vec F S1x96 .f32) (xs0 : Vec F S1x96 .f32) (xs1 : Vec F S1x96 .f32) : Vec F S1x96 .f32 :=
  VS1_1.read (Elt F) (VS1_1.writes (Elt F) VS1_1.junk (kernelRun1_C c i arg1 harg1 arg2 harg2 arg3 harg3 arg4 harg4 arg5 harg5 arg6 harg6 arg7 harg7 hc0 hc1 x0 x1 x2 xs0 xs1).2.2.2.1)

/-! ## What the buffers hold after each point -/

/-- THE ACCUMULATION. After the body at position `n`: (output window 3's buffer, output window 4's buffer, scratch
    row 0, scratch row 1) — the first point's case at the point's blocks; a later point's case at the point's blocks and
    the scratch rows as the point before left them. -/
def outsAt1 (c : Dev nD) : (n : ℕ) → n < cfg1.N → Vec F S1x96 .f32 × Vec F S1x96 .f32 × Vec F S1x96 .f32 × Vec F S1x96 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩), out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h1 : n + 1 = 9 then
      (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2.1 (outsAt1 c n (Nat.lt_of_succ_lt hn)).2.2.2, out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2.1 (outsAt1 c n (Nat.lt_of_succ_lt hn)).2.2.2)
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2.1 (outsAt1 c n (Nat.lt_of_succ_lt hn)).2.2.2, out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2.1 (outsAt1 c n (Nat.lt_of_succ_lt hn)).2.2.2)

/-- `outsAt1` at the first point. -/
theorem outsAt1_A (c : Dev nD) (t : Fin cfg1.N) (h0 : t.val = 0) (h1 : ¬t.val = 9) :
    outsAt1 V c t.val t.isLt = (out1_A_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t), out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact absurd h0 (Nat.succ_ne_zero n)

/-- `outsAt1` at a middle point: over what the point before left in the scratch rows. -/
theorem outsAt1_B (c : Dev nD) (t : Fin cfg1.N) (h0 : ¬t.val = 0) (h1 : ¬t.val = 9) :
    outsAt1 V c t.val t.isLt = (out1_B_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.2.1 (outsAt1 V c (t.val - 1) (Nat.lt_of_le_of_lt (Nat.sub_le _ _) t.isLt)).2.2.2, out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd rfl h0
  | succ n => exact (dif_neg h1).trans rfl

/-- `outsAt1` at the last point: over what the point before left in the scratch rows. -/
theorem outsAt1_C (c : Dev nD) (t : Fin cfg1.N) (h0 : ¬t.val = 0) (h1 : t.val = 9) :
    outsAt1 V c t.val t.isLt = (out1_C_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2.1 (outsAt1 V c (t.val - 1) (Nat.lt_of_le_of_lt (Nat.sub_le _ _) t.isLt)).2.2.2, out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd rfl h0
  | succ n => exact (dif_pos h1).trans rfl

/-! ## The region invariant -/

/-- Before position `n`: before the first point the class's invariant (every scoped buffer at anything); afterwards the
    two scratch rows at what the point before left in them, the other scoped buffers at anything, the generator
    register at some state. -/
def PhiS1 (c : Dev nD) : (n : ℕ) → n ≤ cfg1.N → sProp 𝕄
  | 0, _ => Pipeline.ΦA spec1 c
  | n + 1, hn => iprop((iprop(owns (c : Thread nD τ) scM1_0 fullShare (outsAt1 V c n hn).2.2.1 ∗ owns (c : Thread nD τ) scM1_1 fullShare (outsAt1 V c n hn).2.2.2)
      ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((iprop(owns (c : Thread nD τ) scM1_0 fullShare (outsAt1 V c n hn).2.2.1 ∗ owns (c : Thread nD τ) scM1_1 fullShare (outsAt1 V c n hn).2.2.2)
      ∗ Pipeline.scopedRestBut (Ix := Unit) (Name := ℕ) (U := UR sig nD τ) (Lvl := ℕ) (Val := Elt F) spec1 c [cc1_scratch0, cc1_scratch1]) ∗ (∃ r, prngReg c r)) := rfl

theorem PhiS1_pos (c : Dev nD) (n : ℕ) (h : n ≤ cfg1.N) (hz : n ≠ 0) :
    PhiS1 V c n h = iprop((iprop(owns (c : Thread nD τ) scM1_0 fullShare (outsAt1 V c (n - 1) (by omega)).2.2.1 ∗ owns (c : Thread nD τ) scM1_1 fullShare (outsAt1 V c (n - 1) (by omega)).2.2.2)
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-! ## The pipeline's proof data -/

/-- The proof data of the region on core `c`: the arrays as the region finds them (`V`); after the body at point `t`
    each input's buffer at its block and the outputs' at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at the first point: the invariant hands it the scratch rows at anything and takes them back at this point's contents; the output windows, idle, are handed back untouched. -/
theorem sound_body1_A (c : Dev nD) (t : Fin cfg1.N) (h0 : t.val = 0) (h1 : ¬t.val = 9) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
  rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
  rw [outsAt1_A V c t h0 h1]
  unfold sout1_A_0 sout1_A_1; (try dsimp only)
  rw [PhiS1_castSucc V c t, PhiS1_zero V c _ _ h0, PhiA1_eq]
  iintro ⟨⟨⟨⟨HS0, HS1⟩, Hb⟩, Hg⟩, Ho, ⟨%d0, H0⟩, ⟨%d1, H1⟩, ⟨%d2, H2⟩, ⟨%d3, H3⟩, ⟨%d4, H4⟩⟩
  iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  iintro ⟨H0, H1, H2, H3, H4, ⟨%es0, HS0⟩, ⟨%es1, HS1⟩⟩
  isplitl [HS0 HS1 Hb Hg]
  · isplitl [HS0 HS1 Hb]
    · isplitl [HS0 HS1]
      · isplitl [HS0]
        · unfold owns; iexists _; isplitr
          swap; · iexact HS0
          ipureintro; exact View.read_writes_of_cover _ _ _ _ _ (scover1_A_0 c _ _ _ _ _ _ _ _ _ _ _ _ _ _ _ _ _ _ _ _)
        · unfold owns; iexists _; isplitr
          swap; · iexact HS1
          ipureintro; exact View.read_writes_of_cover _ _ _ _ _ (scover1_A_1 c _ _ _ _ _ _ _ _ _ _ _ _ _ _ _ _ _ _ _ _)
      · iexact Hb
    · iexact Hg
  isplitl [Ho]; · iexact Ho
  isplitl [H0]; · iexact H0
  isplitl [H1]; · iexact H1
  isplitl [H2]; · iexact H2
  isplitl [H3]; · iexists _; iexact H3
  iexists _; iexact H4

set_option maxHeartbeats 4800000 in
/-- The body at a middle point: the invariant hands it the scratch rows at what the point before left and takes them back at this point's contents; the output windows, idle, are handed back untouched. -/
theorem sound_body1_B (c : Dev nD) (t : Fin cfg1.N) (h0 : ¬t.val = 0) (h1 : ¬t.val = 9) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
  rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
  rw [outsAt1_B V c t h0 h1]
  unfold sout1_B_0 sout1_B_1; (try dsimp only)
  rw [PhiS1_castSucc V c t, PhiS1_pos V c _ _ h0]
  iintro ⟨⟨⟨⟨HS0, HS1⟩, Hb⟩, Hg⟩, Ho, ⟨%d0, H0⟩, ⟨%d1, H1⟩, ⟨%d2, H2⟩, ⟨%d3, H3⟩, ⟨%d4, H4⟩⟩
  iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _).2.2.2.2 _ _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  iintro ⟨H0, H1, H2, H3, H4, ⟨%es0, HS0⟩, ⟨%es1, HS1⟩⟩
  isplitl [HS0 HS1 Hb Hg]
  · isplitl [HS0 HS1 Hb]
    · isplitl [HS0 HS1]
      · isplitl [HS0]
        · unfold owns; iexists _; isplitr
          swap; · iexact HS0
          ipureintro; exact View.read_writes_of_cover _ _ _ _ _ (scover1_B_0 c _ _ _ _ _ _ _ _ _ _ _ _ _ _ _ _ _ _ _ _ _ _)
        · unfold owns; iexists _; isplitr
          swap; · iexact HS1
          ipureintro; exact View.read_writes_of_cover _ _ _ _ _ (scover1_B_1 c _ _ _ _ _ _ _ _ _ _ _ _ _ _ _ _ _ _ _ _ _ _)
      · iexact Hb
    · iexact Hg
  isplitl [Ho]; · iexact Ho
  isplitl [H0]; · iexact H0
  isplitl [H1]; · iexact H1
  isplitl [H2]; · iexact H2
  isplitl [H3]; · iexists _; iexact H3
  iexists _; iexact H4

set_option maxHeartbeats 4800000 in
/-- The body at the last point: the invariant hands it the scratch rows at what the point before left and takes them back at this point's contents; the output windows are left at the copied rows. -/
theorem sound_body1_C (c : Dev nD) (t : Fin cfg1.N) (h0 : ¬t.val = 0) (h1 : t.val = 9) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3_C t (fun h => h0 ((hcond1_0 t).mp h)) ((hcond1_1 t).mpr h1)], after1_3]
  rw [show (dat1 V c).leavesExact 4 t = owns (c : Thread nD τ) (ms1_4 t) fullShare ((dat1 V c).after 4 t) from by
    unfold Dat.leavesExact; rw [liveAt1_4_C t (fun h => h0 ((hcond1_0 t).mp h)) ((hcond1_1 t).mpr h1)], after1_4]
  rw [outsAt1_C V c t h0 h1]
  unfold out1_C_3 out1_C_4 sout1_C_0 sout1_C_1; (try dsimp only)
  rw [PhiS1_castSucc V c t, PhiS1_pos V c _ _ h0]
  iintro ⟨⟨⟨⟨HS0, HS1⟩, Hb⟩, Hg⟩, Ho, ⟨%d0, H0⟩, ⟨%d1, H1⟩, ⟨%d2, H2⟩, ⟨%d3, H3⟩, ⟨%d4, H4⟩⟩
  iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _).2.2.2.2 Set.univ _)
  isplitl [H0]; · iexact H0
  isplitl [H1]; · iexact H1
  isplitl [H2]; · iexact H2
  isplitl [H3]; · iexists _; iexact H3
  isplitl [H4]; · iexists _; iexact H4
  isplitl [HS0]; · iexact HS0
  isplitl [HS1]; · iexact HS1
  iintro ⟨H0, H1, H2, ⟨%e3, H3⟩, ⟨%e4, H4⟩, ⟨%es0, HS0⟩, ⟨%es1, HS1⟩⟩
  isplitl [HS0 HS1 Hb Hg]
  · isplitl [HS0 HS1 Hb]
    · isplitl [HS0 HS1]
      · isplitl [HS0]
        · unfold owns; iexists _; isplitr
          swap; · iexact HS0
          ipureintro; exact View.read_writes_of_cover _ _ _ _ _ (scover1_C_0 c _ _ _ _ _ _ _ _ _ _ _ _ _ _ _ _ _ _ _ _ _ _)
        · unfold owns; iexists _; isplitr
          swap; · iexact HS1
          ipureintro; exact View.read_writes_of_cover _ _ _ _ _ (scover1_C_1 c _ _ _ _ _ _ _ _ _ _ _ _ _ _ _ _ _ _ _ _ _ _)
      · iexact Hb
    · iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover1_C_3 c _ _ _ _ _ _ _ _ _ _ _ _ _ _ _ _ _ _ _ _ _ _)
  unfold owns; iexists _; isplitr
  swap; · iexact H4
  ipureintro; exact View.read_writes_of_cover _ _ _ _ _ (cover1_C_4 c _ _ _ _ _ _ _ _ _ _ _ _ _ _ _ _ _ _ _ _ _ _)

/-- The body at any point: the closed forms say which of the three cases the point is in. -/
theorem sound_body1 (c : Dev nD) (t : Fin cfg1.N) :
    bodyPre1 V c t ⊢ wp frame (wpE (defs₀ (F := F)) Variants.none c none) Set.univ (bodyAt1 t) (fun _ => bodyPost1 V c t) := by
  have hN : t.val < 10 := lt_of_lt_of_eq t.isLt (show cfg1.N = 10 from N_1)
  by_cases h0 : t.val = 0
  · exact sound_body1_A V c t h0 (by omega)
  · by_cases h1 : t.val = 9
    · exact sound_body1_C V c t h0 h1
    · exact sound_body1_B V c t h0 h1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch rows' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, Hb⟩, Hg⟩
  isplitl [HS0 HS1 Hb]
  · isplitl [HS0 HS1]
    · isplitl [HS0]
      · iexists _; iexact HS0
      · iexists _; iexact HS1
    · iexact Hb
  iexact Hg

/-- The same after the last point. -/
theorem hout1 (c : Dev nD) : (dat1 V c).Φ (Fin.last cfg1.N) ⊢ Pipeline.ΦA spec1 c :=
  Phi_out1 V c _ (by rw [Fin.val_last]; have : cfg1.N = 10 := N_1; omega)

end Cert.Kernel.Hand

end
-- ==== Proof.K.BodyR4Kit.lean ====
import proofs.«115743_j55052890800725_2_alg».proof.Proof.Gen.Kernel.Launch
import proofs.«115743_j55052890800725_2_alg».proof.Proof.Gen.Kernel.Skeleton
import proofs.«115743_j55052890800725_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4 (`cc4__bn_stats_prescale_kernel`): what its three control cases share

The body resets its two scratch rows at the grid's first point, adds the point's column sums and column sums of
squares into them at every point, and copies them into the two output windows at the last point. -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof
    data whose array is `V`'s and whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof
    data whose array is `V`'s and whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's two conditions, in closed form over the grid -/

/-- The first conditional's condition: the point is the grid's first. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)

/-- The second conditional's condition: the point is the grid's last. -/
abbrev cond4_1 (i : grid4.Coords) : Prop := k4_cond2 i = 1#1
theorem hcond4_1 : ∀ t : Fin cfg4.N, cond4_1 (grid4.coords t) ↔ t.val = 9 :=
  (by decide +kernel : ∀ t : Fin grid4.N, cond4_1 (grid4.coords t) ↔ t.val = 9)

/-! ## Where the windows are idle -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
/-- Output window 3 is idle and not written back at every point but the last, where it is live. -/
theorem idleAt4_3_A : ∀ t : Fin cfg4.N, cond4_0 (grid4.coords t) → ¬cond4_1 (grid4.coords t) → cfg4.idle 3 (grid4.coords t) = true := by decide +kernel
theorem noFlush4_3_A : ∀ t : Fin cfg4.N, cond4_0 (grid4.coords t) → ¬cond4_1 (grid4.coords t) → (cfg4.win 3).flush t = false := by decide +kernel
theorem idleAt4_3_B : ∀ t : Fin cfg4.N, ¬cond4_0 (grid4.coords t) → ¬cond4_1 (grid4.coords t) → cfg4.idle 3 (grid4.coords t) = true := by decide +kernel
theorem noFlush4_3_B : ∀ t : Fin cfg4.N, ¬cond4_0 (grid4.coords t) → ¬cond4_1 (grid4.coords t) → (cfg4.win 3).flush t = false := by decide +kernel
theorem liveAt4_3_C : ∀ t : Fin cfg4.N, ¬cond4_0 (grid4.coords t) → cond4_1 (grid4.coords t) → cfg4.idle 3 (grid4.coords t) = false := by decide +kernel
/-- Output window 4 is idle and not written back at every point but the last, where it is live. -/
theorem idleAt4_4_A : ∀ t : Fin cfg4.N, cond4_0 (grid4.coords t) → ¬cond4_1 (grid4.coords t) → cfg4.idle 4 (grid4.coords t) = true := by decide +kernel
theorem noFlush4_4_A : ∀ t : Fin cfg4.N, cond4_0 (grid4.coords t) → ¬cond4_1 (grid4.coords t) → (cfg4.win 4).flush t = false := by decide +kernel
theorem idleAt4_4_B : ∀ t : Fin cfg4.N, ¬cond4_0 (grid4.coords t) → ¬cond4_1 (grid4.coords t) → cfg4.idle 4 (grid4.coords t) = true := by decide +kernel
theorem noFlush4_4_B : ∀ t : Fin cfg4.N, ¬cond4_0 (grid4.coords t) → ¬cond4_1 (grid4.coords t) → (cfg4.win 4).flush t = false := by decide +kernel
theorem liveAt4_4_C : ∀ t : Fin cfg4.N, ¬cond4_0 (grid4.coords t) → cond4_1 (grid4.coords t) → cfg4.idle 4 (grid4.coords t) = false := by decide +kernel

/-! ## The memrefs the body is called with -/

/-- One staging buffer of each output window, through which its contents are stated. -/
abbrev VO4_3 : View sig .tc .vmem S1x96 .f32 := (Memref.whole cc4_stg3_0 : Memref sig .tc .vmem S1x96 .f32).view
abbrev VO4_4 : View sig .tc .vmem S1x96 .f32 := (Memref.whole cc4_stg4_0 : Memref sig .tc .vmem S1x96 .f32).view
abbrev ms4_0 (t : Fin cfg4.N) : Memref sig .tc .vmem S5000x96 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x1 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x96 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x96 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x96 .f32 := win4_4.stage (cfg4.slots t 4)
abbrev hs4_4 (t : Fin cfg4.N) : (ms4_4 t).IsWhole := hstage4_4 ((cfg4.slots t 4).cast nbuf4_4)
/-- The two scratch rows: whole scoped buffers of the kernel's own, carried from point to point. -/
abbrev scM4_0 : Memref sig .tc .vmem S1x96 .f32 := Memref.whole cc4_scratch0
abbrev scM4_1 : Memref sig .tc .vmem S1x96 .f32 := Memref.whole cc4_scratch1
abbrev VS4_0 : View sig .tc .vmem S1x96 .f32 := scM4_0.view
abbrev VS4_1 : View sig .tc .vmem S1x96 .f32 := scM4_1.view

/-- The class's invariant with the two scratch rows as memrefs owned at some contents, the other scoped buffers
    unopened. -/
theorem PhiA4_eq (c : Dev nD) :
    (Pipeline.ΦA spec4 c : sProp 𝕄)
      = iprop((iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

end Cert.Kernel.Hand

end
-- ==== Proof.K.BodyR4Runs.lean ====
import proofs.«115743_j55052890800725_2_alg».proof.Proof.K.BodyR4Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4 (`cc4__bn_stats_prescale_kernel`): the body run in each of its three control cases -/

set_option maxHeartbeats 1000000 in
/-- The body at the grid's first point (both scratch rows reset, then accumulated into; the output windows untouched): the pieces its stores leave in each output window's buffer and in each scratch row (last
    first), with the triple — from the inputs' buffers at their contents, the outputs' at contents handed back untouched, the scratch rows at anything,
    the body runs to the continuation holding the inputs' buffers as they were and every stored buffer with its pieces
    written. -/
noncomputable def kernelRun4_A (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : cond4_0 i) (hc1 : ¬cond4_1 i)
    (x0 : Vec F S5000x96 .f32) (x1 : Vec F S5000x1 .f32) (x2 : Vec F S1x96 .f32) :
    Σ' (L3 : List (View.Piece (Elt F) S1x96 .f32)) (L4 : List (View.Piece (Elt F) S1x96 .f32)) (LS0 : List (View.Piece (Elt F) S1x96 .f32)), { LS1 : List (View.Piece (Elt F) S1x96 .f32) //
      ∀ (xi3 xi4 : Vec F S1x96 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc4__bn_stats_prescale_kernel i arg1 harg1 arg2 harg2 arg3 harg3 arg4 harg4 arg5 harg5 arg6 harg6 arg7 harg7) K } := by
  refine ⟨[], [], ?_, ?_, fun xi3 xi4 E K => ?run⟩
  case run =>
    simp only [cc4__bn_stats_prescale_kernel_eq_skeleton]; unfold cc4__bn_stats_prescale_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

set_option maxHeartbeats 1000000 in
/-- The body at a middle point (both scratch rows accumulated into; the output windows untouched): the pieces its stores leave in each output window's buffer and in each scratch row (last
    first), with the triple — from the inputs' buffers at their contents, the outputs' at contents handed back untouched, the scratch rows at what the point before left,
    the body runs to the continuation holding the inputs' buffers as they were and every stored buffer with its pieces
    written. -/
noncomputable def kernelRun4_B (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond4_0 i) (hc1 : ¬cond4_1 i)
    (x0 : Vec F S5000x96 .f32) (x1 : Vec F S5000x1 .f32) (x2 : Vec F S1x96 .f32) (xs0 : Vec F S1x96 .f32) (xs1 : Vec F S1x96 .f32) :
    Σ' (L3 : List (View.Piece (Elt F) S1x96 .f32)) (L4 : List (View.Piece (Elt F) S1x96 .f32)) (LS0 : List (View.Piece (Elt F) S1x96 .f32)), { LS1 : List (View.Piece (Elt F) S1x96 .f32) //
      ∀ (xi3 xi4 : Vec F S1x96 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc4__bn_stats_prescale_kernel i arg1 harg1 arg2 harg2 arg3 harg3 arg4 harg4 arg5 harg5 arg6 harg6 arg7 harg7) K } := by
  refine ⟨[], [], ?_, ?_, fun xi3 xi4 E K => ?run⟩
  case run =>
    simp only [cc4__bn_stats_prescale_kernel_eq_skeleton]; unfold cc4__bn_stats_prescale_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

set_option maxHeartbeats 1000000 in
/-- The body at the grid's last point (both scratch rows accumulated into, then copied into the output windows): the pieces its stores leave in each output window's buffer and in each scratch row (last
    first), with the triple — from the inputs' buffers at their contents, the outputs' at anything, the scratch rows at what the point before left,
    the body runs to the continuation holding the inputs' buffers as they were and every stored buffer with its pieces
    written. -/
noncomputable def kernelRun4_C (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond4_0 i) (hc1 : cond4_1 i)
    (x0 : Vec F S5000x96 .f32) (x1 : Vec F S5000x1 .f32) (x2 : Vec F S1x96 .f32) (xs0 : Vec F S1x96 .f32) (xs1 : Vec F S1x96 .f32) :
    Σ' (L3 : List (View.Piece (Elt F) S1x96 .f32)) (L4 : List (View.Piece (Elt F) S1x96 .f32)) (LS0 : List (View.Piece (Elt F) S1x96 .f32)), { LS1 : List (View.Piece (Elt F) S1x96 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc4__bn_stats_prescale_kernel i arg1 harg1 arg2 harg2 arg3 harg3 arg4 harg4 arg5 harg5 arg6 harg6 arg7 harg7) K } := by
  refine ⟨?_, ?_, ?_, ?_, fun E K => ?run⟩
  case run =>
    simp only [cc4__bn_stats_prescale_kernel_eq_skeleton]; unfold cc4__bn_stats_prescale_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [HS0]; · iexists _; iexact HS0
    iexists _; iexact HS1

end Cert.Kernel.Hand

end
-- ==== Proof.K.BodyR4.lean ====
import proofs.«115743_j55052890800725_2_alg».proof.Proof.K.BodyR4Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4 (`cc4__bn_stats_prescale_kernel`): what its buffers hold point by point, the proof data, the body obligation -/

/-! ## What each case leaves in the output windows' buffers and in the scratch rows -/

/-- Case A stores nothing into output window 3 (idle there and not written back): a placeholder nothing consults. -/
def out4_A_3 (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : cond4_0 i) (hc1 : ¬cond4_1 i)
    (x0 : Vec F S5000x96 .f32) (x1 : Vec F S5000x1 .f32) (x2 : Vec F S1x96 .f32) : Vec F S1x96 .f32 :=
  VO4_3.read (Elt F) (VO4_3.writes (Elt F) VO4_3.junk (kernelRun4_A c i arg1 harg1 arg2 harg2 arg3 harg3 arg4 harg4 arg5 harg5 arg6 harg6 arg7 harg7 hc0 hc1 x0 x1 x2).1)

/-- Case A stores nothing into output window 4 (idle there and not written back): a placeholder nothing consults. -/
def out4_A_4 (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : cond4_0 i) (hc1 : ¬cond4_1 i)
    (x0 : Vec F S5000x96 .f32) (x1 : Vec F S5000x1 .f32) (x2 : Vec F S1x96 .f32) : Vec F S1x96 .f32 :=
  VO4_4.read (Elt F) (VO4_4.writes (Elt F) VO4_4.junk (kernelRun4_A c i arg1 harg1 arg2 harg2 arg3 harg3 arg4 harg4 arg5 harg5 arg6 harg6 arg7 harg7 hc0 hc1 x0 x1 x2).2.1)

/-- Case A's stores into scratch row 0 cover it. -/
theorem scover4_A_0 (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : cond4_0 i) (hc1 : ¬cond4_1 i)
    (x0 : Vec F S5000x96 .f32) (x1 : Vec F S5000x1 .f32) (x2 : Vec F S1x96 .f32) (y : S1x96.Idx) :
    ∃ pc ∈ (kernelRun4_A c i arg1 harg1 arg2 harg2 arg3 harg3 arg4 harg4 arg5 harg5 arg6 harg6 arg7 harg7 hc0 hc1 x0 x1 x2).2.2.1, y ∈ pc.1.set :=
  View.cover_of_tiledL (kernelRun4_A c i arg1 harg1 arg2 harg2 arg3 harg3 arg4 harg4 arg5 harg5 arg6 harg6 arg7 harg7 hc0 hc1 x0 x1 x2).2.2.1 S1x96.size (by sl_kernel_rfl) y

/-- What case A leaves in scratch row 0: its pieces read back. -/
def sout4_A_0 (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : cond4_0 i) (hc1 : ¬cond4_1 i)
    (x0 : Vec F S5000x96 .f32) (x1 : Vec F S5000x1 .f32) (x2 : Vec F S1x96 .f32) : Vec F S1x96 .f32 :=
  VS4_0.read (Elt F) (VS4_0.writes (Elt F) VS4_0.junk (kernelRun4_A c i arg1 harg1 arg2 harg2 arg3 harg3 arg4 harg4 arg5 harg5 arg6 harg6 arg7 harg7 hc0 hc1 x0 x1 x2).2.2.1)

/-- Case A's stores into scratch row 1 cover it. -/
theorem scover4_A_1 (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : cond4_0 i) (hc1 : ¬cond4_1 i)
    (x0 : Vec F S5000x96 .f32) (x1 : Vec F S5000x1 .f32) (x2 : Vec F S1x96 .f32) (y : S1x96.Idx) :
    ∃ pc ∈ (kernelRun4_A c i arg1 harg1 arg2 harg2 arg3 harg3 arg4 harg4 arg5 harg5 arg6 harg6 arg7 harg7 hc0 hc1 x0 x1 x2).2.2.2.1, y ∈ pc.1.set :=
  View.cover_of_tiledL (kernelRun4_A c i arg1 harg1 arg2 harg2 arg3 harg3 arg4 harg4 arg5 harg5 arg6 harg6 arg7 harg7 hc0 hc1 x0 x1 x2).2.2.2.1 S1x96.size (by sl_kernel_rfl) y

/-- What case A leaves in scratch row 1: its pieces read back. -/
def sout4_A_1 (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : cond4_0 i) (hc1 : ¬cond4_1 i)
    (x0 : Vec F S5000x96 .f32) (x1 : Vec F S5000x1 .f32) (x2 : Vec F S1x96 .f32) : Vec F S1x96 .f32 :=
  VS4_1.read (Elt F) (VS4_1.writes (Elt F) VS4_1.junk (kernelRun4_A c i arg1 harg1 arg2 harg2 arg3 harg3 arg4 harg4 arg5 harg5 arg6 harg6 arg7 harg7 hc0 hc1 x0 x1 x2).2.2.2.1)

/-- Case B stores nothing into output window 3 (idle there and not written back): a placeholder nothing consults. -/
def out4_B_3 (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond4_0 i) (hc1 : ¬cond4_1 i)
    (x0 : Vec F S5000x96 .f32) (x1 : Vec F S5000x1 .f32) (x2 : Vec F S1x96 .f32) (xs0 : Vec F S1x96 .f32) (xs1 : Vec F S1x96 .f32) : Vec F S1x96 .f32 :=
  VO4_3.read (Elt F) (VO4_3.writes (Elt F) VO4_3.junk (kernelRun4_B c i arg1 harg1 arg2 harg2 arg3 harg3 arg4 harg4 arg5 harg5 arg6 harg6 arg7 harg7 hc0 hc1 x0 x1 x2 xs0 xs1).1)

/-- Case B stores nothing into output window 4 (idle there and not written back): a placeholder nothing consults. -/
def out4_B_4 (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond4_0 i) (hc1 : ¬cond4_1 i)
    (x0 : Vec F S5000x96 .f32) (x1 : Vec F S5000x1 .f32) (x2 : Vec F S1x96 .f32) (xs0 : Vec F S1x96 .f32) (xs1 : Vec F S1x96 .f32) : Vec F S1x96 .f32 :=
  VO4_4.read (Elt F) (VO4_4.writes (Elt F) VO4_4.junk (kernelRun4_B c i arg1 harg1 arg2 harg2 arg3 harg3 arg4 harg4 arg5 harg5 arg6 harg6 arg7 harg7 hc0 hc1 x0 x1 x2 xs0 xs1).2.1)

/-- Case B's stores into scratch row 0 cover it. -/
theorem scover4_B_0 (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond4_0 i) (hc1 : ¬cond4_1 i)
    (x0 : Vec F S5000x96 .f32) (x1 : Vec F S5000x1 .f32) (x2 : Vec F S1x96 .f32) (xs0 : Vec F S1x96 .f32) (xs1 : Vec F S1x96 .f32) (y : S1x96.Idx) :
    ∃ pc ∈ (kernelRun4_B c i arg1 harg1 arg2 harg2 arg3 harg3 arg4 harg4 arg5 harg5 arg6 harg6 arg7 harg7 hc0 hc1 x0 x1 x2 xs0 xs1).2.2.1, y ∈ pc.1.set :=
  View.cover_of_tiledL (kernelRun4_B c i arg1 harg1 arg2 harg2 arg3 harg3 arg4 harg4 arg5 harg5 arg6 harg6 arg7 harg7 hc0 hc1 x0 x1 x2 xs0 xs1).2.2.1 S1x96.size (by sl_kernel_rfl) y

/-- What case B leaves in scratch row 0: its pieces read back. -/
def sout4_B_0 (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond4_0 i) (hc1 : ¬cond4_1 i)
    (x0 : Vec F S5000x96 .f32) (x1 : Vec F S5000x1 .f32) (x2 : Vec F S1x96 .f32) (xs0 : Vec F S1x96 .f32) (xs1 : Vec F S1x96 .f32) : Vec F S1x96 .f32 :=
  VS4_0.read (Elt F) (VS4_0.writes (Elt F) VS4_0.junk (kernelRun4_B c i arg1 harg1 arg2 harg2 arg3 harg3 arg4 harg4 arg5 harg5 arg6 harg6 arg7 harg7 hc0 hc1 x0 x1 x2 xs0 xs1).2.2.1)

/-- Case B's stores into scratch row 1 cover it. -/
theorem scover4_B_1 (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond4_0 i) (hc1 : ¬cond4_1 i)
    (x0 : Vec F S5000x96 .f32) (x1 : Vec F S5000x1 .f32) (x2 : Vec F S1x96 .f32) (xs0 : Vec F S1x96 .f32) (xs1 : Vec F S1x96 .f32) (y : S1x96.Idx) :
    ∃ pc ∈ (kernelRun4_B c i arg1 harg1 arg2 harg2 arg3 harg3 arg4 harg4 arg5 harg5 arg6 harg6 arg7 harg7 hc0 hc1 x0 x1 x2 xs0 xs1).2.2.2.1, y ∈ pc.1.set :=
  View.cover_of_tiledL (kernelRun4_B c i arg1 harg1 arg2 harg2 arg3 harg3 arg4 harg4 arg5 harg5 arg6 harg6 arg7 harg7 hc0 hc1 x0 x1 x2 xs0 xs1).2.2.2.1 S1x96.size (by sl_kernel_rfl) y

/-- What case B leaves in scratch row 1: its pieces read back. -/
def sout4_B_1 (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond4_0 i) (hc1 : ¬cond4_1 i)
    (x0 : Vec F S5000x96 .f32) (x1 : Vec F S5000x1 .f32) (x2 : Vec F S1x96 .f32) (xs0 : Vec F S1x96 .f32) (xs1 : Vec F S1x96 .f32) : Vec F S1x96 .f32 :=
  VS4_1.read (Elt F) (VS4_1.writes (Elt F) VS4_1.junk (kernelRun4_B c i arg1 harg1 arg2 harg2 arg3 harg3 arg4 harg4 arg5 harg5 arg6 harg6 arg7 harg7 hc0 hc1 x0 x1 x2 xs0 xs1).2.2.2.1)

/-- At the last point the store into output window 3 covers its block. -/
theorem cover4_C_3 (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond4_0 i) (hc1 : cond4_1 i)
    (x0 : Vec F S5000x96 .f32) (x1 : Vec F S5000x1 .f32) (x2 : Vec F S1x96 .f32) (xs0 : Vec F S1x96 .f32) (xs1 : Vec F S1x96 .f32) (y : S1x96.Idx) :
    ∃ pc ∈ (kernelRun4_C c i arg1 harg1 arg2 harg2 arg3 harg3 arg4 harg4 arg5 harg5 arg6 harg6 arg7 harg7 hc0 hc1 x0 x1 x2 xs0 xs1).1, y ∈ pc.1.set :=
  View.cover_of_tiledL (kernelRun4_C c i arg1 harg1 arg2 harg2 arg3 harg3 arg4 harg4 arg5 harg5 arg6 harg6 arg7 harg7 hc0 hc1 x0 x1 x2 xs0 xs1).1 S1x96.size (by sl_kernel_rfl) y

/-- What the last point leaves in output window 3's buffer: its pieces read back. -/
def out4_C_3 (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond4_0 i) (hc1 : cond4_1 i)
    (x0 : Vec F S5000x96 .f32) (x1 : Vec F S5000x1 .f32) (x2 : Vec F S1x96 .f32) (xs0 : Vec F S1x96 .f32) (xs1 : Vec F S1x96 .f32) : Vec F S1x96 .f32 :=
  VO4_3.read (Elt F) (VO4_3.writes (Elt F) VO4_3.junk (kernelRun4_C c i arg1 harg1 arg2 harg2 arg3 harg3 arg4 harg4 arg5 harg5 arg6 harg6 arg7 harg7 hc0 hc1 x0 x1 x2 xs0 xs1).1)

/-- At the last point the store into output window 4 covers its block. -/
theorem cover4_C_4 (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond4_0 i) (hc1 : cond4_1 i)
    (x0 : Vec F S5000x96 .f32) (x1 : Vec F S5000x1 .f32) (x2 : Vec F S1x96 .f32) (xs0 : Vec F S1x96 .f32) (xs1 : Vec F S1x96 .f32) (y : S1x96.Idx) :
    ∃ pc ∈ (kernelRun4_C c i arg1 harg1 arg2 harg2 arg3 harg3 arg4 harg4 arg5 harg5 arg6 harg6 arg7 harg7 hc0 hc1 x0 x1 x2 xs0 xs1).2.1, y ∈ pc.1.set :=
  View.cover_of_tiledL (kernelRun4_C c i arg1 harg1 arg2 harg2 arg3 harg3 arg4 harg4 arg5 harg5 arg6 harg6 arg7 harg7 hc0 hc1 x0 x1 x2 xs0 xs1).2.1 S1x96.size (by sl_kernel_rfl) y

/-- What the last point leaves in output window 4's buffer: its pieces read back. -/
def out4_C_4 (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond4_0 i) (hc1 : cond4_1 i)
    (x0 : Vec F S5000x96 .f32) (x1 : Vec F S5000x1 .f32) (x2 : Vec F S1x96 .f32) (xs0 : Vec F S1x96 .f32) (xs1 : Vec F S1x96 .f32) : Vec F S1x96 .f32 :=
  VO4_4.read (Elt F) (VO4_4.writes (Elt F) VO4_4.junk (kernelRun4_C c i arg1 harg1 arg2 harg2 arg3 harg3 arg4 harg4 arg5 harg5 arg6 harg6 arg7 harg7 hc0 hc1 x0 x1 x2 xs0 xs1).2.1)

/-- Case C's stores into scratch row 0 cover it. -/
theorem scover4_C_0 (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond4_0 i) (hc1 : cond4_1 i)
    (x0 : Vec F S5000x96 .f32) (x1 : Vec F S5000x1 .f32) (x2 : Vec F S1x96 .f32) (xs0 : Vec F S1x96 .f32) (xs1 : Vec F S1x96 .f32) (y : S1x96.Idx) :
    ∃ pc ∈ (kernelRun4_C c i arg1 harg1 arg2 harg2 arg3 harg3 arg4 harg4 arg5 harg5 arg6 harg6 arg7 harg7 hc0 hc1 x0 x1 x2 xs0 xs1).2.2.1, y ∈ pc.1.set :=
  View.cover_of_tiledL (kernelRun4_C c i arg1 harg1 arg2 harg2 arg3 harg3 arg4 harg4 arg5 harg5 arg6 harg6 arg7 harg7 hc0 hc1 x0 x1 x2 xs0 xs1).2.2.1 S1x96.size (by sl_kernel_rfl) y

/-- What case C leaves in scratch row 0: its pieces read back. -/
def sout4_C_0 (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond4_0 i) (hc1 : cond4_1 i)
    (x0 : Vec F S5000x96 .f32) (x1 : Vec F S5000x1 .f32) (x2 : Vec F S1x96 .f32) (xs0 : Vec F S1x96 .f32) (xs1 : Vec F S1x96 .f32) : Vec F S1x96 .f32 :=
  VS4_0.read (Elt F) (VS4_0.writes (Elt F) VS4_0.junk (kernelRun4_C c i arg1 harg1 arg2 harg2 arg3 harg3 arg4 harg4 arg5 harg5 arg6 harg6 arg7 harg7 hc0 hc1 x0 x1 x2 xs0 xs1).2.2.1)

/-- Case C's stores into scratch row 1 cover it. -/
theorem scover4_C_1 (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond4_0 i) (hc1 : cond4_1 i)
    (x0 : Vec F S5000x96 .f32) (x1 : Vec F S5000x1 .f32) (x2 : Vec F S1x96 .f32) (xs0 : Vec F S1x96 .f32) (xs1 : Vec F S1x96 .f32) (y : S1x96.Idx) :
    ∃ pc ∈ (kernelRun4_C c i arg1 harg1 arg2 harg2 arg3 harg3 arg4 harg4 arg5 harg5 arg6 harg6 arg7 harg7 hc0 hc1 x0 x1 x2 xs0 xs1).2.2.2.1, y ∈ pc.1.set :=
  View.cover_of_tiledL (kernelRun4_C c i arg1 harg1 arg2 harg2 arg3 harg3 arg4 harg4 arg5 harg5 arg6 harg6 arg7 harg7 hc0 hc1 x0 x1 x2 xs0 xs1).2.2.2.1 S1x96.size (by sl_kernel_rfl) y

/-- What case C leaves in scratch row 1: its pieces read back. -/
def sout4_C_1 (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond4_0 i) (hc1 : cond4_1 i)
    (x0 : Vec F S5000x96 .f32) (x1 : Vec F S5000x1 .f32) (x2 : Vec F S1x96 .f32) (xs0 : Vec F S1x96 .f32) (xs1 : Vec F S1x96 .f32) : Vec F S1x96 .f32 :=
  VS4_1.read (Elt F) (VS4_1.writes (Elt F) VS4_1.junk (kernelRun4_C c i arg1 harg1 arg2 harg2 arg3 harg3 arg4 harg4 arg5 harg5 arg6 harg6 arg7 harg7 hc0 hc1 x0 x1 x2 xs0 xs1).2.2.2.1)

/-! ## What the buffers hold after each point -/

/-- THE ACCUMULATION. After the body at position `n`: (output window 3's buffer, output window 4's buffer, scratch
    row 0, scratch row 1) — the first point's case at the point's blocks; a later point's case at the point's blocks and
    the scratch rows as the point before left them. -/
def outsAt4 (c : Dev nD) : (n : ℕ) → n < cfg4.N → Vec F S1x96 .f32 × Vec F S1x96 .f32 × Vec F S1x96 .f32 × Vec F S1x96 .f32
  | 0, hn => (out4_A_3 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) scM4_0 (Memref.isWhole_whole _) scM4_1 (Memref.isWhole_whole _) ((hcond4_0 ⟨0, hn⟩).mpr rfl) (fun h => (fun h => by (try dsimp only at h); omega) ((hcond4_1 ⟨0, hn⟩).mp h)) (iblk4 V c 0 ⟨0, hn⟩) (iblk4 V c 1 ⟨0, hn⟩) (iblk4 V c 2 ⟨0, hn⟩), out4_A_4 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) scM4_0 (Memref.isWhole_whole _) scM4_1 (Memref.isWhole_whole _) ((hcond4_0 ⟨0, hn⟩).mpr rfl) (fun h => (fun h => by (try dsimp only at h); omega) ((hcond4_1 ⟨0, hn⟩).mp h)) (iblk4 V c 0 ⟨0, hn⟩) (iblk4 V c 1 ⟨0, hn⟩) (iblk4 V c 2 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) scM4_0 (Memref.isWhole_whole _) scM4_1 (Memref.isWhole_whole _) ((hcond4_0 ⟨0, hn⟩).mpr rfl) (fun h => (fun h => by (try dsimp only at h); omega) ((hcond4_1 ⟨0, hn⟩).mp h)) (iblk4 V c 0 ⟨0, hn⟩) (iblk4 V c 1 ⟨0, hn⟩) (iblk4 V c 2 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) scM4_0 (Memref.isWhole_whole _) scM4_1 (Memref.isWhole_whole _) ((hcond4_0 ⟨0, hn⟩).mpr rfl) (fun h => (fun h => by (try dsimp only at h); omega) ((hcond4_1 ⟨0, hn⟩).mp h)) (iblk4 V c 0 ⟨0, hn⟩) (iblk4 V c 1 ⟨0, hn⟩) (iblk4 V c 2 ⟨0, hn⟩))
  | n + 1, hn =>
    if h1 : n + 1 = 9 then
      (out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2.1 (outsAt4 c n (Nat.lt_of_succ_lt hn)).2.2.2, out4_C_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2.1 (outsAt4 c n (Nat.lt_of_succ_lt hn)).2.2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2.1 (outsAt4 c n (Nat.lt_of_succ_lt hn)).2.2.2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2.1 (outsAt4 c n (Nat.lt_of_succ_lt hn)).2.2.2)
    else
      (out4_B_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.2.1 (outsAt4 c n (Nat.lt_of_succ_lt hn)).2.2.2, out4_B_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.2.1 (outsAt4 c n (Nat.lt_of_succ_lt hn)).2.2.2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.2.1 (outsAt4 c n (Nat.lt_of_succ_lt hn)).2.2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.2.1 (outsAt4 c n (Nat.lt_of_succ_lt hn)).2.2.2)

/-- `outsAt4` at the first point. -/
theorem outsAt4_A (c : Dev nD) (t : Fin cfg4.N) (h0 : t.val = 0) (h1 : ¬t.val = 9) :
    outsAt4 V c t.val t.isLt = (out4_A_3 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) ((hcond4_0 t).mpr h0) (fun h => h1 ((hcond4_1 t).mp h)) (iblk4 V c 0 t) (iblk4 V c 1 t) (iblk4 V c 2 t), out4_A_4 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) ((hcond4_0 t).mpr h0) (fun h => h1 ((hcond4_1 t).mp h)) (iblk4 V c 0 t) (iblk4 V c 1 t) (iblk4 V c 2 t), sout4_A_0 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) ((hcond4_0 t).mpr h0) (fun h => h1 ((hcond4_1 t).mp h)) (iblk4 V c 0 t) (iblk4 V c 1 t) (iblk4 V c 2 t), sout4_A_1 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) ((hcond4_0 t).mpr h0) (fun h => h1 ((hcond4_1 t).mp h)) (iblk4 V c 0 t) (iblk4 V c 1 t) (iblk4 V c 2 t)) := by
  obtain ⟨n, hn⟩ := t
  cases n with
  | zero => exact rfl
  | succ n => exact absurd h0 (Nat.succ_ne_zero n)

/-- `outsAt4` at a middle point: over what the point before left in the scratch rows. -/
theorem outsAt4_B (c : Dev nD) (t : Fin cfg4.N) (h0 : ¬t.val = 0) (h1 : ¬t.val = 9) :
    outsAt4 V c t.val t.isLt = (out4_B_3 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2.2.1 (outsAt4 V c (t.val - 1) (Nat.lt_of_le_of_lt (Nat.sub_le _ _) t.isLt)).2.2.2, out4_B_4 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_B_0 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_B_1 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2.2.1 (outsAt4 V c (t.val - 1) (Nat.lt_of_le_of_lt (Nat.sub_le _ _) t.isLt)).2.2.2) := by
  obtain ⟨n, hn⟩ := t
  cases n with
  | zero => exact absurd rfl h0
  | succ n => exact (dif_neg h1).trans rfl

/-- `outsAt4` at the last point: over what the point before left in the scratch rows. -/
theorem outsAt4_C (c : Dev nD) (t : Fin cfg4.N) (h0 : ¬t.val = 0) (h1 : t.val = 9) :
    outsAt4 V c t.val t.isLt = (out4_C_3 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.1 (outsAt4 V c (t.val - 1) (Nat.lt_of_le_of_lt (Nat.sub_le _ _) t.isLt)).2.2.2, out4_C_4 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_C_0 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_C_1 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.1 (outsAt4 V c (t.val - 1) (Nat.lt_of_le_of_lt (Nat.sub_le _ _) t.isLt)).2.2.2) := by
  obtain ⟨n, hn⟩ := t
  cases n with
  | zero => exact absurd rfl h0
  | succ n => exact (dif_pos h1).trans rfl

/-! ## The region invariant -/

/-- Before position `n`: before the first point the class's invariant (every scoped buffer at anything); afterwards the
    two scratch rows at what the point before left in them, the other scoped buffers at anything, the generator
    register at some state. -/
def PhiS4 (c : Dev nD) : (n : ℕ) → n ≤ cfg4.N → sProp 𝕄
  | 0, _ => Pipeline.ΦA spec4 c
  | n + 1, hn => iprop((iprop(owns (c : Thread nD τ) scM4_0 fullShare (outsAt4 V c n hn).2.2.1 ∗ owns (c : Thread nD τ) scM4_1 fullShare (outsAt4 V c n hn).2.2.2)
      ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop((iprop(owns (c : Thread nD τ) scM4_0 fullShare (outsAt4 V c n hn).2.2.1 ∗ owns (c : Thread nD τ) scM4_1 fullShare (outsAt4 V c n hn).2.2.2)
      ∗ Pipeline.scopedRestBut (Ix := Unit) (Name := ℕ) (U := UR sig nD τ) (Lvl := ℕ) (Val := Elt F) spec4 c [cc4_scratch0, cc4_scratch1]) ∗ (∃ r, prngReg c r)) := rfl

theorem PhiS4_pos (c : Dev nD) (n : ℕ) (h : n ≤ cfg4.N) (hz : n ≠ 0) :
    PhiS4 V c n h = iprop((iprop(owns (c : Thread nD τ) scM4_0 fullShare (outsAt4 V c (n - 1) (by omega)).2.2.1 ∗ owns (c : Thread nD τ) scM4_1 fullShare (outsAt4 V c (n - 1) (by omega)).2.2.2)
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The pipeline's proof data -/

/-- The proof data of the region on core `c`: the arrays as the region finds them (`V`); after the body at point `t`
    each input's buffer at its block and the outputs' at `outsAt4`; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
    | ⟨4, _⟩ => (outsAt4 V c t.val t.isLt).2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]
theorem after4_4 (c : Dev nD) (t : Fin cfg4.N) : (dat4 V c).after 4 t = (outsAt4 V c t.val t.isLt).2.1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 4800000 in
/-- The body at the first point: the invariant hands it the scratch rows at anything and takes them back at this point's contents; the output windows, idle, are handed back untouched. -/
theorem sound_body4_A (c : Dev nD) (t : Fin cfg4.N) (h0 : t.val = 0) (h1 : ¬t.val = 9) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [Dat.leavesExact_idle (dat4 V c) 3 t (idleAt4_3_A t ((hcond4_0 t).mpr h0) (fun h => h1 ((hcond4_1 t).mp h))) (noFlush4_3_A t ((hcond4_0 t).mpr h0) (fun h => h1 ((hcond4_1 t).mp h)))]
  rw [Dat.leavesExact_idle (dat4 V c) 4 t (idleAt4_4_A t ((hcond4_0 t).mpr h0) (fun h => h1 ((hcond4_1 t).mp h))) (noFlush4_4_A t ((hcond4_0 t).mpr h0) (fun h => h1 ((hcond4_1 t).mp h)))]
  rw [outsAt4_A V c t h0 h1]
  unfold sout4_A_0 sout4_A_1; (try dsimp only)
  rw [PhiS4_castSucc V c t, PhiS4_zero V c _ _ h0, PhiA4_eq]
  iintro ⟨⟨⟨⟨HS0, HS1⟩, Hb⟩, Hg⟩, Ho, ⟨%d0, H0⟩, ⟨%d1, H1⟩, ⟨%d2, H2⟩, ⟨%d3, H3⟩, ⟨%d4, H4⟩⟩
  iapply ((kernelRun4_A c (grid4.coords t) _ _ _ _ _ _ _ _ _ _ _ _ _ _ ((hcond4_0 t).mpr h0) (fun h => h1 ((hcond4_1 t).mp h)) (iblk4 V c 0 t) (iblk4 V c 1 t) (iblk4 V c 2 t)).2.2.2.2 _ _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  iintro ⟨H0, H1, H2, H3, H4, ⟨%es0, HS0⟩, ⟨%es1, HS1⟩⟩
  isplitl [HS0 HS1 Hb Hg]
  · isplitl [HS0 HS1 Hb]
    · isplitl [HS0 HS1]
      · isplitl [HS0]
        · unfold owns; iexists _; isplitr
          swap; · iexact HS0
          ipureintro; exact View.read_writes_of_cover _ _ _ _ _ (scover4_A_0 c _ _ _ _ _ _ _ _ _ _ _ _ _ _ _ _ _ _ _ _)
        · unfold owns; iexists _; isplitr
          swap; · iexact HS1
          ipureintro; exact View.read_writes_of_cover _ _ _ _ _ (scover4_A_1 c _ _ _ _ _ _ _ _ _ _ _ _ _ _ _ _ _ _ _ _)
      · iexact Hb
    · iexact Hg
  isplitl [Ho]; · iexact Ho
  isplitl [H0]; · iexact H0
  isplitl [H1]; · iexact H1
  isplitl [H2]; · iexact H2
  isplitl [H3]; · iexists _; iexact H3
  iexists _; iexact H4

set_option maxHeartbeats 4800000 in
/-- The body at a middle point: the invariant hands it the scratch rows at what the point before left and takes them back at this point's contents; the output windows, idle, are handed back untouched. -/
theorem sound_body4_B (c : Dev nD) (t : Fin cfg4.N) (h0 : ¬t.val = 0) (h1 : ¬t.val = 9) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [Dat.leavesExact_idle (dat4 V c) 3 t (idleAt4_3_B t (fun h => h0 ((hcond4_0 t).mp h)) (fun h => h1 ((hcond4_1 t).mp h))) (noFlush4_3_B t (fun h => h0 ((hcond4_0 t).mp h)) (fun h => h1 ((hcond4_1 t).mp h)))]
  rw [Dat.leavesExact_idle (dat4 V c) 4 t (idleAt4_4_B t (fun h => h0 ((hcond4_0 t).mp h)) (fun h => h1 ((hcond4_1 t).mp h))) (noFlush4_4_B t (fun h => h0 ((hcond4_0 t).mp h)) (fun h => h1 ((hcond4_1 t).mp h)))]
  rw [outsAt4_B V c t h0 h1]
  unfold sout4_B_0 sout4_B_1; (try dsimp only)
  rw [PhiS4_castSucc V c t, PhiS4_pos V c _ _ h0]
  iintro ⟨⟨⟨⟨HS0, HS1⟩, Hb⟩, Hg⟩, Ho, ⟨%d0, H0⟩, ⟨%d1, H1⟩, ⟨%d2, H2⟩, ⟨%d3, H3⟩, ⟨%d4, H4⟩⟩
  iapply ((kernelRun4_B c (grid4.coords t) _ _ _ _ _ _ _ _ _ _ _ _ _ _ (fun h => h0 ((hcond4_0 t).mp h)) (fun h => h1 ((hcond4_1 t).mp h)) (iblk4 V c 0 t) (iblk4 V c 1 t) (iblk4 V c 2 t) _ _).2.2.2.2 _ _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  iintro ⟨H0, H1, H2, H3, H4, ⟨%es0, HS0⟩, ⟨%es1, HS1⟩⟩
  isplitl [HS0 HS1 Hb Hg]
  · isplitl [HS0 HS1 Hb]
    · isplitl [HS0 HS1]
      · isplitl [HS0]
        · unfold owns; iexists _; isplitr
          swap; · iexact HS0
          ipureintro; exact View.read_writes_of_cover _ _ _ _ _ (scover4_B_0 c _ _ _ _ _ _ _ _ _ _ _ _ _ _ _ _ _ _ _ _ _ _)
        · unfold owns; iexists _; isplitr
          swap; · iexact HS1
          ipureintro; exact View.read_writes_of_cover _ _ _ _ _ (scover4_B_1 c _ _ _ _ _ _ _ _ _ _ _ _ _ _ _ _ _ _ _ _ _ _)
      · iexact Hb
    · iexact Hg
  isplitl [Ho]; · iexact Ho
  isplitl [H0]; · iexact H0
  isplitl [H1]; · iexact H1
  isplitl [H2]; · iexact H2
  isplitl [H3]; · iexists _; iexact H3
  iexists _; iexact H4

set_option maxHeartbeats 4800000 in
/-- The body at the last point: the invariant hands it the scratch rows at what the point before left and takes them back at this point's contents; the output windows are left at the copied rows. -/
theorem sound_body4_C (c : Dev nD) (t : Fin cfg4.N) (h0 : ¬t.val = 0) (h1 : t.val = 9) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3_C t (fun h => h0 ((hcond4_0 t).mp h)) ((hcond4_1 t).mpr h1)], after4_3]
  rw [show (dat4 V c).leavesExact 4 t = owns (c : Thread nD τ) (ms4_4 t) fullShare ((dat4 V c).after 4 t) from by
    unfold Dat.leavesExact; rw [liveAt4_4_C t (fun h => h0 ((hcond4_0 t).mp h)) ((hcond4_1 t).mpr h1)], after4_4]
  rw [outsAt4_C V c t h0 h1]
  unfold out4_C_3 out4_C_4 sout4_C_0 sout4_C_1; (try dsimp only)
  rw [PhiS4_castSucc V c t, PhiS4_pos V c _ _ h0]
  iintro ⟨⟨⟨⟨HS0, HS1⟩, Hb⟩, Hg⟩, Ho, ⟨%d0, H0⟩, ⟨%d1, H1⟩, ⟨%d2, H2⟩, ⟨%d3, H3⟩, ⟨%d4, H4⟩⟩
  iapply ((kernelRun4_C c (grid4.coords t) _ _ _ _ _ _ _ _ _ _ _ _ _ _ (fun h => h0 ((hcond4_0 t).mp h)) ((hcond4_1 t).mpr h1) (iblk4 V c 0 t) (iblk4 V c 1 t) (iblk4 V c 2 t) _ _).2.2.2.2 Set.univ _)
  isplitl [H0]; · iexact H0
  isplitl [H1]; · iexact H1
  isplitl [H2]; · iexact H2
  isplitl [H3]; · iexists _; iexact H3
  isplitl [H4]; · iexists _; iexact H4
  isplitl [HS0]; · iexact HS0
  isplitl [HS1]; · iexact HS1
  iintro ⟨H0, H1, H2, ⟨%e3, H3⟩, ⟨%e4, H4⟩, ⟨%es0, HS0⟩, ⟨%es1, HS1⟩⟩
  isplitl [HS0 HS1 Hb Hg]
  · isplitl [HS0 HS1 Hb]
    · isplitl [HS0 HS1]
      · isplitl [HS0]
        · unfold owns; iexists _; isplitr
          swap; · iexact HS0
          ipureintro; exact View.read_writes_of_cover _ _ _ _ _ (scover4_C_0 c _ _ _ _ _ _ _ _ _ _ _ _ _ _ _ _ _ _ _ _ _ _)
        · unfold owns; iexists _; isplitr
          swap; · iexact HS1
          ipureintro; exact View.read_writes_of_cover _ _ _ _ _ (scover4_C_1 c _ _ _ _ _ _ _ _ _ _ _ _ _ _ _ _ _ _ _ _ _ _)
      · iexact Hb
    · iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover4_C_3 c _ _ _ _ _ _ _ _ _ _ _ _ _ _ _ _ _ _ _ _ _ _)
  unfold owns; iexists _; isplitr
  swap; · iexact H4
  ipureintro; exact View.read_writes_of_cover _ _ _ _ _ (cover4_C_4 c _ _ _ _ _ _ _ _ _ _ _ _ _ _ _ _ _ _ _ _ _ _)

/-- The body at any point: the closed forms say which of the three cases the point is in. -/
theorem sound_body4 (c : Dev nD) (t : Fin cfg4.N) :
    bodyPre4 V c t ⊢ wp frame (wpE (defs₀ (F := F)) Variants.none c none) Set.univ (bodyAt4 t) (fun _ => bodyPost4 V c t) := by
  have hN : t.val < 10 := lt_of_lt_of_eq t.isLt (show cfg4.N = 10 from N_4)
  by_cases h0 : t.val = 0
  · exact sound_body4_A V c t h0 (by omega)
  · by_cases h1 : t.val = 9
    · exact sound_body4_C V c t h0 h1
    · exact sound_body4_B V c t h0 h1

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class's back: the scratch rows' named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, Hb⟩, Hg⟩
  isplitl [HS0 HS1 Hb]
  · isplitl [HS0 HS1]
    · isplitl [HS0]
      · iexists _; iexact HS0
      · iexists _; iexact HS1
    · iexact Hb
  iexact Hg

/-- The same after the last point. -/
theorem hout4 (c : Dev nD) : (dat4 V c).Φ (Fin.last cfg4.N) ⊢ Pipeline.ΦA spec4 c :=
  Phi_out4 V c _ (by rw [Fin.val_last]; have : cfg4.N = 10 := N_4; omega)

end Cert.Kernel.Hand

end
-- ==== Proof.K.BodyR7Kit.lean ====
import proofs.«115743_j55052890800725_2_alg».proof.Proof.Gen.Kernel.Launch
import proofs.«115743_j55052890800725_2_alg».proof.Proof.Gen.Kernel.Skeleton
import proofs.«115743_j55052890800725_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 7 (`cc7__bn_stats_kernel`): what its three control cases share

The body resets its two scratch rows at the grid's first point, adds the point's column sums and column sums of
squares into them at every point, and copies them into the two output windows at the last point. -/

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof
    data whose array is `V`'s and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-! ## The body's two conditions, in closed form over the grid -/

/-- The first conditional's condition: the point is the grid's first. -/
abbrev cond7_0 (i : grid7.Coords) : Prop := (Scalar.cmpi .ne (Scalar.extui (Scalar.cmpi .eq (BitVec.ofNat 32 (i 0).val) 0#32)) 0#32) = 1#1
theorem hcond7_0 : ∀ t : Fin cfg7.N, cond7_0 (grid7.coords t) ↔ t.val = 0 :=
  (by decide +kernel : ∀ t : Fin grid7.N, cond7_0 (grid7.coords t) ↔ t.val = 0)

/-- The second conditional's condition: the point is the grid's last. -/
abbrev cond7_1 (i : grid7.Coords) : Prop := k7_cond2 i = 1#1
theorem hcond7_1 : ∀ t : Fin cfg7.N, cond7_1 (grid7.coords t) ↔ t.val = 9 :=
  (by decide +kernel : ∀ t : Fin grid7.N, cond7_1 (grid7.coords t) ↔ t.val = 9)

/-! ## Where the windows are idle -/
theorem liveAt7_0 : ∀ t : Fin cfg7.N, cfg7.idle 0 (grid7.coords t) = false := by decide +kernel
/-- Output window 1 is idle and not written back at every point but the last, where it is live. -/
theorem idleAt7_1_A : ∀ t : Fin cfg7.N, cond7_0 (grid7.coords t) → ¬cond7_1 (grid7.coords t) → cfg7.idle 1 (grid7.coords t) = true := by decide +kernel
theorem noFlush7_1_A : ∀ t : Fin cfg7.N, cond7_0 (grid7.coords t) → ¬cond7_1 (grid7.coords t) → (cfg7.win 1).flush t = false := by decide +kernel
theorem idleAt7_1_B : ∀ t : Fin cfg7.N, ¬cond7_0 (grid7.coords t) → ¬cond7_1 (grid7.coords t) → cfg7.idle 1 (grid7.coords t) = true := by decide +kernel
theorem noFlush7_1_B : ∀ t : Fin cfg7.N, ¬cond7_0 (grid7.coords t) → ¬cond7_1 (grid7.coords t) → (cfg7.win 1).flush t = false := by decide +kernel
theorem liveAt7_1_C : ∀ t : Fin cfg7.N, ¬cond7_0 (grid7.coords t) → cond7_1 (grid7.coords t) → cfg7.idle 1 (grid7.coords t) = false := by decide +kernel
/-- Output window 2 is idle and not written back at every point but the last, where it is live. -/
theorem idleAt7_2_A : ∀ t : Fin cfg7.N, cond7_0 (grid7.coords t) → ¬cond7_1 (grid7.coords t) → cfg7.idle 2 (grid7.coords t) = true := by decide +kernel
theorem noFlush7_2_A : ∀ t : Fin cfg7.N, cond7_0 (grid7.coords t) → ¬cond7_1 (grid7.coords t) → (cfg7.win 2).flush t = false := by decide +kernel
theorem idleAt7_2_B : ∀ t : Fin cfg7.N, ¬cond7_0 (grid7.coords t) → ¬cond7_1 (grid7.coords t) → cfg7.idle 2 (grid7.coords t) = true := by decide +kernel
theorem noFlush7_2_B : ∀ t : Fin cfg7.N, ¬cond7_0 (grid7.coords t) → ¬cond7_1 (grid7.coords t) → (cfg7.win 2).flush t = false := by decide +kernel
theorem liveAt7_2_C : ∀ t : Fin cfg7.N, ¬cond7_0 (grid7.coords t) → cond7_1 (grid7.coords t) → cfg7.idle 2 (grid7.coords t) = false := by decide +kernel

/-! ## The memrefs the body is called with -/

/-- One staging buffer of each output window, through which its contents are stated. -/
abbrev VO7_1 : View sig .tc .vmem S1x96 .f32 := (Memref.whole cc7_stg1_0 : Memref sig .tc .vmem S1x96 .f32).view
abbrev VO7_2 : View sig .tc .vmem S1x96 .f32 := (Memref.whole cc7_stg2_0 : Memref sig .tc .vmem S1x96 .f32).view
abbrev ms7_0 (t : Fin cfg7.N) : Memref sig .tc .vmem S5000x96 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1x96 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x96 .f32 := win7_2.stage (cfg7.slots t 2)
abbrev hs7_2 (t : Fin cfg7.N) : (ms7_2 t).IsWhole := hstage7_2 ((cfg7.slots t 2).cast nbuf7_2)
/-- The two scratch rows: whole scoped buffers of the kernel's own, carried from point to point. -/
abbrev scM7_0 : Memref sig .tc .vmem S1x96 .f32 := Memref.whole cc7_scratch0
abbrev scM7_1 : Memref sig .tc .vmem S1x96 .f32 := Memref.whole cc7_scratch1
abbrev VS7_0 : View sig .tc .vmem S1x96 .f32 := scM7_0.view
abbrev VS7_1 : View sig .tc .vmem S1x96 .f32 := scM7_1.view

/-- The class's invariant with the two scratch rows as memrefs owned at some contents, the other scoped buffers
    unopened. -/
theorem PhiA7_eq (c : Dev nD) :
    (Pipeline.ΦA spec7 c : sProp 𝕄)
      = iprop((iprop((∃ d, owns (c : Thread nD τ) scM7_0 fullShare d) ∗ (∃ d, owns (c : Thread nD τ) scM7_1 fullShare d))
          ∗ Pipeline.scopedRestBut (Ix := Unit) (Name := ℕ) (U := UR sig nD τ) (Lvl := ℕ) (Val := Elt F) spec7 c [cc7_scratch0, cc7_scratch1]) ∗ (∃ r, prngReg c r)) := by
  unfold Pipeline.ΦA; rw [scopedRest7_split]; simp only [scM7_0, scM7_1, owns_whole]; try rfl

end Cert.Kernel.Hand

end
-- ==== Proof.K.BodyR7Runs.lean ====
import proofs.«115743_j55052890800725_2_alg».proof.Proof.K.BodyR7Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 7 (`cc7__bn_stats_kernel`): the body run in each of its three control cases -/

set_option maxHeartbeats 1000000 in
/-- The body at the grid's first point (both scratch rows reset, then accumulated into; the output windows untouched): the pieces its stores leave in each output window's buffer and in each scratch row (last
    first), with the triple — from the inputs' buffers at their contents, the outputs' at contents handed back untouched, the scratch rows at anything,
    the body runs to the continuation holding the inputs' buffers as they were and every stored buffer with its pieces
    written. -/
noncomputable def kernelRun7_A (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : cond7_0 i) (hc1 : ¬cond7_1 i)
    (x0 : Vec F S5000x96 .f32) :
    Σ' (L1 : List (View.Piece (Elt F) S1x96 .f32)) (L2 : List (View.Piece (Elt F) S1x96 .f32)) (LS0 : List (View.Piece (Elt F) S1x96 .f32)), { LS1 : List (View.Piece (Elt F) S1x96 .f32) //
      ∀ (xi1 xi2 : Vec F S1x96 .f32) (E : Set ℕ) (K : PUnit → sProp 𝕄),
        iprop(owns (c : Thread nD τ) arg1 fullShare x0 ∗ owns (c : Thread nD τ) arg2 fullShare xi1 ∗ owns (c : Thread nD τ) arg3 fullShare xi2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc7__bn_stats_kernel i arg1 harg1 arg2 harg2 arg3 harg3 arg4 harg4 arg5 harg5) K } := by
  refine ⟨[], [], ?_, ?_, fun xi1 xi2 E K => ?run⟩
  case run =>
    simp only [cc7__bn_stats_kernel_eq_skeleton]; unfold cc7__bn_stats_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 1000000 in
/-- The body at a middle point (both scratch rows accumulated into; the output windows untouched): the pieces its stores leave in each output window's buffer and in each scratch row (last
    first), with the triple — from the inputs' buffers at their contents, the outputs' at contents handed back untouched, the scratch rows at what the point before left,
    the body runs to the continuation holding the inputs' buffers as they were and every stored buffer with its pieces
    written. -/
noncomputable def kernelRun7_B (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : ¬cond7_0 i) (hc1 : ¬cond7_1 i)
    (x0 : Vec F S5000x96 .f32) (xs0 : Vec F S1x96 .f32) (xs1 : Vec F S1x96 .f32) :
    Σ' (L1 : List (View.Piece (Elt F) S1x96 .f32)) (L2 : List (View.Piece (Elt F) S1x96 .f32)) (LS0 : List (View.Piece (Elt F) S1x96 .f32)), { LS1 : List (View.Piece (Elt F) S1x96 .f32) //
      ∀ (xi1 xi2 : Vec F S1x96 .f32) (E : Set ℕ) (K : PUnit → sProp 𝕄),
        iprop(owns (c : Thread nD τ) arg1 fullShare x0 ∗ owns (c : Thread nD τ) arg2 fullShare xi1 ∗ owns (c : Thread nD τ) arg3 fullShare xi2 ∗ owns (c : Thread nD τ) arg4 fullShare xs0 ∗ owns (c : Thread nD τ) arg5 fullShare xs1
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc7__bn_stats_kernel i arg1 harg1 arg2 harg2 arg3 harg3 arg4 harg4 arg5 harg5) K } := by
  refine ⟨[], [], ?_, ?_, fun xi1 xi2 E K => ?run⟩
  case run =>
    simp only [cc7__bn_stats_kernel_eq_skeleton]; unfold cc7__bn_stats_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 1000000 in
/-- The body at the grid's last point (both scratch rows accumulated into, then copied into the output windows): the pieces its stores leave in each output window's buffer and in each scratch row (last
    first), with the triple — from the inputs' buffers at their contents, the outputs' at anything, the scratch rows at what the point before left,
    the body runs to the continuation holding the inputs' buffers as they were and every stored buffer with its pieces
    written. -/
noncomputable def kernelRun7_C (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : ¬cond7_0 i) (hc1 : cond7_1 i)
    (x0 : Vec F S5000x96 .f32) (xs0 : Vec F S1x96 .f32) (xs1 : Vec F S1x96 .f32) :
    Σ' (L1 : List (View.Piece (Elt F) S1x96 .f32)) (L2 : List (View.Piece (Elt F) S1x96 .f32)) (LS0 : List (View.Piece (Elt F) S1x96 .f32)), { LS1 : List (View.Piece (Elt F) S1x96 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc7__bn_stats_kernel i arg1 harg1 arg2 harg2 arg3 harg3 arg4 harg4 arg5 harg5) K } := by
  refine ⟨?_, ?_, ?_, ?_, fun E K => ?run⟩
  case run =>
    simp only [cc7__bn_stats_kernel_eq_skeleton]; unfold cc7__bn_stats_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0; obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

end Cert.Kernel.Hand

end
-- ==== Proof.K.BodyR7.lean ====
import proofs.«115743_j55052890800725_2_alg».proof.Proof.K.BodyR7Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 7 (`cc7__bn_stats_kernel`): what its buffers hold point by point, the proof data, the body obligation -/

/-! ## What each case leaves in the output windows' buffers and in the scratch rows -/

/-- Case A stores nothing into output window 1 (idle there and not written back): a placeholder nothing consults. -/
def out7_A_1 (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : cond7_0 i) (hc1 : ¬cond7_1 i)
    (x0 : Vec F S5000x96 .f32) : Vec F S1x96 .f32 :=
  VO7_1.read (Elt F) (VO7_1.writes (Elt F) VO7_1.junk (kernelRun7_A c i arg1 harg1 arg2 harg2 arg3 harg3 arg4 harg4 arg5 harg5 hc0 hc1 x0).1)

/-- Case A stores nothing into output window 2 (idle there and not written back): a placeholder nothing consults. -/
def out7_A_2 (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : cond7_0 i) (hc1 : ¬cond7_1 i)
    (x0 : Vec F S5000x96 .f32) : Vec F S1x96 .f32 :=
  VO7_2.read (Elt F) (VO7_2.writes (Elt F) VO7_2.junk (kernelRun7_A c i arg1 harg1 arg2 harg2 arg3 harg3 arg4 harg4 arg5 harg5 hc0 hc1 x0).2.1)

/-- Case A's stores into scratch row 0 cover it. -/
theorem scover7_A_0 (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : cond7_0 i) (hc1 : ¬cond7_1 i)
    (x0 : Vec F S5000x96 .f32) (y : S1x96.Idx) :
    ∃ pc ∈ (kernelRun7_A c i arg1 harg1 arg2 harg2 arg3 harg3 arg4 harg4 arg5 harg5 hc0 hc1 x0).2.2.1, y ∈ pc.1.set :=
  View.cover_of_tiledL (kernelRun7_A c i arg1 harg1 arg2 harg2 arg3 harg3 arg4 harg4 arg5 harg5 hc0 hc1 x0).2.2.1 S1x96.size (by sl_kernel_rfl) y

/-- What case A leaves in scratch row 0: its pieces read back. -/
def sout7_A_0 (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : cond7_0 i) (hc1 : ¬cond7_1 i)
    (x0 : Vec F S5000x96 .f32) : Vec F S1x96 .f32 :=
  VS7_0.read (Elt F) (VS7_0.writes (Elt F) VS7_0.junk (kernelRun7_A c i arg1 harg1 arg2 harg2 arg3 harg3 arg4 harg4 arg5 harg5 hc0 hc1 x0).2.2.1)

/-- Case A's stores into scratch row 1 cover it. -/
theorem scover7_A_1 (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : cond7_0 i) (hc1 : ¬cond7_1 i)
    (x0 : Vec F S5000x96 .f32) (y : S1x96.Idx) :
    ∃ pc ∈ (kernelRun7_A c i arg1 harg1 arg2 harg2 arg3 harg3 arg4 harg4 arg5 harg5 hc0 hc1 x0).2.2.2.1, y ∈ pc.1.set :=
  View.cover_of_tiledL (kernelRun7_A c i arg1 harg1 arg2 harg2 arg3 harg3 arg4 harg4 arg5 harg5 hc0 hc1 x0).2.2.2.1 S1x96.size (by sl_kernel_rfl) y

/-- What case A leaves in scratch row 1: its pieces read back. -/
def sout7_A_1 (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : cond7_0 i) (hc1 : ¬cond7_1 i)
    (x0 : Vec F S5000x96 .f32) : Vec F S1x96 .f32 :=
  VS7_1.read (Elt F) (VS7_1.writes (Elt F) VS7_1.junk (kernelRun7_A c i arg1 harg1 arg2 harg2 arg3 harg3 arg4 harg4 arg5 harg5 hc0 hc1 x0).2.2.2.1)

/-- Case B stores nothing into output window 1 (idle there and not written back): a placeholder nothing consults. -/
def out7_B_1 (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : ¬cond7_0 i) (hc1 : ¬cond7_1 i)
    (x0 : Vec F S5000x96 .f32) (xs0 : Vec F S1x96 .f32) (xs1 : Vec F S1x96 .f32) : Vec F S1x96 .f32 :=
  VO7_1.read (Elt F) (VO7_1.writes (Elt F) VO7_1.junk (kernelRun7_B c i arg1 harg1 arg2 harg2 arg3 harg3 arg4 harg4 arg5 harg5 hc0 hc1 x0 xs0 xs1).1)

/-- Case B stores nothing into output window 2 (idle there and not written back): a placeholder nothing consults. -/
def out7_B_2 (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : ¬cond7_0 i) (hc1 : ¬cond7_1 i)
    (x0 : Vec F S5000x96 .f32) (xs0 : Vec F S1x96 .f32) (xs1 : Vec F S1x96 .f32) : Vec F S1x96 .f32 :=
  VO7_2.read (Elt F) (VO7_2.writes (Elt F) VO7_2.junk (kernelRun7_B c i arg1 harg1 arg2 harg2 arg3 harg3 arg4 harg4 arg5 harg5 hc0 hc1 x0 xs0 xs1).2.1)

/-- Case B's stores into scratch row 0 cover it. -/
theorem scover7_B_0 (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : ¬cond7_0 i) (hc1 : ¬cond7_1 i)
    (x0 : Vec F S5000x96 .f32) (xs0 : Vec F S1x96 .f32) (xs1 : Vec F S1x96 .f32) (y : S1x96.Idx) :
    ∃ pc ∈ (kernelRun7_B c i arg1 harg1 arg2 harg2 arg3 harg3 arg4 harg4 arg5 harg5 hc0 hc1 x0 xs0 xs1).2.2.1, y ∈ pc.1.set :=
  View.cover_of_tiledL (kernelRun7_B c i arg1 harg1 arg2 harg2 arg3 harg3 arg4 harg4 arg5 harg5 hc0 hc1 x0 xs0 xs1).2.2.1 S1x96.size (by sl_kernel_rfl) y

/-- What case B leaves in scratch row 0: its pieces read back. -/
def sout7_B_0 (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : ¬cond7_0 i) (hc1 : ¬cond7_1 i)
    (x0 : Vec F S5000x96 .f32) (xs0 : Vec F S1x96 .f32) (xs1 : Vec F S1x96 .f32) : Vec F S1x96 .f32 :=
  VS7_0.read (Elt F) (VS7_0.writes (Elt F) VS7_0.junk (kernelRun7_B c i arg1 harg1 arg2 harg2 arg3 harg3 arg4 harg4 arg5 harg5 hc0 hc1 x0 xs0 xs1).2.2.1)

/-- Case B's stores into scratch row 1 cover it. -/
theorem scover7_B_1 (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : ¬cond7_0 i) (hc1 : ¬cond7_1 i)
    (x0 : Vec F S5000x96 .f32) (xs0 : Vec F S1x96 .f32) (xs1 : Vec F S1x96 .f32) (y : S1x96.Idx) :
    ∃ pc ∈ (kernelRun7_B c i arg1 harg1 arg2 harg2 arg3 harg3 arg4 harg4 arg5 harg5 hc0 hc1 x0 xs0 xs1).2.2.2.1, y ∈ pc.1.set :=
  View.cover_of_tiledL (kernelRun7_B c i arg1 harg1 arg2 harg2 arg3 harg3 arg4 harg4 arg5 harg5 hc0 hc1 x0 xs0 xs1).2.2.2.1 S1x96.size (by sl_kernel_rfl) y

/-- What case B leaves in scratch row 1: its pieces read back. -/
def sout7_B_1 (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : ¬cond7_0 i) (hc1 : ¬cond7_1 i)
    (x0 : Vec F S5000x96 .f32) (xs0 : Vec F S1x96 .f32) (xs1 : Vec F S1x96 .f32) : Vec F S1x96 .f32 :=
  VS7_1.read (Elt F) (VS7_1.writes (Elt F) VS7_1.junk (kernelRun7_B c i arg1 harg1 arg2 harg2 arg3 harg3 arg4 harg4 arg5 harg5 hc0 hc1 x0 xs0 xs1).2.2.2.1)

/-- At the last point the store into output window 1 covers its block. -/
theorem cover7_C_1 (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : ¬cond7_0 i) (hc1 : cond7_1 i)
    (x0 : Vec F S5000x96 .f32) (xs0 : Vec F S1x96 .f32) (xs1 : Vec F S1x96 .f32) (y : S1x96.Idx) :
    ∃ pc ∈ (kernelRun7_C c i arg1 harg1 arg2 harg2 arg3 harg3 arg4 harg4 arg5 harg5 hc0 hc1 x0 xs0 xs1).1, y ∈ pc.1.set :=
  View.cover_of_tiledL (kernelRun7_C c i arg1 harg1 arg2 harg2 arg3 harg3 arg4 harg4 arg5 harg5 hc0 hc1 x0 xs0 xs1).1 S1x96.size (by sl_kernel_rfl) y

/-- What the last point leaves in output window 1's buffer: its pieces read back. -/
def out7_C_1 (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : ¬cond7_0 i) (hc1 : cond7_1 i)
    (x0 : Vec F S5000x96 .f32) (xs0 : Vec F S1x96 .f32) (xs1 : Vec F S1x96 .f32) : Vec F S1x96 .f32 :=
  VO7_1.read (Elt F) (VO7_1.writes (Elt F) VO7_1.junk (kernelRun7_C c i arg1 harg1 arg2 harg2 arg3 harg3 arg4 harg4 arg5 harg5 hc0 hc1 x0 xs0 xs1).1)

/-- At the last point the store into output window 2 covers its block. -/
theorem cover7_C_2 (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : ¬cond7_0 i) (hc1 : cond7_1 i)
    (x0 : Vec F S5000x96 .f32) (xs0 : Vec F S1x96 .f32) (xs1 : Vec F S1x96 .f32) (y : S1x96.Idx) :
    ∃ pc ∈ (kernelRun7_C c i arg1 harg1 arg2 harg2 arg3 harg3 arg4 harg4 arg5 harg5 hc0 hc1 x0 xs0 xs1).2.1, y ∈ pc.1.set :=
  View.cover_of_tiledL (kernelRun7_C c i arg1 harg1 arg2 harg2 arg3 harg3 arg4 harg4 arg5 harg5 hc0 hc1 x0 xs0 xs1).2.1 S1x96.size (by sl_kernel_rfl) y

/-- What the last point leaves in output window 2's buffer: its pieces read back. -/
def out7_C_2 (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : ¬cond7_0 i) (hc1 : cond7_1 i)
    (x0 : Vec F S5000x96 .f32) (xs0 : Vec F S1x96 .f32) (xs1 : Vec F S1x96 .f32) : Vec F S1x96 .f32 :=
  VO7_2.read (Elt F) (VO7_2.writes (Elt F) VO7_2.junk (kernelRun7_C c i arg1 harg1 arg2 harg2 arg3 harg3 arg4 harg4 arg5 harg5 hc0 hc1 x0 xs0 xs1).2.1)

/-- Case C's stores into scratch row 0 cover it. -/
theorem scover7_C_0 (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : ¬cond7_0 i) (hc1 : cond7_1 i)
    (x0 : Vec F S5000x96 .f32) (xs0 : Vec F S1x96 .f32) (xs1 : Vec F S1x96 .f32) (y : S1x96.Idx) :
    ∃ pc ∈ (kernelRun7_C c i arg1 harg1 arg2 harg2 arg3 harg3 arg4 harg4 arg5 harg5 hc0 hc1 x0 xs0 xs1).2.2.1, y ∈ pc.1.set :=
  View.cover_of_tiledL (kernelRun7_C c i arg1 harg1 arg2 harg2 arg3 harg3 arg4 harg4 arg5 harg5 hc0 hc1 x0 xs0 xs1).2.2.1 S1x96.size (by sl_kernel_rfl) y

/-- What case C leaves in scratch row 0: its pieces read back. -/
def sout7_C_0 (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : ¬cond7_0 i) (hc1 : cond7_1 i)
    (x0 : Vec F S5000x96 .f32) (xs0 : Vec F S1x96 .f32) (xs1 : Vec F S1x96 .f32) : Vec F S1x96 .f32 :=
  VS7_0.read (Elt F) (VS7_0.writes (Elt F) VS7_0.junk (kernelRun7_C c i arg1 harg1 arg2 harg2 arg3 harg3 arg4 harg4 arg5 harg5 hc0 hc1 x0 xs0 xs1).2.2.1)

/-- Case C's stores into scratch row 1 cover it. -/
theorem scover7_C_1 (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : ¬cond7_0 i) (hc1 : cond7_1 i)
    (x0 : Vec F S5000x96 .f32) (xs0 : Vec F S1x96 .f32) (xs1 : Vec F S1x96 .f32) (y : S1x96.Idx) :
    ∃ pc ∈ (kernelRun7_C c i arg1 harg1 arg2 harg2 arg3 harg3 arg4 harg4 arg5 harg5 hc0 hc1 x0 xs0 xs1).2.2.2.1, y ∈ pc.1.set :=
  View.cover_of_tiledL (kernelRun7_C c i arg1 harg1 arg2 harg2 arg3 harg3 arg4 harg4 arg5 harg5 hc0 hc1 x0 xs0 xs1).2.2.2.1 S1x96.size (by sl_kernel_rfl) y

/-- What case C leaves in scratch row 1: its pieces read back. -/
def sout7_C_1 (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : ¬cond7_0 i) (hc1 : cond7_1 i)
    (x0 : Vec F S5000x96 .f32) (xs0 : Vec F S1x96 .f32) (xs1 : Vec F S1x96 .f32) : Vec F S1x96 .f32 :=
  VS7_1.read (Elt F) (VS7_1.writes (Elt F) VS7_1.junk (kernelRun7_C c i arg1 harg1 arg2 harg2 arg3 harg3 arg4 harg4 arg5 harg5 hc0 hc1 x0 xs0 xs1).2.2.2.1)

/-! ## What the buffers hold after each point -/

/-- THE ACCUMULATION. After the body at position `n`: (output window 1's buffer, output window 2's buffer, scratch
    row 0, scratch row 1) — the first point's case at the point's blocks; a later point's case at the point's blocks and
    the scratch rows as the point before left them. -/
def outsAt7 (c : Dev nD) : (n : ℕ) → n < cfg7.N → Vec F S1x96 .f32 × Vec F S1x96 .f32 × Vec F S1x96 .f32 × Vec F S1x96 .f32
  | 0, hn => (out7_A_1 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) scM7_0 (Memref.isWhole_whole _) scM7_1 (Memref.isWhole_whole _) ((hcond7_0 ⟨0, hn⟩).mpr rfl) (fun h => (fun h => by (try dsimp only at h); omega) ((hcond7_1 ⟨0, hn⟩).mp h)) (iblk7 V c 0 ⟨0, hn⟩), out7_A_2 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) scM7_0 (Memref.isWhole_whole _) scM7_1 (Memref.isWhole_whole _) ((hcond7_0 ⟨0, hn⟩).mpr rfl) (fun h => (fun h => by (try dsimp only at h); omega) ((hcond7_1 ⟨0, hn⟩).mp h)) (iblk7 V c 0 ⟨0, hn⟩), sout7_A_0 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) scM7_0 (Memref.isWhole_whole _) scM7_1 (Memref.isWhole_whole _) ((hcond7_0 ⟨0, hn⟩).mpr rfl) (fun h => (fun h => by (try dsimp only at h); omega) ((hcond7_1 ⟨0, hn⟩).mp h)) (iblk7 V c 0 ⟨0, hn⟩), sout7_A_1 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) scM7_0 (Memref.isWhole_whole _) scM7_1 (Memref.isWhole_whole _) ((hcond7_0 ⟨0, hn⟩).mpr rfl) (fun h => (fun h => by (try dsimp only at h); omega) ((hcond7_1 ⟨0, hn⟩).mp h)) (iblk7 V c 0 ⟨0, hn⟩))
  | n + 1, hn =>
    if h1 : n + 1 = 9 then
      (out7_C_1 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) scM7_1 (Memref.isWhole_whole _) (fun h => Nat.succ_ne_zero n ((hcond7_0 ⟨n + 1, hn⟩).mp h)) ((hcond7_1 ⟨n + 1, hn⟩).mpr h1) (iblk7 V c 0 ⟨n + 1, hn⟩) (outsAt7 c n (Nat.lt_of_succ_lt hn)).2.2.1 (outsAt7 c n (Nat.lt_of_succ_lt hn)).2.2.2, out7_C_2 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) scM7_1 (Memref.isWhole_whole _) (fun h => Nat.succ_ne_zero n ((hcond7_0 ⟨n + 1, hn⟩).mp h)) ((hcond7_1 ⟨n + 1, hn⟩).mpr h1) (iblk7 V c 0 ⟨n + 1, hn⟩) (outsAt7 c n (Nat.lt_of_succ_lt hn)).2.2.1 (outsAt7 c n (Nat.lt_of_succ_lt hn)).2.2.2, sout7_C_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) scM7_1 (Memref.isWhole_whole _) (fun h => Nat.succ_ne_zero n ((hcond7_0 ⟨n + 1, hn⟩).mp h)) ((hcond7_1 ⟨n + 1, hn⟩).mpr h1) (iblk7 V c 0 ⟨n + 1, hn⟩) (outsAt7 c n (Nat.lt_of_succ_lt hn)).2.2.1 (outsAt7 c n (Nat.lt_of_succ_lt hn)).2.2.2, sout7_C_1 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) scM7_1 (Memref.isWhole_whole _) (fun h => Nat.succ_ne_zero n ((hcond7_0 ⟨n + 1, hn⟩).mp h)) ((hcond7_1 ⟨n + 1, hn⟩).mpr h1) (iblk7 V c 0 ⟨n + 1, hn⟩) (outsAt7 c n (Nat.lt_of_succ_lt hn)).2.2.1 (outsAt7 c n (Nat.lt_of_succ_lt hn)).2.2.2)
    else
      (out7_B_1 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) scM7_1 (Memref.isWhole_whole _) (fun h => Nat.succ_ne_zero n ((hcond7_0 ⟨n + 1, hn⟩).mp h)) (fun h => h1 ((hcond7_1 ⟨n + 1, hn⟩).mp h)) (iblk7 V c 0 ⟨n + 1, hn⟩) (outsAt7 c n (Nat.lt_of_succ_lt hn)).2.2.1 (outsAt7 c n (Nat.lt_of_succ_lt hn)).2.2.2, out7_B_2 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) scM7_1 (Memref.isWhole_whole _) (fun h => Nat.succ_ne_zero n ((hcond7_0 ⟨n + 1, hn⟩).mp h)) (fun h => h1 ((hcond7_1 ⟨n + 1, hn⟩).mp h)) (iblk7 V c 0 ⟨n + 1, hn⟩) (outsAt7 c n (Nat.lt_of_succ_lt hn)).2.2.1 (outsAt7 c n (Nat.lt_of_succ_lt hn)).2.2.2, sout7_B_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) scM7_1 (Memref.isWhole_whole _) (fun h => Nat.succ_ne_zero n ((hcond7_0 ⟨n + 1, hn⟩).mp h)) (fun h => h1 ((hcond7_1 ⟨n + 1, hn⟩).mp h)) (iblk7 V c 0 ⟨n + 1, hn⟩) (outsAt7 c n (Nat.lt_of_succ_lt hn)).2.2.1 (outsAt7 c n (Nat.lt_of_succ_lt hn)).2.2.2, sout7_B_1 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) scM7_1 (Memref.isWhole_whole _) (fun h => Nat.succ_ne_zero n ((hcond7_0 ⟨n + 1, hn⟩).mp h)) (fun h => h1 ((hcond7_1 ⟨n + 1, hn⟩).mp h)) (iblk7 V c 0 ⟨n + 1, hn⟩) (outsAt7 c n (Nat.lt_of_succ_lt hn)).2.2.1 (outsAt7 c n (Nat.lt_of_succ_lt hn)).2.2.2)

/-- `outsAt7` at the first point. -/
theorem outsAt7_A (c : Dev nD) (t : Fin cfg7.N) (h0 : t.val = 0) (h1 : ¬t.val = 9) :
    outsAt7 V c t.val t.isLt = (out7_A_1 c (grid7.coords t) (ms7_0 t) (hs7_0 t) (ms7_1 t) (hs7_1 t) (ms7_2 t) (hs7_2 t) scM7_0 (Memref.isWhole_whole _) scM7_1 (Memref.isWhole_whole _) ((hcond7_0 t).mpr h0) (fun h => h1 ((hcond7_1 t).mp h)) (iblk7 V c 0 t), out7_A_2 c (grid7.coords t) (ms7_0 t) (hs7_0 t) (ms7_1 t) (hs7_1 t) (ms7_2 t) (hs7_2 t) scM7_0 (Memref.isWhole_whole _) scM7_1 (Memref.isWhole_whole _) ((hcond7_0 t).mpr h0) (fun h => h1 ((hcond7_1 t).mp h)) (iblk7 V c 0 t), sout7_A_0 c (grid7.coords t) (ms7_0 t) (hs7_0 t) (ms7_1 t) (hs7_1 t) (ms7_2 t) (hs7_2 t) scM7_0 (Memref.isWhole_whole _) scM7_1 (Memref.isWhole_whole _) ((hcond7_0 t).mpr h0) (fun h => h1 ((hcond7_1 t).mp h)) (iblk7 V c 0 t), sout7_A_1 c (grid7.coords t) (ms7_0 t) (hs7_0 t) (ms7_1 t) (hs7_1 t) (ms7_2 t) (hs7_2 t) scM7_0 (Memref.isWhole_whole _) scM7_1 (Memref.isWhole_whole _) ((hcond7_0 t).mpr h0) (fun h => h1 ((hcond7_1 t).mp h)) (iblk7 V c 0 t)) := by
  obtain ⟨n, hn⟩ := t
  cases n with
  | zero => exact rfl
  | succ n => exact absurd h0 (Nat.succ_ne_zero n)

/-- `outsAt7` at a middle point: over what the point before left in the scratch rows. -/
theorem outsAt7_B (c : Dev nD) (t : Fin cfg7.N) (h0 : ¬t.val = 0) (h1 : ¬t.val = 9) :
    outsAt7 V c t.val t.isLt = (out7_B_1 c (grid7.coords t) (ms7_0 t) (hs7_0 t) (ms7_1 t) (hs7_1 t) (ms7_2 t) (hs7_2 t) scM7_0 (Memref.isWhole_whole _) scM7_1 (Memref.isWhole_whole _) (fun h => h0 ((hcond7_0 t).mp h)) (fun h => h1 ((hcond7_1 t).mp h)) (iblk7 V c 0 t) (outsAt7 V c (t.val - 1) (Nat.lt_of_le_of_lt (Nat.sub_le _ _) t.isLt)).2.2.1 (outsAt7 V c (t.val - 1) (Nat.lt_of_le_of_lt (Nat.sub_le _ _) t.isLt)).2.2.2, out7_B_2 c (grid7.coords t) (ms7_0 t) (hs7_0 t) (ms7_1 t) (hs7_1 t) (ms7_2 t) (hs7_2 t) scM7_0 (Memref.isWhole_whole _) scM7_1 (Memref.isWhole_whole _) (fun h => h0 ((hcond7_0 t).mp h)) (fun h => h1 ((hcond7_1 t).mp h)) (iblk7 V c 0 t) (outsAt7 V c (t.val - 1) (Nat.lt_of_le_of_lt (Nat.sub_le _ _) t.isLt)).2.2.1 (outsAt7 V c (t.val - 1) (Nat.lt_of_le_of_lt (Nat.sub_le _ _) t.isLt)).2.2.2, sout7_B_0 c (grid7.coords t) (ms7_0 t) (hs7_0 t) (ms7_1 t) (hs7_1 t) (ms7_2 t) (hs7_2 t) scM7_0 (Memref.isWhole_whole _) scM7_1 (Memref.isWhole_whole _) (fun h => h0 ((hcond7_0 t).mp h)) (fun h => h1 ((hcond7_1 t).mp h)) (iblk7 V c 0 t) (outsAt7 V c (t.val - 1) (Nat.lt_of_le_of_lt (Nat.sub_le _ _) t.isLt)).2.2.1 (outsAt7 V c (t.val - 1) (Nat.lt_of_le_of_lt (Nat.sub_le _ _) t.isLt)).2.2.2, sout7_B_1 c (grid7.coords t) (ms7_0 t) (hs7_0 t) (ms7_1 t) (hs7_1 t) (ms7_2 t) (hs7_2 t) scM7_0 (Memref.isWhole_whole _) scM7_1 (Memref.isWhole_whole _) (fun h => h0 ((hcond7_0 t).mp h)) (fun h => h1 ((hcond7_1 t).mp h)) (iblk7 V c 0 t) (outsAt7 V c (t.val - 1) (Nat.lt_of_le_of_lt (Nat.sub_le _ _) t.isLt)).2.2.1 (outsAt7 V c (t.val - 1) (Nat.lt_of_le_of_lt (Nat.sub_le _ _) t.isLt)).2.2.2) := by
  obtain ⟨n, hn⟩ := t
  cases n with
  | zero => exact absurd rfl h0
  | succ n => exact (dif_neg h1).trans rfl

/-- `outsAt7` at the last point: over what the point before left in the scratch rows. -/
theorem outsAt7_C (c : Dev nD) (t : Fin cfg7.N) (h0 : ¬t.val = 0) (h1 : t.val = 9) :
    outsAt7 V c t.val t.isLt = (out7_C_1 c (grid7.coords t) (ms7_0 t) (hs7_0 t) (ms7_1 t) (hs7_1 t) (ms7_2 t) (hs7_2 t) scM7_0 (Memref.isWhole_whole _) scM7_1 (Memref.isWhole_whole _) (fun h => h0 ((hcond7_0 t).mp h)) ((hcond7_1 t).mpr h1) (iblk7 V c 0 t) (outsAt7 V c (t.val - 1) (Nat.lt_of_le_of_lt (Nat.sub_le _ _) t.isLt)).2.2.1 (outsAt7 V c (t.val - 1) (Nat.lt_of_le_of_lt (Nat.sub_le _ _) t.isLt)).2.2.2, out7_C_2 c (grid7.coords t) (ms7_0 t) (hs7_0 t) (ms7_1 t) (hs7_1 t) (ms7_2 t) (hs7_2 t) scM7_0 (Memref.isWhole_whole _) scM7_1 (Memref.isWhole_whole _) (fun h => h0 ((hcond7_0 t).mp h)) ((hcond7_1 t).mpr h1) (iblk7 V c 0 t) (outsAt7 V c (t.val - 1) (Nat.lt_of_le_of_lt (Nat.sub_le _ _) t.isLt)).2.2.1 (outsAt7 V c (t.val - 1) (Nat.lt_of_le_of_lt (Nat.sub_le _ _) t.isLt)).2.2.2, sout7_C_0 c (grid7.coords t) (ms7_0 t) (hs7_0 t) (ms7_1 t) (hs7_1 t) (ms7_2 t) (hs7_2 t) scM7_0 (Memref.isWhole_whole _) scM7_1 (Memref.isWhole_whole _) (fun h => h0 ((hcond7_0 t).mp h)) ((hcond7_1 t).mpr h1) (iblk7 V c 0 t) (outsAt7 V c (t.val - 1) (Nat.lt_of_le_of_lt (Nat.sub_le _ _) t.isLt)).2.2.1 (outsAt7 V c (t.val - 1) (Nat.lt_of_le_of_lt (Nat.sub_le _ _) t.isLt)).2.2.2, sout7_C_1 c (grid7.coords t) (ms7_0 t) (hs7_0 t) (ms7_1 t) (hs7_1 t) (ms7_2 t) (hs7_2 t) scM7_0 (Memref.isWhole_whole _) scM7_1 (Memref.isWhole_whole _) (fun h => h0 ((hcond7_0 t).mp h)) ((hcond7_1 t).mpr h1) (iblk7 V c 0 t) (outsAt7 V c (t.val - 1) (Nat.lt_of_le_of_lt (Nat.sub_le _ _) t.isLt)).2.2.1 (outsAt7 V c (t.val - 1) (Nat.lt_of_le_of_lt (Nat.sub_le _ _) t.isLt)).2.2.2) := by
  obtain ⟨n, hn⟩ := t
  cases n with
  | zero => exact absurd rfl h0
  | succ n => exact (dif_pos h1).trans rfl

/-! ## The region invariant -/

/-- Before position `n`: before the first point the class's invariant (every scoped buffer at anything); afterwards the
    two scratch rows at what the point before left in them, the other scoped buffers at anything, the generator
    register at some state. -/
def PhiS7 (c : Dev nD) : (n : ℕ) → n ≤ cfg7.N → sProp 𝕄
  | 0, _ => Pipeline.ΦA spec7 c
  | n + 1, hn => iprop((iprop(owns (c : Thread nD τ) scM7_0 fullShare (outsAt7 V c n hn).2.2.1 ∗ owns (c : Thread nD τ) scM7_1 fullShare (outsAt7 V c n hn).2.2.2)
      ∗ Pipeline.scopedRestBut (Ix := Unit) (Name := ℕ) (U := UR sig nD τ) (Lvl := ℕ) (Val := Elt F) spec7 c [cc7_scratch0, cc7_scratch1]) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop((iprop(owns (c : Thread nD τ) scM7_0 fullShare (outsAt7 V c n hn).2.2.1 ∗ owns (c : Thread nD τ) scM7_1 fullShare (outsAt7 V c n hn).2.2.2)
      ∗ Pipeline.scopedRestBut (Ix := Unit) (Name := ℕ) (U := UR sig nD τ) (Lvl := ℕ) (Val := Elt F) spec7 c [cc7_scratch0, cc7_scratch1]) ∗ (∃ r, prngReg c r)) := rfl

theorem PhiS7_pos (c : Dev nD) (n : ℕ) (h : n ≤ cfg7.N) (hz : n ≠ 0) :
    PhiS7 V c n h = iprop((iprop(owns (c : Thread nD τ) scM7_0 fullShare (outsAt7 V c (n - 1) (by omega)).2.2.1 ∗ owns (c : Thread nD τ) scM7_1 fullShare (outsAt7 V c (n - 1) (by omega)).2.2.2)
      ∗ Pipeline.scopedRestBut (Ix := Unit) (Name := ℕ) (U := UR sig nD τ) (Lvl := ℕ) (Val := Elt F) spec7 c [cc7_scratch0, cc7_scratch1]) ∗ (∃ r, prngReg c r)) := by
  cases n with
  | zero => exact absurd rfl hz
  | succ n => rfl

/-! ## The pipeline's proof data -/

/-- The proof data of the region on core `c`: the arrays as the region finds them (`V`); after the body at point `t`
    each input's buffer at its block and the outputs' at `outsAt7`; the invariant `PhiS7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => (outsAt7 V c t.val t.isLt).1
    | ⟨2, _⟩ => (outsAt7 V c t.val t.isLt).2.1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = (outsAt7 V c t.val t.isLt).1 := by dsimp only [dat7]
theorem after7_2 (c : Dev nD) (t : Fin cfg7.N) : (dat7 V c).after 2 t = (outsAt7 V c t.val t.isLt).2.1 := by dsimp only [dat7]

theorem before7_0 (c : Dev nD) (t : Fin cfg7.N) (d) : (dat7 V c).before 0 t d = iblk7 V c 0 t :=
  before7_0_of V (dat7 V c) (A_eq7 V c 0) (after7_0 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

set_option maxHeartbeats 4800000 in
/-- The body at the first point: the invariant hands it the scratch rows at anything and takes them back at this point's contents; the output windows, idle, are handed back untouched. -/
theorem sound_body7_A (c : Dev nD) (t : Fin cfg7.N) (h0 : t.val = 0) (h1 : ¬t.val = 9) :
    bodyPre7 V c t ⊢ wp frame (wpE (defs₀ (F := F)) Variants.none c none) Set.univ (bodyAt7 t) (fun _ => bodyPost7 V c t) := by
  unfold bodyPre7 bodyPost7 bodyAt7
  simp only [before7_0]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (ms7_0 t) fullShare ((dat7 V c).after 0 t) from by
    unfold Dat.leavesExact; rw [liveAt7_0 t], after7_0]
  rw [Dat.leavesExact_idle (dat7 V c) 1 t (idleAt7_1_A t ((hcond7_0 t).mpr h0) (fun h => h1 ((hcond7_1 t).mp h))) (noFlush7_1_A t ((hcond7_0 t).mpr h0) (fun h => h1 ((hcond7_1 t).mp h)))]
  rw [Dat.leavesExact_idle (dat7 V c) 2 t (idleAt7_2_A t ((hcond7_0 t).mpr h0) (fun h => h1 ((hcond7_1 t).mp h))) (noFlush7_2_A t ((hcond7_0 t).mpr h0) (fun h => h1 ((hcond7_1 t).mp h)))]
  rw [outsAt7_A V c t h0 h1]
  unfold sout7_A_0 sout7_A_1; (try dsimp only)
  rw [PhiS7_castSucc V c t, PhiS7_zero V c _ _ h0, PhiA7_eq]
  iintro ⟨⟨⟨⟨HS0, HS1⟩, Hb⟩, Hg⟩, Ho, ⟨%d0, H0⟩, ⟨%d1, H1⟩, ⟨%d2, H2⟩⟩
  iapply ((kernelRun7_A c (grid7.coords t) _ _ _ _ _ _ _ _ _ _ ((hcond7_0 t).mpr h0) (fun h => h1 ((hcond7_1 t).mp h)) (iblk7 V c 0 t)).2.2.2.2 _ _ Set.univ _)
  isplitl [H0]; · iexact H0
  isplitl [H1]; · iexact H1
  isplitl [H2]; · iexact H2
  isplitl [HS0]; · iexact HS0
  isplitl [HS1]; · iexact HS1
  iintro ⟨H0, H1, H2, ⟨%es0, HS0⟩, ⟨%es1, HS1⟩⟩
  isplitl [HS0 HS1 Hb Hg]
  · isplitl [HS0 HS1 Hb]
    · isplitl [HS0 HS1]
      · isplitl [HS0]
        · unfold owns; iexists _; isplitr
          swap; · iexact HS0
          ipureintro; exact View.read_writes_of_cover _ _ _ _ _ (scover7_A_0 c _ _ _ _ _ _ _ _ _ _ _ _ _ _)
        · unfold owns; iexists _; isplitr
          swap; · iexact HS1
          ipureintro; exact View.read_writes_of_cover _ _ _ _ _ (scover7_A_1 c _ _ _ _ _ _ _ _ _ _ _ _ _ _)
      · iexact Hb
    · iexact Hg
  isplitl [Ho]; · iexact Ho
  isplitl [H0]; · iexact H0
  isplitl [H1]; · iexists _; iexact H1
  iexists _; iexact H2

set_option maxHeartbeats 4800000 in
/-- The body at a middle point: the invariant hands it the scratch rows at what the point before left and takes them back at this point's contents; the output windows, idle, are handed back untouched. -/
theorem sound_body7_B (c : Dev nD) (t : Fin cfg7.N) (h0 : ¬t.val = 0) (h1 : ¬t.val = 9) :
    bodyPre7 V c t ⊢ wp frame (wpE (defs₀ (F := F)) Variants.none c none) Set.univ (bodyAt7 t) (fun _ => bodyPost7 V c t) := by
  unfold bodyPre7 bodyPost7 bodyAt7
  simp only [before7_0]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (ms7_0 t) fullShare ((dat7 V c).after 0 t) from by
    unfold Dat.leavesExact; rw [liveAt7_0 t], after7_0]
  rw [Dat.leavesExact_idle (dat7 V c) 1 t (idleAt7_1_B t (fun h => h0 ((hcond7_0 t).mp h)) (fun h => h1 ((hcond7_1 t).mp h))) (noFlush7_1_B t (fun h => h0 ((hcond7_0 t).mp h)) (fun h => h1 ((hcond7_1 t).mp h)))]
  rw [Dat.leavesExact_idle (dat7 V c) 2 t (idleAt7_2_B t (fun h => h0 ((hcond7_0 t).mp h)) (fun h => h1 ((hcond7_1 t).mp h))) (noFlush7_2_B t (fun h => h0 ((hcond7_0 t).mp h)) (fun h => h1 ((hcond7_1 t).mp h)))]
  rw [outsAt7_B V c t h0 h1]
  unfold sout7_B_0 sout7_B_1; (try dsimp only)
  rw [PhiS7_castSucc V c t, PhiS7_pos V c _ _ h0]
  iintro ⟨⟨⟨⟨HS0, HS1⟩, Hb⟩, Hg⟩, Ho, ⟨%d0, H0⟩, ⟨%d1, H1⟩, ⟨%d2, H2⟩⟩
  iapply ((kernelRun7_B c (grid7.coords t) _ _ _ _ _ _ _ _ _ _ (fun h => h0 ((hcond7_0 t).mp h)) (fun h => h1 ((hcond7_1 t).mp h)) (iblk7 V c 0 t) _ _).2.2.2.2 _ _ Set.univ _)
  isplitl [H0]; · iexact H0
  isplitl [H1]; · iexact H1
  isplitl [H2]; · iexact H2
  isplitl [HS0]; · iexact HS0
  isplitl [HS1]; · iexact HS1
  iintro ⟨H0, H1, H2, ⟨%es0, HS0⟩, ⟨%es1, HS1⟩⟩
  isplitl [HS0 HS1 Hb Hg]
  · isplitl [HS0 HS1 Hb]
    · isplitl [HS0 HS1]
      · isplitl [HS0]
        · unfold owns; iexists _; isplitr
          swap; · iexact HS0
          ipureintro; exact View.read_writes_of_cover _ _ _ _ _ (scover7_B_0 c _ _ _ _ _ _ _ _ _ _ _ _ _ _ _ _)
        · unfold owns; iexists _; isplitr
          swap; · iexact HS1
          ipureintro; exact View.read_writes_of_cover _ _ _ _ _ (scover7_B_1 c _ _ _ _ _ _ _ _ _ _ _ _ _ _ _ _)
      · iexact Hb
    · iexact Hg
  isplitl [Ho]; · iexact Ho
  isplitl [H0]; · iexact H0
  isplitl [H1]; · iexists _; iexact H1
  iexists _; iexact H2

set_option maxHeartbeats 4800000 in
/-- The body at the last point: the invariant hands it the scratch rows at what the point before left and takes them back at this point's contents; the output windows are left at the copied rows. -/
theorem sound_body7_C (c : Dev nD) (t : Fin cfg7.N) (h0 : ¬t.val = 0) (h1 : t.val = 9) :
    bodyPre7 V c t ⊢ wp frame (wpE (defs₀ (F := F)) Variants.none c none) Set.univ (bodyAt7 t) (fun _ => bodyPost7 V c t) := by
  unfold bodyPre7 bodyPost7 bodyAt7
  simp only [before7_0]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1_C t (fun h => h0 ((hcond7_0 t).mp h)) ((hcond7_1 t).mpr h1)], after7_1]
  rw [show (dat7 V c).leavesExact 2 t = owns (c : Thread nD τ) (ms7_2 t) fullShare ((dat7 V c).after 2 t) from by
    unfold Dat.leavesExact; rw [liveAt7_2_C t (fun h => h0 ((hcond7_0 t).mp h)) ((hcond7_1 t).mpr h1)], after7_2]
  rw [outsAt7_C V c t h0 h1]
  unfold out7_C_1 out7_C_2 sout7_C_0 sout7_C_1; (try dsimp only)
  rw [PhiS7_castSucc V c t, PhiS7_pos V c _ _ h0]
  iintro ⟨⟨⟨⟨HS0, HS1⟩, Hb⟩, Hg⟩, Ho, ⟨%d0, H0⟩, ⟨%d1, H1⟩, ⟨%d2, H2⟩⟩
  iapply ((kernelRun7_C c (grid7.coords t) _ _ _ _ _ _ _ _ _ _ (fun h => h0 ((hcond7_0 t).mp h)) ((hcond7_1 t).mpr h1) (iblk7 V c 0 t) _ _).2.2.2.2 Set.univ _)
  isplitl [H0]; · iexact H0
  isplitl [H1]; · iexists _; iexact H1
  isplitl [H2]; · iexists _; iexact H2
  isplitl [HS0]; · iexact HS0
  isplitl [HS1]; · iexact HS1
  iintro ⟨H0, ⟨%e1, H1⟩, ⟨%e2, H2⟩, ⟨%es0, HS0⟩, ⟨%es1, HS1⟩⟩
  isplitl [HS0 HS1 Hb Hg]
  · isplitl [HS0 HS1 Hb]
    · isplitl [HS0 HS1]
      · isplitl [HS0]
        · unfold owns; iexists _; isplitr
          swap; · iexact HS0
          ipureintro; exact View.read_writes_of_cover _ _ _ _ _ (scover7_C_0 c _ _ _ _ _ _ _ _ _ _ _ _ _ _ _ _)
        · unfold owns; iexists _; isplitr
          swap; · iexact HS1
          ipureintro; exact View.read_writes_of_cover _ _ _ _ _ (scover7_C_1 c _ _ _ _ _ _ _ _ _ _ _ _ _ _ _ _)
      · iexact Hb
    · iexact Hg
  isplitl [Ho]; · iexact Ho
  isplitl [H0]; · iexact H0
  isplitl [H1]
  · unfold owns; iexists _; isplitr
    swap; · iexact H1
    ipureintro; exact View.read_writes_of_cover _ _ _ _ _ (cover7_C_1 c _ _ _ _ _ _ _ _ _ _ _ _ _ _ _ _)
  unfold owns; iexists _; isplitr
  swap; · iexact H2
  ipureintro; exact View.read_writes_of_cover _ _ _ _ _ (cover7_C_2 c _ _ _ _ _ _ _ _ _ _ _ _ _ _ _ _)

/-- The body at any point: the closed forms say which of the three cases the point is in. -/
theorem sound_body7 (c : Dev nD) (t : Fin cfg7.N) :
    bodyPre7 V c t ⊢ wp frame (wpE (defs₀ (F := F)) Variants.none c none) Set.univ (bodyAt7 t) (fun _ => bodyPost7 V c t) := by
  have hN : t.val < 10 := lt_of_lt_of_eq t.isLt (show cfg7.N = 10 from N_7)
  by_cases h0 : t.val = 0
  · exact sound_body7_A V c t h0 (by omega)
  · by_cases h1 : t.val = 9
    · exact sound_body7_C V c t h0 h1
    · exact sound_body7_B V c t h0 h1

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After any point but the first the invariant gives the class's back: the scratch rows' named contents are forgotten. -/
theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨⟨HS0, HS1⟩, Hb⟩, Hg⟩
  isplitl [HS0 HS1 Hb]
  · isplitl [HS0 HS1]
    · isplitl [HS0]
      · iexists _; iexact HS0
      · iexists _; iexact HS1
    · iexact Hb
  iexact Hg

/-- The same after the last point. -/
theorem hout7 (c : Dev nD) : (dat7 V c).Φ (Fin.last cfg7.N) ⊢ Pipeline.ΦA spec7 c :=
  Phi_out7 V c _ (by rw [Fin.val_last]; have : cfg7.N = 10 := N_7; omega)

end Cert.Kernel.Hand

end
-- ==== Proof.LibRegionKeepOuts.lean ====
/-
  A pipelined region leaves alone every buffer but its output arrays.

  A region's exit contents are its entry contents with the pipeline's arrays replaced by what the pipeline leaves in
  them.  When every array that is not an output is left as the region found it, any buffer that is none of the output
  arrays holds at the exit what it held at the entry — whether it is one of the region's input arrays or no array of
  the region at all.  The outputs are given as a Boolean marking of the windows, so a region with several outputs
  (a value and an accumulator written side by side) is covered.
-/
import Idealize.ShloMosaic.Lib.Pipeline.FrameSuffix

noncomputable section

namespace Cert.RegionOp

open Idealize.ShloMosaic Idealize.ShloMosaic.Pipeline Idealize.ShloMosaic.TcCoe

variable {nD : Nat} {τ : Topo} {sig : RefSig} {Val : EltTy → Type}

/-- The exit contents of a region whose arrays `A` agree with the entry contents `V` at every window not marked as an
    output: at any buffer `b` that is no marked window's array they are the entry contents. -/
theorem withArrays_keep_outs {gr W : Nat} (win : Fin W → WinSpec sig gr) (hinj : Function.Injective (arrRef win))
    (c : Dev nD) (V : Valuation τ sig Val) (A : (w : Fin W) → Buf Val ((win w).arr.view.loc (c.tc : Thread nD τ)))
    (out : Fin W → Bool) (hin : ∀ w, out w = false → A w = V (Proc.devRef .tc (arrRef win w)))
    (b : Ref sig .tc) (hb : ∀ w, out w = true → b ≠ arrRef win w) :
    withArrays win c V A (Proc.devRef .tc b) = V (Proc.devRef .tc b) := by
  by_cases h : ∃ w, Proc.devRef (τ := τ) .tc (arrRef win w) = Proc.devRef .tc b
  · obtain ⟨w, hw⟩ := h
    have hwb : arrRef win w = b := Proc.devRef_injective _ hw
    subst hwb
    rw [withArrays_arr win hinj c V A w]
    cases ho : out w with
    | false => exact hin w ho
    | true => exact absurd rfl (hb w ho)
  · unfold withArrays; rw [dif_neg h]

end Cert.RegionOp

end
-- ==== Proof.K.RunFold.lean ====
/-
  The kernel program's run, first half: what every buffer of a core holds at each boundary between the program's
  sixteen items (seven stretches of host operations and nine pipelined regions), as a fold from the launch memory.

  A stretch of host operations takes the contents to `StableHlo.after` of its operations.  A region takes them to the
  same contents with the region's arrays replaced by what its pipeline leaves in them (each input as it was found, each
  output with the write-backs of all points folded in).  Two regions in a row chain directly: the second is entered
  from the first one's exit contents.

  Besides the fold: per region the two facts that identify its exit contents (at its arrays, and away from them); per
  item a lemma saying that a buffer the item does not write is left alone; and each argument array read back through
  all sixteen items to the launch memory.
-/
import proofs.«115743_j55052890800725_2_alg».proof.Proof.K.BodyA0
import proofs.«115743_j55052890800725_2_alg».proof.Proof.K.BodyA2
import proofs.«115743_j55052890800725_2_alg».proof.Proof.K.BodyA3
import proofs.«115743_j55052890800725_2_alg».proof.Proof.K.BodyA5
import proofs.«115743_j55052890800725_2_alg».proof.Proof.K.BodyA6
import proofs.«115743_j55052890800725_2_alg».proof.Proof.K.BodyA8
import proofs.«115743_j55052890800725_2_alg».proof.Proof.K.BodyR1
import proofs.«115743_j55052890800725_2_alg».proof.Proof.K.BodyR4
import proofs.«115743_j55052890800725_2_alg».proof.Proof.K.BodyR7
import proofs.«115743_j55052890800725_2_alg».proof.Proof.Gen.Kernel.Regions
import proofs.«115743_j55052890800725_2_alg».proof.Proof.LibRegionKeepOuts
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- Core `c`'s buffers at launch. -/
abbrev W0 : Dev nD → Valuation τ sig (Elt F) := fun c b => (s₀ m ρ).mem ((c : Dev nD), b)

/-- After `hostOps0` (item 0). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- A buffer `hostOps0` does not write is left as it was. -/
theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h

/-- At region 0's exit (item 1): its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- Region 0's output windows' arrays. -/
theorem outs0_mem : ∀ w : Fin cfg0.W, (cfg0.win w).isOut = true → Pipeline.arrRef spec0 w ∈ ([main_v13] : List (Ref sig .tc)) := by decide
/-- A buffer that is none of region 0's output arrays is left as it was: an input array is only read, any other
    buffer bypasses the region. -/
theorem W2_keep (c : Dev nD) (r : Ref sig .tc) (h : r ∉ ([main_v13] : List (Ref sig .tc))) :
    W2 m ρ c (Proc.devRef .tc r) = W1 m ρ c (Proc.devRef .tc r) := by
  unfold W2
  exact Cert.RegionOp.withArrays_keep_outs spec0 launch0.win.arr_inj c _ _ (fun w => (cfg0.win w).isOut)
    (fun w hw => ((dat0 (V1 m ρ) c).arrAt_in w hw _).trans (A_eq0 (V1 m ρ) c w)) r
    (fun w hw e => h (by rw [e]; exact outs0_mem w hw))

/-- After `hostOps1` (item 2). -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- A buffer `hostOps1` does not write is left as it was. -/
theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h

/-- At region 1's exit (item 3): its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- Region 1's output windows' arrays. -/
theorem outs1_mem : ∀ w : Fin cfg1.W, (cfg1.win w).isOut = true → Pipeline.arrRef spec1 w ∈ ([main_v26_0, main_v26_1] : List (Ref sig .tc)) := by decide
/-- A buffer that is none of region 1's output arrays is left as it was: an input array is only read, any other
    buffer bypasses the region. -/
theorem W4_keep (c : Dev nD) (r : Ref sig .tc) (h : r ∉ ([main_v26_0, main_v26_1] : List (Ref sig .tc))) :
    W4 m ρ c (Proc.devRef .tc r) = W3 m ρ c (Proc.devRef .tc r) := by
  unfold W4
  exact Cert.RegionOp.withArrays_keep_outs spec1 launch1.win.arr_inj c _ _ (fun w => (cfg1.win w).isOut)
    (fun w hw => ((dat1 (V3 m ρ) c).arrAt_in w hw _).trans (A_eq1 (V3 m ρ) c w)) r
    (fun w hw e => h (by rw [e]; exact outs1_mem w hw))

/-- After `hostOps2` (item 4). -/
abbrev W5 : Dev nD → Valuation τ sig (Elt F) := fun c => StableHlo.after hostOps2 (W4 m ρ c)
/-- The same read at the TensorCore's references. -/
abbrev V5 : (c : Dev nD) → (b : Ref sig .tc) → Buf (Elt F) ((c : Thread nD τ).loc b) := fun c b => W5 m ρ c b
/-- A buffer `hostOps2` does not write is left as it was. -/
theorem W5_keep (c : Dev nD) (r : Ref sig .tc) (h : r ∉ hostOps2_W) :
    W5 m ρ c (Proc.devRef .tc r) = W4 m ρ c (Proc.devRef .tc r) :=
  StableHlo.after_of_writes_sub hostOps2 _ hostOps2_writes h

/-- At region 2's exit (item 5): its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- Region 2's output windows' arrays. -/
theorem outs2_mem : ∀ w : Fin cfg2.W, (cfg2.win w).isOut = true → Pipeline.arrRef spec2 w ∈ ([main_v40] : List (Ref sig .tc)) := by decide
/-- A buffer that is none of region 2's output arrays is left as it was: an input array is only read, any other
    buffer bypasses the region. -/
theorem W6_keep (c : Dev nD) (r : Ref sig .tc) (h : r ∉ ([main_v40] : List (Ref sig .tc))) :
    W6 m ρ c (Proc.devRef .tc r) = W5 m ρ c (Proc.devRef .tc r) := by
  unfold W6
  exact Cert.RegionOp.withArrays_keep_outs spec2 launch2.win.arr_inj c _ _ (fun w => (cfg2.win w).isOut)
    (fun w hw => ((dat2 (V5 m ρ) c).arrAt_in w hw _).trans (A_eq2 (V5 m ρ) c w)) r
    (fun w hw e => h (by rw [e]; exact outs2_mem w hw))

/-- At region 3's exit (item 6): its arrays at what the pipeline leaves, every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- The same read at the TensorCore's references (region 3's exit contents). -/
abbrev V7 : (c : Dev nD) → (b : Ref sig .tc) → Buf (Elt F) ((c : Thread nD τ).loc b) := fun c b => W7 m ρ c b
/-- At region 3's exit each of its arrays holds what the pipeline leaves, and every other buffer what it held at entry. -/
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)
/-- Region 3's output windows' arrays. -/
theorem outs3_mem : ∀ w : Fin cfg3.W, (cfg3.win w).isOut = true → Pipeline.arrRef spec3 w ∈ ([main_v41] : List (Ref sig .tc)) := by decide
/-- A buffer that is none of region 3's output arrays is left as it was: an input array is only read, any other
    buffer bypasses the region. -/
theorem W7_keep (c : Dev nD) (r : Ref sig .tc) (h : r ∉ ([main_v41] : List (Ref sig .tc))) :
    W7 m ρ c (Proc.devRef .tc r) = W6 m ρ c (Proc.devRef .tc r) := by
  unfold W7
  exact Cert.RegionOp.withArrays_keep_outs spec3 launch3.win.arr_inj c _ _ (fun w => (cfg3.win w).isOut)
    (fun w hw => ((dat3 (V6 m ρ) c).arrAt_in w hw _).trans (A_eq3 (V6 m ρ) c w)) r
    (fun w hw e => h (by rw [e]; exact outs3_mem w hw))

/-- After `hostOps4` (item 7). -/
abbrev W8 : Dev nD → Valuation τ sig (Elt F) := fun c => StableHlo.after hostOps4 (W7 m ρ c)
/-- The same read at the TensorCore's references. -/
abbrev V8 : (c : Dev nD) → (b : Ref sig .tc) → Buf (Elt F) ((c : Thread nD τ).loc b) := fun c b => W8 m ρ c b
/-- A buffer `hostOps4` does not write is left as it was. -/
theorem W8_keep (c : Dev nD) (r : Ref sig .tc) (h : r ∉ hostOps4_W) :
    W8 m ρ c (Proc.devRef .tc r) = W7 m ρ c (Proc.devRef .tc r) :=
  StableHlo.after_of_writes_sub hostOps4 _ hostOps4_writes h

/-- At region 4's exit (item 8): its arrays at what the pipeline leaves, every other buffer as entered. -/
def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
/-- The same read at the TensorCore's references (region 4's exit contents). -/
abbrev V9 : (c : Dev nD) → (b : Ref sig .tc) → Buf (Elt F) ((c : Thread nD τ).loc b) := fun c b => W9 m ρ c b
/-- At region 4's exit each of its arrays holds what the pipeline leaves, and every other buffer what it held at entry. -/
theorem hF4 (c : Dev nD) (w : Fin cfg4.W) : (dat4 (V8 m ρ) c).arrAt w cfg4.N = V9 m ρ c (Pipeline.arrRef spec4 w) :=
  (W9_arr m ρ c w).symm
theorem hrest4 (c : Dev nD) : ∀ b, b ∉ Finset.univ.image (Pipeline.arrRef spec4) → V9 m ρ c b = V8 m ρ c b :=
  fun b hb => W9_of_ne m ρ c b fun w e => hb (Finset.mem_image.mpr ⟨w, Finset.mem_univ _, e⟩)
/-- Region 4's output windows' arrays. -/
theorem outs4_mem : ∀ w : Fin cfg4.W, (cfg4.win w).isOut = true → Pipeline.arrRef spec4 w ∈ ([main_v54_0, main_v54_1] : List (Ref sig .tc)) := by decide
/-- A buffer that is none of region 4's output arrays is left as it was: an input array is only read, any other
    buffer bypasses the region. -/
theorem W9_keep (c : Dev nD) (r : Ref sig .tc) (h : r ∉ ([main_v54_0, main_v54_1] : List (Ref sig .tc))) :
    W9 m ρ c (Proc.devRef .tc r) = W8 m ρ c (Proc.devRef .tc r) := by
  unfold W9
  exact Cert.RegionOp.withArrays_keep_outs spec4 launch4.win.arr_inj c _ _ (fun w => (cfg4.win w).isOut)
    (fun w hw => ((dat4 (V8 m ρ) c).arrAt_in w hw _).trans (A_eq4 (V8 m ρ) c w)) r
    (fun w hw e => h (by rw [e]; exact outs4_mem w hw))

/-- After `hostOps5` (item 9). -/
abbrev W10 : Dev nD → Valuation τ sig (Elt F) := fun c => StableHlo.after hostOps5 (W9 m ρ c)
/-- The same read at the TensorCore's references. -/
abbrev V10 : (c : Dev nD) → (b : Ref sig .tc) → Buf (Elt F) ((c : Thread nD τ).loc b) := fun c b => W10 m ρ c b
/-- A buffer `hostOps5` does not write is left as it was. -/
theorem W10_keep (c : Dev nD) (r : Ref sig .tc) (h : r ∉ hostOps5_W) :
    W10 m ρ c (Proc.devRef .tc r) = W9 m ρ c (Proc.devRef .tc r) :=
  StableHlo.after_of_writes_sub hostOps5 _ hostOps5_writes h

/-- At region 5's exit (item 10): its arrays at what the pipeline leaves, every other buffer as entered. -/
def W11 (c : Dev nD) : Valuation τ sig (Elt F) :=
  Pipeline.withArrays spec5 c (W10 m ρ c) fun w => (dat5 (V10 m ρ) c).arrAt w cfg5.N
theorem W11_arr (c : Dev nD) (w : Fin cfg5.W) :
    W11 m ρ c (Proc.devRef .tc (Pipeline.arrRef spec5 w)) = (dat5 (V10 m ρ) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m ρ c (Proc.devRef .tc b) = W10 m ρ c (Proc.devRef .tc b) := by
  unfold W11; exact Pipeline.withArrays_of_ne spec5 c _ _ b hb
/-- The same read at the TensorCore's references (region 5's exit contents). -/
abbrev V11 : (c : Dev nD) → (b : Ref sig .tc) → Buf (Elt F) ((c : Thread nD τ).loc b) := fun c b => W11 m ρ c b
/-- At region 5's exit each of its arrays holds what the pipeline leaves, and every other buffer what it held at entry. -/
theorem hF5 (c : Dev nD) (w : Fin cfg5.W) : (dat5 (V10 m ρ) c).arrAt w cfg5.N = V11 m ρ c (Pipeline.arrRef spec5 w) :=
  (W11_arr m ρ c w).symm
theorem hrest5 (c : Dev nD) : ∀ b, b ∉ Finset.univ.image (Pipeline.arrRef spec5) → V11 m ρ c b = V10 m ρ c b :=
  fun b hb => W11_of_ne m ρ c b fun w e => hb (Finset.mem_image.mpr ⟨w, Finset.mem_univ _, e⟩)
/-- Region 5's output windows' arrays. -/
theorem outs5_mem : ∀ w : Fin cfg5.W, (cfg5.win w).isOut = true → Pipeline.arrRef spec5 w ∈ ([main_v68] : List (Ref sig .tc)) := by decide
/-- A buffer that is none of region 5's output arrays is left as it was: an input array is only read, any other
    buffer bypasses the region. -/
theorem W11_keep (c : Dev nD) (r : Ref sig .tc) (h : r ∉ ([main_v68] : List (Ref sig .tc))) :
    W11 m ρ c (Proc.devRef .tc r) = W10 m ρ c (Proc.devRef .tc r) := by
  unfold W11
  exact Cert.RegionOp.withArrays_keep_outs spec5 launch5.win.arr_inj c _ _ (fun w => (cfg5.win w).isOut)
    (fun w hw => ((dat5 (V10 m ρ) c).arrAt_in w hw _).trans (A_eq5 (V10 m ρ) c w)) r
    (fun w hw e => h (by rw [e]; exact outs5_mem w hw))

/-- After `hostOps6` (item 11). -/
abbrev W12 : Dev nD → Valuation τ sig (Elt F) := fun c => StableHlo.after hostOps6 (W11 m ρ c)
/-- The same read at the TensorCore's references. -/
abbrev V12 : (c : Dev nD) → (b : Ref sig .tc) → Buf (Elt F) ((c : Thread nD τ).loc b) := fun c b => W12 m ρ c b
/-- A buffer `hostOps6` does not write is left as it was. -/
theorem W12_keep (c : Dev nD) (r : Ref sig .tc) (h : r ∉ hostOps6_W) :
    W12 m ρ c (Proc.devRef .tc r) = W11 m ρ c (Proc.devRef .tc r) :=
  StableHlo.after_of_writes_sub hostOps6 _ hostOps6_writes h

/-- At region 6's exit (item 12): its arrays at what the pipeline leaves, every other buffer as entered. -/
def W13 (c : Dev nD) : Valuation τ sig (Elt F) :=
  Pipeline.withArrays spec6 c (W12 m ρ c) fun w => (dat6 (V12 m ρ) c).arrAt w cfg6.N
theorem W13_arr (c : Dev nD) (w : Fin cfg6.W) :
    W13 m ρ c (Proc.devRef .tc (Pipeline.arrRef spec6 w)) = (dat6 (V12 m ρ) c).arrAt w cfg6.N := by
  unfold W13; exact Pipeline.withArrays_arr spec6 launch6.win.arr_inj c _ _ w
theorem W13_of_ne (c : Dev nD) (b : Ref sig .tc) (hb : ∀ w, Pipeline.arrRef spec6 w ≠ b) :
    W13 m ρ c (Proc.devRef .tc b) = W12 m ρ c (Proc.devRef .tc b) := by
  unfold W13; exact Pipeline.withArrays_of_ne spec6 c _ _ b hb
/-- The same read at the TensorCore's references (region 6's exit contents). -/
abbrev V13 : (c : Dev nD) → (b : Ref sig .tc) → Buf (Elt F) ((c : Thread nD τ).loc b) := fun c b => W13 m ρ c b
/-- At region 6's exit each of its arrays holds what the pipeline leaves, and every other buffer what it held at entry. -/
theorem hF6 (c : Dev nD) (w : Fin cfg6.W) : (dat6 (V12 m ρ) c).arrAt w cfg6.N = V13 m ρ c (Pipeline.arrRef spec6 w) :=
  (W13_arr m ρ c w).symm
theorem hrest6 (c : Dev nD) : ∀ b, b ∉ Finset.univ.image (Pipeline.arrRef spec6) → V13 m ρ c b = V12 m ρ c b :=
  fun b hb => W13_of_ne m ρ c b fun w e => hb (Finset.mem_image.mpr ⟨w, Finset.mem_univ _, e⟩)
/-- Region 6's output windows' arrays. -/
theorem outs6_mem : ∀ w : Fin cfg6.W, (cfg6.win w).isOut = true → Pipeline.arrRef spec6 w ∈ ([main_v70] : List (Ref sig .tc)) := by decide
/-- A buffer that is none of region 6's output arrays is left as it was: an input array is only read, any other
    buffer bypasses the region. -/
theorem W13_keep (c : Dev nD) (r : Ref sig .tc) (h : r ∉ ([main_v70] : List (Ref sig .tc))) :
    W13 m ρ c (Proc.devRef .tc r) = W12 m ρ c (Proc.devRef .tc r) := by
  unfold W13
  exact Cert.RegionOp.withArrays_keep_outs spec6 launch6.win.arr_inj c _ _ (fun w => (cfg6.win w).isOut)
    (fun w hw => ((dat6 (V12 m ρ) c).arrAt_in w hw _).trans (A_eq6 (V12 m ρ) c w)) r
    (fun w hw e => h (by rw [e]; exact outs6_mem w hw))

/-- At region 7's exit (item 13): its arrays at what the pipeline leaves, every other buffer as entered. -/
def W14 (c : Dev nD) : Valuation τ sig (Elt F) :=
  Pipeline.withArrays spec7 c (W13 m ρ c) fun w => (dat7 (V13 m ρ) c).arrAt w cfg7.N
theorem W14_arr (c : Dev nD) (w : Fin cfg7.W) :
    W14 m ρ c (Proc.devRef .tc (Pipeline.arrRef spec7 w)) = (dat7 (V13 m ρ) c).arrAt w cfg7.N := by
  unfold W14; exact Pipeline.withArrays_arr spec7 launch7.win.arr_inj c _ _ w
theorem W14_of_ne (c : Dev nD) (b : Ref sig .tc) (hb : ∀ w, Pipeline.arrRef spec7 w ≠ b) :
    W14 m ρ c (Proc.devRef .tc b) = W13 m ρ c (Proc.devRef .tc b) := by
  unfold W14; exact Pipeline.withArrays_of_ne spec7 c _ _ b hb
/-- The same read at the TensorCore's references (region 7's exit contents). -/
abbrev V14 : (c : Dev nD) → (b : Ref sig .tc) → Buf (Elt F) ((c : Thread nD τ).loc b) := fun c b => W14 m ρ c b
/-- At region 7's exit each of its arrays holds what the pipeline leaves, and every other buffer what it held at entry. -/
theorem hF7 (c : Dev nD) (w : Fin cfg7.W) : (dat7 (V13 m ρ) c).arrAt w cfg7.N = V14 m ρ c (Pipeline.arrRef spec7 w) :=
  (W14_arr m ρ c w).symm
theorem hrest7 (c : Dev nD) : ∀ b, b ∉ Finset.univ.image (Pipeline.arrRef spec7) → V14 m ρ c b = V13 m ρ c b :=
  fun b hb => W14_of_ne m ρ c b fun w e => hb (Finset.mem_image.mpr ⟨w, Finset.mem_univ _, e⟩)
/-- Region 7's output windows' arrays. -/
theorem outs7_mem : ∀ w : Fin cfg7.W, (cfg7.win w).isOut = true → Pipeline.arrRef spec7 w ∈ ([main_v71_0, main_v71_1] : List (Ref sig .tc)) := by decide
/-- A buffer that is none of region 7's output arrays is left as it was: an input array is only read, any other
    buffer bypasses the region. -/
theorem W14_keep (c : Dev nD) (r : Ref sig .tc) (h : r ∉ ([main_v71_0, main_v71_1] : List (Ref sig .tc))) :
    W14 m ρ c (Proc.devRef .tc r) = W13 m ρ c (Proc.devRef .tc r) := by
  unfold W14
  exact Cert.RegionOp.withArrays_keep_outs spec7 launch7.win.arr_inj c _ _ (fun w => (cfg7.win w).isOut)
    (fun w hw => ((dat7 (V13 m ρ) c).arrAt_in w hw _).trans (A_eq7 (V13 m ρ) c w)) r
    (fun w hw e => h (by rw [e]; exact outs7_mem w hw))

/-- After `hostOps8` (item 14). -/
abbrev W15 : Dev nD → Valuation τ sig (Elt F) := fun c => StableHlo.after hostOps8 (W14 m ρ c)
/-- The same read at the TensorCore's references. -/
abbrev V15 : (c : Dev nD) → (b : Ref sig .tc) → Buf (Elt F) ((c : Thread nD τ).loc b) := fun c b => W15 m ρ c b
/-- A buffer `hostOps8` does not write is left as it was. -/
theorem W15_keep (c : Dev nD) (r : Ref sig .tc) (h : r ∉ hostOps8_W) :
    W15 m ρ c (Proc.devRef .tc r) = W14 m ρ c (Proc.devRef .tc r) :=
  StableHlo.after_of_writes_sub hostOps8 _ hostOps8_writes h

/-- At region 8's exit (item 15): its arrays at what the pipeline leaves, every other buffer as entered. -/
def W16 (c : Dev nD) : Valuation τ sig (Elt F) :=
  Pipeline.withArrays spec8 c (W15 m ρ c) fun w => (dat8 (V15 m ρ) c).arrAt w cfg8.N
theorem W16_arr (c : Dev nD) (w : Fin cfg8.W) :
    W16 m ρ c (Proc.devRef .tc (Pipeline.arrRef spec8 w)) = (dat8 (V15 m ρ) c).arrAt w cfg8.N := by
  unfold W16; exact Pipeline.withArrays_arr spec8 launch8.win.arr_inj c _ _ w
theorem W16_of_ne (c : Dev nD) (b : Ref sig .tc) (hb : ∀ w, Pipeline.arrRef spec8 w ≠ b) :
    W16 m ρ c (Proc.devRef .tc b) = W15 m ρ c (Proc.devRef .tc b) := by
  unfold W16; exact Pipeline.withArrays_of_ne spec8 c _ _ b hb
/-- The same read at the TensorCore's references (region 8's exit contents). -/
abbrev V16 : (c : Dev nD) → (b : Ref sig .tc) → Buf (Elt F) ((c : Thread nD τ).loc b) := fun c b => W16 m ρ c b
/-- At region 8's exit each of its arrays holds what the pipeline leaves, and every other buffer what it held at entry. -/
theorem hF8 (c : Dev nD) (w : Fin cfg8.W) : (dat8 (V15 m ρ) c).arrAt w cfg8.N = V16 m ρ c (Pipeline.arrRef spec8 w) :=
  (W16_arr m ρ c w).symm
theorem hrest8 (c : Dev nD) : ∀ b, b ∉ Finset.univ.image (Pipeline.arrRef spec8) → V16 m ρ c b = V15 m ρ c b :=
  fun b hb => W16_of_ne m ρ c b fun w e => hb (Finset.mem_image.mpr ⟨w, Finset.mem_univ _, e⟩)
/-- Region 8's output windows' arrays. -/
theorem outs8_mem : ∀ w : Fin cfg8.W, (cfg8.win w).isOut = true → Pipeline.arrRef spec8 w ∈ ([main_v85] : List (Ref sig .tc)) := by decide
/-- A buffer that is none of region 8's output arrays is left as it was: an input array is only read, any other
    buffer bypasses the region. -/
theorem W16_keep (c : Dev nD) (r : Ref sig .tc) (h : r ∉ ([main_v85] : List (Ref sig .tc))) :
    W16 m ρ c (Proc.devRef .tc r) = W15 m ρ c (Proc.devRef .tc r) := by
  unfold W16
  exact Cert.RegionOp.withArrays_keep_outs spec8 launch8.win.arr_inj c _ _ (fun w => (cfg8.win w).isOut)
    (fun w hw => ((dat8 (V15 m ρ) c).arrAt_in w hw _).trans (A_eq8 (V15 m ρ) c w)) r
    (fun w hw e => h (by rw [e]; exact outs8_mem w hw))

/-! ## The arguments end as launched: no item writes one -/

theorem W16_main_arg0 (c : Dev nD) : W16 m ρ c (Proc.devRef .tc main_arg0) = m ((c : Thread nD τ).loc main_arg0) :=
  (W16_keep m ρ c main_arg0 (by decide)).trans <| (W15_keep m ρ c main_arg0 (by decide)).trans <| (W14_keep m ρ c main_arg0 (by decide)).trans <| (W13_keep m ρ c main_arg0 (by decide)).trans <| (W12_keep m ρ c main_arg0 (by decide)).trans <| (W11_keep m ρ c main_arg0 (by decide)).trans <| (W10_keep m ρ c main_arg0 (by decide)).trans <| (W9_keep m ρ c main_arg0 (by decide)).trans <| (W8_keep m ρ c main_arg0 (by decide)).trans <| (W7_keep m ρ c main_arg0 (by decide)).trans <| (W6_keep m ρ c main_arg0 (by decide)).trans <| (W5_keep m ρ c main_arg0 (by decide)).trans <| (W4_keep m ρ c main_arg0 (by decide)).trans <| (W3_keep m ρ c main_arg0 (by decide)).trans <| (W2_keep m ρ c main_arg0 (by decide)).trans <| (W1_keep m ρ c main_arg0 (by decide)).trans <| rfl

theorem W16_main_arg1 (c : Dev nD) : W16 m ρ c (Proc.devRef .tc main_arg1) = m ((c : Thread nD τ).loc main_arg1) :=
  (W16_keep m ρ c main_arg1 (by decide)).trans <| (W15_keep m ρ c main_arg1 (by decide)).trans <| (W14_keep m ρ c main_arg1 (by decide)).trans <| (W13_keep m ρ c main_arg1 (by decide)).trans <| (W12_keep m ρ c main_arg1 (by decide)).trans <| (W11_keep m ρ c main_arg1 (by decide)).trans <| (W10_keep m ρ c main_arg1 (by decide)).trans <| (W9_keep m ρ c main_arg1 (by decide)).trans <| (W8_keep m ρ c main_arg1 (by decide)).trans <| (W7_keep m ρ c main_arg1 (by decide)).trans <| (W6_keep m ρ c main_arg1 (by decide)).trans <| (W5_keep m ρ c main_arg1 (by decide)).trans <| (W4_keep m ρ c main_arg1 (by decide)).trans <| (W3_keep m ρ c main_arg1 (by decide)).trans <| (W2_keep m ρ c main_arg1 (by decide)).trans <| (W1_keep m ρ c main_arg1 (by decide)).trans <| rfl

theorem W16_main_arg2 (c : Dev nD) : W16 m ρ c (Proc.devRef .tc main_arg2) = m ((c : Thread nD τ).loc main_arg2) :=
  (W16_keep m ρ c main_arg2 (by decide)).trans <| (W15_keep m ρ c main_arg2 (by decide)).trans <| (W14_keep m ρ c main_arg2 (by decide)).trans <| (W13_keep m ρ c main_arg2 (by decide)).trans <| (W12_keep m ρ c main_arg2 (by decide)).trans <| (W11_keep m ρ c main_arg2 (by decide)).trans <| (W10_keep m ρ c main_arg2 (by decide)).trans <| (W9_keep m ρ c main_arg2 (by decide)).trans <| (W8_keep m ρ c main_arg2 (by decide)).trans <| (W7_keep m ρ c main_arg2 (by decide)).trans <| (W6_keep m ρ c main_arg2 (by decide)).trans <| (W5_keep m ρ c main_arg2 (by decide)).trans <| (W4_keep m ρ c main_arg2 (by decide)).trans <| (W3_keep m ρ c main_arg2 (by decide)).trans <| (W2_keep m ρ c main_arg2 (by decide)).trans <| (W1_keep m ρ c main_arg2 (by decide)).trans <| rfl

theorem W16_main_arg3 (c : Dev nD) : W16 m ρ c (Proc.devRef .tc main_arg3) = m ((c : Thread nD τ).loc main_arg3) :=
  (W16_keep m ρ c main_arg3 (by decide)).trans <| (W15_keep m ρ c main_arg3 (by decide)).trans <| (W14_keep m ρ c main_arg3 (by decide)).trans <| (W13_keep m ρ c main_arg3 (by decide)).trans <| (W12_keep m ρ c main_arg3 (by decide)).trans <| (W11_keep m ρ c main_arg3 (by decide)).trans <| (W10_keep m ρ c main_arg3 (by decide)).trans <| (W9_keep m ρ c main_arg3 (by decide)).trans <| (W8_keep m ρ c main_arg3 (by decide)).trans <| (W7_keep m ρ c main_arg3 (by decide)).trans <| (W6_keep m ρ c main_arg3 (by decide)).trans <| (W5_keep m ρ c main_arg3 (by decide)).trans <| (W4_keep m ρ c main_arg3 (by decide)).trans <| (W3_keep m ρ c main_arg3 (by decide)).trans <| (W2_keep m ρ c main_arg3 (by decide)).trans <| (W1_keep m ρ c main_arg3 (by decide)).trans <| rfl

theorem W16_main_arg4 (c : Dev nD) : W16 m ρ c (Proc.devRef .tc main_arg4) = m ((c : Thread nD τ).loc main_arg4) :=
  (W16_keep m ρ c main_arg4 (by decide)).trans <| (W15_keep m ρ c main_arg4 (by decide)).trans <| (W14_keep m ρ c main_arg4 (by decide)).trans <| (W13_keep m ρ c main_arg4 (by decide)).trans <| (W12_keep m ρ c main_arg4 (by decide)).trans <| (W11_keep m ρ c main_arg4 (by decide)).trans <| (W10_keep m ρ c main_arg4 (by decide)).trans <| (W9_keep m ρ c main_arg4 (by decide)).trans <| (W8_keep m ρ c main_arg4 (by decide)).trans <| (W7_keep m ρ c main_arg4 (by decide)).trans <| (W6_keep m ρ c main_arg4 (by decide)).trans <| (W5_keep m ρ c main_arg4 (by decide)).trans <| (W4_keep m ρ c main_arg4 (by decide)).trans <| (W3_keep m ρ c main_arg4 (by decide)).trans <| (W2_keep m ρ c main_arg4 (by decide)).trans <| (W1_keep m ρ c main_arg4 (by decide)).trans <| rfl

theorem W16_main_arg5 (c : Dev nD) : W16 m ρ c (Proc.devRef .tc main_arg5) = m ((c : Thread nD τ).loc main_arg5) :=
  (W16_keep m ρ c main_arg5 (by decide)).trans <| (W15_keep m ρ c main_arg5 (by decide)).trans <| (W14_keep m ρ c main_arg5 (by decide)).trans <| (W13_keep m ρ c main_arg5 (by decide)).trans <| (W12_keep m ρ c main_arg5 (by decide)).trans <| (W11_keep m ρ c main_arg5 (by decide)).trans <| (W10_keep m ρ c main_arg5 (by decide)).trans <| (W9_keep m ρ c main_arg5 (by decide)).trans <| (W8_keep m ρ c main_arg5 (by decide)).trans <| (W7_keep m ρ c main_arg5 (by decide)).trans <| (W6_keep m ρ c main_arg5 (by decide)).trans <| (W5_keep m ρ c main_arg5 (by decide)).trans <| (W4_keep m ρ c main_arg5 (by decide)).trans <| (W3_keep m ρ c main_arg5 (by decide)).trans <| (W2_keep m ρ c main_arg5 (by decide)).trans <| (W1_keep m ρ c main_arg5 (by decide)).trans <| rfl

theorem W16_main_arg6 (c : Dev nD) : W16 m ρ c (Proc.devRef .tc main_arg6) = m ((c : Thread nD τ).loc main_arg6) :=
  (W16_keep m ρ c main_arg6 (by decide)).trans <| (W15_keep m ρ c main_arg6 (by decide)).trans <| (W14_keep m ρ c main_arg6 (by decide)).trans <| (W13_keep m ρ c main_arg6 (by decide)).trans <| (W12_keep m ρ c main_arg6 (by decide)).trans <| (W11_keep m ρ c main_arg6 (by decide)).trans <| (W10_keep m ρ c main_arg6 (by decide)).trans <| (W9_keep m ρ c main_arg6 (by decide)).trans <| (W8_keep m ρ c main_arg6 (by decide)).trans <| (W7_keep m ρ c main_arg6 (by decide)).trans <| (W6_keep m ρ c main_arg6 (by decide)).trans <| (W5_keep m ρ c main_arg6 (by decide)).trans <| (W4_keep m ρ c main_arg6 (by decide)).trans <| (W3_keep m ρ c main_arg6 (by decide)).trans <| (W2_keep m ρ c main_arg6 (by decide)).trans <| (W1_keep m ρ c main_arg6 (by decide)).trans <| rfl

theorem W16_main_arg7 (c : Dev nD) : W16 m ρ c (Proc.devRef .tc main_arg7) = m ((c : Thread nD τ).loc main_arg7) :=
  (W16_keep m ρ c main_arg7 (by decide)).trans <| (W15_keep m ρ c main_arg7 (by decide)).trans <| (W14_keep m ρ c main_arg7 (by decide)).trans <| (W13_keep m ρ c main_arg7 (by decide)).trans <| (W12_keep m ρ c main_arg7 (by decide)).trans <| (W11_keep m ρ c main_arg7 (by decide)).trans <| (W10_keep m ρ c main_arg7 (by decide)).trans <| (W9_keep m ρ c main_arg7 (by decide)).trans <| (W8_keep m ρ c main_arg7 (by decide)).trans <| (W7_keep m ρ c main_arg7 (by decide)).trans <| (W6_keep m ρ c main_arg7 (by decide)).trans <| (W5_keep m ρ c main_arg7 (by decide)).trans <| (W4_keep m ρ c main_arg7 (by decide)).trans <| (W3_keep m ρ c main_arg7 (by decide)).trans <| (W2_keep m ρ c main_arg7 (by decide)).trans <| (W1_keep m ρ c main_arg7 (by decide)).trans <| rfl

theorem W16_main_arg8 (c : Dev nD) : W16 m ρ c (Proc.devRef .tc main_arg8) = m ((c : Thread nD τ).loc main_arg8) :=
  (W16_keep m ρ c main_arg8 (by decide)).trans <| (W15_keep m ρ c main_arg8 (by decide)).trans <| (W14_keep m ρ c main_arg8 (by decide)).trans <| (W13_keep m ρ c main_arg8 (by decide)).trans <| (W12_keep m ρ c main_arg8 (by decide)).trans <| (W11_keep m ρ c main_arg8 (by decide)).trans <| (W10_keep m ρ c main_arg8 (by decide)).trans <| (W9_keep m ρ c main_arg8 (by decide)).trans <| (W8_keep m ρ c main_arg8 (by decide)).trans <| (W7_keep m ρ c main_arg8 (by decide)).trans <| (W6_keep m ρ c main_arg8 (by decide)).trans <| (W5_keep m ρ c main_arg8 (by decide)).trans <| (W4_keep m ρ c main_arg8 (by decide)).trans <| (W3_keep m ρ c main_arg8 (by decide)).trans <| (W2_keep m ρ c main_arg8 (by decide)).trans <| (W1_keep m ρ c main_arg8 (by decide)).trans <| rfl

theorem W16_main_arg9 (c : Dev nD) : W16 m ρ c (Proc.devRef .tc main_arg9) = m ((c : Thread nD τ).loc main_arg9) :=
  (W16_keep m ρ c main_arg9 (by decide)).trans <| (W15_keep m ρ c main_arg9 (by decide)).trans <| (W14_keep m ρ c main_arg9 (by decide)).trans <| (W13_keep m ρ c main_arg9 (by decide)).trans <| (W12_keep m ρ c main_arg9 (by decide)).trans <| (W11_keep m ρ c main_arg9 (by decide)).trans <| (W10_keep m ρ c main_arg9 (by decide)).trans <| (W9_keep m ρ c main_arg9 (by decide)).trans <| (W8_keep m ρ c main_arg9 (by decide)).trans <| (W7_keep m ρ c main_arg9 (by decide)).trans <| (W6_keep m ρ c main_arg9 (by decide)).trans <| (W5_keep m ρ c main_arg9 (by decide)).trans <| (W4_keep m ρ c main_arg9 (by decide)).trans <| (W3_keep m ρ c main_arg9 (by decide)).trans <| (W2_keep m ρ c main_arg9 (by decide)).trans <| (W1_keep m ρ c main_arg9 (by decide)).trans <| rfl

theorem W16_main_arg10 (c : Dev nD) : W16 m ρ c (Proc.devRef .tc main_arg10) = m ((c : Thread nD τ).loc main_arg10) :=
  (W16_keep m ρ c main_arg10 (by decide)).trans <| (W15_keep m ρ c main_arg10 (by decide)).trans <| (W14_keep m ρ c main_arg10 (by decide)).trans <| (W13_keep m ρ c main_arg10 (by decide)).trans <| (W12_keep m ρ c main_arg10 (by decide)).trans <| (W11_keep m ρ c main_arg10 (by decide)).trans <| (W10_keep m ρ c main_arg10 (by decide)).trans <| (W9_keep m ρ c main_arg10 (by decide)).trans <| (W8_keep m ρ c main_arg10 (by decide)).trans <| (W7_keep m ρ c main_arg10 (by decide)).trans <| (W6_keep m ρ c main_arg10 (by decide)).trans <| (W5_keep m ρ c main_arg10 (by decide)).trans <| (W4_keep m ρ c main_arg10 (by decide)).trans <| (W3_keep m ρ c main_arg10 (by decide)).trans <| (W2_keep m ρ c main_arg10 (by decide)).trans <| (W1_keep m ρ c main_arg10 (by decide)).trans <| rfl

theorem W16_main_arg11 (c : Dev nD) : W16 m ρ c (Proc.devRef .tc main_arg11) = m ((c : Thread nD τ).loc main_arg11) :=
  (W16_keep m ρ c main_arg11 (by decide)).trans <| (W15_keep m ρ c main_arg11 (by decide)).trans <| (W14_keep m ρ c main_arg11 (by decide)).trans <| (W13_keep m ρ c main_arg11 (by decide)).trans <| (W12_keep m ρ c main_arg11 (by decide)).trans <| (W11_keep m ρ c main_arg11 (by decide)).trans <| (W10_keep m ρ c main_arg11 (by decide)).trans <| (W9_keep m ρ c main_arg11 (by decide)).trans <| (W8_keep m ρ c main_arg11 (by decide)).trans <| (W7_keep m ρ c main_arg11 (by decide)).trans <| (W6_keep m ρ c main_arg11 (by decide)).trans <| (W5_keep m ρ c main_arg11 (by decide)).trans <| (W4_keep m ρ c main_arg11 (by decide)).trans <| (W3_keep m ρ c main_arg11 (by decide)).trans <| (W2_keep m ρ c main_arg11 (by decide)).trans <| (W1_keep m ρ c main_arg11 (by decide)).trans <| rfl

theorem W16_main_arg12 (c : Dev nD) : W16 m ρ c (Proc.devRef .tc main_arg12) = m ((c : Thread nD τ).loc main_arg12) :=
  (W16_keep m ρ c main_arg12 (by decide)).trans <| (W15_keep m ρ c main_arg12 (by decide)).trans <| (W14_keep m ρ c main_arg12 (by decide)).trans <| (W13_keep m ρ c main_arg12 (by decide)).trans <| (W12_keep m ρ c main_arg12 (by decide)).trans <| (W11_keep m ρ c main_arg12 (by decide)).trans <| (W10_keep m ρ c main_arg12 (by decide)).trans <| (W9_keep m ρ c main_arg12 (by decide)).trans <| (W8_keep m ρ c main_arg12 (by decide)).trans <| (W7_keep m ρ c main_arg12 (by decide)).trans <| (W6_keep m ρ c main_arg12 (by decide)).trans <| (W5_keep m ρ c main_arg12 (by decide)).trans <| (W4_keep m ρ c main_arg12 (by decide)).trans <| (W3_keep m ρ c main_arg12 (by decide)).trans <| (W2_keep m ρ c main_arg12 (by decide)).trans <| (W1_keep m ρ c main_arg12 (by decide)).trans <| rfl

theorem W16_main_arg13 (c : Dev nD) : W16 m ρ c (Proc.devRef .tc main_arg13) = m ((c : Thread nD τ).loc main_arg13) :=
  (W16_keep m ρ c main_arg13 (by decide)).trans <| (W15_keep m ρ c main_arg13 (by decide)).trans <| (W14_keep m ρ c main_arg13 (by decide)).trans <| (W13_keep m ρ c main_arg13 (by decide)).trans <| (W12_keep m ρ c main_arg13 (by decide)).trans <| (W11_keep m ρ c main_arg13 (by decide)).trans <| (W10_keep m ρ c main_arg13 (by decide)).trans <| (W9_keep m ρ c main_arg13 (by decide)).trans <| (W8_keep m ρ c main_arg13 (by decide)).trans <| (W7_keep m ρ c main_arg13 (by decide)).trans <| (W6_keep m ρ c main_arg13 (by decide)).trans <| (W5_keep m ρ c main_arg13 (by decide)).trans <| (W4_keep m ρ c main_arg13 (by decide)).trans <| (W3_keep m ρ c main_arg13 (by decide)).trans <| (W2_keep m ρ c main_arg13 (by decide)).trans <| (W1_keep m ρ c main_arg13 (by decide)).trans <| rfl

theorem W16_main_arg14 (c : Dev nD) : W16 m ρ c (Proc.devRef .tc main_arg14) = m ((c : Thread nD τ).loc main_arg14) :=
  (W16_keep m ρ c main_arg14 (by decide)).trans <| (W15_keep m ρ c main_arg14 (by decide)).trans <| (W14_keep m ρ c main_arg14 (by decide)).trans <| (W13_keep m ρ c main_arg14 (by decide)).trans <| (W12_keep m ρ c main_arg14 (by decide)).trans <| (W11_keep m ρ c main_arg14 (by decide)).trans <| (W10_keep m ρ c main_arg14 (by decide)).trans <| (W9_keep m ρ c main_arg14 (by decide)).trans <| (W8_keep m ρ c main_arg14 (by decide)).trans <| (W7_keep m ρ c main_arg14 (by decide)).trans <| (W6_keep m ρ c main_arg14 (by decide)).trans <| (W5_keep m ρ c main_arg14 (by decide)).trans <| (W4_keep m ρ c main_arg14 (by decide)).trans <| (W3_keep m ρ c main_arg14 (by decide)).trans <| (W2_keep m ρ c main_arg14 (by decide)).trans <| (W1_keep m ρ c main_arg14 (by decide)).trans <| rfl

theorem W16_main_arg15 (c : Dev nD) : W16 m ρ c (Proc.devRef .tc main_arg15) = m ((c : Thread nD τ).loc main_arg15) :=
  (W16_keep m ρ c main_arg15 (by decide)).trans <| (W15_keep m ρ c main_arg15 (by decide)).trans <| (W14_keep m ρ c main_arg15 (by decide)).trans <| (W13_keep m ρ c main_arg15 (by decide)).trans <| (W12_keep m ρ c main_arg15 (by decide)).trans <| (W11_keep m ρ c main_arg15 (by decide)).trans <| (W10_keep m ρ c main_arg15 (by decide)).trans <| (W9_keep m ρ c main_arg15 (by decide)).trans <| (W8_keep m ρ c main_arg15 (by decide)).trans <| (W7_keep m ρ c main_arg15 (by decide)).trans <| (W6_keep m ρ c main_arg15 (by decide)).trans <| (W5_keep m ρ c main_arg15 (by decide)).trans <| (W4_keep m ρ c main_arg15 (by decide)).trans <| (W3_keep m ρ c main_arg15 (by decide)).trans <| (W2_keep m ρ c main_arg15 (by decide)).trans <| (W1_keep m ρ c main_arg15 (by decide)).trans <| rfl

end Cert.Kernel.Hand

end
-- ==== Proof.K.RunSegs.lean ====
/-
  The kernel program's run, second half: each of the nine pipelined regions as a segment over the thread state "every
  unscoped buffer of the core at the boundary's contents, the generator register at some state, nothing owed", and
  the program's sixteen items as the list of segments.

  Every region is entered from the contents the fold of the first half names for its entry boundary and left at the
  contents named for its exit boundary.  A region whose body keeps nothing between grid points uses the class's region
  invariant unchanged; a region whose body carries running sums in scratch buffers has an invariant that names their
  contents point by point, reached from the class's invariant before the first point and giving it back after the last.
-/
import proofs.«115743_j55052890800725_2_alg».proof.Proof.K.RunFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every pipeline's proof data, each at its region's entry contents. -/
def pdats : (p : Fin 9) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
  | ⟨4, _⟩ => fun c => dat4 (V8 m ρ) c
  | ⟨5, _⟩ => fun c => dat5 (V10 m ρ) c
  | ⟨6, _⟩ => fun c => dat6 (V12 m ρ) c
  | ⟨7, _⟩ => fun c => dat7 (V13 m ρ) c
  | ⟨8, _⟩ => fun c => dat8 (V15 m ρ) c
  | ⟨_ + 9, h⟩ => absurd h (Nat.not_lt.2 (Nat.le_add_left _ _))
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W16 m ρ c) ∗ ∃ r, prngReg c r)

/-! ## Into the class's region invariant and out of it -/

/-- The generator register and the scoped rest (beside anything else, dropped) make the class's region invariant. -/
theorem r_in {gr W : Nat} (win : Fin W → Pipeline.WinSpec sig gr) (c : Dev nD) (Q : sProp 𝕄) :
    (iprop((∃ r, prngReg c r) ∗ Q ∗ Pipeline.scopedRest (Ix := Unit) (Name := ℕ) (U := UR sig nD τ) (Lvl := ℕ) (Val := Elt F) win c) : sProp 𝕄)
      ⊢ Pipeline.ΦA win c := by
  unfold Pipeline.ΦA
  iintro ⟨Hp, -, Hr⟩
  isplitl [Hr]; · iexact Hr
  iexact Hp
/-- The class's region invariant gives back the generator register and the scoped rest. -/
theorem r_out {gr W : Nat} (win : Fin W → Pipeline.WinSpec sig gr) (c : Dev nD) :
    (Pipeline.ΦA win c : sProp 𝕄)
      ⊢ iprop((∃ r, prngReg c r) ∗ BI.emp ∗ Pipeline.scopedRest (Ix := Unit) (Name := ℕ) (U := UR sig nD τ) (Lvl := ℕ) (Val := Elt F) win c) := by
  unfold Pipeline.ΦA
  iintro ⟨Hr, Hp⟩
  isplitl [Hp]; · iexact Hp
  isplitr; · iempintro
  iexact Hr

/-! ## The regions as segments -/

set_option backward.isDefEq.respectTransparency.types false in
/-- REGION 0 over the thread state: entered from every unscoped buffer at `W1`, left at `W2`.  Its arrays are split
    out of the unscoped buffers and put back at the exit contents; the generator register and the scoped rest go into
    the region invariant and come back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`.  Its arrays are split
    out of the unscoped buffers and put back at the exit contents; the generator register and the scoped rest go into
    the region invariant and come back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (r_in spec1 c _).trans (hin1 (V3 m ρ) c)
  hout c := by
    rw [Pipeline.ownSems0_none]
    exact (hout1 (V3 m ρ) c).trans (r_out spec1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6`.  Its arrays are split
    out of the unscoped buffers and put back at the exit contents; the generator register and the scoped rest go into
    the region invariant and come back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun w => A_eq2 (V5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W6`, left at `W7`.  Its arrays are split
    out of the unscoped buffers and put back at the exit contents; the generator register and the scoped rest go into
    the region invariant and come back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun w => A_eq3 (V6 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W8`, left at `W9`.  Its arrays are split
    out of the unscoped buffers and put back at the exit contents; the generator register and the scoped rest go into
    the region invariant and come back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V8 m ρ c) fun w => A_eq4 (V8 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (r_in spec4 c _).trans (hin4 (V8 m ρ) c)
  hout c := by
    rw [Pipeline.ownSems0_none]
    exact (hout4 (V8 m ρ) c).trans (r_out spec4 c)
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V8 m ρ c) (V9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 over the thread state: entered from every unscoped buffer at `W10`, left at `W11`.  Its arrays are split
    out of the unscoped buffers and put back at the exit contents; the generator register and the scoped rest go into
    the region invariant and come back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V10 m ρ) c).loose
  hwaits := Pipeline.hwaits_of_owed_zero _ _ _ _ L lv 5 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec5 c (V10 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V10 m ρ c) fun w => A_eq5 (V10 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V10 m ρ c) (V11 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 6 over the thread state: entered from every unscoped buffer at `W12`, left at `W13`.  Its arrays are split
    out of the unscoped buffers and put back at the exit contents; the generator register and the scoped rest go into
    the region invariant and come back; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V12 m ρ) c).loose
  hwaits := Pipeline.hwaits_of_owed_zero _ _ _ _ L lv 6 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec6 c (V12 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V12 m ρ c) fun w => A_eq6 (V12 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V12 m ρ c) (V13 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 7 over the thread state: entered from every unscoped buffer at `W13`, left at `W14`.  Its arrays are split
    out of the unscoped buffers and put back at the exit contents; the generator register and the scoped rest go into
    the region invariant and come back; nothing is owed; the kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V13 m ρ) c).loose
  hwaits := Pipeline.hwaits_of_owed_zero _ _ _ _ L lv 7 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec7 c (V13 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V13 m ρ c) fun w => A_eq7 (V13 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (r_in spec7 c _).trans (hin7 (V13 m ρ) c)
  hout c := by
    rw [Pipeline.ownSems0_none]
    exact (hout7 (V13 m ρ) c).trans (r_out spec7 c)
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V13 m ρ c) (V14 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 8 over the thread state: entered from every unscoped buffer at `W15`, left at `W16`.  Its arrays are split
    out of the unscoped buffers and put back at the exit contents; the generator register and the scoped rest go into
    the region invariant and come back; nothing is owed; the kernel has no semaphore of its own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V15 m ρ) c).loose
  hwaits := Pipeline.hwaits_of_owed_zero _ _ _ _ L lv 8 fun _ _ => rfl
  pre c := iprop(StableHlo.held (c : Thread nD τ) (Pipeline.ucRefs τ sig) (W15 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec8 c (V15 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V15 m ρ c) fun w => A_eq8 (V15 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V15 m ρ c) (V16 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments -/

/-- The program's sixteen segments in order: a host segment per stretch from its boundary's contents, a region per pipelined call. -/
abbrev segs : List (Pipeline.Seg (pcfgs (F := F)) adm (pdats m ρ) () defs₀ 𝒱₀ L lv) :=
  [
    .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .host (hseg hostOps4 hostOps4_sub hostOps4_fresh (W7 m ρ)),
    .region (reg4 m ρ),
    .host (hseg hostOps5 hostOps5_sub hostOps5_fresh (W9 m ρ)),
    .region (reg5 m ρ),
    .host (hseg hostOps6 hostOps6_sub hostOps6_fresh (W11 m ρ)),
    .region (reg6 m ρ),
    .region (reg7 m ρ),
    .host (hseg hostOps8 hostOps8_sub hostOps8_fresh (W14 m ρ)),
    .region (reg8 m ρ) ]

end Cert.Kernel.Hand

end
-- ==== Proof.K.Run.lean ====
/-
  The kernel program's run, the launch: from any memory with zero counters every weakly fair execution of the program on
  the TensorCores terminates, nothing faulting, and in every final state each unscoped buffer of each core holds what
  the fold names for the last boundary.  From that, the frame claim: every argument array ends as launched.
-/
import proofs.«115743_j55052890800725_2_alg».proof.Proof.K.RunSegs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the sixteen segments, at any post that follows from the final memory holding the last boundary's
    contents at every unscoped buffer of every core. -/
theorem run_of {Q : PUnit × MemSt nD τ sig (Elt F) → Prop}
    (hQ : ∀ s : MemSt nD τ sig (Elt F), (∀ c : Dev nD, ∀ b ∈ Pipeline.ucRefs τ sig, s.mem (((c : Thread nD τ)).1, b) = W16 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          Prog.lift (.customCall (Pipeline.entry 7) ()),
          StableHlo.seq hostOps8,
          Prog.lift (.customCall (Pipeline.entry 8) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := hQ)

/-- THE RUN: every final state holds the last boundary's contents at every unscoped buffer of every core. -/
theorem run : θ_run defs (onTc (τ := τ) (main (F := F))) ⟨m, fun _ => 0, ρ⟩ (fun r => ∀ c : Dev nD,
      ∀ b ∈ Pipeline.ucRefs τ sig, r.2.mem (((c : Thread nD τ)).1, b) = W16 m ρ c b) :=
  run_of m ρ fun s h => h

/-- THE FRAME: every argument array ends as launched — each read off the last boundary's contents and walked back
    through the sixteen items, none of which writes it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  run_of m ρ fun s h c =>
    ⟨(h c _ (mem_uc main_arg0 (by decide))).trans (W16_main_arg0 m ρ c),
    (h c _ (mem_uc main_arg1 (by decide))).trans (W16_main_arg1 m ρ c),
    (h c _ (mem_uc main_arg2 (by decide))).trans (W16_main_arg2 m ρ c),
    (h c _ (mem_uc main_arg3 (by decide))).trans (W16_main_arg3 m ρ c),
    (h c _ (mem_uc main_arg4 (by decide))).trans (W16_main_arg4 m ρ c),
    (h c _ (mem_uc main_arg5 (by decide))).trans (W16_main_arg5 m ρ c),
    (h c _ (mem_uc main_arg6 (by decide))).trans (W16_main_arg6 m ρ c),
    (h c _ (mem_uc main_arg7 (by decide))).trans (W16_main_arg7 m ρ c),
    (h c _ (mem_uc main_arg8 (by decide))).trans (W16_main_arg8 m ρ c),
    (h c _ (mem_uc main_arg9 (by decide))).trans (W16_main_arg9 m ρ c),
    (h c _ (mem_uc main_arg10 (by decide))).trans (W16_main_arg10 m ρ c),
    (h c _ (mem_uc main_arg11 (by decide))).trans (W16_main_arg11 m ρ c),
    (h c _ (mem_uc main_arg12 (by decide))).trans (W16_main_arg12 m ρ c),
    (h c _ (mem_uc main_arg13 (by decide))).trans (W16_main_arg13 m ρ c),
    (h c _ (mem_uc main_arg14 (by decide))).trans (W16_main_arg14 m ρ c),
    (h c _ (mem_uc main_arg15 (by decide))).trans (W16_main_arg15 m ρ c)⟩

/-- THE RUN, at the result: the result buffer ends at what the fold names for the last boundary, and every argument
    array ends as launched. -/
theorem run_val : θ_run defs (onTc (τ := τ) (main (F := F))) ⟨m, fun _ => 0, ρ⟩ (fun r => ∀ c : Dev nD,
      r.2.mem ((c.tc : Thread nD τ).loc main_v85) = W16 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  run_of m ρ fun s h c =>
    ⟨h c _ (mem_uc main_v85 (by decide)),
    (h c _ (mem_uc main_arg0 (by decide))).trans (W16_main_arg0 m ρ c),
    (h c _ (mem_uc main_arg1 (by decide))).trans (W16_main_arg1 m ρ c),
    (h c _ (mem_uc main_arg2 (by decide))).trans (W16_main_arg2 m ρ c),
    (h c _ (mem_uc main_arg3 (by decide))).trans (W16_main_arg3 m ρ c),
    (h c _ (mem_uc main_arg4 (by decide))).trans (W16_main_arg4 m ρ c),
    (h c _ (mem_uc main_arg5 (by decide))).trans (W16_main_arg5 m ρ c),
    (h c _ (mem_uc main_arg6 (by decide))).trans (W16_main_arg6 m ρ c),
    (h c _ (mem_uc main_arg7 (by decide))).trans (W16_main_arg7 m ρ c),
    (h c _ (mem_uc main_arg8 (by decide))).trans (W16_main_arg8 m ρ c),
    (h c _ (mem_uc main_arg9 (by decide))).trans (W16_main_arg9 m ρ c),
    (h c _ (mem_uc main_arg10 (by decide))).trans (W16_main_arg10 m ρ c),
    (h c _ (mem_uc main_arg11 (by decide))).trans (W16_main_arg11 m ρ c),
    (h c _ (mem_uc main_arg12 (by decide))).trans (W16_main_arg12 m ρ c),
    (h c _ (mem_uc main_arg13 (by decide))).trans (W16_main_arg13 m ρ c),
    (h c _ (mem_uc main_arg14 (by decide))).trans (W16_main_arg14 m ρ c),
    (h c _ (mem_uc main_arg15 (by decide))).trans (W16_main_arg15 m ρ c)⟩

end Cert.Kernel.Hand

end
-- ==== Proof.KI.BodyA0.lean ====
/- Region 0 of the program, at any float model: the body run on one grid point. Every input window's block is
   read whole and the one output window's block is written whole, once: a row tile of the features (window 0) times the weight matrix (window 1), both rounded to bf16, each row scaled by its entry of the column vector (window 2), rounded to bf16.
   Stated at a parameter `V`, the buffer contents when the region is entered: each window's block at a point, what
   the body leaves in the output window's buffer as a function of the input blocks, the body's triple on whole staging
   buffers, the pipeline's proof data and the body obligation at every point. -/
import proofs.«115743_j55052890800725_2_alg».proof.Proof.Gen.KernelIdeal.Launch
import proofs.«115743_j55052890800725_2_alg».proof.Proof.Gen.KernelIdeal.Skeleton
import proofs.«115743_j55052890800725_2_alg».proof.Proof.Gen.KernelIdeal.Points
import Idealize.ShloMosaic.Lib.Pipeline.FrameBody
import Idealize.ShloMosaic.Lib.Ring
import Idealize.ShloMosaic.Lib.Tactic

-- membership in a rectangle of long extents is decided by a structural recursion, one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (when it is not
    fetched its block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not (when it is not
    fetched its block index has not moved), for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not (when it is not
    fetched its block index has not moved), for any proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each window's whole block -/

abbrev r0_0 : Rect S5000x128 := Rect.unit (s := S5000x128) ![0, 0] S5000x128.size inb_S5000x128_S5000x128_0_0
abbrev r0_1 : Rect S128x96 := Rect.unit (s := S128x96) ![0, 0] S128x96.size inb_S128x96_S128x96_0_0
abbrev r0_2 : Rect S5000x1 := Rect.unit (s := S5000x1) ![0, 0] S5000x1.size inb_S5000x1_S5000x1_0_0
abbrev r0_3 : Rect S5000x96 := Rect.unit (s := S5000x96) ![0, 0] S5000x96.size inb_S5000x96_S5000x96_0_0

/-! ## What the body leaves in the output window's buffer -/

/-- Window 3's staging buffer after the body, from the input windows' blocks: the one store, of the whole block. -/
def out0_3 (x0 : Vec F S5000x128 .f32) (x1 : Vec F S128x96 .f32) (x2 : Vec F S5000x1 .f32) : Vec F S5000x96 .bf16 :=
  View.canon [⟨r0_3, k0_pay1 (View.ld x0 r0_0) (View.ld x1 r0_1) (View.ld x2 r0_2)⟩]

/-- The one store covers the buffer. -/
theorem cover0_3 (p0 : Vec F S5000x96 .bf16) (y : S5000x96.Idx) :
    ∃ pc ∈ ([⟨r0_3, p0⟩] : List (View.Piece (Elt F) S5000x96 .bf16)), y ∈ pc.1.set :=
  View.cover_of_tiled [⟨r0_3, p0⟩] S5000x96.size (by rfl) y

/-! ## The body's triple -/

set_option maxHeartbeats 1000000 in
/-- The body on whole staging buffers, the inputs' at contents `xW` and the output's at anything (the body reads it
    before overwriting it), runs to the continuation holding the inputs' as they were and the output's at `out0_3` of
    the inputs'. -/
theorem sound_kernel0 (c : Dev nD) (E : Set ℕ) (i : grid0.Coords) (arg1 : Memref sig .tc .vmem S5000x128 .f32) (harg1 : arg1.IsWhole) (arg2 : Memref sig .tc .vmem S128x96 .f32) (harg2 : arg2.IsWhole) (arg3 : Memref sig .tc .vmem S5000x1 .f32) (harg3 : arg3.IsWhole) (arg4 : Memref sig .tc .vmem S5000x96 .bf16) (harg4 : arg4.IsWhole)
    (x0 : Vec F S5000x128 .f32) (x1 : Vec F S128x96 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__matmul_prescale_kernel i arg1 harg1 arg2 harg2 arg3 harg3 arg4 harg4) K := by
  simp only [cc0__matmul_prescale_kernel_eq_skeleton]; unfold cc0__matmul_prescale_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the region's pipeline on core `c`: the arrays as the region finds them; after the body at point
    `t` each input's buffer at its block and the output's at `out0_3` of the input blocks; the invariant keeps
    everything else untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `sound_kernel0` applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.BodyA2.lean ====
/- Region 2 of the program, at any float model: the body run on one grid point. Every input window's block is
   read whole and the one output window's block is written whole, once: a row tile (window 0) scaled per row (window 1) plus the bias row (window 2), centred at the mean row (window 5), scaled by the gain row (window 3) and by the reciprocal square root of the variance row (window 6) plus epsilon, plus the shift row (window 4), clamped below at zero, rounded to bf16.
   Stated at a parameter `V`, the buffer contents when the region is entered: each window's block at a point, what
   the body leaves in the output window's buffer as a function of the input blocks, the body's triple on whole staging
   buffers, the pipeline's proof data and the body obligation at every point. -/
import proofs.«115743_j55052890800725_2_alg».proof.Proof.Gen.KernelIdeal.Launch
import proofs.«115743_j55052890800725_2_alg».proof.Proof.Gen.KernelIdeal.Skeleton
import proofs.«115743_j55052890800725_2_alg».proof.Proof.Gen.KernelIdeal.Points
import Idealize.ShloMosaic.Lib.Pipeline.FrameBody
import Idealize.ShloMosaic.Lib.Ring
import Idealize.ShloMosaic.Lib.Tactic

-- membership in a rectangle of long extents is decided by a structural recursion, one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (when it is not
    fetched its block index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not (when it is not
    fetched its block index has not moved), for any proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not (when it is not
    fetched its block index has not moved), for any proof data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not (when it is not
    fetched its block index has not moved), for any proof data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not (when it is not
    fetched its block index has not moved), for any proof data whose array is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not (when it is not
    fetched its block index has not moved), for any proof data whose array is `V`'s and whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not (when it is not
    fetched its block index has not moved), for any proof data whose array is `V`'s and whose body leaves the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each window's whole block -/

abbrev r2_0 : Rect S5000x96 := Rect.unit (s := S5000x96) ![0, 0] S5000x96.size inb_S5000x96_S5000x96_0_0
abbrev r2_1 : Rect S5000x1 := Rect.unit (s := S5000x1) ![0, 0] S5000x1.size inb_S5000x1_S5000x1_0_0
abbrev r2_2 : Rect S1x96 := Rect.unit (s := S1x96) ![0, 0] S1x96.size inb_S1x96_S1x96_0_0
abbrev r2_3 : Rect S1x96 := Rect.unit (s := S1x96) ![0, 0] S1x96.size inb_S1x96_S1x96_0_0
abbrev r2_4 : Rect S1x96 := Rect.unit (s := S1x96) ![0, 0] S1x96.size inb_S1x96_S1x96_0_0
abbrev r2_5 : Rect S1x96 := Rect.unit (s := S1x96) ![0, 0] S1x96.size inb_S1x96_S1x96_0_0
abbrev r2_6 : Rect S1x96 := Rect.unit (s := S1x96) ![0, 0] S1x96.size inb_S1x96_S1x96_0_0
abbrev r2_7 : Rect S5000x96 := Rect.unit (s := S5000x96) ![0, 0] S5000x96.size inb_S5000x96_S5000x96_0_0

/-! ## What the body leaves in the output window's buffer -/

/-- Window 7's staging buffer after the body, from the input windows' blocks: the one store, of the whole block. -/
def out2_7 (x0 : Vec F S5000x96 .f32) (x1 : Vec F S5000x1 .f32) (x2 : Vec F S1x96 .f32) (x3 : Vec F S1x96 .f32) (x4 : Vec F S1x96 .f32) (x5 : Vec F S1x96 .f32) (x6 : Vec F S1x96 .f32) : Vec F S5000x96 .bf16 :=
  View.canon [⟨r2_7, k2_pay1 (View.ld x0 r2_0) (View.ld x1 r2_1) (View.ld x2 r2_2) (View.ld x6 r2_6) (View.ld x3 r2_3) (View.ld x5 r2_5) (View.ld x4 r2_4)⟩]

/-- The one store covers the buffer. -/
theorem cover2_7 (p0 : Vec F S5000x96 .bf16) (y : S5000x96.Idx) :
    ∃ pc ∈ ([⟨r2_7, p0⟩] : List (View.Piece (Elt F) S5000x96 .bf16)), y ∈ pc.1.set :=
  View.cover_of_tiled [⟨r2_7, p0⟩] S5000x96.size (by rfl) y

/-! ## The body's triple -/

set_option maxHeartbeats 1000000 in
/-- The body on whole staging buffers, the inputs' at contents `xW` and the output's at anything (the body reads it
    before overwriting it), runs to the continuation holding the inputs' as they were and the output's at `out2_7` of
    the inputs'. -/
theorem sound_kernel2 (c : Dev nD) (E : Set ℕ) (i : grid2.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (arg8 : Memref sig .tc .vmem S5000x96 .bf16) (harg8 : arg8.IsWhole)
    (x0 : Vec F S5000x96 .f32) (x1 : Vec F S5000x1 .f32) (x2 : Vec F S1x96 .f32) (x3 : Vec F S1x96 .f32) (x4 : Vec F S1x96 .f32) (x5 : Vec F S1x96 .f32) (x6 : Vec F S1x96 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E (cc2__bn_norm_relu_prescale_kernel i arg1 harg1 arg2 harg2 arg3 harg3 arg4 harg4 arg5 harg5 arg6 harg6 arg7 harg7 arg8 harg8) K := by
  simp only [cc2__bn_norm_relu_prescale_kernel_eq_skeleton]; unfold cc2__bn_norm_relu_prescale_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The pipeline's proof data -/

/-- The proof data of the region's pipeline on core `c`: the arrays as the region finds them; after the body at point
    `t` each input's buffer at its block and the output's at `out2_7` of the input blocks; the invariant keeps
    everything else untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' buffers hold their blocks, so `sound_kernel2` applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.BodyA3.lean ====
/- Region 3 of the program, at any float model: the body run on one grid point. Every input window's block is
   read whole and the one output window's block is written whole, once: a bf16 row tile (window 0) times the weight matrix (window 1) rounded to bf16, each row scaled by its entry of the column vector (window 2), rounded to bf16.
   Stated at a parameter `V`, the buffer contents when the region is entered: each window's block at a point, what
   the body leaves in the output window's buffer as a function of the input blocks, the body's triple on whole staging
   buffers, the pipeline's proof data and the body obligation at every point. -/
import proofs.«115743_j55052890800725_2_alg».proof.Proof.Gen.KernelIdeal.Launch
import proofs.«115743_j55052890800725_2_alg».proof.Proof.Gen.KernelIdeal.Skeleton
import proofs.«115743_j55052890800725_2_alg».proof.Proof.Gen.KernelIdeal.Points
import Idealize.ShloMosaic.Lib.Pipeline.FrameBody
import Idealize.ShloMosaic.Lib.Ring
import Idealize.ShloMosaic.Lib.Tactic

-- membership in a rectangle of long extents is decided by a structural recursion, one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not (when it is not
    fetched its block index has not moved), for any proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not (when it is not
    fetched its block index has not moved), for any proof data whose array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not (when it is not
    fetched its block index has not moved), for any proof data whose array is `V`'s and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each window's whole block -/

abbrev r3_0 : Rect S5000x96 := Rect.unit (s := S5000x96) ![0, 0] S5000x96.size inb_S5000x96_S5000x96_0_0
abbrev r3_1 : Rect S96x96 := Rect.unit (s := S96x96) ![0, 0] S96x96.size inb_S96x96_S96x96_0_0
abbrev r3_2 : Rect S5000x1 := Rect.unit (s := S5000x1) ![0, 0] S5000x1.size inb_S5000x1_S5000x1_0_0
abbrev r3_3 : Rect S5000x96 := Rect.unit (s := S5000x96) ![0, 0] S5000x96.size inb_S5000x96_S5000x96_0_0

/-! ## What the body leaves in the output window's buffer -/

/-- Window 3's staging buffer after the body, from the input windows' blocks: the one store, of the whole block. -/
def out3_3 (x0 : Vec F S5000x96 .bf16) (x1 : Vec F S96x96 .f32) (x2 : Vec F S5000x1 .f32) : Vec F S5000x96 .bf16 :=
  View.canon [⟨r3_3, k3_pay1 (View.ld x0 r3_0) (View.ld x1 r3_1) (View.ld x2 r3_2)⟩]

/-- The one store covers the buffer. -/
theorem cover3_3 (p0 : Vec F S5000x96 .bf16) (y : S5000x96.Idx) :
    ∃ pc ∈ ([⟨r3_3, p0⟩] : List (View.Piece (Elt F) S5000x96 .bf16)), y ∈ pc.1.set :=
  View.cover_of_tiled [⟨r3_3, p0⟩] S5000x96.size (by rfl) y

/-! ## The body's triple -/

set_option maxHeartbeats 1000000 in
/-- The body on whole staging buffers, the inputs' at contents `xW` and the output's at anything (the body reads it
    before overwriting it), runs to the continuation holding the inputs' as they were and the output's at `out3_3` of
    the inputs'. -/
theorem sound_kernel3 (c : Dev nD) (E : Set ℕ) (i : grid3.Coords) (arg1 : Memref sig .tc .vmem S5000x96 .bf16) (harg1 : arg1.IsWhole) (arg2 : Memref sig .tc .vmem S96x96 .f32) (harg2 : arg2.IsWhole) (arg3 : Memref sig .tc .vmem S5000x1 .f32) (harg3 : arg3.IsWhole) (arg4 : Memref sig .tc .vmem S5000x96 .bf16) (harg4 : arg4.IsWhole)
    (x0 : Vec F S5000x96 .bf16) (x1 : Vec F S96x96 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__matmul_prescale_kernel i arg1 harg1 arg2 harg2 arg3 harg3 arg4 harg4) K := by
  simp only [cc3__matmul_prescale_kernel_eq_skeleton]; unfold cc3__matmul_prescale_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of the region's pipeline on core `c`: the arrays as the region finds them; after the body at point
    `t` each input's buffer at its block and the output's at `out3_3` of the input blocks; the invariant keeps
    everything else untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so `sound_kernel3` applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.BodyA5.lean ====
/- Region 5 of the program, at any float model: the body run on one grid point. Every input window's block is
   read whole and the one output window's block is written whole, once: a row tile (window 0) scaled per row (window 1) plus the bias row (window 2), centred at the mean row (window 5), scaled by the gain row (window 3) and by the reciprocal square root of the variance row (window 6) plus epsilon, plus the shift row (window 4), clamped below at zero, rounded to bf16.
   Stated at a parameter `V`, the buffer contents when the region is entered: each window's block at a point, what
   the body leaves in the output window's buffer as a function of the input blocks, the body's triple on whole staging
   buffers, the pipeline's proof data and the body obligation at every point. -/
import proofs.«115743_j55052890800725_2_alg».proof.Proof.Gen.KernelIdeal.Launch
import proofs.«115743_j55052890800725_2_alg».proof.Proof.Gen.KernelIdeal.Skeleton
import proofs.«115743_j55052890800725_2_alg».proof.Proof.Gen.KernelIdeal.Points
import Idealize.ShloMosaic.Lib.Pipeline.FrameBody
import Idealize.ShloMosaic.Lib.Ring
import Idealize.ShloMosaic.Lib.Tactic

-- membership in a rectangle of long extents is decided by a structural recursion, one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not (when it is not
    fetched its block index has not moved), for any proof data whose array is `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, fetched there or not (when it is not
    fetched its block index has not moved), for any proof data whose array is `V`'s and whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, fetched there or not (when it is not
    fetched its block index has not moved), for any proof data whose array is `V`'s and whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's current staging buffer holds its block at every point, fetched there or not (when it is not
    fetched its block index has not moved), for any proof data whose array is `V`'s and whose body leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4's current staging buffer holds its block at every point, fetched there or not (when it is not
    fetched its block index has not moved), for any proof data whose array is `V`'s and whose body leaves the block in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
/-- Input window 5's current staging buffer holds its block at every point, fetched there or not (when it is not
    fetched its block index has not moved), for any proof data whose array is `V`'s and whose body leaves the block in place. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
/-- Input window 6's current staging buffer holds its block at every point, fetched there or not (when it is not
    fetched its block index has not moved), for any proof data whose array is `V`'s and whose body leaves the block in place. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each window's whole block -/

abbrev r5_0 : Rect S5000x96 := Rect.unit (s := S5000x96) ![0, 0] S5000x96.size inb_S5000x96_S5000x96_0_0
abbrev r5_1 : Rect S5000x1 := Rect.unit (s := S5000x1) ![0, 0] S5000x1.size inb_S5000x1_S5000x1_0_0
abbrev r5_2 : Rect S1x96 := Rect.unit (s := S1x96) ![0, 0] S1x96.size inb_S1x96_S1x96_0_0
abbrev r5_3 : Rect S1x96 := Rect.unit (s := S1x96) ![0, 0] S1x96.size inb_S1x96_S1x96_0_0
abbrev r5_4 : Rect S1x96 := Rect.unit (s := S1x96) ![0, 0] S1x96.size inb_S1x96_S1x96_0_0
abbrev r5_5 : Rect S1x96 := Rect.unit (s := S1x96) ![0, 0] S1x96.size inb_S1x96_S1x96_0_0
abbrev r5_6 : Rect S1x96 := Rect.unit (s := S1x96) ![0, 0] S1x96.size inb_S1x96_S1x96_0_0
abbrev r5_7 : Rect S5000x96 := Rect.unit (s := S5000x96) ![0, 0] S5000x96.size inb_S5000x96_S5000x96_0_0

/-! ## What the body leaves in the output window's buffer -/

/-- Window 7's staging buffer after the body, from the input windows' blocks: the one store, of the whole block. -/
def out5_7 (x0 : Vec F S5000x96 .f32) (x1 : Vec F S5000x1 .f32) (x2 : Vec F S1x96 .f32) (x3 : Vec F S1x96 .f32) (x4 : Vec F S1x96 .f32) (x5 : Vec F S1x96 .f32) (x6 : Vec F S1x96 .f32) : Vec F S5000x96 .bf16 :=
  View.canon [⟨r5_7, k5_pay1 (View.ld x0 r5_0) (View.ld x1 r5_1) (View.ld x2 r5_2) (View.ld x6 r5_6) (View.ld x3 r5_3) (View.ld x5 r5_5) (View.ld x4 r5_4)⟩]

/-- The one store covers the buffer. -/
theorem cover5_7 (p0 : Vec F S5000x96 .bf16) (y : S5000x96.Idx) :
    ∃ pc ∈ ([⟨r5_7, p0⟩] : List (View.Piece (Elt F) S5000x96 .bf16)), y ∈ pc.1.set :=
  View.cover_of_tiled [⟨r5_7, p0⟩] S5000x96.size (by rfl) y

/-! ## The body's triple -/

set_option maxHeartbeats 1000000 in
/-- The body on whole staging buffers, the inputs' at contents `xW` and the output's at anything (the body reads it
    before overwriting it), runs to the continuation holding the inputs' as they were and the output's at `out5_7` of
    the inputs'. -/
theorem sound_kernel5 (c : Dev nD) (E : Set ℕ) (i : grid5.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (arg8 : Memref sig .tc .vmem S5000x96 .bf16) (harg8 : arg8.IsWhole)
    (x0 : Vec F S5000x96 .f32) (x1 : Vec F S5000x1 .f32) (x2 : Vec F S1x96 .f32) (x3 : Vec F S1x96 .f32) (x4 : Vec F S1x96 .f32) (x5 : Vec F S1x96 .f32) (x6 : Vec F S1x96 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out5_7 x0 x1 x2 x3 x4 x5 x6)) -∗ K ⟨⟩))
      ⊢ wp frame (wpE (defs₀ (F := F)) Variants.none c none) E (cc5__bn_norm_relu_prescale_kernel i arg1 harg1 arg2 harg2 arg3 harg3 arg4 harg4 arg5 harg5 arg6 harg6 arg7 harg7 arg8 harg8) K := by
  simp only [cc5__bn_norm_relu_prescale_kernel_eq_skeleton]; unfold cc5__bn_norm_relu_prescale_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover5_7 _)

/-! ## The pipeline's proof data -/

/-- The proof data of the region's pipeline on core `c`: the arrays as the region finds them; after the body at point
    `t` each input's buffer at its block and the output's at `out5_7` of the input blocks; the invariant keeps
    everything else untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) (iblk5 V c 6 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

/-- The body at any point: the inputs' buffers hold their blocks, so `sound_kernel5` applies; the invariant and what
    the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ (grid5.coords t) _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.BodyA6.lean ====
/- Region 6 of the program, at any float model: the body run on one grid point. Every input window's block is
   read whole and the one output window's block is written whole, once: a bf16 row tile (window 0) times the weight matrix (window 1) rounded to bf16, plus the bias row (window 2).
   Stated at a parameter `V`, the buffer contents when the region is entered: each window's block at a point, what
   the body leaves in the output window's buffer as a function of the input blocks, the body's triple on whole staging
   buffers, the pipeline's proof data and the body obligation at every point. -/
import proofs.«115743_j55052890800725_2_alg».proof.Proof.Gen.KernelIdeal.Launch
import proofs.«115743_j55052890800725_2_alg».proof.Proof.Gen.KernelIdeal.Skeleton
import proofs.«115743_j55052890800725_2_alg».proof.Proof.Gen.KernelIdeal.Points
import Idealize.ShloMosaic.Lib.Pipeline.FrameBody
import Idealize.ShloMosaic.Lib.Ring
import Idealize.ShloMosaic.Lib.Tactic

-- membership in a rectangle of long extents is decided by a structural recursion, one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not (when it is not
    fetched its block index has not moved), for any proof data whose array is `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1's current staging buffer holds its block at every point, fetched there or not (when it is not
    fetched its block index has not moved), for any proof data whose array is `V`'s and whose body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2's current staging buffer holds its block at every point, fetched there or not (when it is not
    fetched its block index has not moved), for any proof data whose array is `V`'s and whose body leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each window's whole block -/

abbrev r6_0 : Rect S5000x96 := Rect.unit (s := S5000x96) ![0, 0] S5000x96.size inb_S5000x96_S5000x96_0_0
abbrev r6_1 : Rect S96x96 := Rect.unit (s := S96x96) ![0, 0] S96x96.size inb_S96x96_S96x96_0_0
abbrev r6_2 : Rect S1x96 := Rect.unit (s := S1x96) ![0, 0] S1x96.size inb_S1x96_S1x96_0_0
abbrev r6_3 : Rect S5000x96 := Rect.unit (s := S5000x96) ![0, 0] S5000x96.size inb_S5000x96_S5000x96_0_0

/-! ## What the body leaves in the output window's buffer -/

/-- Window 3's staging buffer after the body, from the input windows' blocks: the one store, of the whole block. -/
def out6_3 (x0 : Vec F S5000x96 .bf16) (x1 : Vec F S96x96 .f32) (x2 : Vec F S1x96 .f32) : Vec F S5000x96 .f32 :=
  View.canon [⟨r6_3, k6_pay1 (View.ld x0 r6_0) (View.ld x1 r6_1) (View.ld x2 r6_2)⟩]

/-- The one store covers the buffer. -/
theorem cover6_3 (p0 : Vec F S5000x96 .f32) (y : S5000x96.Idx) :
    ∃ pc ∈ ([⟨r6_3, p0⟩] : List (View.Piece (Elt F) S5000x96 .f32)), y ∈ pc.1.set :=
  View.cover_of_tiled [⟨r6_3, p0⟩] S5000x96.size (by rfl) y

/-! ## The body's triple -/

set_option maxHeartbeats 1000000 in
/-- The body on whole staging buffers, the inputs' at contents `xW` and the output's at anything (the body reads it
    before overwriting it), runs to the continuation holding the inputs' as they were and the output's at `out6_3` of
    the inputs'. -/
theorem sound_kernel6 (c : Dev nD) (E : Set ℕ) (i : grid6.Coords) (arg1 : Memref sig .tc .vmem S5000x96 .bf16) (harg1 : arg1.IsWhole) (arg2 : Memref sig .tc .vmem S96x96 .f32) (harg2 : arg2.IsWhole) (arg3 : Memref sig .tc .vmem S1x96 .f32) (harg3 : arg3.IsWhole) (arg4 : Memref sig .tc .vmem S5000x96 .f32) (harg4 : arg4.IsWhole)
    (x0 : Vec F S5000x96 .bf16) (x1 : Vec F S96x96 .f32) (x2 : Vec F S1x96 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__matmul_bias_kernel i arg1 harg1 arg2 harg2 arg3 harg3 arg4 harg4) K := by
  simp only [cc6__matmul_bias_kernel_eq_skeleton]; unfold cc6__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The pipeline's proof data -/

/-- The proof data of the region's pipeline on core `c`: the arrays as the region finds them; after the body at point
    `t` each input's buffer at its block and the output's at `out6_3` of the input blocks; the invariant keeps
    everything else untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' buffers hold their blocks, so `sound_kernel6` applies; the invariant and what
    the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.BodyA8.lean ====
/- Region 8 of the program, at any float model: the body run on one grid point. Every input window's block is
   read whole and the one output window's block is written whole, once: a row tile (window 0) normalised with the mean, variance, gain and shift rows (windows 1 to 4), clamped below at zero, times the projection matrix (window 5) plus its bias row (window 6), each row then divided by its Euclidean norm.
   Stated at a parameter `V`, the buffer contents when the region is entered: each window's block at a point, what
   the body leaves in the output window's buffer as a function of the input blocks, the body's triple on whole staging
   buffers, the pipeline's proof data and the body obligation at every point. -/
import proofs.«115743_j55052890800725_2_alg».proof.Proof.Gen.KernelIdeal.Launch
import proofs.«115743_j55052890800725_2_alg».proof.Proof.Gen.KernelIdeal.Skeleton
import proofs.«115743_j55052890800725_2_alg».proof.Proof.Gen.KernelIdeal.Points
import Idealize.ShloMosaic.Lib.Pipeline.FrameBody
import Idealize.ShloMosaic.Lib.Ring
import Idealize.ShloMosaic.Lib.Tactic

-- membership in a rectangle of long extents is decided by a structural recursion, one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not (when it is not
    fetched its block index has not moved), for any proof data whose array is `V`'s and whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- Input window 1's current staging buffer holds its block at every point, fetched there or not (when it is not
    fetched its block index has not moved), for any proof data whose array is `V`'s and whose body leaves the block in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
/-- Input window 2's current staging buffer holds its block at every point, fetched there or not (when it is not
    fetched its block index has not moved), for any proof data whose array is `V`'s and whose body leaves the block in place. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
/-- Input window 3's current staging buffer holds its block at every point, fetched there or not (when it is not
    fetched its block index has not moved), for any proof data whose array is `V`'s and whose body leaves the block in place. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
/-- Input window 4's current staging buffer holds its block at every point, fetched there or not (when it is not
    fetched its block index has not moved), for any proof data whose array is `V`'s and whose body leaves the block in place. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)
/-- Input window 5's current staging buffer holds its block at every point, fetched there or not (when it is not
    fetched its block index has not moved), for any proof data whose array is `V`'s and whose body leaves the block in place. -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)
/-- Input window 6's current staging buffer holds its block at every point, fetched there or not (when it is not
    fetched its block index has not moved), for any proof data whose array is `V`'s and whose body leaves the block in place. -/
theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each window's whole block -/

abbrev r8_0 : Rect S5000x96 := Rect.unit (s := S5000x96) ![0, 0] S5000x96.size inb_S5000x96_S5000x96_0_0
abbrev r8_1 : Rect S1x96 := Rect.unit (s := S1x96) ![0, 0] S1x96.size inb_S1x96_S1x96_0_0
abbrev r8_2 : Rect S1x96 := Rect.unit (s := S1x96) ![0, 0] S1x96.size inb_S1x96_S1x96_0_0
abbrev r8_3 : Rect S1x96 := Rect.unit (s := S1x96) ![0, 0] S1x96.size inb_S1x96_S1x96_0_0
abbrev r8_4 : Rect S1x96 := Rect.unit (s := S1x96) ![0, 0] S1x96.size inb_S1x96_S1x96_0_0
abbrev r8_5 : Rect S96x64 := Rect.unit (s := S96x64) ![0, 0] S96x64.size inb_S96x64_S96x64_0_0
abbrev r8_6 : Rect S1x64 := Rect.unit (s := S1x64) ![0, 0] S1x64.size inb_S1x64_S1x64_0_0
abbrev r8_7 : Rect S5000x64 := Rect.unit (s := S5000x64) ![0, 0] S5000x64.size inb_S5000x64_S5000x64_0_0

/-! ## What the body leaves in the output window's buffer -/

/-- Window 7's staging buffer after the body, from the input windows' blocks: the one store, of the whole block. -/
def out8_7 (x0 : Vec F S5000x96 .f32) (x1 : Vec F S1x96 .f32) (x2 : Vec F S1x96 .f32) (x3 : Vec F S1x96 .f32) (x4 : Vec F S1x96 .f32) (x5 : Vec F S96x64 .f32) (x6 : Vec F S1x64 .f32) : Vec F S5000x64 .f32 :=
  View.canon [⟨r8_7, k8_pay1 (View.ld x0 r8_0) (View.ld x4 r8_4) (View.ld x1 r8_1) (View.ld x3 r8_3) (View.ld x2 r8_2) (View.ld x5 r8_5) (View.ld x6 r8_6)⟩]

/-- The one store covers the buffer. -/
theorem cover8_7 (p0 : Vec F S5000x64 .f32) (y : S5000x64.Idx) :
    ∃ pc ∈ ([⟨r8_7, p0⟩] : List (View.Piece (Elt F) S5000x64 .f32)), y ∈ pc.1.set :=
  View.cover_of_tiled [⟨r8_7, p0⟩] S5000x64.size (by rfl) y

/-! ## The body's triple -/

set_option maxHeartbeats 1000000 in
/-- The body on whole staging buffers, the inputs' at contents `xW` and the output's at anything (the body reads it
    before overwriting it), runs to the continuation holding the inputs' as they were and the output's at `out8_7` of
    the inputs'. -/
theorem sound_kernel8 (c : Dev nD) (E : Set ℕ) (i : grid8.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S96x64 .f32) (harg6 : arg6.IsWhole) (arg7 : Memref sig .tc .vmem S1x64 .f32) (harg7 : arg7.IsWhole) (arg8 : Memref sig .tc .vmem S5000x64 .f32) (harg8 : arg8.IsWhole)
    (x0 : Vec F S5000x96 .f32) (x1 : Vec F S1x96 .f32) (x2 : Vec F S1x96 .f32) (x3 : Vec F S1x96 .f32) (x4 : Vec F S1x96 .f32) (x5 : Vec F S96x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out8_7 x0 x1 x2 x3 x4 x5 x6)) -∗ K ⟨⟩))
      ⊢ wp frame (wpE (defs₀ (F := F)) Variants.none c none) E (cc8__bn_relu_matmul_l2_kernel i arg1 harg1 arg2 harg2 arg3 harg3 arg4 harg4 arg5 harg5 arg6 harg6 arg7 harg7 arg8 harg8) K := by
  simp only [cc8__bn_relu_matmul_l2_kernel_eq_skeleton]; unfold cc8__bn_relu_matmul_l2_kernel_skel
  simp only [k8_part1_eq_skeleton]; unfold k8_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover8_7 _)

/-! ## The pipeline's proof data -/

/-- The proof data of the region's pipeline on core `c`: the arrays as the region finds them; after the body at point
    `t` each input's buffer at its block and the output's at `out8_7` of the input blocks; the invariant keeps
    everything else untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => out8_7 (iblk8 V c 0 t) (iblk8 V c 1 t) (iblk8 V c 2 t) (iblk8 V c 3 t) (iblk8 V c 4 t) (iblk8 V c 5 t) (iblk8 V c 6 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = out8_7 (iblk8 V c 0 t) (iblk8 V c 1 t) (iblk8 V c 2 t) (iblk8 V c 3 t) (iblk8 V c 4 t) (iblk8 V c 5 t) (iblk8 V c 6 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
theorem before8_6 (c : Dev nD) (t : Fin cfg8.N) (d) : (dat8 V c).before 6 t d = iblk8 V c 6 t :=
  before8_6_of V (dat8 V c) (A_eq8 V c 6) (after8_6 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t))

/-- The body at any point: the inputs' buffers hold their blocks, so `sound_kernel8` applies; the invariant and what
    the core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel8 c Set.univ (grid8.coords t) _ _ _ _ _ _ _ _ _ _ _ _ _ _ _ _ (iblk8 V c 0 t) (iblk8 V c 1 t) (iblk8 V c 2 t) (iblk8 V c 3 t) (iblk8 V c 4 t) (iblk8 V c 5 t) (iblk8 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.BodyR1Kit.lean ====
import proofs.«115743_j55052890800725_2_alg».proof.Proof.Gen.KernelIdeal.Launch
import proofs.«115743_j55052890800725_2_alg».proof.Proof.Gen.KernelIdeal.Skeleton
import proofs.«115743_j55052890800725_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1 (`cc1__bn_stats_prescale_kernel`): what its three control cases share

The body resets its two scratch rows at the grid's first point, adds the point's column sums and column sums of
squares into them at every point, and copies them into the two output windows at the last point. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, in closed form over the grid -/

/-- The first conditional's condition: the point is the grid's first. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

/-- The second conditional's condition: the point is the grid's last. -/
abbrev cond1_1 (i : grid1.Coords) : Prop := k1_cond2 i = 1#1
theorem hcond1_1 : ∀ t : Fin cfg1.N, cond1_1 (grid1.coords t) ↔ t.val = 9 :=
  (by decide +kernel : ∀ t : Fin grid1.N, cond1_1 (grid1.coords t) ↔ t.val = 9)

/-! ## Where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Output window 3 is idle and not written back at every point but the last, where it is live. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel
/-- Output window 4 is idle and not written back at every point but the last, where it is live. -/
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
theorem liveAt1_4_C : ∀ t : Fin cfg1.N, ¬cond1_0 (grid1.coords t) → cond1_1 (grid1.coords t) → cfg1.idle 4 (grid1.coords t) = false := by decide +kernel

/-! ## The memrefs the body is called with -/

/-- One staging buffer of each output window, through which its contents are stated. -/
abbrev VO1_3 : View sig .tc .vmem S1x96 .f32 := (Memref.whole cc1_stg3_0 : Memref sig .tc .vmem S1x96 .f32).view
abbrev VO1_4 : View sig .tc .vmem S1x96 .f32 := (Memref.whole cc1_stg4_0 : Memref sig .tc .vmem S1x96 .f32).view
abbrev ms1_0 (t : Fin cfg1.N) : Memref sig .tc .vmem S5000x96 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x96 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x96 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x96 .f32 := win1_4.stage (cfg1.slots t 4)
abbrev hs1_4 (t : Fin cfg1.N) : (ms1_4 t).IsWhole := hstage1_4 ((cfg1.slots t 4).cast nbuf1_4)
/-- The two scratch rows: whole scoped buffers of the kernel's own, carried from point to point. -/
abbrev scM1_0 : Memref sig .tc .vmem S1x96 .f32 := Memref.whole cc1_scratch0
abbrev scM1_1 : Memref sig .tc .vmem S1x96 .f32 := Memref.whole cc1_scratch1
abbrev VS1_0 : View sig .tc .vmem S1x96 .f32 := scM1_0.view
abbrev VS1_1 : View sig .tc .vmem S1x96 .f32 := scM1_1.view

/-- The class's invariant with the two scratch rows as memrefs owned at some contents, the other scoped buffers
    unopened. -/
theorem PhiA1_eq (c : Dev nD) :
    (Pipeline.ΦA spec1 c : sProp 𝕄)
      = iprop((iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

end Cert.KernelIdeal.Hand

end
-- ==== Proof.KI.BodyR1Runs.lean ====
import proofs.«115743_j55052890800725_2_alg».proof.Proof.KI.BodyR1Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1 (`cc1__bn_stats_prescale_kernel`): the body run in each of its three control cases -/

set_option maxHeartbeats 1000000 in
/-- The body at the grid's first point (both scratch rows reset, then accumulated into; the output windows untouched): the pieces its stores leave in each output window's buffer and in each scratch row (last
    first), with the triple — from the inputs' buffers at their contents, the outputs' at contents handed back untouched, the scratch rows at anything,
    the body runs to the continuation holding the inputs' buffers as they were and every stored buffer with its pieces
    written. -/
noncomputable def kernelRun1_A (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : cond1_0 i) (hc1 : ¬cond1_1 i)
    (x0 : Vec F S5000x96 .f32) (x1 : Vec F S5000x1 .f32) (x2 : Vec F S1x96 .f32) :
    Σ' (L3 : List (View.Piece (Elt F) S1x96 .f32)) (L4 : List (View.Piece (Elt F) S1x96 .f32)) (LS0 : List (View.Piece (Elt F) S1x96 .f32)), { LS1 : List (View.Piece (Elt F) S1x96 .f32) //
      ∀ (xi3 xi4 : Vec F S1x96 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__bn_stats_prescale_kernel i arg1 harg1 arg2 harg2 arg3 harg3 arg4 harg4 arg5 harg5 arg6 harg6 arg7 harg7) K } := by
  refine ⟨[], [], ?_, ?_, fun xi3 xi4 E K => ?run⟩
  case run =>
    simp only [cc1__bn_stats_prescale_kernel_eq_skeleton]; unfold cc1__bn_stats_prescale_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

set_option maxHeartbeats 1000000 in
/-- The body at a middle point (both scratch rows accumulated into; the output windows untouched): the pieces its stores leave in each output window's buffer and in each scratch row (last
    first), with the triple — from the inputs' buffers at their contents, the outputs' at contents handed back untouched, the scratch rows at what the point before left,
    the body runs to the continuation holding the inputs' buffers as they were and every stored buffer with its pieces
    written. -/
noncomputable def kernelRun1_B (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond1_0 i) (hc1 : ¬cond1_1 i)
    (x0 : Vec F S5000x96 .f32) (x1 : Vec F S5000x1 .f32) (x2 : Vec F S1x96 .f32) (xs0 : Vec F S1x96 .f32) (xs1 : Vec F S1x96 .f32) :
    Σ' (L3 : List (View.Piece (Elt F) S1x96 .f32)) (L4 : List (View.Piece (Elt F) S1x96 .f32)) (LS0 : List (View.Piece (Elt F) S1x96 .f32)), { LS1 : List (View.Piece (Elt F) S1x96 .f32) //
      ∀ (xi3 xi4 : Vec F S1x96 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__bn_stats_prescale_kernel i arg1 harg1 arg2 harg2 arg3 harg3 arg4 harg4 arg5 harg5 arg6 harg6 arg7 harg7) K } := by
  refine ⟨[], [], ?_, ?_, fun xi3 xi4 E K => ?run⟩
  case run =>
    simp only [cc1__bn_stats_prescale_kernel_eq_skeleton]; unfold cc1__bn_stats_prescale_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

set_option maxHeartbeats 1000000 in
/-- The body at the grid's last point (both scratch rows accumulated into, then copied into the output windows): the pieces its stores leave in each output window's buffer and in each scratch row (last
    first), with the triple — from the inputs' buffers at their contents, the outputs' at anything, the scratch rows at what the point before left,
    the body runs to the continuation holding the inputs' buffers as they were and every stored buffer with its pieces
    written. -/
noncomputable def kernelRun1_C (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond1_0 i) (hc1 : cond1_1 i)
    (x0 : Vec F S5000x96 .f32) (x1 : Vec F S5000x1 .f32) (x2 : Vec F S1x96 .f32) (xs0 : Vec F S1x96 .f32) (xs1 : Vec F S1x96 .f32) :
    Σ' (L3 : List (View.Piece (Elt F) S1x96 .f32)) (L4 : List (View.Piece (Elt F) S1x96 .f32)) (LS0 : List (View.Piece (Elt F) S1x96 .f32)), { LS1 : List (View.Piece (Elt F) S1x96 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__bn_stats_prescale_kernel i arg1 harg1 arg2 harg2 arg3 harg3 arg4 harg4 arg5 harg5 arg6 harg6 arg7 harg7) K } := by
  refine ⟨?_, ?_, ?_, ?_, fun E K => ?run⟩
  case run =>
    simp only [cc1__bn_stats_prescale_kernel_eq_skeleton]; unfold cc1__bn_stats_prescale_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [HS0]; · iexists _; iexact HS0
    iexists _; iexact HS1

end Cert.KernelIdeal.Hand

end
-- ==== Proof.KI.BodyR1.lean ====
import proofs.«115743_j55052890800725_2_alg».proof.Proof.KI.BodyR1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1 (`cc1__bn_stats_prescale_kernel`): what its buffers hold point by point, the proof data, the body obligation -/

/-! ## What each case leaves in the output windows' buffers and in the scratch rows -/

/-- Case A stores nothing into output window 3 (idle there and not written back): a placeholder nothing consults. -/
def out1_A_3 (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : cond1_0 i) (hc1 : ¬cond1_1 i)
    (x0 : Vec F S5000x96 .f32) (x1 : Vec F S5000x1 .f32) (x2 : Vec F S1x96 .f32) : Vec F S1x96 .f32 :=
  VO1_3.read (Elt F) (VO1_3.writes (Elt F) VO1_3.junk (kernelRun1_A c i arg1 harg1 arg2 harg2 arg3 harg3 arg4 harg4 arg5 harg5 arg6 harg6 arg7 harg7 hc0 hc1 x0 x1 x2).1)

/-- Case A stores nothing into output window 4 (idle there and not written back): a placeholder nothing consults. -/
def out1_A_4 (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : cond1_0 i) (hc1 : ¬cond1_1 i)
    (x0 : Vec F S5000x96 .f32) (x1 : Vec F S5000x1 .f32) (x2 : Vec F S1x96 .f32) : Vec F S1x96 .f32 :=
  VO1_4.read (Elt F) (VO1_4.writes (Elt F) VO1_4.junk (kernelRun1_A c i arg1 harg1 arg2 harg2 arg3 harg3 arg4 harg4 arg5 harg5 arg6 harg6 arg7 harg7 hc0 hc1 x0 x1 x2).2.1)

/-- Case A's stores into scratch row 0 cover it. -/
theorem scover1_A_0 (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : cond1_0 i) (hc1 : ¬cond1_1 i)
    (x0 : Vec F S5000x96 .f32) (x1 : Vec F S5000x1 .f32) (x2 : Vec F S1x96 .f32) (y : S1x96.Idx) :
    ∃ pc ∈ (kernelRun1_A c i arg1 harg1 arg2 harg2 arg3 harg3 arg4 harg4 arg5 harg5 arg6 harg6 arg7 harg7 hc0 hc1 x0 x1 x2).2.2.1, y ∈ pc.1.set :=
  View.cover_of_tiledL (kernelRun1_A c i arg1 harg1 arg2 harg2 arg3 harg3 arg4 harg4 arg5 harg5 arg6 harg6 arg7 harg7 hc0 hc1 x0 x1 x2).2.2.1 S1x96.size (by sl_kernel_rfl) y

/-- What case A leaves in scratch row 0: its pieces read back. -/
def sout1_A_0 (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : cond1_0 i) (hc1 : ¬cond1_1 i)
    (x0 : Vec F S5000x96 .f32) (x1 : Vec F S5000x1 .f32) (x2 : Vec F S1x96 .f32) : Vec F S1x96 .f32 :=
  VS1_0.read (Elt F) (VS1_0.writes (Elt F) VS1_0.junk (kernelRun1_A c i arg1 harg1 arg2 harg2 arg3 harg3 arg4 harg4 arg5 harg5 arg6 harg6 arg7 harg7 hc0 hc1 x0 x1 x2).2.2.1)

/-- Case A's stores into scratch row 1 cover it. -/
theorem scover1_A_1 (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : cond1_0 i) (hc1 : ¬cond1_1 i)
    (x0 : Vec F S5000x96 .f32) (x1 : Vec F S5000x1 .f32) (x2 : Vec F S1x96 .f32) (y : S1x96.Idx) :
    ∃ pc ∈ (kernelRun1_A c i arg1 harg1 arg2 harg2 arg3 harg3 arg4 harg4 arg5 harg5 arg6 harg6 arg7 harg7 hc0 hc1 x0 x1 x2).2.2.2.1, y ∈ pc.1.set :=
  View.cover_of_tiledL (kernelRun1_A c i arg1 harg1 arg2 harg2 arg3 harg3 arg4 harg4 arg5 harg5 arg6 harg6 arg7 harg7 hc0 hc1 x0 x1 x2).2.2.2.1 S1x96.size (by sl_kernel_rfl) y

/-- What case A leaves in scratch row 1: its pieces read back. -/
def sout1_A_1 (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : cond1_0 i) (hc1 : ¬cond1_1 i)
    (x0 : Vec F S5000x96 .f32) (x1 : Vec F S5000x1 .f32) (x2 : Vec F S1x96 .f32) : Vec F S1x96 .f32 :=
  VS1_1.read (Elt F) (VS1_1.writes (Elt F) VS1_1.junk (kernelRun1_A c i arg1 harg1 arg2 harg2 arg3 harg3 arg4 harg4 arg5 harg5 arg6 harg6 arg7 harg7 hc0 hc1 x0 x1 x2).2.2.2.1)

/-- Case B stores nothing into output window 3 (idle there and not written back): a placeholder nothing consults. -/
def out1_B_3 (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond1_0 i) (hc1 : ¬cond1_1 i)
    (x0 : Vec F S5000x96 .f32) (x1 : Vec F S5000x1 .f32) (x2 : Vec F S1x96 .f32) (xs0 : Vec F S1x96 .f32) (xs1 : Vec F S1x96 .f32) : Vec F S1x96 .f32 :=
  VO1_3.read (Elt F) (VO1_3.writes (Elt F) VO1_3.junk (kernelRun1_B c i arg1 harg1 arg2 harg2 arg3 harg3 arg4 harg4 arg5 harg5 arg6 harg6 arg7 harg7 hc0 hc1 x0 x1 x2 xs0 xs1).1)

/-- Case B stores nothing into output window 4 (idle there and not written back): a placeholder nothing consults. -/
def out1_B_4 (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond1_0 i) (hc1 : ¬cond1_1 i)
    (x0 : Vec F S5000x96 .f32) (x1 : Vec F S5000x1 .f32) (x2 : Vec F S1x96 .f32) (xs0 : Vec F S1x96 .f32) (xs1 : Vec F S1x96 .f32) : Vec F S1x96 .f32 :=
  VO1_4.read (Elt F) (VO1_4.writes (Elt F) VO1_4.junk (kernelRun1_B c i arg1 harg1 arg2 harg2 arg3 harg3 arg4 harg4 arg5 harg5 arg6 harg6 arg7 harg7 hc0 hc1 x0 x1 x2 xs0 xs1).2.1)

/-- Case B's stores into scratch row 0 cover it. -/
theorem scover1_B_0 (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond1_0 i) (hc1 : ¬cond1_1 i)
    (x0 : Vec F S5000x96 .f32) (x1 : Vec F S5000x1 .f32) (x2 : Vec F S1x96 .f32) (xs0 : Vec F S1x96 .f32) (xs1 : Vec F S1x96 .f32) (y : S1x96.Idx) :
    ∃ pc ∈ (kernelRun1_B c i arg1 harg1 arg2 harg2 arg3 harg3 arg4 harg4 arg5 harg5 arg6 harg6 arg7 harg7 hc0 hc1 x0 x1 x2 xs0 xs1).2.2.1, y ∈ pc.1.set :=
  View.cover_of_tiledL (kernelRun1_B c i arg1 harg1 arg2 harg2 arg3 harg3 arg4 harg4 arg5 harg5 arg6 harg6 arg7 harg7 hc0 hc1 x0 x1 x2 xs0 xs1).2.2.1 S1x96.size (by sl_kernel_rfl) y

/-- What case B leaves in scratch row 0: its pieces read back. -/
def sout1_B_0 (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond1_0 i) (hc1 : ¬cond1_1 i)
    (x0 : Vec F S5000x96 .f32) (x1 : Vec F S5000x1 .f32) (x2 : Vec F S1x96 .f32) (xs0 : Vec F S1x96 .f32) (xs1 : Vec F S1x96 .f32) : Vec F S1x96 .f32 :=
  VS1_0.read (Elt F) (VS1_0.writes (Elt F) VS1_0.junk (kernelRun1_B c i arg1 harg1 arg2 harg2 arg3 harg3 arg4 harg4 arg5 harg5 arg6 harg6 arg7 harg7 hc0 hc1 x0 x1 x2 xs0 xs1).2.2.1)

/-- Case B's stores into scratch row 1 cover it. -/
theorem scover1_B_1 (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond1_0 i) (hc1 : ¬cond1_1 i)
    (x0 : Vec F S5000x96 .f32) (x1 : Vec F S5000x1 .f32) (x2 : Vec F S1x96 .f32) (xs0 : Vec F S1x96 .f32) (xs1 : Vec F S1x96 .f32) (y : S1x96.Idx) :
    ∃ pc ∈ (kernelRun1_B c i arg1 harg1 arg2 harg2 arg3 harg3 arg4 harg4 arg5 harg5 arg6 harg6 arg7 harg7 hc0 hc1 x0 x1 x2 xs0 xs1).2.2.2.1, y ∈ pc.1.set :=
  View.cover_of_tiledL (kernelRun1_B c i arg1 harg1 arg2 harg2 arg3 harg3 arg4 harg4 arg5 harg5 arg6 harg6 arg7 harg7 hc0 hc1 x0 x1 x2 xs0 xs1).2.2.2.1 S1x96.size (by sl_kernel_rfl) y

/-- What case B leaves in scratch row 1: its pieces read back. -/
def sout1_B_1 (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond1_0 i) (hc1 : ¬cond1_1 i)
    (x0 : Vec F S5000x96 .f32) (x1 : Vec F S5000x1 .f32) (x2 : Vec F S1x96 .f32) (xs0 : Vec F S1x96 .f32) (xs1 : Vec F S1x96 .f32) : Vec F S1x96 .f32 :=
  VS1_1.read (Elt F) (VS1_1.writes (Elt F) VS1_1.junk (kernelRun1_B c i arg1 harg1 arg2 harg2 arg3 harg3 arg4 harg4 arg5 harg5 arg6 harg6 arg7 harg7 hc0 hc1 x0 x1 x2 xs0 xs1).2.2.2.1)

/-- At the last point the store into output window 3 covers its block. -/
theorem cover1_C_3 (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond1_0 i) (hc1 : cond1_1 i)
    (x0 : Vec F S5000x96 .f32) (x1 : Vec F S5000x1 .f32) (x2 : Vec F S1x96 .f32) (xs0 : Vec F S1x96 .f32) (xs1 : Vec F S1x96 .f32) (y : S1x96.Idx) :
    ∃ pc ∈ (kernelRun1_C c i arg1 harg1 arg2 harg2 arg3 harg3 arg4 harg4 arg5 harg5 arg6 harg6 arg7 harg7 hc0 hc1 x0 x1 x2 xs0 xs1).1, y ∈ pc.1.set :=
  View.cover_of_tiledL (kernelRun1_C c i arg1 harg1 arg2 harg2 arg3 harg3 arg4 harg4 arg5 harg5 arg6 harg6 arg7 harg7 hc0 hc1 x0 x1 x2 xs0 xs1).1 S1x96.size (by sl_kernel_rfl) y

/-- What the last point leaves in output window 3's buffer: its pieces read back. -/
def out1_C_3 (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond1_0 i) (hc1 : cond1_1 i)
    (x0 : Vec F S5000x96 .f32) (x1 : Vec F S5000x1 .f32) (x2 : Vec F S1x96 .f32) (xs0 : Vec F S1x96 .f32) (xs1 : Vec F S1x96 .f32) : Vec F S1x96 .f32 :=
  VO1_3.read (Elt F) (VO1_3.writes (Elt F) VO1_3.junk (kernelRun1_C c i arg1 harg1 arg2 harg2 arg3 harg3 arg4 harg4 arg5 harg5 arg6 harg6 arg7 harg7 hc0 hc1 x0 x1 x2 xs0 xs1).1)

/-- At the last point the store into output window 4 covers its block. -/
theorem cover1_C_4 (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond1_0 i) (hc1 : cond1_1 i)
    (x0 : Vec F S5000x96 .f32) (x1 : Vec F S5000x1 .f32) (x2 : Vec F S1x96 .f32) (xs0 : Vec F S1x96 .f32) (xs1 : Vec F S1x96 .f32) (y : S1x96.Idx) :
    ∃ pc ∈ (kernelRun1_C c i arg1 harg1 arg2 harg2 arg3 harg3 arg4 harg4 arg5 harg5 arg6 harg6 arg7 harg7 hc0 hc1 x0 x1 x2 xs0 xs1).2.1, y ∈ pc.1.set :=
  View.cover_of_tiledL (kernelRun1_C c i arg1 harg1 arg2 harg2 arg3 harg3 arg4 harg4 arg5 harg5 arg6 harg6 arg7 harg7 hc0 hc1 x0 x1 x2 xs0 xs1).2.1 S1x96.size (by sl_kernel_rfl) y

/-- What the last point leaves in output window 4's buffer: its pieces read back. -/
def out1_C_4 (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond1_0 i) (hc1 : cond1_1 i)
    (x0 : Vec F S5000x96 .f32) (x1 : Vec F S5000x1 .f32) (x2 : Vec F S1x96 .f32) (xs0 : Vec F S1x96 .f32) (xs1 : Vec F S1x96 .f32) : Vec F S1x96 .f32 :=
  VO1_4.read (Elt F) (VO1_4.writes (Elt F) VO1_4.junk (kernelRun1_C c i arg1 harg1 arg2 harg2 arg3 harg3 arg4 harg4 arg5 harg5 arg6 harg6 arg7 harg7 hc0 hc1 x0 x1 x2 xs0 xs1).2.1)

/-- Case C's stores into scratch row 0 cover it. -/
theorem scover1_C_0 (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond1_0 i) (hc1 : cond1_1 i)
    (x0 : Vec F S5000x96 .f32) (x1 : Vec F S5000x1 .f32) (x2 : Vec F S1x96 .f32) (xs0 : Vec F S1x96 .f32) (xs1 : Vec F S1x96 .f32) (y : S1x96.Idx) :
    ∃ pc ∈ (kernelRun1_C c i arg1 harg1 arg2 harg2 arg3 harg3 arg4 harg4 arg5 harg5 arg6 harg6 arg7 harg7 hc0 hc1 x0 x1 x2 xs0 xs1).2.2.1, y ∈ pc.1.set :=
  View.cover_of_tiledL (kernelRun1_C c i arg1 harg1 arg2 harg2 arg3 harg3 arg4 harg4 arg5 harg5 arg6 harg6 arg7 harg7 hc0 hc1 x0 x1 x2 xs0 xs1).2.2.1 S1x96.size (by sl_kernel_rfl) y

/-- What case C leaves in scratch row 0: its pieces read back. -/
def sout1_C_0 (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond1_0 i) (hc1 : cond1_1 i)
    (x0 : Vec F S5000x96 .f32) (x1 : Vec F S5000x1 .f32) (x2 : Vec F S1x96 .f32) (xs0 : Vec F S1x96 .f32) (xs1 : Vec F S1x96 .f32) : Vec F S1x96 .f32 :=
  VS1_0.read (Elt F) (VS1_0.writes (Elt F) VS1_0.junk (kernelRun1_C c i arg1 harg1 arg2 harg2 arg3 harg3 arg4 harg4 arg5 harg5 arg6 harg6 arg7 harg7 hc0 hc1 x0 x1 x2 xs0 xs1).2.2.1)

/-- Case C's stores into scratch row 1 cover it. -/
theorem scover1_C_1 (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond1_0 i) (hc1 : cond1_1 i)
    (x0 : Vec F S5000x96 .f32) (x1 : Vec F S5000x1 .f32) (x2 : Vec F S1x96 .f32) (xs0 : Vec F S1x96 .f32) (xs1 : Vec F S1x96 .f32) (y : S1x96.Idx) :
    ∃ pc ∈ (kernelRun1_C c i arg1 harg1 arg2 harg2 arg3 harg3 arg4 harg4 arg5 harg5 arg6 harg6 arg7 harg7 hc0 hc1 x0 x1 x2 xs0 xs1).2.2.2.1, y ∈ pc.1.set :=
  View.cover_of_tiledL (kernelRun1_C c i arg1 harg1 arg2 harg2 arg3 harg3 arg4 harg4 arg5 harg5 arg6 harg6 arg7 harg7 hc0 hc1 x0 x1 x2 xs0 xs1).2.2.2.1 S1x96.size (by sl_kernel_rfl) y

/-- What case C leaves in scratch row 1: its pieces read back. -/
def sout1_C_1 (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond1_0 i) (hc1 : cond1_1 i)
    (x0 : Vec F S5000x96 .f32) (x1 : Vec F S5000x1 .f32) (x2 : Vec F S1x96 .f32) (xs0 : Vec F S1x96 .f32) (xs1 : Vec F S1x96 .f32) : Vec F S1x96 .f32 :=
  VS1_1.read (Elt F) (VS1_1.writes (Elt F) VS1_1.junk (kernelRun1_C c i arg1 harg1 arg2 harg2 arg3 harg3 arg4 harg4 arg5 harg5 arg6 harg6 arg7 harg7 hc0 hc1 x0 x1 x2 xs0 xs1).2.2.2.1)

/-! ## What the buffers hold after each point -/

/-- THE ACCUMULATION. After the body at position `n`: (output window 3's buffer, output window 4's buffer, scratch
    row 0, scratch row 1) — the first point's case at the point's blocks; a later point's case at the point's blocks and
    the scratch rows as the point before left them. -/
def outsAt1 (c : Dev nD) : (n : ℕ) → n < cfg1.N → Vec F S1x96 .f32 × Vec F S1x96 .f32 × Vec F S1x96 .f32 × Vec F S1x96 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩), out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h1 : n + 1 = 9 then
      (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2.1 (outsAt1 c n (Nat.lt_of_succ_lt hn)).2.2.2, out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2.1 (outsAt1 c n (Nat.lt_of_succ_lt hn)).2.2.2)
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2.1 (outsAt1 c n (Nat.lt_of_succ_lt hn)).2.2.2, out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2.1 (outsAt1 c n (Nat.lt_of_succ_lt hn)).2.2.2)

/-- `outsAt1` at the first point. -/
theorem outsAt1_A (c : Dev nD) (t : Fin cfg1.N) (h0 : t.val = 0) (h1 : ¬t.val = 9) :
    outsAt1 V c t.val t.isLt = (out1_A_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t), out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact absurd h0 (Nat.succ_ne_zero n)

/-- `outsAt1` at a middle point: over what the point before left in the scratch rows. -/
theorem outsAt1_B (c : Dev nD) (t : Fin cfg1.N) (h0 : ¬t.val = 0) (h1 : ¬t.val = 9) :
    outsAt1 V c t.val t.isLt = (out1_B_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.2.1 (outsAt1 V c (t.val - 1) (Nat.lt_of_le_of_lt (Nat.sub_le _ _) t.isLt)).2.2.2, out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd rfl h0
  | succ n => exact (dif_neg h1).trans rfl

/-- `outsAt1` at the last point: over what the point before left in the scratch rows. -/
theorem outsAt1_C (c : Dev nD) (t : Fin cfg1.N) (h0 : ¬t.val = 0) (h1 : t.val = 9) :
    outsAt1 V c t.val t.isLt = (out1_C_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2.1 (outsAt1 V c (t.val - 1) (Nat.lt_of_le_of_lt (Nat.sub_le _ _) t.isLt)).2.2.2, out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd rfl h0
  | succ n => exact (dif_pos h1).trans rfl

/-! ## The region invariant -/

/-- Before position `n`: before the first point the class's invariant (every scoped buffer at anything); afterwards the
    two scratch rows at what the point before left in them, the other scoped buffers at anything, the generator
    register at some state. -/
def PhiS1 (c : Dev nD) : (n : ℕ) → n ≤ cfg1.N → sProp 𝕄
  | 0, _ => Pipeline.ΦA spec1 c
  | n + 1, hn => iprop((iprop(owns (c : Thread nD τ) scM1_0 fullShare (outsAt1 V c n hn).2.2.1 ∗ owns (c : Thread nD τ) scM1_1 fullShare (outsAt1 V c n hn).2.2.2)
      ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((iprop(owns (c : Thread nD τ) scM1_0 fullShare (outsAt1 V c n hn).2.2.1 ∗ owns (c : Thread nD τ) scM1_1 fullShare (outsAt1 V c n hn).2.2.2)
      ∗ Pipeline.scopedRestBut (Ix := Unit) (Name := ℕ) (U := UR sig nD τ) (Lvl := ℕ) (Val := Elt F) spec1 c [cc1_scratch0, cc1_scratch1]) ∗ (∃ r, prngReg c r)) := rfl

theorem PhiS1_pos (c : Dev nD) (n : ℕ) (h : n ≤ cfg1.N) (hz : n ≠ 0) :
    PhiS1 V c n h = iprop((iprop(owns (c : Thread nD τ) scM1_0 fullShare (outsAt1 V c (n - 1) (by omega)).2.2.1 ∗ owns (c : Thread nD τ) scM1_1 fullShare (outsAt1 V c (n - 1) (by omega)).2.2.2)
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-! ## The pipeline's proof data -/

/-- The proof data of the region on core `c`: the arrays as the region finds them (`V`); after the body at point `t`
    each input's buffer at its block and the outputs' at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at the first point: the invariant hands it the scratch rows at anything and takes them back at this point's contents; the output windows, idle, are handed back untouched. -/
theorem sound_body1_A (c : Dev nD) (t : Fin cfg1.N) (h0 : t.val = 0) (h1 : ¬t.val = 9) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
  rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
  rw [outsAt1_A V c t h0 h1]
  unfold sout1_A_0 sout1_A_1; (try dsimp only)
  rw [PhiS1_castSucc V c t, PhiS1_zero V c _ _ h0, PhiA1_eq]
  iintro ⟨⟨⟨⟨HS0, HS1⟩, Hb⟩, Hg⟩, Ho, ⟨%d0, H0⟩, ⟨%d1, H1⟩, ⟨%d2, H2⟩, ⟨%d3, H3⟩, ⟨%d4, H4⟩⟩
  iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  iintro ⟨H0, H1, H2, H3, H4, ⟨%es0, HS0⟩, ⟨%es1, HS1⟩⟩
  isplitl [HS0 HS1 Hb Hg]
  · isplitl [HS0 HS1 Hb]
    · isplitl [HS0 HS1]
      · isplitl [HS0]
        · unfold owns; iexists _; isplitr
          swap; · iexact HS0
          ipureintro; exact View.read_writes_of_cover _ _ _ _ _ (scover1_A_0 c _ _ _ _ _ _ _ _ _ _ _ _ _ _ _ _ _ _ _ _)
        · unfold owns; iexists _; isplitr
          swap; · iexact HS1
          ipureintro; exact View.read_writes_of_cover _ _ _ _ _ (scover1_A_1 c _ _ _ _ _ _ _ _ _ _ _ _ _ _ _ _ _ _ _ _)
      · iexact Hb
    · iexact Hg
  isplitl [Ho]; · iexact Ho
  isplitl [H0]; · iexact H0
  isplitl [H1]; · iexact H1
  isplitl [H2]; · iexact H2
  isplitl [H3]; · iexists _; iexact H3
  iexists _; iexact H4

set_option maxHeartbeats 4800000 in
/-- The body at a middle point: the invariant hands it the scratch rows at what the point before left and takes them back at this point's contents; the output windows, idle, are handed back untouched. -/
theorem sound_body1_B (c : Dev nD) (t : Fin cfg1.N) (h0 : ¬t.val = 0) (h1 : ¬t.val = 9) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
  rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
  rw [outsAt1_B V c t h0 h1]
  unfold sout1_B_0 sout1_B_1; (try dsimp only)
  rw [PhiS1_castSucc V c t, PhiS1_pos V c _ _ h0]
  iintro ⟨⟨⟨⟨HS0, HS1⟩, Hb⟩, Hg⟩, Ho, ⟨%d0, H0⟩, ⟨%d1, H1⟩, ⟨%d2, H2⟩, ⟨%d3, H3⟩, ⟨%d4, H4⟩⟩
  iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _).2.2.2.2 _ _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  iintro ⟨H0, H1, H2, H3, H4, ⟨%es0, HS0⟩, ⟨%es1, HS1⟩⟩
  isplitl [HS0 HS1 Hb Hg]
  · isplitl [HS0 HS1 Hb]
    · isplitl [HS0 HS1]
      · isplitl [HS0]
        · unfold owns; iexists _; isplitr
          swap; · iexact HS0
          ipureintro; exact View.read_writes_of_cover _ _ _ _ _ (scover1_B_0 c _ _ _ _ _ _ _ _ _ _ _ _ _ _ _ _ _ _ _ _ _ _)
        · unfold owns; iexists _; isplitr
          swap; · iexact HS1
          ipureintro; exact View.read_writes_of_cover _ _ _ _ _ (scover1_B_1 c _ _ _ _ _ _ _ _ _ _ _ _ _ _ _ _ _ _ _ _ _ _)
      · iexact Hb
    · iexact Hg
  isplitl [Ho]; · iexact Ho
  isplitl [H0]; · iexact H0
  isplitl [H1]; · iexact H1
  isplitl [H2]; · iexact H2
  isplitl [H3]; · iexists _; iexact H3
  iexists _; iexact H4

set_option maxHeartbeats 4800000 in
/-- The body at the last point: the invariant hands it the scratch rows at what the point before left and takes them back at this point's contents; the output windows are left at the copied rows. -/
theorem sound_body1_C (c : Dev nD) (t : Fin cfg1.N) (h0 : ¬t.val = 0) (h1 : t.val = 9) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3_C t (fun h => h0 ((hcond1_0 t).mp h)) ((hcond1_1 t).mpr h1)], after1_3]
  rw [show (dat1 V c).leavesExact 4 t = owns (c : Thread nD τ) (ms1_4 t) fullShare ((dat1 V c).after 4 t) from by
    unfold Dat.leavesExact; rw [liveAt1_4_C t (fun h => h0 ((hcond1_0 t).mp h)) ((hcond1_1 t).mpr h1)], after1_4]
  rw [outsAt1_C V c t h0 h1]
  unfold out1_C_3 out1_C_4 sout1_C_0 sout1_C_1; (try dsimp only)
  rw [PhiS1_castSucc V c t, PhiS1_pos V c _ _ h0]
  iintro ⟨⟨⟨⟨HS0, HS1⟩, Hb⟩, Hg⟩, Ho, ⟨%d0, H0⟩, ⟨%d1, H1⟩, ⟨%d2, H2⟩, ⟨%d3, H3⟩, ⟨%d4, H4⟩⟩
  iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _).2.2.2.2 Set.univ _)
  isplitl [H0]; · iexact H0
  isplitl [H1]; · iexact H1
  isplitl [H2]; · iexact H2
  isplitl [H3]; · iexists _; iexact H3
  isplitl [H4]; · iexists _; iexact H4
  isplitl [HS0]; · iexact HS0
  isplitl [HS1]; · iexact HS1
  iintro ⟨H0, H1, H2, ⟨%e3, H3⟩, ⟨%e4, H4⟩, ⟨%es0, HS0⟩, ⟨%es1, HS1⟩⟩
  isplitl [HS0 HS1 Hb Hg]
  · isplitl [HS0 HS1 Hb]
    · isplitl [HS0 HS1]
      · isplitl [HS0]
        · unfold owns; iexists _; isplitr
          swap; · iexact HS0
          ipureintro; exact View.read_writes_of_cover _ _ _ _ _ (scover1_C_0 c _ _ _ _ _ _ _ _ _ _ _ _ _ _ _ _ _ _ _ _ _ _)
        · unfold owns; iexists _; isplitr
          swap; · iexact HS1
          ipureintro; exact View.read_writes_of_cover _ _ _ _ _ (scover1_C_1 c _ _ _ _ _ _ _ _ _ _ _ _ _ _ _ _ _ _ _ _ _ _)
      · iexact Hb
    · iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover1_C_3 c _ _ _ _ _ _ _ _ _ _ _ _ _ _ _ _ _ _ _ _ _ _)
  unfold owns; iexists _; isplitr
  swap; · iexact H4
  ipureintro; exact View.read_writes_of_cover _ _ _ _ _ (cover1_C_4 c _ _ _ _ _ _ _ _ _ _ _ _ _ _ _ _ _ _ _ _ _ _)

/-- The body at any point: the closed forms say which of the three cases the point is in. -/
theorem sound_body1 (c : Dev nD) (t : Fin cfg1.N) :
    bodyPre1 V c t ⊢ wp frame (wpE (defs₀ (F := F)) Variants.none c none) Set.univ (bodyAt1 t) (fun _ => bodyPost1 V c t) := by
  have hN : t.val < 10 := lt_of_lt_of_eq t.isLt (show cfg1.N = 10 from N_1)
  by_cases h0 : t.val = 0
  · exact sound_body1_A V c t h0 (by omega)
  · by_cases h1 : t.val = 9
    · exact sound_body1_C V c t h0 h1
    · exact sound_body1_B V c t h0 h1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch rows' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, Hb⟩, Hg⟩
  isplitl [HS0 HS1 Hb]
  · isplitl [HS0 HS1]
    · isplitl [HS0]
      · iexists _; iexact HS0
      · iexists _; iexact HS1
    · iexact Hb
  iexact Hg

/-- The same after the last point. -/
theorem hout1 (c : Dev nD) : (dat1 V c).Φ (Fin.last cfg1.N) ⊢ Pipeline.ΦA spec1 c :=
  Phi_out1 V c _ (by rw [Fin.val_last]; have : cfg1.N = 10 := N_1; omega)

end Cert.KernelIdeal.Hand

end
-- ==== Proof.KI.BodyR4Kit.lean ====
import proofs.«115743_j55052890800725_2_alg».proof.Proof.Gen.KernelIdeal.Launch
import proofs.«115743_j55052890800725_2_alg».proof.Proof.Gen.KernelIdeal.Skeleton
import proofs.«115743_j55052890800725_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4 (`cc4__bn_stats_prescale_kernel`): what its three control cases share

The body resets its two scratch rows at the grid's first point, adds the point's column sums and column sums of
squares into them at every point, and copies them into the two output windows at the last point. -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof
    data whose array is `V`'s and whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof
    data whose array is `V`'s and whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's two conditions, in closed form over the grid -/

/-- The first conditional's condition: the point is the grid's first. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)

/-- The second conditional's condition: the point is the grid's last. -/
abbrev cond4_1 (i : grid4.Coords) : Prop := k4_cond2 i = 1#1
theorem hcond4_1 : ∀ t : Fin cfg4.N, cond4_1 (grid4.coords t) ↔ t.val = 9 :=
  (by decide +kernel : ∀ t : Fin grid4.N, cond4_1 (grid4.coords t) ↔ t.val = 9)

/-! ## Where the windows are idle -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
/-- Output window 3 is idle and not written back at every point but the last, where it is live. -/
theorem idleAt4_3_A : ∀ t : Fin cfg4.N, cond4_0 (grid4.coords t) → ¬cond4_1 (grid4.coords t) → cfg4.idle 3 (grid4.coords t) = true := by decide +kernel
theorem noFlush4_3_A : ∀ t : Fin cfg4.N, cond4_0 (grid4.coords t) → ¬cond4_1 (grid4.coords t) → (cfg4.win 3).flush t = false := by decide +kernel
theorem idleAt4_3_B : ∀ t : Fin cfg4.N, ¬cond4_0 (grid4.coords t) → ¬cond4_1 (grid4.coords t) → cfg4.idle 3 (grid4.coords t) = true := by decide +kernel
theorem noFlush4_3_B : ∀ t : Fin cfg4.N, ¬cond4_0 (grid4.coords t) → ¬cond4_1 (grid4.coords t) → (cfg4.win 3).flush t = false := by decide +kernel
theorem liveAt4_3_C : ∀ t : Fin cfg4.N, ¬cond4_0 (grid4.coords t) → cond4_1 (grid4.coords t) → cfg4.idle 3 (grid4.coords t) = false := by decide +kernel
/-- Output window 4 is idle and not written back at every point but the last, where it is live. -/
theorem idleAt4_4_A : ∀ t : Fin cfg4.N, cond4_0 (grid4.coords t) → ¬cond4_1 (grid4.coords t) → cfg4.idle 4 (grid4.coords t) = true := by decide +kernel
theorem noFlush4_4_A : ∀ t : Fin cfg4.N, cond4_0 (grid4.coords t) → ¬cond4_1 (grid4.coords t) → (cfg4.win 4).flush t = false := by decide +kernel
theorem idleAt4_4_B : ∀ t : Fin cfg4.N, ¬cond4_0 (grid4.coords t) → ¬cond4_1 (grid4.coords t) → cfg4.idle 4 (grid4.coords t) = true := by decide +kernel
theorem noFlush4_4_B : ∀ t : Fin cfg4.N, ¬cond4_0 (grid4.coords t) → ¬cond4_1 (grid4.coords t) → (cfg4.win 4).flush t = false := by decide +kernel
theorem liveAt4_4_C : ∀ t : Fin cfg4.N, ¬cond4_0 (grid4.coords t) → cond4_1 (grid4.coords t) → cfg4.idle 4 (grid4.coords t) = false := by decide +kernel

/-! ## The memrefs the body is called with -/

/-- One staging buffer of each output window, through which its contents are stated. -/
abbrev VO4_3 : View sig .tc .vmem S1x96 .f32 := (Memref.whole cc4_stg3_0 : Memref sig .tc .vmem S1x96 .f32).view
abbrev VO4_4 : View sig .tc .vmem S1x96 .f32 := (Memref.whole cc4_stg4_0 : Memref sig .tc .vmem S1x96 .f32).view
abbrev ms4_0 (t : Fin cfg4.N) : Memref sig .tc .vmem S5000x96 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x1 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x96 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x96 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x96 .f32 := win4_4.stage (cfg4.slots t 4)
abbrev hs4_4 (t : Fin cfg4.N) : (ms4_4 t).IsWhole := hstage4_4 ((cfg4.slots t 4).cast nbuf4_4)
/-- The two scratch rows: whole scoped buffers of the kernel's own, carried from point to point. -/
abbrev scM4_0 : Memref sig .tc .vmem S1x96 .f32 := Memref.whole cc4_scratch0
abbrev scM4_1 : Memref sig .tc .vmem S1x96 .f32 := Memref.whole cc4_scratch1
abbrev VS4_0 : View sig .tc .vmem S1x96 .f32 := scM4_0.view
abbrev VS4_1 : View sig .tc .vmem S1x96 .f32 := scM4_1.view

/-- The class's invariant with the two scratch rows as memrefs owned at some contents, the other scoped buffers
    unopened. -/
theorem PhiA4_eq (c : Dev nD) :
    (Pipeline.ΦA spec4 c : sProp 𝕄)
      = iprop((iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

end Cert.KernelIdeal.Hand

end
-- ==== Proof.KI.BodyR4Runs.lean ====
import proofs.«115743_j55052890800725_2_alg».proof.Proof.KI.BodyR4Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4 (`cc4__bn_stats_prescale_kernel`): the body run in each of its three control cases -/

set_option maxHeartbeats 1000000 in
/-- The body at the grid's first point (both scratch rows reset, then accumulated into; the output windows untouched): the pieces its stores leave in each output window's buffer and in each scratch row (last
    first), with the triple — from the inputs' buffers at their contents, the outputs' at contents handed back untouched, the scratch rows at anything,
    the body runs to the continuation holding the inputs' buffers as they were and every stored buffer with its pieces
    written. -/
noncomputable def kernelRun4_A (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : cond4_0 i) (hc1 : ¬cond4_1 i)
    (x0 : Vec F S5000x96 .f32) (x1 : Vec F S5000x1 .f32) (x2 : Vec F S1x96 .f32) :
    Σ' (L3 : List (View.Piece (Elt F) S1x96 .f32)) (L4 : List (View.Piece (Elt F) S1x96 .f32)) (LS0 : List (View.Piece (Elt F) S1x96 .f32)), { LS1 : List (View.Piece (Elt F) S1x96 .f32) //
      ∀ (xi3 xi4 : Vec F S1x96 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc4__bn_stats_prescale_kernel i arg1 harg1 arg2 harg2 arg3 harg3 arg4 harg4 arg5 harg5 arg6 harg6 arg7 harg7) K } := by
  refine ⟨[], [], ?_, ?_, fun xi3 xi4 E K => ?run⟩
  case run =>
    simp only [cc4__bn_stats_prescale_kernel_eq_skeleton]; unfold cc4__bn_stats_prescale_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

set_option maxHeartbeats 1000000 in
/-- The body at a middle point (both scratch rows accumulated into; the output windows untouched): the pieces its stores leave in each output window's buffer and in each scratch row (last
    first), with the triple — from the inputs' buffers at their contents, the outputs' at contents handed back untouched, the scratch rows at what the point before left,
    the body runs to the continuation holding the inputs' buffers as they were and every stored buffer with its pieces
    written. -/
noncomputable def kernelRun4_B (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond4_0 i) (hc1 : ¬cond4_1 i)
    (x0 : Vec F S5000x96 .f32) (x1 : Vec F S5000x1 .f32) (x2 : Vec F S1x96 .f32) (xs0 : Vec F S1x96 .f32) (xs1 : Vec F S1x96 .f32) :
    Σ' (L3 : List (View.Piece (Elt F) S1x96 .f32)) (L4 : List (View.Piece (Elt F) S1x96 .f32)) (LS0 : List (View.Piece (Elt F) S1x96 .f32)), { LS1 : List (View.Piece (Elt F) S1x96 .f32) //
      ∀ (xi3 xi4 : Vec F S1x96 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc4__bn_stats_prescale_kernel i arg1 harg1 arg2 harg2 arg3 harg3 arg4 harg4 arg5 harg5 arg6 harg6 arg7 harg7) K } := by
  refine ⟨[], [], ?_, ?_, fun xi3 xi4 E K => ?run⟩
  case run =>
    simp only [cc4__bn_stats_prescale_kernel_eq_skeleton]; unfold cc4__bn_stats_prescale_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

set_option maxHeartbeats 1000000 in
/-- The body at the grid's last point (both scratch rows accumulated into, then copied into the output windows): the pieces its stores leave in each output window's buffer and in each scratch row (last
    first), with the triple — from the inputs' buffers at their contents, the outputs' at anything, the scratch rows at what the point before left,
    the body runs to the continuation holding the inputs' buffers as they were and every stored buffer with its pieces
    written. -/
noncomputable def kernelRun4_C (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond4_0 i) (hc1 : cond4_1 i)
    (x0 : Vec F S5000x96 .f32) (x1 : Vec F S5000x1 .f32) (x2 : Vec F S1x96 .f32) (xs0 : Vec F S1x96 .f32) (xs1 : Vec F S1x96 .f32) :
    Σ' (L3 : List (View.Piece (Elt F) S1x96 .f32)) (L4 : List (View.Piece (Elt F) S1x96 .f32)) (LS0 : List (View.Piece (Elt F) S1x96 .f32)), { LS1 : List (View.Piece (Elt F) S1x96 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc4__bn_stats_prescale_kernel i arg1 harg1 arg2 harg2 arg3 harg3 arg4 harg4 arg5 harg5 arg6 harg6 arg7 harg7) K } := by
  refine ⟨?_, ?_, ?_, ?_, fun E K => ?run⟩
  case run =>
    simp only [cc4__bn_stats_prescale_kernel_eq_skeleton]; unfold cc4__bn_stats_prescale_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [HS0]; · iexists _; iexact HS0
    iexists _; iexact HS1

end Cert.KernelIdeal.Hand

end
-- ==== Proof.KI.BodyR4.lean ====
import proofs.«115743_j55052890800725_2_alg».proof.Proof.KI.BodyR4Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4 (`cc4__bn_stats_prescale_kernel`): what its buffers hold point by point, the proof data, the body obligation -/

/-! ## What each case leaves in the output windows' buffers and in the scratch rows -/

/-- Case A stores nothing into output window 3 (idle there and not written back): a placeholder nothing consults. -/
def out4_A_3 (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : cond4_0 i) (hc1 : ¬cond4_1 i)
    (x0 : Vec F S5000x96 .f32) (x1 : Vec F S5000x1 .f32) (x2 : Vec F S1x96 .f32) : Vec F S1x96 .f32 :=
  VO4_3.read (Elt F) (VO4_3.writes (Elt F) VO4_3.junk (kernelRun4_A c i arg1 harg1 arg2 harg2 arg3 harg3 arg4 harg4 arg5 harg5 arg6 harg6 arg7 harg7 hc0 hc1 x0 x1 x2).1)

/-- Case A stores nothing into output window 4 (idle there and not written back): a placeholder nothing consults. -/
def out4_A_4 (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : cond4_0 i) (hc1 : ¬cond4_1 i)
    (x0 : Vec F S5000x96 .f32) (x1 : Vec F S5000x1 .f32) (x2 : Vec F S1x96 .f32) : Vec F S1x96 .f32 :=
  VO4_4.read (Elt F) (VO4_4.writes (Elt F) VO4_4.junk (kernelRun4_A c i arg1 harg1 arg2 harg2 arg3 harg3 arg4 harg4 arg5 harg5 arg6 harg6 arg7 harg7 hc0 hc1 x0 x1 x2).2.1)

/-- Case A's stores into scratch row 0 cover it. -/
theorem scover4_A_0 (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : cond4_0 i) (hc1 : ¬cond4_1 i)
    (x0 : Vec F S5000x96 .f32) (x1 : Vec F S5000x1 .f32) (x2 : Vec F S1x96 .f32) (y : S1x96.Idx) :
    ∃ pc ∈ (kernelRun4_A c i arg1 harg1 arg2 harg2 arg3 harg3 arg4 harg4 arg5 harg5 arg6 harg6 arg7 harg7 hc0 hc1 x0 x1 x2).2.2.1, y ∈ pc.1.set :=
  View.cover_of_tiledL (kernelRun4_A c i arg1 harg1 arg2 harg2 arg3 harg3 arg4 harg4 arg5 harg5 arg6 harg6 arg7 harg7 hc0 hc1 x0 x1 x2).2.2.1 S1x96.size (by sl_kernel_rfl) y

/-- What case A leaves in scratch row 0: its pieces read back. -/
def sout4_A_0 (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : cond4_0 i) (hc1 : ¬cond4_1 i)
    (x0 : Vec F S5000x96 .f32) (x1 : Vec F S5000x1 .f32) (x2 : Vec F S1x96 .f32) : Vec F S1x96 .f32 :=
  VS4_0.read (Elt F) (VS4_0.writes (Elt F) VS4_0.junk (kernelRun4_A c i arg1 harg1 arg2 harg2 arg3 harg3 arg4 harg4 arg5 harg5 arg6 harg6 arg7 harg7 hc0 hc1 x0 x1 x2).2.2.1)

/-- Case A's stores into scratch row 1 cover it. -/
theorem scover4_A_1 (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : cond4_0 i) (hc1 : ¬cond4_1 i)
    (x0 : Vec F S5000x96 .f32) (x1 : Vec F S5000x1 .f32) (x2 : Vec F S1x96 .f32) (y : S1x96.Idx) :
    ∃ pc ∈ (kernelRun4_A c i arg1 harg1 arg2 harg2 arg3 harg3 arg4 harg4 arg5 harg5 arg6 harg6 arg7 harg7 hc0 hc1 x0 x1 x2).2.2.2.1, y ∈ pc.1.set :=
  View.cover_of_tiledL (kernelRun4_A c i arg1 harg1 arg2 harg2 arg3 harg3 arg4 harg4 arg5 harg5 arg6 harg6 arg7 harg7 hc0 hc1 x0 x1 x2).2.2.2.1 S1x96.size (by sl_kernel_rfl) y

/-- What case A leaves in scratch row 1: its pieces read back. -/
def sout4_A_1 (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : cond4_0 i) (hc1 : ¬cond4_1 i)
    (x0 : Vec F S5000x96 .f32) (x1 : Vec F S5000x1 .f32) (x2 : Vec F S1x96 .f32) : Vec F S1x96 .f32 :=
  VS4_1.read (Elt F) (VS4_1.writes (Elt F) VS4_1.junk (kernelRun4_A c i arg1 harg1 arg2 harg2 arg3 harg3 arg4 harg4 arg5 harg5 arg6 harg6 arg7 harg7 hc0 hc1 x0 x1 x2).2.2.2.1)

/-- Case B stores nothing into output window 3 (idle there and not written back): a placeholder nothing consults. -/
def out4_B_3 (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond4_0 i) (hc1 : ¬cond4_1 i)
    (x0 : Vec F S5000x96 .f32) (x1 : Vec F S5000x1 .f32) (x2 : Vec F S1x96 .f32) (xs0 : Vec F S1x96 .f32) (xs1 : Vec F S1x96 .f32) : Vec F S1x96 .f32 :=
  VO4_3.read (Elt F) (VO4_3.writes (Elt F) VO4_3.junk (kernelRun4_B c i arg1 harg1 arg2 harg2 arg3 harg3 arg4 harg4 arg5 harg5 arg6 harg6 arg7 harg7 hc0 hc1 x0 x1 x2 xs0 xs1).1)

/-- Case B stores nothing into output window 4 (idle there and not written back): a placeholder nothing consults. -/
def out4_B_4 (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond4_0 i) (hc1 : ¬cond4_1 i)
    (x0 : Vec F S5000x96 .f32) (x1 : Vec F S5000x1 .f32) (x2 : Vec F S1x96 .f32) (xs0 : Vec F S1x96 .f32) (xs1 : Vec F S1x96 .f32) : Vec F S1x96 .f32 :=
  VO4_4.read (Elt F) (VO4_4.writes (Elt F) VO4_4.junk (kernelRun4_B c i arg1 harg1 arg2 harg2 arg3 harg3 arg4 harg4 arg5 harg5 arg6 harg6 arg7 harg7 hc0 hc1 x0 x1 x2 xs0 xs1).2.1)

/-- Case B's stores into scratch row 0 cover it. -/
theorem scover4_B_0 (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond4_0 i) (hc1 : ¬cond4_1 i)
    (x0 : Vec F S5000x96 .f32) (x1 : Vec F S5000x1 .f32) (x2 : Vec F S1x96 .f32) (xs0 : Vec F S1x96 .f32) (xs1 : Vec F S1x96 .f32) (y : S1x96.Idx) :
    ∃ pc ∈ (kernelRun4_B c i arg1 harg1 arg2 harg2 arg3 harg3 arg4 harg4 arg5 harg5 arg6 harg6 arg7 harg7 hc0 hc1 x0 x1 x2 xs0 xs1).2.2.1, y ∈ pc.1.set :=
  View.cover_of_tiledL (kernelRun4_B c i arg1 harg1 arg2 harg2 arg3 harg3 arg4 harg4 arg5 harg5 arg6 harg6 arg7 harg7 hc0 hc1 x0 x1 x2 xs0 xs1).2.2.1 S1x96.size (by sl_kernel_rfl) y

/-- What case B leaves in scratch row 0: its pieces read back. -/
def sout4_B_0 (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond4_0 i) (hc1 : ¬cond4_1 i)
    (x0 : Vec F S5000x96 .f32) (x1 : Vec F S5000x1 .f32) (x2 : Vec F S1x96 .f32) (xs0 : Vec F S1x96 .f32) (xs1 : Vec F S1x96 .f32) : Vec F S1x96 .f32 :=
  VS4_0.read (Elt F) (VS4_0.writes (Elt F) VS4_0.junk (kernelRun4_B c i arg1 harg1 arg2 harg2 arg3 harg3 arg4 harg4 arg5 harg5 arg6 harg6 arg7 harg7 hc0 hc1 x0 x1 x2 xs0 xs1).2.2.1)

/-- Case B's stores into scratch row 1 cover it. -/
theorem scover4_B_1 (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond4_0 i) (hc1 : ¬cond4_1 i)
    (x0 : Vec F S5000x96 .f32) (x1 : Vec F S5000x1 .f32) (x2 : Vec F S1x96 .f32) (xs0 : Vec F S1x96 .f32) (xs1 : Vec F S1x96 .f32) (y : S1x96.Idx) :
    ∃ pc ∈ (kernelRun4_B c i arg1 harg1 arg2 harg2 arg3 harg3 arg4 harg4 arg5 harg5 arg6 harg6 arg7 harg7 hc0 hc1 x0 x1 x2 xs0 xs1).2.2.2.1, y ∈ pc.1.set :=
  View.cover_of_tiledL (kernelRun4_B c i arg1 harg1 arg2 harg2 arg3 harg3 arg4 harg4 arg5 harg5 arg6 harg6 arg7 harg7 hc0 hc1 x0 x1 x2 xs0 xs1).2.2.2.1 S1x96.size (by sl_kernel_rfl) y

/-- What case B leaves in scratch row 1: its pieces read back. -/
def sout4_B_1 (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond4_0 i) (hc1 : ¬cond4_1 i)
    (x0 : Vec F S5000x96 .f32) (x1 : Vec F S5000x1 .f32) (x2 : Vec F S1x96 .f32) (xs0 : Vec F S1x96 .f32) (xs1 : Vec F S1x96 .f32) : Vec F S1x96 .f32 :=
  VS4_1.read (Elt F) (VS4_1.writes (Elt F) VS4_1.junk (kernelRun4_B c i arg1 harg1 arg2 harg2 arg3 harg3 arg4 harg4 arg5 harg5 arg6 harg6 arg7 harg7 hc0 hc1 x0 x1 x2 xs0 xs1).2.2.2.1)

/-- At the last point the store into output window 3 covers its block. -/
theorem cover4_C_3 (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond4_0 i) (hc1 : cond4_1 i)
    (x0 : Vec F S5000x96 .f32) (x1 : Vec F S5000x1 .f32) (x2 : Vec F S1x96 .f32) (xs0 : Vec F S1x96 .f32) (xs1 : Vec F S1x96 .f32) (y : S1x96.Idx) :
    ∃ pc ∈ (kernelRun4_C c i arg1 harg1 arg2 harg2 arg3 harg3 arg4 harg4 arg5 harg5 arg6 harg6 arg7 harg7 hc0 hc1 x0 x1 x2 xs0 xs1).1, y ∈ pc.1.set :=
  View.cover_of_tiledL (kernelRun4_C c i arg1 harg1 arg2 harg2 arg3 harg3 arg4 harg4 arg5 harg5 arg6 harg6 arg7 harg7 hc0 hc1 x0 x1 x2 xs0 xs1).1 S1x96.size (by sl_kernel_rfl) y

/-- What the last point leaves in output window 3's buffer: its pieces read back. -/
def out4_C_3 (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond4_0 i) (hc1 : cond4_1 i)
    (x0 : Vec F S5000x96 .f32) (x1 : Vec F S5000x1 .f32) (x2 : Vec F S1x96 .f32) (xs0 : Vec F S1x96 .f32) (xs1 : Vec F S1x96 .f32) : Vec F S1x96 .f32 :=
  VO4_3.read (Elt F) (VO4_3.writes (Elt F) VO4_3.junk (kernelRun4_C c i arg1 harg1 arg2 harg2 arg3 harg3 arg4 harg4 arg5 harg5 arg6 harg6 arg7 harg7 hc0 hc1 x0 x1 x2 xs0 xs1).1)

/-- At the last point the store into output window 4 covers its block. -/
theorem cover4_C_4 (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond4_0 i) (hc1 : cond4_1 i)
    (x0 : Vec F S5000x96 .f32) (x1 : Vec F S5000x1 .f32) (x2 : Vec F S1x96 .f32) (xs0 : Vec F S1x96 .f32) (xs1 : Vec F S1x96 .f32) (y : S1x96.Idx) :
    ∃ pc ∈ (kernelRun4_C c i arg1 harg1 arg2 harg2 arg3 harg3 arg4 harg4 arg5 harg5 arg6 harg6 arg7 harg7 hc0 hc1 x0 x1 x2 xs0 xs1).2.1, y ∈ pc.1.set :=
  View.cover_of_tiledL (kernelRun4_C c i arg1 harg1 arg2 harg2 arg3 harg3 arg4 harg4 arg5 harg5 arg6 harg6 arg7 harg7 hc0 hc1 x0 x1 x2 xs0 xs1).2.1 S1x96.size (by sl_kernel_rfl) y

/-- What the last point leaves in output window 4's buffer: its pieces read back. -/
def out4_C_4 (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond4_0 i) (hc1 : cond4_1 i)
    (x0 : Vec F S5000x96 .f32) (x1 : Vec F S5000x1 .f32) (x2 : Vec F S1x96 .f32) (xs0 : Vec F S1x96 .f32) (xs1 : Vec F S1x96 .f32) : Vec F S1x96 .f32 :=
  VO4_4.read (Elt F) (VO4_4.writes (Elt F) VO4_4.junk (kernelRun4_C c i arg1 harg1 arg2 harg2 arg3 harg3 arg4 harg4 arg5 harg5 arg6 harg6 arg7 harg7 hc0 hc1 x0 x1 x2 xs0 xs1).2.1)

/-- Case C's stores into scratch row 0 cover it. -/
theorem scover4_C_0 (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond4_0 i) (hc1 : cond4_1 i)
    (x0 : Vec F S5000x96 .f32) (x1 : Vec F S5000x1 .f32) (x2 : Vec F S1x96 .f32) (xs0 : Vec F S1x96 .f32) (xs1 : Vec F S1x96 .f32) (y : S1x96.Idx) :
    ∃ pc ∈ (kernelRun4_C c i arg1 harg1 arg2 harg2 arg3 harg3 arg4 harg4 arg5 harg5 arg6 harg6 arg7 harg7 hc0 hc1 x0 x1 x2 xs0 xs1).2.2.1, y ∈ pc.1.set :=
  View.cover_of_tiledL (kernelRun4_C c i arg1 harg1 arg2 harg2 arg3 harg3 arg4 harg4 arg5 harg5 arg6 harg6 arg7 harg7 hc0 hc1 x0 x1 x2 xs0 xs1).2.2.1 S1x96.size (by sl_kernel_rfl) y

/-- What case C leaves in scratch row 0: its pieces read back. -/
def sout4_C_0 (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond4_0 i) (hc1 : cond4_1 i)
    (x0 : Vec F S5000x96 .f32) (x1 : Vec F S5000x1 .f32) (x2 : Vec F S1x96 .f32) (xs0 : Vec F S1x96 .f32) (xs1 : Vec F S1x96 .f32) : Vec F S1x96 .f32 :=
  VS4_0.read (Elt F) (VS4_0.writes (Elt F) VS4_0.junk (kernelRun4_C c i arg1 harg1 arg2 harg2 arg3 harg3 arg4 harg4 arg5 harg5 arg6 harg6 arg7 harg7 hc0 hc1 x0 x1 x2 xs0 xs1).2.2.1)

/-- Case C's stores into scratch row 1 cover it. -/
theorem scover4_C_1 (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond4_0 i) (hc1 : cond4_1 i)
    (x0 : Vec F S5000x96 .f32) (x1 : Vec F S5000x1 .f32) (x2 : Vec F S1x96 .f32) (xs0 : Vec F S1x96 .f32) (xs1 : Vec F S1x96 .f32) (y : S1x96.Idx) :
    ∃ pc ∈ (kernelRun4_C c i arg1 harg1 arg2 harg2 arg3 harg3 arg4 harg4 arg5 harg5 arg6 harg6 arg7 harg7 hc0 hc1 x0 x1 x2 xs0 xs1).2.2.2.1, y ∈ pc.1.set :=
  View.cover_of_tiledL (kernelRun4_C c i arg1 harg1 arg2 harg2 arg3 harg3 arg4 harg4 arg5 harg5 arg6 harg6 arg7 harg7 hc0 hc1 x0 x1 x2 xs0 xs1).2.2.2.1 S1x96.size (by sl_kernel_rfl) y

/-- What case C leaves in scratch row 1: its pieces read back. -/
def sout4_C_1 (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond4_0 i) (hc1 : cond4_1 i)
    (x0 : Vec F S5000x96 .f32) (x1 : Vec F S5000x1 .f32) (x2 : Vec F S1x96 .f32) (xs0 : Vec F S1x96 .f32) (xs1 : Vec F S1x96 .f32) : Vec F S1x96 .f32 :=
  VS4_1.read (Elt F) (VS4_1.writes (Elt F) VS4_1.junk (kernelRun4_C c i arg1 harg1 arg2 harg2 arg3 harg3 arg4 harg4 arg5 harg5 arg6 harg6 arg7 harg7 hc0 hc1 x0 x1 x2 xs0 xs1).2.2.2.1)

/-! ## What the buffers hold after each point -/

/-- THE ACCUMULATION. After the body at position `n`: (output window 3's buffer, output window 4's buffer, scratch
    row 0, scratch row 1) — the first point's case at the point's blocks; a later point's case at the point's blocks and
    the scratch rows as the point before left them. -/
def outsAt4 (c : Dev nD) : (n : ℕ) → n < cfg4.N → Vec F S1x96 .f32 × Vec F S1x96 .f32 × Vec F S1x96 .f32 × Vec F S1x96 .f32
  | 0, hn => (out4_A_3 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) scM4_0 (Memref.isWhole_whole _) scM4_1 (Memref.isWhole_whole _) ((hcond4_0 ⟨0, hn⟩).mpr rfl) (fun h => (fun h => by (try dsimp only at h); omega) ((hcond4_1 ⟨0, hn⟩).mp h)) (iblk4 V c 0 ⟨0, hn⟩) (iblk4 V c 1 ⟨0, hn⟩) (iblk4 V c 2 ⟨0, hn⟩), out4_A_4 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) scM4_0 (Memref.isWhole_whole _) scM4_1 (Memref.isWhole_whole _) ((hcond4_0 ⟨0, hn⟩).mpr rfl) (fun h => (fun h => by (try dsimp only at h); omega) ((hcond4_1 ⟨0, hn⟩).mp h)) (iblk4 V c 0 ⟨0, hn⟩) (iblk4 V c 1 ⟨0, hn⟩) (iblk4 V c 2 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) scM4_0 (Memref.isWhole_whole _) scM4_1 (Memref.isWhole_whole _) ((hcond4_0 ⟨0, hn⟩).mpr rfl) (fun h => (fun h => by (try dsimp only at h); omega) ((hcond4_1 ⟨0, hn⟩).mp h)) (iblk4 V c 0 ⟨0, hn⟩) (iblk4 V c 1 ⟨0, hn⟩) (iblk4 V c 2 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) scM4_0 (Memref.isWhole_whole _) scM4_1 (Memref.isWhole_whole _) ((hcond4_0 ⟨0, hn⟩).mpr rfl) (fun h => (fun h => by (try dsimp only at h); omega) ((hcond4_1 ⟨0, hn⟩).mp h)) (iblk4 V c 0 ⟨0, hn⟩) (iblk4 V c 1 ⟨0, hn⟩) (iblk4 V c 2 ⟨0, hn⟩))
  | n + 1, hn =>
    if h1 : n + 1 = 9 then
      (out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2.1 (outsAt4 c n (Nat.lt_of_succ_lt hn)).2.2.2, out4_C_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2.1 (outsAt4 c n (Nat.lt_of_succ_lt hn)).2.2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2.1 (outsAt4 c n (Nat.lt_of_succ_lt hn)).2.2.2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2.1 (outsAt4 c n (Nat.lt_of_succ_lt hn)).2.2.2)
    else
      (out4_B_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.2.1 (outsAt4 c n (Nat.lt_of_succ_lt hn)).2.2.2, out4_B_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.2.1 (outsAt4 c n (Nat.lt_of_succ_lt hn)).2.2.2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.2.1 (outsAt4 c n (Nat.lt_of_succ_lt hn)).2.2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.2.1 (outsAt4 c n (Nat.lt_of_succ_lt hn)).2.2.2)

/-- `outsAt4` at the first point. -/
theorem outsAt4_A (c : Dev nD) (t : Fin cfg4.N) (h0 : t.val = 0) (h1 : ¬t.val = 9) :
    outsAt4 V c t.val t.isLt = (out4_A_3 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) ((hcond4_0 t).mpr h0) (fun h => h1 ((hcond4_1 t).mp h)) (iblk4 V c 0 t) (iblk4 V c 1 t) (iblk4 V c 2 t), out4_A_4 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) ((hcond4_0 t).mpr h0) (fun h => h1 ((hcond4_1 t).mp h)) (iblk4 V c 0 t) (iblk4 V c 1 t) (iblk4 V c 2 t), sout4_A_0 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) ((hcond4_0 t).mpr h0) (fun h => h1 ((hcond4_1 t).mp h)) (iblk4 V c 0 t) (iblk4 V c 1 t) (iblk4 V c 2 t), sout4_A_1 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) ((hcond4_0 t).mpr h0) (fun h => h1 ((hcond4_1 t).mp h)) (iblk4 V c 0 t) (iblk4 V c 1 t) (iblk4 V c 2 t)) := by
  obtain ⟨n, hn⟩ := t
  cases n with
  | zero => exact rfl
  | succ n => exact absurd h0 (Nat.succ_ne_zero n)

/-- `outsAt4` at a middle point: over what the point before left in the scratch rows. -/
theorem outsAt4_B (c : Dev nD) (t : Fin cfg4.N) (h0 : ¬t.val = 0) (h1 : ¬t.val = 9) :
    outsAt4 V c t.val t.isLt = (out4_B_3 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2.2.1 (outsAt4 V c (t.val - 1) (Nat.lt_of_le_of_lt (Nat.sub_le _ _) t.isLt)).2.2.2, out4_B_4 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_B_0 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_B_1 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2.2.1 (outsAt4 V c (t.val - 1) (Nat.lt_of_le_of_lt (Nat.sub_le _ _) t.isLt)).2.2.2) := by
  obtain ⟨n, hn⟩ := t
  cases n with
  | zero => exact absurd rfl h0
  | succ n => exact (dif_neg h1).trans rfl

/-- `outsAt4` at the last point: over what the point before left in the scratch rows. -/
theorem outsAt4_C (c : Dev nD) (t : Fin cfg4.N) (h0 : ¬t.val = 0) (h1 : t.val = 9) :
    outsAt4 V c t.val t.isLt = (out4_C_3 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.1 (outsAt4 V c (t.val - 1) (Nat.lt_of_le_of_lt (Nat.sub_le _ _) t.isLt)).2.2.2, out4_C_4 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_C_0 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_C_1 c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.1 (outsAt4 V c (t.val - 1) (Nat.lt_of_le_of_lt (Nat.sub_le _ _) t.isLt)).2.2.2) := by
  obtain ⟨n, hn⟩ := t
  cases n with
  | zero => exact absurd rfl h0
  | succ n => exact (dif_pos h1).trans rfl

/-! ## The region invariant -/

/-- Before position `n`: before the first point the class's invariant (every scoped buffer at anything); afterwards the
    two scratch rows at what the point before left in them, the other scoped buffers at anything, the generator
    register at some state. -/
def PhiS4 (c : Dev nD) : (n : ℕ) → n ≤ cfg4.N → sProp 𝕄
  | 0, _ => Pipeline.ΦA spec4 c
  | n + 1, hn => iprop((iprop(owns (c : Thread nD τ) scM4_0 fullShare (outsAt4 V c n hn).2.2.1 ∗ owns (c : Thread nD τ) scM4_1 fullShare (outsAt4 V c n hn).2.2.2)
      ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop((iprop(owns (c : Thread nD τ) scM4_0 fullShare (outsAt4 V c n hn).2.2.1 ∗ owns (c : Thread nD τ) scM4_1 fullShare (outsAt4 V c n hn).2.2.2)
      ∗ Pipeline.scopedRestBut (Ix := Unit) (Name := ℕ) (U := UR sig nD τ) (Lvl := ℕ) (Val := Elt F) spec4 c [cc4_scratch0, cc4_scratch1]) ∗ (∃ r, prngReg c r)) := rfl

theorem PhiS4_pos (c : Dev nD) (n : ℕ) (h : n ≤ cfg4.N) (hz : n ≠ 0) :
    PhiS4 V c n h = iprop((iprop(owns (c : Thread nD τ) scM4_0 fullShare (outsAt4 V c (n - 1) (by omega)).2.2.1 ∗ owns (c : Thread nD τ) scM4_1 fullShare (outsAt4 V c (n - 1) (by omega)).2.2.2)
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The pipeline's proof data -/

/-- The proof data of the region on core `c`: the arrays as the region finds them (`V`); after the body at point `t`
    each input's buffer at its block and the outputs' at `outsAt4`; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
    | ⟨4, _⟩ => (outsAt4 V c t.val t.isLt).2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]
theorem after4_4 (c : Dev nD) (t : Fin cfg4.N) : (dat4 V c).after 4 t = (outsAt4 V c t.val t.isLt).2.1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 4800000 in
/-- The body at the first point: the invariant hands it the scratch rows at anything and takes them back at this point's contents; the output windows, idle, are handed back untouched. -/
theorem sound_body4_A (c : Dev nD) (t : Fin cfg4.N) (h0 : t.val = 0) (h1 : ¬t.val = 9) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [Dat.leavesExact_idle (dat4 V c) 3 t (idleAt4_3_A t ((hcond4_0 t).mpr h0) (fun h => h1 ((hcond4_1 t).mp h))) (noFlush4_3_A t ((hcond4_0 t).mpr h0) (fun h => h1 ((hcond4_1 t).mp h)))]
  rw [Dat.leavesExact_idle (dat4 V c) 4 t (idleAt4_4_A t ((hcond4_0 t).mpr h0) (fun h => h1 ((hcond4_1 t).mp h))) (noFlush4_4_A t ((hcond4_0 t).mpr h0) (fun h => h1 ((hcond4_1 t).mp h)))]
  rw [outsAt4_A V c t h0 h1]
  unfold sout4_A_0 sout4_A_1; (try dsimp only)
  rw [PhiS4_castSucc V c t, PhiS4_zero V c _ _ h0, PhiA4_eq]
  iintro ⟨⟨⟨⟨HS0, HS1⟩, Hb⟩, Hg⟩, Ho, ⟨%d0, H0⟩, ⟨%d1, H1⟩, ⟨%d2, H2⟩, ⟨%d3, H3⟩, ⟨%d4, H4⟩⟩
  iapply ((kernelRun4_A c (grid4.coords t) _ _ _ _ _ _ _ _ _ _ _ _ _ _ ((hcond4_0 t).mpr h0) (fun h => h1 ((hcond4_1 t).mp h)) (iblk4 V c 0 t) (iblk4 V c 1 t) (iblk4 V c 2 t)).2.2.2.2 _ _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  iintro ⟨H0, H1, H2, H3, H4, ⟨%es0, HS0⟩, ⟨%es1, HS1⟩⟩
  isplitl [HS0 HS1 Hb Hg]
  · isplitl [HS0 HS1 Hb]
    · isplitl [HS0 HS1]
      · isplitl [HS0]
        · unfold owns; iexists _; isplitr
          swap; · iexact HS0
          ipureintro; exact View.read_writes_of_cover _ _ _ _ _ (scover4_A_0 c _ _ _ _ _ _ _ _ _ _ _ _ _ _ _ _ _ _ _ _)
        · unfold owns; iexists _; isplitr
          swap; · iexact HS1
          ipureintro; exact View.read_writes_of_cover _ _ _ _ _ (scover4_A_1 c _ _ _ _ _ _ _ _ _ _ _ _ _ _ _ _ _ _ _ _)
      · iexact Hb
    · iexact Hg
  isplitl [Ho]; · iexact Ho
  isplitl [H0]; · iexact H0
  isplitl [H1]; · iexact H1
  isplitl [H2]; · iexact H2
  isplitl [H3]; · iexists _; iexact H3
  iexists _; iexact H4

set_option maxHeartbeats 4800000 in
/-- The body at a middle point: the invariant hands it the scratch rows at what the point before left and takes them back at this point's contents; the output windows, idle, are handed back untouched. -/
theorem sound_body4_B (c : Dev nD) (t : Fin cfg4.N) (h0 : ¬t.val = 0) (h1 : ¬t.val = 9) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [Dat.leavesExact_idle (dat4 V c) 3 t (idleAt4_3_B t (fun h => h0 ((hcond4_0 t).mp h)) (fun h => h1 ((hcond4_1 t).mp h))) (noFlush4_3_B t (fun h => h0 ((hcond4_0 t).mp h)) (fun h => h1 ((hcond4_1 t).mp h)))]
  rw [Dat.leavesExact_idle (dat4 V c) 4 t (idleAt4_4_B t (fun h => h0 ((hcond4_0 t).mp h)) (fun h => h1 ((hcond4_1 t).mp h))) (noFlush4_4_B t (fun h => h0 ((hcond4_0 t).mp h)) (fun h => h1 ((hcond4_1 t).mp h)))]
  rw [outsAt4_B V c t h0 h1]
  unfold sout4_B_0 sout4_B_1; (try dsimp only)
  rw [PhiS4_castSucc V c t, PhiS4_pos V c _ _ h0]
  iintro ⟨⟨⟨⟨HS0, HS1⟩, Hb⟩, Hg⟩, Ho, ⟨%d0, H0⟩, ⟨%d1, H1⟩, ⟨%d2, H2⟩, ⟨%d3, H3⟩, ⟨%d4, H4⟩⟩
  iapply ((kernelRun4_B c (grid4.coords t) _ _ _ _ _ _ _ _ _ _ _ _ _ _ (fun h => h0 ((hcond4_0 t).mp h)) (fun h => h1 ((hcond4_1 t).mp h)) (iblk4 V c 0 t) (iblk4 V c 1 t) (iblk4 V c 2 t) _ _).2.2.2.2 _ _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  iintro ⟨H0, H1, H2, H3, H4, ⟨%es0, HS0⟩, ⟨%es1, HS1⟩⟩
  isplitl [HS0 HS1 Hb Hg]
  · isplitl [HS0 HS1 Hb]
    · isplitl [HS0 HS1]
      · isplitl [HS0]
        · unfold owns; iexists _; isplitr
          swap; · iexact HS0
          ipureintro; exact View.read_writes_of_cover _ _ _ _ _ (scover4_B_0 c _ _ _ _ _ _ _ _ _ _ _ _ _ _ _ _ _ _ _ _ _ _)
        · unfold owns; iexists _; isplitr
          swap; · iexact HS1
          ipureintro; exact View.read_writes_of_cover _ _ _ _ _ (scover4_B_1 c _ _ _ _ _ _ _ _ _ _ _ _ _ _ _ _ _ _ _ _ _ _)
      · iexact Hb
    · iexact Hg
  isplitl [Ho]; · iexact Ho
  isplitl [H0]; · iexact H0
  isplitl [H1]; · iexact H1
  isplitl [H2]; · iexact H2
  isplitl [H3]; · iexists _; iexact H3
  iexists _; iexact H4

set_option maxHeartbeats 4800000 in
/-- The body at the last point: the invariant hands it the scratch rows at what the point before left and takes them back at this point's contents; the output windows are left at the copied rows. -/
theorem sound_body4_C (c : Dev nD) (t : Fin cfg4.N) (h0 : ¬t.val = 0) (h1 : t.val = 9) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3_C t (fun h => h0 ((hcond4_0 t).mp h)) ((hcond4_1 t).mpr h1)], after4_3]
  rw [show (dat4 V c).leavesExact 4 t = owns (c : Thread nD τ) (ms4_4 t) fullShare ((dat4 V c).after 4 t) from by
    unfold Dat.leavesExact; rw [liveAt4_4_C t (fun h => h0 ((hcond4_0 t).mp h)) ((hcond4_1 t).mpr h1)], after4_4]
  rw [outsAt4_C V c t h0 h1]
  unfold out4_C_3 out4_C_4 sout4_C_0 sout4_C_1; (try dsimp only)
  rw [PhiS4_castSucc V c t, PhiS4_pos V c _ _ h0]
  iintro ⟨⟨⟨⟨HS0, HS1⟩, Hb⟩, Hg⟩, Ho, ⟨%d0, H0⟩, ⟨%d1, H1⟩, ⟨%d2, H2⟩, ⟨%d3, H3⟩, ⟨%d4, H4⟩⟩
  iapply ((kernelRun4_C c (grid4.coords t) _ _ _ _ _ _ _ _ _ _ _ _ _ _ (fun h => h0 ((hcond4_0 t).mp h)) ((hcond4_1 t).mpr h1) (iblk4 V c 0 t) (iblk4 V c 1 t) (iblk4 V c 2 t) _ _).2.2.2.2 Set.univ _)
  isplitl [H0]; · iexact H0
  isplitl [H1]; · iexact H1
  isplitl [H2]; · iexact H2
  isplitl [H3]; · iexists _; iexact H3
  isplitl [H4]; · iexists _; iexact H4
  isplitl [HS0]; · iexact HS0
  isplitl [HS1]; · iexact HS1
  iintro ⟨H0, H1, H2, ⟨%e3, H3⟩, ⟨%e4, H4⟩, ⟨%es0, HS0⟩, ⟨%es1, HS1⟩⟩
  isplitl [HS0 HS1 Hb Hg]
  · isplitl [HS0 HS1 Hb]
    · isplitl [HS0 HS1]
      · isplitl [HS0]
        · unfold owns; iexists _; isplitr
          swap; · iexact HS0
          ipureintro; exact View.read_writes_of_cover _ _ _ _ _ (scover4_C_0 c _ _ _ _ _ _ _ _ _ _ _ _ _ _ _ _ _ _ _ _ _ _)
        · unfold owns; iexists _; isplitr
          swap; · iexact HS1
          ipureintro; exact View.read_writes_of_cover _ _ _ _ _ (scover4_C_1 c _ _ _ _ _ _ _ _ _ _ _ _ _ _ _ _ _ _ _ _ _ _)
      · iexact Hb
    · iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover4_C_3 c _ _ _ _ _ _ _ _ _ _ _ _ _ _ _ _ _ _ _ _ _ _)
  unfold owns; iexists _; isplitr
  swap; · iexact H4
  ipureintro; exact View.read_writes_of_cover _ _ _ _ _ (cover4_C_4 c _ _ _ _ _ _ _ _ _ _ _ _ _ _ _ _ _ _ _ _ _ _)

/-- The body at any point: the closed forms say which of the three cases the point is in. -/
theorem sound_body4 (c : Dev nD) (t : Fin cfg4.N) :
    bodyPre4 V c t ⊢ wp frame (wpE (defs₀ (F := F)) Variants.none c none) Set.univ (bodyAt4 t) (fun _ => bodyPost4 V c t) := by
  have hN : t.val < 10 := lt_of_lt_of_eq t.isLt (show cfg4.N = 10 from N_4)
  by_cases h0 : t.val = 0
  · exact sound_body4_A V c t h0 (by omega)
  · by_cases h1 : t.val = 9
    · exact sound_body4_C V c t h0 h1
    · exact sound_body4_B V c t h0 h1

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class's back: the scratch rows' named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, Hb⟩, Hg⟩
  isplitl [HS0 HS1 Hb]
  · isplitl [HS0 HS1]
    · isplitl [HS0]
      · iexists _; iexact HS0
      · iexists _; iexact HS1
    · iexact Hb
  iexact Hg

/-- The same after the last point. -/
theorem hout4 (c : Dev nD) : (dat4 V c).Φ (Fin.last cfg4.N) ⊢ Pipeline.ΦA spec4 c :=
  Phi_out4 V c _ (by rw [Fin.val_last]; have : cfg4.N = 10 := N_4; omega)

end Cert.KernelIdeal.Hand

end
-- ==== Proof.KI.BodyR7Kit.lean ====
import proofs.«115743_j55052890800725_2_alg».proof.Proof.Gen.KernelIdeal.Launch
import proofs.«115743_j55052890800725_2_alg».proof.Proof.Gen.KernelIdeal.Skeleton
import proofs.«115743_j55052890800725_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 7 (`cc7__bn_stats_kernel`): what its three control cases share

The body resets its two scratch rows at the grid's first point, adds the point's column sums and column sums of
squares into them at every point, and copies them into the two output windows at the last point. -/

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof
    data whose array is `V`'s and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-! ## The body's two conditions, in closed form over the grid -/

/-- The first conditional's condition: the point is the grid's first. -/
abbrev cond7_0 (i : grid7.Coords) : Prop := (Scalar.cmpi .ne (Scalar.extui (Scalar.cmpi .eq (BitVec.ofNat 32 (i 0).val) 0#32)) 0#32) = 1#1
theorem hcond7_0 : ∀ t : Fin cfg7.N, cond7_0 (grid7.coords t) ↔ t.val = 0 :=
  (by decide +kernel : ∀ t : Fin grid7.N, cond7_0 (grid7.coords t) ↔ t.val = 0)

/-- The second conditional's condition: the point is the grid's last. -/
abbrev cond7_1 (i : grid7.Coords) : Prop := k7_cond2 i = 1#1
theorem hcond7_1 : ∀ t : Fin cfg7.N, cond7_1 (grid7.coords t) ↔ t.val = 9 :=
  (by decide +kernel : ∀ t : Fin grid7.N, cond7_1 (grid7.coords t) ↔ t.val = 9)

/-! ## Where the windows are idle -/
theorem liveAt7_0 : ∀ t : Fin cfg7.N, cfg7.idle 0 (grid7.coords t) = false := by decide +kernel
/-- Output window 1 is idle and not written back at every point but the last, where it is live. -/
theorem idleAt7_1_A : ∀ t : Fin cfg7.N, cond7_0 (grid7.coords t) → ¬cond7_1 (grid7.coords t) → cfg7.idle 1 (grid7.coords t) = true := by decide +kernel
theorem noFlush7_1_A : ∀ t : Fin cfg7.N, cond7_0 (grid7.coords t) → ¬cond7_1 (grid7.coords t) → (cfg7.win 1).flush t = false := by decide +kernel
theorem idleAt7_1_B : ∀ t : Fin cfg7.N, ¬cond7_0 (grid7.coords t) → ¬cond7_1 (grid7.coords t) → cfg7.idle 1 (grid7.coords t) = true := by decide +kernel
theorem noFlush7_1_B : ∀ t : Fin cfg7.N, ¬cond7_0 (grid7.coords t) → ¬cond7_1 (grid7.coords t) → (cfg7.win 1).flush t = false := by decide +kernel
theorem liveAt7_1_C : ∀ t : Fin cfg7.N, ¬cond7_0 (grid7.coords t) → cond7_1 (grid7.coords t) → cfg7.idle 1 (grid7.coords t) = false := by decide +kernel
/-- Output window 2 is idle and not written back at every point but the last, where it is live. -/
theorem idleAt7_2_A : ∀ t : Fin cfg7.N, cond7_0 (grid7.coords t) → ¬cond7_1 (grid7.coords t) → cfg7.idle 2 (grid7.coords t) = true := by decide +kernel
theorem noFlush7_2_A : ∀ t : Fin cfg7.N, cond7_0 (grid7.coords t) → ¬cond7_1 (grid7.coords t) → (cfg7.win 2).flush t = false := by decide +kernel
theorem idleAt7_2_B : ∀ t : Fin cfg7.N, ¬cond7_0 (grid7.coords t) → ¬cond7_1 (grid7.coords t) → cfg7.idle 2 (grid7.coords t) = true := by decide +kernel
theorem noFlush7_2_B : ∀ t : Fin cfg7.N, ¬cond7_0 (grid7.coords t) → ¬cond7_1 (grid7.coords t) → (cfg7.win 2).flush t = false := by decide +kernel
theorem liveAt7_2_C : ∀ t : Fin cfg7.N, ¬cond7_0 (grid7.coords t) → cond7_1 (grid7.coords t) → cfg7.idle 2 (grid7.coords t) = false := by decide +kernel

/-! ## The memrefs the body is called with -/

/-- One staging buffer of each output window, through which its contents are stated. -/
abbrev VO7_1 : View sig .tc .vmem S1x96 .f32 := (Memref.whole cc7_stg1_0 : Memref sig .tc .vmem S1x96 .f32).view
abbrev VO7_2 : View sig .tc .vmem S1x96 .f32 := (Memref.whole cc7_stg2_0 : Memref sig .tc .vmem S1x96 .f32).view
abbrev ms7_0 (t : Fin cfg7.N) : Memref sig .tc .vmem S5000x96 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1x96 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x96 .f32 := win7_2.stage (cfg7.slots t 2)
abbrev hs7_2 (t : Fin cfg7.N) : (ms7_2 t).IsWhole := hstage7_2 ((cfg7.slots t 2).cast nbuf7_2)
/-- The two scratch rows: whole scoped buffers of the kernel's own, carried from point to point. -/
abbrev scM7_0 : Memref sig .tc .vmem S1x96 .f32 := Memref.whole cc7_scratch0
abbrev scM7_1 : Memref sig .tc .vmem S1x96 .f32 := Memref.whole cc7_scratch1
abbrev VS7_0 : View sig .tc .vmem S1x96 .f32 := scM7_0.view
abbrev VS7_1 : View sig .tc .vmem S1x96 .f32 := scM7_1.view

/-- The class's invariant with the two scratch rows as memrefs owned at some contents, the other scoped buffers
    unopened. -/
theorem PhiA7_eq (c : Dev nD) :
    (Pipeline.ΦA spec7 c : sProp 𝕄)
      = iprop((iprop((∃ d, owns (c : Thread nD τ) scM7_0 fullShare d) ∗ (∃ d, owns (c : Thread nD τ) scM7_1 fullShare d))
          ∗ Pipeline.scopedRestBut (Ix := Unit) (Name := ℕ) (U := UR sig nD τ) (Lvl := ℕ) (Val := Elt F) spec7 c [cc7_scratch0, cc7_scratch1]) ∗ (∃ r, prngReg c r)) := by
  unfold Pipeline.ΦA; rw [scopedRest7_split]; simp only [scM7_0, scM7_1, owns_whole]; try rfl

end Cert.KernelIdeal.Hand

end
-- ==== Proof.KI.BodyR7Runs.lean ====
import proofs.«115743_j55052890800725_2_alg».proof.Proof.KI.BodyR7Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 7 (`cc7__bn_stats_kernel`): the body run in each of its three control cases -/

set_option maxHeartbeats 1000000 in
/-- The body at the grid's first point (both scratch rows reset, then accumulated into; the output windows untouched): the pieces its stores leave in each output window's buffer and in each scratch row (last
    first), with the triple — from the inputs' buffers at their contents, the outputs' at contents handed back untouched, the scratch rows at anything,
    the body runs to the continuation holding the inputs' buffers as they were and every stored buffer with its pieces
    written. -/
noncomputable def kernelRun7_A (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : cond7_0 i) (hc1 : ¬cond7_1 i)
    (x0 : Vec F S5000x96 .f32) :
    Σ' (L1 : List (View.Piece (Elt F) S1x96 .f32)) (L2 : List (View.Piece (Elt F) S1x96 .f32)) (LS0 : List (View.Piece (Elt F) S1x96 .f32)), { LS1 : List (View.Piece (Elt F) S1x96 .f32) //
      ∀ (xi1 xi2 : Vec F S1x96 .f32) (E : Set ℕ) (K : PUnit → sProp 𝕄),
        iprop(owns (c : Thread nD τ) arg1 fullShare x0 ∗ owns (c : Thread nD τ) arg2 fullShare xi1 ∗ owns (c : Thread nD τ) arg3 fullShare xi2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc7__bn_stats_kernel i arg1 harg1 arg2 harg2 arg3 harg3 arg4 harg4 arg5 harg5) K } := by
  refine ⟨[], [], ?_, ?_, fun xi1 xi2 E K => ?run⟩
  case run =>
    simp only [cc7__bn_stats_kernel_eq_skeleton]; unfold cc7__bn_stats_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 1000000 in
/-- The body at a middle point (both scratch rows accumulated into; the output windows untouched): the pieces its stores leave in each output window's buffer and in each scratch row (last
    first), with the triple — from the inputs' buffers at their contents, the outputs' at contents handed back untouched, the scratch rows at what the point before left,
    the body runs to the continuation holding the inputs' buffers as they were and every stored buffer with its pieces
    written. -/
noncomputable def kernelRun7_B (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : ¬cond7_0 i) (hc1 : ¬cond7_1 i)
    (x0 : Vec F S5000x96 .f32) (xs0 : Vec F S1x96 .f32) (xs1 : Vec F S1x96 .f32) :
    Σ' (L1 : List (View.Piece (Elt F) S1x96 .f32)) (L2 : List (View.Piece (Elt F) S1x96 .f32)) (LS0 : List (View.Piece (Elt F) S1x96 .f32)), { LS1 : List (View.Piece (Elt F) S1x96 .f32) //
      ∀ (xi1 xi2 : Vec F S1x96 .f32) (E : Set ℕ) (K : PUnit → sProp 𝕄),
        iprop(owns (c : Thread nD τ) arg1 fullShare x0 ∗ owns (c : Thread nD τ) arg2 fullShare xi1 ∗ owns (c : Thread nD τ) arg3 fullShare xi2 ∗ owns (c : Thread nD τ) arg4 fullShare xs0 ∗ owns (c : Thread nD τ) arg5 fullShare xs1
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc7__bn_stats_kernel i arg1 harg1 arg2 harg2 arg3 harg3 arg4 harg4 arg5 harg5) K } := by
  refine ⟨[], [], ?_, ?_, fun xi1 xi2 E K => ?run⟩
  case run =>
    simp only [cc7__bn_stats_kernel_eq_skeleton]; unfold cc7__bn_stats_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 1000000 in
/-- The body at the grid's last point (both scratch rows accumulated into, then copied into the output windows): the pieces its stores leave in each output window's buffer and in each scratch row (last
    first), with the triple — from the inputs' buffers at their contents, the outputs' at anything, the scratch rows at what the point before left,
    the body runs to the continuation holding the inputs' buffers as they were and every stored buffer with its pieces
    written. -/
noncomputable def kernelRun7_C (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : ¬cond7_0 i) (hc1 : cond7_1 i)
    (x0 : Vec F S5000x96 .f32) (xs0 : Vec F S1x96 .f32) (xs1 : Vec F S1x96 .f32) :
    Σ' (L1 : List (View.Piece (Elt F) S1x96 .f32)) (L2 : List (View.Piece (Elt F) S1x96 .f32)) (LS0 : List (View.Piece (Elt F) S1x96 .f32)), { LS1 : List (View.Piece (Elt F) S1x96 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc7__bn_stats_kernel i arg1 harg1 arg2 harg2 arg3 harg3 arg4 harg4 arg5 harg5) K } := by
  refine ⟨?_, ?_, ?_, ?_, fun E K => ?run⟩
  case run =>
    simp only [cc7__bn_stats_kernel_eq_skeleton]; unfold cc7__bn_stats_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0; obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

end Cert.KernelIdeal.Hand

end
-- ==== Proof.KI.BodyR7.lean ====
import proofs.«115743_j55052890800725_2_alg».proof.Proof.KI.BodyR7Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 7 (`cc7__bn_stats_kernel`): what its buffers hold point by point, the proof data, the body obligation -/

/-! ## What each case leaves in the output windows' buffers and in the scratch rows -/

/-- Case A stores nothing into output window 1 (idle there and not written back): a placeholder nothing consults. -/
def out7_A_1 (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : cond7_0 i) (hc1 : ¬cond7_1 i)
    (x0 : Vec F S5000x96 .f32) : Vec F S1x96 .f32 :=
  VO7_1.read (Elt F) (VO7_1.writes (Elt F) VO7_1.junk (kernelRun7_A c i arg1 harg1 arg2 harg2 arg3 harg3 arg4 harg4 arg5 harg5 hc0 hc1 x0).1)

/-- Case A stores nothing into output window 2 (idle there and not written back): a placeholder nothing consults. -/
def out7_A_2 (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : cond7_0 i) (hc1 : ¬cond7_1 i)
    (x0 : Vec F S5000x96 .f32) : Vec F S1x96 .f32 :=
  VO7_2.read (Elt F) (VO7_2.writes (Elt F) VO7_2.junk (kernelRun7_A c i arg1 harg1 arg2 harg2 arg3 harg3 arg4 harg4 arg5 harg5 hc0 hc1 x0).2.1)

/-- Case A's stores into scratch row 0 cover it. -/
theorem scover7_A_0 (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : cond7_0 i) (hc1 : ¬cond7_1 i)
    (x0 : Vec F S5000x96 .f32) (y : S1x96.Idx) :
    ∃ pc ∈ (kernelRun7_A c i arg1 harg1 arg2 harg2 arg3 harg3 arg4 harg4 arg5 harg5 hc0 hc1 x0).2.2.1, y ∈ pc.1.set :=
  View.cover_of_tiledL (kernelRun7_A c i arg1 harg1 arg2 harg2 arg3 harg3 arg4 harg4 arg5 harg5 hc0 hc1 x0).2.2.1 S1x96.size (by sl_kernel_rfl) y

/-- What case A leaves in scratch row 0: its pieces read back. -/
def sout7_A_0 (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : cond7_0 i) (hc1 : ¬cond7_1 i)
    (x0 : Vec F S5000x96 .f32) : Vec F S1x96 .f32 :=
  VS7_0.read (Elt F) (VS7_0.writes (Elt F) VS7_0.junk (kernelRun7_A c i arg1 harg1 arg2 harg2 arg3 harg3 arg4 harg4 arg5 harg5 hc0 hc1 x0).2.2.1)

/-- Case A's stores into scratch row 1 cover it. -/
theorem scover7_A_1 (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : cond7_0 i) (hc1 : ¬cond7_1 i)
    (x0 : Vec F S5000x96 .f32) (y : S1x96.Idx) :
    ∃ pc ∈ (kernelRun7_A c i arg1 harg1 arg2 harg2 arg3 harg3 arg4 harg4 arg5 harg5 hc0 hc1 x0).2.2.2.1, y ∈ pc.1.set :=
  View.cover_of_tiledL (kernelRun7_A c i arg1 harg1 arg2 harg2 arg3 harg3 arg4 harg4 arg5 harg5 hc0 hc1 x0).2.2.2.1 S1x96.size (by sl_kernel_rfl) y

/-- What case A leaves in scratch row 1: its pieces read back. -/
def sout7_A_1 (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : cond7_0 i) (hc1 : ¬cond7_1 i)
    (x0 : Vec F S5000x96 .f32) : Vec F S1x96 .f32 :=
  VS7_1.read (Elt F) (VS7_1.writes (Elt F) VS7_1.junk (kernelRun7_A c i arg1 harg1 arg2 harg2 arg3 harg3 arg4 harg4 arg5 harg5 hc0 hc1 x0).2.2.2.1)

/-- Case B stores nothing into output window 1 (idle there and not written back): a placeholder nothing consults. -/
def out7_B_1 (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : ¬cond7_0 i) (hc1 : ¬cond7_1 i)
    (x0 : Vec F S5000x96 .f32) (xs0 : Vec F S1x96 .f32) (xs1 : Vec F S1x96 .f32) : Vec F S1x96 .f32 :=
  VO7_1.read (Elt F) (VO7_1.writes (Elt F) VO7_1.junk (kernelRun7_B c i arg1 harg1 arg2 harg2 arg3 harg3 arg4 harg4 arg5 harg5 hc0 hc1 x0 xs0 xs1).1)

/-- Case B stores nothing into output window 2 (idle there and not written back): a placeholder nothing consults. -/
def out7_B_2 (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : ¬cond7_0 i) (hc1 : ¬cond7_1 i)
    (x0 : Vec F S5000x96 .f32) (xs0 : Vec F S1x96 .f32) (xs1 : Vec F S1x96 .f32) : Vec F S1x96 .f32 :=
  VO7_2.read (Elt F) (VO7_2.writes (Elt F) VO7_2.junk (kernelRun7_B c i arg1 harg1 arg2 harg2 arg3 harg3 arg4 harg4 arg5 harg5 hc0 hc1 x0 xs0 xs1).2.1)

/-- Case B's stores into scratch row 0 cover it. -/
theorem scover7_B_0 (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : ¬cond7_0 i) (hc1 : ¬cond7_1 i)
    (x0 : Vec F S5000x96 .f32) (xs0 : Vec F S1x96 .f32) (xs1 : Vec F S1x96 .f32) (y : S1x96.Idx) :
    ∃ pc ∈ (kernelRun7_B c i arg1 harg1 arg2 harg2 arg3 harg3 arg4 harg4 arg5 harg5 hc0 hc1 x0 xs0 xs1).2.2.1, y ∈ pc.1.set :=
  View.cover_of_tiledL (kernelRun7_B c i arg1 harg1 arg2 harg2 arg3 harg3 arg4 harg4 arg5 harg5 hc0 hc1 x0 xs0 xs1).2.2.1 S1x96.size (by sl_kernel_rfl) y

/-- What case B leaves in scratch row 0: its pieces read back. -/
def sout7_B_0 (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : ¬cond7_0 i) (hc1 : ¬cond7_1 i)
    (x0 : Vec F S5000x96 .f32) (xs0 : Vec F S1x96 .f32) (xs1 : Vec F S1x96 .f32) : Vec F S1x96 .f32 :=
  VS7_0.read (Elt F) (VS7_0.writes (Elt F) VS7_0.junk (kernelRun7_B c i arg1 harg1 arg2 harg2 arg3 harg3 arg4 harg4 arg5 harg5 hc0 hc1 x0 xs0 xs1).2.2.1)

/-- Case B's stores into scratch row 1 cover it. -/
theorem scover7_B_1 (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : ¬cond7_0 i) (hc1 : ¬cond7_1 i)
    (x0 : Vec F S5000x96 .f32) (xs0 : Vec F S1x96 .f32) (xs1 : Vec F S1x96 .f32) (y : S1x96.Idx) :
    ∃ pc ∈ (kernelRun7_B c i arg1 harg1 arg2 harg2 arg3 harg3 arg4 harg4 arg5 harg5 hc0 hc1 x0 xs0 xs1).2.2.2.1, y ∈ pc.1.set :=
  View.cover_of_tiledL (kernelRun7_B c i arg1 harg1 arg2 harg2 arg3 harg3 arg4 harg4 arg5 harg5 hc0 hc1 x0 xs0 xs1).2.2.2.1 S1x96.size (by sl_kernel_rfl) y

/-- What case B leaves in scratch row 1: its pieces read back. -/
def sout7_B_1 (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : ¬cond7_0 i) (hc1 : ¬cond7_1 i)
    (x0 : Vec F S5000x96 .f32) (xs0 : Vec F S1x96 .f32) (xs1 : Vec F S1x96 .f32) : Vec F S1x96 .f32 :=
  VS7_1.read (Elt F) (VS7_1.writes (Elt F) VS7_1.junk (kernelRun7_B c i arg1 harg1 arg2 harg2 arg3 harg3 arg4 harg4 arg5 harg5 hc0 hc1 x0 xs0 xs1).2.2.2.1)

/-- At the last point the store into output window 1 covers its block. -/
theorem cover7_C_1 (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : ¬cond7_0 i) (hc1 : cond7_1 i)
    (x0 : Vec F S5000x96 .f32) (xs0 : Vec F S1x96 .f32) (xs1 : Vec F S1x96 .f32) (y : S1x96.Idx) :
    ∃ pc ∈ (kernelRun7_C c i arg1 harg1 arg2 harg2 arg3 harg3 arg4 harg4 arg5 harg5 hc0 hc1 x0 xs0 xs1).1, y ∈ pc.1.set :=
  View.cover_of_tiledL (kernelRun7_C c i arg1 harg1 arg2 harg2 arg3 harg3 arg4 harg4 arg5 harg5 hc0 hc1 x0 xs0 xs1).1 S1x96.size (by sl_kernel_rfl) y

/-- What the last point leaves in output window 1's buffer: its pieces read back. -/
def out7_C_1 (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : ¬cond7_0 i) (hc1 : cond7_1 i)
    (x0 : Vec F S5000x96 .f32) (xs0 : Vec F S1x96 .f32) (xs1 : Vec F S1x96 .f32) : Vec F S1x96 .f32 :=
  VO7_1.read (Elt F) (VO7_1.writes (Elt F) VO7_1.junk (kernelRun7_C c i arg1 harg1 arg2 harg2 arg3 harg3 arg4 harg4 arg5 harg5 hc0 hc1 x0 xs0 xs1).1)

/-- At the last point the store into output window 2 covers its block. -/
theorem cover7_C_2 (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : ¬cond7_0 i) (hc1 : cond7_1 i)
    (x0 : Vec F S5000x96 .f32) (xs0 : Vec F S1x96 .f32) (xs1 : Vec F S1x96 .f32) (y : S1x96.Idx) :
    ∃ pc ∈ (kernelRun7_C c i arg1 harg1 arg2 harg2 arg3 harg3 arg4 harg4 arg5 harg5 hc0 hc1 x0 xs0 xs1).2.1, y ∈ pc.1.set :=
  View.cover_of_tiledL (kernelRun7_C c i arg1 harg1 arg2 harg2 arg3 harg3 arg4 harg4 arg5 harg5 hc0 hc1 x0 xs0 xs1).2.1 S1x96.size (by sl_kernel_rfl) y

/-- What the last point leaves in output window 2's buffer: its pieces read back. -/
def out7_C_2 (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : ¬cond7_0 i) (hc1 : cond7_1 i)
    (x0 : Vec F S5000x96 .f32) (xs0 : Vec F S1x96 .f32) (xs1 : Vec F S1x96 .f32) : Vec F S1x96 .f32 :=
  VO7_2.read (Elt F) (VO7_2.writes (Elt F) VO7_2.junk (kernelRun7_C c i arg1 harg1 arg2 harg2 arg3 harg3 arg4 harg4 arg5 harg5 hc0 hc1 x0 xs0 xs1).2.1)

/-- Case C's stores into scratch row 0 cover it. -/
theorem scover7_C_0 (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : ¬cond7_0 i) (hc1 : cond7_1 i)
    (x0 : Vec F S5000x96 .f32) (xs0 : Vec F S1x96 .f32) (xs1 : Vec F S1x96 .f32) (y : S1x96.Idx) :
    ∃ pc ∈ (kernelRun7_C c i arg1 harg1 arg2 harg2 arg3 harg3 arg4 harg4 arg5 harg5 hc0 hc1 x0 xs0 xs1).2.2.1, y ∈ pc.1.set :=
  View.cover_of_tiledL (kernelRun7_C c i arg1 harg1 arg2 harg2 arg3 harg3 arg4 harg4 arg5 harg5 hc0 hc1 x0 xs0 xs1).2.2.1 S1x96.size (by sl_kernel_rfl) y

/-- What case C leaves in scratch row 0: its pieces read back. -/
def sout7_C_0 (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : ¬cond7_0 i) (hc1 : cond7_1 i)
    (x0 : Vec F S5000x96 .f32) (xs0 : Vec F S1x96 .f32) (xs1 : Vec F S1x96 .f32) : Vec F S1x96 .f32 :=
  VS7_0.read (Elt F) (VS7_0.writes (Elt F) VS7_0.junk (kernelRun7_C c i arg1 harg1 arg2 harg2 arg3 harg3 arg4 harg4 arg5 harg5 hc0 hc1 x0 xs0 xs1).2.2.1)

/-- Case C's stores into scratch row 1 cover it. -/
theorem scover7_C_1 (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : ¬cond7_0 i) (hc1 : cond7_1 i)
    (x0 : Vec F S5000x96 .f32) (xs0 : Vec F S1x96 .f32) (xs1 : Vec F S1x96 .f32) (y : S1x96.Idx) :
    ∃ pc ∈ (kernelRun7_C c i arg1 harg1 arg2 harg2 arg3 harg3 arg4 harg4 arg5 harg5 hc0 hc1 x0 xs0 xs1).2.2.2.1, y ∈ pc.1.set :=
  View.cover_of_tiledL (kernelRun7_C c i arg1 harg1 arg2 harg2 arg3 harg3 arg4 harg4 arg5 harg5 hc0 hc1 x0 xs0 xs1).2.2.2.1 S1x96.size (by sl_kernel_rfl) y

/-- What case C leaves in scratch row 1: its pieces read back. -/
def sout7_C_1 (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : ¬cond7_0 i) (hc1 : cond7_1 i)
    (x0 : Vec F S5000x96 .f32) (xs0 : Vec F S1x96 .f32) (xs1 : Vec F S1x96 .f32) : Vec F S1x96 .f32 :=
  VS7_1.read (Elt F) (VS7_1.writes (Elt F) VS7_1.junk (kernelRun7_C c i arg1 harg1 arg2 harg2 arg3 harg3 arg4 harg4 arg5 harg5 hc0 hc1 x0 xs0 xs1).2.2.2.1)

/-! ## What the buffers hold after each point -/

/-- THE ACCUMULATION. After the body at position `n`: (output window 1's buffer, output window 2's buffer, scratch
    row 0, scratch row 1) — the first point's case at the point's blocks; a later point's case at the point's blocks and
    the scratch rows as the point before left them. -/
def outsAt7 (c : Dev nD) : (n : ℕ) → n < cfg7.N → Vec F S1x96 .f32 × Vec F S1x96 .f32 × Vec F S1x96 .f32 × Vec F S1x96 .f32
  | 0, hn => (out7_A_1 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) scM7_0 (Memref.isWhole_whole _) scM7_1 (Memref.isWhole_whole _) ((hcond7_0 ⟨0, hn⟩).mpr rfl) (fun h => (fun h => by (try dsimp only at h); omega) ((hcond7_1 ⟨0, hn⟩).mp h)) (iblk7 V c 0 ⟨0, hn⟩), out7_A_2 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) scM7_0 (Memref.isWhole_whole _) scM7_1 (Memref.isWhole_whole _) ((hcond7_0 ⟨0, hn⟩).mpr rfl) (fun h => (fun h => by (try dsimp only at h); omega) ((hcond7_1 ⟨0, hn⟩).mp h)) (iblk7 V c 0 ⟨0, hn⟩), sout7_A_0 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) scM7_0 (Memref.isWhole_whole _) scM7_1 (Memref.isWhole_whole _) ((hcond7_0 ⟨0, hn⟩).mpr rfl) (fun h => (fun h => by (try dsimp only at h); omega) ((hcond7_1 ⟨0, hn⟩).mp h)) (iblk7 V c 0 ⟨0, hn⟩), sout7_A_1 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) scM7_0 (Memref.isWhole_whole _) scM7_1 (Memref.isWhole_whole _) ((hcond7_0 ⟨0, hn⟩).mpr rfl) (fun h => (fun h => by (try dsimp only at h); omega) ((hcond7_1 ⟨0, hn⟩).mp h)) (iblk7 V c 0 ⟨0, hn⟩))
  | n + 1, hn =>
    if h1 : n + 1 = 9 then
      (out7_C_1 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) scM7_1 (Memref.isWhole_whole _) (fun h => Nat.succ_ne_zero n ((hcond7_0 ⟨n + 1, hn⟩).mp h)) ((hcond7_1 ⟨n + 1, hn⟩).mpr h1) (iblk7 V c 0 ⟨n + 1, hn⟩) (outsAt7 c n (Nat.lt_of_succ_lt hn)).2.2.1 (outsAt7 c n (Nat.lt_of_succ_lt hn)).2.2.2, out7_C_2 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) scM7_1 (Memref.isWhole_whole _) (fun h => Nat.succ_ne_zero n ((hcond7_0 ⟨n + 1, hn⟩).mp h)) ((hcond7_1 ⟨n + 1, hn⟩).mpr h1) (iblk7 V c 0 ⟨n + 1, hn⟩) (outsAt7 c n (Nat.lt_of_succ_lt hn)).2.2.1 (outsAt7 c n (Nat.lt_of_succ_lt hn)).2.2.2, sout7_C_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) scM7_1 (Memref.isWhole_whole _) (fun h => Nat.succ_ne_zero n ((hcond7_0 ⟨n + 1, hn⟩).mp h)) ((hcond7_1 ⟨n + 1, hn⟩).mpr h1) (iblk7 V c 0 ⟨n + 1, hn⟩) (outsAt7 c n (Nat.lt_of_succ_lt hn)).2.2.1 (outsAt7 c n (Nat.lt_of_succ_lt hn)).2.2.2, sout7_C_1 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) scM7_1 (Memref.isWhole_whole _) (fun h => Nat.succ_ne_zero n ((hcond7_0 ⟨n + 1, hn⟩).mp h)) ((hcond7_1 ⟨n + 1, hn⟩).mpr h1) (iblk7 V c 0 ⟨n + 1, hn⟩) (outsAt7 c n (Nat.lt_of_succ_lt hn)).2.2.1 (outsAt7 c n (Nat.lt_of_succ_lt hn)).2.2.2)
    else
      (out7_B_1 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) scM7_1 (Memref.isWhole_whole _) (fun h => Nat.succ_ne_zero n ((hcond7_0 ⟨n + 1, hn⟩).mp h)) (fun h => h1 ((hcond7_1 ⟨n + 1, hn⟩).mp h)) (iblk7 V c 0 ⟨n + 1, hn⟩) (outsAt7 c n (Nat.lt_of_succ_lt hn)).2.2.1 (outsAt7 c n (Nat.lt_of_succ_lt hn)).2.2.2, out7_B_2 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) scM7_1 (Memref.isWhole_whole _) (fun h => Nat.succ_ne_zero n ((hcond7_0 ⟨n + 1, hn⟩).mp h)) (fun h => h1 ((hcond7_1 ⟨n + 1, hn⟩).mp h)) (iblk7 V c 0 ⟨n + 1, hn⟩) (outsAt7 c n (Nat.lt_of_succ_lt hn)).2.2.1 (outsAt7 c n (Nat.lt_of_succ_lt hn)).2.2.2, sout7_B_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) scM7_1 (Memref.isWhole_whole _) (fun h => Nat.succ_ne_zero n ((hcond7_0 ⟨n + 1, hn⟩).mp h)) (fun h => h1 ((hcond7_1 ⟨n + 1, hn⟩).mp h)) (iblk7 V c 0 ⟨n + 1, hn⟩) (outsAt7 c n (Nat.lt_of_succ_lt hn)).2.2.1 (outsAt7 c n (Nat.lt_of_succ_lt hn)).2.2.2, sout7_B_1 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) scM7_1 (Memref.isWhole_whole _) (fun h => Nat.succ_ne_zero n ((hcond7_0 ⟨n + 1, hn⟩).mp h)) (fun h => h1 ((hcond7_1 ⟨n + 1, hn⟩).mp h)) (iblk7 V c 0 ⟨n + 1, hn⟩) (outsAt7 c n (Nat.lt_of_succ_lt hn)).2.2.1 (outsAt7 c n (Nat.lt_of_succ_lt hn)).2.2.2)

/-- `outsAt7` at the first point. -/
theorem outsAt7_A (c : Dev nD) (t : Fin cfg7.N) (h0 : t.val = 0) (h1 : ¬t.val = 9) :
    outsAt7 V c t.val t.isLt = (out7_A_1 c (grid7.coords t) (ms7_0 t) (hs7_0 t) (ms7_1 t) (hs7_1 t) (ms7_2 t) (hs7_2 t) scM7_0 (Memref.isWhole_whole _) scM7_1 (Memref.isWhole_whole _) ((hcond7_0 t).mpr h0) (fun h => h1 ((hcond7_1 t).mp h)) (iblk7 V c 0 t), out7_A_2 c (grid7.coords t) (ms7_0 t) (hs7_0 t) (ms7_1 t) (hs7_1 t) (ms7_2 t) (hs7_2 t) scM7_0 (Memref.isWhole_whole _) scM7_1 (Memref.isWhole_whole _) ((hcond7_0 t).mpr h0) (fun h => h1 ((hcond7_1 t).mp h)) (iblk7 V c 0 t), sout7_A_0 c (grid7.coords t) (ms7_0 t) (hs7_0 t) (ms7_1 t) (hs7_1 t) (ms7_2 t) (hs7_2 t) scM7_0 (Memref.isWhole_whole _) scM7_1 (Memref.isWhole_whole _) ((hcond7_0 t).mpr h0) (fun h => h1 ((hcond7_1 t).mp h)) (iblk7 V c 0 t), sout7_A_1 c (grid7.coords t) (ms7_0 t) (hs7_0 t) (ms7_1 t) (hs7_1 t) (ms7_2 t) (hs7_2 t) scM7_0 (Memref.isWhole_whole _) scM7_1 (Memref.isWhole_whole _) ((hcond7_0 t).mpr h0) (fun h => h1 ((hcond7_1 t).mp h)) (iblk7 V c 0 t)) := by
  obtain ⟨n, hn⟩ := t
  cases n with
  | zero => exact rfl
  | succ n => exact absurd h0 (Nat.succ_ne_zero n)

/-- `outsAt7` at a middle point: over what the point before left in the scratch rows. -/
theorem outsAt7_B (c : Dev nD) (t : Fin cfg7.N) (h0 : ¬t.val = 0) (h1 : ¬t.val = 9) :
    outsAt7 V c t.val t.isLt = (out7_B_1 c (grid7.coords t) (ms7_0 t) (hs7_0 t) (ms7_1 t) (hs7_1 t) (ms7_2 t) (hs7_2 t) scM7_0 (Memref.isWhole_whole _) scM7_1 (Memref.isWhole_whole _) (fun h => h0 ((hcond7_0 t).mp h)) (fun h => h1 ((hcond7_1 t).mp h)) (iblk7 V c 0 t) (outsAt7 V c (t.val - 1) (Nat.lt_of_le_of_lt (Nat.sub_le _ _) t.isLt)).2.2.1 (outsAt7 V c (t.val - 1) (Nat.lt_of_le_of_lt (Nat.sub_le _ _) t.isLt)).2.2.2, out7_B_2 c (grid7.coords t) (ms7_0 t) (hs7_0 t) (ms7_1 t) (hs7_1 t) (ms7_2 t) (hs7_2 t) scM7_0 (Memref.isWhole_whole _) scM7_1 (Memref.isWhole_whole _) (fun h => h0 ((hcond7_0 t).mp h)) (fun h => h1 ((hcond7_1 t).mp h)) (iblk7 V c 0 t) (outsAt7 V c (t.val - 1) (Nat.lt_of_le_of_lt (Nat.sub_le _ _) t.isLt)).2.2.1 (outsAt7 V c (t.val - 1) (Nat.lt_of_le_of_lt (Nat.sub_le _ _) t.isLt)).2.2.2, sout7_B_0 c (grid7.coords t) (ms7_0 t) (hs7_0 t) (ms7_1 t) (hs7_1 t) (ms7_2 t) (hs7_2 t) scM7_0 (Memref.isWhole_whole _) scM7_1 (Memref.isWhole_whole _) (fun h => h0 ((hcond7_0 t).mp h)) (fun h => h1 ((hcond7_1 t).mp h)) (iblk7 V c 0 t) (outsAt7 V c (t.val - 1) (Nat.lt_of_le_of_lt (Nat.sub_le _ _) t.isLt)).2.2.1 (outsAt7 V c (t.val - 1) (Nat.lt_of_le_of_lt (Nat.sub_le _ _) t.isLt)).2.2.2, sout7_B_1 c (grid7.coords t) (ms7_0 t) (hs7_0 t) (ms7_1 t) (hs7_1 t) (ms7_2 t) (hs7_2 t) scM7_0 (Memref.isWhole_whole _) scM7_1 (Memref.isWhole_whole _) (fun h => h0 ((hcond7_0 t).mp h)) (fun h => h1 ((hcond7_1 t).mp h)) (iblk7 V c 0 t) (outsAt7 V c (t.val - 1) (Nat.lt_of_le_of_lt (Nat.sub_le _ _) t.isLt)).2.2.1 (outsAt7 V c (t.val - 1) (Nat.lt_of_le_of_lt (Nat.sub_le _ _) t.isLt)).2.2.2) := by
  obtain ⟨n, hn⟩ := t
  cases n with
  | zero => exact absurd rfl h0
  | succ n => exact (dif_neg h1).trans rfl

/-- `outsAt7` at the last point: over what the point before left in the scratch rows. -/
theorem outsAt7_C (c : Dev nD) (t : Fin cfg7.N) (h0 : ¬t.val = 0) (h1 : t.val = 9) :
    outsAt7 V c t.val t.isLt = (out7_C_1 c (grid7.coords t) (ms7_0 t) (hs7_0 t) (ms7_1 t) (hs7_1 t) (ms7_2 t) (hs7_2 t) scM7_0 (Memref.isWhole_whole _) scM7_1 (Memref.isWhole_whole _) (fun h => h0 ((hcond7_0 t).mp h)) ((hcond7_1 t).mpr h1) (iblk7 V c 0 t) (outsAt7 V c (t.val - 1) (Nat.lt_of_le_of_lt (Nat.sub_le _ _) t.isLt)).2.2.1 (outsAt7 V c (t.val - 1) (Nat.lt_of_le_of_lt (Nat.sub_le _ _) t.isLt)).2.2.2, out7_C_2 c (grid7.coords t) (ms7_0 t) (hs7_0 t) (ms7_1 t) (hs7_1 t) (ms7_2 t) (hs7_2 t) scM7_0 (Memref.isWhole_whole _) scM7_1 (Memref.isWhole_whole _) (fun h => h0 ((hcond7_0 t).mp h)) ((hcond7_1 t).mpr h1) (iblk7 V c 0 t) (outsAt7 V c (t.val - 1) (Nat.lt_of_le_of_lt (Nat.sub_le _ _) t.isLt)).2.2.1 (outsAt7 V c (t.val - 1) (Nat.lt_of_le_of_lt (Nat.sub_le _ _) t.isLt)).2.2.2, sout7_C_0 c (grid7.coords t) (ms7_0 t) (hs7_0 t) (ms7_1 t) (hs7_1 t) (ms7_2 t) (hs7_2 t) scM7_0 (Memref.isWhole_whole _) scM7_1 (Memref.isWhole_whole _) (fun h => h0 ((hcond7_0 t).mp h)) ((hcond7_1 t).mpr h1) (iblk7 V c 0 t) (outsAt7 V c (t.val - 1) (Nat.lt_of_le_of_lt (Nat.sub_le _ _) t.isLt)).2.2.1 (outsAt7 V c (t.val - 1) (Nat.lt_of_le_of_lt (Nat.sub_le _ _) t.isLt)).2.2.2, sout7_C_1 c (grid7.coords t) (ms7_0 t) (hs7_0 t) (ms7_1 t) (hs7_1 t) (ms7_2 t) (hs7_2 t) scM7_0 (Memref.isWhole_whole _) scM7_1 (Memref.isWhole_whole _) (fun h => h0 ((hcond7_0 t).mp h)) ((hcond7_1 t).mpr h1) (iblk7 V c 0 t) (outsAt7 V c (t.val - 1) (Nat.lt_of_le_of_lt (Nat.sub_le _ _) t.isLt)).2.2.1 (outsAt7 V c (t.val - 1) (Nat.lt_of_le_of_lt (Nat.sub_le _ _) t.isLt)).2.2.2) := by
  obtain ⟨n, hn⟩ := t
  cases n with
  | zero => exact absurd rfl h0
  | succ n => exact (dif_pos h1).trans rfl

/-! ## The region invariant -/

/-- Before position `n`: before the first point the class's invariant (every scoped buffer at anything); afterwards the
    two scratch rows at what the point before left in them, the other scoped buffers at anything, the generator
    register at some state. -/
def PhiS7 (c : Dev nD) : (n : ℕ) → n ≤ cfg7.N → sProp 𝕄
  | 0, _ => Pipeline.ΦA spec7 c
  | n + 1, hn => iprop((iprop(owns (c : Thread nD τ) scM7_0 fullShare (outsAt7 V c n hn).2.2.1 ∗ owns (c : Thread nD τ) scM7_1 fullShare (outsAt7 V c n hn).2.2.2)
      ∗ Pipeline.scopedRestBut (Ix := Unit) (Name := ℕ) (U := UR sig nD τ) (Lvl := ℕ) (Val := Elt F) spec7 c [cc7_scratch0, cc7_scratch1]) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop((iprop(owns (c : Thread nD τ) scM7_0 fullShare (outsAt7 V c n hn).2.2.1 ∗ owns (c : Thread nD τ) scM7_1 fullShare (outsAt7 V c n hn).2.2.2)
      ∗ Pipeline.scopedRestBut (Ix := Unit) (Name := ℕ) (U := UR sig nD τ) (Lvl := ℕ) (Val := Elt F) spec7 c [cc7_scratch0, cc7_scratch1]) ∗ (∃ r, prngReg c r)) := rfl

theorem PhiS7_pos (c : Dev nD) (n : ℕ) (h : n ≤ cfg7.N) (hz : n ≠ 0) :
    PhiS7 V c n h = iprop((iprop(owns (c : Thread nD τ) scM7_0 fullShare (outsAt7 V c (n - 1) (by omega)).2.2.1 ∗ owns (c : Thread nD τ) scM7_1 fullShare (outsAt7 V c (n - 1) (by omega)).2.2.2)
      ∗ Pipeline.scopedRestBut (Ix := Unit) (Name := ℕ) (U := UR sig nD τ) (Lvl := ℕ) (Val := Elt F) spec7 c [cc7_scratch0, cc7_scratch1]) ∗ (∃ r, prngReg c r)) := by
  cases n with
  | zero => exact absurd rfl hz
  | succ n => rfl

/-! ## The pipeline's proof data -/

/-- The proof data of the region on core `c`: the arrays as the region finds them (`V`); after the body at point `t`
    each input's buffer at its block and the outputs' at `outsAt7`; the invariant `PhiS7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => (outsAt7 V c t.val t.isLt).1
    | ⟨2, _⟩ => (outsAt7 V c t.val t.isLt).2.1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = (outsAt7 V c t.val t.isLt).1 := by dsimp only [dat7]
theorem after7_2 (c : Dev nD) (t : Fin cfg7.N) : (dat7 V c).after 2 t = (outsAt7 V c t.val t.isLt).2.1 := by dsimp only [dat7]

theorem before7_0 (c : Dev nD) (t : Fin cfg7.N) (d) : (dat7 V c).before 0 t d = iblk7 V c 0 t :=
  before7_0_of V (dat7 V c) (A_eq7 V c 0) (after7_0 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

set_option maxHeartbeats 4800000 in
/-- The body at the first point: the invariant hands it the scratch rows at anything and takes them back at this point's contents; the output windows, idle, are handed back untouched. -/
theorem sound_body7_A (c : Dev nD) (t : Fin cfg7.N) (h0 : t.val = 0) (h1 : ¬t.val = 9) :
    bodyPre7 V c t ⊢ wp frame (wpE (defs₀ (F := F)) Variants.none c none) Set.univ (bodyAt7 t) (fun _ => bodyPost7 V c t) := by
  unfold bodyPre7 bodyPost7 bodyAt7
  simp only [before7_0]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (ms7_0 t) fullShare ((dat7 V c).after 0 t) from by
    unfold Dat.leavesExact; rw [liveAt7_0 t], after7_0]
  rw [Dat.leavesExact_idle (dat7 V c) 1 t (idleAt7_1_A t ((hcond7_0 t).mpr h0) (fun h => h1 ((hcond7_1 t).mp h))) (noFlush7_1_A t ((hcond7_0 t).mpr h0) (fun h => h1 ((hcond7_1 t).mp h)))]
  rw [Dat.leavesExact_idle (dat7 V c) 2 t (idleAt7_2_A t ((hcond7_0 t).mpr h0) (fun h => h1 ((hcond7_1 t).mp h))) (noFlush7_2_A t ((hcond7_0 t).mpr h0) (fun h => h1 ((hcond7_1 t).mp h)))]
  rw [outsAt7_A V c t h0 h1]
  unfold sout7_A_0 sout7_A_1; (try dsimp only)
  rw [PhiS7_castSucc V c t, PhiS7_zero V c _ _ h0, PhiA7_eq]
  iintro ⟨⟨⟨⟨HS0, HS1⟩, Hb⟩, Hg⟩, Ho, ⟨%d0, H0⟩, ⟨%d1, H1⟩, ⟨%d2, H2⟩⟩
  iapply ((kernelRun7_A c (grid7.coords t) _ _ _ _ _ _ _ _ _ _ ((hcond7_0 t).mpr h0) (fun h => h1 ((hcond7_1 t).mp h)) (iblk7 V c 0 t)).2.2.2.2 _ _ Set.univ _)
  isplitl [H0]; · iexact H0
  isplitl [H1]; · iexact H1
  isplitl [H2]; · iexact H2
  isplitl [HS0]; · iexact HS0
  isplitl [HS1]; · iexact HS1
  iintro ⟨H0, H1, H2, ⟨%es0, HS0⟩, ⟨%es1, HS1⟩⟩
  isplitl [HS0 HS1 Hb Hg]
  · isplitl [HS0 HS1 Hb]
    · isplitl [HS0 HS1]
      · isplitl [HS0]
        · unfold owns; iexists _; isplitr
          swap; · iexact HS0
          ipureintro; exact View.read_writes_of_cover _ _ _ _ _ (scover7_A_0 c _ _ _ _ _ _ _ _ _ _ _ _ _ _)
        · unfold owns; iexists _; isplitr
          swap; · iexact HS1
          ipureintro; exact View.read_writes_of_cover _ _ _ _ _ (scover7_A_1 c _ _ _ _ _ _ _ _ _ _ _ _ _ _)
      · iexact Hb
    · iexact Hg
  isplitl [Ho]; · iexact Ho
  isplitl [H0]; · iexact H0
  isplitl [H1]; · iexists _; iexact H1
  iexists _; iexact H2

set_option maxHeartbeats 4800000 in
/-- The body at a middle point: the invariant hands it the scratch rows at what the point before left and takes them back at this point's contents; the output windows, idle, are handed back untouched. -/
theorem sound_body7_B (c : Dev nD) (t : Fin cfg7.N) (h0 : ¬t.val = 0) (h1 : ¬t.val = 9) :
    bodyPre7 V c t ⊢ wp frame (wpE (defs₀ (F := F)) Variants.none c none) Set.univ (bodyAt7 t) (fun _ => bodyPost7 V c t) := by
  unfold bodyPre7 bodyPost7 bodyAt7
  simp only [before7_0]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (ms7_0 t) fullShare ((dat7 V c).after 0 t) from by
    unfold Dat.leavesExact; rw [liveAt7_0 t], after7_0]
  rw [Dat.leavesExact_idle (dat7 V c) 1 t (idleAt7_1_B t (fun h => h0 ((hcond7_0 t).mp h)) (fun h => h1 ((hcond7_1 t).mp h))) (noFlush7_1_B t (fun h => h0 ((hcond7_0 t).mp h)) (fun h => h1 ((hcond7_1 t).mp h)))]
  rw [Dat.leavesExact_idle (dat7 V c) 2 t (idleAt7_2_B t (fun h => h0 ((hcond7_0 t).mp h)) (fun h => h1 ((hcond7_1 t).mp h))) (noFlush7_2_B t (fun h => h0 ((hcond7_0 t).mp h)) (fun h => h1 ((hcond7_1 t).mp h)))]
  rw [outsAt7_B V c t h0 h1]
  unfold sout7_B_0 sout7_B_1; (try dsimp only)
  rw [PhiS7_castSucc V c t, PhiS7_pos V c _ _ h0]
  iintro ⟨⟨⟨⟨HS0, HS1⟩, Hb⟩, Hg⟩, Ho, ⟨%d0, H0⟩, ⟨%d1, H1⟩, ⟨%d2, H2⟩⟩
  iapply ((kernelRun7_B c (grid7.coords t) _ _ _ _ _ _ _ _ _ _ (fun h => h0 ((hcond7_0 t).mp h)) (fun h => h1 ((hcond7_1 t).mp h)) (iblk7 V c 0 t) _ _).2.2.2.2 _ _ Set.univ _)
  isplitl [H0]; · iexact H0
  isplitl [H1]; · iexact H1
  isplitl [H2]; · iexact H2
  isplitl [HS0]; · iexact HS0
  isplitl [HS1]; · iexact HS1
  iintro ⟨H0, H1, H2, ⟨%es0, HS0⟩, ⟨%es1, HS1⟩⟩
  isplitl [HS0 HS1 Hb Hg]
  · isplitl [HS0 HS1 Hb]
    · isplitl [HS0 HS1]
      · isplitl [HS0]
        · unfold owns; iexists _; isplitr
          swap; · iexact HS0
          ipureintro; exact View.read_writes_of_cover _ _ _ _ _ (scover7_B_0 c _ _ _ _ _ _ _ _ _ _ _ _ _ _ _ _)
        · unfold owns; iexists _; isplitr
          swap; · iexact HS1
          ipureintro; exact View.read_writes_of_cover _ _ _ _ _ (scover7_B_1 c _ _ _ _ _ _ _ _ _ _ _ _ _ _ _ _)
      · iexact Hb
    · iexact Hg
  isplitl [Ho]; · iexact Ho
  isplitl [H0]; · iexact H0
  isplitl [H1]; · iexists _; iexact H1
  iexists _; iexact H2

set_option maxHeartbeats 4800000 in
/-- The body at the last point: the invariant hands it the scratch rows at what the point before left and takes them back at this point's contents; the output windows are left at the copied rows. -/
theorem sound_body7_C (c : Dev nD) (t : Fin cfg7.N) (h0 : ¬t.val = 0) (h1 : t.val = 9) :
    bodyPre7 V c t ⊢ wp frame (wpE (defs₀ (F := F)) Variants.none c none) Set.univ (bodyAt7 t) (fun _ => bodyPost7 V c t) := by
  unfold bodyPre7 bodyPost7 bodyAt7
  simp only [before7_0]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1_C t (fun h => h0 ((hcond7_0 t).mp h)) ((hcond7_1 t).mpr h1)], after7_1]
  rw [show (dat7 V c).leavesExact 2 t = owns (c : Thread nD τ) (ms7_2 t) fullShare ((dat7 V c).after 2 t) from by
    unfold Dat.leavesExact; rw [liveAt7_2_C t (fun h => h0 ((hcond7_0 t).mp h)) ((hcond7_1 t).mpr h1)], after7_2]
  rw [outsAt7_C V c t h0 h1]
  unfold out7_C_1 out7_C_2 sout7_C_0 sout7_C_1; (try dsimp only)
  rw [PhiS7_castSucc V c t, PhiS7_pos V c _ _ h0]
  iintro ⟨⟨⟨⟨HS0, HS1⟩, Hb⟩, Hg⟩, Ho, ⟨%d0, H0⟩, ⟨%d1, H1⟩, ⟨%d2, H2⟩⟩
  iapply ((kernelRun7_C c (grid7.coords t) _ _ _ _ _ _ _ _ _ _ (fun h => h0 ((hcond7_0 t).mp h)) ((hcond7_1 t).mpr h1) (iblk7 V c 0 t) _ _).2.2.2.2 Set.univ _)
  isplitl [H0]; · iexact H0
  isplitl [H1]; · iexists _; iexact H1
  isplitl [H2]; · iexists _; iexact H2
  isplitl [HS0]; · iexact HS0
  isplitl [HS1]; · iexact HS1
  iintro ⟨H0, ⟨%e1, H1⟩, ⟨%e2, H2⟩, ⟨%es0, HS0⟩, ⟨%es1, HS1⟩⟩
  isplitl [HS0 HS1 Hb Hg]
  · isplitl [HS0 HS1 Hb]
    · isplitl [HS0 HS1]
      · isplitl [HS0]
        · unfold owns; iexists _; isplitr
          swap; · iexact HS0
          ipureintro; exact View.read_writes_of_cover _ _ _ _ _ (scover7_C_0 c _ _ _ _ _ _ _ _ _ _ _ _ _ _ _ _)
        · unfold owns; iexists _; isplitr
          swap; · iexact HS1
          ipureintro; exact View.read_writes_of_cover _ _ _ _ _ (scover7_C_1 c _ _ _ _ _ _ _ _ _ _ _ _ _ _ _ _)
      · iexact Hb
    · iexact Hg
  isplitl [Ho]; · iexact Ho
  isplitl [H0]; · iexact H0
  isplitl [H1]
  · unfold owns; iexists _; isplitr
    swap; · iexact H1
    ipureintro; exact View.read_writes_of_cover _ _ _ _ _ (cover7_C_1 c _ _ _ _ _ _ _ _ _ _ _ _ _ _ _ _)
  unfold owns; iexists _; isplitr
  swap; · iexact H2
  ipureintro; exact View.read_writes_of_cover _ _ _ _ _ (cover7_C_2 c _ _ _ _ _ _ _ _ _ _ _ _ _ _ _ _)

/-- The body at any point: the closed forms say which of the three cases the point is in. -/
theorem sound_body7 (c : Dev nD) (t : Fin cfg7.N) :
    bodyPre7 V c t ⊢ wp frame (wpE (defs₀ (F := F)) Variants.none c none) Set.univ (bodyAt7 t) (fun _ => bodyPost7 V c t) := by
  have hN : t.val < 10 := lt_of_lt_of_eq t.isLt (show cfg7.N = 10 from N_7)
  by_cases h0 : t.val = 0
  · exact sound_body7_A V c t h0 (by omega)
  · by_cases h1 : t.val = 9
    · exact sound_body7_C V c t h0 h1
    · exact sound_body7_B V c t h0 h1

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After any point but the first the invariant gives the class's back: the scratch rows' named contents are forgotten. -/
theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨⟨HS0, HS1⟩, Hb⟩, Hg⟩
  isplitl [HS0 HS1 Hb]
  · isplitl [HS0 HS1]
    · isplitl [HS0]
      · iexists _; iexact HS0
      · iexists _; iexact HS1
    · iexact Hb
  iexact Hg

/-- The same after the last point. -/
theorem hout7 (c : Dev nD) : (dat7 V c).Φ (Fin.last cfg7.N) ⊢ Pipeline.ΦA spec7 c :=
  Phi_out7 V c _ (by rw [Fin.val_last]; have : cfg7.N = 10 := N_7; omega)

end Cert.KernelIdeal.Hand

end
-- ==== Proof.KI.RunFold.lean ====
/-
  The kernel program's run, first half: what every buffer of a core holds at each boundary between the program's
  sixteen items (seven stretches of host operations and nine pipelined regions), as a fold from the launch memory.

  A stretch of host operations takes the contents to `StableHlo.after` of its operations.  A region takes them to the
  same contents with the region's arrays replaced by what its pipeline leaves in them (each input as it was found, each
  output with the write-backs of all points folded in).  Two regions in a row chain directly: the second is entered
  from the first one's exit contents.

  Besides the fold: per region the two facts that identify its exit contents (at its arrays, and away from them); per
  item a lemma saying that a buffer the item does not write is left alone; and each argument array read back through
  all sixteen items to the launch memory.
-/
import proofs.«115743_j55052890800725_2_alg».proof.Proof.KI.BodyA0
import proofs.«115743_j55052890800725_2_alg».proof.Proof.KI.BodyA2
import proofs.«115743_j55052890800725_2_alg».proof.Proof.KI.BodyA3
import proofs.«115743_j55052890800725_2_alg».proof.Proof.KI.BodyA5
import proofs.«115743_j55052890800725_2_alg».proof.Proof.KI.BodyA6
import proofs.«115743_j55052890800725_2_alg».proof.Proof.KI.BodyA8
import proofs.«115743_j55052890800725_2_alg».proof.Proof.KI.BodyR1
import proofs.«115743_j55052890800725_2_alg».proof.Proof.KI.BodyR4
import proofs.«115743_j55052890800725_2_alg».proof.Proof.KI.BodyR7
import proofs.«115743_j55052890800725_2_alg».proof.Proof.Gen.KernelIdeal.Regions
import proofs.«115743_j55052890800725_2_alg».proof.Proof.LibRegionKeepOuts
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- Core `c`'s buffers at launch. -/
abbrev W0 : Dev nD → Valuation τ sig (Elt F) := fun c b => (s₀ m ρ).mem ((c : Dev nD), b)

/-- After `hostOps0` (item 0). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- A buffer `hostOps0` does not write is left as it was. -/
theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h

/-- At region 0's exit (item 1): its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- Region 0's output windows' arrays. -/
theorem outs0_mem : ∀ w : Fin cfg0.W, (cfg0.win w).isOut = true → Pipeline.arrRef spec0 w ∈ ([main_v13] : List (Ref sig .tc)) := by decide
/-- A buffer that is none of region 0's output arrays is left as it was: an input array is only read, any other
    buffer bypasses the region. -/
theorem W2_keep (c : Dev nD) (r : Ref sig .tc) (h : r ∉ ([main_v13] : List (Ref sig .tc))) :
    W2 m ρ c (Proc.devRef .tc r) = W1 m ρ c (Proc.devRef .tc r) := by
  unfold W2
  exact Cert.RegionOp.withArrays_keep_outs spec0 launch0.win.arr_inj c _ _ (fun w => (cfg0.win w).isOut)
    (fun w hw => ((dat0 (V1 m ρ) c).arrAt_in w hw _).trans (A_eq0 (V1 m ρ) c w)) r
    (fun w hw e => h (by rw [e]; exact outs0_mem w hw))

/-- After `hostOps1` (item 2). -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- A buffer `hostOps1` does not write is left as it was. -/
theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h

/-- At region 1's exit (item 3): its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- Region 1's output windows' arrays. -/
theorem outs1_mem : ∀ w : Fin cfg1.W, (cfg1.win w).isOut = true → Pipeline.arrRef spec1 w ∈ ([main_v26_0, main_v26_1] : List (Ref sig .tc)) := by decide
/-- A buffer that is none of region 1's output arrays is left as it was: an input array is only read, any other
    buffer bypasses the region. -/
theorem W4_keep (c : Dev nD) (r : Ref sig .tc) (h : r ∉ ([main_v26_0, main_v26_1] : List (Ref sig .tc))) :
    W4 m ρ c (Proc.devRef .tc r) = W3 m ρ c (Proc.devRef .tc r) := by
  unfold W4
  exact Cert.RegionOp.withArrays_keep_outs spec1 launch1.win.arr_inj c _ _ (fun w => (cfg1.win w).isOut)
    (fun w hw => ((dat1 (V3 m ρ) c).arrAt_in w hw _).trans (A_eq1 (V3 m ρ) c w)) r
    (fun w hw e => h (by rw [e]; exact outs1_mem w hw))

/-- After `hostOps2` (item 4). -/
abbrev W5 : Dev nD → Valuation τ sig (Elt F) := fun c => StableHlo.after hostOps2 (W4 m ρ c)
/-- The same read at the TensorCore's references. -/
abbrev V5 : (c : Dev nD) → (b : Ref sig .tc) → Buf (Elt F) ((c : Thread nD τ).loc b) := fun c b => W5 m ρ c b
/-- A buffer `hostOps2` does not write is left as it was. -/
theorem W5_keep (c : Dev nD) (r : Ref sig .tc) (h : r ∉ hostOps2_W) :
    W5 m ρ c (Proc.devRef .tc r) = W4 m ρ c (Proc.devRef .tc r) :=
  StableHlo.after_of_writes_sub hostOps2 _ hostOps2_writes h

/-- At region 2's exit (item 5): its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- Region 2's output windows' arrays. -/
theorem outs2_mem : ∀ w : Fin cfg2.W, (cfg2.win w).isOut = true → Pipeline.arrRef spec2 w ∈ ([main_v40] : List (Ref sig .tc)) := by decide
/-- A buffer that is none of region 2's output arrays is left as it was: an input array is only read, any other
    buffer bypasses the region. -/
theorem W6_keep (c : Dev nD) (r : Ref sig .tc) (h : r ∉ ([main_v40] : List (Ref sig .tc))) :
    W6 m ρ c (Proc.devRef .tc r) = W5 m ρ c (Proc.devRef .tc r) := by
  unfold W6
  exact Cert.RegionOp.withArrays_keep_outs spec2 launch2.win.arr_inj c _ _ (fun w => (cfg2.win w).isOut)
    (fun w hw => ((dat2 (V5 m ρ) c).arrAt_in w hw _).trans (A_eq2 (V5 m ρ) c w)) r
    (fun w hw e => h (by rw [e]; exact outs2_mem w hw))

/-- At region 3's exit (item 6): its arrays at what the pipeline leaves, every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- The same read at the TensorCore's references (region 3's exit contents). -/
abbrev V7 : (c : Dev nD) → (b : Ref sig .tc) → Buf (Elt F) ((c : Thread nD τ).loc b) := fun c b => W7 m ρ c b
/-- At region 3's exit each of its arrays holds what the pipeline leaves, and every other buffer what it held at entry. -/
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)
/-- Region 3's output windows' arrays. -/
theorem outs3_mem : ∀ w : Fin cfg3.W, (cfg3.win w).isOut = true → Pipeline.arrRef spec3 w ∈ ([main_v41] : List (Ref sig .tc)) := by decide
/-- A buffer that is none of region 3's output arrays is left as it was: an input array is only read, any other
    buffer bypasses the region. -/
theorem W7_keep (c : Dev nD) (r : Ref sig .tc) (h : r ∉ ([main_v41] : List (Ref sig .tc))) :
    W7 m ρ c (Proc.devRef .tc r) = W6 m ρ c (Proc.devRef .tc r) := by
  unfold W7
  exact Cert.RegionOp.withArrays_keep_outs spec3 launch3.win.arr_inj c _ _ (fun w => (cfg3.win w).isOut)
    (fun w hw => ((dat3 (V6 m ρ) c).arrAt_in w hw _).trans (A_eq3 (V6 m ρ) c w)) r
    (fun w hw e => h (by rw [e]; exact outs3_mem w hw))

/-- After `hostOps4` (item 7). -/
abbrev W8 : Dev nD → Valuation τ sig (Elt F) := fun c => StableHlo.after hostOps4 (W7 m ρ c)
/-- The same read at the TensorCore's references. -/
abbrev V8 : (c : Dev nD) → (b : Ref sig .tc) → Buf (Elt F) ((c : Thread nD τ).loc b) := fun c b => W8 m ρ c b
/-- A buffer `hostOps4` does not write is left as it was. -/
theorem W8_keep (c : Dev nD) (r : Ref sig .tc) (h : r ∉ hostOps4_W) :
    W8 m ρ c (Proc.devRef .tc r) = W7 m ρ c (Proc.devRef .tc r) :=
  StableHlo.after_of_writes_sub hostOps4 _ hostOps4_writes h

/-- At region 4's exit (item 8): its arrays at what the pipeline leaves, every other buffer as entered. -/
def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
/-- The same read at the TensorCore's references (region 4's exit contents). -/
abbrev V9 : (c : Dev nD) → (b : Ref sig .tc) → Buf (Elt F) ((c : Thread nD τ).loc b) := fun c b => W9 m ρ c b
/-- At region 4's exit each of its arrays holds what the pipeline leaves, and every other buffer what it held at entry. -/
theorem hF4 (c : Dev nD) (w : Fin cfg4.W) : (dat4 (V8 m ρ) c).arrAt w cfg4.N = V9 m ρ c (Pipeline.arrRef spec4 w) :=
  (W9_arr m ρ c w).symm
theorem hrest4 (c : Dev nD) : ∀ b, b ∉ Finset.univ.image (Pipeline.arrRef spec4) → V9 m ρ c b = V8 m ρ c b :=
  fun b hb => W9_of_ne m ρ c b fun w e => hb (Finset.mem_image.mpr ⟨w, Finset.mem_univ _, e⟩)
/-- Region 4's output windows' arrays. -/
theorem outs4_mem : ∀ w : Fin cfg4.W, (cfg4.win w).isOut = true → Pipeline.arrRef spec4 w ∈ ([main_v54_0, main_v54_1] : List (Ref sig .tc)) := by decide
/-- A buffer that is none of region 4's output arrays is left as it was: an input array is only read, any other
    buffer bypasses the region. -/
theorem W9_keep (c : Dev nD) (r : Ref sig .tc) (h : r ∉ ([main_v54_0, main_v54_1] : List (Ref sig .tc))) :
    W9 m ρ c (Proc.devRef .tc r) = W8 m ρ c (Proc.devRef .tc r) := by
  unfold W9
  exact Cert.RegionOp.withArrays_keep_outs spec4 launch4.win.arr_inj c _ _ (fun w => (cfg4.win w).isOut)
    (fun w hw => ((dat4 (V8 m ρ) c).arrAt_in w hw _).trans (A_eq4 (V8 m ρ) c w)) r
    (fun w hw e => h (by rw [e]; exact outs4_mem w hw))

/-- After `hostOps5` (item 9). -/
abbrev W10 : Dev nD → Valuation τ sig (Elt F) := fun c => StableHlo.after hostOps5 (W9 m ρ c)
/-- The same read at the TensorCore's references. -/
abbrev V10 : (c : Dev nD) → (b : Ref sig .tc) → Buf (Elt F) ((c : Thread nD τ).loc b) := fun c b => W10 m ρ c b
/-- A buffer `hostOps5` does not write is left as it was. -/
theorem W10_keep (c : Dev nD) (r : Ref sig .tc) (h : r ∉ hostOps5_W) :
    W10 m ρ c (Proc.devRef .tc r) = W9 m ρ c (Proc.devRef .tc r) :=
  StableHlo.after_of_writes_sub hostOps5 _ hostOps5_writes h

/-- At region 5's exit (item 10): its arrays at what the pipeline leaves, every other buffer as entered. -/
def W11 (c : Dev nD) : Valuation τ sig (Elt F) :=
  Pipeline.withArrays spec5 c (W10 m ρ c) fun w => (dat5 (V10 m ρ) c).arrAt w cfg5.N
theorem W11_arr (c : Dev nD) (w : Fin cfg5.W) :
    W11 m ρ c (Proc.devRef .tc (Pipeline.arrRef spec5 w)) = (dat5 (V10 m ρ) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m ρ c (Proc.devRef .tc b) = W10 m ρ c (Proc.devRef .tc b) := by
  unfold W11; exact Pipeline.withArrays_of_ne spec5 c _ _ b hb
/-- The same read at the TensorCore's references (region 5's exit contents). -/
abbrev V11 : (c : Dev nD) → (b : Ref sig .tc) → Buf (Elt F) ((c : Thread nD τ).loc b) := fun c b => W11 m ρ c b
/-- At region 5's exit each of its arrays holds what the pipeline leaves, and every other buffer what it held at entry. -/
theorem hF5 (c : Dev nD) (w : Fin cfg5.W) : (dat5 (V10 m ρ) c).arrAt w cfg5.N = V11 m ρ c (Pipeline.arrRef spec5 w) :=
  (W11_arr m ρ c w).symm
theorem hrest5 (c : Dev nD) : ∀ b, b ∉ Finset.univ.image (Pipeline.arrRef spec5) → V11 m ρ c b = V10 m ρ c b :=
  fun b hb => W11_of_ne m ρ c b fun w e => hb (Finset.mem_image.mpr ⟨w, Finset.mem_univ _, e⟩)
/-- Region 5's output windows' arrays. -/
theorem outs5_mem : ∀ w : Fin cfg5.W, (cfg5.win w).isOut = true → Pipeline.arrRef spec5 w ∈ ([main_v68] : List (Ref sig .tc)) := by decide
/-- A buffer that is none of region 5's output arrays is left as it was: an input array is only read, any other
    buffer bypasses the region. -/
theorem W11_keep (c : Dev nD) (r : Ref sig .tc) (h : r ∉ ([main_v68] : List (Ref sig .tc))) :
    W11 m ρ c (Proc.devRef .tc r) = W10 m ρ c (Proc.devRef .tc r) := by
  unfold W11
  exact Cert.RegionOp.withArrays_keep_outs spec5 launch5.win.arr_inj c _ _ (fun w => (cfg5.win w).isOut)
    (fun w hw => ((dat5 (V10 m ρ) c).arrAt_in w hw _).trans (A_eq5 (V10 m ρ) c w)) r
    (fun w hw e => h (by rw [e]; exact outs5_mem w hw))

/-- After `hostOps6` (item 11). -/
abbrev W12 : Dev nD → Valuation τ sig (Elt F) := fun c => StableHlo.after hostOps6 (W11 m ρ c)
/-- The same read at the TensorCore's references. -/
abbrev V12 : (c : Dev nD) → (b : Ref sig .tc) → Buf (Elt F) ((c : Thread nD τ).loc b) := fun c b => W12 m ρ c b
/-- A buffer `hostOps6` does not write is left as it was. -/
theorem W12_keep (c : Dev nD) (r : Ref sig .tc) (h : r ∉ hostOps6_W) :
    W12 m ρ c (Proc.devRef .tc r) = W11 m ρ c (Proc.devRef .tc r) :=
  StableHlo.after_of_writes_sub hostOps6 _ hostOps6_writes h

/-- At region 6's exit (item 12): its arrays at what the pipeline leaves, every other buffer as entered. -/
def W13 (c : Dev nD) : Valuation τ sig (Elt F) :=
  Pipeline.withArrays spec6 c (W12 m ρ c) fun w => (dat6 (V12 m ρ) c).arrAt w cfg6.N
theorem W13_arr (c : Dev nD) (w : Fin cfg6.W) :
    W13 m ρ c (Proc.devRef .tc (Pipeline.arrRef spec6 w)) = (dat6 (V12 m ρ) c).arrAt w cfg6.N := by
  unfold W13; exact Pipeline.withArrays_arr spec6 launch6.win.arr_inj c _ _ w
theorem W13_of_ne (c : Dev nD) (b : Ref sig .tc) (hb : ∀ w, Pipeline.arrRef spec6 w ≠ b) :
    W13 m ρ c (Proc.devRef .tc b) = W12 m ρ c (Proc.devRef .tc b) := by
  unfold W13; exact Pipeline.withArrays_of_ne spec6 c _ _ b hb
/-- The same read at the TensorCore's references (region 6's exit contents). -/
abbrev V13 : (c : Dev nD) → (b : Ref sig .tc) → Buf (Elt F) ((c : Thread nD τ).loc b) := fun c b => W13 m ρ c b
/-- At region 6's exit each of its arrays holds what the pipeline leaves, and every other buffer what it held at entry. -/
theorem hF6 (c : Dev nD) (w : Fin cfg6.W) : (dat6 (V12 m ρ) c).arrAt w cfg6.N = V13 m ρ c (Pipeline.arrRef spec6 w) :=
  (W13_arr m ρ c w).symm
theorem hrest6 (c : Dev nD) : ∀ b, b ∉ Finset.univ.image (Pipeline.arrRef spec6) → V13 m ρ c b = V12 m ρ c b :=
  fun b hb => W13_of_ne m ρ c b fun w e => hb (Finset.mem_image.mpr ⟨w, Finset.mem_univ _, e⟩)
/-- Region 6's output windows' arrays. -/
theorem outs6_mem : ∀ w : Fin cfg6.W, (cfg6.win w).isOut = true → Pipeline.arrRef spec6 w ∈ ([main_v70] : List (Ref sig .tc)) := by decide
/-- A buffer that is none of region 6's output arrays is left as it was: an input array is only read, any other
    buffer bypasses the region. -/
theorem W13_keep (c : Dev nD) (r : Ref sig .tc) (h : r ∉ ([main_v70] : List (Ref sig .tc))) :
    W13 m ρ c (Proc.devRef .tc r) = W12 m ρ c (Proc.devRef .tc r) := by
  unfold W13
  exact Cert.RegionOp.withArrays_keep_outs spec6 launch6.win.arr_inj c _ _ (fun w => (cfg6.win w).isOut)
    (fun w hw => ((dat6 (V12 m ρ) c).arrAt_in w hw _).trans (A_eq6 (V12 m ρ) c w)) r
    (fun w hw e => h (by rw [e]; exact outs6_mem w hw))

/-- At region 7's exit (item 13): its arrays at what the pipeline leaves, every other buffer as entered. -/
def W14 (c : Dev nD) : Valuation τ sig (Elt F) :=
  Pipeline.withArrays spec7 c (W13 m ρ c) fun w => (dat7 (V13 m ρ) c).arrAt w cfg7.N
theorem W14_arr (c : Dev nD) (w : Fin cfg7.W) :
    W14 m ρ c (Proc.devRef .tc (Pipeline.arrRef spec7 w)) = (dat7 (V13 m ρ) c).arrAt w cfg7.N := by
  unfold W14; exact Pipeline.withArrays_arr spec7 launch7.win.arr_inj c _ _ w
theorem W14_of_ne (c : Dev nD) (b : Ref sig .tc) (hb : ∀ w, Pipeline.arrRef spec7 w ≠ b) :
    W14 m ρ c (Proc.devRef .tc b) = W13 m ρ c (Proc.devRef .tc b) := by
  unfold W14; exact Pipeline.withArrays_of_ne spec7 c _ _ b hb
/-- The same read at the TensorCore's references (region 7's exit contents). -/
abbrev V14 : (c : Dev nD) → (b : Ref sig .tc) → Buf (Elt F) ((c : Thread nD τ).loc b) := fun c b => W14 m ρ c b
/-- At region 7's exit each of its arrays holds what the pipeline leaves, and every other buffer what it held at entry. -/
theorem hF7 (c : Dev nD) (w : Fin cfg7.W) : (dat7 (V13 m ρ) c).arrAt w cfg7.N = V14 m ρ c (Pipeline.arrRef spec7 w) :=
  (W14_arr m ρ c w).symm
theorem hrest7 (c : Dev nD) : ∀ b, b ∉ Finset.univ.image (Pipeline.arrRef spec7) → V14 m ρ c b = V13 m ρ c b :=
  fun b hb => W14_of_ne m ρ c b fun w e => hb (Finset.mem_image.mpr ⟨w, Finset.mem_univ _, e⟩)
/-- Region 7's output windows' arrays. -/
theorem outs7_mem : ∀ w : Fin cfg7.W, (cfg7.win w).isOut = true → Pipeline.arrRef spec7 w ∈ ([main_v71_0, main_v71_1] : List (Ref sig .tc)) := by decide
/-- A buffer that is none of region 7's output arrays is left as it was: an input array is only read, any other
    buffer bypasses the region. -/
theorem W14_keep (c : Dev nD) (r : Ref sig .tc) (h : r ∉ ([main_v71_0, main_v71_1] : List (Ref sig .tc))) :
    W14 m ρ c (Proc.devRef .tc r) = W13 m ρ c (Proc.devRef .tc r) := by
  unfold W14
  exact Cert.RegionOp.withArrays_keep_outs spec7 launch7.win.arr_inj c _ _ (fun w => (cfg7.win w).isOut)
    (fun w hw => ((dat7 (V13 m ρ) c).arrAt_in w hw _).trans (A_eq7 (V13 m ρ) c w)) r
    (fun w hw e => h (by rw [e]; exact outs7_mem w hw))

/-- After `hostOps8` (item 14). -/
abbrev W15 : Dev nD → Valuation τ sig (Elt F) := fun c => StableHlo.after hostOps8 (W14 m ρ c)
/-- The same read at the TensorCore's references. -/
abbrev V15 : (c : Dev nD) → (b : Ref sig .tc) → Buf (Elt F) ((c : Thread nD τ).loc b) := fun c b => W15 m ρ c b
/-- A buffer `hostOps8` does not write is left as it was. -/
theorem W15_keep (c : Dev nD) (r : Ref sig .tc) (h : r ∉ hostOps8_W) :
    W15 m ρ c (Proc.devRef .tc r) = W14 m ρ c (Proc.devRef .tc r) :=
  StableHlo.after_of_writes_sub hostOps8 _ hostOps8_writes h

/-- At region 8's exit (item 15): its arrays at what the pipeline leaves, every other buffer as entered. -/
def W16 (c : Dev nD) : Valuation τ sig (Elt F) :=
  Pipeline.withArrays spec8 c (W15 m ρ c) fun w => (dat8 (V15 m ρ) c).arrAt w cfg8.N
theorem W16_arr (c : Dev nD) (w : Fin cfg8.W) :
    W16 m ρ c (Proc.devRef .tc (Pipeline.arrRef spec8 w)) = (dat8 (V15 m ρ) c).arrAt w cfg8.N := by
  unfold W16; exact Pipeline.withArrays_arr spec8 launch8.win.arr_inj c _ _ w
theorem W16_of_ne (c : Dev nD) (b : Ref sig .tc) (hb : ∀ w, Pipeline.arrRef spec8 w ≠ b) :
    W16 m ρ c (Proc.devRef .tc b) = W15 m ρ c (Proc.devRef .tc b) := by
  unfold W16; exact Pipeline.withArrays_of_ne spec8 c _ _ b hb
/-- The same read at the TensorCore's references (region 8's exit contents). -/
abbrev V16 : (c : Dev nD) → (b : Ref sig .tc) → Buf (Elt F) ((c : Thread nD τ).loc b) := fun c b => W16 m ρ c b
/-- At region 8's exit each of its arrays holds what the pipeline leaves, and every other buffer what it held at entry. -/
theorem hF8 (c : Dev nD) (w : Fin cfg8.W) : (dat8 (V15 m ρ) c).arrAt w cfg8.N = V16 m ρ c (Pipeline.arrRef spec8 w) :=
  (W16_arr m ρ c w).symm
theorem hrest8 (c : Dev nD) : ∀ b, b ∉ Finset.univ.image (Pipeline.arrRef spec8) → V16 m ρ c b = V15 m ρ c b :=
  fun b hb => W16_of_ne m ρ c b fun w e => hb (Finset.mem_image.mpr ⟨w, Finset.mem_univ _, e⟩)
/-- Region 8's output windows' arrays. -/
theorem outs8_mem : ∀ w : Fin cfg8.W, (cfg8.win w).isOut = true → Pipeline.arrRef spec8 w ∈ ([main_v85] : List (Ref sig .tc)) := by decide
/-- A buffer that is none of region 8's output arrays is left as it was: an input array is only read, any other
    buffer bypasses the region. -/
theorem W16_keep (c : Dev nD) (r : Ref sig .tc) (h : r ∉ ([main_v85] : List (Ref sig .tc))) :
    W16 m ρ c (Proc.devRef .tc r) = W15 m ρ c (Proc.devRef .tc r) := by
  unfold W16
  exact Cert.RegionOp.withArrays_keep_outs spec8 launch8.win.arr_inj c _ _ (fun w => (cfg8.win w).isOut)
    (fun w hw => ((dat8 (V15 m ρ) c).arrAt_in w hw _).trans (A_eq8 (V15 m ρ) c w)) r
    (fun w hw e => h (by rw [e]; exact outs8_mem w hw))

/-! ## The arguments end as launched: no item writes one -/

theorem W16_main_arg0 (c : Dev nD) : W16 m ρ c (Proc.devRef .tc main_arg0) = m ((c : Thread nD τ).loc main_arg0) :=
  (W16_keep m ρ c main_arg0 (by decide)).trans <| (W15_keep m ρ c main_arg0 (by decide)).trans <| (W14_keep m ρ c main_arg0 (by decide)).trans <| (W13_keep m ρ c main_arg0 (by decide)).trans <| (W12_keep m ρ c main_arg0 (by decide)).trans <| (W11_keep m ρ c main_arg0 (by decide)).trans <| (W10_keep m ρ c main_arg0 (by decide)).trans <| (W9_keep m ρ c main_arg0 (by decide)).trans <| (W8_keep m ρ c main_arg0 (by decide)).trans <| (W7_keep m ρ c main_arg0 (by decide)).trans <| (W6_keep m ρ c main_arg0 (by decide)).trans <| (W5_keep m ρ c main_arg0 (by decide)).trans <| (W4_keep m ρ c main_arg0 (by decide)).trans <| (W3_keep m ρ c main_arg0 (by decide)).trans <| (W2_keep m ρ c main_arg0 (by decide)).trans <| (W1_keep m ρ c main_arg0 (by decide)).trans <| rfl

theorem W16_main_arg1 (c : Dev nD) : W16 m ρ c (Proc.devRef .tc main_arg1) = m ((c : Thread nD τ).loc main_arg1) :=
  (W16_keep m ρ c main_arg1 (by decide)).trans <| (W15_keep m ρ c main_arg1 (by decide)).trans <| (W14_keep m ρ c main_arg1 (by decide)).trans <| (W13_keep m ρ c main_arg1 (by decide)).trans <| (W12_keep m ρ c main_arg1 (by decide)).trans <| (W11_keep m ρ c main_arg1 (by decide)).trans <| (W10_keep m ρ c main_arg1 (by decide)).trans <| (W9_keep m ρ c main_arg1 (by decide)).trans <| (W8_keep m ρ c main_arg1 (by decide)).trans <| (W7_keep m ρ c main_arg1 (by decide)).trans <| (W6_keep m ρ c main_arg1 (by decide)).trans <| (W5_keep m ρ c main_arg1 (by decide)).trans <| (W4_keep m ρ c main_arg1 (by decide)).trans <| (W3_keep m ρ c main_arg1 (by decide)).trans <| (W2_keep m ρ c main_arg1 (by decide)).trans <| (W1_keep m ρ c main_arg1 (by decide)).trans <| rfl

theorem W16_main_arg2 (c : Dev nD) : W16 m ρ c (Proc.devRef .tc main_arg2) = m ((c : Thread nD τ).loc main_arg2) :=
  (W16_keep m ρ c main_arg2 (by decide)).trans <| (W15_keep m ρ c main_arg2 (by decide)).trans <| (W14_keep m ρ c main_arg2 (by decide)).trans <| (W13_keep m ρ c main_arg2 (by decide)).trans <| (W12_keep m ρ c main_arg2 (by decide)).trans <| (W11_keep m ρ c main_arg2 (by decide)).trans <| (W10_keep m ρ c main_arg2 (by decide)).trans <| (W9_keep m ρ c main_arg2 (by decide)).trans <| (W8_keep m ρ c main_arg2 (by decide)).trans <| (W7_keep m ρ c main_arg2 (by decide)).trans <| (W6_keep m ρ c main_arg2 (by decide)).trans <| (W5_keep m ρ c main_arg2 (by decide)).trans <| (W4_keep m ρ c main_arg2 (by decide)).trans <| (W3_keep m ρ c main_arg2 (by decide)).trans <| (W2_keep m ρ c main_arg2 (by decide)).trans <| (W1_keep m ρ c main_arg2 (by decide)).trans <| rfl

theorem W16_main_arg3 (c : Dev nD) : W16 m ρ c (Proc.devRef .tc main_arg3) = m ((c : Thread nD τ).loc main_arg3) :=
  (W16_keep m ρ c main_arg3 (by decide)).trans <| (W15_keep m ρ c main_arg3 (by decide)).trans <| (W14_keep m ρ c main_arg3 (by decide)).trans <| (W13_keep m ρ c main_arg3 (by decide)).trans <| (W12_keep m ρ c main_arg3 (by decide)).trans <| (W11_keep m ρ c main_arg3 (by decide)).trans <| (W10_keep m ρ c main_arg3 (by decide)).trans <| (W9_keep m ρ c main_arg3 (by decide)).trans <| (W8_keep m ρ c main_arg3 (by decide)).trans <| (W7_keep m ρ c main_arg3 (by decide)).trans <| (W6_keep m ρ c main_arg3 (by decide)).trans <| (W5_keep m ρ c main_arg3 (by decide)).trans <| (W4_keep m ρ c main_arg3 (by decide)).trans <| (W3_keep m ρ c main_arg3 (by decide)).trans <| (W2_keep m ρ c main_arg3 (by decide)).trans <| (W1_keep m ρ c main_arg3 (by decide)).trans <| rfl

theorem W16_main_arg4 (c : Dev nD) : W16 m ρ c (Proc.devRef .tc main_arg4) = m ((c : Thread nD τ).loc main_arg4) :=
  (W16_keep m ρ c main_arg4 (by decide)).trans <| (W15_keep m ρ c main_arg4 (by decide)).trans <| (W14_keep m ρ c main_arg4 (by decide)).trans <| (W13_keep m ρ c main_arg4 (by decide)).trans <| (W12_keep m ρ c main_arg4 (by decide)).trans <| (W11_keep m ρ c main_arg4 (by decide)).trans <| (W10_keep m ρ c main_arg4 (by decide)).trans <| (W9_keep m ρ c main_arg4 (by decide)).trans <| (W8_keep m ρ c main_arg4 (by decide)).trans <| (W7_keep m ρ c main_arg4 (by decide)).trans <| (W6_keep m ρ c main_arg4 (by decide)).trans <| (W5_keep m ρ c main_arg4 (by decide)).trans <| (W4_keep m ρ c main_arg4 (by decide)).trans <| (W3_keep m ρ c main_arg4 (by decide)).trans <| (W2_keep m ρ c main_arg4 (by decide)).trans <| (W1_keep m ρ c main_arg4 (by decide)).trans <| rfl

theorem W16_main_arg5 (c : Dev nD) : W16 m ρ c (Proc.devRef .tc main_arg5) = m ((c : Thread nD τ).loc main_arg5) :=
  (W16_keep m ρ c main_arg5 (by decide)).trans <| (W15_keep m ρ c main_arg5 (by decide)).trans <| (W14_keep m ρ c main_arg5 (by decide)).trans <| (W13_keep m ρ c main_arg5 (by decide)).trans <| (W12_keep m ρ c main_arg5 (by decide)).trans <| (W11_keep m ρ c main_arg5 (by decide)).trans <| (W10_keep m ρ c main_arg5 (by decide)).trans <| (W9_keep m ρ c main_arg5 (by decide)).trans <| (W8_keep m ρ c main_arg5 (by decide)).trans <| (W7_keep m ρ c main_arg5 (by decide)).trans <| (W6_keep m ρ c main_arg5 (by decide)).trans <| (W5_keep m ρ c main_arg5 (by decide)).trans <| (W4_keep m ρ c main_arg5 (by decide)).trans <| (W3_keep m ρ c main_arg5 (by decide)).trans <| (W2_keep m ρ c main_arg5 (by decide)).trans <| (W1_keep m ρ c main_arg5 (by decide)).trans <| rfl

theorem W16_main_arg6 (c : Dev nD) : W16 m ρ c (Proc.devRef .tc main_arg6) = m ((c : Thread nD τ).loc main_arg6) :=
  (W16_keep m ρ c main_arg6 (by decide)).trans <| (W15_keep m ρ c main_arg6 (by decide)).trans <| (W14_keep m ρ c main_arg6 (by decide)).trans <| (W13_keep m ρ c main_arg6 (by decide)).trans <| (W12_keep m ρ c main_arg6 (by decide)).trans <| (W11_keep m ρ c main_arg6 (by decide)).trans <| (W10_keep m ρ c main_arg6 (by decide)).trans <| (W9_keep m ρ c main_arg6 (by decide)).trans <| (W8_keep m ρ c main_arg6 (by decide)).trans <| (W7_keep m ρ c main_arg6 (by decide)).trans <| (W6_keep m ρ c main_arg6 (by decide)).trans <| (W5_keep m ρ c main_arg6 (by decide)).trans <| (W4_keep m ρ c main_arg6 (by decide)).trans <| (W3_keep m ρ c main_arg6 (by decide)).trans <| (W2_keep m ρ c main_arg6 (by decide)).trans <| (W1_keep m ρ c main_arg6 (by decide)).trans <| rfl

theorem W16_main_arg7 (c : Dev nD) : W16 m ρ c (Proc.devRef .tc main_arg7) = m ((c : Thread nD τ).loc main_arg7) :=
  (W16_keep m ρ c main_arg7 (by decide)).trans <| (W15_keep m ρ c main_arg7 (by decide)).trans <| (W14_keep m ρ c main_arg7 (by decide)).trans <| (W13_keep m ρ c main_arg7 (by decide)).trans <| (W12_keep m ρ c main_arg7 (by decide)).trans <| (W11_keep m ρ c main_arg7 (by decide)).trans <| (W10_keep m ρ c main_arg7 (by decide)).trans <| (W9_keep m ρ c main_arg7 (by decide)).trans <| (W8_keep m ρ c main_arg7 (by decide)).trans <| (W7_keep m ρ c main_arg7 (by decide)).trans <| (W6_keep m ρ c main_arg7 (by decide)).trans <| (W5_keep m ρ c main_arg7 (by decide)).trans <| (W4_keep m ρ c main_arg7 (by decide)).trans <| (W3_keep m ρ c main_arg7 (by decide)).trans <| (W2_keep m ρ c main_arg7 (by decide)).trans <| (W1_keep m ρ c main_arg7 (by decide)).trans <| rfl

theorem W16_main_arg8 (c : Dev nD) : W16 m ρ c (Proc.devRef .tc main_arg8) = m ((c : Thread nD τ).loc main_arg8) :=
  (W16_keep m ρ c main_arg8 (by decide)).trans <| (W15_keep m ρ c main_arg8 (by decide)).trans <| (W14_keep m ρ c main_arg8 (by decide)).trans <| (W13_keep m ρ c main_arg8 (by decide)).trans <| (W12_keep m ρ c main_arg8 (by decide)).trans <| (W11_keep m ρ c main_arg8 (by decide)).trans <| (W10_keep m ρ c main_arg8 (by decide)).trans <| (W9_keep m ρ c main_arg8 (by decide)).trans <| (W8_keep m ρ c main_arg8 (by decide)).trans <| (W7_keep m ρ c main_arg8 (by decide)).trans <| (W6_keep m ρ c main_arg8 (by decide)).trans <| (W5_keep m ρ c main_arg8 (by decide)).trans <| (W4_keep m ρ c main_arg8 (by decide)).trans <| (W3_keep m ρ c main_arg8 (by decide)).trans <| (W2_keep m ρ c main_arg8 (by decide)).trans <| (W1_keep m ρ c main_arg8 (by decide)).trans <| rfl

theorem W16_main_arg9 (c : Dev nD) : W16 m ρ c (Proc.devRef .tc main_arg9) = m ((c : Thread nD τ).loc main_arg9) :=
  (W16_keep m ρ c main_arg9 (by decide)).trans <| (W15_keep m ρ c main_arg9 (by decide)).trans <| (W14_keep m ρ c main_arg9 (by decide)).trans <| (W13_keep m ρ c main_arg9 (by decide)).trans <| (W12_keep m ρ c main_arg9 (by decide)).trans <| (W11_keep m ρ c main_arg9 (by decide)).trans <| (W10_keep m ρ c main_arg9 (by decide)).trans <| (W9_keep m ρ c main_arg9 (by decide)).trans <| (W8_keep m ρ c main_arg9 (by decide)).trans <| (W7_keep m ρ c main_arg9 (by decide)).trans <| (W6_keep m ρ c main_arg9 (by decide)).trans <| (W5_keep m ρ c main_arg9 (by decide)).trans <| (W4_keep m ρ c main_arg9 (by decide)).trans <| (W3_keep m ρ c main_arg9 (by decide)).trans <| (W2_keep m ρ c main_arg9 (by decide)).trans <| (W1_keep m ρ c main_arg9 (by decide)).trans <| rfl

theorem W16_main_arg10 (c : Dev nD) : W16 m ρ c (Proc.devRef .tc main_arg10) = m ((c : Thread nD τ).loc main_arg10) :=
  (W16_keep m ρ c main_arg10 (by decide)).trans <| (W15_keep m ρ c main_arg10 (by decide)).trans <| (W14_keep m ρ c main_arg10 (by decide)).trans <| (W13_keep m ρ c main_arg10 (by decide)).trans <| (W12_keep m ρ c main_arg10 (by decide)).trans <| (W11_keep m ρ c main_arg10 (by decide)).trans <| (W10_keep m ρ c main_arg10 (by decide)).trans <| (W9_keep m ρ c main_arg10 (by decide)).trans <| (W8_keep m ρ c main_arg10 (by decide)).trans <| (W7_keep m ρ c main_arg10 (by decide)).trans <| (W6_keep m ρ c main_arg10 (by decide)).trans <| (W5_keep m ρ c main_arg10 (by decide)).trans <| (W4_keep m ρ c main_arg10 (by decide)).trans <| (W3_keep m ρ c main_arg10 (by decide)).trans <| (W2_keep m ρ c main_arg10 (by decide)).trans <| (W1_keep m ρ c main_arg10 (by decide)).trans <| rfl

theorem W16_main_arg11 (c : Dev nD) : W16 m ρ c (Proc.devRef .tc main_arg11) = m ((c : Thread nD τ).loc main_arg11) :=
  (W16_keep m ρ c main_arg11 (by decide)).trans <| (W15_keep m ρ c main_arg11 (by decide)).trans <| (W14_keep m ρ c main_arg11 (by decide)).trans <| (W13_keep m ρ c main_arg11 (by decide)).trans <| (W12_keep m ρ c main_arg11 (by decide)).trans <| (W11_keep m ρ c main_arg11 (by decide)).trans <| (W10_keep m ρ c main_arg11 (by decide)).trans <| (W9_keep m ρ c main_arg11 (by decide)).trans <| (W8_keep m ρ c main_arg11 (by decide)).trans <| (W7_keep m ρ c main_arg11 (by decide)).trans <| (W6_keep m ρ c main_arg11 (by decide)).trans <| (W5_keep m ρ c main_arg11 (by decide)).trans <| (W4_keep m ρ c main_arg11 (by decide)).trans <| (W3_keep m ρ c main_arg11 (by decide)).trans <| (W2_keep m ρ c main_arg11 (by decide)).trans <| (W1_keep m ρ c main_arg11 (by decide)).trans <| rfl

theorem W16_main_arg12 (c : Dev nD) : W16 m ρ c (Proc.devRef .tc main_arg12) = m ((c : Thread nD τ).loc main_arg12) :=
  (W16_keep m ρ c main_arg12 (by decide)).trans <| (W15_keep m ρ c main_arg12 (by decide)).trans <| (W14_keep m ρ c main_arg12 (by decide)).trans <| (W13_keep m ρ c main_arg12 (by decide)).trans <| (W12_keep m ρ c main_arg12 (by decide)).trans <| (W11_keep m ρ c main_arg12 (by decide)).trans <| (W10_keep m ρ c main_arg12 (by decide)).trans <| (W9_keep m ρ c main_arg12 (by decide)).trans <| (W8_keep m ρ c main_arg12 (by decide)).trans <| (W7_keep m ρ c main_arg12 (by decide)).trans <| (W6_keep m ρ c main_arg12 (by decide)).trans <| (W5_keep m ρ c main_arg12 (by decide)).trans <| (W4_keep m ρ c main_arg12 (by decide)).trans <| (W3_keep m ρ c main_arg12 (by decide)).trans <| (W2_keep m ρ c main_arg12 (by decide)).trans <| (W1_keep m ρ c main_arg12 (by decide)).trans <| rfl

theorem W16_main_arg13 (c : Dev nD) : W16 m ρ c (Proc.devRef .tc main_arg13) = m ((c : Thread nD τ).loc main_arg13) :=
  (W16_keep m ρ c main_arg13 (by decide)).trans <| (W15_keep m ρ c main_arg13 (by decide)).trans <| (W14_keep m ρ c main_arg13 (by decide)).trans <| (W13_keep m ρ c main_arg13 (by decide)).trans <| (W12_keep m ρ c main_arg13 (by decide)).trans <| (W11_keep m ρ c main_arg13 (by decide)).trans <| (W10_keep m ρ c main_arg13 (by decide)).trans <| (W9_keep m ρ c main_arg13 (by decide)).trans <| (W8_keep m ρ c main_arg13 (by decide)).trans <| (W7_keep m ρ c main_arg13 (by decide)).trans <| (W6_keep m ρ c main_arg13 (by decide)).trans <| (W5_keep m ρ c main_arg13 (by decide)).trans <| (W4_keep m ρ c main_arg13 (by decide)).trans <| (W3_keep m ρ c main_arg13 (by decide)).trans <| (W2_keep m ρ c main_arg13 (by decide)).trans <| (W1_keep m ρ c main_arg13 (by decide)).trans <| rfl

theorem W16_main_arg14 (c : Dev nD) : W16 m ρ c (Proc.devRef .tc main_arg14) = m ((c : Thread nD τ).loc main_arg14) :=
  (W16_keep m ρ c main_arg14 (by decide)).trans <| (W15_keep m ρ c main_arg14 (by decide)).trans <| (W14_keep m ρ c main_arg14 (by decide)).trans <| (W13_keep m ρ c main_arg14 (by decide)).trans <| (W12_keep m ρ c main_arg14 (by decide)).trans <| (W11_keep m ρ c main_arg14 (by decide)).trans <| (W10_keep m ρ c main_arg14 (by decide)).trans <| (W9_keep m ρ c main_arg14 (by decide)).trans <| (W8_keep m ρ c main_arg14 (by decide)).trans <| (W7_keep m ρ c main_arg14 (by decide)).trans <| (W6_keep m ρ c main_arg14 (by decide)).trans <| (W5_keep m ρ c main_arg14 (by decide)).trans <| (W4_keep m ρ c main_arg14 (by decide)).trans <| (W3_keep m ρ c main_arg14 (by decide)).trans <| (W2_keep m ρ c main_arg14 (by decide)).trans <| (W1_keep m ρ c main_arg14 (by decide)).trans <| rfl

theorem W16_main_arg15 (c : Dev nD) : W16 m ρ c (Proc.devRef .tc main_arg15) = m ((c : Thread nD τ).loc main_arg15) :=
  (W16_keep m ρ c main_arg15 (by decide)).trans <| (W15_keep m ρ c main_arg15 (by decide)).trans <| (W14_keep m ρ c main_arg15 (by decide)).trans <| (W13_keep m ρ c main_arg15 (by decide)).trans <| (W12_keep m ρ c main_arg15 (by decide)).trans <| (W11_keep m ρ c main_arg15 (by decide)).trans <| (W10_keep m ρ c main_arg15 (by decide)).trans <| (W9_keep m ρ c main_arg15 (by decide)).trans <| (W8_keep m ρ c main_arg15 (by decide)).trans <| (W7_keep m ρ c main_arg15 (by decide)).trans <| (W6_keep m ρ c main_arg15 (by decide)).trans <| (W5_keep m ρ c main_arg15 (by decide)).trans <| (W4_keep m ρ c main_arg15 (by decide)).trans <| (W3_keep m ρ c main_arg15 (by decide)).trans <| (W2_keep m ρ c main_arg15 (by decide)).trans <| (W1_keep m ρ c main_arg15 (by decide)).trans <| rfl

end Cert.KernelIdeal.Hand

end
-- ==== Proof.KI.RunSegs.lean ====
/-
  The kernel program's run, second half: each of the nine pipelined regions as a segment over the thread state "every
  unscoped buffer of the core at the boundary's contents, the generator register at some state, nothing owed", and
  the program's sixteen items as the list of segments.

  Every region is entered from the contents the fold of the first half names for its entry boundary and left at the
  contents named for its exit boundary.  A region whose body keeps nothing between grid points uses the class's region
  invariant unchanged; a region whose body carries running sums in scratch buffers has an invariant that names their
  contents point by point, reached from the class's invariant before the first point and giving it back after the last.
-/
import proofs.«115743_j55052890800725_2_alg».proof.Proof.KI.RunFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every pipeline's proof data, each at its region's entry contents. -/
def pdats : (p : Fin 9) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
  | ⟨4, _⟩ => fun c => dat4 (V8 m ρ) c
  | ⟨5, _⟩ => fun c => dat5 (V10 m ρ) c
  | ⟨6, _⟩ => fun c => dat6 (V12 m ρ) c
  | ⟨7, _⟩ => fun c => dat7 (V13 m ρ) c
  | ⟨8, _⟩ => fun c => dat8 (V15 m ρ) c
  | ⟨_ + 9, h⟩ => absurd h (Nat.not_lt.2 (Nat.le_add_left _ _))
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W16 m ρ c) ∗ ∃ r, prngReg c r)

/-! ## Into the class's region invariant and out of it -/

/-- The generator register and the scoped rest (beside anything else, dropped) make the class's region invariant. -/
theorem r_in {gr W : Nat} (win : Fin W → Pipeline.WinSpec sig gr) (c : Dev nD) (Q : sProp 𝕄) :
    (iprop((∃ r, prngReg c r) ∗ Q ∗ Pipeline.scopedRest (Ix := Unit) (Name := ℕ) (U := UR sig nD τ) (Lvl := ℕ) (Val := Elt F) win c) : sProp 𝕄)
      ⊢ Pipeline.ΦA win c := by
  unfold Pipeline.ΦA
  iintro ⟨Hp, -, Hr⟩
  isplitl [Hr]; · iexact Hr
  iexact Hp
/-- The class's region invariant gives back the generator register and the scoped rest. -/
theorem r_out {gr W : Nat} (win : Fin W → Pipeline.WinSpec sig gr) (c : Dev nD) :
    (Pipeline.ΦA win c : sProp 𝕄)
      ⊢ iprop((∃ r, prngReg c r) ∗ BI.emp ∗ Pipeline.scopedRest (Ix := Unit) (Name := ℕ) (U := UR sig nD τ) (Lvl := ℕ) (Val := Elt F) win c) := by
  unfold Pipeline.ΦA
  iintro ⟨Hr, Hp⟩
  isplitl [Hp]; · iexact Hp
  isplitr; · iempintro
  iexact Hr

/-! ## The regions as segments -/

set_option backward.isDefEq.respectTransparency.types false in
/-- REGION 0 over the thread state: entered from every unscoped buffer at `W1`, left at `W2`.  Its arrays are split
    out of the unscoped buffers and put back at the exit contents; the generator register and the scoped rest go into
    the region invariant and come back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`.  Its arrays are split
    out of the unscoped buffers and put back at the exit contents; the generator register and the scoped rest go into
    the region invariant and come back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (r_in spec1 c _).trans (hin1 (V3 m ρ) c)
  hout c := by
    rw [Pipeline.ownSems0_none]
    exact (hout1 (V3 m ρ) c).trans (r_out spec1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6`.  Its arrays are split
    out of the unscoped buffers and put back at the exit contents; the generator register and the scoped rest go into
    the region invariant and come back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun w => A_eq2 (V5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W6`, left at `W7`.  Its arrays are split
    out of the unscoped buffers and put back at the exit contents; the generator register and the scoped rest go into
    the region invariant and come back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun w => A_eq3 (V6 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W8`, left at `W9`.  Its arrays are split
    out of the unscoped buffers and put back at the exit contents; the generator register and the scoped rest go into
    the region invariant and come back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V8 m ρ c) fun w => A_eq4 (V8 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (r_in spec4 c _).trans (hin4 (V8 m ρ) c)
  hout c := by
    rw [Pipeline.ownSems0_none]
    exact (hout4 (V8 m ρ) c).trans (r_out spec4 c)
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V8 m ρ c) (V9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 over the thread state: entered from every unscoped buffer at `W10`, left at `W11`.  Its arrays are split
    out of the unscoped buffers and put back at the exit contents; the generator register and the scoped rest go into
    the region invariant and come back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V10 m ρ) c).loose
  hwaits := Pipeline.hwaits_of_owed_zero _ _ _ _ L lv 5 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec5 c (V10 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V10 m ρ c) fun w => A_eq5 (V10 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V10 m ρ c) (V11 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 6 over the thread state: entered from every unscoped buffer at `W12`, left at `W13`.  Its arrays are split
    out of the unscoped buffers and put back at the exit contents; the generator register and the scoped rest go into
    the region invariant and come back; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V12 m ρ) c).loose
  hwaits := Pipeline.hwaits_of_owed_zero _ _ _ _ L lv 6 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec6 c (V12 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V12 m ρ c) fun w => A_eq6 (V12 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V12 m ρ c) (V13 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 7 over the thread state: entered from every unscoped buffer at `W13`, left at `W14`.  Its arrays are split
    out of the unscoped buffers and put back at the exit contents; the generator register and the scoped rest go into
    the region invariant and come back; nothing is owed; the kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V13 m ρ) c).loose
  hwaits := Pipeline.hwaits_of_owed_zero _ _ _ _ L lv 7 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec7 c (V13 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V13 m ρ c) fun w => A_eq7 (V13 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (r_in spec7 c _).trans (hin7 (V13 m ρ) c)
  hout c := by
    rw [Pipeline.ownSems0_none]
    exact (hout7 (V13 m ρ) c).trans (r_out spec7 c)
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V13 m ρ c) (V14 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 8 over the thread state: entered from every unscoped buffer at `W15`, left at `W16`.  Its arrays are split
    out of the unscoped buffers and put back at the exit contents; the generator register and the scoped rest go into
    the region invariant and come back; nothing is owed; the kernel has no semaphore of its own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V15 m ρ) c).loose
  hwaits := Pipeline.hwaits_of_owed_zero _ _ _ _ L lv 8 fun _ _ => rfl
  pre c := iprop(StableHlo.held (c : Thread nD τ) (Pipeline.ucRefs τ sig) (W15 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec8 c (V15 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V15 m ρ c) fun w => A_eq8 (V15 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V15 m ρ c) (V16 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments -/

/-- The program's sixteen segments in order: a host segment per stretch from its boundary's contents, a region per pipelined call. -/
abbrev segs : List (Pipeline.Seg (pcfgs (F := F)) adm (pdats m ρ) () defs₀ 𝒱₀ L lv) :=
  [
    .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .host (hseg hostOps4 hostOps4_sub hostOps4_fresh (W7 m ρ)),
    .region (reg4 m ρ),
    .host (hseg hostOps5 hostOps5_sub hostOps5_fresh (W9 m ρ)),
    .region (reg5 m ρ),
    .host (hseg hostOps6 hostOps6_sub hostOps6_fresh (W11 m ρ)),
    .region (reg6 m ρ),
    .region (reg7 m ρ),
    .host (hseg hostOps8 hostOps8_sub hostOps8_fresh (W14 m ρ)),
    .region (reg8 m ρ) ]

end Cert.KernelIdeal.Hand

end
-- ==== Proof.KI.Run.lean ====
/-
  The kernel program's run, the launch: from any memory with zero counters every weakly fair execution of the program on
  the TensorCores terminates, nothing faulting, and in every final state each unscoped buffer of each core holds what
  the fold names for the last boundary.  From that, the frame claim: every argument array ends as launched.
-/
import proofs.«115743_j55052890800725_2_alg».proof.Proof.KI.RunSegs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the sixteen segments, at any post that follows from the final memory holding the last boundary's
    contents at every unscoped buffer of every core. -/
theorem run_of {Q : PUnit × MemSt nD τ sig (Elt F) → Prop}
    (hQ : ∀ s : MemSt nD τ sig (Elt F), (∀ c : Dev nD, ∀ b ∈ Pipeline.ucRefs τ sig, s.mem (((c : Thread nD τ)).1, b) = W16 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          Prog.lift (.customCall (Pipeline.entry 7) ()),
          StableHlo.seq hostOps8,
          Prog.lift (.customCall (Pipeline.entry 8) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := hQ)

/-- THE RUN: every final state holds the last boundary's contents at every unscoped buffer of every core. -/
theorem run : θ_run defs (onTc (τ := τ) (main (F := F))) ⟨m, fun _ => 0, ρ⟩ (fun r => ∀ c : Dev nD,
      ∀ b ∈ Pipeline.ucRefs τ sig, r.2.mem (((c : Thread nD τ)).1, b) = W16 m ρ c b) :=
  run_of m ρ fun s h => h

/-- THE FRAME: every argument array ends as launched — each read off the last boundary's contents and walked back
    through the sixteen items, none of which writes it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  run_of m ρ fun s h c =>
    ⟨(h c _ (mem_uc main_arg0 (by decide))).trans (W16_main_arg0 m ρ c),
    (h c _ (mem_uc main_arg1 (by decide))).trans (W16_main_arg1 m ρ c),
    (h c _ (mem_uc main_arg2 (by decide))).trans (W16_main_arg2 m ρ c),
    (h c _ (mem_uc main_arg3 (by decide))).trans (W16_main_arg3 m ρ c),
    (h c _ (mem_uc main_arg4 (by decide))).trans (W16_main_arg4 m ρ c),
    (h c _ (mem_uc main_arg5 (by decide))).trans (W16_main_arg5 m ρ c),
    (h c _ (mem_uc main_arg6 (by decide))).trans (W16_main_arg6 m ρ c),
    (h c _ (mem_uc main_arg7 (by decide))).trans (W16_main_arg7 m ρ c),
    (h c _ (mem_uc main_arg8 (by decide))).trans (W16_main_arg8 m ρ c),
    (h c _ (mem_uc main_arg9 (by decide))).trans (W16_main_arg9 m ρ c),
    (h c _ (mem_uc main_arg10 (by decide))).trans (W16_main_arg10 m ρ c),
    (h c _ (mem_uc main_arg11 (by decide))).trans (W16_main_arg11 m ρ c),
    (h c _ (mem_uc main_arg12 (by decide))).trans (W16_main_arg12 m ρ c),
    (h c _ (mem_uc main_arg13 (by decide))).trans (W16_main_arg13 m ρ c),
    (h c _ (mem_uc main_arg14 (by decide))).trans (W16_main_arg14 m ρ c),
    (h c _ (mem_uc main_arg15 (by decide))).trans (W16_main_arg15 m ρ c)⟩

/-- THE RUN, at the result: the result buffer ends at what the fold names for the last boundary, and every argument
    array ends as launched. -/
theorem run_val : θ_run defs (onTc (τ := τ) (main (F := F))) ⟨m, fun _ => 0, ρ⟩ (fun r => ∀ c : Dev nD,
      r.2.mem ((c.tc : Thread nD τ).loc main_v85) = W16 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  run_of m ρ fun s h c =>
    ⟨h c _ (mem_uc main_v85 (by decide)),
    (h c _ (mem_uc main_arg0 (by decide))).trans (W16_main_arg0 m ρ c),
    (h c _ (mem_uc main_arg1 (by decide))).trans (W16_main_arg1 m ρ c),
    (h c _ (mem_uc main_arg2 (by decide))).trans (W16_main_arg2 m ρ c),
    (h c _ (mem_uc main_arg3 (by decide))).trans (W16_main_arg3 m ρ c),
    (h c _ (mem_uc main_arg4 (by decide))).trans (W16_main_arg4 m ρ c),
    (h c _ (mem_uc main_arg5 (by decide))).trans (W16_main_arg5 m ρ c),
    (h c _ (mem_uc main_arg6 (by decide))).trans (W16_main_arg6 m ρ c),
    (h c _ (mem_uc main_arg7 (by decide))).trans (W16_main_arg7 m ρ c),
    (h c _ (mem_uc main_arg8 (by decide))).trans (W16_main_arg8 m ρ c),
    (h c _ (mem_uc main_arg9 (by decide))).trans (W16_main_arg9 m ρ c),
    (h c _ (mem_uc main_arg10 (by decide))).trans (W16_main_arg10 m ρ c),
    (h c _ (mem_uc main_arg11 (by decide))).trans (W16_main_arg11 m ρ c),
    (h c _ (mem_uc main_arg12 (by decide))).trans (W16_main_arg12 m ρ c),
    (h c _ (mem_uc main_arg13 (by decide))).trans (W16_main_arg13 m ρ c),
    (h c _ (mem_uc main_arg14 (by decide))).trans (W16_main_arg14 m ρ c),
    (h c _ (mem_uc main_arg15 (by decide))).trans (W16_main_arg15 m ρ c)⟩

end Cert.KernelIdeal.Hand

end
-- ==== Proof.LibDense.lean ====
/-
  A general lemma about plain matrix products, free of any program.

  A matrix product's dimension record (`DotDims`) sums over an abstract contraction index. For the plain
  product of an M×K by a K×N array — one contracted axis, the left operand's columns against the right operand's
  rows, no batch axis — that sum is the familiar ∑ₖ L (i, k) · R (k, j) over k : Fin K. `PlainDot d` collects the
  coordinate facts that say a record is such a product (each holds by computation for a record of literal extents),
  and `sum_plain` reindexes the sum. The kernel's `tpu.matmul` into a zero accumulator and the host's
  `dot_general` both read, at the exact instance, as the abstract sum (PureOps/Ideal/Laws.lean
  `matmul_constant_zero_apply`, `dotGeneral_apply`), so this one lemma serves both.
-/
import Idealize.ShloMosaic.PureOps.Ideal
import Idealize.ShloMosaic.PureOps.Ideal.Laws
import Idealize.ShloMosaic.Lib.ValueIdx

noncomputable section

open scoped BigOperators

namespace Cert.LibDense

open Idealize.ShloMosaic Idealize.ShloMosaic.ValueIdx

/-- The record `d` is the plain product of an M×K by a K×N array: its contraction has one axis of extent K, the
    left operand is read at (row of the output, k) and the right operand at (k, column of the output). -/
structure PlainDot {M K N : Nat} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (k : d.contr.Idx), (d.lhsIdx j k 0).val = (j 0).val
  l1 : ∀ (j : (⟨2, ![M, N]⟩ : Shape).Idx) (k : d.contr.Idx), (d.lhsIdx j k 1).val = (k ⟨0, by omega⟩).val
  r0 : ∀ (j : (⟨2, ![M, N]⟩ : Shape).Idx) (k : d.contr.Idx), (d.rhsIdx j k 0).val = (k ⟨0, by omega⟩).val
  r1 : ∀ (j : (⟨2, ![M, N]⟩ : Shape).Idx) (k : d.contr.Idx), (d.rhsIdx j k 1).val = (j 1).val

variable {M K N : Nat} {d : DotDims (⟨2, ![M, K]⟩ : Shape) (⟨2, ![K, N]⟩ : Shape) (⟨2, ![M, N]⟩ : Shape)}

/-- The left operand's index at contraction position `k : Fin K` is (row, k). -/
theorem PlainDot.lhs_eq (h : PlainDot d) (j : (⟨2, ![M, N]⟩ : Shape).Idx) (k : Fin K) :
    d.lhsIdx j ((contrEquiv1 d K h.rank h.size).symm k) = ix2 (j 0) k := by
  funext a
  apply Fin.ext
  match a with
  | ⟨0, _⟩ => exact h.l0 j _
  | ⟨1, _⟩ => exact (h.l1 j _).trans (contrEquiv1_symm_val d K h.rank h.size k)

/-- The right operand's index at contraction position `k : Fin K` is (k, column). -/
theorem PlainDot.rhs_eq (h : PlainDot d) (j : (⟨2, ![M, N]⟩ : Shape).Idx) (k : Fin K) :
    d.rhsIdx j ((contrEquiv1 d K h.rank h.size).symm k) = ix2 k (j 1) := by
  funext a
  apply Fin.ext
  match a with
  | ⟨0, _⟩ => exact (h.r0 j _).trans (contrEquiv1_symm_val d K h.rank h.size k)
  | ⟨1, _⟩ => exact h.r1 j _

/-- A plain product's contraction sum is ∑ₖ L (row, k) · R (k, column) over k : Fin K. -/
theorem sum_plain (h : PlainDot d) (L : (⟨2, ![M, K]⟩ : Shape).Idx → EReal) (R : (⟨2, ![K, N]⟩ : Shape).Idx → EReal)
    (j : (⟨2, ![M, N]⟩ : Shape).Idx) :
    ∑ k : d.contr.Idx, L (d.lhsIdx j k) * R (d.rhsIdx j k) = ∑ k : Fin K, L (ix2 (j 0) k) * R (ix2 k (j 1)) := by
  rw [← Equiv.sum_comp (contrEquiv1 d K h.rank h.size).symm]
  exact Finset.sum_congr rfl fun k _ => congrArg₂ (· * ·) (congrArg L (h.lhs_eq j k)) (congrArg R (h.rhs_eq j k))

/-- The kernel's matrix product into a zero accumulator, at the exact instance, read at an output index. -/
theorem matmul_zero_plain (h : PlainDot d) {φ₁ φ₂ : FTy} (prec : Option ContractPrecision)
    (L : FVec Ideal (⟨2, ![M, K]⟩ : Shape) φ₁) (R : FVec Ideal (⟨2, ![K, N]⟩ : Shape) φ₂) (j : (⟨2, ![M, N]⟩ : Shape).Idx) :
    FloatOps.matmul d prec L R (constant (⟨2, ![M, N]⟩ : Shape) .f32 0x00000000#32) j
      = ∑ k : Fin K, (L (ix2 (j 0) k) : EReal) * (R (ix2 k (j 1)) : EReal) :=
  (Ideal.matmul_constant_zero_apply d prec L R j).trans (sum_plain h L R j)

/-- The host's `dot_general`, at the exact instance, read at an output index. -/
theorem dotGeneral_plain (h : PlainDot d) {φ₁ φ₂ : FTy} (prec : Option ContractPrecision) (sched : HostSchedule)
    (L : FVec Ideal (⟨2, ![M, K]⟩ : Shape) φ₁) (R : FVec Ideal (⟨2, ![K, N]⟩ : Shape) φ₂) (j : (⟨2, ![M, N]⟩ : Shape).Idx) :
    FloatOps.dotGeneral d prec sched L R j
      = ∑ k : Fin K, (L (ix2 (j 0) k) : EReal) * (R (ix2 k (j 1)) : EReal) :=
  (Ideal.dotGeneral_apply d prec sched L R j).trans (sum_plain h L R j)

end Cert.LibDense

end
-- ==== Proof.Spec.lean ====
/-
  The mathematics both programs compute, index by index over the extended reals, free of any program.

  A graph on 50000 nodes is given by, for each node, the set of edges (850000 of them, the last 50000 being the
  self loops) whose destination is that node, and for each edge the row a gather with the source words reads and
  the row a gather with the destination words reads.  An edge landing at a node has that node as its destination row.
  The degree of a node is the number of edges landing at it; the normalisation factor is its inverse square root.

  The network is two graph-convolution layers and a projector.  A graph-convolution layer with input H multiplies by a
  weight, aggregates over the edges with the symmetric normalisation, adds a bias, normalises every column over the
  nodes by the column's mean and variance, scales, shifts and clips at zero.  It is written here twice:
  `kernelOut` scales the rows of the product by the source factor before aggregating and by the destination factor
  after, and takes the variance as the mean of squares minus the squared mean; `refOut` scales each edge's message by
  the product of the two factors and takes the variance as the mean squared deviation.
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals with literal extents. -/
abbrev Mat (a b : Nat) : Type := (⟨2, ![a, b]⟩ : Shape).Idx → EReal
/-- A vector of extended reals with a literal extent. -/
abbrev Vct (a : Nat) : Type := (⟨1, ![a]⟩ : Shape).Idx → EReal

/-- The number of nodes and the number of edges (self loops included). -/
abbrev NN : Nat := 50000
abbrev EE : Nat := 850000

/-- The three float words the programs share: the variance guard, the norm guard, the node count. -/
def epsBN : EReal := Ideal.ofBits .f32 0x3727C5AC#32
def epsL2 : EReal := Ideal.ofBits .f32 0x2B8CBCCC#32
def cN : EReal := Ideal.ofBits .f32 0x47435000#32

/-- The graph as the programs read it. -/
structure Graph where
  /-- the edges whose update lands at node `n` -/
  lands : Fin NN → Finset (Fin EE)
  /-- the row a gather with edge `e`'s source word reads -/
  src : Fin EE → Fin NN
  /-- the row a gather with edge `e`'s destination word reads -/
  dst : Fin EE → Fin NN
  /-- an edge landing at `n` has destination row `n` -/
  hdst : ∀ n, ∀ e ∈ lands n, dst e = n
  /-- every node has an edge landing at it (its self loop) -/
  hself : ∀ n, (lands n).Nonempty

variable (G : Graph)

/-- The degree: how many edges land at the node. -/
def deg (n : Fin NN) : EReal := ∑ _e ∈ G.lands n, (1 : EReal)
/-- The normalisation factor of a node. -/
def dis (n : Fin NN) : EReal := Ideal.rsqrt (deg G n)
/-- The factors as a column. -/
def dcol : Mat NN 1 := fun j => dis G (j 0)
/-- A vector as a one-row matrix. -/
def row {d : Nat} (b : Vct d) : Mat 1 d := fun j => b (ix1 (j 1))

/-- The product of two matrices. -/
def mm {a k b : Nat} (L : Mat a k) (R : Mat k b) : Mat a b :=
  fun j => ∑ κ : Fin k, L (ix2 (j 0) κ) * R (ix2 κ (j 1))
/-- The product with its rows scaled by a column. -/
def preScale {k d : Nat} (H : Mat NN k) (W : Mat k d) (dc : Mat NN 1) : Mat NN d :=
  fun j => mm H W j * dc (ix2 (j 0) 0)
/-- The product plus a row. -/
def mmBias {k d : Nat} (H : Mat NN k) (W : Mat k d) (b : Mat 1 d) : Mat NN d :=
  fun j => mm H W j + b (ix2 0 (j 1))
/-- The rows an edge list reads from a table, by source row. -/
def gatherSrc {d : Nat} (T : Mat NN d) : Mat EE d := fun u => T (ix2 (G.src (u 0)) (u 1))
/-- The sum, per node, of the rows of the edges landing at it. -/
def aggRows {d : Nat} (U : Mat EE d) : Mat NN d := fun j => ∑ e ∈ G.lands (j 0), U (ix2 e (j 1))
/-- Rows scaled by a column, plus a row. -/
def valOf {d : Nat} (A : Mat NN d) (dc : Mat NN 1) (b : Mat 1 d) : Mat NN d :=
  fun j => A j * dc (ix2 (j 0) 0) + b (ix2 0 (j 1))
/-- Column sums and column sums of squares, as one-row matrices. -/
def colSum {d : Nat} (X : Mat NN d) : Mat 1 d := fun j => ∑ n : Fin NN, X (ix2 n (j 1))
def colSumSq {d : Nat} (X : Mat NN d) : Mat 1 d := fun j => ∑ n : Fin NN, X (ix2 n (j 1)) * X (ix2 n (j 1))
/-- The mean row from the sums, and the variance row as mean of squares minus squared mean. -/
def meanRow {d : Nat} (S1 : Mat 1 d) : Mat 1 d := fun j => Ideal.div (S1 (ix2 0 (j 1))) cN
def varRow {d : Nat} (S1 S2 : Mat 1 d) : Mat 1 d :=
  fun j => Ideal.div (S2 (ix2 0 (j 1))) cN - meanRow S1 j * meanRow S1 j
/-- Normalise by a mean row and a variance row, scale, shift, clip at zero. -/
def bnRelu {d : Nat} (X : Mat NN d) (γ β mean var : Mat 1 d) : Mat NN d :=
  fun j => max (γ (ix2 0 (j 1)) * (X j - mean (ix2 0 (j 1))) * Ideal.rsqrt (var (ix2 0 (j 1)) + epsBN) + β (ix2 0 (j 1))) 0
/-- Every row divided by its Euclidean norm, guarded from below. -/
def l2n {d : Nat} (Z : Mat NN d) : Mat NN d :=
  fun j => Ideal.div (Z j) (max (Ideal.sqrt (∑ κ : Fin d, Z (ix2 (j 0) κ) * Z (ix2 (j 0) κ))) epsL2)

/-! ## The kernel's arrangement -/

/-- A layer's value before normalisation, the kernel's way: source factor before the aggregation, destination factor after. -/
def kVal {k d : Nat} (H : Mat NN k) (W : Mat k d) (b : Vct d) : Mat NN d :=
  valOf (aggRows G (gatherSrc G (preScale H W (dcol G)))) (dcol G) (row b)
/-- Normalisation from the sums of the value and of its square. -/
def kNorm {d : Nat} (X : Mat NN d) (γ β : Vct d) : Mat NN d :=
  bnRelu X (row γ) (row β) (meanRow (colSum X)) (varRow (colSum X) (colSumSq X))
/-- A whole layer, the kernel's way. -/
def kLayer {k d : Nat} (H : Mat NN k) (W : Mat k d) (b γ β : Vct d) : Mat NN d := kNorm (kVal G H W b) γ β

/-- The kernel's result. -/
def kernelOut (x : Mat NN 128) (W1 : Mat 128 96) (b1 g1 be1 : Vct 96) (W2 : Mat 96 96) (b2 g2 be2 : Vct 96)
    (Wp1 : Mat 96 96) (bp1 gp bep : Vct 96) (Wp2 : Mat 96 64) (bp2 : Vct 64) : Mat NN 64 :=
  l2n (mmBias (kNorm (mmBias (kLayer G (kLayer G x W1 b1 g1 be1) W2 b2 g2 be2) Wp1 (row bp1)) gp bep) Wp2 (row bp2))

/-! ## The reference's arrangement -/

/-- An edge's message, the reference's way: the source row of the product scaled by both factors; and a layer's value
    before normalisation: the messages aggregated, plus the bias. -/
def rMsg {k d : Nat} (H : Mat NN k) (W : Mat k d) : Mat EE d :=
  fun u => mm H W (ix2 (G.src (u 0)) (u 1)) * (dis G (G.src (u 0)) * dis G (G.dst (u 0)))
def rVal {k d : Nat} (H : Mat NN k) (W : Mat k d) (b : Vct d) : Mat NN d :=
  fun j => aggRows G (rMsg G H W) j + b (ix1 (j 1))
/-- The column mean. -/
def rMean {d : Nat} (X : Mat NN d) : Vct d := fun c => Ideal.div (∑ n : Fin NN, X (ix2 n (c 0))) cN
/-- The column variance as the mean squared deviation. -/
def rVar {d : Nat} (X : Mat NN d) : Vct d :=
  fun c => Ideal.div (∑ n : Fin NN, (X (ix2 n (c 0)) - rMean X c) * (X (ix2 n (c 0)) - rMean X c)) cN
/-- Normalisation by the column mean and variance. -/
def rNorm {d : Nat} (X : Mat NN d) (γ β : Vct d) : Mat NN d :=
  fun j => max (γ (ix1 (j 1)) * (X j - rMean X (ix1 (j 1))) * Ideal.rsqrt (rVar X (ix1 (j 1)) + epsBN) + β (ix1 (j 1))) 0
/-- A whole layer, the reference's way. -/
def rLayer {k d : Nat} (H : Mat NN k) (W : Mat k d) (b γ β : Vct d) : Mat NN d := rNorm (rVal G H W b) γ β
/-- The product plus a vector along the rows. -/
def rmmBias {k d : Nat} (H : Mat NN k) (W : Mat k d) (b : Vct d) : Mat NN d := fun j => mm H W j + b (ix1 (j 1))

/-- The reference's result. -/
def refOut (x : Mat NN 128) (W1 : Mat 128 96) (b1 g1 be1 : Vct 96) (W2 : Mat 96 96) (b2 g2 be2 : Vct 96)
    (Wp1 : Mat 96 96) (bp1 gp bep : Vct 96) (Wp2 : Mat 96 64) (bp2 : Vct 64) : Mat NN 64 :=
  l2n (rmmBias (rNorm (rmmBias (rLayer G (rLayer G x W1 b1 g1 be1) W2 b2 g2 be2) Wp1 bp1) gp bep) Wp2 bp2)

end Cert.Spec

end
-- ==== Proof.KI.ValA0pay.lean ====
/- Region 0 at the exact instance, free of the proof data: the body's payload at an index (a row of the left block
   against a column of the weight, scaled by the row's entry of the column block), the windows' index maps over the grid
   (the row-tiled windows sit at block (t, 0), the whole-array window at block (0, 0)), what a point writes back as block t
   of the row-scaled product of whatever arrays the windows read, and the cover of the output array by the ten blocks of
   5000 rows. -/
import proofs.«115743_j55052890800725_2_alg».proof.Proof.Gen.KernelIdeal.Launch
import proofs.«115743_j55052890800725_2_alg».proof.Proof.Gen.KernelIdeal.Skeleton
import proofs.«115743_j55052890800725_2_alg».proof.Proof.Gen.KernelIdeal.Points
import proofs.«115743_j55052890800725_2_alg».proof.Proof.LibDense
import proofs.«115743_j55052890800725_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

theorem v_hz0 : (![0, 0] : Fin 2 → Nat) = fun _ => 0 := funext fun a => by fin_cases a <;> rfl

/-- The product's record is a plain one: rows of the left operand against columns of the right. -/
theorem plain0 : Cert.LibDense.PlainDot dot_S5000x128_S128x96_S5000x96_1_0_0_1_n_n where
  rank := by rfl
  size := by rfl
  l0 := fun j k => by rfl
  l1 := fun j k => by rfl
  r0 := fun j k => by rfl
  r1 := fun j k => by rfl

/-- The payload at an index: the row of the left block against the column of the weight, times the row's factor. -/
theorem pay0_at (x0 : FVec Ideal S5000x128 .f32) (w0 : FVec Ideal S128x96 .f32) (d0 : FVec Ideal S5000x1 .f32) (p : Fin 5000) (q : Fin 96) :
    k0_pay1 (F := Ideal) x0 w0 d0 (ix2 p q) = (∑ κ : Fin 128, x0 (ix2 p κ) * w0 (ix2 κ q)) * d0 (ix2 p 0) := by
  unfold k0_pay1
  refine congrArg₂ (fun a b : EReal => a * b) ?_ ?_
  · refine (Cert.LibDense.matmul_zero_plain plain0 none _ _ (ix2 p q)).trans ?_
    refine Finset.sum_congr rfl fun κ _ => ?_
    rfl
  · refine (broadcastTo_apply _ _ (ix2 p q) (ix2 p 0) ?_).trans ?_
    · intro a
      match a with
      | ⟨0, _⟩ => rfl
      | ⟨1, _⟩ => rfl
    · exact congrFun (shapeCast_self d0 _) (ix2 p 0)

/-- The index maps over the grid: the row-tiled windows sit at block (t, 0), the whole-array window at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The payload at an index of a block whose rows are rows 5000·T … of the arrays: the row-scaled product there. -/
theorem core0 (A0 : Cert.Spec.Mat 50000 128) (A1 : Cert.Spec.Mat 128 96) (A2 : Cert.Spec.Mat 50000 1)
    (x0 : FVec Ideal S5000x128 .f32) (w0 : FVec Ideal S128x96 .f32) (d0 : FVec Ideal S5000x1 .f32) (T : Nat)
    (h0 : ∀ (p : Fin 5000) (q : Fin 128) (i : (⟨2, ![50000, 128]⟩ : Shape).Idx), (i 0).val = 5000 * T + p.val → (i 1).val = q.val → x0 (ix2 p q) = A0 i)
    (h1 : ∀ (p : Fin 128) (q : Fin 96), w0 (ix2 p q) = A1 (ix2 p q))
    (h2 : ∀ (p : Fin 5000) (i : (⟨2, ![50000, 1]⟩ : Shape).Idx), (i 0).val = 5000 * T + p.val → (i 1).val = 0 → d0 (ix2 p 0) = A2 i)
    (p : Fin 5000) (q : Fin 96) (i : (⟨2, ![50000, 96]⟩ : Shape).Idx) (hi0 : (i 0).val = 5000 * T + p.val) (hi1 : (i 1).val = q.val) :
    k0_pay1 (F := Ideal) x0 w0 d0 (ix2 p q) = Cert.Spec.preScale A0 A1 A2 i := by
  refine (pay0_at x0 w0 d0 p q).trans ?_
  have hq : i 1 = q := Fin.ext hi1
  unfold Cert.Spec.preScale Cert.Spec.mm
  refine congrArg₂ (· * ·) (Finset.sum_congr rfl fun κ _ => congrArg₂ (· * ·) (h0 p κ _ hi0 rfl) ((h1 κ q).trans (by rw [hq]))) (h2 p _ hi0 rfl)

variable (c : Dev nD)

set_option maxHeartbeats 1000000 in
/-- What point t writes back is block t of the row-scaled product. -/
theorem flushed0_gen (A0 : Buf (Elt Ideal) ((c : Thread nD τ).loc (Pipeline.arrRef spec0 0)))
    (A1 : Buf (Elt Ideal) ((c : Thread nD τ).loc (Pipeline.arrRef spec0 1)))
    (A2 : Buf (Elt Ideal) ((c : Thread nD τ).loc (Pipeline.arrRef spec0 2))) (t : Fin cfg0.N) :
    (cfg0.win 3).cut (grid0.coords t) (k0_pay1 (F := Ideal) (((cfg0.win 0).blk t).view.read (Elt Ideal) A0) (((cfg0.win 1).blk t).view.read (Elt Ideal) A1) (((cfg0.win 2).blk t).view.read (Elt Ideal) A2))
      = ((cfg0.win 3).blk t).view.read (Elt Ideal) (Cert.Spec.preScale (k := 128) (d := 96) A0 A1 A2) := by
  obtain ⟨e00, e01, e10, e11, e20, e21, e30, e31⟩ := idx0 t
  funext j
  have hj0 : (j 0).val < 5000 := (j 0).isLt
  have hj1 : (j 1).val < 96 := (j 1).isLt
  have hj : (cfg0.win 3).xinj (grid0.coords t) j = ix2 (⟨(j 0).val, hj0⟩ : Fin 5000) (⟨(j 1).val, hj1⟩ : Fin 96) := by
    funext a
    match a with
    | ⟨0, _⟩ => rfl
    | ⟨1, _⟩ => rfl
  refine (congrArg (k0_pay1 (F := Ideal) (((cfg0.win 0).blk t).view.read (Elt Ideal) A0) (((cfg0.win 1).blk t).view.read (Elt Ideal) A1) (((cfg0.win 2).blk t).view.read (Elt Ideal) A2)) hj).trans ?_
  refine core0 A0 A1 A2 (((cfg0.win 0).blk t).view.read (Elt Ideal) A0) (((cfg0.win 1).blk t).view.read (Elt Ideal) A1) (((cfg0.win 2).blk t).view.read (Elt Ideal) A2) t.val ?_ ?_ ?_ ⟨(j 0).val, hj0⟩ ⟨(j 1).val, hj1⟩ (((cfg0.win 3).blk t).view.emb j) ?_ ?_
  · intro p q i h0 h1
    show A0 (((cfg0.win 0).blk t).view.emb (ix2 p q)) = A0 i
    refine congrArg A0 (funext fun a => Fin.ext ?_)
    match a with
    | ⟨0, _⟩ => show win0_0.index t (0 : Fin 2) * 5000 + 1 * p.val = (i 0).val; rw [e00, h0]; omega
    | ⟨1, _⟩ => show win0_0.index t (1 : Fin 2) * 128 + 1 * q.val = (i 1).val; rw [e01, h1]; omega
  · intro p q
    show A1 (((cfg0.win 1).blk t).view.emb (ix2 p q)) = A1 (ix2 p q)
    refine congrArg A1 (funext fun a => Fin.ext ?_)
    match a with
    | ⟨0, _⟩ => show win0_1.index t (0 : Fin 2) * 128 + 1 * p.val = p.val; rw [e10]; omega
    | ⟨1, _⟩ => show win0_1.index t (1 : Fin 2) * 96 + 1 * q.val = q.val; rw [e11]; omega
  · intro p i h0 h1
    show A2 (((cfg0.win 2).blk t).view.emb (ix2 p 0)) = A2 i
    refine congrArg A2 (funext fun a => Fin.ext ?_)
    match a with
    | ⟨0, _⟩ => show win0_2.index t (0 : Fin 2) * 5000 + 1 * p.val = (i 0).val; rw [e20, h0]; omega
    | ⟨1, _⟩ => show win0_2.index t (1 : Fin 2) * 1 + 1 * (0 : Fin 1).val = (i 1).val; rw [e21, h1]; rfl
  · show win0_3.index t (0 : Fin 2) * 5000 + 1 * (j 0).val = 5000 * t.val + (j 0).val; rw [e30]; omega
  · show win0_3.index t (1 : Fin 2) * 96 + 1 * (j 1).val = (j 1).val; rw [e31]; omega

/-- An index of the output array is in point t's block iff each coordinate is in the block's range on its axis. -/
theorem mem_blk0 (t : Fin cfg0.N) (i : S50000x96.Idx) :
    i ∈ ((cfg0.win 3).blk t).view.set ↔ ∀ a : Fin 2, win0_3.index t a * S5000x96.size a ≤ (i a).val ∧ (i a).val < win0_3.index t a * S5000x96.size a + S5000x96.size a := by
  show i ∈ ((View.whole main_v13).slice (win0_3.rect t)).set ↔ _
  rw [View.set_slice_whole, Rect.mem_set_unit]
  exact Iff.rfl

/-- Row r of the output array is in the block of point r / 5000. -/
theorem cover0 (i : S50000x96.Idx) : ∃ t : Fin cfg0.N, (cfg0.win 3).flush t = true ∧ i ∈ ((cfg0.win 3).blk t).view.set := by
  have hi0 : (i 0).val < 50000 := (i 0).isLt
  have hi1 : (i 1).val < 96 := (i 1).isLt
  obtain ⟨t, ht⟩ : ∃ t : Fin cfg0.N, t.val = (i 0).val / 5000 := ⟨⟨(i 0).val / 5000, by rw [show cfg0.N = 10 from N_0]; omega⟩, rfl⟩
  obtain ⟨e00, e01, e10, e11, e20, e21, e30, e31⟩ := idx0 t
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; rw [e30, ht]; omega
  | ⟨1, _⟩ => show win0_3.index t (1 : Fin 2) * 96 ≤ (i 1).val ∧ (i 1).val < win0_3.index t (1 : Fin 2) * 96 + 96; rw [e31]; omega

end Cert.KernelIdeal.Val
end
-- ==== Proof.KI.ValA0.lean ====
/- Region 0's output array after the run, at the exact instance: the product of the first input array and the weight array, each row scaled by the column array's entry,
   whatever the arrays hold when the region is entered. -/
import proofs.«115743_j55052890800725_2_alg».proof.Proof.KI.BodyA0
import proofs.«115743_j55052890800725_2_alg».proof.Proof.KI.ValA0pay

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

-- the buffer contents when the region is entered
variable (V : (c : Dev nD) → (b : Ref sig .tc) → Buf (Elt Ideal) ((c : Thread nD τ).loc b)) (c : Dev nD)

/-- What point t writes back to the output array is block t of the product of the first input array and the weight array with its rows scaled by the column array. -/
theorem flushed0_eq (t : Fin cfg0.N) :
    (dat0 (F := Ideal) V c).flushed 3 t = ((cfg0.win 3).blk t).view.read (Elt Ideal)
      (Cert.Spec.preScale (k := 128) (d := 96) (V c (Pipeline.arrRef spec0 0)) (V c (Pipeline.arrRef spec0 1)) (V c (Pipeline.arrRef spec0 2))) := by
  show (cfg0.win 3).cut (grid0.coords t) ((dat0 (F := Ideal) V c).after 3 t) = _
  rw [after0_3]
  unfold out0_3
  rw [View.canon_unit_zero v_hz0]
  simp only [View.ld_unit_zero (S := S5000x128) v_hz0, View.ld_unit_zero (S := S128x96) v_hz0, View.ld_unit_zero (S := S5000x1) v_hz0]
  unfold iblk0
  exact flushed0_gen c (V c (Pipeline.arrRef spec0 0)) (V c (Pipeline.arrRef spec0 1)) (V c (Pipeline.arrRef spec0 2)) t

/-- The output array after the run. -/
theorem val0 : (dat0 (F := Ideal) V c).arrAt 3 cfg0.N
    = Cert.Spec.preScale (k := 128) (d := 96) (V c (Pipeline.arrRef spec0 0)) (V c (Pipeline.arrRef spec0 1)) (V c (Pipeline.arrRef spec0 2)) :=
  (dat0 (F := Ideal) V c).arrAt_eq_of_cover 3 _ (fun t _ => flushed0_eq V c t) cover0

end Cert.KernelIdeal.Val

end
-- ==== Proof.KI.ValA2pay.lean ====
/- Region 2 at the exact instance, free of the proof data: the body's payload at an index (the block's entry scaled by its
   row's factor plus the bias entry, normalised by the mean and variance rows, scaled, shifted and clipped at zero), the
   windows' index maps over the grid (the row-tiled windows sit at block (t, 0), the whole-array windows at block (0, 0)),
   what a point writes back as block t of that function of whatever arrays the windows read, and the cover of the output
   array by the ten blocks of 5000 rows. -/
import proofs.«115743_j55052890800725_2_alg».proof.Proof.Gen.KernelIdeal.Launch
import proofs.«115743_j55052890800725_2_alg».proof.Proof.Gen.KernelIdeal.Skeleton
import proofs.«115743_j55052890800725_2_alg».proof.Proof.Gen.KernelIdeal.Points
import proofs.«115743_j55052890800725_2_alg».proof.Proof.LibDense
import proofs.«115743_j55052890800725_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

theorem v_hz2 : (![0, 0] : Fin 2 → Nat) = fun _ => 0 := funext fun a => by fin_cases a <;> rfl

/-- The payload at an index. -/
theorem pay2_at (x0 : FVec Ideal S5000x96 .f32) (d0 : FVec Ideal S5000x1 .f32) (b0 var0 g0 mean0 beta0 : FVec Ideal S1x96 .f32) (p : Fin 5000) (q : Fin 96) :
    k2_pay1 (F := Ideal) x0 d0 b0 var0 g0 mean0 beta0 (ix2 p q)
      = max (g0 (ix2 0 q) * ((x0 (ix2 p q) * d0 (ix2 p 0) + b0 (ix2 0 q)) - mean0 (ix2 0 q)) * Ideal.rsqrt (var0 (ix2 0 q) + Cert.Spec.epsBN) + beta0 (ix2 0 q)) 0 := by
  unfold k2_pay1
  have row : ∀ (v : FVec Ideal S1x96 .f32) (h : S1x96.ShapeCasts S1x96) (h' : S1x96.Broadcasts S5000x96), broadcastTo S5000x96 (shapeCast S1x96 v h) h' (ix2 p q) = v (ix2 0 q) := fun v h h' =>
    (broadcastTo_1b_ab_apply _ h' p q).trans (congrFun (shapeCast_self v h) (ix2 0 q))
  refine congrArg₂ (fun a b : EReal => max a b) (congrArg₂ (fun a b : EReal => a + b) (congrArg₂ (fun a b : EReal => a * b) (congrArg₂ (fun a b : EReal => a * b) (row g0 _ _) (congrArg₂ (fun a b : EReal => a - b) (congrArg₂ (fun a b : EReal => a + b) (congrArg₂ (fun a b : EReal => a * b) (congrFun (shapeCast_self x0 _) (ix2 p q)) ?d) (row b0 _ _)) (row mean0 _ _))) ?rs) (row beta0 _ _)) ?z
  case d =>
    refine (broadcastTo_apply _ _ (ix2 p q) (ix2 p 0) ?_).trans (congrFun (shapeCast_self d0 _) (ix2 p 0))
    intro a
    match a with
    | ⟨0, _⟩ => rfl
    | ⟨1, _⟩ => rfl
  case rs =>
    refine (broadcastTo_1b_ab_apply _ _ p q).trans ?_
    exact congrArg (fun z => Ideal.rsqrt (z + Cert.Spec.epsBN)) (congrFun (shapeCast_self var0 _) (ix2 0 q))
  case z => exact Ideal.ofBits_zero_f32

/-- The index maps over the grid: the row-tiled windows sit at block (t, 0), the whole-array windows at block (0, 0). -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- The payload at an index of a block whose rows are rows 5000·T … of the arrays: the normalised value there. -/
theorem core2 (A0 : Cert.Spec.Mat 50000 96) (A1 : Cert.Spec.Mat 50000 1) (A2 A3 A4 A5 A6 : Cert.Spec.Mat 1 96)
    (x0 : FVec Ideal S5000x96 .f32) (d0 : FVec Ideal S5000x1 .f32) (r2 r3 r4 r5 r6 : FVec Ideal S1x96 .f32) (T : Nat)
    (h0 : ∀ (p : Fin 5000) (q : Fin 96) (i : (⟨2, ![50000, 96]⟩ : Shape).Idx), (i 0).val = 5000 * T + p.val → (i 1).val = q.val → x0 (ix2 p q) = A0 i)
    (h1 : ∀ (p : Fin 5000) (i : (⟨2, ![50000, 1]⟩ : Shape).Idx), (i 0).val = 5000 * T + p.val → (i 1).val = 0 → d0 (ix2 p 0) = A1 i)
    (h2 : ∀ q : Fin 96, r2 (ix2 0 q) = A2 (ix2 0 q)) (h3 : ∀ q : Fin 96, r3 (ix2 0 q) = A3 (ix2 0 q))
    (h4 : ∀ q : Fin 96, r4 (ix2 0 q) = A4 (ix2 0 q)) (h5 : ∀ q : Fin 96, r5 (ix2 0 q) = A5 (ix2 0 q))
    (h6 : ∀ q : Fin 96, r6 (ix2 0 q) = A6 (ix2 0 q))
    (p : Fin 5000) (q : Fin 96) (i : (⟨2, ![50000, 96]⟩ : Shape).Idx) (hi0 : (i 0).val = 5000 * T + p.val) (hi1 : (i 1).val = q.val) :
    k2_pay1 (F := Ideal) x0 d0 r2 r6 r3 r5 r4 (ix2 p q) = Cert.Spec.bnRelu (Cert.Spec.valOf A0 A1 A2) A3 A4 A5 A6 i := by
  refine (pay2_at x0 d0 r2 r6 r3 r5 r4 p q).trans ?_
  have hq : i 1 = q := Fin.ext hi1
  unfold Cert.Spec.bnRelu Cert.Spec.valOf
  refine congrArg₂ max (congrArg₂ (· + ·) (congrArg₂ (· * ·) (congrArg₂ (· * ·) ((h3 q).trans (by rw [hq])) (congrArg₂ (· - ·) (congrArg₂ (· + ·) (congrArg₂ (· * ·) (h0 p q i hi0 hi1) (h1 p _ hi0 rfl)) ((h2 q).trans (by rw [hq]))) ((h5 q).trans (by rw [hq])))) (congrArg (fun z => Ideal.rsqrt (z + Cert.Spec.epsBN)) ((h6 q).trans (by rw [hq])))) ((h4 q).trans (by rw [hq]))) rfl

variable (c : Dev nD)

set_option maxHeartbeats 1000000 in
/-- What point t writes back is block t of the normalised value. -/
theorem flushed2_gen (A0 : Buf (Elt Ideal) ((c : Thread nD τ).loc (Pipeline.arrRef spec2 0)))
    (A1 : Buf (Elt Ideal) ((c : Thread nD τ).loc (Pipeline.arrRef spec2 1)))
    (A2 : Buf (Elt Ideal) ((c : Thread nD τ).loc (Pipeline.arrRef spec2 2)))
    (A3 : Buf (Elt Ideal) ((c : Thread nD τ).loc (Pipeline.arrRef spec2 3)))
    (A4 : Buf (Elt Ideal) ((c : Thread nD τ).loc (Pipeline.arrRef spec2 4)))
    (A5 : Buf (Elt Ideal) ((c : Thread nD τ).loc (Pipeline.arrRef spec2 5)))
    (A6 : Buf (Elt Ideal) ((c : Thread nD τ).loc (Pipeline.arrRef spec2 6))) (t : Fin cfg2.N) :
    (cfg2.win 7).cut (grid2.coords t) (k2_pay1 (F := Ideal) (((cfg2.win 0).blk t).view.read (Elt Ideal) A0) (((cfg2.win 1).blk t).view.read (Elt Ideal) A1) (((cfg2.win 2).blk t).view.read (Elt Ideal) A2) (((cfg2.win 6).blk t).view.read (Elt Ideal) A6) (((cfg2.win 3).blk t).view.read (Elt Ideal) A3) (((cfg2.win 5).blk t).view.read (Elt Ideal) A5) (((cfg2.win 4).blk t).view.read (Elt Ideal) A4))
      = ((cfg2.win 7).blk t).view.read (Elt Ideal) (Cert.Spec.bnRelu (d := 96) (Cert.Spec.valOf (d := 96) A0 A1 A2) A3 A4 A5 A6) := by
  obtain ⟨e00, e01, e10, e11, e20, e21, e30, e31, e40, e41, e50, e51, e60, e61, e70, e71⟩ := idx2 t
  funext j
  have hj0 : (j 0).val < 5000 := (j 0).isLt
  have hj1 : (j 1).val < 96 := (j 1).isLt
  have hj : (cfg2.win 7).xinj (grid2.coords t) j = ix2 (⟨(j 0).val, hj0⟩ : Fin 5000) (⟨(j 1).val, hj1⟩ : Fin 96) := by
    funext a
    match a with
    | ⟨0, _⟩ => rfl
    | ⟨1, _⟩ => rfl
  refine (congrArg (k2_pay1 (F := Ideal) (((cfg2.win 0).blk t).view.read (Elt Ideal) A0) (((cfg2.win 1).blk t).view.read (Elt Ideal) A1) (((cfg2.win 2).blk t).view.read (Elt Ideal) A2) (((cfg2.win 6).blk t).view.read (Elt Ideal) A6) (((cfg2.win 3).blk t).view.read (Elt Ideal) A3) (((cfg2.win 5).blk t).view.read (Elt Ideal) A5) (((cfg2.win 4).blk t).view.read (Elt Ideal) A4)) hj).trans ?_
  refine core2 A0 A1 A2 A3 A4 A5 A6 (((cfg2.win 0).blk t).view.read (Elt Ideal) A0) (((cfg2.win 1).blk t).view.read (Elt Ideal) A1) (((cfg2.win 2).blk t).view.read (Elt Ideal) A2) (((cfg2.win 3).blk t).view.read (Elt Ideal) A3) (((cfg2.win 4).blk t).view.read (Elt Ideal) A4) (((cfg2.win 5).blk t).view.read (Elt Ideal) A5) (((cfg2.win 6).blk t).view.read (Elt Ideal) A6) t.val ?_ ?_ ?_ ?_ ?_ ?_ ?_ ⟨(j 0).val, hj0⟩ ⟨(j 1).val, hj1⟩ (((cfg2.win 7).blk t).view.emb j) ?_ ?_
  · intro p q i h0 h1
    show A0 (((cfg2.win 0).blk t).view.emb (ix2 p q)) = A0 i
    refine congrArg A0 (funext fun a => Fin.ext ?_)
    match a with
    | ⟨0, _⟩ => show win2_0.index t (0 : Fin 2) * 5000 + 1 * p.val = (i 0).val; rw [e00, h0]; omega
    | ⟨1, _⟩ => show win2_0.index t (1 : Fin 2) * 96 + 1 * q.val = (i 1).val; rw [e01, h1]; omega
  · intro p i h0 h1
    show A1 (((cfg2.win 1).blk t).view.emb (ix2 p 0)) = A1 i
    refine congrArg A1 (funext fun a => Fin.ext ?_)
    match a with
    | ⟨0, _⟩ => show win2_1.index t (0 : Fin 2) * 5000 + 1 * p.val = (i 0).val; rw [e10, h0]; omega
    | ⟨1, _⟩ => show win2_1.index t (1 : Fin 2) * 1 + 1 * (0 : Fin 1).val = (i 1).val; rw [e11, h1]; rfl
  · intro q
    show A2 (((cfg2.win 2).blk t).view.emb (ix2 0 q)) = A2 (ix2 0 q)
    refine congrArg A2 (funext fun a => Fin.ext ?_)
    match a with
    | ⟨0, _⟩ => show win2_2.index t (0 : Fin 2) * 1 + 1 * (0 : Fin 1).val = (0 : Fin 1).val; rw [e20]; rfl
    | ⟨1, _⟩ => show win2_2.index t (1 : Fin 2) * 96 + 1 * q.val = q.val; rw [e21]; omega
  · intro q
    show A3 (((cfg2.win 3).blk t).view.emb (ix2 0 q)) = A3 (ix2 0 q)
    refine congrArg A3 (funext fun a => Fin.ext ?_)
    match a with
    | ⟨0, _⟩ => show win2_3.index t (0 : Fin 2) * 1 + 1 * (0 : Fin 1).val = (0 : Fin 1).val; rw [e30]; rfl
    | ⟨1, _⟩ => show win2_3.index t (1 : Fin 2) * 96 + 1 * q.val = q.val; rw [e31]; omega
  · intro q
    show A4 (((cfg2.win 4).blk t).view.emb (ix2 0 q)) = A4 (ix2 0 q)
    refine congrArg A4 (funext fun a => Fin.ext ?_)
    match a with
    | ⟨0, _⟩ => show win2_4.index t (0 : Fin 2) * 1 + 1 * (0 : Fin 1).val = (0 : Fin 1).val; rw [e40]; rfl
    | ⟨1, _⟩ => show win2_4.index t (1 : Fin 2) * 96 + 1 * q.val = q.val; rw [e41]; omega
  · intro q
    show A5 (((cfg2.win 5).blk t).view.emb (ix2 0 q)) = A5 (ix2 0 q)
    refine congrArg A5 (funext fun a => Fin.ext ?_)
    match a with
    | ⟨0, _⟩ => show win2_5.index t (0 : Fin 2) * 1 + 1 * (0 : Fin 1).val = (0 : Fin 1).val; rw [e50]; rfl
    | ⟨1, _⟩ => show win2_5.index t (1 : Fin 2) * 96 + 1 * q.val = q.val; rw [e51]; omega
  · intro q
    show A6 (((cfg2.win 6).blk t).view.emb (ix2 0 q)) = A6 (ix2 0 q)
    refine congrArg A6 (funext fun a => Fin.ext ?_)
    match a with
    | ⟨0, _⟩ => show win2_6.index t (0 : Fin 2) * 1 + 1 * (0 : Fin 1).val = (0 : Fin 1).val; rw [e60]; rfl
    | ⟨1, _⟩ => show win2_6.index t (1 : Fin 2) * 96 + 1 * q.val = q.val; rw [e61]; omega
  · show win2_7.index t (0 : Fin 2) * 5000 + 1 * (j 0).val = 5000 * t.val + (j 0).val; rw [e70]; omega
  · show win2_7.index t (1 : Fin 2) * 96 + 1 * (j 1).val = (j 1).val; rw [e71]; omega

/-- An index of the output array is in point t's block iff each coordinate is in the block's range on its axis. -/
theorem mem_blk2 (t : Fin cfg2.N) (i : S50000x96.Idx) :
    i ∈ ((cfg2.win 7).blk t).view.set ↔ ∀ a : Fin 2, win2_7.index t a * S5000x96.size a ≤ (i a).val ∧ (i a).val < win2_7.index t a * S5000x96.size a + S5000x96.size a := by
  show i ∈ ((View.whole main_v40).slice (win2_7.rect t)).set ↔ _
  rw [View.set_slice_whole, Rect.mem_set_unit]
  exact Iff.rfl

/-- Row r of the output array is in the block of point r / 5000. -/
theorem cover2 (i : S50000x96.Idx) : ∃ t : Fin cfg2.N, (cfg2.win 7).flush t = true ∧ i ∈ ((cfg2.win 7).blk t).view.set := by
  have hi0 : (i 0).val < 50000 := (i 0).isLt
  have hi1 : (i 1).val < 96 := (i 1).isLt
  obtain ⟨t, ht⟩ : ∃ t : Fin cfg2.N, t.val = (i 0).val / 5000 := ⟨⟨(i 0).val / 5000, by rw [show cfg2.N = 10 from N_2]; omega⟩, rfl⟩
  obtain ⟨e00, e01, e10, e11, e20, e21, e30, e31, e40, e41, e50, e51, e60, e61, e70, e71⟩ := idx2 t
  refine ⟨t, flush2_7 t, ?_⟩
  rw [mem_blk2]
  intro a
  match a with
  | ⟨0, _⟩ => show win2_7.index t (0 : Fin 2) * 5000 ≤ (i 0).val ∧ (i 0).val < win2_7.index t (0 : Fin 2) * 5000 + 5000; rw [e70, ht]; omega
  | ⟨1, _⟩ => show win2_7.index t (1 : Fin 2) * 96 ≤ (i 1).val ∧ (i 1).val < win2_7.index t (1 : Fin 2) * 96 + 96; rw [e71]; omega

end Cert.KernelIdeal.Val
end
-- ==== Proof.KI.ValA2.lean ====
/- Region 2's output array after the run, at the exact instance: the first input array with rows scaled by the column array plus the bias row, normalised by the mean and variance rows, scaled, shifted and clipped at zero,
   whatever the arrays hold when the region is entered. -/
import proofs.«115743_j55052890800725_2_alg».proof.Proof.KI.BodyA2
import proofs.«115743_j55052890800725_2_alg».proof.Proof.KI.ValA2pay

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

-- the buffer contents when the region is entered
variable (V : (c : Dev nD) → (b : Ref sig .tc) → Buf (Elt Ideal) ((c : Thread nD τ).loc b)) (c : Dev nD)

/-- What point t writes back to the output array is block t of the row-scaled, biased first input array normalised by the mean and variance rows, scaled, shifted and clipped at zero. -/
theorem flushed2_eq (t : Fin cfg2.N) :
    (dat2 (F := Ideal) V c).flushed 7 t = ((cfg2.win 7).blk t).view.read (Elt Ideal)
      (Cert.Spec.bnRelu (d := 96) (Cert.Spec.valOf (d := 96) (V c (Pipeline.arrRef spec2 0)) (V c (Pipeline.arrRef spec2 1)) (V c (Pipeline.arrRef spec2 2))) (V c (Pipeline.arrRef spec2 3)) (V c (Pipeline.arrRef spec2 4)) (V c (Pipeline.arrRef spec2 5)) (V c (Pipeline.arrRef spec2 6))) := by
  show (cfg2.win 7).cut (grid2.coords t) ((dat2 (F := Ideal) V c).after 7 t) = _
  rw [after2_7]
  unfold out2_7
  rw [View.canon_unit_zero v_hz2]
  simp only [View.ld_unit_zero (S := S5000x96) v_hz2, View.ld_unit_zero (S := S5000x1) v_hz2, View.ld_unit_zero (S := S1x96) v_hz2]
  unfold iblk2
  exact flushed2_gen c (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) t

/-- The output array after the run. -/
theorem val2 : (dat2 (F := Ideal) V c).arrAt 7 cfg2.N
    = Cert.Spec.bnRelu (d := 96) (Cert.Spec.valOf (d := 96) (V c (Pipeline.arrRef spec2 0)) (V c (Pipeline.arrRef spec2 1)) (V c (Pipeline.arrRef spec2 2))) (V c (Pipeline.arrRef spec2 3)) (V c (Pipeline.arrRef spec2 4)) (V c (Pipeline.arrRef spec2 5)) (V c (Pipeline.arrRef spec2 6)) :=
  (dat2 (F := Ideal) V c).arrAt_eq_of_cover 7 _ (fun t _ => flushed2_eq V c t) cover2

end Cert.KernelIdeal.Val

end
-- ==== Proof.KI.ValA3pay.lean ====
/- Region 3 at the exact instance, free of the proof data: the body's payload at an index (a row of the left block
   against a column of the weight, scaled by the row's entry of the column block), the windows' index maps over the grid
   (the row-tiled windows sit at block (t, 0), the whole-array window at block (0, 0)), what a point writes back as block t
   of the row-scaled product of whatever arrays the windows read, and the cover of the output array by the ten blocks of
   5000 rows. -/
import proofs.«115743_j55052890800725_2_alg».proof.Proof.Gen.KernelIdeal.Launch
import proofs.«115743_j55052890800725_2_alg».proof.Proof.Gen.KernelIdeal.Skeleton
import proofs.«115743_j55052890800725_2_alg».proof.Proof.Gen.KernelIdeal.Points
import proofs.«115743_j55052890800725_2_alg».proof.Proof.LibDense
import proofs.«115743_j55052890800725_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

theorem v_hz3 : (![0, 0] : Fin 2 → Nat) = fun _ => 0 := funext fun a => by fin_cases a <;> rfl

/-- The product's record is a plain one: rows of the left operand against columns of the right. -/
theorem plain3 : Cert.LibDense.PlainDot dot_S5000x96_S96x96_S5000x96_1_0_0_1_n_n where
  rank := by rfl
  size := by rfl
  l0 := fun j k => by rfl
  l1 := fun j k => by rfl
  r0 := fun j k => by rfl
  r1 := fun j k => by rfl

/-- The payload at an index: the row of the left block against the column of the weight, times the row's factor. -/
theorem pay3_at (x0 : FVec Ideal S5000x96 .bf16) (w0 : FVec Ideal S96x96 .f32) (d0 : FVec Ideal S5000x1 .f32) (p : Fin 5000) (q : Fin 96) :
    k3_pay1 (F := Ideal) x0 w0 d0 (ix2 p q) = (∑ κ : Fin 96, x0 (ix2 p κ) * w0 (ix2 κ q)) * d0 (ix2 p 0) := by
  unfold k3_pay1
  refine congrArg₂ (fun a b : EReal => a * b) ?_ ?_
  · refine (Cert.LibDense.matmul_zero_plain plain3 none _ _ (ix2 p q)).trans ?_
    refine Finset.sum_congr rfl fun κ _ => ?_
    exact congrArg₂ (fun a b : EReal => a * b) (congrFun (shapeCast_self x0 _) (ix2 p κ)) rfl
  · refine (broadcastTo_apply _ _ (ix2 p q) (ix2 p 0) ?_).trans ?_
    · intro a
      match a with
      | ⟨0, _⟩ => rfl
      | ⟨1, _⟩ => rfl
    · exact congrFun (shapeCast_self d0 _) (ix2 p 0)

/-- The index maps over the grid: the row-tiled windows sit at block (t, 0), the whole-array window at block (0, 0). -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- The payload at an index of a block whose rows are rows 5000·T … of the arrays: the row-scaled product there. -/
theorem core3 (A0 : Cert.Spec.Mat 50000 96) (A1 : Cert.Spec.Mat 96 96) (A2 : Cert.Spec.Mat 50000 1)
    (x0 : FVec Ideal S5000x96 .bf16) (w0 : FVec Ideal S96x96 .f32) (d0 : FVec Ideal S5000x1 .f32) (T : Nat)
    (h0 : ∀ (p : Fin 5000) (q : Fin 96) (i : (⟨2, ![50000, 96]⟩ : Shape).Idx), (i 0).val = 5000 * T + p.val → (i 1).val = q.val → x0 (ix2 p q) = A0 i)
    (h1 : ∀ (p : Fin 96) (q : Fin 96), w0 (ix2 p q) = A1 (ix2 p q))
    (h2 : ∀ (p : Fin 5000) (i : (⟨2, ![50000, 1]⟩ : Shape).Idx), (i 0).val = 5000 * T + p.val → (i 1).val = 0 → d0 (ix2 p 0) = A2 i)
    (p : Fin 5000) (q : Fin 96) (i : (⟨2, ![50000, 96]⟩ : Shape).Idx) (hi0 : (i 0).val = 5000 * T + p.val) (hi1 : (i 1).val = q.val) :
    k3_pay1 (F := Ideal) x0 w0 d0 (ix2 p q) = Cert.Spec.preScale A0 A1 A2 i := by
  refine (pay3_at x0 w0 d0 p q).trans ?_
  have hq : i 1 = q := Fin.ext hi1
  unfold Cert.Spec.preScale Cert.Spec.mm
  refine congrArg₂ (· * ·) (Finset.sum_congr rfl fun κ _ => congrArg₂ (· * ·) (h0 p κ _ hi0 rfl) ((h1 κ q).trans (by rw [hq]))) (h2 p _ hi0 rfl)

variable (c : Dev nD)

set_option maxHeartbeats 1000000 in
/-- What point t writes back is block t of the row-scaled product. -/
theorem flushed3_gen (A0 : Buf (Elt Ideal) ((c : Thread nD τ).loc (Pipeline.arrRef spec3 0)))
    (A1 : Buf (Elt Ideal) ((c : Thread nD τ).loc (Pipeline.arrRef spec3 1)))
    (A2 : Buf (Elt Ideal) ((c : Thread nD τ).loc (Pipeline.arrRef spec3 2))) (t : Fin cfg3.N) :
    (cfg3.win 3).cut (grid3.coords t) (k3_pay1 (F := Ideal) (((cfg3.win 0).blk t).view.read (Elt Ideal) A0) (((cfg3.win 1).blk t).view.read (Elt Ideal) A1) (((cfg3.win 2).blk t).view.read (Elt Ideal) A2))
      = ((cfg3.win 3).blk t).view.read (Elt Ideal) (Cert.Spec.preScale (k := 96) (d := 96) A0 A1 A2) := by
  obtain ⟨e00, e01, e10, e11, e20, e21, e30, e31⟩ := idx3 t
  funext j
  have hj0 : (j 0).val < 5000 := (j 0).isLt
  have hj1 : (j 1).val < 96 := (j 1).isLt
  have hj : (cfg3.win 3).xinj (grid3.coords t) j = ix2 (⟨(j 0).val, hj0⟩ : Fin 5000) (⟨(j 1).val, hj1⟩ : Fin 96) := by
    funext a
    match a with
    | ⟨0, _⟩ => rfl
    | ⟨1, _⟩ => rfl
  refine (congrArg (k3_pay1 (F := Ideal) (((cfg3.win 0).blk t).view.read (Elt Ideal) A0) (((cfg3.win 1).blk t).view.read (Elt Ideal) A1) (((cfg3.win 2).blk t).view.read (Elt Ideal) A2)) hj).trans ?_
  refine core3 A0 A1 A2 (((cfg3.win 0).blk t).view.read (Elt Ideal) A0) (((cfg3.win 1).blk t).view.read (Elt Ideal) A1) (((cfg3.win 2).blk t).view.read (Elt Ideal) A2) t.val ?_ ?_ ?_ ⟨(j 0).val, hj0⟩ ⟨(j 1).val, hj1⟩ (((cfg3.win 3).blk t).view.emb j) ?_ ?_
  · intro p q i h0 h1
    show A0 (((cfg3.win 0).blk t).view.emb (ix2 p q)) = A0 i
    refine congrArg A0 (funext fun a => Fin.ext ?_)
    match a with
    | ⟨0, _⟩ => show win3_0.index t (0 : Fin 2) * 5000 + 1 * p.val = (i 0).val; rw [e00, h0]; omega
    | ⟨1, _⟩ => show win3_0.index t (1 : Fin 2) * 96 + 1 * q.val = (i 1).val; rw [e01, h1]; omega
  · intro p q
    show A1 (((cfg3.win 1).blk t).view.emb (ix2 p q)) = A1 (ix2 p q)
    refine congrArg A1 (funext fun a => Fin.ext ?_)
    match a with
    | ⟨0, _⟩ => show win3_1.index t (0 : Fin 2) * 96 + 1 * p.val = p.val; rw [e10]; omega
    | ⟨1, _⟩ => show win3_1.index t (1 : Fin 2) * 96 + 1 * q.val = q.val; rw [e11]; omega
  · intro p i h0 h1
    show A2 (((cfg3.win 2).blk t).view.emb (ix2 p 0)) = A2 i
    refine congrArg A2 (funext fun a => Fin.ext ?_)
    match a with
    | ⟨0, _⟩ => show win3_2.index t (0 : Fin 2) * 5000 + 1 * p.val = (i 0).val; rw [e20, h0]; omega
    | ⟨1, _⟩ => show win3_2.index t (1 : Fin 2) * 1 + 1 * (0 : Fin 1).val = (i 1).val; rw [e21, h1]; rfl
  · show win3_3.index t (0 : Fin 2) * 5000 + 1 * (j 0).val = 5000 * t.val + (j 0).val; rw [e30]; omega
  · show win3_3.index t (1 : Fin 2) * 96 + 1 * (j 1).val = (j 1).val; rw [e31]; omega

/-- An index of the output array is in point t's block iff each coordinate is in the block's range on its axis. -/
theorem mem_blk3 (t : Fin cfg3.N) (i : S50000x96.Idx) :
    i ∈ ((cfg3.win 3).blk t).view.set ↔ ∀ a : Fin 2, win3_3.index t a * S5000x96.size a ≤ (i a).val ∧ (i a).val < win3_3.index t a * S5000x96.size a + S5000x96.size a := by
  show i ∈ ((View.whole main_v41).slice (win3_3.rect t)).set ↔ _
  rw [View.set_slice_whole, Rect.mem_set_unit]
  exact Iff.rfl

/-- Row r of the output array is in the block of point r / 5000. -/
theorem cover3 (i : S50000x96.Idx) : ∃ t : Fin cfg3.N, (cfg3.win 3).flush t = true ∧ i ∈ ((cfg3.win 3).blk t).view.set := by
  have hi0 : (i 0).val < 50000 := (i 0).isLt
  have hi1 : (i 1).val < 96 := (i 1).isLt
  obtain ⟨t, ht⟩ : ∃ t : Fin cfg3.N, t.val = (i 0).val / 5000 := ⟨⟨(i 0).val / 5000, by rw [show cfg3.N = 10 from N_3]; omega⟩, rfl⟩
  obtain ⟨e00, e01, e10, e11, e20, e21, e30, e31⟩ := idx3 t
  refine ⟨t, flush3_3 t, ?_⟩
  rw [mem_blk3]
  intro a
  match a with
  | ⟨0, _⟩ => show win3_3.index t (0 : Fin 2) * 5000 ≤ (i 0).val ∧ (i 0).val < win3_3.index t (0 : Fin 2) * 5000 + 5000; rw [e30, ht]; omega
  | ⟨1, _⟩ => show win3_3.index t (1 : Fin 2) * 96 ≤ (i 1).val ∧ (i 1).val < win3_3.index t (1 : Fin 2) * 96 + 96; rw [e31]; omega

end Cert.KernelIdeal.Val
end
-- ==== Proof.KI.ValA3.lean ====
/- Region 3's output array after the run, at the exact instance: the product of the first input array and the weight array, each row scaled by the column array's entry,
   whatever the arrays hold when the region is entered. -/
import proofs.«115743_j55052890800725_2_alg».proof.Proof.KI.BodyA3
import proofs.«115743_j55052890800725_2_alg».proof.Proof.KI.ValA3pay

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

-- the buffer contents when the region is entered
variable (V : (c : Dev nD) → (b : Ref sig .tc) → Buf (Elt Ideal) ((c : Thread nD τ).loc b)) (c : Dev nD)

/-- What point t writes back to the output array is block t of the product of the first input array and the weight array with its rows scaled by the column array. -/
theorem flushed3_eq (t : Fin cfg3.N) :
    (dat3 (F := Ideal) V c).flushed 3 t = ((cfg3.win 3).blk t).view.read (Elt Ideal)
      (Cert.Spec.preScale (k := 96) (d := 96) (V c (Pipeline.arrRef spec3 0)) (V c (Pipeline.arrRef spec3 1)) (V c (Pipeline.arrRef spec3 2))) := by
  show (cfg3.win 3).cut (grid3.coords t) ((dat3 (F := Ideal) V c).after 3 t) = _
  rw [after3_3]
  unfold out3_3
  rw [View.canon_unit_zero v_hz3]
  simp only [View.ld_unit_zero (S := S5000x96) v_hz3, View.ld_unit_zero (S := S96x96) v_hz3, View.ld_unit_zero (S := S5000x1) v_hz3]
  unfold iblk3
  exact flushed3_gen c (V c (Pipeline.arrRef spec3 0)) (V c (Pipeline.arrRef spec3 1)) (V c (Pipeline.arrRef spec3 2)) t

/-- The output array after the run. -/
theorem val3 : (dat3 (F := Ideal) V c).arrAt 3 cfg3.N
    = Cert.Spec.preScale (k := 96) (d := 96) (V c (Pipeline.arrRef spec3 0)) (V c (Pipeline.arrRef spec3 1)) (V c (Pipeline.arrRef spec3 2)) :=
  (dat3 (F := Ideal) V c).arrAt_eq_of_cover 3 _ (fun t _ => flushed3_eq V c t) cover3

end Cert.KernelIdeal.Val

end
-- ==== Proof.KI.ValA5pay.lean ====
/- Region 5 at the exact instance, free of the proof data: the body's payload at an index (the block's entry scaled by its
   row's factor plus the bias entry, normalised by the mean and variance rows, scaled, shifted and clipped at zero), the
   windows' index maps over the grid (the row-tiled windows sit at block (t, 0), the whole-array windows at block (0, 0)),
   what a point writes back as block t of that function of whatever arrays the windows read, and the cover of the output
   array by the ten blocks of 5000 rows. -/
import proofs.«115743_j55052890800725_2_alg».proof.Proof.Gen.KernelIdeal.Launch
import proofs.«115743_j55052890800725_2_alg».proof.Proof.Gen.KernelIdeal.Skeleton
import proofs.«115743_j55052890800725_2_alg».proof.Proof.Gen.KernelIdeal.Points
import proofs.«115743_j55052890800725_2_alg».proof.Proof.LibDense
import proofs.«115743_j55052890800725_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

theorem v_hz5 : (![0, 0] : Fin 2 → Nat) = fun _ => 0 := funext fun a => by fin_cases a <;> rfl

/-- The payload at an index. -/
theorem pay5_at (x0 : FVec Ideal S5000x96 .f32) (d0 : FVec Ideal S5000x1 .f32) (b0 var0 g0 mean0 beta0 : FVec Ideal S1x96 .f32) (p : Fin 5000) (q : Fin 96) :
    k5_pay1 (F := Ideal) x0 d0 b0 var0 g0 mean0 beta0 (ix2 p q)
      = max (g0 (ix2 0 q) * ((x0 (ix2 p q) * d0 (ix2 p 0) + b0 (ix2 0 q)) - mean0 (ix2 0 q)) * Ideal.rsqrt (var0 (ix2 0 q) + Cert.Spec.epsBN) + beta0 (ix2 0 q)) 0 := by
  unfold k5_pay1
  have row : ∀ (v : FVec Ideal S1x96 .f32) (h : S1x96.ShapeCasts S1x96) (h' : S1x96.Broadcasts S5000x96), broadcastTo S5000x96 (shapeCast S1x96 v h) h' (ix2 p q) = v (ix2 0 q) := fun v h h' =>
    (broadcastTo_1b_ab_apply _ h' p q).trans (congrFun (shapeCast_self v h) (ix2 0 q))
  refine congrArg₂ (fun a b : EReal => max a b) (congrArg₂ (fun a b : EReal => a + b) (congrArg₂ (fun a b : EReal => a * b) (congrArg₂ (fun a b : EReal => a * b) (row g0 _ _) (congrArg₂ (fun a b : EReal => a - b) (congrArg₂ (fun a b : EReal => a + b) (congrArg₂ (fun a b : EReal => a * b) (congrFun (shapeCast_self x0 _) (ix2 p q)) ?d) (row b0 _ _)) (row mean0 _ _))) ?rs) (row beta0 _ _)) ?z
  case d =>
    refine (broadcastTo_apply _ _ (ix2 p q) (ix2 p 0) ?_).trans (congrFun (shapeCast_self d0 _) (ix2 p 0))
    intro a
    match a with
    | ⟨0, _⟩ => rfl
    | ⟨1, _⟩ => rfl
  case rs =>
    refine (broadcastTo_1b_ab_apply _ _ p q).trans ?_
    exact congrArg (fun z => Ideal.rsqrt (z + Cert.Spec.epsBN)) (congrFun (shapeCast_self var0 _) (ix2 0 q))
  case z => exact Ideal.ofBits_zero_f32

/-- The index maps over the grid: the row-tiled windows sit at block (t, 0), the whole-array windows at block (0, 0). -/
theorem idx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = t.val ∧ win5_7.index t (1 : Fin 2) = 0 :=
  (by decide +kernel : ∀ t : Fin grid5.N, _)

/-- The payload at an index of a block whose rows are rows 5000·T … of the arrays: the normalised value there. -/
theorem core5 (A0 : Cert.Spec.Mat 50000 96) (A1 : Cert.Spec.Mat 50000 1) (A2 A3 A4 A5 A6 : Cert.Spec.Mat 1 96)
    (x0 : FVec Ideal S5000x96 .f32) (d0 : FVec Ideal S5000x1 .f32) (r2 r3 r4 r5 r6 : FVec Ideal S1x96 .f32) (T : Nat)
    (h0 : ∀ (p : Fin 5000) (q : Fin 96) (i : (⟨2, ![50000, 96]⟩ : Shape).Idx), (i 0).val = 5000 * T + p.val → (i 1).val = q.val → x0 (ix2 p q) = A0 i)
    (h1 : ∀ (p : Fin 5000) (i : (⟨2, ![50000, 1]⟩ : Shape).Idx), (i 0).val = 5000 * T + p.val → (i 1).val = 0 → d0 (ix2 p 0) = A1 i)
    (h2 : ∀ q : Fin 96, r2 (ix2 0 q) = A2 (ix2 0 q)) (h3 : ∀ q : Fin 96, r3 (ix2 0 q) = A3 (ix2 0 q))
    (h4 : ∀ q : Fin 96, r4 (ix2 0 q) = A4 (ix2 0 q)) (h5 : ∀ q : Fin 96, r5 (ix2 0 q) = A5 (ix2 0 q))
    (h6 : ∀ q : Fin 96, r6 (ix2 0 q) = A6 (ix2 0 q))
    (p : Fin 5000) (q : Fin 96) (i : (⟨2, ![50000, 96]⟩ : Shape).Idx) (hi0 : (i 0).val = 5000 * T + p.val) (hi1 : (i 1).val = q.val) :
    k5_pay1 (F := Ideal) x0 d0 r2 r6 r3 r5 r4 (ix2 p q) = Cert.Spec.bnRelu (Cert.Spec.valOf A0 A1 A2) A3 A4 A5 A6 i := by
  refine (pay5_at x0 d0 r2 r6 r3 r5 r4 p q).trans ?_
  have hq : i 1 = q := Fin.ext hi1
  unfold Cert.Spec.bnRelu Cert.Spec.valOf
  refine congrArg₂ max (congrArg₂ (· + ·) (congrArg₂ (· * ·) (congrArg₂ (· * ·) ((h3 q).trans (by rw [hq])) (congrArg₂ (· - ·) (congrArg₂ (· + ·) (congrArg₂ (· * ·) (h0 p q i hi0 hi1) (h1 p _ hi0 rfl)) ((h2 q).trans (by rw [hq]))) ((h5 q).trans (by rw [hq])))) (congrArg (fun z => Ideal.rsqrt (z + Cert.Spec.epsBN)) ((h6 q).trans (by rw [hq])))) ((h4 q).trans (by rw [hq]))) rfl

variable (c : Dev nD)

set_option maxHeartbeats 1000000 in
/-- What point t writes back is block t of the normalised value. -/
theorem flushed5_gen (A0 : Buf (Elt Ideal) ((c : Thread nD τ).loc (Pipeline.arrRef spec5 0)))
    (A1 : Buf (Elt Ideal) ((c : Thread nD τ).loc (Pipeline.arrRef spec5 1)))
    (A2 : Buf (Elt Ideal) ((c : Thread nD τ).loc (Pipeline.arrRef spec5 2)))
    (A3 : Buf (Elt Ideal) ((c : Thread nD τ).loc (Pipeline.arrRef spec5 3)))
    (A4 : Buf (Elt Ideal) ((c : Thread nD τ).loc (Pipeline.arrRef spec5 4)))
    (A5 : Buf (Elt Ideal) ((c : Thread nD τ).loc (Pipeline.arrRef spec5 5)))
    (A6 : Buf (Elt Ideal) ((c : Thread nD τ).loc (Pipeline.arrRef spec5 6))) (t : Fin cfg5.N) :
    (cfg5.win 7).cut (grid5.coords t) (k5_pay1 (F := Ideal) (((cfg5.win 0).blk t).view.read (Elt Ideal) A0) (((cfg5.win 1).blk t).view.read (Elt Ideal) A1) (((cfg5.win 2).blk t).view.read (Elt Ideal) A2) (((cfg5.win 6).blk t).view.read (Elt Ideal) A6) (((cfg5.win 3).blk t).view.read (Elt Ideal) A3) (((cfg5.win 5).blk t).view.read (Elt Ideal) A5) (((cfg5.win 4).blk t).view.read (Elt Ideal) A4))
      = ((cfg5.win 7).blk t).view.read (Elt Ideal) (Cert.Spec.bnRelu (d := 96) (Cert.Spec.valOf (d := 96) A0 A1 A2) A3 A4 A5 A6) := by
  obtain ⟨e00, e01, e10, e11, e20, e21, e30, e31, e40, e41, e50, e51, e60, e61, e70, e71⟩ := idx5 t
  funext j
  have hj0 : (j 0).val < 5000 := (j 0).isLt
  have hj1 : (j 1).val < 96 := (j 1).isLt
  have hj : (cfg5.win 7).xinj (grid5.coords t) j = ix2 (⟨(j 0).val, hj0⟩ : Fin 5000) (⟨(j 1).val, hj1⟩ : Fin 96) := by
    funext a
    match a with
    | ⟨0, _⟩ => rfl
    | ⟨1, _⟩ => rfl
  refine (congrArg (k5_pay1 (F := Ideal) (((cfg5.win 0).blk t).view.read (Elt Ideal) A0) (((cfg5.win 1).blk t).view.read (Elt Ideal) A1) (((cfg5.win 2).blk t).view.read (Elt Ideal) A2) (((cfg5.win 6).blk t).view.read (Elt Ideal) A6) (((cfg5.win 3).blk t).view.read (Elt Ideal) A3) (((cfg5.win 5).blk t).view.read (Elt Ideal) A5) (((cfg5.win 4).blk t).view.read (Elt Ideal) A4)) hj).trans ?_
  refine core5 A0 A1 A2 A3 A4 A5 A6 (((cfg5.win 0).blk t).view.read (Elt Ideal) A0) (((cfg5.win 1).blk t).view.read (Elt Ideal) A1) (((cfg5.win 2).blk t).view.read (Elt Ideal) A2) (((cfg5.win 3).blk t).view.read (Elt Ideal) A3) (((cfg5.win 4).blk t).view.read (Elt Ideal) A4) (((cfg5.win 5).blk t).view.read (Elt Ideal) A5) (((cfg5.win 6).blk t).view.read (Elt Ideal) A6) t.val ?_ ?_ ?_ ?_ ?_ ?_ ?_ ⟨(j 0).val, hj0⟩ ⟨(j 1).val, hj1⟩ (((cfg5.win 7).blk t).view.emb j) ?_ ?_
  · intro p q i h0 h1
    show A0 (((cfg5.win 0).blk t).view.emb (ix2 p q)) = A0 i
    refine congrArg A0 (funext fun a => Fin.ext ?_)
    match a with
    | ⟨0, _⟩ => show win5_0.index t (0 : Fin 2) * 5000 + 1 * p.val = (i 0).val; rw [e00, h0]; omega
    | ⟨1, _⟩ => show win5_0.index t (1 : Fin 2) * 96 + 1 * q.val = (i 1).val; rw [e01, h1]; omega
  · intro p i h0 h1
    show A1 (((cfg5.win 1).blk t).view.emb (ix2 p 0)) = A1 i
    refine congrArg A1 (funext fun a => Fin.ext ?_)
    match a with
    | ⟨0, _⟩ => show win5_1.index t (0 : Fin 2) * 5000 + 1 * p.val = (i 0).val; rw [e10, h0]; omega
    | ⟨1, _⟩ => show win5_1.index t (1 : Fin 2) * 1 + 1 * (0 : Fin 1).val = (i 1).val; rw [e11, h1]; rfl
  · intro q
    show A2 (((cfg5.win 2).blk t).view.emb (ix2 0 q)) = A2 (ix2 0 q)
    refine congrArg A2 (funext fun a => Fin.ext ?_)
    match a with
    | ⟨0, _⟩ => show win5_2.index t (0 : Fin 2) * 1 + 1 * (0 : Fin 1).val = (0 : Fin 1).val; rw [e20]; rfl
    | ⟨1, _⟩ => show win5_2.index t (1 : Fin 2) * 96 + 1 * q.val = q.val; rw [e21]; omega
  · intro q
    show A3 (((cfg5.win 3).blk t).view.emb (ix2 0 q)) = A3 (ix2 0 q)
    refine congrArg A3 (funext fun a => Fin.ext ?_)
    match a with
    | ⟨0, _⟩ => show win5_3.index t (0 : Fin 2) * 1 + 1 * (0 : Fin 1).val = (0 : Fin 1).val; rw [e30]; rfl
    | ⟨1, _⟩ => show win5_3.index t (1 : Fin 2) * 96 + 1 * q.val = q.val; rw [e31]; omega
  · intro q
    show A4 (((cfg5.win 4).blk t).view.emb (ix2 0 q)) = A4 (ix2 0 q)
    refine congrArg A4 (funext fun a => Fin.ext ?_)
    match a with
    | ⟨0, _⟩ => show win5_4.index t (0 : Fin 2) * 1 + 1 * (0 : Fin 1).val = (0 : Fin 1).val; rw [e40]; rfl
    | ⟨1, _⟩ => show win5_4.index t (1 : Fin 2) * 96 + 1 * q.val = q.val; rw [e41]; omega
  · intro q
    show A5 (((cfg5.win 5).blk t).view.emb (ix2 0 q)) = A5 (ix2 0 q)
    refine congrArg A5 (funext fun a => Fin.ext ?_)
    match a with
    | ⟨0, _⟩ => show win5_5.index t (0 : Fin 2) * 1 + 1 * (0 : Fin 1).val = (0 : Fin 1).val; rw [e50]; rfl
    | ⟨1, _⟩ => show win5_5.index t (1 : Fin 2) * 96 + 1 * q.val = q.val; rw [e51]; omega
  · intro q
    show A6 (((cfg5.win 6).blk t).view.emb (ix2 0 q)) = A6 (ix2 0 q)
    refine congrArg A6 (funext fun a => Fin.ext ?_)
    match a with
    | ⟨0, _⟩ => show win5_6.index t (0 : Fin 2) * 1 + 1 * (0 : Fin 1).val = (0 : Fin 1).val; rw [e60]; rfl
    | ⟨1, _⟩ => show win5_6.index t (1 : Fin 2) * 96 + 1 * q.val = q.val; rw [e61]; omega
  · show win5_7.index t (0 : Fin 2) * 5000 + 1 * (j 0).val = 5000 * t.val + (j 0).val; rw [e70]; omega
  · show win5_7.index t (1 : Fin 2) * 96 + 1 * (j 1).val = (j 1).val; rw [e71]; omega

/-- An index of the output array is in point t's block iff each coordinate is in the block's range on its axis. -/
theorem mem_blk5 (t : Fin cfg5.N) (i : S50000x96.Idx) :
    i ∈ ((cfg5.win 7).blk t).view.set ↔ ∀ a : Fin 2, win5_7.index t a * S5000x96.size a ≤ (i a).val ∧ (i a).val < win5_7.index t a * S5000x96.size a + S5000x96.size a := by
  show i ∈ ((View.whole main_v68).slice (win5_7.rect t)).set ↔ _
  rw [View.set_slice_whole, Rect.mem_set_unit]
  exact Iff.rfl

/-- Row r of the output array is in the block of point r / 5000. -/
theorem cover5 (i : S50000x96.Idx) : ∃ t : Fin cfg5.N, (cfg5.win 7).flush t = true ∧ i ∈ ((cfg5.win 7).blk t).view.set := by
  have hi0 : (i 0).val < 50000 := (i 0).isLt
  have hi1 : (i 1).val < 96 := (i 1).isLt
  obtain ⟨t, ht⟩ : ∃ t : Fin cfg5.N, t.val = (i 0).val / 5000 := ⟨⟨(i 0).val / 5000, by rw [show cfg5.N = 10 from N_5]; omega⟩, rfl⟩
  obtain ⟨e00, e01, e10, e11, e20, e21, e30, e31, e40, e41, e50, e51, e60, e61, e70, e71⟩ := idx5 t
  refine ⟨t, flush5_7 t, ?_⟩
  rw [mem_blk5]
  intro a
  match a with
  | ⟨0, _⟩ => show win5_7.index t (0 : Fin 2) * 5000 ≤ (i 0).val ∧ (i 0).val < win5_7.index t (0 : Fin 2) * 5000 + 5000; rw [e70, ht]; omega
  | ⟨1, _⟩ => show win5_7.index t (1 : Fin 2) * 96 ≤ (i 1).val ∧ (i 1).val < win5_7.index t (1 : Fin 2) * 96 + 96; rw [e71]; omega

end Cert.KernelIdeal.Val
end
-- ==== Proof.KI.ValA5.lean ====
/- Region 5's output array after the run, at the exact instance: the first input array with rows scaled by the column array plus the bias row, normalised by the mean and variance rows, scaled, shifted and clipped at zero,
   whatever the arrays hold when the region is entered. -/
import proofs.«115743_j55052890800725_2_alg».proof.Proof.KI.BodyA5
import proofs.«115743_j55052890800725_2_alg».proof.Proof.KI.ValA5pay

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

-- the buffer contents when the region is entered
variable (V : (c : Dev nD) → (b : Ref sig .tc) → Buf (Elt Ideal) ((c : Thread nD τ).loc b)) (c : Dev nD)

/-- What point t writes back to the output array is block t of the row-scaled, biased first input array normalised by the mean and variance rows, scaled, shifted and clipped at zero. -/
theorem flushed5_eq (t : Fin cfg5.N) :
    (dat5 (F := Ideal) V c).flushed 7 t = ((cfg5.win 7).blk t).view.read (Elt Ideal)
      (Cert.Spec.bnRelu (d := 96) (Cert.Spec.valOf (d := 96) (V c (Pipeline.arrRef spec5 0)) (V c (Pipeline.arrRef spec5 1)) (V c (Pipeline.arrRef spec5 2))) (V c (Pipeline.arrRef spec5 3)) (V c (Pipeline.arrRef spec5 4)) (V c (Pipeline.arrRef spec5 5)) (V c (Pipeline.arrRef spec5 6))) := by
  show (cfg5.win 7).cut (grid5.coords t) ((dat5 (F := Ideal) V c).after 7 t) = _
  rw [after5_7]
  unfold out5_7
  rw [View.canon_unit_zero v_hz5]
  simp only [View.ld_unit_zero (S := S5000x96) v_hz5, View.ld_unit_zero (S := S5000x1) v_hz5, View.ld_unit_zero (S := S1x96) v_hz5]
  unfold iblk5
  exact flushed5_gen c (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) t

/-- The output array after the run. -/
theorem val5 : (dat5 (F := Ideal) V c).arrAt 7 cfg5.N
    = Cert.Spec.bnRelu (d := 96) (Cert.Spec.valOf (d := 96) (V c (Pipeline.arrRef spec5 0)) (V c (Pipeline.arrRef spec5 1)) (V c (Pipeline.arrRef spec5 2))) (V c (Pipeline.arrRef spec5 3)) (V c (Pipeline.arrRef spec5 4)) (V c (Pipeline.arrRef spec5 5)) (V c (Pipeline.arrRef spec5 6)) :=
  (dat5 (F := Ideal) V c).arrAt_eq_of_cover 7 _ (fun t _ => flushed5_eq V c t) cover5

end Cert.KernelIdeal.Val

end
-- ==== Proof.KI.ValA6pay.lean ====
/- Region 6 at the exact instance, free of the proof data: the body's payload at an index (a row of the left block
   against a column of the weight, plus the bias entry), the windows' index maps over the grid (the row-tiled windows sit
   at block (t, 0), the whole-array windows at block (0, 0)), what a point writes back as block t of the product plus the
   bias row of whatever arrays the windows read, and the cover of the output array by the ten blocks of 5000 rows. -/
import proofs.«115743_j55052890800725_2_alg».proof.Proof.Gen.KernelIdeal.Launch
import proofs.«115743_j55052890800725_2_alg».proof.Proof.Gen.KernelIdeal.Skeleton
import proofs.«115743_j55052890800725_2_alg».proof.Proof.Gen.KernelIdeal.Points
import proofs.«115743_j55052890800725_2_alg».proof.Proof.LibDense
import proofs.«115743_j55052890800725_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

theorem v_hz6 : (![0, 0] : Fin 2 → Nat) = fun _ => 0 := funext fun a => by fin_cases a <;> rfl

/-- The product's record is a plain one: rows of the left operand against columns of the right. -/
theorem plain6 : Cert.LibDense.PlainDot dot_S5000x96_S96x96_S5000x96_1_0_0_1_n_n where
  rank := by rfl
  size := by rfl
  l0 := fun j k => by rfl
  l1 := fun j k => by rfl
  r0 := fun j k => by rfl
  r1 := fun j k => by rfl

/-- The payload at an index: the row of the left block against the column of the weight, plus the bias entry. -/
theorem pay6_at (x0 : FVec Ideal S5000x96 .bf16) (w0 : FVec Ideal S96x96 .f32) (b0 : FVec Ideal S1x96 .f32) (p : Fin 5000) (q : Fin 96) :
    k6_pay1 (F := Ideal) x0 w0 b0 (ix2 p q) = (∑ κ : Fin 96, x0 (ix2 p κ) * w0 (ix2 κ q)) + b0 (ix2 0 q) := by
  unfold k6_pay1
  refine congrArg₂ (· + ·) ?_ ?_
  · refine (Cert.LibDense.matmul_zero_plain plain6 none _ _ (ix2 p q)).trans ?_
    refine Finset.sum_congr rfl fun κ _ => ?_
    refine congrArg₂ (· * ·) ?_ rfl
    exact congrFun (shapeCast_self x0 _) (ix2 p κ)
  · refine (broadcastTo_apply _ _ (ix2 p q) (ix2 0 q) ?_).trans ?_
    · intro a
      match a with
      | ⟨0, _⟩ => rfl
      | ⟨1, _⟩ => rfl
    · exact congrFun (shapeCast_self b0 _) (ix2 0 q)

/-- The index maps over the grid: the row-tiled windows sit at block (t, 0), the whole-array windows at block (0, 0). -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- The payload at an index of a block whose rows are rows 5000·T … of the arrays: the product plus the bias row there. -/
theorem core6 (A0 : Cert.Spec.Mat 50000 96) (A1 : Cert.Spec.Mat 96 96) (A2 : Cert.Spec.Mat 1 96)
    (x0 : FVec Ideal S5000x96 .bf16) (w0 : FVec Ideal S96x96 .f32) (b0 : FVec Ideal S1x96 .f32) (T : Nat)
    (h0 : ∀ (p : Fin 5000) (q : Fin 96) (i : (⟨2, ![50000, 96]⟩ : Shape).Idx), (i 0).val = 5000 * T + p.val → (i 1).val = q.val → x0 (ix2 p q) = A0 i)
    (h1 : ∀ (p q : Fin 96), w0 (ix2 p q) = A1 (ix2 p q)) (h2 : ∀ q : Fin 96, b0 (ix2 0 q) = A2 (ix2 0 q))
    (p : Fin 5000) (q : Fin 96) (i : (⟨2, ![50000, 96]⟩ : Shape).Idx) (hi0 : (i 0).val = 5000 * T + p.val) (hi1 : (i 1).val = q.val) :
    k6_pay1 (F := Ideal) x0 w0 b0 (ix2 p q) = Cert.Spec.mmBias A0 A1 A2 i := by
  refine (pay6_at x0 w0 b0 p q).trans ?_
  have hq : i 1 = q := Fin.ext hi1
  unfold Cert.Spec.mmBias Cert.Spec.mm
  refine congrArg₂ (· + ·) (Finset.sum_congr rfl fun κ _ => congrArg₂ (· * ·) (h0 p κ _ hi0 rfl) ((h1 κ q).trans (by rw [hq]))) ((h2 q).trans (by rw [hq]))

variable (c : Dev nD)

set_option maxHeartbeats 1000000 in
/-- What point t writes back is block t of the product plus the bias row. -/
theorem flushed6_gen (A0 : Buf (Elt Ideal) ((c : Thread nD τ).loc (Pipeline.arrRef spec6 0)))
    (A1 : Buf (Elt Ideal) ((c : Thread nD τ).loc (Pipeline.arrRef spec6 1)))
    (A2 : Buf (Elt Ideal) ((c : Thread nD τ).loc (Pipeline.arrRef spec6 2))) (t : Fin cfg6.N) :
    (cfg6.win 3).cut (grid6.coords t) (k6_pay1 (F := Ideal) (((cfg6.win 0).blk t).view.read (Elt Ideal) A0) (((cfg6.win 1).blk t).view.read (Elt Ideal) A1) (((cfg6.win 2).blk t).view.read (Elt Ideal) A2))
      = ((cfg6.win 3).blk t).view.read (Elt Ideal) (Cert.Spec.mmBias (k := 96) (d := 96) A0 A1 A2) := by
  obtain ⟨e00, e01, e10, e11, e20, e21, e30, e31⟩ := idx6 t
  funext j
  have hj0 : (j 0).val < 5000 := (j 0).isLt
  have hj1 : (j 1).val < 96 := (j 1).isLt
  have hj : (cfg6.win 3).xinj (grid6.coords t) j = ix2 (⟨(j 0).val, hj0⟩ : Fin 5000) (⟨(j 1).val, hj1⟩ : Fin 96) := by
    funext a
    match a with
    | ⟨0, _⟩ => rfl
    | ⟨1, _⟩ => rfl
  refine (congrArg (k6_pay1 (F := Ideal) (((cfg6.win 0).blk t).view.read (Elt Ideal) A0) (((cfg6.win 1).blk t).view.read (Elt Ideal) A1) (((cfg6.win 2).blk t).view.read (Elt Ideal) A2)) hj).trans ?_
  refine core6 A0 A1 A2 (((cfg6.win 0).blk t).view.read (Elt Ideal) A0) (((cfg6.win 1).blk t).view.read (Elt Ideal) A1) (((cfg6.win 2).blk t).view.read (Elt Ideal) A2) t.val ?_ ?_ ?_ ⟨(j 0).val, hj0⟩ ⟨(j 1).val, hj1⟩ (((cfg6.win 3).blk t).view.emb j) ?_ ?_
  · intro p q i h0 h1
    show A0 (((cfg6.win 0).blk t).view.emb (ix2 p q)) = A0 i
    refine congrArg A0 (funext fun a => Fin.ext ?_)
    match a with
    | ⟨0, _⟩ => show win6_0.index t (0 : Fin 2) * 5000 + 1 * p.val = (i 0).val; rw [e00, h0]; omega
    | ⟨1, _⟩ => show win6_0.index t (1 : Fin 2) * 96 + 1 * q.val = (i 1).val; rw [e01, h1]; omega
  · intro p q
    show A1 (((cfg6.win 1).blk t).view.emb (ix2 p q)) = A1 (ix2 p q)
    refine congrArg A1 (funext fun a => Fin.ext ?_)
    match a with
    | ⟨0, _⟩ => show win6_1.index t (0 : Fin 2) * 96 + 1 * p.val = p.val; rw [e10]; omega
    | ⟨1, _⟩ => show win6_1.index t (1 : Fin 2) * 96 + 1 * q.val = q.val; rw [e11]; omega
  · intro q
    show A2 (((cfg6.win 2).blk t).view.emb (ix2 0 q)) = A2 (ix2 0 q)
    refine congrArg A2 (funext fun a => Fin.ext ?_)
    match a with
    | ⟨0, _⟩ => show win6_2.index t (0 : Fin 2) * 1 + 1 * (0 : Fin 1).val = (0 : Fin 1).val; rw [e20]; rfl
    | ⟨1, _⟩ => show win6_2.index t (1 : Fin 2) * 96 + 1 * q.val = q.val; rw [e21]; omega
  · show win6_3.index t (0 : Fin 2) * 5000 + 1 * (j 0).val = 5000 * t.val + (j 0).val; rw [e30]; omega
  · show win6_3.index t (1 : Fin 2) * 96 + 1 * (j 1).val = (j 1).val; rw [e31]; omega

/-- An index of the output array is in point t's block iff each coordinate is in the block's range on its axis. -/
theorem mem_blk6 (t : Fin cfg6.N) (i : S50000x96.Idx) :
    i ∈ ((cfg6.win 3).blk t).view.set ↔ ∀ a : Fin 2, win6_3.index t a * S5000x96.size a ≤ (i a).val ∧ (i a).val < win6_3.index t a * S5000x96.size a + S5000x96.size a := by
  show i ∈ ((View.whole main_v70).slice (win6_3.rect t)).set ↔ _
  rw [View.set_slice_whole, Rect.mem_set_unit]
  exact Iff.rfl

/-- Row r of the output array is in the block of point r / 5000. -/
theorem cover6 (i : S50000x96.Idx) : ∃ t : Fin cfg6.N, (cfg6.win 3).flush t = true ∧ i ∈ ((cfg6.win 3).blk t).view.set := by
  have hi0 : (i 0).val < 50000 := (i 0).isLt
  have hi1 : (i 1).val < 96 := (i 1).isLt
  obtain ⟨t, ht⟩ : ∃ t : Fin cfg6.N, t.val = (i 0).val / 5000 := ⟨⟨(i 0).val / 5000, by rw [show cfg6.N = 10 from N_6]; omega⟩, rfl⟩
  obtain ⟨e00, e01, e10, e11, e20, e21, e30, e31⟩ := idx6 t
  refine ⟨t, flush6_3 t, ?_⟩
  rw [mem_blk6]
  intro a
  match a with
  | ⟨0, _⟩ => show win6_3.index t (0 : Fin 2) * 5000 ≤ (i 0).val ∧ (i 0).val < win6_3.index t (0 : Fin 2) * 5000 + 5000; rw [e30, ht]; omega
  | ⟨1, _⟩ => show win6_3.index t (1 : Fin 2) * 96 ≤ (i 1).val ∧ (i 1).val < win6_3.index t (1 : Fin 2) * 96 + 96; rw [e31]; omega

end Cert.KernelIdeal.Val
end
-- ==== Proof.KI.ValA6.lean ====
/- Region 6's output array after the run, at the exact instance: the product of the first input array and the weight array
   plus the bias row, whatever the arrays hold when the region is entered. -/
import proofs.«115743_j55052890800725_2_alg».proof.Proof.KI.BodyA6
import proofs.«115743_j55052890800725_2_alg».proof.Proof.KI.ValA6pay

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

-- the buffer contents when the region is entered
variable (V : (c : Dev nD) → (b : Ref sig .tc) → Buf (Elt Ideal) ((c : Thread nD τ).loc b)) (c : Dev nD)

/-- What point t writes back to the output array is block t of the product plus the bias row. -/
theorem flushed6_eq (t : Fin cfg6.N) :
    (dat6 (F := Ideal) V c).flushed 3 t = ((cfg6.win 3).blk t).view.read (Elt Ideal)
      (Cert.Spec.mmBias (k := 96) (d := 96) (V c (Pipeline.arrRef spec6 0)) (V c (Pipeline.arrRef spec6 1)) (V c (Pipeline.arrRef spec6 2))) := by
  show (cfg6.win 3).cut (grid6.coords t) ((dat6 (F := Ideal) V c).after 3 t) = _
  rw [after6_3]
  unfold out6_3
  rw [View.canon_unit_zero v_hz6]
  simp only [View.ld_unit_zero (S := S5000x96) v_hz6, View.ld_unit_zero (S := S96x96) v_hz6, View.ld_unit_zero (S := S1x96) v_hz6]
  unfold iblk6
  exact flushed6_gen c (V c (Pipeline.arrRef spec6 0)) (V c (Pipeline.arrRef spec6 1)) (V c (Pipeline.arrRef spec6 2)) t

/-- The output array after the run. -/
theorem val6 : (dat6 (F := Ideal) V c).arrAt 3 cfg6.N
    = Cert.Spec.mmBias (k := 96) (d := 96) (V c (Pipeline.arrRef spec6 0)) (V c (Pipeline.arrRef spec6 1)) (V c (Pipeline.arrRef spec6 2)) :=
  (dat6 (F := Ideal) V c).arrAt_eq_of_cover 3 _ (fun t _ => flushed6_eq V c t) cover6

end Cert.KernelIdeal.Val

end
-- ==== Proof.KI.ValA8pay.lean ====
/- Region 8 at the exact instance, free of the proof data: the body's payload at an index (the block's row normalised by the
   mean and variance rows, scaled, shifted and clipped at zero, against a column of the weight, plus the bias entry, divided
   by the row's Euclidean norm guarded from below), the windows' index maps over the grid (the row-tiled windows sit at block
   (t, 0), the whole-array windows at block (0, 0)), what a point writes back as block t of that function of whatever arrays
   the windows read, and the cover of the output array by the ten blocks of 5000 rows. -/
import proofs.«115743_j55052890800725_2_alg».proof.Proof.Gen.KernelIdeal.Launch
import proofs.«115743_j55052890800725_2_alg».proof.Proof.Gen.KernelIdeal.Skeleton
import proofs.«115743_j55052890800725_2_alg».proof.Proof.Gen.KernelIdeal.Points
import proofs.«115743_j55052890800725_2_alg».proof.Proof.LibDense
import proofs.«115743_j55052890800725_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

theorem v_hz8 : (![0, 0] : Fin 2 → Nat) = fun _ => 0 := funext fun a => by fin_cases a <;> rfl

/-- The product's record is a plain one: rows of the left operand against columns of the right. -/
theorem plain8 : Cert.LibDense.PlainDot dot_S5000x96_S96x64_S5000x64_1_0_0_1_n_n where
  rank := by rfl
  size := by rfl
  l0 := fun j k => by rfl
  l1 := fun j k => by rfl
  r0 := fun j k => by rfl
  r1 := fun j k => by rfl

/-- The normalised, clipped entry of a row block. -/
def B8 (y0 : FVec Ideal S5000x96 .f32) (var0 g0 mean0 beta0 : FVec Ideal S1x96 .f32) (p : Fin 5000) (κ : Fin 96) : EReal :=
  max (g0 (ix2 0 κ) * (y0 (ix2 p κ) - mean0 (ix2 0 κ)) * Ideal.rsqrt (var0 (ix2 0 κ) + Cert.Spec.epsBN) + beta0 (ix2 0 κ)) 0

/-- Its product with the weight plus the bias entry. -/
def Z8 (y0 : FVec Ideal S5000x96 .f32) (var0 g0 mean0 beta0 : FVec Ideal S1x96 .f32) (w0 : FVec Ideal S96x64 .f32) (bp0 : FVec Ideal S1x64 .f32)
    (p : Fin 5000) (q : Fin 64) : EReal :=
  (∑ κ : Fin 96, B8 y0 var0 g0 mean0 beta0 p κ * w0 (ix2 κ q)) + bp0 (ix2 0 q)

/-- A vector divided by its rows' guarded Euclidean norms, at an index, from the vector's entries. -/
theorem l2lem8 (Zv : FVec Ideal S5000x64 .f32) (Zs : Fin 5000 → Fin 64 → EReal) (hZ : ∀ p q, Zv (ix2 p q) = Zs p q)
    (h : S5000x64.Reduces [1] S5000) (hφ : FKind.Formats .f32) (hacc : (0x00000000#32 : BitVec 32) = FKind.add.neutral .f32 hφ)
    (hc : S5000.ShapeCasts S5000x1) (hb : S5000x1.Broadcasts S5000x64) (p : Fin 5000) (q : Fin 64) :
    divf Zv (broadcastTo S5000x64 (maximumf (sqrt (shapeCast S5000x1 (multiReduction .add [1] S5000 (mulf Zv Zv) 0x00000000#32 h hφ hacc) hc)) (broadcast S5000x1 (Scalar.ofBits (F := Ideal) .f32 0x2B8CBCCC#32))) hb) (ix2 p q)
      = Ideal.div (Zs p q) (max (Ideal.sqrt (∑ k : Fin 64, Zs p k * Zs p k)) Cert.Spec.epsL2) := by
  refine congrArg₂ Ideal.div (hZ p q) ?_
  refine (broadcastTo_apply _ hb (ix2 p q) (ix2 p 0) ?_).trans ?_
  · intro a
    match a with
    | ⟨0, _⟩ => rfl
    | ⟨1, _⟩ => rfl
  refine congrArg₂ (fun a b : EReal => max a b) (congrArg Ideal.sqrt ?_) rfl
  refine (shapeCast_apply _ hc (ix2 p 0) (ix1 p) ?_).trans ?_
  · rw [Shape.rowMajor_val_one, Shape.rowMajor_val_two]
    show p.val = p.val * 1 + 0
    omega
  refine (Ideal.multiReduction_add_single (mulf Zv Zv) _ h hφ hacc (ix1 p)).trans ?_
  refine Finset.sum_congr rfl fun k _ => ?_
  have hl : h.lift (ix1 p) k = ix2 p k := by
    funext a
    apply Fin.ext
    match a with
    | ⟨0, _⟩ => rfl
    | ⟨1, _⟩ => rfl
  show Zv (h.lift (ix1 p) k) * Zv (h.lift (ix1 p) k) = _
  rw [hl]
  exact congrArg₂ (fun a b : EReal => a * b) (hZ p k) (hZ p k)

/-- A product into the zero splat plus a bias row, at an index, from the left operand's entries. -/
theorem zlem8 (Bv : FVec Ideal S5000x96 .bf16) (w0 : FVec Ideal S96x64 .f32) (bp0 : FVec Ideal S1x64 .f32) (Bs : Fin 5000 → Fin 96 → EReal)
    (hB : ∀ p κ, Bv (ix2 p κ) = Bs p κ) (p : Fin 5000) (q : Fin 64) :
    addf (matmul dot_S5000x96_S96x64_S5000x64_1_0_0_1_n_n none Bv (truncf .bf16 w0 bitsLt_bf16_f32) (constant (F := Ideal) S5000x64 .f32 0x00000000#32))
        (broadcastTo S5000x64 (shapeCast S1x64 bp0 shapeCasts_S1x64_S1x64) broadcasts_S1x64_S5000x64) (ix2 p q)
      = (∑ κ : Fin 96, Bs p κ * w0 (ix2 κ q)) + bp0 (ix2 0 q) := by
  refine congrArg₂ (fun a b : EReal => a + b) ?_ ?_
  · exact (Cert.LibDense.matmul_zero_plain plain8 none Bv _ (ix2 p q)).trans (Finset.sum_congr rfl fun κ _ => congrArg₂ (fun a b : EReal => a * b) (hB p κ) rfl)
  · exact (broadcastTo_1b_ab_apply _ _ p q).trans (congrFun (shapeCast_self bp0 _) (ix2 0 q))

set_option maxHeartbeats 1000000 in
/-- The payload at an index. -/
theorem pay8_at (y0 : FVec Ideal S5000x96 .f32) (var0 g0 mean0 beta0 : FVec Ideal S1x96 .f32) (w0 : FVec Ideal S96x64 .f32) (bp0 : FVec Ideal S1x64 .f32)
    (p : Fin 5000) (q : Fin 64) :
    k8_pay1 (F := Ideal) y0 var0 g0 mean0 beta0 w0 bp0 (ix2 p q)
      = Ideal.div (Z8 y0 var0 g0 mean0 beta0 w0 bp0 p q) (max (Ideal.sqrt (∑ k : Fin 64, Z8 y0 var0 g0 mean0 beta0 w0 bp0 p k * Z8 y0 var0 g0 mean0 beta0 w0 bp0 p k)) Cert.Spec.epsL2) := by
  unfold k8_pay1
  refine l2lem8 _ (fun p' q' => Z8 y0 var0 g0 mean0 beta0 w0 bp0 p' q') (fun p' q' => ?_) _ _ _ _ _ p q
  refine zlem8 _ w0 bp0 (fun p'' κ => B8 y0 var0 g0 mean0 beta0 p'' κ) (fun p'' κ => ?_) p' q'
  have row : ∀ (v : FVec Ideal S1x96 .f32) (h : S1x96.ShapeCasts S1x96) (h' : S1x96.Broadcasts S5000x96), broadcastTo S5000x96 (shapeCast S1x96 v h) h' (ix2 p'' κ) = v (ix2 0 κ) := fun v h h' =>
    (broadcastTo_1b_ab_apply _ h' p'' κ).trans (congrFun (shapeCast_self v h) (ix2 0 κ))
  unfold B8
  refine congrArg₂ (fun a b : EReal => max a b) (congrArg₂ (fun a b : EReal => a + b) (congrArg₂ (fun a b : EReal => a * b) (congrArg₂ (fun a b : EReal => a * b) (row g0 _ _) (congrArg₂ (fun a b : EReal => a - b) (congrFun (shapeCast_self y0 _) (ix2 p'' κ)) (row mean0 _ _))) ?rs) (row beta0 _ _)) ?z
  case rs =>
    refine (broadcastTo_1b_ab_apply _ _ p'' κ).trans ?_
    exact congrArg (fun z => Ideal.rsqrt (z + Cert.Spec.epsBN)) (congrFun (shapeCast_self var0 _) (ix2 0 κ))
  case z => exact Ideal.ofBits_zero_f32

/-- The index maps over the grid: the row-tiled windows sit at block (t, 0), the whole-array windows at block (0, 0). -/
theorem idx8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = 0 ∧ win8_6.index t (1 : Fin 2) = 0
    ∧ win8_7.index t (0 : Fin 2) = t.val ∧ win8_7.index t (1 : Fin 2) = 0 :=
  (by decide +kernel : ∀ t : Fin grid8.N, _)

/-- The payload at an index of a block whose rows are rows 5000·T … of the first array: the normalised projection there. -/
theorem core8 (A0 : Cert.Spec.Mat 50000 96) (A1 A2 A3 A4 : Cert.Spec.Mat 1 96) (A5 : Cert.Spec.Mat 96 64) (A6 : Cert.Spec.Mat 1 64)
    (y0 : FVec Ideal S5000x96 .f32) (r1 r2 r3 r4 : FVec Ideal S1x96 .f32) (w0 : FVec Ideal S96x64 .f32) (bp0 : FVec Ideal S1x64 .f32) (T : Nat)
    (h0 : ∀ (p : Fin 5000) (q : Fin 96) (i : (⟨2, ![50000, 96]⟩ : Shape).Idx), (i 0).val = 5000 * T + p.val → (i 1).val = q.val → y0 (ix2 p q) = A0 i)
    (h1 : ∀ q : Fin 96, r1 (ix2 0 q) = A1 (ix2 0 q)) (h2 : ∀ q : Fin 96, r2 (ix2 0 q) = A2 (ix2 0 q))
    (h3 : ∀ q : Fin 96, r3 (ix2 0 q) = A3 (ix2 0 q)) (h4 : ∀ q : Fin 96, r4 (ix2 0 q) = A4 (ix2 0 q))
    (h5 : ∀ (p : Fin 96) (q : Fin 64), w0 (ix2 p q) = A5 (ix2 p q)) (h6 : ∀ q : Fin 64, bp0 (ix2 0 q) = A6 (ix2 0 q))
    (p : Fin 5000) (q : Fin 64) (i : (⟨2, ![50000, 64]⟩ : Shape).Idx) (hi0 : (i 0).val = 5000 * T + p.val) (hi1 : (i 1).val = q.val) :
    k8_pay1 (F := Ideal) y0 r4 r1 r3 r2 w0 bp0 (ix2 p q) = Cert.Spec.l2n (Cert.Spec.mmBias (Cert.Spec.bnRelu A0 A1 A2 A3 A4) A5 A6) i := by
  refine (pay8_at y0 r4 r1 r3 r2 w0 bp0 p q).trans ?_
  have hq : i 1 = q := Fin.ext hi1
  have hB : ∀ κ : Fin 96, B8 y0 r4 r1 r3 r2 p κ = Cert.Spec.bnRelu A0 A1 A2 A3 A4 (ix2 (i 0) κ) := fun κ => by
    unfold B8 Cert.Spec.bnRelu
    exact congrArg₂ (fun a b : EReal => max a b) (congrArg₂ (fun a b : EReal => a + b) (congrArg₂ (fun a b : EReal => a * b) (congrArg₂ (fun a b : EReal => a * b) (h1 κ) (congrArg₂ (fun a b : EReal => a - b) (h0 p κ _ hi0 rfl) (h3 κ))) (congrArg (fun z => Ideal.rsqrt (z + Cert.Spec.epsBN)) (h4 κ))) (h2 κ)) rfl
  have hZ : ∀ k : Fin 64, Z8 y0 r4 r1 r3 r2 w0 bp0 p k = Cert.Spec.mmBias (Cert.Spec.bnRelu A0 A1 A2 A3 A4) A5 A6 (ix2 (i 0) k) := fun k => by
    unfold Z8 Cert.Spec.mmBias Cert.Spec.mm
    exact congrArg₂ (fun a b : EReal => a + b) (Finset.sum_congr rfl fun κ _ => congrArg₂ (fun a b : EReal => a * b) (hB κ) (h5 κ k)) (h6 k)
  have hi : i = ix2 (i 0) q := by rw [← hq]; exact eq_ix2 i
  unfold Cert.Spec.l2n
  refine congrArg₂ Ideal.div ((hZ q).trans (congrArg (Cert.Spec.mmBias (Cert.Spec.bnRelu A0 A1 A2 A3 A4) A5 A6) hi.symm)) (congrArg (fun s => max (Ideal.sqrt s) Cert.Spec.epsL2) (Finset.sum_congr rfl fun k _ => congrArg₂ (fun a b : EReal => a * b) (hZ k) (hZ k)))

variable (c : Dev nD)

set_option maxHeartbeats 1000000 in
/-- What point t writes back is block t of the normalised projection. -/
theorem flushed8_gen (A0 : Buf (Elt Ideal) ((c : Thread nD τ).loc (Pipeline.arrRef spec8 0)))
    (A1 : Buf (Elt Ideal) ((c : Thread nD τ).loc (Pipeline.arrRef spec8 1)))
    (A2 : Buf (Elt Ideal) ((c : Thread nD τ).loc (Pipeline.arrRef spec8 2)))
    (A3 : Buf (Elt Ideal) ((c : Thread nD τ).loc (Pipeline.arrRef spec8 3)))
    (A4 : Buf (Elt Ideal) ((c : Thread nD τ).loc (Pipeline.arrRef spec8 4)))
    (A5 : Buf (Elt Ideal) ((c : Thread nD τ).loc (Pipeline.arrRef spec8 5)))
    (A6 : Buf (Elt Ideal) ((c : Thread nD τ).loc (Pipeline.arrRef spec8 6))) (t : Fin cfg8.N) :
    (cfg8.win 7).cut (grid8.coords t) (k8_pay1 (F := Ideal) (((cfg8.win 0).blk t).view.read (Elt Ideal) A0) (((cfg8.win 4).blk t).view.read (Elt Ideal) A4) (((cfg8.win 1).blk t).view.read (Elt Ideal) A1) (((cfg8.win 3).blk t).view.read (Elt Ideal) A3) (((cfg8.win 2).blk t).view.read (Elt Ideal) A2) (((cfg8.win 5).blk t).view.read (Elt Ideal) A5) (((cfg8.win 6).blk t).view.read (Elt Ideal) A6))
      = ((cfg8.win 7).blk t).view.read (Elt Ideal) (Cert.Spec.l2n (d := 64) (Cert.Spec.mmBias (k := 96) (d := 64) (Cert.Spec.bnRelu (d := 96) A0 A1 A2 A3 A4) A5 A6)) := by
  obtain ⟨e00, e01, e10, e11, e20, e21, e30, e31, e40, e41, e50, e51, e60, e61, e70, e71⟩ := idx8 t
  funext j
  have hj0 : (j 0).val < 5000 := (j 0).isLt
  have hj1 : (j 1).val < 64 := (j 1).isLt
  have hj : (cfg8.win 7).xinj (grid8.coords t) j = ix2 (⟨(j 0).val, hj0⟩ : Fin 5000) (⟨(j 1).val, hj1⟩ : Fin 64) := by
    funext a
    match a with
    | ⟨0, _⟩ => rfl
    | ⟨1, _⟩ => rfl
  refine (congrArg (k8_pay1 (F := Ideal) (((cfg8.win 0).blk t).view.read (Elt Ideal) A0) (((cfg8.win 4).blk t).view.read (Elt Ideal) A4) (((cfg8.win 1).blk t).view.read (Elt Ideal) A1) (((cfg8.win 3).blk t).view.read (Elt Ideal) A3) (((cfg8.win 2).blk t).view.read (Elt Ideal) A2) (((cfg8.win 5).blk t).view.read (Elt Ideal) A5) (((cfg8.win 6).blk t).view.read (Elt Ideal) A6)) hj).trans ?_
  refine core8 A0 A1 A2 A3 A4 A5 A6 (((cfg8.win 0).blk t).view.read (Elt Ideal) A0) (((cfg8.win 1).blk t).view.read (Elt Ideal) A1) (((cfg8.win 2).blk t).view.read (Elt Ideal) A2) (((cfg8.win 3).blk t).view.read (Elt Ideal) A3) (((cfg8.win 4).blk t).view.read (Elt Ideal) A4) (((cfg8.win 5).blk t).view.read (Elt Ideal) A5) (((cfg8.win 6).blk t).view.read (Elt Ideal) A6) t.val ?_ ?_ ?_ ?_ ?_ ?_ ?_ ⟨(j 0).val, hj0⟩ ⟨(j 1).val, hj1⟩ (((cfg8.win 7).blk t).view.emb j) ?_ ?_
  · intro p q i h0 h1
    show A0 (((cfg8.win 0).blk t).view.emb (ix2 p q)) = A0 i
    refine congrArg A0 (funext fun a => Fin.ext ?_)
    match a with
    | ⟨0, _⟩ => show win8_0.index t (0 : Fin 2) * 5000 + 1 * p.val = (i 0).val; rw [e00, h0]; omega
    | ⟨1, _⟩ => show win8_0.index t (1 : Fin 2) * 96 + 1 * q.val = (i 1).val; rw [e01, h1]; omega
  · intro q
    show A1 (((cfg8.win 1).blk t).view.emb (ix2 0 q)) = A1 (ix2 0 q)
    refine congrArg A1 (funext fun a => Fin.ext ?_)
    match a with
    | ⟨0, _⟩ => show win8_1.index t (0 : Fin 2) * 1 + 1 * (0 : Fin 1).val = (0 : Fin 1).val; rw [e10]; rfl
    | ⟨1, _⟩ => show win8_1.index t (1 : Fin 2) * 96 + 1 * q.val = q.val; rw [e11]; omega
  · intro q
    show A2 (((cfg8.win 2).blk t).view.emb (ix2 0 q)) = A2 (ix2 0 q)
    refine congrArg A2 (funext fun a => Fin.ext ?_)
    match a with
    | ⟨0, _⟩ => show win8_2.index t (0 : Fin 2) * 1 + 1 * (0 : Fin 1).val = (0 : Fin 1).val; rw [e20]; rfl
    | ⟨1, _⟩ => show win8_2.index t (1 : Fin 2) * 96 + 1 * q.val = q.val; rw [e21]; omega
  · intro q
    show A3 (((cfg8.win 3).blk t).view.emb (ix2 0 q)) = A3 (ix2 0 q)
    refine congrArg A3 (funext fun a => Fin.ext ?_)
    match a with
    | ⟨0, _⟩ => show win8_3.index t (0 : Fin 2) * 1 + 1 * (0 : Fin 1).val = (0 : Fin 1).val; rw [e30]; rfl
    | ⟨1, _⟩ => show win8_3.index t (1 : Fin 2) * 96 + 1 * q.val = q.val; rw [e31]; omega
  · intro q
    show A4 (((cfg8.win 4).blk t).view.emb (ix2 0 q)) = A4 (ix2 0 q)
    refine congrArg A4 (funext fun a => Fin.ext ?_)
    match a with
    | ⟨0, _⟩ => show win8_4.index t (0 : Fin 2) * 1 + 1 * (0 : Fin 1).val = (0 : Fin 1).val; rw [e40]; rfl
    | ⟨1, _⟩ => show win8_4.index t (1 : Fin 2) * 96 + 1 * q.val = q.val; rw [e41]; omega
  · intro p q
    show A5 (((cfg8.win 5).blk t).view.emb (ix2 p q)) = A5 (ix2 p q)
    refine congrArg A5 (funext fun a => Fin.ext ?_)
    match a with
    | ⟨0, _⟩ => show win8_5.index t (0 : Fin 2) * 96 + 1 * p.val = p.val; rw [e50]; omega
    | ⟨1, _⟩ => show win8_5.index t (1 : Fin 2) * 64 + 1 * q.val = q.val; rw [e51]; omega
  · intro q
    show A6 (((cfg8.win 6).blk t).view.emb (ix2 0 q)) = A6 (ix2 0 q)
    refine congrArg A6 (funext fun a => Fin.ext ?_)
    match a with
    | ⟨0, _⟩ => show win8_6.index t (0 : Fin 2) * 1 + 1 * (0 : Fin 1).val = (0 : Fin 1).val; rw [e60]; rfl
    | ⟨1, _⟩ => show win8_6.index t (1 : Fin 2) * 64 + 1 * q.val = q.val; rw [e61]; omega
  · show win8_7.index t (0 : Fin 2) * 5000 + 1 * (j 0).val = 5000 * t.val + (j 0).val; rw [e70]; omega
  · show win8_7.index t (1 : Fin 2) * 64 + 1 * (j 1).val = (j 1).val; rw [e71]; omega

/-- An index of the output array is in point t's block iff each coordinate is in the block's range on its axis. -/
theorem mem_blk8 (t : Fin cfg8.N) (i : S50000x64.Idx) :
    i ∈ ((cfg8.win 7).blk t).view.set ↔ ∀ a : Fin 2, win8_7.index t a * S5000x64.size a ≤ (i a).val ∧ (i a).val < win8_7.index t a * S5000x64.size a + S5000x64.size a := by
  show i ∈ ((View.whole main_v85).slice (win8_7.rect t)).set ↔ _
  rw [View.set_slice_whole, Rect.mem_set_unit]
  exact Iff.rfl

/-- Row r of the output array is in the block of point r / 5000. -/
theorem cover8 (i : S50000x64.Idx) : ∃ t : Fin cfg8.N, (cfg8.win 7).flush t = true ∧ i ∈ ((cfg8.win 7).blk t).view.set := by
  have hi0 : (i 0).val < 50000 := (i 0).isLt
  have hi1 : (i 1).val < 64 := (i 1).isLt
  obtain ⟨t, ht⟩ : ∃ t : Fin cfg8.N, t.val = (i 0).val / 5000 := ⟨⟨(i 0).val / 5000, by rw [show cfg8.N = 10 from N_8]; omega⟩, rfl⟩
  obtain ⟨e00, e01, e10, e11, e20, e21, e30, e31, e40, e41, e50, e51, e60, e61, e70, e71⟩ := idx8 t
  refine ⟨t, flush8_7 t, ?_⟩
  rw [mem_blk8]
  intro a
  match a with
  | ⟨0, _⟩ => show win8_7.index t (0 : Fin 2) * 5000 ≤ (i 0).val ∧ (i 0).val < win8_7.index t (0 : Fin 2) * 5000 + 5000; rw [e70, ht]; omega
  | ⟨1, _⟩ => show win8_7.index t (1 : Fin 2) * 64 ≤ (i 1).val ∧ (i 1).val < win8_7.index t (1 : Fin 2) * 64 + 64; rw [e71]; omega

end Cert.KernelIdeal.Val
end
-- ==== Proof.KI.ValA8.lean ====
/- Region 8's output array after the run, at the exact instance: the first input array normalised by the mean and variance rows, scaled, shifted and clipped at zero, times the weight array plus the bias row, every row divided by its Euclidean norm guarded from below,
   whatever the arrays hold when the region is entered. -/
import proofs.«115743_j55052890800725_2_alg».proof.Proof.KI.BodyA8
import proofs.«115743_j55052890800725_2_alg».proof.Proof.KI.ValA8pay

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

-- the buffer contents when the region is entered
variable (V : (c : Dev nD) → (b : Ref sig .tc) → Buf (Elt Ideal) ((c : Thread nD τ).loc b)) (c : Dev nD)

/-- What point t writes back to the output array is block t of the normalised first input array times the weight array plus the bias row, every row divided by its guarded Euclidean norm. -/
theorem flushed8_eq (t : Fin cfg8.N) :
    (dat8 (F := Ideal) V c).flushed 7 t = ((cfg8.win 7).blk t).view.read (Elt Ideal)
      (Cert.Spec.l2n (d := 64) (Cert.Spec.mmBias (k := 96) (d := 64) (Cert.Spec.bnRelu (d := 96) (V c (Pipeline.arrRef spec8 0)) (V c (Pipeline.arrRef spec8 1)) (V c (Pipeline.arrRef spec8 2)) (V c (Pipeline.arrRef spec8 3)) (V c (Pipeline.arrRef spec8 4))) (V c (Pipeline.arrRef spec8 5)) (V c (Pipeline.arrRef spec8 6)))) := by
  show (cfg8.win 7).cut (grid8.coords t) ((dat8 (F := Ideal) V c).after 7 t) = _
  rw [after8_7]
  unfold out8_7
  rw [View.canon_unit_zero v_hz8]
  simp only [View.ld_unit_zero (S := S5000x96) v_hz8, View.ld_unit_zero (S := S1x96) v_hz8, View.ld_unit_zero (S := S96x64) v_hz8, View.ld_unit_zero (S := S1x64) v_hz8]
  unfold iblk8
  exact flushed8_gen c (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) (V c (Pipeline.arrRef spec8 6)) t

/-- The output array after the run. -/
theorem val8 : (dat8 (F := Ideal) V c).arrAt 7 cfg8.N
    = Cert.Spec.l2n (d := 64) (Cert.Spec.mmBias (k := 96) (d := 64) (Cert.Spec.bnRelu (d := 96) (V c (Pipeline.arrRef spec8 0)) (V c (Pipeline.arrRef spec8 1)) (V c (Pipeline.arrRef spec8 2)) (V c (Pipeline.arrRef spec8 3)) (V c (Pipeline.arrRef spec8 4))) (V c (Pipeline.arrRef spec8 5)) (V c (Pipeline.arrRef spec8 6))) :=
  (dat8 (F := Ideal) V c).arrAt_eq_of_cover 7 _ (fun t _ => flushed8_eq V c t) cover8

end Cert.KernelIdeal.Val

end
-- ==== Proof.KI.ValR1pay.lean ====
/-
  The payloads of the three column-statistics regions, read at an index over the extended reals.

  A tile of 5000 rows and 96 columns enters a grid point.  In regions 1 and 4 the tile's value is the aggregated
  row scaled by the row's factor plus the bias row; in region 7 it is the tile itself.  A point adds to the two
  running rows the tile's column sums of the value and of its square.  The reset rows are zero.

  Last, the algebra of the row index: a sum over 50000 rows is the sum over ten tiles of the sums over a tile's
  5000 rows.
-/
import proofs.«115743_j55052890800725_2_alg».proof.Proof.Gen.KernelIdeal.Skeleton
import Idealize.ShloMosaic.Lib.ValueLayout
import Idealize.ShloMosaic.Lib.Pipeline.Value
import Idealize.ShloMosaic.PureOps.Ideal.Laws

noncomputable section

open scoped BigOperators

namespace Cert.KernelIdeal.Val

open Idealize.ShloMosaic Idealize.ShloMosaic.ValueIdx Cert.KernelIdeal Cert.KernelIdeal.Gen

/-! ## Layout steps at an index -/

/-- A column broadcast over the columns reads, at (p, c), the column's entry of row p. -/
theorem s_bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of a tile over its rows, at column q. -/
theorem s_reduce_rows (src : FVec Ideal S5000x96 .f32) (h : S5000x96.Reduces [0] S96) (hφ : FKind.Formats .f32)
    (hacc : (0x00000000#32 : BitVec 32) = 0x00000000#32) (q : Fin 96) :
    multiReduction .add [0] S96 src 0x00000000#32 h hφ hacc (ix1 q) = ∑ p : Fin 5000, src (ix2 p q) := by
  refine (Ideal.multiReduction_add_single src 0x00000000#32 h hφ hacc (ix1 q)).trans ?_
  refine Finset.sum_congr rfl fun p _ => congrArg src ?_
  funext ax
  match ax with
  | ⟨0, _⟩ => rfl
  | ⟨1, _⟩ => rfl

/-! ## Region 1 -/

/-- The tile's value at (p, q): the aggregated entry scaled by the row's factor, plus the bias. -/
theorem k1_pay3_apply (a : Vec Ideal S5000x96 .f32) (d : Vec Ideal S5000x1 .f32) (b : Vec Ideal S1x96 .f32)
    (p : Fin 5000) (q : Fin 96) :
    k1_pay3 (F := Ideal) a d b (ix2 p q) = a (ix2 p q) * d (ix2 p 0) + b (ix2 0 q) := by
  unfold k1_pay3
  simp only [shapeCast_self]
  show a (ix2 p q) * broadcastTo S5000x96 d broadcasts_S5000x1_S5000x96 (ix2 p q)
      + broadcastTo S5000x96 b broadcasts_S1x96_S5000x96 (ix2 p q) = _
  rw [s_bcastCol_apply, broadcastTo_1b_ab_apply]

/-- The running row of sums after a point: what it held plus the tile's column sum. -/
theorem k1_pay4_apply (a : Vec Ideal S5000x96 .f32) (d : Vec Ideal S5000x1 .f32) (b : Vec Ideal S1x96 .f32)
    (acc : Vec Ideal S1x96 .f32) (q : Fin 96) :
    k1_pay4 (F := Ideal) a d b acc (ix2 0 q) = acc (ix2 0 q) + ∑ p : Fin 5000, k1_pay3 (F := Ideal) a d b (ix2 p q) := by
  unfold k1_pay4
  simp only [shapeCast_self]
  show acc (ix2 0 q) + shapeCast S1x96 (multiReduction .add [0] S96 (k1_pay3 (F := Ideal) a d b) 0x00000000#32
      reduces_S5000x96_S96 (.inl rfl) rfl) shapeCasts_S96_S1x96 (ix2 (0 : Fin 1) q) = _
  rw [shapeCast_a_1a_apply, s_reduce_rows]

/-- The running row of sums of squares after a point: what it held plus the tile's column sum of squares. -/
theorem k1_pay5_apply (a : Vec Ideal S5000x96 .f32) (d : Vec Ideal S5000x1 .f32) (b : Vec Ideal S1x96 .f32)
    (acc : Vec Ideal S1x96 .f32) (q : Fin 96) :
    k1_pay5 (F := Ideal) a d b acc (ix2 0 q)
      = acc (ix2 0 q) + ∑ p : Fin 5000, k1_pay3 (F := Ideal) a d b (ix2 p q) * k1_pay3 (F := Ideal) a d b (ix2 p q) := by
  unfold k1_pay5
  simp only [shapeCast_self]
  show acc (ix2 0 q) + shapeCast S1x96 (multiReduction .add [0] S96
      (mulf (k1_pay3 (F := Ideal) a d b) (k1_pay3 (F := Ideal) a d b)) 0x00000000#32
      reduces_S5000x96_S96 (.inl rfl) rfl) shapeCasts_S96_S1x96 (ix2 (0 : Fin 1) q) = _
  rw [shapeCast_a_1a_apply, s_reduce_rows]
  rfl

/-- The reset rows are zero. -/
theorem k1_pay1_apply (j : S1x96.Idx) : k1_pay1 (F := Ideal) j = 0 := Ideal.ofBits_zero_f32
theorem k1_pay2_apply (j : S1x96.Idx) : k1_pay2 (F := Ideal) j = 0 := Ideal.ofBits_zero_f32

/-! ## Region 4: the same payloads -/

/-- The tile's value at (p, q): the aggregated entry scaled by the row's factor, plus the bias. -/
theorem k4_pay3_apply (a : Vec Ideal S5000x96 .f32) (d : Vec Ideal S5000x1 .f32) (b : Vec Ideal S1x96 .f32)
    (p : Fin 5000) (q : Fin 96) :
    k4_pay3 (F := Ideal) a d b (ix2 p q) = a (ix2 p q) * d (ix2 p 0) + b (ix2 0 q) := by
  unfold k4_pay3
  simp only [shapeCast_self]
  show a (ix2 p q) * broadcastTo S5000x96 d broadcasts_S5000x1_S5000x96 (ix2 p q)
      + broadcastTo S5000x96 b broadcasts_S1x96_S5000x96 (ix2 p q) = _
  rw [s_bcastCol_apply, broadcastTo_1b_ab_apply]

/-- The running row of sums after a point: what it held plus the tile's column sum. -/
theorem k4_pay4_apply (a : Vec Ideal S5000x96 .f32) (d : Vec Ideal S5000x1 .f32) (b : Vec Ideal S1x96 .f32)
    (acc : Vec Ideal S1x96 .f32) (q : Fin 96) :
    k4_pay4 (F := Ideal) a d b acc (ix2 0 q) = acc (ix2 0 q) + ∑ p : Fin 5000, k4_pay3 (F := Ideal) a d b (ix2 p q) := by
  unfold k4_pay4
  simp only [shapeCast_self]
  show acc (ix2 0 q) + shapeCast S1x96 (multiReduction .add [0] S96 (k4_pay3 (F := Ideal) a d b) 0x00000000#32
      reduces_S5000x96_S96 (.inl rfl) rfl) shapeCasts_S96_S1x96 (ix2 (0 : Fin 1) q) = _
  rw [shapeCast_a_1a_apply, s_reduce_rows]

/-- The running row of sums of squares after a point: what it held plus the tile's column sum of squares. -/
theorem k4_pay5_apply (a : Vec Ideal S5000x96 .f32) (d : Vec Ideal S5000x1 .f32) (b : Vec Ideal S1x96 .f32)
    (acc : Vec Ideal S1x96 .f32) (q : Fin 96) :
    k4_pay5 (F := Ideal) a d b acc (ix2 0 q)
      = acc (ix2 0 q) + ∑ p : Fin 5000, k4_pay3 (F := Ideal) a d b (ix2 p q) * k4_pay3 (F := Ideal) a d b (ix2 p q) := by
  unfold k4_pay5
  simp only [shapeCast_self]
  show acc (ix2 0 q) + shapeCast S1x96 (multiReduction .add [0] S96
      (mulf (k4_pay3 (F := Ideal) a d b) (k4_pay3 (F := Ideal) a d b)) 0x00000000#32
      reduces_S5000x96_S96 (.inl rfl) rfl) shapeCasts_S96_S1x96 (ix2 (0 : Fin 1) q) = _
  rw [shapeCast_a_1a_apply, s_reduce_rows]
  rfl

/-- The reset rows are zero. -/
theorem k4_pay1_apply (j : S1x96.Idx) : k4_pay1 (F := Ideal) j = 0 := Ideal.ofBits_zero_f32
theorem k4_pay2_apply (j : S1x96.Idx) : k4_pay2 (F := Ideal) j = 0 := Ideal.ofBits_zero_f32

/-! ## Region 7 -/

/-- The tile's value is the tile. -/
theorem k7_pay3_eq (y : Vec Ideal S5000x96 .f32) : k7_pay3 (F := Ideal) y = y := by
  unfold k7_pay3
  exact shapeCast_self _ _

theorem k7_pay4_apply (y : Vec Ideal S5000x96 .f32) (acc : Vec Ideal S1x96 .f32) (q : Fin 96) :
    k7_pay4 (F := Ideal) y acc (ix2 0 q) = acc (ix2 0 q) + ∑ p : Fin 5000, y (ix2 p q) := by
  unfold k7_pay4
  simp only [shapeCast_self, k7_pay3_eq]
  show acc (ix2 0 q) + shapeCast S1x96 (multiReduction (F := Ideal) .add [0] S96 (y : FVec Ideal S5000x96 .f32) 0x00000000#32
      reduces_S5000x96_S96 (.inl rfl) rfl) shapeCasts_S96_S1x96 (ix2 (0 : Fin 1) q) = _
  rw [shapeCast_a_1a_apply, s_reduce_rows]

theorem k7_pay5_apply (y : Vec Ideal S5000x96 .f32) (acc : Vec Ideal S1x96 .f32) (q : Fin 96) :
    k7_pay5 (F := Ideal) y acc (ix2 0 q) = acc (ix2 0 q) + ∑ p : Fin 5000, y (ix2 p q) * y (ix2 p q) := by
  unfold k7_pay5
  simp only [shapeCast_self, k7_pay3_eq]
  show acc (ix2 0 q) + shapeCast S1x96 (multiReduction (F := Ideal) .add [0] S96
      (mulf (F := Ideal) (y : FVec Ideal S5000x96 .f32) (y : FVec Ideal S5000x96 .f32)) 0x00000000#32
      reduces_S5000x96_S96 (.inl rfl) rfl) shapeCasts_S96_S1x96 (ix2 (0 : Fin 1) q) = _
  rw [shapeCast_a_1a_apply, s_reduce_rows]
  rfl

theorem k7_pay1_apply (j : S1x96.Idx) : k7_pay1 (F := Ideal) j = 0 := Ideal.ofBits_zero_f32
theorem k7_pay2_apply (j : S1x96.Idx) : k7_pay2 (F := Ideal) j = 0 := Ideal.ofBits_zero_f32

/-! ## Rows by tiles -/

/-- Row p of tile t among the 50000 rows. -/
def tileRow (t : Fin 10) (p : Fin 5000) : Fin 50000 := ⟨5000 * t.val + p.val, by have := t.isLt; have := p.isLt; omega⟩

/-- A sum over all rows is the sum over the tiles of the sums over a tile's rows. -/
theorem sum_rows_by_tiles {M : Type*} [AddCommMonoid M] (f : Fin 50000 → M) :
    ∑ n : Fin 50000, f n = ∑ t : Fin 10, ∑ p : Fin 5000, f (tileRow t p) := by
  rw [← Fintype.sum_prod_type']
  refine (Equiv.sum_comp (finProdFinEquiv (m := 10) (n := 5000)) f).symm.trans ?_
  refine Finset.sum_congr rfl fun x _ => congrArg f (Fin.ext ?_)
  show x.2.val + 5000 * x.1.val = 5000 * x.1.val + x.2.val
  omega

end Cert.KernelIdeal.Val

end
-- ==== Proof.KI.ValR1blk.lean ====
/-
  The windows of the three column-statistics regions at a grid point, read at an index: an input window's block at
  point t is rows 5000 t … 5000 t + 4999 of its array (the bias row: the whole row); an output window's one block
  is its whole array.
-/
import proofs.«115743_j55052890800725_2_alg».proof.Proof.Gen.KernelIdeal.Launch
import proofs.«115743_j55052890800725_2_alg».proof.Proof.Gen.KernelIdeal.Points
import proofs.«115743_j55052890800725_2_alg».proof.Proof.Spec
import proofs.«115743_j55052890800725_2_alg».proof.Proof.KI.ValR1pay

noncomputable section

open scoped BigOperators

namespace Cert.KernelIdeal.Val

open Idealize.ShloMosaic Idealize.ShloMosaic.TcCoe Idealize.ShloMosaic.ValueIdx Idealize.SL.Sem
open Cert.KernelIdeal Cert.KernelIdeal.Gen

/-! ## Region 1 -/

theorem s_lt1 (t : Fin cfg1.N) : t.val < 10 := lt_of_lt_of_eq t.isLt (show cfg1.N = 10 from N_1)
/-- A grid point as one of the ten tiles. -/
def pt1 (t : Fin cfg1.N) : Fin 10 := ⟨t.val, s_lt1 t⟩

theorem s_index1_0 : ∀ t : Fin cfg1.N, win1_0.index t 0 = t.val ∧ win1_0.index t 1 = 0 :=
  (by decide +kernel : ∀ t : Fin grid1.N, win1_0.index t 0 = t.val ∧ win1_0.index t 1 = 0)
theorem s_index1_1 : ∀ t : Fin cfg1.N, win1_1.index t 0 = t.val ∧ win1_1.index t 1 = 0 :=
  (by decide +kernel : ∀ t : Fin grid1.N, win1_1.index t 0 = t.val ∧ win1_1.index t 1 = 0)
theorem s_index1_2 : ∀ t : Fin cfg1.N, win1_2.index t 0 = 0 ∧ win1_2.index t 1 = 0 :=
  (by decide +kernel : ∀ t : Fin grid1.N, win1_2.index t 0 = 0 ∧ win1_2.index t 1 = 0)

/-- The tile of aggregated rows at a point, at (p, q): the array's row p of tile t. -/
theorem blk1_0_apply (c : Dev nD) (A : Buf (Elt Ideal) ((c : Thread nD τ).loc (Pipeline.arrRef spec1 0))) (t : Fin cfg1.N)
    (p : Fin 5000) (q : Fin 96) :
    ((cfg1.win 0).blk t).view.read (Elt Ideal) A (ix2 p q) = (A : Spec.Mat 50000 96) (ix2 (tileRow (pt1 t) p) q) := by
  rw [View.read_apply]
  show A _ = A _
  congr 1
  funext a
  apply Fin.ext
  match a with
  | ⟨0, _⟩ => show win1_0.index t 0 * 5000 + 1 * p.val = 5000 * t.val + p.val; rw [(s_index1_0 t).1]; omega
  | ⟨1, _⟩ => show win1_0.index t 1 * 96 + 1 * q.val = q.val; rw [(s_index1_0 t).2]; omega

/-- The tile of row factors at a point, at (p, 0): the column's row p of tile t. -/
theorem blk1_1_apply (c : Dev nD) (A : Buf (Elt Ideal) ((c : Thread nD τ).loc (Pipeline.arrRef spec1 1))) (t : Fin cfg1.N)
    (p : Fin 5000) (u : Fin 1) :
    ((cfg1.win 1).blk t).view.read (Elt Ideal) A (ix2 p u) = (A : Spec.Mat 50000 1) (ix2 (tileRow (pt1 t) p) 0) := by
  rw [View.read_apply]
  show A _ = A _
  congr 1
  funext a
  apply Fin.ext
  match a with
  | ⟨0, _⟩ => show win1_1.index t 0 * 5000 + 1 * p.val = 5000 * t.val + p.val; rw [(s_index1_1 t).1]; omega
  | ⟨1, _⟩ => show win1_1.index t 1 * 1 + 1 * u.val = 0; rw [(s_index1_1 t).2]; omega

/-- The bias row at a point is the bias row. -/
theorem blk1_2_apply (c : Dev nD) (A : Buf (Elt Ideal) ((c : Thread nD τ).loc (Pipeline.arrRef spec1 2))) (t : Fin cfg1.N)
    (u : Fin 1) (q : Fin 96) :
    ((cfg1.win 2).blk t).view.read (Elt Ideal) A (ix2 u q) = (A : Spec.Mat 1 96) (ix2 0 q) := by
  rw [View.read_apply]
  show A _ = A _
  congr 1
  funext a
  apply Fin.ext
  match a with
  | ⟨0, _⟩ => show win1_2.index t 0 * 1 + 1 * u.val = 0; rw [(s_index1_2 t).1]; omega
  | ⟨1, _⟩ => show win1_2.index t 1 * 96 + 1 * q.val = q.val; rw [(s_index1_2 t).2]; omega

theorem s_index1_3 : ∀ (t : Fin cfg1.N) (a : Fin 2), win1_3.index t a = 0 :=
  (by decide +kernel : ∀ (t : Fin grid1.N) (a : Fin 2), win1_3.index t a = 0)

/-- The one block of output window 3, read off an array, is the array. -/
theorem read_blk1_3 (c : Dev nD) (G : Buf (Elt Ideal) ((c : Thread nD τ).loc (Pipeline.arrRef spec1 3))) (t : Fin cfg1.N) :
    ((cfg1.win 3).blk t).view.read (Elt Ideal) G = G := by
  have hz : (fun a => win1_3.index t a * S1x96.size a) = fun _ => 0 := funext fun a => by rw [s_index1_3 t a, Nat.zero_mul]
  exact Memref.read_access_unit_zero (Elt Ideal) (Pipeline.arrRef spec1 3) hz (fun a => by rw [congrFun hz a]; simp) G

/-- and it covers the array. -/
theorem cover_blk1_3 (c : Dev nD) (t : Fin cfg1.N) (i : ((cfg1.win 3).arr.view.loc (c.tc : Thread nD τ)).2.ty.Idx) :
    i ∈ ((cfg1.win 3).blk t).view.set := by
  show i ∈ ((View.whole (Pipeline.arrRef spec1 3)).slice (win1_3.rect t)).set
  rw [View.set_slice_whole, Rect.mem_set_unit]
  intro a
  show win1_3.index t a * win1_3.size a ≤ (i a : Nat) ∧ (i a : Nat) < win1_3.index t a * win1_3.size a + win1_3.xsize (grid1.coords t) a
  rw [s_index1_3 t a, Nat.zero_mul, Nat.zero_add]
  exact ⟨Nat.zero_le _, (i a).isLt⟩

theorem s_index1_4 : ∀ (t : Fin cfg1.N) (a : Fin 2), win1_4.index t a = 0 :=
  (by decide +kernel : ∀ (t : Fin grid1.N) (a : Fin 2), win1_4.index t a = 0)

/-- The one block of output window 4, read off an array, is the array. -/
theorem read_blk1_4 (c : Dev nD) (G : Buf (Elt Ideal) ((c : Thread nD τ).loc (Pipeline.arrRef spec1 4))) (t : Fin cfg1.N) :
    ((cfg1.win 4).blk t).view.read (Elt Ideal) G = G := by
  have hz : (fun a => win1_4.index t a * S1x96.size a) = fun _ => 0 := funext fun a => by rw [s_index1_4 t a, Nat.zero_mul]
  exact Memref.read_access_unit_zero (Elt Ideal) (Pipeline.arrRef spec1 4) hz (fun a => by rw [congrFun hz a]; simp) G

/-- and it covers the array. -/
theorem cover_blk1_4 (c : Dev nD) (t : Fin cfg1.N) (i : ((cfg1.win 4).arr.view.loc (c.tc : Thread nD τ)).2.ty.Idx) :
    i ∈ ((cfg1.win 4).blk t).view.set := by
  show i ∈ ((View.whole (Pipeline.arrRef spec1 4)).slice (win1_4.rect t)).set
  rw [View.set_slice_whole, Rect.mem_set_unit]
  intro a
  show win1_4.index t a * win1_4.size a ≤ (i a : Nat) ∧ (i a : Nat) < win1_4.index t a * win1_4.size a + win1_4.xsize (grid1.coords t) a
  rw [s_index1_4 t a, Nat.zero_mul, Nat.zero_add]
  exact ⟨Nat.zero_le _, (i a).isLt⟩

/-! ## Region 4 -/

theorem s_lt4 (t : Fin cfg4.N) : t.val < 10 := lt_of_lt_of_eq t.isLt (show cfg4.N = 10 from N_4)
/-- A grid point as one of the ten tiles. -/
def pt4 (t : Fin cfg4.N) : Fin 10 := ⟨t.val, s_lt4 t⟩

theorem s_index4_0 : ∀ t : Fin cfg4.N, win4_0.index t 0 = t.val ∧ win4_0.index t 1 = 0 :=
  (by decide +kernel : ∀ t : Fin grid4.N, win4_0.index t 0 = t.val ∧ win4_0.index t 1 = 0)
theorem s_index4_1 : ∀ t : Fin cfg4.N, win4_1.index t 0 = t.val ∧ win4_1.index t 1 = 0 :=
  (by decide +kernel : ∀ t : Fin grid4.N, win4_1.index t 0 = t.val ∧ win4_1.index t 1 = 0)
theorem s_index4_2 : ∀ t : Fin cfg4.N, win4_2.index t 0 = 0 ∧ win4_2.index t 1 = 0 :=
  (by decide +kernel : ∀ t : Fin grid4.N, win4_2.index t 0 = 0 ∧ win4_2.index t 1 = 0)

/-- The tile of aggregated rows at a point, at (p, q): the array's row p of tile t. -/
theorem blk4_0_apply (c : Dev nD) (A : Buf (Elt Ideal) ((c : Thread nD τ).loc (Pipeline.arrRef spec4 0))) (t : Fin cfg4.N)
    (p : Fin 5000) (q : Fin 96) :
    ((cfg4.win 0).blk t).view.read (Elt Ideal) A (ix2 p q) = (A : Spec.Mat 50000 96) (ix2 (tileRow (pt4 t) p) q) := by
  rw [View.read_apply]
  show A _ = A _
  congr 1
  funext a
  apply Fin.ext
  match a with
  | ⟨0, _⟩ => show win4_0.index t 0 * 5000 + 1 * p.val = 5000 * t.val + p.val; rw [(s_index4_0 t).1]; omega
  | ⟨1, _⟩ => show win4_0.index t 1 * 96 + 1 * q.val = q.val; rw [(s_index4_0 t).2]; omega

/-- The tile of row factors at a point, at (p, 0): the column's row p of tile t. -/
theorem blk4_1_apply (c : Dev nD) (A : Buf (Elt Ideal) ((c : Thread nD τ).loc (Pipeline.arrRef spec4 1))) (t : Fin cfg4.N)
    (p : Fin 5000) (u : Fin 1) :
    ((cfg4.win 1).blk t).view.read (Elt Ideal) A (ix2 p u) = (A : Spec.Mat 50000 1) (ix2 (tileRow (pt4 t) p) 0) := by
  rw [View.read_apply]
  show A _ = A _
  congr 1
  funext a
  apply Fin.ext
  match a with
  | ⟨0, _⟩ => show win4_1.index t 0 * 5000 + 1 * p.val = 5000 * t.val + p.val; rw [(s_index4_1 t).1]; omega
  | ⟨1, _⟩ => show win4_1.index t 1 * 1 + 1 * u.val = 0; rw [(s_index4_1 t).2]; omega

/-- The bias row at a point is the bias row. -/
theorem blk4_2_apply (c : Dev nD) (A : Buf (Elt Ideal) ((c : Thread nD τ).loc (Pipeline.arrRef spec4 2))) (t : Fin cfg4.N)
    (u : Fin 1) (q : Fin 96) :
    ((cfg4.win 2).blk t).view.read (Elt Ideal) A (ix2 u q) = (A : Spec.Mat 1 96) (ix2 0 q) := by
  rw [View.read_apply]
  show A _ = A _
  congr 1
  funext a
  apply Fin.ext
  match a with
  | ⟨0, _⟩ => show win4_2.index t 0 * 1 + 1 * u.val = 0; rw [(s_index4_2 t).1]; omega
  | ⟨1, _⟩ => show win4_2.index t 1 * 96 + 1 * q.val = q.val; rw [(s_index4_2 t).2]; omega

theorem s_index4_3 : ∀ (t : Fin cfg4.N) (a : Fin 2), win4_3.index t a = 0 :=
  (by decide +kernel : ∀ (t : Fin grid4.N) (a : Fin 2), win4_3.index t a = 0)

/-- The one block of output window 3, read off an array, is the array. -/
theorem read_blk4_3 (c : Dev nD) (G : Buf (Elt Ideal) ((c : Thread nD τ).loc (Pipeline.arrRef spec4 3))) (t : Fin cfg4.N) :
    ((cfg4.win 3).blk t).view.read (Elt Ideal) G = G := by
  have hz : (fun a => win4_3.index t a * S1x96.size a) = fun _ => 0 := funext fun a => by rw [s_index4_3 t a, Nat.zero_mul]
  exact Memref.read_access_unit_zero (Elt Ideal) (Pipeline.arrRef spec4 3) hz (fun a => by rw [congrFun hz a]; simp) G

/-- and it covers the array. -/
theorem cover_blk4_3 (c : Dev nD) (t : Fin cfg4.N) (i : ((cfg4.win 3).arr.view.loc (c.tc : Thread nD τ)).2.ty.Idx) :
    i ∈ ((cfg4.win 3).blk t).view.set := by
  show i ∈ ((View.whole (Pipeline.arrRef spec4 3)).slice (win4_3.rect t)).set
  rw [View.set_slice_whole, Rect.mem_set_unit]
  intro a
  show win4_3.index t a * win4_3.size a ≤ (i a : Nat) ∧ (i a : Nat) < win4_3.index t a * win4_3.size a + win4_3.xsize (grid4.coords t) a
  rw [s_index4_3 t a, Nat.zero_mul, Nat.zero_add]
  exact ⟨Nat.zero_le _, (i a).isLt⟩

theorem s_index4_4 : ∀ (t : Fin cfg4.N) (a : Fin 2), win4_4.index t a = 0 :=
  (by decide +kernel : ∀ (t : Fin grid4.N) (a : Fin 2), win4_4.index t a = 0)

/-- The one block of output window 4, read off an array, is the array. -/
theorem read_blk4_4 (c : Dev nD) (G : Buf (Elt Ideal) ((c : Thread nD τ).loc (Pipeline.arrRef spec4 4))) (t : Fin cfg4.N) :
    ((cfg4.win 4).blk t).view.read (Elt Ideal) G = G := by
  have hz : (fun a => win4_4.index t a * S1x96.size a) = fun _ => 0 := funext fun a => by rw [s_index4_4 t a, Nat.zero_mul]
  exact Memref.read_access_unit_zero (Elt Ideal) (Pipeline.arrRef spec4 4) hz (fun a => by rw [congrFun hz a]; simp) G

/-- and it covers the array. -/
theorem cover_blk4_4 (c : Dev nD) (t : Fin cfg4.N) (i : ((cfg4.win 4).arr.view.loc (c.tc : Thread nD τ)).2.ty.Idx) :
    i ∈ ((cfg4.win 4).blk t).view.set := by
  show i ∈ ((View.whole (Pipeline.arrRef spec4 4)).slice (win4_4.rect t)).set
  rw [View.set_slice_whole, Rect.mem_set_unit]
  intro a
  show win4_4.index t a * win4_4.size a ≤ (i a : Nat) ∧ (i a : Nat) < win4_4.index t a * win4_4.size a + win4_4.xsize (grid4.coords t) a
  rw [s_index4_4 t a, Nat.zero_mul, Nat.zero_add]
  exact ⟨Nat.zero_le _, (i a).isLt⟩

/-! ## Region 7 -/

theorem s_lt7 (t : Fin cfg7.N) : t.val < 10 := lt_of_lt_of_eq t.isLt (show cfg7.N = 10 from N_7)
/-- A grid point as one of the ten tiles. -/
def pt7 (t : Fin cfg7.N) : Fin 10 := ⟨t.val, s_lt7 t⟩

theorem s_index7_0 : ∀ t : Fin cfg7.N, win7_0.index t 0 = t.val ∧ win7_0.index t 1 = 0 :=
  (by decide +kernel : ∀ t : Fin grid7.N, win7_0.index t 0 = t.val ∧ win7_0.index t 1 = 0)

/-- The tile of rows at a point, at (p, q): the array's row p of tile t. -/
theorem blk7_0_apply (c : Dev nD) (A : Buf (Elt Ideal) ((c : Thread nD τ).loc (Pipeline.arrRef spec7 0))) (t : Fin cfg7.N)
    (p : Fin 5000) (q : Fin 96) :
    ((cfg7.win 0).blk t).view.read (Elt Ideal) A (ix2 p q) = (A : Spec.Mat 50000 96) (ix2 (tileRow (pt7 t) p) q) := by
  rw [View.read_apply]
  show A _ = A _
  congr 1
  funext a
  apply Fin.ext
  match a with
  | ⟨0, _⟩ => show win7_0.index t 0 * 5000 + 1 * p.val = 5000 * t.val + p.val; rw [(s_index7_0 t).1]; omega
  | ⟨1, _⟩ => show win7_0.index t 1 * 96 + 1 * q.val = q.val; rw [(s_index7_0 t).2]; omega

theorem s_index7_1 : ∀ (t : Fin cfg7.N) (a : Fin 2), win7_1.index t a = 0 :=
  (by decide +kernel : ∀ (t : Fin grid7.N) (a : Fin 2), win7_1.index t a = 0)

/-- The one block of output window 1, read off an array, is the array. -/
theorem read_blk7_1 (c : Dev nD) (G : Buf (Elt Ideal) ((c : Thread nD τ).loc (Pipeline.arrRef spec7 1))) (t : Fin cfg7.N) :
    ((cfg7.win 1).blk t).view.read (Elt Ideal) G = G := by
  have hz : (fun a => win7_1.index t a * S1x96.size a) = fun _ => 0 := funext fun a => by rw [s_index7_1 t a, Nat.zero_mul]
  exact Memref.read_access_unit_zero (Elt Ideal) (Pipeline.arrRef spec7 1) hz (fun a => by rw [congrFun hz a]; simp) G

/-- and it covers the array. -/
theorem cover_blk7_1 (c : Dev nD) (t : Fin cfg7.N) (i : ((cfg7.win 1).arr.view.loc (c.tc : Thread nD τ)).2.ty.Idx) :
    i ∈ ((cfg7.win 1).blk t).view.set := by
  show i ∈ ((View.whole (Pipeline.arrRef spec7 1)).slice (win7_1.rect t)).set
  rw [View.set_slice_whole, Rect.mem_set_unit]
  intro a
  show win7_1.index t a * win7_1.size a ≤ (i a : Nat) ∧ (i a : Nat) < win7_1.index t a * win7_1.size a + win7_1.xsize (grid7.coords t) a
  rw [s_index7_1 t a, Nat.zero_mul, Nat.zero_add]
  exact ⟨Nat.zero_le _, (i a).isLt⟩

theorem s_index7_2 : ∀ (t : Fin cfg7.N) (a : Fin 2), win7_2.index t a = 0 :=
  (by decide +kernel : ∀ (t : Fin grid7.N) (a : Fin 2), win7_2.index t a = 0)

/-- The one block of output window 2, read off an array, is the array. -/
theorem read_blk7_2 (c : Dev nD) (G : Buf (Elt Ideal) ((c : Thread nD τ).loc (Pipeline.arrRef spec7 2))) (t : Fin cfg7.N) :
    ((cfg7.win 2).blk t).view.read (Elt Ideal) G = G := by
  have hz : (fun a => win7_2.index t a * S1x96.size a) = fun _ => 0 := funext fun a => by rw [s_index7_2 t a, Nat.zero_mul]
  exact Memref.read_access_unit_zero (Elt Ideal) (Pipeline.arrRef spec7 2) hz (fun a => by rw [congrFun hz a]; simp) G

/-- and it covers the array. -/
theorem cover_blk7_2 (c : Dev nD) (t : Fin cfg7.N) (i : ((cfg7.win 2).arr.view.loc (c.tc : Thread nD τ)).2.ty.Idx) :
    i ∈ ((cfg7.win 2).blk t).view.set := by
  show i ∈ ((View.whole (Pipeline.arrRef spec7 2)).slice (win7_2.rect t)).set
  rw [View.set_slice_whole, Rect.mem_set_unit]
  intro a
  show win7_2.index t a * win7_2.size a ≤ (i a : Nat) ∧ (i a : Nat) < win7_2.index t a * win7_2.size a + win7_2.xsize (grid7.coords t) a
  rw [s_index7_2 t a, Nat.zero_mul, Nat.zero_add]
  exact ⟨Nat.zero_le _, (i a).isLt⟩

/-- The zero offsets of a whole-buffer access, however spelt. -/
theorem s_hz : (![0, 0] : Fin 2 → Nat) = fun _ => 0 :=
  funext fun a => match a with | ⟨0, _⟩ => rfl | ⟨1, _⟩ => rfl

end Cert.KernelIdeal.Val

end
-- ==== Proof.KI.ValR1step.lean ====
/-
  Sums over the rows of the first tiles, and one grid point's step of the three column-statistics regions against them:
  a point adds to a running row, at column q, the sum over its tile's rows of the value (or of its square) at q.
-/
import proofs.«115743_j55052890800725_2_alg».proof.Proof.KI.ValR1blk

noncomputable section

open scoped BigOperators

namespace Cert.KernelIdeal.Val

open Idealize.ShloMosaic Idealize.ShloMosaic.TcCoe Idealize.ShloMosaic.ValueIdx Idealize.SL.Sem
open Cert.KernelIdeal Cert.KernelIdeal.Gen

/-! ## Sums over the first tiles -/

/-- The sum of f over the rows of tile t (zero past the last tile). -/
def tileSum (f : Fin 50000 → EReal) (t : ℕ) : EReal :=
  if h : t < 10 then ∑ p : Fin 5000, f (tileRow ⟨t, h⟩ p) else 0

/-- The sum of f over the rows of the first n tiles. -/
def tilesSum (f : Fin 50000 → EReal) (n : ℕ) : EReal := ∑ t ∈ Finset.range n, tileSum f t

theorem tilesSum_zero (f : Fin 50000 → EReal) : tilesSum f 0 = 0 := Finset.sum_range_zero _
theorem tilesSum_succ (f : Fin 50000 → EReal) (n : ℕ) : tilesSum f (n + 1) = tilesSum f n + tileSum f n :=
  Finset.sum_range_succ _ _
theorem tileSum_of_lt (f : Fin 50000 → EReal) (t : Fin 10) : tileSum f t.val = ∑ p : Fin 5000, f (tileRow t p) :=
  dif_pos t.isLt
/-- All ten tiles: every row. -/
theorem tilesSum_ten (f : Fin 50000 → EReal) : tilesSum f 10 = ∑ n : Fin 50000, f n := by
  rw [sum_rows_by_tiles, tilesSum, ← Fin.sum_univ_eq_sum_range]
  exact Finset.sum_congr rfl fun t _ => tileSum_of_lt f t

/-! ## Region 1: one point's step -/

/-- The tile's value at (p, q) is the value at row p of the tile. -/
theorem val1_at (c : Dev nD) (A0 : Buf (Elt Ideal) ((c : Thread nD τ).loc (Pipeline.arrRef spec1 0)))
    (A1 : Buf (Elt Ideal) ((c : Thread nD τ).loc (Pipeline.arrRef spec1 1)))
    (A2 : Buf (Elt Ideal) ((c : Thread nD τ).loc (Pipeline.arrRef spec1 2))) (t : Fin cfg1.N) (p : Fin 5000) (q : Fin 96) :
    k1_pay3 (F := Ideal) (((cfg1.win 0).blk t).view.read (Elt Ideal) A0) (((cfg1.win 1).blk t).view.read (Elt Ideal) A1)
        (((cfg1.win 2).blk t).view.read (Elt Ideal) A2) (ix2 p q)
      = Spec.valOf A0 A1 A2 (ix2 (tileRow (pt1 t) p) q) :=
  (k1_pay3_apply _ _ _ p q).trans
    (congrArg₂ (fun a b : EReal => a + b)
      (congrArg₂ (fun a b : EReal => a * b) (blk1_0_apply c A0 t p q) (blk1_1_apply c A1 t p 0))
      (blk1_2_apply c A2 t 0 q))

/-- A point adds to the running row of sums its tile's column sums of the value. -/
theorem step1_sum (c : Dev nD) (A0 : Buf (Elt Ideal) ((c : Thread nD τ).loc (Pipeline.arrRef spec1 0)))
    (A1 : Buf (Elt Ideal) ((c : Thread nD τ).loc (Pipeline.arrRef spec1 1)))
    (A2 : Buf (Elt Ideal) ((c : Thread nD τ).loc (Pipeline.arrRef spec1 2))) (t : Fin cfg1.N)
    (acc : Vec Ideal S1x96 .f32) (q : Fin 96) :
    k1_pay4 (F := Ideal) (((cfg1.win 0).blk t).view.read (Elt Ideal) A0) (((cfg1.win 1).blk t).view.read (Elt Ideal) A1)
        (((cfg1.win 2).blk t).view.read (Elt Ideal) A2) acc (ix2 0 q)
      = acc (ix2 0 q) + tileSum (fun r => Spec.valOf A0 A1 A2 (ix2 r q)) t.val := by
  rw [k1_pay4_apply]
  congr 1
  unfold tileSum
  rw [dif_pos (s_lt1 t)]
  exact Finset.sum_congr rfl fun p _ => val1_at c A0 A1 A2 t p q

/-- A point adds to the running row of sums of squares its tile's column sums of the squared value. -/
theorem step1_sumsq (c : Dev nD) (A0 : Buf (Elt Ideal) ((c : Thread nD τ).loc (Pipeline.arrRef spec1 0)))
    (A1 : Buf (Elt Ideal) ((c : Thread nD τ).loc (Pipeline.arrRef spec1 1)))
    (A2 : Buf (Elt Ideal) ((c : Thread nD τ).loc (Pipeline.arrRef spec1 2))) (t : Fin cfg1.N)
    (acc : Vec Ideal S1x96 .f32) (q : Fin 96) :
    k1_pay5 (F := Ideal) (((cfg1.win 0).blk t).view.read (Elt Ideal) A0) (((cfg1.win 1).blk t).view.read (Elt Ideal) A1)
        (((cfg1.win 2).blk t).view.read (Elt Ideal) A2) acc (ix2 0 q)
      = acc (ix2 0 q) + tileSum (fun r => Spec.valOf A0 A1 A2 (ix2 r q) * Spec.valOf A0 A1 A2 (ix2 r q)) t.val := by
  rw [k1_pay5_apply]
  congr 1
  unfold tileSum
  rw [dif_pos (s_lt1 t)]
  exact Finset.sum_congr rfl fun p _ =>
    congrArg₂ (fun a b : EReal => a * b) (val1_at c A0 A1 A2 t p q) (val1_at c A0 A1 A2 t p q)

/-! ## Region 4: one point's step -/

/-- The tile's value at (p, q) is the value at row p of the tile. -/
theorem val4_at (c : Dev nD) (A0 : Buf (Elt Ideal) ((c : Thread nD τ).loc (Pipeline.arrRef spec4 0)))
    (A1 : Buf (Elt Ideal) ((c : Thread nD τ).loc (Pipeline.arrRef spec4 1)))
    (A2 : Buf (Elt Ideal) ((c : Thread nD τ).loc (Pipeline.arrRef spec4 2))) (t : Fin cfg4.N) (p : Fin 5000) (q : Fin 96) :
    k4_pay3 (F := Ideal) (((cfg4.win 0).blk t).view.read (Elt Ideal) A0) (((cfg4.win 1).blk t).view.read (Elt Ideal) A1)
        (((cfg4.win 2).blk t).view.read (Elt Ideal) A2) (ix2 p q)
      = Spec.valOf A0 A1 A2 (ix2 (tileRow (pt4 t) p) q) :=
  (k4_pay3_apply _ _ _ p q).trans
    (congrArg₂ (fun a b : EReal => a + b)
      (congrArg₂ (fun a b : EReal => a * b) (blk4_0_apply c A0 t p q) (blk4_1_apply c A1 t p 0))
      (blk4_2_apply c A2 t 0 q))

/-- A point adds to the running row of sums its tile's column sums of the value. -/
theorem step4_sum (c : Dev nD) (A0 : Buf (Elt Ideal) ((c : Thread nD τ).loc (Pipeline.arrRef spec4 0)))
    (A1 : Buf (Elt Ideal) ((c : Thread nD τ).loc (Pipeline.arrRef spec4 1)))
    (A2 : Buf (Elt Ideal) ((c : Thread nD τ).loc (Pipeline.arrRef spec4 2))) (t : Fin cfg4.N)
    (acc : Vec Ideal S1x96 .f32) (q : Fin 96) :
    k4_pay4 (F := Ideal) (((cfg4.win 0).blk t).view.read (Elt Ideal) A0) (((cfg4.win 1).blk t).view.read (Elt Ideal) A1)
        (((cfg4.win 2).blk t).view.read (Elt Ideal) A2) acc (ix2 0 q)
      = acc (ix2 0 q) + tileSum (fun r => Spec.valOf A0 A1 A2 (ix2 r q)) t.val := by
  rw [k4_pay4_apply]
  congr 1
  unfold tileSum
  rw [dif_pos (s_lt4 t)]
  exact Finset.sum_congr rfl fun p _ => val4_at c A0 A1 A2 t p q

/-- A point adds to the running row of sums of squares its tile's column sums of the squared value. -/
theorem step4_sumsq (c : Dev nD) (A0 : Buf (Elt Ideal) ((c : Thread nD τ).loc (Pipeline.arrRef spec4 0)))
    (A1 : Buf (Elt Ideal) ((c : Thread nD τ).loc (Pipeline.arrRef spec4 1)))
    (A2 : Buf (Elt Ideal) ((c : Thread nD τ).loc (Pipeline.arrRef spec4 2))) (t : Fin cfg4.N)
    (acc : Vec Ideal S1x96 .f32) (q : Fin 96) :
    k4_pay5 (F := Ideal) (((cfg4.win 0).blk t).view.read (Elt Ideal) A0) (((cfg4.win 1).blk t).view.read (Elt Ideal) A1)
        (((cfg4.win 2).blk t).view.read (Elt Ideal) A2) acc (ix2 0 q)
      = acc (ix2 0 q) + tileSum (fun r => Spec.valOf A0 A1 A2 (ix2 r q) * Spec.valOf A0 A1 A2 (ix2 r q)) t.val := by
  rw [k4_pay5_apply]
  congr 1
  unfold tileSum
  rw [dif_pos (s_lt4 t)]
  exact Finset.sum_congr rfl fun p _ =>
    congrArg₂ (fun a b : EReal => a * b) (val4_at c A0 A1 A2 t p q) (val4_at c A0 A1 A2 t p q)

/-! ## Region 7: one point's step -/

/-- Column q of a matrix of 50000 rows, as a function of the row. -/
def colOf (X : Spec.Mat 50000 96) (q : Fin 96) : Fin 50000 → EReal := fun r => X (ix2 r q)

theorem step7_sum (c : Dev nD) (A0 : Buf (Elt Ideal) ((c : Thread nD τ).loc (Pipeline.arrRef spec7 0))) (t : Fin cfg7.N)
    (acc : Vec Ideal S1x96 .f32) (q : Fin 96) :
    k7_pay4 (F := Ideal) (((cfg7.win 0).blk t).view.read (Elt Ideal) A0) acc (ix2 0 q)
      = acc (ix2 0 q) + tileSum (colOf A0 q) t.val := by
  rw [k7_pay4_apply]
  congr 1
  unfold tileSum
  rw [dif_pos (s_lt7 t)]
  exact Finset.sum_congr rfl fun p _ => blk7_0_apply c A0 t p q

theorem step7_sumsq (c : Dev nD) (A0 : Buf (Elt Ideal) ((c : Thread nD τ).loc (Pipeline.arrRef spec7 0))) (t : Fin cfg7.N)
    (acc : Vec Ideal S1x96 .f32) (q : Fin 96) :
    k7_pay5 (F := Ideal) (((cfg7.win 0).blk t).view.read (Elt Ideal) A0) acc (ix2 0 q)
      = acc (ix2 0 q) + tileSum (fun r => colOf A0 q r * colOf A0 q r) t.val := by
  rw [k7_pay5_apply]
  congr 1
  unfold tileSum
  rw [dif_pos (s_lt7 t)]
  exact Finset.sum_congr rfl fun p _ =>
    congrArg₂ (fun a b : EReal => a * b) (blk7_0_apply c A0 t p q) (blk7_0_apply c A0 t p q)

end Cert.KernelIdeal.Val

end
-- ==== Proof.KI.ValR1.lean ====
/-
  The values of region 1's two result arrays at the extended reals: the column sums, over all 50000 rows, of the
  value (the aggregated rows scaled by the row factors, plus the bias row) and of its square.

  The two scratch rows are zeroed at the first point; every point adds its tile's column sums; the last point copies
  the rows to the result arrays.  So after point n the rows hold the sums over the first n + 1 tiles, by induction on
  the point, and after the last point the sums over all rows.
-/
import proofs.«115743_j55052890800725_2_alg».proof.Proof.KI.BodyR1
import proofs.«115743_j55052890800725_2_alg».proof.Proof.KI.ValR1step
import Idealize.ShloMosaic.Lib.Tactic

set_option maxRecDepth 16384

noncomputable section

open scoped BigOperators

namespace Cert.KernelIdeal.Val

open Idealize.ShloMosaic Idealize.ShloMosaic.TcCoe Idealize.ShloMosaic.ValueIdx Idealize.ShloMosaic.Tactic Idealize.SL.Sem
open Idealize.ShloMosaic.Pipeline (Dat)
open Cert.KernelIdeal Cert.KernelIdeal.Gen Cert.KernelIdeal.Hand

/-! ## What each case's stores leave, as payloads -/

section Pieces

variable {F : FTy → Type} [FloatOps F]

/-- The first point leaves in scratch row 0 the reset row plus the tile's sums. -/
theorem sout1_A_0_eq (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : cond1_0 i) (hc1 : ¬cond1_1 i)
    (x0 : Vec F S5000x96 .f32) (x1 : Vec F S5000x1 .f32) (x2 : Vec F S1x96 .f32) :
    sout1_A_0 c i arg1 harg1 arg2 harg2 arg3 harg3 arg4 harg4 arg5 harg5 arg6 harg6 arg7 harg7 hc0 hc1 x0 x1 x2 = k1_pay4 x0 x1 x2 (k1_pay1 (F := F)) := by
  unfold sout1_A_0
  rw [View.read_writes_eq_canon _ _ _ (scover1_A_0 c i arg1 harg1 arg2 harg2 arg3 harg3 arg4 harg4 arg5 harg5 arg6 harg6 arg7 harg7 hc0 hc1 x0 x1 x2)]
  unfold kernelRun1_A
  dsimp only
  sl_unfold_words
  rw [View.canon_cons_unit_zero (S := S1x96) s_hz, View.readCov_unit_zero (S := S1x96) _ s_hz]
  simp only [View.readAt_eq_ld, harg1.read_unread, harg2.read_unread, harg3.read_unread, harg6.read_unread, harg7.read_unread,
    View.ld_unit_zero (S := S5000x96) s_hz, View.ld_unit_zero (S := S5000x1) s_hz, View.ld_unit_zero (S := S1x96) s_hz]

/-- The first point leaves in scratch row 1 the reset row plus the tile's sums. -/
theorem sout1_A_1_eq (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : cond1_0 i) (hc1 : ¬cond1_1 i)
    (x0 : Vec F S5000x96 .f32) (x1 : Vec F S5000x1 .f32) (x2 : Vec F S1x96 .f32) :
    sout1_A_1 c i arg1 harg1 arg2 harg2 arg3 harg3 arg4 harg4 arg5 harg5 arg6 harg6 arg7 harg7 hc0 hc1 x0 x1 x2 = k1_pay5 x0 x1 x2 (k1_pay2 (F := F)) := by
  unfold sout1_A_1
  rw [View.read_writes_eq_canon _ _ _ (scover1_A_1 c i arg1 harg1 arg2 harg2 arg3 harg3 arg4 harg4 arg5 harg5 arg6 harg6 arg7 harg7 hc0 hc1 x0 x1 x2)]
  unfold kernelRun1_A
  dsimp only
  sl_unfold_words
  rw [View.canon_cons_unit_zero (S := S1x96) s_hz, View.readCov_unit_zero (S := S1x96) _ s_hz]
  simp only [View.readAt_eq_ld, harg1.read_unread, harg2.read_unread, harg3.read_unread, harg6.read_unread, harg7.read_unread,
    View.ld_unit_zero (S := S5000x96) s_hz, View.ld_unit_zero (S := S5000x1) s_hz, View.ld_unit_zero (S := S1x96) s_hz]

/-- A middle point leaves in scratch row 0 what the point before left plus the tile's sums. -/
theorem sout1_B_0_eq (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond1_0 i) (hc1 : ¬cond1_1 i)
    (x0 : Vec F S5000x96 .f32) (x1 : Vec F S5000x1 .f32) (x2 : Vec F S1x96 .f32) (xs0 : Vec F S1x96 .f32) (xs1 : Vec F S1x96 .f32) :
    sout1_B_0 c i arg1 harg1 arg2 harg2 arg3 harg3 arg4 harg4 arg5 harg5 arg6 harg6 arg7 harg7 hc0 hc1 x0 x1 x2 xs0 xs1 = k1_pay4 x0 x1 x2 xs0 := by
  unfold sout1_B_0
  rw [View.read_writes_eq_canon _ _ _ (scover1_B_0 c i arg1 harg1 arg2 harg2 arg3 harg3 arg4 harg4 arg5 harg5 arg6 harg6 arg7 harg7 hc0 hc1 x0 x1 x2 xs0 xs1)]
  unfold kernelRun1_B
  dsimp only
  sl_unfold_words
  rw [View.canon_unit_zero s_hz]
  simp only [View.readAt_eq_ld, harg1.read_unread, harg2.read_unread, harg3.read_unread, harg6.read_unread, harg7.read_unread,
    View.ld_unit_zero (S := S5000x96) s_hz, View.ld_unit_zero (S := S5000x1) s_hz, View.ld_unit_zero (S := S1x96) s_hz]

/-- A middle point leaves in scratch row 1 what the point before left plus the tile's sums. -/
theorem sout1_B_1_eq (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond1_0 i) (hc1 : ¬cond1_1 i)
    (x0 : Vec F S5000x96 .f32) (x1 : Vec F S5000x1 .f32) (x2 : Vec F S1x96 .f32) (xs0 : Vec F S1x96 .f32) (xs1 : Vec F S1x96 .f32) :
    sout1_B_1 c i arg1 harg1 arg2 harg2 arg3 harg3 arg4 harg4 arg5 harg5 arg6 harg6 arg7 harg7 hc0 hc1 x0 x1 x2 xs0 xs1 = k1_pay5 x0 x1 x2 xs1 := by
  unfold sout1_B_1
  rw [View.read_writes_eq_canon _ _ _ (scover1_B_1 c i arg1 harg1 arg2 harg2 arg3 harg3 arg4 harg4 arg5 harg5 arg6 harg6 arg7 harg7 hc0 hc1 x0 x1 x2 xs0 xs1)]
  unfold kernelRun1_B
  dsimp only
  sl_unfold_words
  rw [View.canon_unit_zero s_hz]
  simp only [View.readAt_eq_ld, harg1.read_unread, harg2.read_unread, harg3.read_unread, harg6.read_unread, harg7.read_unread,
    View.ld_unit_zero (S := S5000x96) s_hz, View.ld_unit_zero (S := S5000x1) s_hz, View.ld_unit_zero (S := S1x96) s_hz]

/-- The last point leaves in scratch row 0 what the point before left plus the tile's sums. -/
theorem sout1_C_0_eq (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond1_0 i) (hc1 : cond1_1 i)
    (x0 : Vec F S5000x96 .f32) (x1 : Vec F S5000x1 .f32) (x2 : Vec F S1x96 .f32) (xs0 : Vec F S1x96 .f32) (xs1 : Vec F S1x96 .f32) :
    sout1_C_0 c i arg1 harg1 arg2 harg2 arg3 harg3 arg4 harg4 arg5 harg5 arg6 harg6 arg7 harg7 hc0 hc1 x0 x1 x2 xs0 xs1 = k1_pay4 x0 x1 x2 xs0 := by
  unfold sout1_C_0
  rw [View.read_writes_eq_canon _ _ _ (scover1_C_0 c i arg1 harg1 arg2 harg2 arg3 harg3 arg4 harg4 arg5 harg5 arg6 harg6 arg7 harg7 hc0 hc1 x0 x1 x2 xs0 xs1)]
  unfold kernelRun1_C
  dsimp only
  sl_unfold_words
  rw [View.canon_unit_zero s_hz]
  simp only [View.readAt_eq_ld, harg1.read_unread, harg2.read_unread, harg3.read_unread, harg6.read_unread, harg7.read_unread,
    View.ld_unit_zero (S := S5000x96) s_hz, View.ld_unit_zero (S := S5000x1) s_hz, View.ld_unit_zero (S := S1x96) s_hz]

/-- The last point leaves in scratch row 1 what the point before left plus the tile's sums. -/
theorem sout1_C_1_eq (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond1_0 i) (hc1 : cond1_1 i)
    (x0 : Vec F S5000x96 .f32) (x1 : Vec F S5000x1 .f32) (x2 : Vec F S1x96 .f32) (xs0 : Vec F S1x96 .f32) (xs1 : Vec F S1x96 .f32) :
    sout1_C_1 c i arg1 harg1 arg2 harg2 arg3 harg3 arg4 harg4 arg5 harg5 arg6 harg6 arg7 harg7 hc0 hc1 x0 x1 x2 xs0 xs1 = k1_pay5 x0 x1 x2 xs1 := by
  unfold sout1_C_1
  rw [View.read_writes_eq_canon _ _ _ (scover1_C_1 c i arg1 harg1 arg2 harg2 arg3 harg3 arg4 harg4 arg5 harg5 arg6 harg6 arg7 harg7 hc0 hc1 x0 x1 x2 xs0 xs1)]
  unfold kernelRun1_C
  dsimp only
  sl_unfold_words
  rw [View.canon_unit_zero s_hz]
  simp only [View.readAt_eq_ld, harg1.read_unread, harg2.read_unread, harg3.read_unread, harg6.read_unread, harg7.read_unread,
    View.ld_unit_zero (S := S5000x96) s_hz, View.ld_unit_zero (S := S5000x1) s_hz, View.ld_unit_zero (S := S1x96) s_hz]

/-- The last point copies scratch row 0, as it has just left it, to output window 3. -/
theorem out1_C_3_eq (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond1_0 i) (hc1 : cond1_1 i)
    (x0 : Vec F S5000x96 .f32) (x1 : Vec F S5000x1 .f32) (x2 : Vec F S1x96 .f32) (xs0 : Vec F S1x96 .f32) (xs1 : Vec F S1x96 .f32) :
    out1_C_3 c i arg1 harg1 arg2 harg2 arg3 harg3 arg4 harg4 arg5 harg5 arg6 harg6 arg7 harg7 hc0 hc1 x0 x1 x2 xs0 xs1 = k1_pay4 x0 x1 x2 xs0 := by
  unfold out1_C_3
  rw [View.read_writes_eq_canon _ _ _ (cover1_C_3 c i arg1 harg1 arg2 harg2 arg3 harg3 arg4 harg4 arg5 harg5 arg6 harg6 arg7 harg7 hc0 hc1 x0 x1 x2 xs0 xs1)]
  unfold kernelRun1_C
  dsimp only
  sl_unfold_words
  rw [View.canon_unit_zero s_hz, View.readCov_unit_zero (S := S1x96) _ s_hz]
  simp only [View.readAt_eq_ld, harg1.read_unread, harg2.read_unread, harg3.read_unread, harg6.read_unread, harg7.read_unread,
    View.ld_unit_zero (S := S5000x96) s_hz, View.ld_unit_zero (S := S5000x1) s_hz, View.ld_unit_zero (S := S1x96) s_hz]

/-- The last point copies scratch row 1, as it has just left it, to output window 4. -/
theorem out1_C_4_eq (c : Dev nD) (i : grid1.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond1_0 i) (hc1 : cond1_1 i)
    (x0 : Vec F S5000x96 .f32) (x1 : Vec F S5000x1 .f32) (x2 : Vec F S1x96 .f32) (xs0 : Vec F S1x96 .f32) (xs1 : Vec F S1x96 .f32) :
    out1_C_4 c i arg1 harg1 arg2 harg2 arg3 harg3 arg4 harg4 arg5 harg5 arg6 harg6 arg7 harg7 hc0 hc1 x0 x1 x2 xs0 xs1 = k1_pay5 x0 x1 x2 xs1 := by
  unfold out1_C_4
  rw [View.read_writes_eq_canon _ _ _ (cover1_C_4 c i arg1 harg1 arg2 harg2 arg3 harg3 arg4 harg4 arg5 harg5 arg6 harg6 arg7 harg7 hc0 hc1 x0 x1 x2 xs0 xs1)]
  unfold kernelRun1_C
  dsimp only
  sl_unfold_words
  rw [View.canon_unit_zero s_hz, View.readCov_unit_zero (S := S1x96) _ s_hz]
  simp only [View.readAt_eq_ld, harg1.read_unread, harg2.read_unread, harg3.read_unread, harg6.read_unread, harg7.read_unread,
    View.ld_unit_zero (S := S5000x96) s_hz, View.ld_unit_zero (S := S5000x1) s_hz, View.ld_unit_zero (S := S1x96) s_hz]

end Pieces

/-! ## The running rows in closed form, and the result arrays -/

section Value

variable (V : (c : Dev nD) → (b : Ref sig .tc) → Buf (Elt Ideal) ((c : Thread nD τ).loc b))

/-- The value whose column statistics the region takes: the aggregated rows scaled by the row factors, plus the bias. -/
def val1 (c : Dev nD) : Spec.Mat 50000 96 :=
  Spec.valOf (V c (Pipeline.arrRef spec1 0)) (V c (Pipeline.arrRef spec1 1)) (V c (Pipeline.arrRef spec1 2))

/-- One point's step on the row of sums, over the blocks the point reads. -/
theorem s_step1_sum (c : Dev nD) (t : Fin cfg1.N) (acc : Vec Ideal S1x96 .f32) (q : Fin 96) :
    k1_pay4 (F := Ideal) (iblk1 V c 0 t) (iblk1 V c 1 t) (iblk1 V c 2 t) acc (ix2 0 q) = acc (ix2 0 q) + tileSum (fun r => val1 V c (ix2 r q)) t.val :=
  step1_sum c (V c (Pipeline.arrRef spec1 0)) (V c (Pipeline.arrRef spec1 1)) (V c (Pipeline.arrRef spec1 2)) t acc q

theorem s_step1_sumsq (c : Dev nD) (t : Fin cfg1.N) (acc : Vec Ideal S1x96 .f32) (q : Fin 96) :
    k1_pay5 (F := Ideal) (iblk1 V c 0 t) (iblk1 V c 1 t) (iblk1 V c 2 t) acc (ix2 0 q) = acc (ix2 0 q) + tileSum (fun r => val1 V c (ix2 r q) * val1 V c (ix2 r q)) t.val :=
  step1_sumsq c (V c (Pipeline.arrRef spec1 0)) (V c (Pipeline.arrRef spec1 1)) (V c (Pipeline.arrRef spec1 2)) t acc q

/-- After point n the two scratch rows hold, at column q, the sums over the rows of the first n + 1 tiles of the value
    and of its square: by induction on the point. -/
theorem scratch1_eq (c : Dev nD) (q : Fin 96) : ∀ (n : ℕ) (hn : n < cfg1.N),
    (outsAt1 V c n hn).2.2.1 (ix2 0 q) = tilesSum (fun r => val1 V c (ix2 r q)) (n + 1)
    ∧ (outsAt1 V c n hn).2.2.2 (ix2 0 q) = tilesSum (fun r => val1 V c (ix2 r q) * val1 V c (ix2 r q)) (n + 1)
  | 0, hn => by
    rw [outsAt1_A V c ⟨0, hn⟩ rfl (by show ¬(0 : ℕ) = 9; decide)]
    dsimp only
    rw [sout1_A_0_eq, sout1_A_1_eq]
    constructor
    · refine (s_step1_sum V c ⟨0, hn⟩ _ q).trans ?_
      rw [k1_pay1_apply, tilesSum_succ, tilesSum_zero]
    · refine (s_step1_sumsq V c ⟨0, hn⟩ _ q).trans ?_
      rw [k1_pay2_apply, tilesSum_succ, tilesSum_zero]
  | n + 1, hn => by
    have ih := scratch1_eq c q n (Nat.lt_of_succ_lt hn)
    by_cases h9 : n + 1 = 9
    · rw [outsAt1_C V c ⟨n + 1, hn⟩ (Nat.succ_ne_zero n) h9]
      dsimp only
      rw [sout1_C_0_eq, sout1_C_1_eq]
      constructor
      · refine (s_step1_sum V c ⟨n + 1, hn⟩ _ q).trans ?_
        rw [tilesSum_succ _ (n + 1)]
        exact congrArg (· + _) ih.1
      · refine (s_step1_sumsq V c ⟨n + 1, hn⟩ _ q).trans ?_
        rw [tilesSum_succ _ (n + 1)]
        exact congrArg (· + _) ih.2
    · rw [outsAt1_B V c ⟨n + 1, hn⟩ (Nat.succ_ne_zero n) h9]
      dsimp only
      rw [sout1_B_0_eq, sout1_B_1_eq]
      constructor
      · refine (s_step1_sum V c ⟨n + 1, hn⟩ _ q).trans ?_
        rw [tilesSum_succ _ (n + 1)]
        exact congrArg (· + _) ih.1
      · refine (s_step1_sumsq V c ⟨n + 1, hn⟩ _ q).trans ?_
        rw [tilesSum_succ _ (n + 1)]
        exact congrArg (· + _) ih.2

/-- The last point. -/
def s_last1 : Fin cfg1.N := ⟨9, by rw [show cfg1.N = 10 from N_1]; decide⟩

/-- The last point's output windows, at column q: the sums over the rows of all the tiles up to it. -/
theorem outs1_at (c : Dev nD) (q : Fin 96) (n : ℕ) (hn : n + 1 < cfg1.N) (h9 : n + 1 = 9) :
    (outsAt1 V c (n + 1) hn).1 (ix2 0 q) = tilesSum (fun r => val1 V c (ix2 r q)) (n + 1 + 1)
    ∧ (outsAt1 V c (n + 1) hn).2.1 (ix2 0 q) = tilesSum (fun r => val1 V c (ix2 r q) * val1 V c (ix2 r q)) (n + 1 + 1) := by
  have ih := scratch1_eq V c q n (Nat.lt_of_succ_lt hn)
  rw [outsAt1_C V c ⟨n + 1, hn⟩ (Nat.succ_ne_zero n) h9]
  dsimp only
  rw [out1_C_3_eq, out1_C_4_eq]
  constructor
  · refine (s_step1_sum V c ⟨n + 1, hn⟩ _ q).trans ?_
    rw [tilesSum_succ _ (n + 1)]
    exact congrArg (· + _) ih.1
  · refine (s_step1_sumsq V c ⟨n + 1, hn⟩ _ q).trans ?_
    rw [tilesSum_succ _ (n + 1)]
    exact congrArg (· + _) ih.2

/-- What the last point leaves in the two output windows' buffers: the column sums over all rows. -/
theorem outs1_last (c : Dev nD) (t : Fin cfg1.N) (h9 : t.val = 9) :
    (outsAt1 V c t.val t.isLt).1 = (Spec.colSum (val1 V c) : Spec.Mat 1 96)
    ∧ (outsAt1 V c t.val t.isLt).2.1 = (Spec.colSumSq (val1 V c) : Spec.Mat 1 96) := by
  obtain ⟨tv, ht⟩ := t
  cases tv with
  | zero => exact absurd h9 (by show ¬(0 : ℕ) = 9; decide)
  | succ n =>
    have h9' : n + 1 = 9 := h9
    have e10 : n + 1 + 1 = 10 := by omega
    constructor
    · funext j
      obtain ⟨u, q, rfl⟩ : ∃ (u : Fin 1) (q : Fin 96), j = ix2 u q := ⟨j 0, j 1, eq_ix2 j⟩
      obtain rfl : u = 0 := Subsingleton.elim _ _
      refine (outs1_at V c q n ht h9').1.trans ?_
      rw [e10, tilesSum_ten]
      unfold Spec.colSum
      exact Finset.sum_congr rfl fun r _ => rfl
    · funext j
      obtain ⟨u, q, rfl⟩ : ∃ (u : Fin 1) (q : Fin 96), j = ix2 u q := ⟨j 0, j 1, eq_ix2 j⟩
      obtain rfl : u = 0 := Subsingleton.elim _ _
      refine (outs1_at V c q n ht h9').2.trans ?_
      rw [e10, tilesSum_ten]
      unfold Spec.colSumSq
      exact Finset.sum_congr rfl fun r _ => rfl

/-- The region's first result array ends holding the column sums of the value. -/
theorem val1_sum (c : Dev nD) :
    (dat1 (F := Ideal) V c).arrAt 3 cfg1.N = Spec.colSum (Spec.valOf (V c (Pipeline.arrRef spec1 0)) (V c (Pipeline.arrRef spec1 1)) (V c (Pipeline.arrRef spec1 2))) := by
  refine (dat1 V c).arrAt_eq_of_cover 3 _ (fun t hf => ?_) (fun i => ⟨s_last1, (flush1_3 _).mpr rfl, cover_blk1_3 c _ i⟩)
  have h9 : t.val = 9 := by have := (flush1_3 t).mp hf; have := s_lt1 t; omega
  rw [read_blk1_3 c]
  show (cfg1.win 3).cut (grid1.coords t) ((dat1 V c).after 3 t) = _
  rw [after1_3]
  exact (outs1_last V c t h9).1

/-- The region's second result array ends holding the column sums of the squared value. -/
theorem val1_sumsq (c : Dev nD) :
    (dat1 (F := Ideal) V c).arrAt 4 cfg1.N = Spec.colSumSq (Spec.valOf (V c (Pipeline.arrRef spec1 0)) (V c (Pipeline.arrRef spec1 1)) (V c (Pipeline.arrRef spec1 2))) := by
  refine (dat1 V c).arrAt_eq_of_cover 4 _ (fun t hf => ?_) (fun i => ⟨s_last1, (flush1_4 _).mpr rfl, cover_blk1_4 c _ i⟩)
  have h9 : t.val = 9 := by have := (flush1_4 t).mp hf; have := s_lt1 t; omega
  rw [read_blk1_4 c]
  show (cfg1.win 4).cut (grid1.coords t) ((dat1 V c).after 4 t) = _
  rw [after1_4]
  exact (outs1_last V c t h9).2

end Value

end Cert.KernelIdeal.Val

end
-- ==== Proof.KI.ValR4.lean ====
/-
  The values of region 4's two result arrays at the extended reals: the column sums, over all 50000 rows, of the
  value (the aggregated rows scaled by the row factors, plus the bias row) and of its square.

  The two scratch rows are zeroed at the first point; every point adds its tile's column sums; the last point copies
  the rows to the result arrays.  So after point n the rows hold the sums over the first n + 1 tiles, by induction on
  the point, and after the last point the sums over all rows.
-/
import proofs.«115743_j55052890800725_2_alg».proof.Proof.KI.BodyR4
import proofs.«115743_j55052890800725_2_alg».proof.Proof.KI.ValR1step
import Idealize.ShloMosaic.Lib.Tactic

set_option maxRecDepth 16384

noncomputable section

open scoped BigOperators

namespace Cert.KernelIdeal.Val

open Idealize.ShloMosaic Idealize.ShloMosaic.TcCoe Idealize.ShloMosaic.ValueIdx Idealize.ShloMosaic.Tactic Idealize.SL.Sem
open Idealize.ShloMosaic.Pipeline (Dat)
open Cert.KernelIdeal Cert.KernelIdeal.Gen Cert.KernelIdeal.Hand

/-! ## What each case's stores leave, as payloads -/

section Pieces

variable {F : FTy → Type} [FloatOps F]

/-- The first point leaves in scratch row 0 the reset row plus the tile's sums. -/
theorem sout4_A_0_eq (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : cond4_0 i) (hc1 : ¬cond4_1 i)
    (x0 : Vec F S5000x96 .f32) (x1 : Vec F S5000x1 .f32) (x2 : Vec F S1x96 .f32) :
    sout4_A_0 c i arg1 harg1 arg2 harg2 arg3 harg3 arg4 harg4 arg5 harg5 arg6 harg6 arg7 harg7 hc0 hc1 x0 x1 x2 = k4_pay4 x0 x1 x2 (k4_pay1 (F := F)) := by
  unfold sout4_A_0
  rw [View.read_writes_eq_canon _ _ _ (scover4_A_0 c i arg1 harg1 arg2 harg2 arg3 harg3 arg4 harg4 arg5 harg5 arg6 harg6 arg7 harg7 hc0 hc1 x0 x1 x2)]
  unfold kernelRun4_A
  dsimp only
  sl_unfold_words
  rw [View.canon_cons_unit_zero (S := S1x96) s_hz, View.readCov_unit_zero (S := S1x96) _ s_hz]
  simp only [View.readAt_eq_ld, harg1.read_unread, harg2.read_unread, harg3.read_unread, harg6.read_unread, harg7.read_unread,
    View.ld_unit_zero (S := S5000x96) s_hz, View.ld_unit_zero (S := S5000x1) s_hz, View.ld_unit_zero (S := S1x96) s_hz]

/-- The first point leaves in scratch row 1 the reset row plus the tile's sums. -/
theorem sout4_A_1_eq (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : cond4_0 i) (hc1 : ¬cond4_1 i)
    (x0 : Vec F S5000x96 .f32) (x1 : Vec F S5000x1 .f32) (x2 : Vec F S1x96 .f32) :
    sout4_A_1 c i arg1 harg1 arg2 harg2 arg3 harg3 arg4 harg4 arg5 harg5 arg6 harg6 arg7 harg7 hc0 hc1 x0 x1 x2 = k4_pay5 x0 x1 x2 (k4_pay2 (F := F)) := by
  unfold sout4_A_1
  rw [View.read_writes_eq_canon _ _ _ (scover4_A_1 c i arg1 harg1 arg2 harg2 arg3 harg3 arg4 harg4 arg5 harg5 arg6 harg6 arg7 harg7 hc0 hc1 x0 x1 x2)]
  unfold kernelRun4_A
  dsimp only
  sl_unfold_words
  rw [View.canon_cons_unit_zero (S := S1x96) s_hz, View.readCov_unit_zero (S := S1x96) _ s_hz]
  simp only [View.readAt_eq_ld, harg1.read_unread, harg2.read_unread, harg3.read_unread, harg6.read_unread, harg7.read_unread,
    View.ld_unit_zero (S := S5000x96) s_hz, View.ld_unit_zero (S := S5000x1) s_hz, View.ld_unit_zero (S := S1x96) s_hz]

/-- A middle point leaves in scratch row 0 what the point before left plus the tile's sums. -/
theorem sout4_B_0_eq (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond4_0 i) (hc1 : ¬cond4_1 i)
    (x0 : Vec F S5000x96 .f32) (x1 : Vec F S5000x1 .f32) (x2 : Vec F S1x96 .f32) (xs0 : Vec F S1x96 .f32) (xs1 : Vec F S1x96 .f32) :
    sout4_B_0 c i arg1 harg1 arg2 harg2 arg3 harg3 arg4 harg4 arg5 harg5 arg6 harg6 arg7 harg7 hc0 hc1 x0 x1 x2 xs0 xs1 = k4_pay4 x0 x1 x2 xs0 := by
  unfold sout4_B_0
  rw [View.read_writes_eq_canon _ _ _ (scover4_B_0 c i arg1 harg1 arg2 harg2 arg3 harg3 arg4 harg4 arg5 harg5 arg6 harg6 arg7 harg7 hc0 hc1 x0 x1 x2 xs0 xs1)]
  unfold kernelRun4_B
  dsimp only
  sl_unfold_words
  rw [View.canon_unit_zero s_hz]
  simp only [View.readAt_eq_ld, harg1.read_unread, harg2.read_unread, harg3.read_unread, harg6.read_unread, harg7.read_unread,
    View.ld_unit_zero (S := S5000x96) s_hz, View.ld_unit_zero (S := S5000x1) s_hz, View.ld_unit_zero (S := S1x96) s_hz]

/-- A middle point leaves in scratch row 1 what the point before left plus the tile's sums. -/
theorem sout4_B_1_eq (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond4_0 i) (hc1 : ¬cond4_1 i)
    (x0 : Vec F S5000x96 .f32) (x1 : Vec F S5000x1 .f32) (x2 : Vec F S1x96 .f32) (xs0 : Vec F S1x96 .f32) (xs1 : Vec F S1x96 .f32) :
    sout4_B_1 c i arg1 harg1 arg2 harg2 arg3 harg3 arg4 harg4 arg5 harg5 arg6 harg6 arg7 harg7 hc0 hc1 x0 x1 x2 xs0 xs1 = k4_pay5 x0 x1 x2 xs1 := by
  unfold sout4_B_1
  rw [View.read_writes_eq_canon _ _ _ (scover4_B_1 c i arg1 harg1 arg2 harg2 arg3 harg3 arg4 harg4 arg5 harg5 arg6 harg6 arg7 harg7 hc0 hc1 x0 x1 x2 xs0 xs1)]
  unfold kernelRun4_B
  dsimp only
  sl_unfold_words
  rw [View.canon_unit_zero s_hz]
  simp only [View.readAt_eq_ld, harg1.read_unread, harg2.read_unread, harg3.read_unread, harg6.read_unread, harg7.read_unread,
    View.ld_unit_zero (S := S5000x96) s_hz, View.ld_unit_zero (S := S5000x1) s_hz, View.ld_unit_zero (S := S1x96) s_hz]

/-- The last point leaves in scratch row 0 what the point before left plus the tile's sums. -/
theorem sout4_C_0_eq (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond4_0 i) (hc1 : cond4_1 i)
    (x0 : Vec F S5000x96 .f32) (x1 : Vec F S5000x1 .f32) (x2 : Vec F S1x96 .f32) (xs0 : Vec F S1x96 .f32) (xs1 : Vec F S1x96 .f32) :
    sout4_C_0 c i arg1 harg1 arg2 harg2 arg3 harg3 arg4 harg4 arg5 harg5 arg6 harg6 arg7 harg7 hc0 hc1 x0 x1 x2 xs0 xs1 = k4_pay4 x0 x1 x2 xs0 := by
  unfold sout4_C_0
  rw [View.read_writes_eq_canon _ _ _ (scover4_C_0 c i arg1 harg1 arg2 harg2 arg3 harg3 arg4 harg4 arg5 harg5 arg6 harg6 arg7 harg7 hc0 hc1 x0 x1 x2 xs0 xs1)]
  unfold kernelRun4_C
  dsimp only
  sl_unfold_words
  rw [View.canon_unit_zero s_hz]
  simp only [View.readAt_eq_ld, harg1.read_unread, harg2.read_unread, harg3.read_unread, harg6.read_unread, harg7.read_unread,
    View.ld_unit_zero (S := S5000x96) s_hz, View.ld_unit_zero (S := S5000x1) s_hz, View.ld_unit_zero (S := S1x96) s_hz]

/-- The last point leaves in scratch row 1 what the point before left plus the tile's sums. -/
theorem sout4_C_1_eq (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond4_0 i) (hc1 : cond4_1 i)
    (x0 : Vec F S5000x96 .f32) (x1 : Vec F S5000x1 .f32) (x2 : Vec F S1x96 .f32) (xs0 : Vec F S1x96 .f32) (xs1 : Vec F S1x96 .f32) :
    sout4_C_1 c i arg1 harg1 arg2 harg2 arg3 harg3 arg4 harg4 arg5 harg5 arg6 harg6 arg7 harg7 hc0 hc1 x0 x1 x2 xs0 xs1 = k4_pay5 x0 x1 x2 xs1 := by
  unfold sout4_C_1
  rw [View.read_writes_eq_canon _ _ _ (scover4_C_1 c i arg1 harg1 arg2 harg2 arg3 harg3 arg4 harg4 arg5 harg5 arg6 harg6 arg7 harg7 hc0 hc1 x0 x1 x2 xs0 xs1)]
  unfold kernelRun4_C
  dsimp only
  sl_unfold_words
  rw [View.canon_unit_zero s_hz]
  simp only [View.readAt_eq_ld, harg1.read_unread, harg2.read_unread, harg3.read_unread, harg6.read_unread, harg7.read_unread,
    View.ld_unit_zero (S := S5000x96) s_hz, View.ld_unit_zero (S := S5000x1) s_hz, View.ld_unit_zero (S := S1x96) s_hz]

/-- The last point copies scratch row 0, as it has just left it, to output window 3. -/
theorem out4_C_3_eq (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond4_0 i) (hc1 : cond4_1 i)
    (x0 : Vec F S5000x96 .f32) (x1 : Vec F S5000x1 .f32) (x2 : Vec F S1x96 .f32) (xs0 : Vec F S1x96 .f32) (xs1 : Vec F S1x96 .f32) :
    out4_C_3 c i arg1 harg1 arg2 harg2 arg3 harg3 arg4 harg4 arg5 harg5 arg6 harg6 arg7 harg7 hc0 hc1 x0 x1 x2 xs0 xs1 = k4_pay4 x0 x1 x2 xs0 := by
  unfold out4_C_3
  rw [View.read_writes_eq_canon _ _ _ (cover4_C_3 c i arg1 harg1 arg2 harg2 arg3 harg3 arg4 harg4 arg5 harg5 arg6 harg6 arg7 harg7 hc0 hc1 x0 x1 x2 xs0 xs1)]
  unfold kernelRun4_C
  dsimp only
  sl_unfold_words
  rw [View.canon_unit_zero s_hz, View.readCov_unit_zero (S := S1x96) _ s_hz]
  simp only [View.readAt_eq_ld, harg1.read_unread, harg2.read_unread, harg3.read_unread, harg6.read_unread, harg7.read_unread,
    View.ld_unit_zero (S := S5000x96) s_hz, View.ld_unit_zero (S := S5000x1) s_hz, View.ld_unit_zero (S := S1x96) s_hz]

/-- The last point copies scratch row 1, as it has just left it, to output window 4. -/
theorem out4_C_4_eq (c : Dev nD) (i : grid4.Coords) (arg1 : Memref sig .tc .vmem S5000x96 .f32) (harg1 : arg1.IsWhole) (arg2 : Memref sig .tc .vmem S5000x1 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (arg6 : Memref sig .tc .vmem S1x96 .f32) (harg6 : arg6.IsWhole) (arg7 : Memref sig .tc .vmem S1x96 .f32) (harg7 : arg7.IsWhole) (hc0 : ¬cond4_0 i) (hc1 : cond4_1 i)
    (x0 : Vec F S5000x96 .f32) (x1 : Vec F S5000x1 .f32) (x2 : Vec F S1x96 .f32) (xs0 : Vec F S1x96 .f32) (xs1 : Vec F S1x96 .f32) :
    out4_C_4 c i arg1 harg1 arg2 harg2 arg3 harg3 arg4 harg4 arg5 harg5 arg6 harg6 arg7 harg7 hc0 hc1 x0 x1 x2 xs0 xs1 = k4_pay5 x0 x1 x2 xs1 := by
  unfold out4_C_4
  rw [View.read_writes_eq_canon _ _ _ (cover4_C_4 c i arg1 harg1 arg2 harg2 arg3 harg3 arg4 harg4 arg5 harg5 arg6 harg6 arg7 harg7 hc0 hc1 x0 x1 x2 xs0 xs1)]
  unfold kernelRun4_C
  dsimp only
  sl_unfold_words
  rw [View.canon_unit_zero s_hz, View.readCov_unit_zero (S := S1x96) _ s_hz]
  simp only [View.readAt_eq_ld, harg1.read_unread, harg2.read_unread, harg3.read_unread, harg6.read_unread, harg7.read_unread,
    View.ld_unit_zero (S := S5000x96) s_hz, View.ld_unit_zero (S := S5000x1) s_hz, View.ld_unit_zero (S := S1x96) s_hz]

end Pieces

/-! ## The running rows in closed form, and the result arrays -/

section Value

variable (V : (c : Dev nD) → (b : Ref sig .tc) → Buf (Elt Ideal) ((c : Thread nD τ).loc b))

/-- The value whose column statistics the region takes: the aggregated rows scaled by the row factors, plus the bias. -/
def val4 (c : Dev nD) : Spec.Mat 50000 96 :=
  Spec.valOf (V c (Pipeline.arrRef spec4 0)) (V c (Pipeline.arrRef spec4 1)) (V c (Pipeline.arrRef spec4 2))

/-- One point's step on the row of sums, over the blocks the point reads. -/
theorem s_step4_sum (c : Dev nD) (t : Fin cfg4.N) (acc : Vec Ideal S1x96 .f32) (q : Fin 96) :
    k4_pay4 (F := Ideal) (iblk4 V c 0 t) (iblk4 V c 1 t) (iblk4 V c 2 t) acc (ix2 0 q) = acc (ix2 0 q) + tileSum (fun r => val4 V c (ix2 r q)) t.val :=
  step4_sum c (V c (Pipeline.arrRef spec4 0)) (V c (Pipeline.arrRef spec4 1)) (V c (Pipeline.arrRef spec4 2)) t acc q

theorem s_step4_sumsq (c : Dev nD) (t : Fin cfg4.N) (acc : Vec Ideal S1x96 .f32) (q : Fin 96) :
    k4_pay5 (F := Ideal) (iblk4 V c 0 t) (iblk4 V c 1 t) (iblk4 V c 2 t) acc (ix2 0 q) = acc (ix2 0 q) + tileSum (fun r => val4 V c (ix2 r q) * val4 V c (ix2 r q)) t.val :=
  step4_sumsq c (V c (Pipeline.arrRef spec4 0)) (V c (Pipeline.arrRef spec4 1)) (V c (Pipeline.arrRef spec4 2)) t acc q

/-- After point n the two scratch rows hold, at column q, the sums over the rows of the first n + 1 tiles of the value
    and of its square: by induction on the point. -/
theorem scratch4_eq (c : Dev nD) (q : Fin 96) : ∀ (n : ℕ) (hn : n < cfg4.N),
    (outsAt4 V c n hn).2.2.1 (ix2 0 q) = tilesSum (fun r => val4 V c (ix2 r q)) (n + 1)
    ∧ (outsAt4 V c n hn).2.2.2 (ix2 0 q) = tilesSum (fun r => val4 V c (ix2 r q) * val4 V c (ix2 r q)) (n + 1)
  | 0, hn => by
    rw [outsAt4_A V c ⟨0, hn⟩ rfl (by show ¬(0 : ℕ) = 9; decide)]
    dsimp only
    rw [sout4_A_0_eq, sout4_A_1_eq]
    constructor
    · refine (s_step4_sum V c ⟨0, hn⟩ _ q).trans ?_
      rw [k4_pay1_apply, tilesSum_succ, tilesSum_zero]
    · refine (s_step4_sumsq V c ⟨0, hn⟩ _ q).trans ?_
      rw [k4_pay2_apply, tilesSum_succ, tilesSum_zero]
  | n + 1, hn => by
    have ih := scratch4_eq c q n (Nat.lt_of_succ_lt hn)
    by_cases h9 : n + 1 = 9
    · rw [outsAt4_C V c ⟨n + 1, hn⟩ (Nat.succ_ne_zero n) h9]
      dsimp only
      rw [sout4_C_0_eq, sout4_C_1_eq]
      constructor
      · refine (s_step4_sum V c ⟨n + 1, hn⟩ _ q).trans ?_
        rw [tilesSum_succ _ (n + 1)]
        exact congrArg (· + _) ih.1
      · refine (s_step4_sumsq V c ⟨n + 1, hn⟩ _ q).trans ?_
        rw [tilesSum_succ _ (n + 1)]
        exact congrArg (· + _) ih.2
    · rw [outsAt4_B V c ⟨n + 1, hn⟩ (Nat.succ_ne_zero n) h9]
      dsimp only
      rw [sout4_B_0_eq, sout4_B_1_eq]
      constructor
      · refine (s_step4_sum V c ⟨n + 1, hn⟩ _ q).trans ?_
        rw [tilesSum_succ _ (n + 1)]
        exact congrArg (· + _) ih.1
      · refine (s_step4_sumsq V c ⟨n + 1, hn⟩ _ q).trans ?_
        rw [tilesSum_succ _ (n + 1)]
        exact congrArg (· + _) ih.2

/-- The last point. -/
def s_last4 : Fin cfg4.N := ⟨9, by rw [show cfg4.N = 10 from N_4]; decide⟩

/-- The last point's output windows, at column q: the sums over the rows of all the tiles up to it. -/
theorem outs4_at (c : Dev nD) (q : Fin 96) (n : ℕ) (hn : n + 1 < cfg4.N) (h9 : n + 1 = 9) :
    (outsAt4 V c (n + 1) hn).1 (ix2 0 q) = tilesSum (fun r => val4 V c (ix2 r q)) (n + 1 + 1)
    ∧ (outsAt4 V c (n + 1) hn).2.1 (ix2 0 q) = tilesSum (fun r => val4 V c (ix2 r q) * val4 V c (ix2 r q)) (n + 1 + 1) := by
  have ih := scratch4_eq V c q n (Nat.lt_of_succ_lt hn)
  rw [outsAt4_C V c ⟨n + 1, hn⟩ (Nat.succ_ne_zero n) h9]
  dsimp only
  rw [out4_C_3_eq, out4_C_4_eq]
  constructor
  · refine (s_step4_sum V c ⟨n + 1, hn⟩ _ q).trans ?_
    rw [tilesSum_succ _ (n + 1)]
    exact congrArg (· + _) ih.1
  · refine (s_step4_sumsq V c ⟨n + 1, hn⟩ _ q).trans ?_
    rw [tilesSum_succ _ (n + 1)]
    exact congrArg (· + _) ih.2

/-- What the last point leaves in the two output windows' buffers: the column sums over all rows. -/
theorem outs4_last (c : Dev nD) (t : Fin cfg4.N) (h9 : t.val = 9) :
    (outsAt4 V c t.val t.isLt).1 = (Spec.colSum (val4 V c) : Spec.Mat 1 96)
    ∧ (outsAt4 V c t.val t.isLt).2.1 = (Spec.colSumSq (val4 V c) : Spec.Mat 1 96) := by
  obtain ⟨tv, ht⟩ := t
  cases tv with
  | zero => exact absurd h9 (by show ¬(0 : ℕ) = 9; decide)
  | succ n =>
    have h9' : n + 1 = 9 := h9
    have e10 : n + 1 + 1 = 10 := by omega
    constructor
    · funext j
      obtain ⟨u, q, rfl⟩ : ∃ (u : Fin 1) (q : Fin 96), j = ix2 u q := ⟨j 0, j 1, eq_ix2 j⟩
      obtain rfl : u = 0 := Subsingleton.elim _ _
      refine (outs4_at V c q n ht h9').1.trans ?_
      rw [e10, tilesSum_ten]
      unfold Spec.colSum
      exact Finset.sum_congr rfl fun r _ => rfl
    · funext j
      obtain ⟨u, q, rfl⟩ : ∃ (u : Fin 1) (q : Fin 96), j = ix2 u q := ⟨j 0, j 1, eq_ix2 j⟩
      obtain rfl : u = 0 := Subsingleton.elim _ _
      refine (outs4_at V c q n ht h9').2.trans ?_
      rw [e10, tilesSum_ten]
      unfold Spec.colSumSq
      exact Finset.sum_congr rfl fun r _ => rfl

/-- The region's first result array ends holding the column sums of the value. -/
theorem val4_sum (c : Dev nD) :
    (dat4 (F := Ideal) V c).arrAt 3 cfg4.N = Spec.colSum (Spec.valOf (V c (Pipeline.arrRef spec4 0)) (V c (Pipeline.arrRef spec4 1)) (V c (Pipeline.arrRef spec4 2))) := by
  refine (dat4 V c).arrAt_eq_of_cover 3 _ (fun t hf => ?_) (fun i => ⟨s_last4, (flush4_3 _).mpr rfl, cover_blk4_3 c _ i⟩)
  have h9 : t.val = 9 := by have := (flush4_3 t).mp hf; have := s_lt4 t; omega
  rw [read_blk4_3 c]
  show (cfg4.win 3).cut (grid4.coords t) ((dat4 V c).after 3 t) = _
  rw [after4_3]
  exact (outs4_last V c t h9).1

/-- The region's second result array ends holding the column sums of the squared value. -/
theorem val4_sumsq (c : Dev nD) :
    (dat4 (F := Ideal) V c).arrAt 4 cfg4.N = Spec.colSumSq (Spec.valOf (V c (Pipeline.arrRef spec4 0)) (V c (Pipeline.arrRef spec4 1)) (V c (Pipeline.arrRef spec4 2))) := by
  refine (dat4 V c).arrAt_eq_of_cover 4 _ (fun t hf => ?_) (fun i => ⟨s_last4, (flush4_4 _).mpr rfl, cover_blk4_4 c _ i⟩)
  have h9 : t.val = 9 := by have := (flush4_4 t).mp hf; have := s_lt4 t; omega
  rw [read_blk4_4 c]
  show (cfg4.win 4).cut (grid4.coords t) ((dat4 V c).after 4 t) = _
  rw [after4_4]
  exact (outs4_last V c t h9).2

end Value

end Cert.KernelIdeal.Val

end
-- ==== Proof.KI.ValR7.lean ====
/-
  The values of region 7's two result arrays at the extended reals: the column sums, over all 50000 rows, of the
  region's input array and of its square.

  The two scratch rows are zeroed at the first point; every point adds its tile's column sums; the last point copies
  the rows to the result arrays.  So after point n the rows hold the sums over the first n + 1 tiles, by induction on
  the point, and after the last point the sums over all rows.
-/
import proofs.«115743_j55052890800725_2_alg».proof.Proof.KI.BodyR7
import proofs.«115743_j55052890800725_2_alg».proof.Proof.KI.ValR1step
import Idealize.ShloMosaic.Lib.Tactic

set_option maxRecDepth 16384

noncomputable section

open scoped BigOperators

namespace Cert.KernelIdeal.Val

open Idealize.ShloMosaic Idealize.ShloMosaic.TcCoe Idealize.ShloMosaic.ValueIdx Idealize.ShloMosaic.Tactic Idealize.SL.Sem
open Idealize.ShloMosaic.Pipeline (Dat)
open Cert.KernelIdeal Cert.KernelIdeal.Gen Cert.KernelIdeal.Hand

/-! ## What each case's stores leave, as payloads -/

section Pieces

variable {F : FTy → Type} [FloatOps F]

/-- The first point leaves in scratch row 0 the reset row plus the tile's sums. -/
theorem sout7_A_0_eq (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : cond7_0 i) (hc1 : ¬cond7_1 i)
    (x0 : Vec F S5000x96 .f32) :
    sout7_A_0 c i arg1 harg1 arg2 harg2 arg3 harg3 arg4 harg4 arg5 harg5 hc0 hc1 x0 = k7_pay4 x0 (k7_pay1 (F := F)) := by
  unfold sout7_A_0
  rw [View.read_writes_eq_canon _ _ _ (scover7_A_0 c i arg1 harg1 arg2 harg2 arg3 harg3 arg4 harg4 arg5 harg5 hc0 hc1 x0)]
  unfold kernelRun7_A
  dsimp only
  sl_unfold_words
  rw [View.canon_cons_unit_zero (S := S1x96) s_hz, View.readCov_unit_zero (S := S1x96) _ s_hz]
  simp only [View.readAt_eq_ld, harg1.read_unread, harg4.read_unread, harg5.read_unread,
    View.ld_unit_zero (S := S5000x96) s_hz, View.ld_unit_zero (S := S1x96) s_hz]

/-- The first point leaves in scratch row 1 the reset row plus the tile's sums. -/
theorem sout7_A_1_eq (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : cond7_0 i) (hc1 : ¬cond7_1 i)
    (x0 : Vec F S5000x96 .f32) :
    sout7_A_1 c i arg1 harg1 arg2 harg2 arg3 harg3 arg4 harg4 arg5 harg5 hc0 hc1 x0 = k7_pay5 x0 (k7_pay2 (F := F)) := by
  unfold sout7_A_1
  rw [View.read_writes_eq_canon _ _ _ (scover7_A_1 c i arg1 harg1 arg2 harg2 arg3 harg3 arg4 harg4 arg5 harg5 hc0 hc1 x0)]
  unfold kernelRun7_A
  dsimp only
  sl_unfold_words
  rw [View.canon_cons_unit_zero (S := S1x96) s_hz, View.readCov_unit_zero (S := S1x96) _ s_hz]
  simp only [View.readAt_eq_ld, harg1.read_unread, harg4.read_unread, harg5.read_unread,
    View.ld_unit_zero (S := S5000x96) s_hz, View.ld_unit_zero (S := S1x96) s_hz]

/-- A middle point leaves in scratch row 0 what the point before left plus the tile's sums. -/
theorem sout7_B_0_eq (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : ¬cond7_0 i) (hc1 : ¬cond7_1 i)
    (x0 : Vec F S5000x96 .f32) (xs0 : Vec F S1x96 .f32) (xs1 : Vec F S1x96 .f32) :
    sout7_B_0 c i arg1 harg1 arg2 harg2 arg3 harg3 arg4 harg4 arg5 harg5 hc0 hc1 x0 xs0 xs1 = k7_pay4 x0 xs0 := by
  unfold sout7_B_0
  rw [View.read_writes_eq_canon _ _ _ (scover7_B_0 c i arg1 harg1 arg2 harg2 arg3 harg3 arg4 harg4 arg5 harg5 hc0 hc1 x0 xs0 xs1)]
  unfold kernelRun7_B
  dsimp only
  sl_unfold_words
  rw [View.canon_unit_zero s_hz]
  simp only [View.readAt_eq_ld, harg1.read_unread, harg4.read_unread, harg5.read_unread,
    View.ld_unit_zero (S := S5000x96) s_hz, View.ld_unit_zero (S := S1x96) s_hz]

/-- A middle point leaves in scratch row 1 what the point before left plus the tile's sums. -/
theorem sout7_B_1_eq (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : ¬cond7_0 i) (hc1 : ¬cond7_1 i)
    (x0 : Vec F S5000x96 .f32) (xs0 : Vec F S1x96 .f32) (xs1 : Vec F S1x96 .f32) :
    sout7_B_1 c i arg1 harg1 arg2 harg2 arg3 harg3 arg4 harg4 arg5 harg5 hc0 hc1 x0 xs0 xs1 = k7_pay5 x0 xs1 := by
  unfold sout7_B_1
  rw [View.read_writes_eq_canon _ _ _ (scover7_B_1 c i arg1 harg1 arg2 harg2 arg3 harg3 arg4 harg4 arg5 harg5 hc0 hc1 x0 xs0 xs1)]
  unfold kernelRun7_B
  dsimp only
  sl_unfold_words
  rw [View.canon_unit_zero s_hz]
  simp only [View.readAt_eq_ld, harg1.read_unread, harg4.read_unread, harg5.read_unread,
    View.ld_unit_zero (S := S5000x96) s_hz, View.ld_unit_zero (S := S1x96) s_hz]

/-- The last point leaves in scratch row 0 what the point before left plus the tile's sums. -/
theorem sout7_C_0_eq (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : ¬cond7_0 i) (hc1 : cond7_1 i)
    (x0 : Vec F S5000x96 .f32) (xs0 : Vec F S1x96 .f32) (xs1 : Vec F S1x96 .f32) :
    sout7_C_0 c i arg1 harg1 arg2 harg2 arg3 harg3 arg4 harg4 arg5 harg5 hc0 hc1 x0 xs0 xs1 = k7_pay4 x0 xs0 := by
  unfold sout7_C_0
  rw [View.read_writes_eq_canon _ _ _ (scover7_C_0 c i arg1 harg1 arg2 harg2 arg3 harg3 arg4 harg4 arg5 harg5 hc0 hc1 x0 xs0 xs1)]
  unfold kernelRun7_C
  dsimp only
  sl_unfold_words
  rw [View.canon_unit_zero s_hz]
  simp only [View.readAt_eq_ld, harg1.read_unread, harg4.read_unread, harg5.read_unread,
    View.ld_unit_zero (S := S5000x96) s_hz, View.ld_unit_zero (S := S1x96) s_hz]

/-- The last point leaves in scratch row 1 what the point before left plus the tile's sums. -/
theorem sout7_C_1_eq (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : ¬cond7_0 i) (hc1 : cond7_1 i)
    (x0 : Vec F S5000x96 .f32) (xs0 : Vec F S1x96 .f32) (xs1 : Vec F S1x96 .f32) :
    sout7_C_1 c i arg1 harg1 arg2 harg2 arg3 harg3 arg4 harg4 arg5 harg5 hc0 hc1 x0 xs0 xs1 = k7_pay5 x0 xs1 := by
  unfold sout7_C_1
  rw [View.read_writes_eq_canon _ _ _ (scover7_C_1 c i arg1 harg1 arg2 harg2 arg3 harg3 arg4 harg4 arg5 harg5 hc0 hc1 x0 xs0 xs1)]
  unfold kernelRun7_C
  dsimp only
  sl_unfold_words
  rw [View.canon_unit_zero s_hz]
  simp only [View.readAt_eq_ld, harg1.read_unread, harg4.read_unread, harg5.read_unread,
    View.ld_unit_zero (S := S5000x96) s_hz, View.ld_unit_zero (S := S1x96) s_hz]

/-- The last point copies scratch row 0, as it has just left it, to output window 1. -/
theorem out7_C_1_eq (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : ¬cond7_0 i) (hc1 : cond7_1 i)
    (x0 : Vec F S5000x96 .f32) (xs0 : Vec F S1x96 .f32) (xs1 : Vec F S1x96 .f32) :
    out7_C_1 c i arg1 harg1 arg2 harg2 arg3 harg3 arg4 harg4 arg5 harg5 hc0 hc1 x0 xs0 xs1 = k7_pay4 x0 xs0 := by
  unfold out7_C_1
  rw [View.read_writes_eq_canon _ _ _ (cover7_C_1 c i arg1 harg1 arg2 harg2 arg3 harg3 arg4 harg4 arg5 harg5 hc0 hc1 x0 xs0 xs1)]
  unfold kernelRun7_C
  dsimp only
  sl_unfold_words
  rw [View.canon_unit_zero s_hz, View.readCov_unit_zero (S := S1x96) _ s_hz]
  simp only [View.readAt_eq_ld, harg1.read_unread, harg4.read_unread, harg5.read_unread,
    View.ld_unit_zero (S := S5000x96) s_hz, View.ld_unit_zero (S := S1x96) s_hz]

/-- The last point copies scratch row 1, as it has just left it, to output window 2. -/
theorem out7_C_2_eq (c : Dev nD) (i : grid7.Coords) (arg1 : Memref sig .tc .vmem S5000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : ¬cond7_0 i) (hc1 : cond7_1 i)
    (x0 : Vec F S5000x96 .f32) (xs0 : Vec F S1x96 .f32) (xs1 : Vec F S1x96 .f32) :
    out7_C_2 c i arg1 harg1 arg2 harg2 arg3 harg3 arg4 harg4 arg5 harg5 hc0 hc1 x0 xs0 xs1 = k7_pay5 x0 xs1 := by
  unfold out7_C_2
  rw [View.read_writes_eq_canon _ _ _ (cover7_C_2 c i arg1 harg1 arg2 harg2 arg3 harg3 arg4 harg4 arg5 harg5 hc0 hc1 x0 xs0 xs1)]
  unfold kernelRun7_C
  dsimp only
  sl_unfold_words
  rw [View.canon_unit_zero s_hz, View.readCov_unit_zero (S := S1x96) _ s_hz]
  simp only [View.readAt_eq_ld, harg1.read_unread, harg4.read_unread, harg5.read_unread,
    View.ld_unit_zero (S := S5000x96) s_hz, View.ld_unit_zero (S := S1x96) s_hz]

end Pieces

/-! ## The running rows in closed form, and the result arrays -/

section Value

variable (V : (c : Dev nD) → (b : Ref sig .tc) → Buf (Elt Ideal) ((c : Thread nD τ).loc b))

/-- The array whose column statistics the region takes. -/
def val7 (c : Dev nD) : Spec.Mat 50000 96 := V c (Pipeline.arrRef spec7 0)

/-- One point's step on the row of sums, over the blocks the point reads. -/
theorem s_step7_sum (c : Dev nD) (t : Fin cfg7.N) (acc : Vec Ideal S1x96 .f32) (q : Fin 96) :
    k7_pay4 (F := Ideal) (iblk7 V c 0 t) acc (ix2 0 q) = acc (ix2 0 q) + tileSum (colOf (val7 V c) q) t.val :=
  step7_sum c (V c (Pipeline.arrRef spec7 0)) t acc q

theorem s_step7_sumsq (c : Dev nD) (t : Fin cfg7.N) (acc : Vec Ideal S1x96 .f32) (q : Fin 96) :
    k7_pay5 (F := Ideal) (iblk7 V c 0 t) acc (ix2 0 q) = acc (ix2 0 q) + tileSum (fun r => colOf (val7 V c) q r * colOf (val7 V c) q r) t.val :=
  step7_sumsq c (V c (Pipeline.arrRef spec7 0)) t acc q

/-- After point n the two scratch rows hold, at column q, the sums over the rows of the first n + 1 tiles of the value
    and of its square: by induction on the point. -/
theorem scratch7_eq (c : Dev nD) (q : Fin 96) : ∀ (n : ℕ) (hn : n < cfg7.N),
    (outsAt7 V c n hn).2.2.1 (ix2 0 q) = tilesSum (colOf (val7 V c) q) (n + 1)
    ∧ (outsAt7 V c n hn).2.2.2 (ix2 0 q) = tilesSum (fun r => colOf (val7 V c) q r * colOf (val7 V c) q r) (n + 1)
  | 0, hn => by
    rw [outsAt7_A V c ⟨0, hn⟩ rfl (by show ¬(0 : ℕ) = 9; decide)]
    dsimp only
    rw [sout7_A_0_eq, sout7_A_1_eq]
    constructor
    · refine (s_step7_sum V c ⟨0, hn⟩ _ q).trans ?_
      rw [k7_pay1_apply, tilesSum_succ, tilesSum_zero]
    · refine (s_step7_sumsq V c ⟨0, hn⟩ _ q).trans ?_
      rw [k7_pay2_apply, tilesSum_succ, tilesSum_zero]
  | n + 1, hn => by
    have ih := scratch7_eq c q n (Nat.lt_of_succ_lt hn)
    by_cases h9 : n + 1 = 9
    · rw [outsAt7_C V c ⟨n + 1, hn⟩ (Nat.succ_ne_zero n) h9]
      dsimp only
      rw [sout7_C_0_eq, sout7_C_1_eq]
      constructor
      · refine (s_step7_sum V c ⟨n + 1, hn⟩ _ q).trans ?_
        rw [tilesSum_succ _ (n + 1)]
        exact congrArg (· + _) ih.1
      · refine (s_step7_sumsq V c ⟨n + 1, hn⟩ _ q).trans ?_
        rw [tilesSum_succ _ (n + 1)]
        exact congrArg (· + _) ih.2
    · rw [outsAt7_B V c ⟨n + 1, hn⟩ (Nat.succ_ne_zero n) h9]
      dsimp only
      rw [sout7_B_0_eq, sout7_B_1_eq]
      constructor
      · refine (s_step7_sum V c ⟨n + 1, hn⟩ _ q).trans ?_
        rw [tilesSum_succ _ (n + 1)]
        exact congrArg (· + _) ih.1
      · refine (s_step7_sumsq V c ⟨n + 1, hn⟩ _ q).trans ?_
        rw [tilesSum_succ _ (n + 1)]
        exact congrArg (· + _) ih.2

/-- The last point. -/
def s_last7 : Fin cfg7.N := ⟨9, by rw [show cfg7.N = 10 from N_7]; decide⟩

/-- The last point's output windows, at column q: the sums over the rows of all the tiles up to it. -/
theorem outs7_at (c : Dev nD) (q : Fin 96) (n : ℕ) (hn : n + 1 < cfg7.N) (h9 : n + 1 = 9) :
    (outsAt7 V c (n + 1) hn).1 (ix2 0 q) = tilesSum (colOf (val7 V c) q) (n + 1 + 1)
    ∧ (outsAt7 V c (n + 1) hn).2.1 (ix2 0 q) = tilesSum (fun r => colOf (val7 V c) q r * colOf (val7 V c) q r) (n + 1 + 1) := by
  have ih := scratch7_eq V c q n (Nat.lt_of_succ_lt hn)
  rw [outsAt7_C V c ⟨n + 1, hn⟩ (Nat.succ_ne_zero n) h9]
  dsimp only
  rw [out7_C_1_eq, out7_C_2_eq]
  constructor
  · refine (s_step7_sum V c ⟨n + 1, hn⟩ _ q).trans ?_
    rw [tilesSum_succ _ (n + 1)]
    exact congrArg (· + _) ih.1
  · refine (s_step7_sumsq V c ⟨n + 1, hn⟩ _ q).trans ?_
    rw [tilesSum_succ _ (n + 1)]
    exact congrArg (· + _) ih.2

/-- What the last point leaves in the two output windows' buffers: the column sums over all rows. -/
theorem outs7_last (c : Dev nD) (t : Fin cfg7.N) (h9 : t.val = 9) :
    (outsAt7 V c t.val t.isLt).1 = (Spec.colSum (val7 V c) : Spec.Mat 1 96)
    ∧ (outsAt7 V c t.val t.isLt).2.1 = (Spec.colSumSq (val7 V c) : Spec.Mat 1 96) := by
  obtain ⟨tv, ht⟩ := t
  cases tv with
  | zero => exact absurd h9 (by show ¬(0 : ℕ) = 9; decide)
  | succ n =>
    have h9' : n + 1 = 9 := h9
    have e10 : n + 1 + 1 = 10 := by omega
    constructor
    · funext j
      obtain ⟨u, q, rfl⟩ : ∃ (u : Fin 1) (q : Fin 96), j = ix2 u q := ⟨j 0, j 1, eq_ix2 j⟩
      obtain rfl : u = 0 := Subsingleton.elim _ _
      refine (outs7_at V c q n ht h9').1.trans ?_
      rw [e10, tilesSum_ten]
      unfold Spec.colSum
      exact Finset.sum_congr rfl fun r _ => rfl
    · funext j
      obtain ⟨u, q, rfl⟩ : ∃ (u : Fin 1) (q : Fin 96), j = ix2 u q := ⟨j 0, j 1, eq_ix2 j⟩
      obtain rfl : u = 0 := Subsingleton.elim _ _
      refine (outs7_at V c q n ht h9').2.trans ?_
      rw [e10, tilesSum_ten]
      unfold Spec.colSumSq
      exact Finset.sum_congr rfl fun r _ => rfl

/-- The region's first result array ends holding the column sums of the value. -/
theorem val7_sum (c : Dev nD) :
    (dat7 (F := Ideal) V c).arrAt 1 cfg7.N = Spec.colSum (V c (Pipeline.arrRef spec7 0)) := by
  refine (dat7 V c).arrAt_eq_of_cover 1 _ (fun t hf => ?_) (fun i => ⟨s_last7, (flush7_1 _).mpr rfl, cover_blk7_1 c _ i⟩)
  have h9 : t.val = 9 := by have := (flush7_1 t).mp hf; have := s_lt7 t; omega
  rw [read_blk7_1 c]
  show (cfg7.win 1).cut (grid7.coords t) ((dat7 V c).after 1 t) = _
  rw [after7_1]
  exact (outs7_last V c t h9).1

/-- The region's second result array ends holding the column sums of the squared value. -/
theorem val7_sumsq (c : Dev nD) :
    (dat7 (F := Ideal) V c).arrAt 2 cfg7.N = Spec.colSumSq (V c (Pipeline.arrRef spec7 0)) := by
  refine (dat7 V c).arrAt_eq_of_cover 2 _ (fun t hf => ?_) (fun i => ⟨s_last7, (flush7_2 _).mpr rfl, cover_blk7_2 c _ i⟩)
  have h9 : t.val = 9 := by have := (flush7_2 t).mp hf; have := s_lt7 t; omega
  rw [read_blk7_2 c]
  show (cfg7.win 2).cut (grid7.coords t) ((dat7 V c).after 2 t) = _
  rw [after7_2]
  exact (outs7_last V c t h9).2

end Value

end Cert.KernelIdeal.Val

end
-- ==== Proof.KI.HostLib.lean ====
/-
  Small facts about the host operations between the regions, read at the extended reals: a vector recast as a one-row
  matrix is the row of the vector; a one-row matrix of column sums, flattened, divided entrywise by the node count and
  recast as one row is the mean row, and the mean of squares less the squared mean is the variance row; a scalar word
  spread over a shape is the constant function at the real the word denotes; a change of float format is the identity.
-/
import proofs.«115743_j55052890800725_2_alg».proof.Proof.Gen.KernelIdeal.Launch
import proofs.«115743_j55052890800725_2_alg».proof.Proof.Spec
import Idealize.ShloMosaic.Lib.StableHlo.Run
import Idealize.ShloMosaic.Lib.ValueLayout
import Idealize.ShloMosaic.Lib.IdealHost
import Idealize.ShloMosaic.PureOps.Ideal.Laws

noncomputable section

namespace Cert.KernelIdeal.HostVal

open Idealize.ShloMosaic Idealize.ShloMosaic.ValueIdx

/-- A vector recast as a one-row matrix is the row of the vector. -/
theorem k_row_cast {d : Nat} (x : (⟨1, ![d]⟩ : Shape).Idx → EReal) (h : (⟨1, ![d]⟩ : Shape).ShapeCasts ⟨2, ![1, d]⟩) :
    (fun i => shapeCast ⟨2, ![1, d]⟩ x h i) = Cert.Spec.row x := by
  funext j
  obtain ⟨a, b, rfl⟩ : ∃ a b, j = ix2 a b := ⟨j 0, j 1, eq_ix2 j⟩
  exact shapeCast_a_1a_apply x h a b

/-- A one-row matrix of sums, flattened, divided entrywise by the node count and recast as one row, is the mean row. -/
theorem k_mean_cast {d : Nat} (S : (⟨2, ![1, d]⟩ : Shape).Idx → EReal)
    (h1 : (⟨2, ![1, d]⟩ : Shape).ShapeCasts ⟨1, ![d]⟩) (h2 : (⟨1, ![d]⟩ : Shape).ShapeCasts ⟨2, ![1, d]⟩)
    (hb : (⟨0, ![]⟩ : Shape).BroadcastsInDim ⟨1, ![d]⟩ ![]) :
    (fun i => shapeCast ⟨2, ![1, d]⟩
      (Host.divf (F := Ideal) (φ := .f32) (fun i => shapeCast ⟨1, ![d]⟩ S h1 i)
        (broadcastInDim ⟨1, ![d]⟩ ![] hb (constant ⟨0, ![]⟩ .f32 0x47435000#32))) h2 i) = Cert.Spec.meanRow S := by
  funext j
  obtain ⟨a, b, rfl⟩ : ∃ a b, j = ix2 a b := ⟨j 0, j 1, eq_ix2 j⟩
  refine (shapeCast_a_1a_apply _ h2 a b).trans ?_
  show Ideal.div (shapeCast ⟨1, ![d]⟩ S h1 (ix1 b)) (Ideal.ofBits .f32 0x47435000#32) = _
  rw [shapeCast_1a_a_apply S h1 b]
  rfl

/-- The same with the mean of squares, less the squared mean: the variance row. -/
theorem k_var_cast {d : Nat} (S1 S2 : (⟨2, ![1, d]⟩ : Shape).Idx → EReal)
    (h1 : (⟨2, ![1, d]⟩ : Shape).ShapeCasts ⟨1, ![d]⟩) (h2 : (⟨1, ![d]⟩ : Shape).ShapeCasts ⟨2, ![1, d]⟩)
    (hb : (⟨0, ![]⟩ : Shape).BroadcastsInDim ⟨1, ![d]⟩ ![]) :
    (fun i => shapeCast ⟨2, ![1, d]⟩
      (subf (F := Ideal) (φ := .f32)
        (Host.divf (F := Ideal) (φ := .f32) (fun i => shapeCast ⟨1, ![d]⟩ S2 h1 i)
          (broadcastInDim ⟨1, ![d]⟩ ![] hb (constant ⟨0, ![]⟩ .f32 0x47435000#32)))
        (mulf (F := Ideal) (φ := .f32)
          (Host.divf (F := Ideal) (φ := .f32) (fun i => shapeCast ⟨1, ![d]⟩ S1 h1 i)
            (broadcastInDim ⟨1, ![d]⟩ ![] hb (constant ⟨0, ![]⟩ .f32 0x47435000#32)))
          (Host.divf (F := Ideal) (φ := .f32) (fun i => shapeCast ⟨1, ![d]⟩ S1 h1 i)
            (broadcastInDim ⟨1, ![d]⟩ ![] hb (constant ⟨0, ![]⟩ .f32 0x47435000#32))))) h2 i)
      = Cert.Spec.varRow S1 S2 := by
  funext j
  obtain ⟨a, b, rfl⟩ : ∃ a b, j = ix2 a b := ⟨j 0, j 1, eq_ix2 j⟩
  refine (shapeCast_a_1a_apply _ h2 a b).trans ?_
  show Ideal.div (shapeCast ⟨1, ![d]⟩ S2 h1 (ix1 b)) (Ideal.ofBits .f32 0x47435000#32)
      - Ideal.div (shapeCast ⟨1, ![d]⟩ S1 h1 (ix1 b)) (Ideal.ofBits .f32 0x47435000#32)
        * Ideal.div (shapeCast ⟨1, ![d]⟩ S1 h1 (ix1 b)) (Ideal.ofBits .f32 0x47435000#32) = _
  rw [shapeCast_1a_a_apply S1 h1 b, shapeCast_1a_a_apply S2 h1 b]
  rfl

/-- The zero word spread over a shape is the zero function. -/
theorem k_zero_bcast {t : Shape} (dims : Fin (⟨0, ![]⟩ : Shape).rank → Fin t.rank) (hb : (⟨0, ![]⟩ : Shape).BroadcastsInDim t dims) :
    broadcastInDim t dims hb (constant (F := Ideal) ⟨0, ![]⟩ .f32 0x00000000#32) = fun _ => (0 : EReal) := by
  funext j
  exact Ideal.ofBits_zero_f32

/-- The word of one spread over a shape is the function constantly one. -/
theorem k_one_bcast {t : Shape} (dims : Fin (⟨0, ![]⟩ : Shape).rank → Fin t.rank) (hb : (⟨0, ![]⟩ : Shape).BroadcastsInDim t dims) :
    broadcastInDim t dims hb (constant (F := Ideal) ⟨0, ![]⟩ .f32 0x3F800000#32) = fun _ => (1 : EReal) := by
  funext j
  exact Ideal.ofBits_one_f32

/-- Widening the float format changes no extended real. -/
theorem k_extf_id {s : Shape} {φ ψ : FTy} (x : FVec Ideal s φ) (h : φ.bits < ψ.bits) : (extf ψ x h : FVec Ideal s ψ) = x := rfl

end Cert.KernelIdeal.HostVal

end
-- ==== Proof.LibScatter.lean ====
/-
  A scatter whose body returns the update (an overwrite, `x.at[…].set(v)`), read at one index of its result.

  `Host.scatter` is the left fold, over the update indices in row-major order, of the step "replace the element at
  this update's result index by the body applied to it and the update" (an update whose result index leaves the
  operand is dropped).  For the overwriting body the fold reads, at a result index `i`:

  * the operand's own element, when no update index lands at `i` (`scatter_set_miss`);
  * the update's element at `a`, when `a` lands at `i` and no other update index does
    (`scatter_set_hit_of_unique`, and `scatter_set_hit` when landing is injective as a whole).

  Both come from the same two facts about a left fold of overwriting steps along ANY list of update positions
  (`foldl_setStep_miss`, `foldl_setStep_hit`): a step that writes elsewhere leaves the read element alone, and after
  the one step that writes at `i` every later step writes elsewhere.  Nothing is assumed of the element type.

  Where an update index lands is the sum, on every operand axis, of the start read off the scatter indices and the
  window coordinate; `resultIdx?_eq_some_iff` says so in the form the two theorems' hypotheses take.
-/
import Idealize.ShloMosaic.PureOps.ShapeOps

namespace Cert.Lib

open Idealize.ShloMosaic

/-! ## A left fold of overwriting steps -/

section Fold
variable {κ ι α : Type} [DecidableEq ι]

/-- One overwriting step: position `n` of the updates writes its element `v n` at the index `g n` says, when it says one. -/
def setStep (g : κ → Option ι) (v : κ → α) (r : ι → α) (n : κ) : ι → α :=
  match g n with
  | some i₀ => fun i' => if i' = i₀ then v n else r i'
  | none => r

/-- A step that does not write at `i` leaves the element at `i`. -/
theorem setStep_miss (g : κ → Option ι) (v : κ → α) (r : ι → α) (n : κ) (i : ι) (h : g n ≠ some i) :
    setStep g v r n i = r i := by
  unfold setStep
  cases hg : g n with
  | none => rfl
  | some i₀ =>
    have hne : i ≠ i₀ := fun e => h (by rw [hg, e])
    exact if_neg hne

/-- A step that writes at `i` leaves its own element there. -/
theorem setStep_hit (g : κ → Option ι) (v : κ → α) (r : ι → α) (n : κ) (i : ι) (h : g n = some i) :
    setStep g v r n i = v n := by
  unfold setStep
  cases hg : g n with
  | none => exact absurd (h.symm.trans hg) (by simp)
  | some i₀ =>
    have he : i = i₀ := Option.some.inj (h.symm.trans hg)
    exact if_pos he

/-- When no position of the list writes at `i`, the fold leaves the element at `i`. -/
theorem foldl_setStep_miss (g : κ → Option ι) (v : κ → α) (i : ι) :
    ∀ (l : List κ) (r : ι → α), (∀ n ∈ l, g n ≠ some i) → l.foldl (setStep g v) r i = r i := by
  intro l
  induction l with
  | nil => intro r _; rfl
  | cons n l ih =>
    intro r h
    rw [List.foldl_cons, ih _ (fun m hm => h m (List.mem_cons_of_mem _ hm))]
    exact setStep_miss g v r n i (h n (List.mem_cons_self ..))

/-- When position `n₀` of the list writes at `i` and no other position of the list does, the fold leaves `n₀`'s
    element at `i`. -/
theorem foldl_setStep_hit [DecidableEq κ] (g : κ → Option ι) (v : κ → α) (i : ι) (n₀ : κ) (hn₀ : g n₀ = some i) :
    ∀ (l : List κ) (r : ι → α), n₀ ∈ l → (∀ n ∈ l, g n = some i → n = n₀) → l.foldl (setStep g v) r i = v n₀ := by
  intro l
  induction l with
  | nil => intro r hm _; exact absurd hm List.not_mem_nil
  | cons n l ih =>
    intro r hm hu
    rw [List.foldl_cons]
    by_cases hl : n₀ ∈ l
    · exact ih _ hl (fun m hm' => hu m (List.mem_cons_of_mem _ hm'))
    · have hn : n = n₀ := by
        rcases List.mem_cons.1 hm with e | e
        · exact e.symm
        · exact absurd e hl
      subst hn
      rw [foldl_setStep_miss g v i l _ (fun m hm' e => hl (hu m (List.mem_cons_of_mem _ hm') e ▸ hm'))]
      exact setStep_hit g v r n i hn₀

end Fold

/-! ## The overwriting scatter at an index -/

section Scatter
variable {α : Type} {s si u : Shape} {w : Nat}

/-- The overwriting scatter is the fold of `setStep` along the update positions in row-major order. -/
theorem scatter_set_eq_foldl (d : ScatterDims s si u) (x : s.Idx → α) (idx : IVec si w) (upd : u.Idx → α) :
    Host.scatter d (fun _ b => b) x idx upd
      = (List.finRange u.numel).foldl
          (setStep (fun n => d.resultIdx? (u.rowMajor.symm n) idx) (fun n => upd (u.rowMajor.symm n))) x := by
  unfold Host.scatter
  congr 1
  funext r n
  unfold setStep
  beta_reduce
  cases d.resultIdx? (u.rowMajor.symm n) idx <;> rfl

/-- No update index lands at `i`: the scatter leaves the operand's element there. -/
theorem scatter_set_miss (d : ScatterDims s si u) (x : s.Idx → α) (idx : IVec si w) (upd : u.Idx → α) (i : s.Idx)
    (h : ∀ a, d.resultIdx? a idx ≠ some i) :
    Host.scatter d (fun _ b => b) x idx upd i = x i := by
  rw [scatter_set_eq_foldl]
  exact foldl_setStep_miss _ _ i _ x (fun n _ => h (u.rowMajor.symm n))

/-- The update index `a` lands at `i` and is the only one that does: the scatter leaves the update's element at `a` there. -/
theorem scatter_set_hit_of_unique (d : ScatterDims s si u) (x : s.Idx → α) (idx : IVec si w) (upd : u.Idx → α)
    (i : s.Idx) (a : u.Idx) (ha : d.resultIdx? a idx = some i) (huniq : ∀ b, d.resultIdx? b idx = some i → b = a) :
    Host.scatter d (fun _ b => b) x idx upd i = upd a := by
  rw [scatter_set_eq_foldl]
  have h := foldl_setStep_hit (fun n => d.resultIdx? (u.rowMajor.symm n) idx) (fun n => upd (u.rowMajor.symm n)) i
    (u.rowMajor a) (by simpa using ha) (List.finRange u.numel) x (List.mem_finRange _)
    (fun n _ hn => by
      have := huniq _ hn
      rw [← this]; simp)
  simpa using h

/-- Landing is injective and `a` lands at `i`: the scatter leaves the update's element at `a` there. -/
theorem scatter_set_hit (d : ScatterDims s si u) (x : s.Idx → α) (idx : IVec si w) (upd : u.Idx → α)
    (hinj : ∀ a b i, d.resultIdx? a idx = some i → d.resultIdx? b idx = some i → a = b)
    (i : s.Idx) (a : u.Idx) (ha : d.resultIdx? a idx = some i) :
    Host.scatter d (fun _ b => b) x idx upd i = upd a :=
  scatter_set_hit_of_unique d x idx upd i a ha (fun b hb => hinj b a i hb ha)

/-- Where an update index lands: at `i` exactly when, on every operand axis, the start plus the window coordinate is
    `i`'s coordinate. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h a
    split at h
    · next hb =>
      have e := Option.some.inj h
      have ea := congrFun e a
      have hv := congrArg Fin.val ea
      simp only at hv
      have := hb a
      omega
    · exact absurd h (by simp)
  · intro h
    have hb : ∀ a, 0 ≤ d.start j idx a + d.window j a ∧ d.start j idx a + d.window j a < s.size a := by
      intro a
      have := h a
      have := (i a).isLt
      omega
    rw [dif_pos hb]
    congr 1
    funext a
    refine Fin.ext ?_
    have := h a
    simp only
    omega

end Scatter

end Cert.Lib
-- ==== Proof.Net.lean ====
/-
  The graph both programs read, and the index glue around it.

  The edge list is a 2 x 800000 array of words; the source words are its row 0 followed by every node's own number,
  the destination words its row 1 followed likewise, so that the last 50000 edges are the self loops.  A gather reads,
  for edge e, the row whose number is e's word raised by 50000 when negative, read signed and clamped into
  [0, 49999]; a scatter lands edge e's update at the row whose number is e's word read signed, and drops it when
  that is no row.  An update landing at a row therefore has a nonnegative in-range word, which the gather reads as
  the same row; and the self loop of node n lands at n.
-/
import proofs.«115743_j55052890800725_2_alg».proof.Proof.Gen.ReferenceIdeal
import proofs.«115743_j55052890800725_2_alg».proof.Proof.Spec
import proofs.«115743_j55052890800725_2_alg».proof.Proof.LibScatter
import Idealize.ShloMosaic.Lib.Pipeline.Value

noncomputable section

open scoped BigOperators

namespace Cert.Net

open Idealize.ShloMosaic Idealize.ShloMosaic.ValueIdx
open Cert.ReferenceIdeal Cert.ReferenceIdeal.Gen

/-! ## The word lists -/

/-- The source words: row 0 of the edge list, then every node once. -/
def srcW (ei : S2x800000.Idx → BitVec 32) : S850000.Idx → BitVec 32 :=
  concatenate S850000 0
    [⟨S800000, shapeCast S800000 (extractStridedSlice S1x800000 ![0, 0] ei slices_S2x800000_S1x800000_0_0) shapeCasts_S1x800000_S800000⟩,
     ⟨S50000, iotaInDim S50000 32 0⟩] concatenates_S800000_S50000_S850000_d0

/-- The destination words: row 1 of the edge list, then every node once. -/
def dstW (ei : S2x800000.Idx → BitVec 32) : S850000.Idx → BitVec 32 :=
  concatenate S850000 0
    [⟨S800000, shapeCast S800000 (extractStridedSlice S1x800000 ![1, 0] ei slices_S2x800000_S1x800000_1_0) shapeCasts_S1x800000_S800000⟩,
     ⟨S50000, iotaInDim S50000 32 0⟩] concatenates_S800000_S50000_S850000_d0

/-- A word list with every negative word raised by the node count, as a column. -/
def normIdx (w : S850000.Idx → BitVec 32) : S850000x1.Idx → BitVec 32 :=
  broadcastInDim S850000x1 ![0] bcast_S850000_S850000x1_0
    (select (cmpi .slt w (broadcastInDim S850000 ![] bcast_S_S850000 (constantI S_ 32 0#32)))
      (addi w (broadcastInDim S850000 ![] bcast_S_S850000 (constantI S_ 32 50000#32))) w)

/-- A word list as a column. -/
def dstCol (w : S850000.Idx → BitVec 32) : S850000x1.Idx → BitVec 32 :=
  broadcastInDim S850000x1 ![0] bcast_S850000_S850000x1_0 w

/-! ## Reading the columns and the word lists -/

/-- A list as a column, read at a row. -/
theorem h_col_apply {α : Type} (f : S850000.Idx → α) (e : Fin 850000) :
    broadcastInDim S850000x1 ![0] bcast_S850000_S850000x1_0 f (ix2 e 0) = f (ix1 e) := by
  show f _ = f _
  refine congrArg f (funext fun a => ?_)
  match a with
  | ⟨0, _⟩ => rfl

theorem dstCol_apply (w : S850000.Idx → BitVec 32) (e : Fin 850000) : dstCol w (ix2 e 0) = w (ix1 e) :=
  h_col_apply w e

/-- The normalised word of a row: the word, raised by the node count when negative. -/
theorem normIdx_apply (w : S850000.Idx → BitVec 32) (e : Fin 850000) :
    normIdx w (ix2 e 0)
      = Scalar.select (IntOp.cmpi .slt (w (ix1 e)) 0#32) (IntOp.addi (w (ix1 e)) 50000#32) (w (ix1 e)) :=
  (h_col_apply _ e).trans rfl

/-- A nonnegative word is its own normalised word. -/
theorem h_norm_of_nonneg (x : BitVec 32) (h : 0 ≤ x.toInt) :
    Scalar.select (IntOp.cmpi .slt x 0#32) (IntOp.addi x 50000#32) x = x := by
  have hs : x.slt 0#32 = false := by
    simp only [BitVec.slt, BitVec.toInt_zero, decide_eq_false_iff_not, not_lt]
    exact h
  show (if BitVec.ofBool (x.slt 0#32) = 1 then _ else _) = _
  rw [hs]
  rfl

/-- The last 50000 destination words are the nodes' own numbers. -/
theorem dstW_self (ei : S2x800000.Idx → BitVec 32) (n : Fin 50000) :
    dstW ei (ix1 ⟨800000 + n.val, by omega⟩) = BitVec.ofNat 32 n.val := by
  unfold dstW
  exact concatenate_pair_apply_right (t := S850000) (s₁ := S800000) (s₂ := S50000) 0 _ _
    concatenates_S800000_S50000_S850000_d0 _ rfl rfl (ix1 n)
    (fun b hb => by
      match b with
      | ⟨0, _⟩ => exact absurd rfl hb)
    (Nat.add_comm _ _)

/-- The last 50000 source words likewise. -/
theorem srcW_self (ei : S2x800000.Idx → BitVec 32) (n : Fin 50000) :
    srcW ei (ix1 ⟨800000 + n.val, by omega⟩) = BitVec.ofNat 32 n.val := by
  unfold srcW
  exact concatenate_pair_apply_right (t := S850000) (s₁ := S800000) (s₂ := S50000) 0 _ _
    concatenates_S800000_S50000_S850000_d0 _ rfl rfl (ix1 n)
    (fun b hb => by
      match b with
      | ⟨0, _⟩ => exact absurd rfl hb)
    (Nat.add_comm _ _)

/-- A node's number as a word reads back signed as the number. -/
theorem h_toInt_node (n : Fin 50000) : (BitVec.ofNat 32 n.val).toInt = (n.val : Int) := by
  have hn := n.isLt
  rw [BitVec.toInt_eq_toNat_of_lt (by rw [BitVec.toNat_ofNat]; omega), BitVec.toNat_ofNat]
  omega

/-! ## The four records, opened -/

/-- The scalar scatter's record, the scalar gather's, the row gather's, the row scatter's. -/
abbrev sc1 : ScatterDims S50000 S850000x1 S850000 := scatter_S50000_S850000x1_S850000_n_0_0_1
abbrev ga1 : GatherDims S50000 S850000x1 S850000 := gather_S50000_S850000x1_S850000_n_0_n_n_0_1_1
abbrev ga2 : GatherDims S50000x96 S850000x1 S850000x96 := gather_S50000x96_S850000x1_S850000x96_1_0_n_n_0_1_196
abbrev sc2 : ScatterDims S50000x96 S850000x1 S850000x96 := scatter_S50000x96_S850000x1_S850000x96_1_0_0_1

variable (idx : S850000x1.Idx → BitVec 32)

/-- The scalar scatter's start on the one operand axis: the update's word, read signed. -/
theorem h_sc1_start (j : S850000.Idx) : sc1.start j idx 0 = (idx (ix2 (j 0) 0)).toInt := by
  have h0 : (0 : Fin S50000.rank) ∈ sc1.scatterDimsToOperandDims := List.mem_singleton.mpr rfl
  have hsi : sc1.siIdx j ⟨List.idxOf (0 : Fin S50000.rank) sc1.scatterDimsToOperandDims,
      List.idxOf_lt_length_iff.2 h0⟩ = ix2 (j 0) 0 := by
    funext b; refine Fin.ext ?_
    match b with
    | ⟨0, _⟩ => rfl
    | ⟨1, _⟩ => rfl
  unfold ScatterDims.start
  rw [dif_pos h0]
  exact congrArg (fun q => (idx q).toInt) hsi

theorem h_sc1_window (j : S850000.Idx) : sc1.window j 0 = 0 := by
  unfold ScatterDims.window
  exact dif_neg (by decide)

/-- Where the scalar scatter lands update j: at the row its word names, read signed. -/
theorem sc1_lands_iff (j : S850000.Idx) (i : S50000.Idx) :
    sc1.resultIdx? j idx = some i ↔ (idx (ix2 (j 0) 0)).toInt = ((i 0).val : Int) := by
  rw [Cert.Lib.resultIdx?_eq_some_iff]
  constructor
  · intro h
    have h' := h 0
    rw [h_sc1_start, h_sc1_window] at h'
    simpa using h'
  · intro h a
    match a with
    | ⟨0, _⟩ =>
      show sc1.start j idx 0 + ((sc1.window j 0 : Nat) : Int) = ((i 0).val : Int)
      rw [h_sc1_start, h_sc1_window]
      simpa using h

/-- The row the scalar gather reads for result index j: its word read signed, clamped into the rows. -/
theorem ga1_row (j : S850000.Idx) :
    ((ga1.operandIdx j idx) 0).val = min (idx (ix2 (j 0) 0)).toInt.toNat 49999 := by
  have h0 : (0 : Fin S50000.rank) ∈ ga1.startIndexMap := List.mem_singleton.mpr rfl
  have hsi : ga1.siIdx j ⟨List.idxOf (0 : Fin S50000.rank) ga1.startIndexMap,
      List.idxOf_lt_length_iff.2 h0⟩ = ix2 (j 0) 0 := by
    funext b; refine Fin.ext ?_
    match b with
    | ⟨0, _⟩ => rfl
    | ⟨1, _⟩ => rfl
  show ga1.start j idx 0 + ga1.batchCoord j 0 + ga1.offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos h0, hsi]
  rfl

/-! ## The graph -/

/-- The graph the two word lists give: an edge lands where the scalar scatter lands its update; its source and
    destination rows are the rows the scalar gather reads with the normalised source and destination words. -/
def graph (ei : S2x800000.Idx → BitVec 32) : Cert.Spec.Graph where
  lands n := Finset.univ.filter fun e : Fin Cert.Spec.EE => sc1.resultIdx? (ix1 e) (dstCol (dstW ei)) = some (ix1 n)
  src e := ga1.operandIdx (ix1 e) (normIdx (srcW ei)) 0
  dst e := ga1.operandIdx (ix1 e) (normIdx (dstW ei)) 0
  hdst := by
    intro n e he
    have hl := (Finset.mem_filter.mp he).2
    rw [sc1_lands_iff, dstCol_apply] at hl
    have hl' : (dstW ei (ix1 e)).toInt = (n.val : Int) := hl
    refine Fin.ext ?_
    have hr := ga1_row (normIdx (dstW ei)) (ix1 e)
    rw [normIdx_apply, h_norm_of_nonneg _ (by rw [hl']; exact Int.natCast_nonneg _), hl'] at hr
    have hn : n.val < 50000 := n.isLt
    show ((ga1.operandIdx (ix1 e) (normIdx (dstW ei))) 0).val = n.val
    rw [hr, Int.toNat_natCast]
    omega
  hself := by
    intro n
    have hn : n.val < 50000 := n.isLt
    refine ⟨⟨800000 + n.val, show 800000 + n.val < 850000 by omega⟩, Finset.mem_filter.mpr ⟨Finset.mem_univ _, ?_⟩⟩
    rw [sc1_lands_iff, dstCol_apply]
    show (dstW ei (ix1 ⟨800000 + n.val, _⟩)).toInt = (n.val : Int)
    rw [dstW_self, h_toInt_node]

end Cert.Net

end
-- ==== Proof.NetGather.lean ====
/-
  The host's gathers read at an index: a vector or a table gathered with the normalised source (or destination)
  words is, edge by edge, the vector or table at the graph's source (or destination) row.
-/
import proofs.«115743_j55052890800725_2_alg».proof.Proof.Net

noncomputable section

open scoped BigOperators

namespace Cert.Net

open Idealize.ShloMosaic Idealize.ShloMosaic.ValueIdx
open Cert.ReferenceIdeal Cert.ReferenceIdeal.Gen

variable (idx : S850000x1.Idx → BitVec 32)

/-- The row the row gather reads for result index u: its row's word read signed, clamped into the rows. -/
theorem ga2_row (u : S850000x96.Idx) :
    ((ga2.operandIdx u idx) 0).val = min (idx (ix2 (u 0) 0)).toInt.toNat 49999 := by
  have h0 : (0 : Fin S50000x96.rank) ∈ ga2.startIndexMap := List.mem_singleton.mpr rfl
  have hsi : ga2.siIdx u ⟨List.idxOf (0 : Fin S50000x96.rank) ga2.startIndexMap,
      List.idxOf_lt_length_iff.2 h0⟩ = ix2 (u 0) 0 := by
    funext b; refine Fin.ext ?_
    match b with
    | ⟨0, _⟩ => rfl
    | ⟨1, _⟩ => rfl
  show ga2.start u idx 0 + ga2.batchCoord u 0 + ga2.offCoord u 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos h0, hsi]
  rfl

/-- The column the row gather reads for result index u: u's own column. -/
theorem ga2_col (u : S850000x96.Idx) : ((ga2.operandIdx u idx) 1).val = (u 1).val := by
  have hs : ga2.start u idx 1 = 0 := by
    unfold GatherDims.start
    exact dif_neg (by decide)
  have h1 : (1 : Fin S50000x96.rank) ∈ ga2.sKept := by decide
  have ho : ga2.offCoord u 1 = (u 1).val := by
    unfold GatherDims.offCoord
    rw [dif_pos h1]
    rfl
  show ga2.start u idx 1 + ga2.batchCoord u 1 + ga2.offCoord u 1 = _
  rw [GatherDims.batchCoord_eq_zero _ _ _ List.not_mem_nil, hs, ho]
  omega

variable (ei : S2x800000.Idx → BitVec 32)

/-- A vector gathered with the normalised source words: the vector at each edge's source row. -/
theorem gather_vsrc {α : Type} (x : S50000.Idx → α) :
    Host.gather ga1 x (normIdx (srcW ei)) = fun e => x (ix1 ((graph ei).src (e 0))) := by
  funext e
  have he : e = ix1 (e 0) := eq_ix1 e
  show x (ga1.operandIdx e (normIdx (srcW ei))) = x (ix1 (ga1.operandIdx (ix1 (e 0)) (normIdx (srcW ei)) 0))
  exact (congrArg (fun q => x (ga1.operandIdx q (normIdx (srcW ei)))) he).trans (congrArg x (eq_ix1 _))

/-- A vector gathered with the normalised destination words: the vector at each edge's destination row. -/
theorem gather_vdst {α : Type} (x : S50000.Idx → α) :
    Host.gather ga1 x (normIdx (dstW ei)) = fun e => x (ix1 ((graph ei).dst (e 0))) := by
  funext e
  have he : e = ix1 (e 0) := eq_ix1 e
  show x (ga1.operandIdx e (normIdx (dstW ei))) = x (ix1 (ga1.operandIdx (ix1 (e 0)) (normIdx (dstW ei)) 0))
  exact (congrArg (fun q => x (ga1.operandIdx q (normIdx (dstW ei)))) he).trans (congrArg x (eq_ix1 _))

/-- A table gathered with the normalised source words: each edge's source row of the table. -/
theorem gather_rows (T : Cert.Spec.Mat Cert.Spec.NN 96) :
    Host.gather ga2 T (normIdx (srcW ei)) = Cert.Spec.gatherSrc (graph ei) T := by
  funext u
  show T (ga2.operandIdx u (normIdx (srcW ei))) = T (ix2 ((graph ei).src (u 0)) (u 1))
  refine congrArg T (funext fun a => Fin.ext ?_)
  match a with
  | ⟨0, _⟩ =>
    show ((ga2.operandIdx u (normIdx (srcW ei))) 0).val = ((ga1.operandIdx (ix1 (u 0)) (normIdx (srcW ei))) 0).val
    rw [ga2_row, ga1_row]
  | ⟨1, _⟩ => exact ga2_col _ u

end Cert.Net

end
-- ==== Proof.NetScatter.lean ====
/-
  The host's accumulating scatters read at an index: ones scattered at the destination words count, per node, the
  edges landing there; rows scattered at the destination words sum, per node and column, over the edges landing there.
-/
import proofs.«115743_j55052890800725_2_alg».proof.Proof.Net

noncomputable section

open scoped BigOperators

namespace Cert.Net

open Idealize.ShloMosaic Idealize.ShloMosaic.ValueIdx
open Cert.ReferenceIdeal Cert.ReferenceIdeal.Gen

variable (idx : S850000x1.Idx → BitVec 32)

/-- The row scatter's start on the row axis: the update row's word, read signed; on the column axis: nothing. -/
theorem h_sc2_start0 (k : S850000x96.Idx) : sc2.start k idx 0 = (idx (ix2 (k 0) 0)).toInt := by
  have h0 : (0 : Fin S50000x96.rank) ∈ sc2.scatterDimsToOperandDims := List.mem_singleton.mpr rfl
  have hsi : sc2.siIdx k ⟨List.idxOf (0 : Fin S50000x96.rank) sc2.scatterDimsToOperandDims,
      List.idxOf_lt_length_iff.2 h0⟩ = ix2 (k 0) 0 := by
    funext b; refine Fin.ext ?_
    match b with
    | ⟨0, _⟩ => rfl
    | ⟨1, _⟩ => rfl
  unfold ScatterDims.start
  rw [dif_pos h0]
  exact congrArg (fun q => (idx q).toInt) hsi

theorem h_sc2_start1 (k : S850000x96.Idx) : sc2.start k idx 1 = 0 := by
  unfold ScatterDims.start
  exact dif_neg (by decide)

/-- The row scatter's window coordinate: nothing on the row axis, the update's column on the column axis. -/
theorem h_sc2_window0 (k : S850000x96.Idx) : sc2.window k 0 = 0 := by
  unfold ScatterDims.window
  exact dif_neg (by decide)

theorem h_sc2_window1 (k : S850000x96.Idx) : sc2.window k 1 = (k 1).val := by
  have h1 : (1 : Fin S50000x96.rank) ∈ sc2.sKept := by decide
  unfold ScatterDims.window
  rw [dif_pos h1]
  rfl

/-- Where the row scatter lands update k: at the row its row's word names, read signed, in its own column. -/
theorem sc2_lands_iff (k : S850000x96.Idx) (j : S50000x96.Idx) :
    sc2.resultIdx? k idx = some j ↔ (idx (ix2 (k 0) 0)).toInt = ((j 0).val : Int) ∧ (k 1).val = (j 1).val := by
  rw [Cert.Lib.resultIdx?_eq_some_iff]
  constructor
  · intro h
    have ha := h 0
    have hb := h 1
    rw [h_sc2_start0, h_sc2_window0] at ha
    rw [h_sc2_start1, h_sc2_window1] at hb
    exact ⟨by simpa using ha, by omega⟩
  · intro h a
    match a with
    | ⟨0, _⟩ =>
      show sc2.start k idx 0 + ((sc2.window k 0 : Nat) : Int) = ((j 0).val : Int)
      rw [h_sc2_start0, h_sc2_window0]
      simpa using h.1
    | ⟨1, _⟩ =>
      show sc2.start k idx 1 + ((sc2.window k 1 : Nat) : Int) = ((j 1).val : Int)
      rw [h_sc2_start1, h_sc2_window1]
      have := h.2
      omega

variable (ei : S2x800000.Idx → BitVec 32) {φ : FTy}

/-- Membership in the landing set, spelled out. -/
theorem mem_lands (n : Fin Cert.Spec.NN) (e : Fin Cert.Spec.EE) :
    e ∈ (graph ei).lands n ↔ (dstCol (dstW ei) (ix2 e 0)).toInt = (n.val : Int) := by
  show e ∈ Finset.univ.filter (fun e : Fin Cert.Spec.EE => sc1.resultIdx? (ix1 e) (dstCol (dstW ei)) = some (ix1 n)) ↔ _
  rw [Finset.mem_filter, sc1_lands_iff]
  exact ⟨fun h => h.2, fun h => ⟨Finset.mem_univ _, h⟩⟩

/-- Ones scattered at the destination words: the degree. -/
theorem scatter_deg :
    Host.scatterAdd (F := Ideal) (φ := φ) sc1 (fun _ => (0 : EReal)) (dstCol (dstW ei)) (fun _ => (1 : EReal))
      = fun i => Cert.Spec.deg (graph ei) (i 0) := by
  funext i
  show Ideal.hostScatterAdd sc1 (fun _ => (0 : EReal)) (dstCol (dstW ei)) (fun _ => (1 : EReal)) i = _
  unfold Ideal.hostScatterAdd Cert.Spec.deg
  refine (zero_add _).trans ?_
  refine Finset.sum_nbij' (fun j : S850000.Idx => (j 0 : Fin Cert.Spec.EE)) (fun e : Fin Cert.Spec.EE => (ix1 e : S850000.Idx))
    ?_ ?_ ?_ ?_ ?_
  · intro j hj
    have h := (Finset.mem_filter.mp hj).2
    rw [sc1_lands_iff] at h
    exact (mem_lands ei (i 0) (j 0)).mpr h
  · intro e he
    have h := (mem_lands ei (i 0) e).mp he
    exact Finset.mem_filter.mpr ⟨Finset.mem_univ _, (sc1_lands_iff _ _ _).mpr h⟩
  · intro j _
    exact (eq_ix1 j).symm
  · intro e _
    rfl
  · intro j _
    rfl

/-- Rows scattered at the destination words: per node and column, the sum over the edges landing at the node. -/
theorem scatter_rows (U : Cert.Spec.Mat Cert.Spec.EE 96) :
    Host.scatterAdd (F := Ideal) (φ := φ) sc2 (fun _ => (0 : EReal)) (dstCol (dstW ei)) U
      = Cert.Spec.aggRows (graph ei) U := by
  funext j
  show Ideal.hostScatterAdd sc2 (fun _ => (0 : EReal)) (dstCol (dstW ei)) U j = _
  unfold Ideal.hostScatterAdd Cert.Spec.aggRows
  refine (zero_add _).trans ?_
  have hleft : ∀ k : S850000x96.Idx, sc2.resultIdx? k (dstCol (dstW ei)) = some j → ix2 (k 0) (j 1) = k := by
    intro k hk
    have h := ((sc2_lands_iff _ k j).mp hk).2
    refine (congrArg (fun c => ix2 (k 0) c) (Fin.ext h.symm : j 1 = k 1)).trans (eq_ix2 k).symm
  refine Finset.sum_nbij' (fun k : S850000x96.Idx => (k 0 : Fin Cert.Spec.EE))
    (fun e : Fin Cert.Spec.EE => (ix2 e (j 1) : S850000x96.Idx)) ?_ ?_ ?_ ?_ ?_
  · intro k hk
    have h := ((sc2_lands_iff _ k j).mp (Finset.mem_filter.mp hk).2).1
    exact (mem_lands ei (j 0) (k 0)).mpr h
  · intro e he
    have h := (mem_lands ei (j 0) e).mp he
    exact Finset.mem_filter.mpr ⟨Finset.mem_univ _, (sc2_lands_iff _ _ j).mpr ⟨h, rfl⟩⟩
  · intro k hk
    exact hleft k (Finset.mem_filter.mp hk).2
  · intro e _
    rfl
  · intro k hk
    exact congrArg U (hleft k (Finset.mem_filter.mp hk).2).symm

end Cert.Net

end
-- ==== Proof.KI.HostNet.lean ====
/-
  The host operations that read the graph, at the extended reals, over the two word lists: the two programs print the
  same index records; ones added up along the destination words, inverse square root, as a column, are the column of
  normalisation factors; the rows of a table read along the normalised source words and added up along the destination
  words are, per node, the sum over the edges landing at it of the table's row at the edge's source.
-/
import proofs.«115743_j55052890800725_2_alg».proof.Proof.KI.HostLib
import proofs.«115743_j55052890800725_2_alg».proof.Proof.Net
import proofs.«115743_j55052890800725_2_alg».proof.Proof.NetGather
import proofs.«115743_j55052890800725_2_alg».proof.Proof.NetScatter

set_option maxRecDepth 16384

noncomputable section

namespace Cert.KernelIdeal.HostVal

open Cert.KernelIdeal
open Idealize.ShloMosaic Idealize.ShloMosaic.ValueIdx

/-- The two programs print the same index records: equal field by field. -/
theorem k_sc1_eq : Cert.KernelIdeal.scatter_S50000_S850000x1_S850000_n_0_0_1
    = Cert.ReferenceIdeal.scatter_S50000_S850000x1_S850000_n_0_0_1 := rfl
theorem k_sc2_eq : Cert.KernelIdeal.scatter_S50000x96_S850000x1_S850000x96_1_0_0_1
    = Cert.ReferenceIdeal.scatter_S50000x96_S850000x1_S850000x96_1_0_0_1 := rfl
theorem k_ga2_eq : Cert.KernelIdeal.gather_S50000x96_S850000x1_S850000x96_1_0_n_n_0_1_196
    = Cert.ReferenceIdeal.gather_S50000x96_S850000x1_S850000x96_1_0_n_n_0_1_196 := rfl

/-- A vector recast as a one-column matrix reads, at a row, the vector's entry. -/
theorem k_col_cast {n : Nat} (x : (⟨1, ![n]⟩ : Shape).Idx → EReal) (h : (⟨1, ![n]⟩ : Shape).ShapeCasts ⟨2, ![n, 1]⟩)
    (a : Fin n) (b : Fin 1) : shapeCast ⟨2, ![n, 1]⟩ x h (ix2 a b) = x (ix1 a) :=
  shapeCast_apply x h _ _ (by
    have hb : b.val = 0 := by omega
    rw [Shape.rowMajor_val_two, Shape.rowMajor_val_one]
    show a.val = a.val * 1 + b.val
    rw [hb, Nat.mul_one, Nat.add_zero])

/-- The inverse square roots of the degrees, as a column, are the column of normalisation factors. -/
theorem k_dcol_of_deg (G : Cert.Spec.Graph) (h : S50000.ShapeCasts S50000x1) :
    (fun i => shapeCast S50000x1
      (Host.rsqrt (F := Ideal) (φ := .f32) (fun i : S50000.Idx => Cert.Spec.deg G (i 0))) h i) = Cert.Spec.dcol G := by
  funext j
  obtain ⟨a, b, rfl⟩ : ∃ a b, j = ix2 a b := ⟨j 0, j 1, eq_ix2 j⟩
  exact (k_col_cast _ h a b).trans rfl

/-- Ones added up along the destination words, inverse square root, as a column: the column of normalisation factors. -/
theorem k_dcol (ei : S2x800000.Idx → BitVec 32) (h : S50000.ShapeCasts S50000x1)
    (hz : S_.BroadcastsInDim S50000 ![]) (ho : S_.BroadcastsInDim S850000 ![])
    (hcol : S850000.BroadcastsInDim S850000x1 ![0]) :
    (fun i => shapeCast S50000x1
      (Host.rsqrt (F := Ideal) (φ := .f32)
        (Host.scatterAdd Cert.KernelIdeal.scatter_S50000_S850000x1_S850000_n_0_0_1
          (broadcastInDim S50000 ![] hz (constant (F := Ideal) S_ .f32 0x00000000#32))
          (broadcastInDim S850000x1 ![0] hcol (Cert.Net.dstW ei))
          (broadcastInDim S850000 ![] ho (constant (F := Ideal) S_ .f32 0x3F800000#32)))) h i)
      = Cert.Spec.dcol (Cert.Net.graph ei) := by
  rw [k_zero_bcast, k_one_bcast, k_sc1_eq]
  show (fun i => shapeCast S50000x1
      (Host.rsqrt (F := Ideal) (φ := .f32)
        (Host.scatterAdd (F := Ideal) (φ := .f32) Cert.ReferenceIdeal.scatter_S50000_S850000x1_S850000_n_0_0_1
          (fun _ => (0 : EReal)) (Cert.Net.dstCol (Cert.Net.dstW ei)) (fun _ => (1 : EReal)))) h i) = _
  rw [Cert.Net.scatter_deg ei]
  exact k_dcol_of_deg _ h

/-- The rows of a table read along the normalised source words, widened, and added up along the destination words: the
    sum, per node, over the edges landing at it, of the table's row at the edge's source. -/
theorem k_agg_chain (ei : S2x800000.Idx → BitVec 32) (T : (⟨S50000x96, .bf16⟩ : BufTy).Contents (Elt Ideal))
    (hz : S_.BroadcastsInDim S50000x96 ![]) (hb : S_.BroadcastsInDim S850000 ![])
    (hcol : S850000.BroadcastsInDim S850000x1 ![0]) (hlt : FTy.bf16.bits < FTy.f32.bits) :
    Host.scatterAdd (F := Ideal) (φ := .f32) Cert.KernelIdeal.scatter_S50000x96_S850000x1_S850000x96_1_0_0_1
      (broadcastInDim S50000x96 ![] hz (constant (F := Ideal) S_ .f32 0x00000000#32))
      (broadcastInDim S850000x1 ![0] hcol (Cert.Net.dstW ei))
      (extf .f32 (Host.gather Cert.KernelIdeal.gather_S50000x96_S850000x1_S850000x96_1_0_n_n_0_1_196 T
        (broadcastInDim S850000x1 ![0] hcol
          (select (cmpi .slt (Cert.Net.srcW ei) (broadcastInDim S850000 ![] hb (constantI S_ 32 0#32)))
            (addi (Cert.Net.srcW ei) (broadcastInDim S850000 ![] hb (constantI S_ 32 50000#32))) (Cert.Net.srcW ei))))
        hlt)
      = Cert.Spec.aggRows (Cert.Net.graph ei) (Cert.Spec.gatherSrc (Cert.Net.graph ei) T) := by
  rw [k_zero_bcast, k_extf_id, k_sc2_eq, k_ga2_eq]
  show Host.scatterAdd (F := Ideal) (φ := .f32) Cert.ReferenceIdeal.scatter_S50000x96_S850000x1_S850000x96_1_0_0_1
      (fun _ => (0 : EReal)) (Cert.Net.dstCol (Cert.Net.dstW ei))
      (Host.gather Cert.ReferenceIdeal.gather_S50000x96_S850000x1_S850000x96_1_0_n_n_0_1_196
        T (Cert.Net.normIdx (Cert.Net.srcW ei))) = _
  rw [Cert.Net.gather_rows ei T, Cert.Net.scatter_rows ei]

end Cert.KernelIdeal.HostVal

end
-- ==== Proof.KI.Host0.lean ====
/-
  The host operations before the first region, read over any buffer contents at the extended reals: the source words
  and the destination words (a row of the edge list followed by every node's number), and the column of normalisation
  factors (ones added up along the destination words, inverse square root).
-/
import proofs.«115743_j55052890800725_2_alg».proof.Proof.KI.HostNet

set_option maxRecDepth 16384

noncomputable section

namespace Cert.KernelIdeal.HostVal

open Cert.KernelIdeal Cert.KernelIdeal.Gen
open Idealize.ShloMosaic Idealize.ShloMosaic.TcCoe Idealize.ShloMosaic.StableHlo Idealize.ShloMosaic.ValueIdx

variable (W : Valuation τ sig (Elt Ideal))

/-- The source words, the destination words, and the column of normalisation factors. -/
theorem host0_v3 : after hostOps0 W (Proc.devRef .tc main_v3) = Cert.Net.srcW (W (Proc.devRef .tc main_arg1)) := by
  after_results_simp
  rfl

theorem host0_v6 : after hostOps0 W (Proc.devRef .tc main_v6) = Cert.Net.dstW (W (Proc.devRef .tc main_arg1)) := by
  after_results_simp
  rfl

theorem host0_v12 : after hostOps0 W (Proc.devRef .tc main_v12) = Cert.Spec.dcol (Cert.Net.graph (W (Proc.devRef .tc main_arg1))) := by
  after_results
  exact k_dcol (W (Proc.devRef .tc main_arg1)) _ _ _ _

end Cert.KernelIdeal.HostVal

end
-- ==== Proof.KI.Host1.lean ====
/-
  The host operations between the first layer's product and its statistics, read over any buffer contents that hold the
  two word lists, at the extended reals: the aggregation of the product's rows over the edges, and the bias as a one-row
  matrix.
-/
import proofs.«115743_j55052890800725_2_alg».proof.Proof.KI.HostNet

set_option maxRecDepth 16384

noncomputable section

namespace Cert.KernelIdeal.HostVal

open Cert.KernelIdeal Cert.KernelIdeal.Gen
open Idealize.ShloMosaic Idealize.ShloMosaic.TcCoe Idealize.ShloMosaic.StableHlo Idealize.ShloMosaic.ValueIdx

variable (W : Valuation τ sig (Elt Ideal))

theorem host1_v24 (ei : S2x800000.Idx → BitVec 32) (h3 : W (Proc.devRef .tc main_v3) = Cert.Net.srcW ei)
    (h6 : W (Proc.devRef .tc main_v6) = Cert.Net.dstW ei) :
    after hostOps1 W (Proc.devRef .tc main_v24)
      = Cert.Spec.aggRows (Cert.Net.graph ei) (Cert.Spec.gatherSrc (Cert.Net.graph ei) (W (Proc.devRef .tc main_v13))) := by
  after_results_simp
  rw [h3, h6]
  exact k_agg_chain ei _ _ _ _ _

theorem host1_v25 : after hostOps1 W (Proc.devRef .tc main_v25) = Cert.Spec.row (W (Proc.devRef .tc main_arg3)) := by
  after_results_simp
  exact k_row_cast _ _

end Cert.KernelIdeal.HostVal

end
-- ==== Proof.KI.Host2.lean ====
/-
  The host operations between the first layer's statistics and its normalisation, read over any buffer contents at
  the extended reals: the bias, the scale and the shift as one-row matrices, and the mean row and the variance row
  computed from the column sums and the column sums of squares (divided by the node count; mean of squares less the
  squared mean).
-/
import proofs.«115743_j55052890800725_2_alg».proof.Proof.KI.HostLib

set_option maxRecDepth 16384

noncomputable section

namespace Cert.KernelIdeal.HostVal

open Cert.KernelIdeal Cert.KernelIdeal.Gen
open Idealize.ShloMosaic Idealize.ShloMosaic.TcCoe Idealize.ShloMosaic.StableHlo Idealize.ShloMosaic.ValueIdx

variable (W : Valuation τ sig (Elt Ideal))

theorem host2_v35 : after hostOps2 W (Proc.devRef .tc main_v35) = Cert.Spec.row (W (Proc.devRef .tc main_arg3)) := by
  after_results_simp
  exact k_row_cast _ _

theorem host2_v36 : after hostOps2 W (Proc.devRef .tc main_v36) = Cert.Spec.row (W (Proc.devRef .tc main_arg4)) := by
  after_results_simp
  exact k_row_cast _ _

theorem host2_v37 : after hostOps2 W (Proc.devRef .tc main_v37) = Cert.Spec.row (W (Proc.devRef .tc main_arg5)) := by
  after_results_simp
  exact k_row_cast _ _

theorem host2_v38 : after hostOps2 W (Proc.devRef .tc main_v38) = Cert.Spec.meanRow (W (Proc.devRef .tc main_v26_0)) := by
  after_results_simp
  exact k_mean_cast _ _ _ _

theorem host2_v39 : after hostOps2 W (Proc.devRef .tc main_v39)
    = Cert.Spec.varRow (W (Proc.devRef .tc main_v26_0)) (W (Proc.devRef .tc main_v26_1)) := by
  after_results_simp
  exact k_var_cast _ _ _ _ _

end Cert.KernelIdeal.HostVal

end
-- ==== Proof.KI.Host4.lean ====
/-
  The host operations between the second layer's product and its statistics, read over any buffer contents that hold
  the two word lists, at the extended reals: the aggregation of the product's rows over the edges, and the bias as a
  one-row matrix.
-/
import proofs.«115743_j55052890800725_2_alg».proof.Proof.KI.HostNet

set_option maxRecDepth 16384

noncomputable section

namespace Cert.KernelIdeal.HostVal

open Cert.KernelIdeal Cert.KernelIdeal.Gen
open Idealize.ShloMosaic Idealize.ShloMosaic.TcCoe Idealize.ShloMosaic.StableHlo Idealize.ShloMosaic.ValueIdx

variable (W : Valuation τ sig (Elt Ideal))

theorem host4_v52 (ei : S2x800000.Idx → BitVec 32) (h3 : W (Proc.devRef .tc main_v3) = Cert.Net.srcW ei)
    (h6 : W (Proc.devRef .tc main_v6) = Cert.Net.dstW ei) :
    after hostOps4 W (Proc.devRef .tc main_v52)
      = Cert.Spec.aggRows (Cert.Net.graph ei) (Cert.Spec.gatherSrc (Cert.Net.graph ei) (W (Proc.devRef .tc main_v41))) := by
  after_results_simp
  rw [h3, h6]
  exact k_agg_chain ei _ _ _ _ _

theorem host4_v53 : after hostOps4 W (Proc.devRef .tc main_v53) = Cert.Spec.row (W (Proc.devRef .tc main_arg7)) := by
  after_results_simp
  exact k_row_cast _ _

end Cert.KernelIdeal.HostVal

end
-- ==== Proof.KI.Host5.lean ====
/-
  The host operations between the second layer's statistics and its normalisation, read over any buffer contents at
  the extended reals: the bias, the scale and the shift as one-row matrices, and the mean row and the variance row
  computed from the column sums and the column sums of squares (divided by the node count; mean of squares less the
  squared mean).
-/
import proofs.«115743_j55052890800725_2_alg».proof.Proof.KI.HostLib

set_option maxRecDepth 16384

noncomputable section

namespace Cert.KernelIdeal.HostVal

open Cert.KernelIdeal Cert.KernelIdeal.Gen
open Idealize.ShloMosaic Idealize.ShloMosaic.TcCoe Idealize.ShloMosaic.StableHlo Idealize.ShloMosaic.ValueIdx

variable (W : Valuation τ sig (Elt Ideal))

theorem host5_v63 : after hostOps5 W (Proc.devRef .tc main_v63) = Cert.Spec.row (W (Proc.devRef .tc main_arg7)) := by
  after_results_simp
  exact k_row_cast _ _

theorem host5_v64 : after hostOps5 W (Proc.devRef .tc main_v64) = Cert.Spec.row (W (Proc.devRef .tc main_arg8)) := by
  after_results_simp
  exact k_row_cast _ _

theorem host5_v65 : after hostOps5 W (Proc.devRef .tc main_v65) = Cert.Spec.row (W (Proc.devRef .tc main_arg9)) := by
  after_results_simp
  exact k_row_cast _ _

theorem host5_v66 : after hostOps5 W (Proc.devRef .tc main_v66) = Cert.Spec.meanRow (W (Proc.devRef .tc main_v54_0)) := by
  after_results_simp
  exact k_mean_cast _ _ _ _

theorem host5_v67 : after hostOps5 W (Proc.devRef .tc main_v67)
    = Cert.Spec.varRow (W (Proc.devRef .tc main_v54_0)) (W (Proc.devRef .tc main_v54_1)) := by
  after_results_simp
  exact k_var_cast _ _ _ _ _

end Cert.KernelIdeal.HostVal

end
-- ==== Proof.KI.Host68.lean ====
/-
  The host operations around the projector, read over any buffer contents at the extended reals: before its first
  product the bias as a one-row matrix; before its last region the scale and the shift as one-row matrices, the mean row
  and the variance row computed from the column sums and the column sums of squares, and the last bias as a one-row
  matrix.
-/
import proofs.«115743_j55052890800725_2_alg».proof.Proof.KI.HostLib

set_option maxRecDepth 16384

noncomputable section

namespace Cert.KernelIdeal.HostVal

open Cert.KernelIdeal Cert.KernelIdeal.Gen
open Idealize.ShloMosaic Idealize.ShloMosaic.TcCoe Idealize.ShloMosaic.StableHlo Idealize.ShloMosaic.ValueIdx

variable (W : Valuation τ sig (Elt Ideal))

theorem host6_v69 : after hostOps6 W (Proc.devRef .tc main_v69) = Cert.Spec.row (W (Proc.devRef .tc main_arg11)) := by
  after_results_simp
  exact k_row_cast _ _

theorem host8_v80 : after hostOps8 W (Proc.devRef .tc main_v80) = Cert.Spec.row (W (Proc.devRef .tc main_arg12)) := by
  after_results_simp
  exact k_row_cast _ _

theorem host8_v81 : after hostOps8 W (Proc.devRef .tc main_v81) = Cert.Spec.row (W (Proc.devRef .tc main_arg13)) := by
  after_results_simp
  exact k_row_cast _ _

theorem host8_v82 : after hostOps8 W (Proc.devRef .tc main_v82) = Cert.Spec.meanRow (W (Proc.devRef .tc main_v71_0)) := by
  after_results_simp
  exact k_mean_cast _ _ _ _

theorem host8_v83 : after hostOps8 W (Proc.devRef .tc main_v83)
    = Cert.Spec.varRow (W (Proc.devRef .tc main_v71_0)) (W (Proc.devRef .tc main_v71_1)) := by
  after_results_simp
  exact k_var_cast _ _ _ _ _

theorem host8_v84 : after hostOps8 W (Proc.devRef .tc main_v84) = Cert.Spec.row (W (Proc.devRef .tc main_arg15)) := by
  after_results_simp
  exact k_row_cast _ _

end Cert.KernelIdeal.HostVal

end
-- ==== Proof.KI.Chain.lean ====
/-
  The kernel program's value, read item by item at the extended reals: what each of the nine regions and seven stretches
  of host operations leaves in the buffers the later items read, from the launch memory to the result array.

  The first stretch leaves the two word lists and the column of normalisation factors.  Each layer is then: the
  product with its rows scaled by the factors (a region); its rows aggregated over the edges and the bias as a row (a
  stretch); the column sums and column sums of squares of the value (a region); the mean row and the variance row (a
  stretch); the normalisation, scale, shift and clip (a region).  The projector is a product plus a bias row, its column
  sums, the mean and variance rows, and the last region: normalise, multiply, add the last bias, divide every row by its
  norm.  A buffer an item does not write is carried along unchanged; no item writes an argument.  Composed, the result
  array holds the network's value in the kernel's arrangement.
-/
import proofs.«115743_j55052890800725_2_alg».proof.Proof.KI.RunFold
import proofs.«115743_j55052890800725_2_alg».proof.Proof.KI.ValA0
import proofs.«115743_j55052890800725_2_alg».proof.Proof.KI.ValA2
import proofs.«115743_j55052890800725_2_alg».proof.Proof.KI.ValA3
import proofs.«115743_j55052890800725_2_alg».proof.Proof.KI.ValA5
import proofs.«115743_j55052890800725_2_alg».proof.Proof.KI.ValA6
import proofs.«115743_j55052890800725_2_alg».proof.Proof.KI.ValA8
import proofs.«115743_j55052890800725_2_alg».proof.Proof.KI.ValR1
import proofs.«115743_j55052890800725_2_alg».proof.Proof.KI.ValR4
import proofs.«115743_j55052890800725_2_alg».proof.Proof.KI.ValR7
import proofs.«115743_j55052890800725_2_alg».proof.Proof.KI.Host0
import proofs.«115743_j55052890800725_2_alg».proof.Proof.KI.Host1
import proofs.«115743_j55052890800725_2_alg».proof.Proof.KI.Host2
import proofs.«115743_j55052890800725_2_alg».proof.Proof.KI.Host4
import proofs.«115743_j55052890800725_2_alg».proof.Proof.KI.Host5
import proofs.«115743_j55052890800725_2_alg».proof.Proof.KI.Host68

set_option maxRecDepth 16384

noncomputable section

namespace Cert.KernelIdeal.HostVal

open Cert.KernelIdeal Cert.KernelIdeal.Gen Cert.KernelIdeal.Hand Cert.KernelIdeal.Val
open Idealize.ShloMosaic Idealize.ShloMosaic.TcCoe Idealize.ShloMosaic.StableHlo

variable (m : (ℓ : Loc nD τ sig) → Buf (Elt Ideal) ℓ) (ρ : Dev nD → PrngReg) (c : Dev nD)

/-- The arguments as the launch memory holds them, at their array types; the graph of the edge list. -/
abbrev kA0 : Cert.Spec.Mat 50000 128 := m ((c : Thread nD τ).loc main_arg0)
abbrev kA2 : Cert.Spec.Mat 128 96 := m ((c : Thread nD τ).loc main_arg2)
abbrev kA3 : Cert.Spec.Vct 96 := m ((c : Thread nD τ).loc main_arg3)
abbrev kA4 : Cert.Spec.Vct 96 := m ((c : Thread nD τ).loc main_arg4)
abbrev kA5 : Cert.Spec.Vct 96 := m ((c : Thread nD τ).loc main_arg5)
abbrev kA6 : Cert.Spec.Mat 96 96 := m ((c : Thread nD τ).loc main_arg6)
abbrev kA7 : Cert.Spec.Vct 96 := m ((c : Thread nD τ).loc main_arg7)
abbrev kA8 : Cert.Spec.Vct 96 := m ((c : Thread nD τ).loc main_arg8)
abbrev kA9 : Cert.Spec.Vct 96 := m ((c : Thread nD τ).loc main_arg9)
abbrev kA10 : Cert.Spec.Mat 96 96 := m ((c : Thread nD τ).loc main_arg10)
abbrev kA11 : Cert.Spec.Vct 96 := m ((c : Thread nD τ).loc main_arg11)
abbrev kA12 : Cert.Spec.Vct 96 := m ((c : Thread nD τ).loc main_arg12)
abbrev kA13 : Cert.Spec.Vct 96 := m ((c : Thread nD τ).loc main_arg13)
abbrev kA14 : Cert.Spec.Mat 96 64 := m ((c : Thread nD τ).loc main_arg14)
abbrev kA15 : Cert.Spec.Vct 64 := m ((c : Thread nD τ).loc main_arg15)
abbrev kEi : Cert.ReferenceIdeal.S2x800000.Idx → BitVec 32 := m ((c : Thread nD τ).loc main_arg1)
abbrev kG : Cert.Spec.Graph := Cert.Net.graph (kEi m c)

/-- The values between the items: the first layer, the second layer's product, the second layer, the projector's first product. -/
abbrev kH1 : Cert.Spec.Mat 50000 96 := Cert.Spec.kLayer (kG m c) (kA0 m c) (kA2 m c) (kA3 m c) (kA4 m c) (kA5 m c)
abbrev kH2 : Cert.Spec.Mat 50000 96 := Cert.Spec.kLayer (kG m c) (kH1 m c) (kA6 m c) (kA7 m c) (kA8 m c) (kA9 m c)
abbrev kY : Cert.Spec.Mat 50000 96 := Cert.Spec.mmBias (kH2 m c) (kA10 m c) (Cert.Spec.row (kA11 m c))

/-! ## No item writes an argument -/
theorem k1_arg0 : W1 m ρ c (Proc.devRef .tc main_arg0) = kA0 m c :=
  (W1_keep m ρ c main_arg0 (by decide)).trans <| rfl
theorem k1_arg2 : W1 m ρ c (Proc.devRef .tc main_arg2) = kA2 m c :=
  (W1_keep m ρ c main_arg2 (by decide)).trans <| rfl
theorem k2_arg3 : W2 m ρ c (Proc.devRef .tc main_arg3) = kA3 m c :=
  (W2_keep m ρ c main_arg3 (by decide)).trans <| (W1_keep m ρ c main_arg3 (by decide)).trans <| rfl
theorem k4_arg3 : W4 m ρ c (Proc.devRef .tc main_arg3) = kA3 m c :=
  (W4_keep m ρ c main_arg3 (by decide)).trans <| (W3_keep m ρ c main_arg3 (by decide)).trans <| (W2_keep m ρ c main_arg3 (by decide)).trans <| (W1_keep m ρ c main_arg3 (by decide)).trans <| rfl
theorem k4_arg4 : W4 m ρ c (Proc.devRef .tc main_arg4) = kA4 m c :=
  (W4_keep m ρ c main_arg4 (by decide)).trans <| (W3_keep m ρ c main_arg4 (by decide)).trans <| (W2_keep m ρ c main_arg4 (by decide)).trans <| (W1_keep m ρ c main_arg4 (by decide)).trans <| rfl
theorem k4_arg5 : W4 m ρ c (Proc.devRef .tc main_arg5) = kA5 m c :=
  (W4_keep m ρ c main_arg5 (by decide)).trans <| (W3_keep m ρ c main_arg5 (by decide)).trans <| (W2_keep m ρ c main_arg5 (by decide)).trans <| (W1_keep m ρ c main_arg5 (by decide)).trans <| rfl
theorem k6_arg6 : W6 m ρ c (Proc.devRef .tc main_arg6) = kA6 m c :=
  (W6_keep m ρ c main_arg6 (by decide)).trans <| (W5_keep m ρ c main_arg6 (by decide)).trans <| (W4_keep m ρ c main_arg6 (by decide)).trans <| (W3_keep m ρ c main_arg6 (by decide)).trans <| (W2_keep m ρ c main_arg6 (by decide)).trans <| (W1_keep m ρ c main_arg6 (by decide)).trans <| rfl
theorem k7_arg7 : W7 m ρ c (Proc.devRef .tc main_arg7) = kA7 m c :=
  (W7_keep m ρ c main_arg7 (by decide)).trans <| (W6_keep m ρ c main_arg7 (by decide)).trans <| (W5_keep m ρ c main_arg7 (by decide)).trans <| (W4_keep m ρ c main_arg7 (by decide)).trans <| (W3_keep m ρ c main_arg7 (by decide)).trans <| (W2_keep m ρ c main_arg7 (by decide)).trans <| (W1_keep m ρ c main_arg7 (by decide)).trans <| rfl
theorem k9_arg7 : W9 m ρ c (Proc.devRef .tc main_arg7) = kA7 m c :=
  (W9_keep m ρ c main_arg7 (by decide)).trans <| (W8_keep m ρ c main_arg7 (by decide)).trans <| (W7_keep m ρ c main_arg7 (by decide)).trans <| (W6_keep m ρ c main_arg7 (by decide)).trans <| (W5_keep m ρ c main_arg7 (by decide)).trans <| (W4_keep m ρ c main_arg7 (by decide)).trans <| (W3_keep m ρ c main_arg7 (by decide)).trans <| (W2_keep m ρ c main_arg7 (by decide)).trans <| (W1_keep m ρ c main_arg7 (by decide)).trans <| rfl
theorem k9_arg8 : W9 m ρ c (Proc.devRef .tc main_arg8) = kA8 m c :=
  (W9_keep m ρ c main_arg8 (by decide)).trans <| (W8_keep m ρ c main_arg8 (by decide)).trans <| (W7_keep m ρ c main_arg8 (by decide)).trans <| (W6_keep m ρ c main_arg8 (by decide)).trans <| (W5_keep m ρ c main_arg8 (by decide)).trans <| (W4_keep m ρ c main_arg8 (by decide)).trans <| (W3_keep m ρ c main_arg8 (by decide)).trans <| (W2_keep m ρ c main_arg8 (by decide)).trans <| (W1_keep m ρ c main_arg8 (by decide)).trans <| rfl
theorem k9_arg9 : W9 m ρ c (Proc.devRef .tc main_arg9) = kA9 m c :=
  (W9_keep m ρ c main_arg9 (by decide)).trans <| (W8_keep m ρ c main_arg9 (by decide)).trans <| (W7_keep m ρ c main_arg9 (by decide)).trans <| (W6_keep m ρ c main_arg9 (by decide)).trans <| (W5_keep m ρ c main_arg9 (by decide)).trans <| (W4_keep m ρ c main_arg9 (by decide)).trans <| (W3_keep m ρ c main_arg9 (by decide)).trans <| (W2_keep m ρ c main_arg9 (by decide)).trans <| (W1_keep m ρ c main_arg9 (by decide)).trans <| rfl
theorem k11_arg11 : W11 m ρ c (Proc.devRef .tc main_arg11) = kA11 m c :=
  (W11_keep m ρ c main_arg11 (by decide)).trans <| (W10_keep m ρ c main_arg11 (by decide)).trans <| (W9_keep m ρ c main_arg11 (by decide)).trans <| (W8_keep m ρ c main_arg11 (by decide)).trans <| (W7_keep m ρ c main_arg11 (by decide)).trans <| (W6_keep m ρ c main_arg11 (by decide)).trans <| (W5_keep m ρ c main_arg11 (by decide)).trans <| (W4_keep m ρ c main_arg11 (by decide)).trans <| (W3_keep m ρ c main_arg11 (by decide)).trans <| (W2_keep m ρ c main_arg11 (by decide)).trans <| (W1_keep m ρ c main_arg11 (by decide)).trans <| rfl
theorem k12_arg10 : W12 m ρ c (Proc.devRef .tc main_arg10) = kA10 m c :=
  (W12_keep m ρ c main_arg10 (by decide)).trans <| (W11_keep m ρ c main_arg10 (by decide)).trans <| (W10_keep m ρ c main_arg10 (by decide)).trans <| (W9_keep m ρ c main_arg10 (by decide)).trans <| (W8_keep m ρ c main_arg10 (by decide)).trans <| (W7_keep m ρ c main_arg10 (by decide)).trans <| (W6_keep m ρ c main_arg10 (by decide)).trans <| (W5_keep m ρ c main_arg10 (by decide)).trans <| (W4_keep m ρ c main_arg10 (by decide)).trans <| (W3_keep m ρ c main_arg10 (by decide)).trans <| (W2_keep m ρ c main_arg10 (by decide)).trans <| (W1_keep m ρ c main_arg10 (by decide)).trans <| rfl
theorem k14_arg12 : W14 m ρ c (Proc.devRef .tc main_arg12) = kA12 m c :=
  (W14_keep m ρ c main_arg12 (by decide)).trans <| (W13_keep m ρ c main_arg12 (by decide)).trans <| (W12_keep m ρ c main_arg12 (by decide)).trans <| (W11_keep m ρ c main_arg12 (by decide)).trans <| (W10_keep m ρ c main_arg12 (by decide)).trans <| (W9_keep m ρ c main_arg12 (by decide)).trans <| (W8_keep m ρ c main_arg12 (by decide)).trans <| (W7_keep m ρ c main_arg12 (by decide)).trans <| (W6_keep m ρ c main_arg12 (by decide)).trans <| (W5_keep m ρ c main_arg12 (by decide)).trans <| (W4_keep m ρ c main_arg12 (by decide)).trans <| (W3_keep m ρ c main_arg12 (by decide)).trans <| (W2_keep m ρ c main_arg12 (by decide)).trans <| (W1_keep m ρ c main_arg12 (by decide)).trans <| rfl
theorem k14_arg13 : W14 m ρ c (Proc.devRef .tc main_arg13) = kA13 m c :=
  (W14_keep m ρ c main_arg13 (by decide)).trans <| (W13_keep m ρ c main_arg13 (by decide)).trans <| (W12_keep m ρ c main_arg13 (by decide)).trans <| (W11_keep m ρ c main_arg13 (by decide)).trans <| (W10_keep m ρ c main_arg13 (by decide)).trans <| (W9_keep m ρ c main_arg13 (by decide)).trans <| (W8_keep m ρ c main_arg13 (by decide)).trans <| (W7_keep m ρ c main_arg13 (by decide)).trans <| (W6_keep m ρ c main_arg13 (by decide)).trans <| (W5_keep m ρ c main_arg13 (by decide)).trans <| (W4_keep m ρ c main_arg13 (by decide)).trans <| (W3_keep m ρ c main_arg13 (by decide)).trans <| (W2_keep m ρ c main_arg13 (by decide)).trans <| (W1_keep m ρ c main_arg13 (by decide)).trans <| rfl
theorem k14_arg15 : W14 m ρ c (Proc.devRef .tc main_arg15) = kA15 m c :=
  (W14_keep m ρ c main_arg15 (by decide)).trans <| (W13_keep m ρ c main_arg15 (by decide)).trans <| (W12_keep m ρ c main_arg15 (by decide)).trans <| (W11_keep m ρ c main_arg15 (by decide)).trans <| (W10_keep m ρ c main_arg15 (by decide)).trans <| (W9_keep m ρ c main_arg15 (by decide)).trans <| (W8_keep m ρ c main_arg15 (by decide)).trans <| (W7_keep m ρ c main_arg15 (by decide)).trans <| (W6_keep m ρ c main_arg15 (by decide)).trans <| (W5_keep m ρ c main_arg15 (by decide)).trans <| (W4_keep m ρ c main_arg15 (by decide)).trans <| (W3_keep m ρ c main_arg15 (by decide)).trans <| (W2_keep m ρ c main_arg15 (by decide)).trans <| (W1_keep m ρ c main_arg15 (by decide)).trans <| rfl
theorem k15_arg14 : W15 m ρ c (Proc.devRef .tc main_arg14) = kA14 m c :=
  (W15_keep m ρ c main_arg14 (by decide)).trans <| (W14_keep m ρ c main_arg14 (by decide)).trans <| (W13_keep m ρ c main_arg14 (by decide)).trans <| (W12_keep m ρ c main_arg14 (by decide)).trans <| (W11_keep m ρ c main_arg14 (by decide)).trans <| (W10_keep m ρ c main_arg14 (by decide)).trans <| (W9_keep m ρ c main_arg14 (by decide)).trans <| (W8_keep m ρ c main_arg14 (by decide)).trans <| (W7_keep m ρ c main_arg14 (by decide)).trans <| (W6_keep m ρ c main_arg14 (by decide)).trans <| (W5_keep m ρ c main_arg14 (by decide)).trans <| (W4_keep m ρ c main_arg14 (by decide)).trans <| (W3_keep m ρ c main_arg14 (by decide)).trans <| (W2_keep m ρ c main_arg14 (by decide)).trans <| (W1_keep m ρ c main_arg14 (by decide)).trans <| rfl

/-- Three, and five, equal arguments give equal values. -/
theorem k_congr3 {α β γ δ : Type} (f : α → β → γ → δ) {a a' : α} {b b' : β} {c c' : γ} (ha : a = a') (hb : b = b') (hc : c = c') :
    f a b c = f a' b' c' := by subst ha hb hc; rfl
theorem k_congr5 {α β γ δ ε ζ : Type} (f : α → β → γ → δ → ε → ζ) {a a' : α} {b b' : β} {c c' : γ} {d d' : δ} {e e' : ε}
    (ha : a = a') (hb : b = b') (hc : c = c') (hd : d = d') (he : e = e') : f a b c d e = f a' b' c' d' e' := by
  subst ha hb hc hd he; rfl

/-! ## After the first host stretch: the word lists and the factor column -/
theorem k1_v3 : W1 m ρ c (Proc.devRef .tc main_v3) = Cert.Net.srcW (kEi m c) := host0_v3 (W0 m ρ c)
theorem k1_v6 : W1 m ρ c (Proc.devRef .tc main_v6) = Cert.Net.dstW (kEi m c) := host0_v6 (W0 m ρ c)
theorem k1_v12 : (W1 m ρ c (Proc.devRef .tc main_v12) : Cert.Spec.Mat 50000 1) = Cert.Spec.dcol (kG m c) :=
  host0_v12 (W0 m ρ c)
/-! ## The first layer -/
theorem k2_v13 : (W2 m ρ c (Proc.devRef .tc main_v13) : Cert.Spec.Mat 50000 96) = Cert.Spec.preScale (kA0 m c) (kA2 m c) (Cert.Spec.dcol (kG m c)) :=
  (W2_arr m ρ c 3).trans ((val0 (V1 m ρ) c).trans (k_congr3 (Cert.Spec.preScale (k := 128) (d := 96)) (k1_arg0 m ρ c) (k1_arg2 m ρ c) (k1_v12 m ρ c)))
theorem k3_v24 : (W3 m ρ c (Proc.devRef .tc main_v24) : Cert.Spec.Mat 50000 96) = Cert.Spec.aggRows (kG m c) (Cert.Spec.gatherSrc (kG m c) (Cert.Spec.preScale (kA0 m c) (kA2 m c) (Cert.Spec.dcol (kG m c)))) :=
  (host1_v24 (W2 m ρ c) (kEi m c) (((W2_keep m ρ c main_v3 (by decide))).trans (k1_v3 m ρ c)) (((W2_keep m ρ c main_v6 (by decide))).trans (k1_v6 m ρ c))).trans
    (congrArg (fun T : Cert.Spec.Mat 50000 96 => Cert.Spec.aggRows (kG m c) (Cert.Spec.gatherSrc (kG m c) T)) (k2_v13 m ρ c))
theorem k3_v25 : (W3 m ρ c (Proc.devRef .tc main_v25) : Cert.Spec.Mat 1 96) = Cert.Spec.row (kA3 m c) :=
  (host1_v25 (W2 m ρ c)).trans (congrArg Cert.Spec.row (k2_arg3 m ρ c))
theorem k4_v26_0 : (W4 m ρ c (Proc.devRef .tc main_v26_0) : Cert.Spec.Mat 1 96) = Cert.Spec.colSum (Cert.Spec.kVal (kG m c) (kA0 m c) (kA2 m c) (kA3 m c)) :=
  (W4_arr m ρ c 3).trans ((val1_sum (V3 m ρ) c).trans (congrArg Cert.Spec.colSum (k_congr3 (Cert.Spec.valOf (d := 96)) (k3_v24 m ρ c) (((W3_keep m ρ c main_v12 (by decide)).trans <| (W2_keep m ρ c main_v12 (by decide))).trans (k1_v12 m ρ c)) (k3_v25 m ρ c))))
theorem k4_v26_1 : (W4 m ρ c (Proc.devRef .tc main_v26_1) : Cert.Spec.Mat 1 96) = Cert.Spec.colSumSq (Cert.Spec.kVal (kG m c) (kA0 m c) (kA2 m c) (kA3 m c)) :=
  (W4_arr m ρ c 4).trans ((val1_sumsq (V3 m ρ) c).trans (congrArg Cert.Spec.colSumSq (k_congr3 (Cert.Spec.valOf (d := 96)) (k3_v24 m ρ c) (((W3_keep m ρ c main_v12 (by decide)).trans <| (W2_keep m ρ c main_v12 (by decide))).trans (k1_v12 m ρ c)) (k3_v25 m ρ c))))
theorem k5_v35 : (W5 m ρ c (Proc.devRef .tc main_v35) : Cert.Spec.Mat 1 96) = Cert.Spec.row (kA3 m c) :=
  (host2_v35 (W4 m ρ c)).trans (congrArg Cert.Spec.row (k4_arg3 m ρ c))
theorem k5_v36 : (W5 m ρ c (Proc.devRef .tc main_v36) : Cert.Spec.Mat 1 96) = Cert.Spec.row (kA4 m c) :=
  (host2_v36 (W4 m ρ c)).trans (congrArg Cert.Spec.row (k4_arg4 m ρ c))
theorem k5_v37 : (W5 m ρ c (Proc.devRef .tc main_v37) : Cert.Spec.Mat 1 96) = Cert.Spec.row (kA5 m c) :=
  (host2_v37 (W4 m ρ c)).trans (congrArg Cert.Spec.row (k4_arg5 m ρ c))
theorem k5_v38 : (W5 m ρ c (Proc.devRef .tc main_v38) : Cert.Spec.Mat 1 96) = Cert.Spec.meanRow (Cert.Spec.colSum (Cert.Spec.kVal (kG m c) (kA0 m c) (kA2 m c) (kA3 m c))) :=
  (host2_v38 (W4 m ρ c)).trans (congrArg Cert.Spec.meanRow (k4_v26_0 m ρ c))
theorem k5_v39 : (W5 m ρ c (Proc.devRef .tc main_v39) : Cert.Spec.Mat 1 96) = Cert.Spec.varRow (Cert.Spec.colSum (Cert.Spec.kVal (kG m c) (kA0 m c) (kA2 m c) (kA3 m c))) (Cert.Spec.colSumSq (Cert.Spec.kVal (kG m c) (kA0 m c) (kA2 m c) (kA3 m c))) :=
  (host2_v39 (W4 m ρ c)).trans (congrArg₂ Cert.Spec.varRow (k4_v26_0 m ρ c) (k4_v26_1 m ρ c))
theorem k6_v40 : (W6 m ρ c (Proc.devRef .tc main_v40) : Cert.Spec.Mat 50000 96) = kH1 m c :=
  (W6_arr m ρ c 7).trans ((val2 (V5 m ρ) c).trans (k_congr5 (Cert.Spec.bnRelu (d := 96))
    (k_congr3 (Cert.Spec.valOf (d := 96)) (((W5_keep m ρ c main_v24 (by decide)).trans <| (W4_keep m ρ c main_v24 (by decide))).trans (k3_v24 m ρ c)) (((W5_keep m ρ c main_v12 (by decide)).trans <| (W4_keep m ρ c main_v12 (by decide)).trans <| (W3_keep m ρ c main_v12 (by decide)).trans <| (W2_keep m ρ c main_v12 (by decide))).trans (k1_v12 m ρ c)) (k5_v35 m ρ c))
    (k5_v36 m ρ c) (k5_v37 m ρ c) (k5_v38 m ρ c) (k5_v39 m ρ c)))
/-! ## The second layer -/
theorem k7_v41 : (W7 m ρ c (Proc.devRef .tc main_v41) : Cert.Spec.Mat 50000 96) = Cert.Spec.preScale (kH1 m c) (kA6 m c) (Cert.Spec.dcol (kG m c)) :=
  (W7_arr m ρ c 3).trans ((val3 (V6 m ρ) c).trans (k_congr3 (Cert.Spec.preScale (k := 96) (d := 96)) (k6_v40 m ρ c) (k6_arg6 m ρ c) (((W6_keep m ρ c main_v12 (by decide)).trans <| (W5_keep m ρ c main_v12 (by decide)).trans <| (W4_keep m ρ c main_v12 (by decide)).trans <| (W3_keep m ρ c main_v12 (by decide)).trans <| (W2_keep m ρ c main_v12 (by decide))).trans (k1_v12 m ρ c))))
theorem k8_v52 : (W8 m ρ c (Proc.devRef .tc main_v52) : Cert.Spec.Mat 50000 96) = Cert.Spec.aggRows (kG m c) (Cert.Spec.gatherSrc (kG m c) (Cert.Spec.preScale (kH1 m c) (kA6 m c) (Cert.Spec.dcol (kG m c)))) :=
  (host4_v52 (W7 m ρ c) (kEi m c) (((W7_keep m ρ c main_v3 (by decide)).trans <| (W6_keep m ρ c main_v3 (by decide)).trans <| (W5_keep m ρ c main_v3 (by decide)).trans <| (W4_keep m ρ c main_v3 (by decide)).trans <| (W3_keep m ρ c main_v3 (by decide)).trans <| (W2_keep m ρ c main_v3 (by decide))).trans (k1_v3 m ρ c)) (((W7_keep m ρ c main_v6 (by decide)).trans <| (W6_keep m ρ c main_v6 (by decide)).trans <| (W5_keep m ρ c main_v6 (by decide)).trans <| (W4_keep m ρ c main_v6 (by decide)).trans <| (W3_keep m ρ c main_v6 (by decide)).trans <| (W2_keep m ρ c main_v6 (by decide))).trans (k1_v6 m ρ c))).trans
    (congrArg (fun T : Cert.Spec.Mat 50000 96 => Cert.Spec.aggRows (kG m c) (Cert.Spec.gatherSrc (kG m c) T)) (k7_v41 m ρ c))
theorem k8_v53 : (W8 m ρ c (Proc.devRef .tc main_v53) : Cert.Spec.Mat 1 96) = Cert.Spec.row (kA7 m c) :=
  (host4_v53 (W7 m ρ c)).trans (congrArg Cert.Spec.row (k7_arg7 m ρ c))
theorem k9_v54_0 : (W9 m ρ c (Proc.devRef .tc main_v54_0) : Cert.Spec.Mat 1 96) = Cert.Spec.colSum (Cert.Spec.kVal (kG m c) (kH1 m c) (kA6 m c) (kA7 m c)) :=
  (W9_arr m ρ c 3).trans ((val4_sum (V8 m ρ) c).trans (congrArg Cert.Spec.colSum (k_congr3 (Cert.Spec.valOf (d := 96)) (k8_v52 m ρ c) (((W8_keep m ρ c main_v12 (by decide)).trans <| (W7_keep m ρ c main_v12 (by decide)).trans <| (W6_keep m ρ c main_v12 (by decide)).trans <| (W5_keep m ρ c main_v12 (by decide)).trans <| (W4_keep m ρ c main_v12 (by decide)).trans <| (W3_keep m ρ c main_v12 (by decide)).trans <| (W2_keep m ρ c main_v12 (by decide))).trans (k1_v12 m ρ c)) (k8_v53 m ρ c))))
theorem k9_v54_1 : (W9 m ρ c (Proc.devRef .tc main_v54_1) : Cert.Spec.Mat 1 96) = Cert.Spec.colSumSq (Cert.Spec.kVal (kG m c) (kH1 m c) (kA6 m c) (kA7 m c)) :=
  (W9_arr m ρ c 4).trans ((val4_sumsq (V8 m ρ) c).trans (congrArg Cert.Spec.colSumSq (k_congr3 (Cert.Spec.valOf (d := 96)) (k8_v52 m ρ c) (((W8_keep m ρ c main_v12 (by decide)).trans <| (W7_keep m ρ c main_v12 (by decide)).trans <| (W6_keep m ρ c main_v12 (by decide)).trans <| (W5_keep m ρ c main_v12 (by decide)).trans <| (W4_keep m ρ c main_v12 (by decide)).trans <| (W3_keep m ρ c main_v12 (by decide)).trans <| (W2_keep m ρ c main_v12 (by decide))).trans (k1_v12 m ρ c)) (k8_v53 m ρ c))))
theorem k10_v63 : (W10 m ρ c (Proc.devRef .tc main_v63) : Cert.Spec.Mat 1 96) = Cert.Spec.row (kA7 m c) :=
  (host5_v63 (W9 m ρ c)).trans (congrArg Cert.Spec.row (k9_arg7 m ρ c))
theorem k10_v64 : (W10 m ρ c (Proc.devRef .tc main_v64) : Cert.Spec.Mat 1 96) = Cert.Spec.row (kA8 m c) :=
  (host5_v64 (W9 m ρ c)).trans (congrArg Cert.Spec.row (k9_arg8 m ρ c))
theorem k10_v65 : (W10 m ρ c (Proc.devRef .tc main_v65) : Cert.Spec.Mat 1 96) = Cert.Spec.row (kA9 m c) :=
  (host5_v65 (W9 m ρ c)).trans (congrArg Cert.Spec.row (k9_arg9 m ρ c))
theorem k10_v66 : (W10 m ρ c (Proc.devRef .tc main_v66) : Cert.Spec.Mat 1 96) = Cert.Spec.meanRow (Cert.Spec.colSum (Cert.Spec.kVal (kG m c) (kH1 m c) (kA6 m c) (kA7 m c))) :=
  (host5_v66 (W9 m ρ c)).trans (congrArg Cert.Spec.meanRow (k9_v54_0 m ρ c))
theorem k10_v67 : (W10 m ρ c (Proc.devRef .tc main_v67) : Cert.Spec.Mat 1 96) = Cert.Spec.varRow (Cert.Spec.colSum (Cert.Spec.kVal (kG m c) (kH1 m c) (kA6 m c) (kA7 m c))) (Cert.Spec.colSumSq (Cert.Spec.kVal (kG m c) (kH1 m c) (kA6 m c) (kA7 m c))) :=
  (host5_v67 (W9 m ρ c)).trans (congrArg₂ Cert.Spec.varRow (k9_v54_0 m ρ c) (k9_v54_1 m ρ c))
theorem k11_v68 : (W11 m ρ c (Proc.devRef .tc main_v68) : Cert.Spec.Mat 50000 96) = kH2 m c :=
  (W11_arr m ρ c 7).trans ((val5 (V10 m ρ) c).trans (k_congr5 (Cert.Spec.bnRelu (d := 96))
    (k_congr3 (Cert.Spec.valOf (d := 96)) (((W10_keep m ρ c main_v52 (by decide)).trans <| (W9_keep m ρ c main_v52 (by decide))).trans (k8_v52 m ρ c)) (((W10_keep m ρ c main_v12 (by decide)).trans <| (W9_keep m ρ c main_v12 (by decide)).trans <| (W8_keep m ρ c main_v12 (by decide)).trans <| (W7_keep m ρ c main_v12 (by decide)).trans <| (W6_keep m ρ c main_v12 (by decide)).trans <| (W5_keep m ρ c main_v12 (by decide)).trans <| (W4_keep m ρ c main_v12 (by decide)).trans <| (W3_keep m ρ c main_v12 (by decide)).trans <| (W2_keep m ρ c main_v12 (by decide))).trans (k1_v12 m ρ c)) (k10_v63 m ρ c))
    (k10_v64 m ρ c) (k10_v65 m ρ c) (k10_v66 m ρ c) (k10_v67 m ρ c)))
/-! ## The projector -/
theorem k12_v69 : (W12 m ρ c (Proc.devRef .tc main_v69) : Cert.Spec.Mat 1 96) = Cert.Spec.row (kA11 m c) :=
  (host6_v69 (W11 m ρ c)).trans (congrArg Cert.Spec.row (k11_arg11 m ρ c))
theorem k13_v70 : (W13 m ρ c (Proc.devRef .tc main_v70) : Cert.Spec.Mat 50000 96) = kY m c :=
  (W13_arr m ρ c 3).trans ((val6 (V12 m ρ) c).trans (k_congr3 (Cert.Spec.mmBias (k := 96) (d := 96)) (((W12_keep m ρ c main_v68 (by decide))).trans (k11_v68 m ρ c)) (k12_arg10 m ρ c) (k12_v69 m ρ c)))
theorem k14_v71_0 : (W14 m ρ c (Proc.devRef .tc main_v71_0) : Cert.Spec.Mat 1 96) = Cert.Spec.colSum (kY m c) :=
  (W14_arr m ρ c 1).trans ((val7_sum (V13 m ρ) c).trans (congrArg Cert.Spec.colSum (k13_v70 m ρ c)))
theorem k14_v71_1 : (W14 m ρ c (Proc.devRef .tc main_v71_1) : Cert.Spec.Mat 1 96) = Cert.Spec.colSumSq (kY m c) :=
  (W14_arr m ρ c 2).trans ((val7_sumsq (V13 m ρ) c).trans (congrArg Cert.Spec.colSumSq (k13_v70 m ρ c)))
theorem k15_v80 : (W15 m ρ c (Proc.devRef .tc main_v80) : Cert.Spec.Mat 1 96) = Cert.Spec.row (kA12 m c) :=
  (host8_v80 (W14 m ρ c)).trans (congrArg Cert.Spec.row (k14_arg12 m ρ c))
theorem k15_v81 : (W15 m ρ c (Proc.devRef .tc main_v81) : Cert.Spec.Mat 1 96) = Cert.Spec.row (kA13 m c) :=
  (host8_v81 (W14 m ρ c)).trans (congrArg Cert.Spec.row (k14_arg13 m ρ c))
theorem k15_v82 : (W15 m ρ c (Proc.devRef .tc main_v82) : Cert.Spec.Mat 1 96) = Cert.Spec.meanRow (Cert.Spec.colSum (kY m c)) :=
  (host8_v82 (W14 m ρ c)).trans (congrArg Cert.Spec.meanRow (k14_v71_0 m ρ c))
theorem k15_v83 : (W15 m ρ c (Proc.devRef .tc main_v83) : Cert.Spec.Mat 1 96) = Cert.Spec.varRow (Cert.Spec.colSum (kY m c)) (Cert.Spec.colSumSq (kY m c)) :=
  (host8_v83 (W14 m ρ c)).trans (congrArg₂ Cert.Spec.varRow (k14_v71_0 m ρ c) (k14_v71_1 m ρ c))
theorem k15_v84 : (W15 m ρ c (Proc.devRef .tc main_v84) : Cert.Spec.Mat 1 64) = Cert.Spec.row (kA15 m c) :=
  (host8_v84 (W14 m ρ c)).trans (congrArg Cert.Spec.row (k14_arg15 m ρ c))
theorem k16_v85 : (W16 m ρ c (Proc.devRef .tc main_v85) : Cert.Spec.Mat 50000 64) = Cert.Spec.kernelOut (kG m c) (kA0 m c) (kA2 m c) (kA3 m c) (kA4 m c) (kA5 m c) (kA6 m c) (kA7 m c) (kA8 m c) (kA9 m c) (kA10 m c) (kA11 m c) (kA12 m c) (kA13 m c) (kA14 m c) (kA15 m c) :=
  (W16_arr m ρ c 7).trans ((val8 (V15 m ρ) c).trans (congrArg (Cert.Spec.l2n (d := 64)) (k_congr3 (Cert.Spec.mmBias (k := 96) (d := 64))
    (k_congr5 (Cert.Spec.bnRelu (d := 96)) (((W15_keep m ρ c main_v70 (by decide)).trans <| (W14_keep m ρ c main_v70 (by decide))).trans (k13_v70 m ρ c)) (k15_v80 m ρ c) (k15_v81 m ρ c) (k15_v82 m ρ c) (k15_v83 m ρ c))
    (k15_arg14 m ρ c) (k15_v84 m ρ c))))

/-- What the last region leaves in the result array: the network's value, the kernel's way. -/
theorem result : W16 (F := Ideal) m ρ c (Proc.devRef .tc main_v85)
    = Cert.Spec.kernelOut (Cert.Net.graph (m ((c.tc : Thread nD τ).loc main_arg1)))
        (m ((c.tc : Thread nD τ).loc main_arg0)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) (m ((c.tc : Thread nD τ).loc main_arg9))
        (m ((c.tc : Thread nD τ).loc main_arg10)) (m ((c.tc : Thread nD τ).loc main_arg11)) (m ((c.tc : Thread nD τ).loc main_arg12))
        (m ((c.tc : Thread nD τ).loc main_arg13)) (m ((c.tc : Thread nD τ).loc main_arg14)) (m ((c.tc : Thread nD τ).loc main_arg15)) :=
  k16_v85 m ρ c

end Cert.KernelIdeal.HostVal

end
-- ==== Proof.Ref.Ops.lean ====
/-
  The reference program as a list of host operations. Its entry function runs 251 tensor operations in order once
  each called function's body is read in place over the buffers of that call (a call of the variance function runs
  nineteen operations and then the three of the select function it calls; a call of the rectifier runs three; the call
  of the row norm runs five). The list is given in seven consecutive pieces, each with the list of references its
  operations write; the entry function equals the sequence of the whole list, every bind being re-associated by
  computation.
-/
import proofs.«115743_j55052890800725_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]
/-- Operations 1 … 41 of the program in order (the results `main_v0` … `main_v32`), a called function's operations
    listed in place over that call's buffers. -/
def ops0 : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.unary main_v10 main_v11 (Host.rsqrt : (⟨S50000, .f32⟩ : BufTy).Contents (Elt F) → (⟨S50000, .f32⟩ : BufTy).Contents (Elt F)),
    StableHlo.binary main_arg0 main_arg2 main_v12 ((fun l r => Host.dotGeneral dot_S50000x128_S128x96_S50000x96_1_0_0_1_n_n none l r) : (⟨S50000x128, .f32⟩ : BufTy).Contents (Elt F) → (⟨S128x96, .f32⟩ : BufTy).Contents (Elt F) → (⟨S50000x96, .f32⟩ : BufTy).Contents (Elt F)),
    StableHlo.nullary main_c (constantI S_ 32 0#32),
    StableHlo.unary main_c main_v13 (broadcastInDim S850000 ![] bcast_S_S850000 : (⟨S_, .i32⟩ : BufTy).Contents (Elt F) → (⟨S850000, .i32⟩ : BufTy).Contents (Elt F)),
    StableHlo.binary main_v3 main_v13 main_v14 (cmpi .slt : (⟨S850000, .i32⟩ : BufTy).Contents (Elt F) → (⟨S850000, .i32⟩ : BufTy).Contents (Elt F) → (⟨S850000, .i1⟩ : BufTy).Contents (Elt F)),
    StableHlo.nullary main_c_1 (constantI S_ 32 50000#32),
    StableHlo.unary main_c_1 main_v15 (broadcastInDim S850000 ![] bcast_S_S850000 : (⟨S_, .i32⟩ : BufTy).Contents (Elt F) → (⟨S850000, .i32⟩ : BufTy).Contents (Elt F)),
    StableHlo.binary main_v3 main_v15 main_v16 (addi : (⟨S850000, .i32⟩ : BufTy).Contents (Elt F) → (⟨S850000, .i32⟩ : BufTy).Contents (Elt F) → (⟨S850000, .i32⟩ : BufTy).Contents (Elt F)),
    StableHlo.ternary main_v14 main_v16 main_v3 main_v17 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v17 main_v18 (broadcastInDim S850000x1 ![0] bcast_S850000_S850000x1_0 : (⟨S850000, .i32⟩ : BufTy).Contents (Elt F) → (⟨S850000x1, .i32⟩ : BufTy).Contents (Elt F)),
    StableHlo.binary main_v11 main_v18 main_v19 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_2 (constantI S_ 32 0#32),
    StableHlo.unary main_c_2 main_v20 (broadcastInDim S850000 ![] bcast_S_S850000 : (⟨S_, .i32⟩ : BufTy).Contents (Elt F) → (⟨S850000, .i32⟩ : BufTy).Contents (Elt F)),
    StableHlo.binary main_v6 main_v20 main_v21 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v22 (broadcastInDim S850000 ![] bcast_S_S850000 : (⟨S_, .i32⟩ : BufTy).Contents (Elt F) → (⟨S850000, .i32⟩ : BufTy).Contents (Elt F)),
    StableHlo.binary main_v6 main_v22 main_v23 (addi : (⟨S850000, .i32⟩ : BufTy).Contents (Elt F) → (⟨S850000, .i32⟩ : BufTy).Contents (Elt F) → (⟨S850000, .i32⟩ : BufTy).Contents (Elt F)),
    StableHlo.ternary main_v21 main_v23 main_v6 main_v24 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v24 main_v25 (broadcastInDim S850000x1 ![0] bcast_S850000_S850000x1_0 : (⟨S850000, .i32⟩ : BufTy).Contents (Elt F) → (⟨S850000x1, .i32⟩ : BufTy).Contents (Elt F)),
    StableHlo.binary main_v11 main_v25 main_v26 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v19 main_v26 main_v27 (mulf : (⟨S850000, .f32⟩ : BufTy).Contents (Elt F) → (⟨S850000, .f32⟩ : BufTy).Contents (Elt F) → (⟨S850000, .f32⟩ : BufTy).Contents (Elt F)),
    StableHlo.nullary main_c_4 (constantI S_ 32 0#32),
    StableHlo.unary main_c_4 main_v28 (broadcastInDim S850000 ![] bcast_S_S850000 : (⟨S_, .i32⟩ : BufTy).Contents (Elt F) → (⟨S850000, .i32⟩ : BufTy).Contents (Elt F)),
    StableHlo.binary main_v3 main_v28 main_v29 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v30 (broadcastInDim S850000 ![] bcast_S_S850000 : (⟨S_, .i32⟩ : BufTy).Contents (Elt F) → (⟨S850000, .i32⟩ : BufTy).Contents (Elt F)),
    StableHlo.binary main_v3 main_v30 main_v31 (addi : (⟨S850000, .i32⟩ : BufTy).Contents (Elt F) → (⟨S850000, .i32⟩ : BufTy).Contents (Elt F) → (⟨S850000, .i32⟩ : BufTy).Contents (Elt F)),
    StableHlo.ternary main_v29 main_v31 main_v3 main_v32 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) ]

/-- The references `ops0`'s operations write, in order. -/
abbrev ops0_W : List (Ref sig .tc) := [main_v0, main_v1, main_v2, main_v3, main_v4, main_v5, main_v6, main_cst, main_v7, main_cst_0, main_v8, main_v9, main_v10, main_v11, main_v12, main_c, main_v13, main_v14, main_c_1, main_v15, main_v16, main_v17, main_v18, main_v19, main_c_2, main_v20, main_v21, main_c_3, main_v22, main_v23, main_v24, main_v25, main_v26, main_v27, main_c_4, main_v28, main_v29, main_c_5, main_v30, main_v31, main_v32]

/-- Operations 42 … 81 of the program in order (the results `main_v33` … `main_v47`), a called function's operations
    listed in place over that call's buffers. -/
def ops1 : List (HloOp τ sig (Elt F)) :=
  [ StableHlo.unary main_v32 main_v33 (broadcastInDim S850000x1 ![0] bcast_S850000_S850000x1_0 : (⟨S850000, .i32⟩ : BufTy).Contents (Elt F) → (⟨S850000x1, .i32⟩ : BufTy).Contents (Elt F)),
    StableHlo.binary main_v12 main_v33 main_v34 ((fun x i => Host.gather gather_S50000x96_S850000x1_S850000x96_1_0_n_n_0_1_196 x i) : (⟨S50000x96, .f32⟩ : BufTy).Contents (Elt F) → (⟨S850000x1, .i32⟩ : BufTy).Contents (Elt F) → (⟨S850000x96, .f32⟩ : BufTy).Contents (Elt F)),
    StableHlo.unary main_v27 main_v35 (broadcastInDim S850000x1 ![0] bcast_S850000_S850000x1_0 : (⟨S850000, .f32⟩ : BufTy).Contents (Elt F) → (⟨S850000x1, .f32⟩ : BufTy).Contents (Elt F)),
    StableHlo.unary main_v35 main_v36 (broadcastInDim S850000x96 ![0, 1] bcast_S850000x1_S850000x96_0_1 : (⟨S850000x1, .f32⟩ : BufTy).Contents (Elt F) → (⟨S850000x96, .f32⟩ : BufTy).Contents (Elt F)),
    StableHlo.binary main_v34 main_v36 main_v37 (mulf : (⟨S850000x96, .f32⟩ : BufTy).Contents (Elt F) → (⟨S850000x96, .f32⟩ : BufTy).Contents (Elt F) → (⟨S850000x96, .f32⟩ : BufTy).Contents (Elt F)),
    StableHlo.nullary main_cst_6 (constant S_ .f32 0x00000000#32),
    StableHlo.unary main_cst_6 main_v38 (broadcastInDim S50000x96 ![] bcast_S_S50000x96 : (⟨S_, .f32⟩ : BufTy).Contents (Elt F) → (⟨S50000x96, .f32⟩ : BufTy).Contents (Elt F)),
    StableHlo.unary main_v6 main_v39 (broadcastInDim S850000x1 ![0] bcast_S850000_S850000x1_0 : (⟨S850000, .i32⟩ : BufTy).Contents (Elt F) → (⟨S850000x1, .i32⟩ : BufTy).Contents (Elt F)),
    StableHlo.ternary main_v38 main_v39 main_v37 main_v40 ((fun x i u => Host.scatterAdd scatter_S50000x96_S850000x1_S850000x96_1_0_0_1 x i u) : (⟨S50000x96, .f32⟩ : BufTy).Contents (Elt F) → (⟨S850000x1, .i32⟩ : BufTy).Contents (Elt F) → (⟨S850000x96, .f32⟩ : BufTy).Contents (Elt F) → (⟨S50000x96, .f32⟩ : BufTy).Contents (Elt F)),
    StableHlo.unary main_arg3 main_v41 (broadcastInDim S1x96 ![1] bcast_S96_S1x96_1 : (⟨S96, .f32⟩ : BufTy).Contents (Elt F) → (⟨S1x96, .f32⟩ : BufTy).Contents (Elt F)),
    StableHlo.unary main_v41 main_v42 (broadcastInDim S50000x96 ![0, 1] bcast_S1x96_S50000x96_0_1 : (⟨S1x96, .f32⟩ : BufTy).Contents (Elt F) → (⟨S50000x96, .f32⟩ : BufTy).Contents (Elt F)),
    StableHlo.binary main_v40 main_v42 main_v43 (addf : (⟨S50000x96, .f32⟩ : BufTy).Contents (Elt F) → (⟨S50000x96, .f32⟩ : BufTy).Contents (Elt F) → (⟨S50000x96, .f32⟩ : BufTy).Contents (Elt F)),
    StableHlo.nullary main_cst_7 (constant S_ .f32 0x00000000#32),
    StableHlo.binary main_v43 main_cst_7 main_v44 ((fun x v => Host.reduceAdd x v reducesTo_S50000x96_S96_d0 h_S_) : (⟨S50000x96, .f32⟩ : BufTy).Contents (Elt F) → (⟨S_, .f32⟩ : BufTy).Contents (Elt F) → (⟨S96, .f32⟩ : BufTy).Contents (Elt F)),
    StableHlo.nullary main_cst_8 (constant S_ .f32 0x47435000#32),
    StableHlo.unary main_cst_8 main_v45 (broadcastInDim S96 ![] bcast_S_S96 : (⟨S_, .f32⟩ : BufTy).Contents (Elt F) → (⟨S96, .f32⟩ : BufTy).Contents (Elt F)),
    StableHlo.binary main_v44 main_v45 main_v46 (Host.divf : (⟨S96, .f32⟩ : BufTy).Contents (Elt F) → (⟨S96, .f32⟩ : BufTy).Contents (Elt F) → (⟨S96, .f32⟩ : BufTy).Contents (Elt F)),
    StableHlo.nullary main_c_9 (constantI S_ 32 0#32),
    StableHlo.TRef.nullary main_call0.cst (constant S_ .f32 0x00000000#32),
    StableHlo.TRef.binary (.of main_v43 : StableHlo.TRef sig ⟨S50000x96, .f32⟩) main_call0.cst main_call0.v0 (fun x v => Host.reduceAdd x v reducesTo_S50000x96_S96_d0 h_S_),
    StableHlo.TRef.unary main_call0.v0 main_call0.v1 (broadcastInDim S1x96 ![1] bcast_S96_S1x96_1),
    StableHlo.TRef.nullary main_call0.cst_0 (constant S_ .f32 0x47435000#32),
    StableHlo.TRef.unary main_call0.cst_0 main_call0.v2 (broadcastInDim S1x96 ![] bcast_S_S1x96),
    StableHlo.TRef.binary main_call0.v1 main_call0.v2 main_call0.v3 Host.divf,
    StableHlo.TRef.unary main_call0.v3 main_call0.v4 (broadcastInDim S50000x96 ![0, 1] bcast_S1x96_S50000x96_0_1),
    StableHlo.TRef.binary (.of main_v43 : StableHlo.TRef sig ⟨S50000x96, .f32⟩) main_call0.v4 main_call0.v5 subf,
    StableHlo.TRef.binary main_call0.v5 main_call0.v5 main_call0.v6 mulf,
    StableHlo.TRef.unary (.of main_c_9 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x96_S96_d0 h_S_),
    StableHlo.TRef.unary main_call0.v8 main_call0.v10 (broadcastInDim S96 ![] bcast_S_S96),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S96 ![] bcast_S_S96),
    StableHlo.TRef.ternary main_call0.v12 main_call0.v11 main_call0.call0.v1 main_call0.call0.v2 (fun p a b => select (broadcastInDim S96 ![] bcast_S_S96 p) a b) ]

/-- The references `ops1`'s operations write, in order. -/
abbrev ops1_W : List (Ref sig .tc) := [main_v33, main_v34, main_v35, main_v36, main_v37, main_cst_6, main_v38, main_v39, main_v40, main_v41, main_v42, main_v43, main_cst_7, main_v44, main_cst_8, main_v45, main_v46, main_c_9, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v47]

/-- Operations 82 … 112 of the program in order (the results `main_v48` … `main_v72`), a called function's operations
    listed in place over that call's buffers. -/
def ops2 : List (HloOp τ sig (Elt F)) :=
  [ StableHlo.unary main_v46 main_v48 (broadcastInDim S1x96 ![1] bcast_S96_S1x96_1 : (⟨S96, .f32⟩ : BufTy).Contents (Elt F) → (⟨S1x96, .f32⟩ : BufTy).Contents (Elt F)),
    StableHlo.unary main_v48 main_v49 (broadcastInDim S50000x96 ![0, 1] bcast_S1x96_S50000x96_0_1 : (⟨S1x96, .f32⟩ : BufTy).Contents (Elt F) → (⟨S50000x96, .f32⟩ : BufTy).Contents (Elt F)),
    StableHlo.binary main_v43 main_v49 main_v50 (subf : (⟨S50000x96, .f32⟩ : BufTy).Contents (Elt F) → (⟨S50000x96, .f32⟩ : BufTy).Contents (Elt F) → (⟨S50000x96, .f32⟩ : BufTy).Contents (Elt F)),
    StableHlo.unary main_arg4 main_v51 (broadcastInDim S1x96 ![1] bcast_S96_S1x96_1 : (⟨S96, .f32⟩ : BufTy).Contents (Elt F) → (⟨S1x96, .f32⟩ : BufTy).Contents (Elt F)),
    StableHlo.unary main_v51 main_v52 (broadcastInDim S50000x96 ![0, 1] bcast_S1x96_S50000x96_0_1 : (⟨S1x96, .f32⟩ : BufTy).Contents (Elt F) → (⟨S50000x96, .f32⟩ : BufTy).Contents (Elt F)),
    StableHlo.binary main_v52 main_v50 main_v53 (mulf : (⟨S50000x96, .f32⟩ : BufTy).Contents (Elt F) → (⟨S50000x96, .f32⟩ : BufTy).Contents (Elt F) → (⟨S50000x96, .f32⟩ : BufTy).Contents (Elt F)),
    StableHlo.nullary main_cst_10 (constant S_ .f32 0x3727C5AC#32),
    StableHlo.unary main_cst_10 main_v54 (broadcastInDim S96 ![] bcast_S_S96 : (⟨S_, .f32⟩ : BufTy).Contents (Elt F) → (⟨S96, .f32⟩ : BufTy).Contents (Elt F)),
    StableHlo.binary main_v47 main_v54 main_v55 (addf : (⟨S96, .f32⟩ : BufTy).Contents (Elt F) → (⟨S96, .f32⟩ : BufTy).Contents (Elt F) → (⟨S96, .f32⟩ : BufTy).Contents (Elt F)),
    StableHlo.unary main_v55 main_v56 (Host.rsqrt : (⟨S96, .f32⟩ : BufTy).Contents (Elt F) → (⟨S96, .f32⟩ : BufTy).Contents (Elt F)),
    StableHlo.unary main_v56 main_v57 (broadcastInDim S1x96 ![1] bcast_S96_S1x96_1 : (⟨S96, .f32⟩ : BufTy).Contents (Elt F) → (⟨S1x96, .f32⟩ : BufTy).Contents (Elt F)),
    StableHlo.unary main_v57 main_v58 (broadcastInDim S50000x96 ![0, 1] bcast_S1x96_S50000x96_0_1 : (⟨S1x96, .f32⟩ : BufTy).Contents (Elt F) → (⟨S50000x96, .f32⟩ : BufTy).Contents (Elt F)),
    StableHlo.binary main_v53 main_v58 main_v59 (mulf : (⟨S50000x96, .f32⟩ : BufTy).Contents (Elt F) → (⟨S50000x96, .f32⟩ : BufTy).Contents (Elt F) → (⟨S50000x96, .f32⟩ : BufTy).Contents (Elt F)),
    StableHlo.unary main_arg5 main_v60 (broadcastInDim S1x96 ![1] bcast_S96_S1x96_1 : (⟨S96, .f32⟩ : BufTy).Contents (Elt F) → (⟨S1x96, .f32⟩ : BufTy).Contents (Elt F)),
    StableHlo.unary main_v60 main_v61 (broadcastInDim S50000x96 ![0, 1] bcast_S1x96_S50000x96_0_1 : (⟨S1x96, .f32⟩ : BufTy).Contents (Elt F) → (⟨S50000x96, .f32⟩ : BufTy).Contents (Elt F)),
    StableHlo.binary main_v59 main_v61 main_v62 (addf : (⟨S50000x96, .f32⟩ : BufTy).Contents (Elt F) → (⟨S50000x96, .f32⟩ : BufTy).Contents (Elt F) → (⟨S50000x96, .f32⟩ : BufTy).Contents (Elt F)),
    StableHlo.TRef.nullary main_call1.cst (constant S_ .f32 0x00000000#32),
    StableHlo.TRef.unary main_call1.cst main_call1.v0 (broadcastInDim S50000x96 ![] bcast_S_S50000x96),
    StableHlo.TRef.binary (.of main_v62 : StableHlo.TRef sig ⟨S50000x96, .f32⟩) main_call1.v0 main_call1.v1 maximumf,
    StableHlo.binary main_v63 main_arg6 main_v64 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.nullary main_c_11 (constantI S_ 32 0#32),
    StableHlo.unary main_c_11 main_v65 (broadcastInDim S850000 ![] bcast_S_S850000 : (⟨S_, .i32⟩ : BufTy).Contents (Elt F) → (⟨S850000, .i32⟩ : BufTy).Contents (Elt F)),
    StableHlo.binary main_v3 main_v65 main_v66 (cmpi .slt : (⟨S850000, .i32⟩ : BufTy).Contents (Elt F) → (⟨S850000, .i32⟩ : BufTy).Contents (Elt F) → (⟨S850000, .i1⟩ : BufTy).Contents (Elt F)),
    StableHlo.nullary main_c_12 (constantI S_ 32 50000#32),
    StableHlo.unary main_c_12 main_v67 (broadcastInDim S850000 ![] bcast_S_S850000 : (⟨S_, .i32⟩ : BufTy).Contents (Elt F) → (⟨S850000, .i32⟩ : BufTy).Contents (Elt F)),
    StableHlo.binary main_v3 main_v67 main_v68 (addi : (⟨S850000, .i32⟩ : BufTy).Contents (Elt F) → (⟨S850000, .i32⟩ : BufTy).Contents (Elt F) → (⟨S850000, .i32⟩ : BufTy).Contents (Elt F)),
    StableHlo.ternary main_v66 main_v68 main_v3 main_v69 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v69 main_v70 (broadcastInDim S850000x1 ![0] bcast_S850000_S850000x1_0 : (⟨S850000, .i32⟩ : BufTy).Contents (Elt F) → (⟨S850000x1, .i32⟩ : BufTy).Contents (Elt F)),
    StableHlo.binary main_v11 main_v70 main_v71 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_13 (constantI S_ 32 0#32),
    StableHlo.unary main_c_13 main_v72 (broadcastInDim S850000 ![] bcast_S_S850000 : (⟨S_, .i32⟩ : BufTy).Contents (Elt F) → (⟨S850000, .i32⟩ : BufTy).Contents (Elt F)) ]

/-- The references `ops2`'s operations write, in order. -/
abbrev ops2_W : List (Ref sig .tc) := [main_v48, main_v49, main_v50, main_v51, main_v52, main_v53, main_cst_10, main_v54, main_v55, main_v56, main_v57, main_v58, main_v59, main_v60, main_v61, main_v62, main_call1_cst, main_call1_v0, main_v63, main_v64, main_c_11, main_v65, main_v66, main_c_12, main_v67, main_v68, main_v69, main_v70, main_v71, main_c_13, main_v72]

/-- Operations 113 … 143 of the program in order (the results `main_v73` … `main_v97`), a called function's operations
    listed in place over that call's buffers. -/
def ops3 : List (HloOp τ sig (Elt F)) :=
  [ StableHlo.binary main_v6 main_v72 main_v73 (cmpi .slt : (⟨S850000, .i32⟩ : BufTy).Contents (Elt F) → (⟨S850000, .i32⟩ : BufTy).Contents (Elt F) → (⟨S850000, .i1⟩ : BufTy).Contents (Elt F)),
    StableHlo.nullary main_c_14 (constantI S_ 32 50000#32),
    StableHlo.unary main_c_14 main_v74 (broadcastInDim S850000 ![] bcast_S_S850000 : (⟨S_, .i32⟩ : BufTy).Contents (Elt F) → (⟨S850000, .i32⟩ : BufTy).Contents (Elt F)),
    StableHlo.binary main_v6 main_v74 main_v75 (addi : (⟨S850000, .i32⟩ : BufTy).Contents (Elt F) → (⟨S850000, .i32⟩ : BufTy).Contents (Elt F) → (⟨S850000, .i32⟩ : BufTy).Contents (Elt F)),
    StableHlo.ternary main_v73 main_v75 main_v6 main_v76 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v76 main_v77 (broadcastInDim S850000x1 ![0] bcast_S850000_S850000x1_0 : (⟨S850000, .i32⟩ : BufTy).Contents (Elt F) → (⟨S850000x1, .i32⟩ : BufTy).Contents (Elt F)),
    StableHlo.binary main_v11 main_v77 main_v78 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v71 main_v78 main_v79 (mulf : (⟨S850000, .f32⟩ : BufTy).Contents (Elt F) → (⟨S850000, .f32⟩ : BufTy).Contents (Elt F) → (⟨S850000, .f32⟩ : BufTy).Contents (Elt F)),
    StableHlo.nullary main_c_15 (constantI S_ 32 0#32),
    StableHlo.unary main_c_15 main_v80 (broadcastInDim S850000 ![] bcast_S_S850000 : (⟨S_, .i32⟩ : BufTy).Contents (Elt F) → (⟨S850000, .i32⟩ : BufTy).Contents (Elt F)),
    StableHlo.binary main_v3 main_v80 main_v81 (cmpi .slt : (⟨S850000, .i32⟩ : BufTy).Contents (Elt F) → (⟨S850000, .i32⟩ : BufTy).Contents (Elt F) → (⟨S850000, .i1⟩ : BufTy).Contents (Elt F)),
    StableHlo.nullary main_c_16 (constantI S_ 32 50000#32),
    StableHlo.unary main_c_16 main_v82 (broadcastInDim S850000 ![] bcast_S_S850000 : (⟨S_, .i32⟩ : BufTy).Contents (Elt F) → (⟨S850000, .i32⟩ : BufTy).Contents (Elt F)),
    StableHlo.binary main_v3 main_v82 main_v83 (addi : (⟨S850000, .i32⟩ : BufTy).Contents (Elt F) → (⟨S850000, .i32⟩ : BufTy).Contents (Elt F) → (⟨S850000, .i32⟩ : BufTy).Contents (Elt F)),
    StableHlo.ternary main_v81 main_v83 main_v3 main_v84 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v84 main_v85 (broadcastInDim S850000x1 ![0] bcast_S850000_S850000x1_0 : (⟨S850000, .i32⟩ : BufTy).Contents (Elt F) → (⟨S850000x1, .i32⟩ : BufTy).Contents (Elt F)),
    StableHlo.binary main_v64 main_v85 main_v86 ((fun x i => Host.gather gather_S50000x96_S850000x1_S850000x96_1_0_n_n_0_1_196 x i) : (⟨S50000x96, .f32⟩ : BufTy).Contents (Elt F) → (⟨S850000x1, .i32⟩ : BufTy).Contents (Elt F) → (⟨S850000x96, .f32⟩ : BufTy).Contents (Elt F)),
    StableHlo.unary main_v79 main_v87 (broadcastInDim S850000x1 ![0] bcast_S850000_S850000x1_0 : (⟨S850000, .f32⟩ : BufTy).Contents (Elt F) → (⟨S850000x1, .f32⟩ : BufTy).Contents (Elt F)),
    StableHlo.unary main_v87 main_v88 (broadcastInDim S850000x96 ![0, 1] bcast_S850000x1_S850000x96_0_1 : (⟨S850000x1, .f32⟩ : BufTy).Contents (Elt F) → (⟨S850000x96, .f32⟩ : BufTy).Contents (Elt F)),
    StableHlo.binary main_v86 main_v88 main_v89 (mulf : (⟨S850000x96, .f32⟩ : BufTy).Contents (Elt F) → (⟨S850000x96, .f32⟩ : BufTy).Contents (Elt F) → (⟨S850000x96, .f32⟩ : BufTy).Contents (Elt F)),
    StableHlo.nullary main_cst_17 (constant S_ .f32 0x00000000#32),
    StableHlo.unary main_cst_17 main_v90 (broadcastInDim S50000x96 ![] bcast_S_S50000x96 : (⟨S_, .f32⟩ : BufTy).Contents (Elt F) → (⟨S50000x96, .f32⟩ : BufTy).Contents (Elt F)),
    StableHlo.unary main_v6 main_v91 (broadcastInDim S850000x1 ![0] bcast_S850000_S850000x1_0 : (⟨S850000, .i32⟩ : BufTy).Contents (Elt F) → (⟨S850000x1, .i32⟩ : BufTy).Contents (Elt F)),
    StableHlo.ternary main_v90 main_v91 main_v89 main_v92 ((fun x i u => Host.scatterAdd scatter_S50000x96_S850000x1_S850000x96_1_0_0_1 x i u) : (⟨S50000x96, .f32⟩ : BufTy).Contents (Elt F) → (⟨S850000x1, .i32⟩ : BufTy).Contents (Elt F) → (⟨S850000x96, .f32⟩ : BufTy).Contents (Elt F) → (⟨S50000x96, .f32⟩ : BufTy).Contents (Elt F)),
    StableHlo.unary main_arg7 main_v93 (broadcastInDim S1x96 ![1] bcast_S96_S1x96_1 : (⟨S96, .f32⟩ : BufTy).Contents (Elt F) → (⟨S1x96, .f32⟩ : BufTy).Contents (Elt F)),
    StableHlo.unary main_v93 main_v94 (broadcastInDim S50000x96 ![0, 1] bcast_S1x96_S50000x96_0_1 : (⟨S1x96, .f32⟩ : BufTy).Contents (Elt F) → (⟨S50000x96, .f32⟩ : BufTy).Contents (Elt F)),
    StableHlo.binary main_v92 main_v94 main_v95 (addf : (⟨S50000x96, .f32⟩ : BufTy).Contents (Elt F) → (⟨S50000x96, .f32⟩ : BufTy).Contents (Elt F) → (⟨S50000x96, .f32⟩ : BufTy).Contents (Elt F)),
    StableHlo.nullary main_cst_18 (constant S_ .f32 0x00000000#32),
    StableHlo.binary main_v95 main_cst_18 main_v96 ((fun x v => Host.reduceAdd x v reducesTo_S50000x96_S96_d0 h_S_) : (⟨S50000x96, .f32⟩ : BufTy).Contents (Elt F) → (⟨S_, .f32⟩ : BufTy).Contents (Elt F) → (⟨S96, .f32⟩ : BufTy).Contents (Elt F)),
    StableHlo.nullary main_cst_19 (constant S_ .f32 0x47435000#32),
    StableHlo.unary main_cst_19 main_v97 (broadcastInDim S96 ![] bcast_S_S96 : (⟨S_, .f32⟩ : BufTy).Contents (Elt F) → (⟨S96, .f32⟩ : BufTy).Contents (Elt F)) ]

/-- The references `ops3`'s operations write, in order. -/
abbrev ops3_W : List (Ref sig .tc) := [main_v73, main_c_14, main_v74, main_v75, main_v76, main_v77, main_v78, main_v79, main_c_15, main_v80, main_v81, main_c_16, main_v82, main_v83, main_v84, main_v85, main_v86, main_v87, main_v88, main_v89, main_cst_17, main_v90, main_v91, main_v92, main_v93, main_v94, main_v95, main_cst_18, main_v96, main_cst_19, main_v97]

/-- Operations 144 … 179 of the program in order (the results `main_v98` … `main_v110`), a called function's operations
    listed in place over that call's buffers. -/
def ops4 : List (HloOp τ sig (Elt F)) :=
  [ StableHlo.binary main_v96 main_v97 main_v98 (Host.divf : (⟨S96, .f32⟩ : BufTy).Contents (Elt F) → (⟨S96, .f32⟩ : BufTy).Contents (Elt F) → (⟨S96, .f32⟩ : BufTy).Contents (Elt F)),
    StableHlo.nullary main_c_20 (constantI S_ 32 0#32),
    StableHlo.TRef.nullary main_call2.cst (constant S_ .f32 0x00000000#32),
    StableHlo.TRef.binary (.of main_v95 : StableHlo.TRef sig ⟨S50000x96, .f32⟩) main_call2.cst main_call2.v0 (fun x v => Host.reduceAdd x v reducesTo_S50000x96_S96_d0 h_S_),
    StableHlo.TRef.unary main_call2.v0 main_call2.v1 (broadcastInDim S1x96 ![1] bcast_S96_S1x96_1),
    StableHlo.TRef.nullary main_call2.cst_0 (constant S_ .f32 0x47435000#32),
    StableHlo.TRef.unary main_call2.cst_0 main_call2.v2 (broadcastInDim S1x96 ![] bcast_S_S1x96),
    StableHlo.TRef.binary main_call2.v1 main_call2.v2 main_call2.v3 Host.divf,
    StableHlo.TRef.unary main_call2.v3 main_call2.v4 (broadcastInDim S50000x96 ![0, 1] bcast_S1x96_S50000x96_0_1),
    StableHlo.TRef.binary (.of main_v95 : StableHlo.TRef sig ⟨S50000x96, .f32⟩) main_call2.v4 main_call2.v5 subf,
    StableHlo.TRef.binary main_call2.v5 main_call2.v5 main_call2.v6 mulf,
    StableHlo.TRef.unary (.of main_c_20 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x96_S96_d0 h_S_),
    StableHlo.TRef.unary main_call2.v8 main_call2.v10 (broadcastInDim S96 ![] bcast_S_S96),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S96 ![] bcast_S_S96),
    StableHlo.TRef.ternary main_call2.v12 main_call2.v11 main_call2.call0.v1 main_call2.call0.v2 (fun p a b => select (broadcastInDim S96 ![] bcast_S_S96 p) a b),
    StableHlo.unary main_v98 main_v100 (broadcastInDim S1x96 ![1] bcast_S96_S1x96_1 : (⟨S96, .f32⟩ : BufTy).Contents (Elt F) → (⟨S1x96, .f32⟩ : BufTy).Contents (Elt F)),
    StableHlo.unary main_v100 main_v101 (broadcastInDim S50000x96 ![0, 1] bcast_S1x96_S50000x96_0_1 : (⟨S1x96, .f32⟩ : BufTy).Contents (Elt F) → (⟨S50000x96, .f32⟩ : BufTy).Contents (Elt F)),
    StableHlo.binary main_v95 main_v101 main_v102 (subf : (⟨S50000x96, .f32⟩ : BufTy).Contents (Elt F) → (⟨S50000x96, .f32⟩ : BufTy).Contents (Elt F) → (⟨S50000x96, .f32⟩ : BufTy).Contents (Elt F)),
    StableHlo.unary main_arg8 main_v103 (broadcastInDim S1x96 ![1] bcast_S96_S1x96_1 : (⟨S96, .f32⟩ : BufTy).Contents (Elt F) → (⟨S1x96, .f32⟩ : BufTy).Contents (Elt F)),
    StableHlo.unary main_v103 main_v104 (broadcastInDim S50000x96 ![0, 1] bcast_S1x96_S50000x96_0_1 : (⟨S1x96, .f32⟩ : BufTy).Contents (Elt F) → (⟨S50000x96, .f32⟩ : BufTy).Contents (Elt F)),
    StableHlo.binary main_v104 main_v102 main_v105 (mulf : (⟨S50000x96, .f32⟩ : BufTy).Contents (Elt F) → (⟨S50000x96, .f32⟩ : BufTy).Contents (Elt F) → (⟨S50000x96, .f32⟩ : BufTy).Contents (Elt F)),
    StableHlo.nullary main_cst_21 (constant S_ .f32 0x3727C5AC#32),
    StableHlo.unary main_cst_21 main_v106 (broadcastInDim S96 ![] bcast_S_S96 : (⟨S_, .f32⟩ : BufTy).Contents (Elt F) → (⟨S96, .f32⟩ : BufTy).Contents (Elt F)),
    StableHlo.binary main_v99 main_v106 main_v107 (addf : (⟨S96, .f32⟩ : BufTy).Contents (Elt F) → (⟨S96, .f32⟩ : BufTy).Contents (Elt F) → (⟨S96, .f32⟩ : BufTy).Contents (Elt F)),
    StableHlo.unary main_v107 main_v108 (Host.rsqrt : (⟨S96, .f32⟩ : BufTy).Contents (Elt F) → (⟨S96, .f32⟩ : BufTy).Contents (Elt F)),
    StableHlo.unary main_v108 main_v109 (broadcastInDim S1x96 ![1] bcast_S96_S1x96_1 : (⟨S96, .f32⟩ : BufTy).Contents (Elt F) → (⟨S1x96, .f32⟩ : BufTy).Contents (Elt F)),
    StableHlo.unary main_v109 main_v110 (broadcastInDim S50000x96 ![0, 1] bcast_S1x96_S50000x96_0_1 : (⟨S1x96, .f32⟩ : BufTy).Contents (Elt F) → (⟨S50000x96, .f32⟩ : BufTy).Contents (Elt F)) ]

/-- The references `ops4`'s operations write, in order. -/
abbrev ops4_W : List (Ref sig .tc) := [main_v98, main_c_20, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v99, main_v100, main_v101, main_v102, main_v103, main_v104, main_v105, main_cst_21, main_v106, main_v107, main_v108, main_v109, main_v110]

/-- Operations 180 … 215 of the program in order (the results `main_v111` … `main_call4_cst_4`), a called function's operations
    listed in place over that call's buffers. -/
def ops5 : List (HloOp τ sig (Elt F)) :=
  [ StableHlo.binary main_v105 main_v110 main_v111 (mulf : (⟨S50000x96, .f32⟩ : BufTy).Contents (Elt F) → (⟨S50000x96, .f32⟩ : BufTy).Contents (Elt F) → (⟨S50000x96, .f32⟩ : BufTy).Contents (Elt F)),
    StableHlo.unary main_arg9 main_v112 (broadcastInDim S1x96 ![1] bcast_S96_S1x96_1 : (⟨S96, .f32⟩ : BufTy).Contents (Elt F) → (⟨S1x96, .f32⟩ : BufTy).Contents (Elt F)),
    StableHlo.unary main_v112 main_v113 (broadcastInDim S50000x96 ![0, 1] bcast_S1x96_S50000x96_0_1 : (⟨S1x96, .f32⟩ : BufTy).Contents (Elt F) → (⟨S50000x96, .f32⟩ : BufTy).Contents (Elt F)),
    StableHlo.binary main_v111 main_v113 main_v114 (addf : (⟨S50000x96, .f32⟩ : BufTy).Contents (Elt F) → (⟨S50000x96, .f32⟩ : BufTy).Contents (Elt F) → (⟨S50000x96, .f32⟩ : BufTy).Contents (Elt F)),
    StableHlo.TRef.nullary main_call3.cst (constant S_ .f32 0x00000000#32),
    StableHlo.TRef.unary main_call3.cst main_call3.v0 (broadcastInDim S50000x96 ![] bcast_S_S50000x96),
    StableHlo.TRef.binary (.of main_v114 : StableHlo.TRef sig ⟨S50000x96, .f32⟩) main_call3.v0 main_call3.v1 maximumf,
    StableHlo.binary main_v115 main_arg10 main_v116 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.unary main_arg11 main_v117 (broadcastInDim S1x96 ![1] bcast_S96_S1x96_1 : (⟨S96, .f32⟩ : BufTy).Contents (Elt F) → (⟨S1x96, .f32⟩ : BufTy).Contents (Elt F)),
    StableHlo.unary main_v117 main_v118 (broadcastInDim S50000x96 ![0, 1] bcast_S1x96_S50000x96_0_1 : (⟨S1x96, .f32⟩ : BufTy).Contents (Elt F) → (⟨S50000x96, .f32⟩ : BufTy).Contents (Elt F)),
    StableHlo.binary main_v116 main_v118 main_v119 (addf : (⟨S50000x96, .f32⟩ : BufTy).Contents (Elt F) → (⟨S50000x96, .f32⟩ : BufTy).Contents (Elt F) → (⟨S50000x96, .f32⟩ : BufTy).Contents (Elt F)),
    StableHlo.nullary main_cst_22 (constant S_ .f32 0x00000000#32),
    StableHlo.binary main_v119 main_cst_22 main_v120 ((fun x v => Host.reduceAdd x v reducesTo_S50000x96_S96_d0 h_S_) : (⟨S50000x96, .f32⟩ : BufTy).Contents (Elt F) → (⟨S_, .f32⟩ : BufTy).Contents (Elt F) → (⟨S96, .f32⟩ : BufTy).Contents (Elt F)),
    StableHlo.nullary main_cst_23 (constant S_ .f32 0x47435000#32),
    StableHlo.unary main_cst_23 main_v121 (broadcastInDim S96 ![] bcast_S_S96 : (⟨S_, .f32⟩ : BufTy).Contents (Elt F) → (⟨S96, .f32⟩ : BufTy).Contents (Elt F)),
    StableHlo.binary main_v120 main_v121 main_v122 (Host.divf : (⟨S96, .f32⟩ : BufTy).Contents (Elt F) → (⟨S96, .f32⟩ : BufTy).Contents (Elt F) → (⟨S96, .f32⟩ : BufTy).Contents (Elt F)),
    StableHlo.nullary main_c_24 (constantI S_ 32 0#32),
    StableHlo.TRef.nullary main_call4.cst (constant S_ .f32 0x00000000#32),
    StableHlo.TRef.binary (.of main_v119 : StableHlo.TRef sig ⟨S50000x96, .f32⟩) main_call4.cst main_call4.v0 (fun x v => Host.reduceAdd x v reducesTo_S50000x96_S96_d0 h_S_),
    StableHlo.TRef.unary main_call4.v0 main_call4.v1 (broadcastInDim S1x96 ![1] bcast_S96_S1x96_1),
    StableHlo.TRef.nullary main_call4.cst_0 (constant S_ .f32 0x47435000#32),
    StableHlo.TRef.unary main_call4.cst_0 main_call4.v2 (broadcastInDim S1x96 ![] bcast_S_S1x96),
    StableHlo.TRef.binary main_call4.v1 main_call4.v2 main_call4.v3 Host.divf,
    StableHlo.TRef.unary main_call4.v3 main_call4.v4 (broadcastInDim S50000x96 ![0, 1] bcast_S1x96_S50000x96_0_1),
    StableHlo.TRef.binary (.of main_v119 : StableHlo.TRef sig ⟨S50000x96, .f32⟩) main_call4.v4 main_call4.v5 subf,
    StableHlo.TRef.binary main_call4.v5 main_call4.v5 main_call4.v6 mulf,
    StableHlo.TRef.unary (.of main_c_24 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x96_S96_d0 h_S_),
    StableHlo.TRef.unary main_call4.v8 main_call4.v10 (broadcastInDim S96 ![] bcast_S_S96),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32) ]

/-- The references `ops5`'s operations write, in order. -/
abbrev ops5_W : List (Ref sig .tc) := [main_v111, main_v112, main_v113, main_v114, main_call3_cst, main_call3_v0, main_v115, main_v116, main_v117, main_v118, main_v119, main_cst_22, main_v120, main_cst_23, main_v121, main_v122, main_c_24, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4]

/-- Operations 216 … 251 of the program in order (the results `main_call4_call0_v0` … `main_v148`), a called function's operations
    listed in place over that call's buffers. -/
def ops6 : List (HloOp τ sig (Elt F)) :=
  [ StableHlo.TRef.unary main_call4.cst_4 main_call4.call0.v0 id,
    StableHlo.TRef.unary main_call4.call0.v0 main_call4.call0.v1 (broadcastInDim S96 ![] bcast_S_S96),
    StableHlo.TRef.ternary main_call4.v12 main_call4.v11 main_call4.call0.v1 main_call4.call0.v2 (fun p a b => select (broadcastInDim S96 ![] bcast_S_S96 p) a b),
    StableHlo.unary main_v122 main_v124 (broadcastInDim S1x96 ![1] bcast_S96_S1x96_1 : (⟨S96, .f32⟩ : BufTy).Contents (Elt F) → (⟨S1x96, .f32⟩ : BufTy).Contents (Elt F)),
    StableHlo.unary main_v124 main_v125 (broadcastInDim S50000x96 ![0, 1] bcast_S1x96_S50000x96_0_1 : (⟨S1x96, .f32⟩ : BufTy).Contents (Elt F) → (⟨S50000x96, .f32⟩ : BufTy).Contents (Elt F)),
    StableHlo.binary main_v119 main_v125 main_v126 (subf : (⟨S50000x96, .f32⟩ : BufTy).Contents (Elt F) → (⟨S50000x96, .f32⟩ : BufTy).Contents (Elt F) → (⟨S50000x96, .f32⟩ : BufTy).Contents (Elt F)),
    StableHlo.unary main_arg12 main_v127 (broadcastInDim S1x96 ![1] bcast_S96_S1x96_1 : (⟨S96, .f32⟩ : BufTy).Contents (Elt F) → (⟨S1x96, .f32⟩ : BufTy).Contents (Elt F)),
    StableHlo.unary main_v127 main_v128 (broadcastInDim S50000x96 ![0, 1] bcast_S1x96_S50000x96_0_1 : (⟨S1x96, .f32⟩ : BufTy).Contents (Elt F) → (⟨S50000x96, .f32⟩ : BufTy).Contents (Elt F)),
    StableHlo.binary main_v128 main_v126 main_v129 (mulf : (⟨S50000x96, .f32⟩ : BufTy).Contents (Elt F) → (⟨S50000x96, .f32⟩ : BufTy).Contents (Elt F) → (⟨S50000x96, .f32⟩ : BufTy).Contents (Elt F)),
    StableHlo.nullary main_cst_25 (constant S_ .f32 0x3727C5AC#32),
    StableHlo.unary main_cst_25 main_v130 (broadcastInDim S96 ![] bcast_S_S96 : (⟨S_, .f32⟩ : BufTy).Contents (Elt F) → (⟨S96, .f32⟩ : BufTy).Contents (Elt F)),
    StableHlo.binary main_v123 main_v130 main_v131 (addf : (⟨S96, .f32⟩ : BufTy).Contents (Elt F) → (⟨S96, .f32⟩ : BufTy).Contents (Elt F) → (⟨S96, .f32⟩ : BufTy).Contents (Elt F)),
    StableHlo.unary main_v131 main_v132 (Host.rsqrt : (⟨S96, .f32⟩ : BufTy).Contents (Elt F) → (⟨S96, .f32⟩ : BufTy).Contents (Elt F)),
    StableHlo.unary main_v132 main_v133 (broadcastInDim S1x96 ![1] bcast_S96_S1x96_1 : (⟨S96, .f32⟩ : BufTy).Contents (Elt F) → (⟨S1x96, .f32⟩ : BufTy).Contents (Elt F)),
    StableHlo.unary main_v133 main_v134 (broadcastInDim S50000x96 ![0, 1] bcast_S1x96_S50000x96_0_1 : (⟨S1x96, .f32⟩ : BufTy).Contents (Elt F) → (⟨S50000x96, .f32⟩ : BufTy).Contents (Elt F)),
    StableHlo.binary main_v129 main_v134 main_v135 (mulf : (⟨S50000x96, .f32⟩ : BufTy).Contents (Elt F) → (⟨S50000x96, .f32⟩ : BufTy).Contents (Elt F) → (⟨S50000x96, .f32⟩ : BufTy).Contents (Elt F)),
    StableHlo.unary main_arg13 main_v136 (broadcastInDim S1x96 ![1] bcast_S96_S1x96_1 : (⟨S96, .f32⟩ : BufTy).Contents (Elt F) → (⟨S1x96, .f32⟩ : BufTy).Contents (Elt F)),
    StableHlo.unary main_v136 main_v137 (broadcastInDim S50000x96 ![0, 1] bcast_S1x96_S50000x96_0_1 : (⟨S1x96, .f32⟩ : BufTy).Contents (Elt F) → (⟨S50000x96, .f32⟩ : BufTy).Contents (Elt F)),
    StableHlo.binary main_v135 main_v137 main_v138 (addf : (⟨S50000x96, .f32⟩ : BufTy).Contents (Elt F) → (⟨S50000x96, .f32⟩ : BufTy).Contents (Elt F) → (⟨S50000x96, .f32⟩ : BufTy).Contents (Elt F)),
    StableHlo.TRef.nullary main_call5.cst (constant S_ .f32 0x00000000#32),
    StableHlo.TRef.unary main_call5.cst main_call5.v0 (broadcastInDim S50000x96 ![] bcast_S_S50000x96),
    StableHlo.TRef.binary (.of main_v138 : StableHlo.TRef sig ⟨S50000x96, .f32⟩) main_call5.v0 main_call5.v1 maximumf,
    StableHlo.binary main_v139 main_arg14 main_v140 ((fun l r => Host.dotGeneral dot_S50000x96_S96x64_S50000x64_1_0_0_1_n_n none l r) : (⟨S50000x96, .f32⟩ : BufTy).Contents (Elt F) → (⟨S96x64, .f32⟩ : BufTy).Contents (Elt F) → (⟨S50000x64, .f32⟩ : BufTy).Contents (Elt F)),
    StableHlo.unary main_arg15 main_v141 (broadcastInDim S1x64 ![1] bcast_S64_S1x64_1 : (⟨S64, .f32⟩ : BufTy).Contents (Elt F) → (⟨S1x64, .f32⟩ : BufTy).Contents (Elt F)),
    StableHlo.unary main_v141 main_v142 (broadcastInDim S50000x64 ![0, 1] bcast_S1x64_S50000x64_0_1 : (⟨S1x64, .f32⟩ : BufTy).Contents (Elt F) → (⟨S50000x64, .f32⟩ : BufTy).Contents (Elt F)),
    StableHlo.binary main_v140 main_v142 main_v143 (addf : (⟨S50000x64, .f32⟩ : BufTy).Contents (Elt F) → (⟨S50000x64, .f32⟩ : BufTy).Contents (Elt F) → (⟨S50000x64, .f32⟩ : BufTy).Contents (Elt F)),
    StableHlo.TRef.binary (.of main_v143 : StableHlo.TRef sig ⟨S50000x64, .f32⟩) (.of main_v143 : StableHlo.TRef sig ⟨S50000x64, .f32⟩) main_call6.v0 mulf,
    StableHlo.TRef.nullary main_call6.cst (constant S_ .f32 0x00000000#32),
    StableHlo.TRef.binary main_call6.v0 main_call6.cst main_call6.v1 (fun x v => Host.reduceAdd x v reducesTo_S50000x64_S50000_d1 h_S_),
    StableHlo.TRef.unary main_call6.v1 main_call6.v2 (broadcastInDim S50000x1 ![0] bcast_S50000_S50000x1_0),
    StableHlo.TRef.unary main_call6.v2 main_call6.v3 Host.sqrt,
    StableHlo.nullary main_cst_26 (constant S_ .f32 0x2B8CBCCC#32),
    StableHlo.unary main_cst_26 main_v145 (broadcastInDim S50000x1 ![] bcast_S_S50000x1 : (⟨S_, .f32⟩ : BufTy).Contents (Elt F) → (⟨S50000x1, .f32⟩ : BufTy).Contents (Elt F)),
    StableHlo.binary main_v144 main_v145 main_v146 (maximumf : (⟨S50000x1, .f32⟩ : BufTy).Contents (Elt F) → (⟨S50000x1, .f32⟩ : BufTy).Contents (Elt F) → (⟨S50000x1, .f32⟩ : BufTy).Contents (Elt F)),
    StableHlo.unary main_v146 main_v147 (broadcastInDim S50000x64 ![0, 1] bcast_S50000x1_S50000x64_0_1 : (⟨S50000x1, .f32⟩ : BufTy).Contents (Elt F) → (⟨S50000x64, .f32⟩ : BufTy).Contents (Elt F)),
    StableHlo.binary main_v143 main_v147 main_v148 (Host.divf : (⟨S50000x64, .f32⟩ : BufTy).Contents (Elt F) → (⟨S50000x64, .f32⟩ : BufTy).Contents (Elt F) → (⟨S50000x64, .f32⟩ : BufTy).Contents (Elt F)) ]

/-- The references `ops6`'s operations write, in order. -/
abbrev ops6_W : List (Ref sig .tc) := [main_call4_call0_v0, main_call4_call0_v1, main_v123, main_v124, main_v125, main_v126, main_v127, main_v128, main_v129, main_cst_25, main_v130, main_v131, main_v132, main_v133, main_v134, main_v135, main_v136, main_v137, main_v138, main_call5_cst, main_call5_v0, main_v139, main_v140, main_v141, main_v142, main_v143, main_call6_v0, main_call6_cst, main_call6_v1, main_call6_v2, main_v144, main_cst_26, main_v145, main_v146, main_v147, main_v148]

/-- The whole program's operations, in order. -/
abbrev ops : List (HloOp τ sig (Elt F)) := ops0 ++ ops1 ++ ops2 ++ ops3 ++ ops4 ++ ops5 ++ ops6

/-- The references the program's operations write, in order: every buffer but the sixteen arguments. -/
abbrev ops_W : List (Ref sig .tc) := ops0_W ++ ops1_W ++ ops2_W ++ ops3_W ++ ops4_W ++ ops5_W ++ ops6_W

set_option maxRecDepth 8192 in
/-- Statements 1 … 60 of the entry function are the sequence of pieces 0, 1: both sides compute to one chain of steps. -/
theorem main_part0_eq (c : Dev nD) : main_part0 (F := F) c = seq (ops0 ++ ops1) := rfl

set_option maxRecDepth 8192 in
/-- Statements 61 … 120 of the entry function are the sequence of pieces 2, 3: both sides compute to one chain of steps. -/
theorem main_part1_eq (c : Dev nD) : main_part1 (F := F) c = seq (ops2 ++ ops3) := rfl

set_option maxRecDepth 8192 in
/-- Statements 121 … 179 of the entry function are the sequence of pieces 4, 5, 6: both sides compute to one chain of steps. -/
theorem main_part2_eq (c : Dev nD) : main_part2 (F := F) c = seq (ops4 ++ ops5 ++ ops6) := rfl

/-- The entry function is the sequence of the whole list: its three parts are the sequences of their pieces, and a
    sequence of a concatenation is the sequences one after the other. -/
theorem main_eq (c : Dev nD) : main (F := F) c = seq ops := by
  simp only [main, main_part0_eq, main_part1_eq, main_part2_eq, ops, seq_append, bind_assoc]

end Cert.ReferenceIdeal.Hand

end
-- ==== Proof.Ref.Run.lean ====
/-
  The run of the reference program and what it leaves. The signature scopes no buffer and no semaphore, every
  operation of the list touches TensorCore references only and determines its results, so every weakly fair execution
  of the entry function terminates with each buffer at the fold of the operations over its launch contents. Each
  operation writes one buffer, none of them an argument: the sixteen arguments end unchanged.
-/
import proofs.«115743_j55052890800725_2_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192

/-- No TensorCore buffer of the signature is scoped. -/
theorem scopedRefs_eq : (Finset.univ.filter fun b : Ref sig .tc => b.isScoped) = ∅ := by decide
/-- The signature has no semaphore, so none is scoped. -/
theorem scopedSems_eq : (Finset.univ.filter fun sm : SemLoc sig => sm.isScoped .tc) = ∅ := by decide

/-- A one-buffer write set lies in the image of any list holding that buffer's reference. -/
private theorem f_w {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- Write sets inside the image of a list are inside the image of any list containing it. -/
private theorem f_writes_mono {W W' : List (Ref sig .tc)} (h : ∀ x ∈ W, x ∈ W') {l : List (HloOp τ sig (Elt F))}
    (hl : l.Forall fun op => op.writes ⊆ (W.map (Proc.devRef (τ := τ) .tc)).toFinset) :
    l.Forall fun op => op.writes ⊆ (W'.map (Proc.devRef (τ := τ) .tc)).toFinset :=
  List.forall_iff_forall_mem.mpr fun op hop => (List.forall_iff_forall_mem.mp hl op hop).trans fun x hx => by
    obtain ⟨y, hy, rfl⟩ := List.mem_map.mp (List.mem_toFinset.mp hx)
    exact List.mem_toFinset.mpr (List.mem_map_of_mem (h y hy))

/-- The fold over a concatenation is the second list's fold over the first's. -/
private theorem f_after_append (l₁ l₂ : List (HloOp τ sig (Elt F))) (X : Valuation τ sig (Elt F)) :
    after (l₁ ++ l₂) X = after l₂ (after l₁ X) := by
  induction l₁ generalizing X with
  | nil => rfl
  | cons op l ih => exact ih (op.result X)

/-! ### Piece 0 -/

/-- Every operation of `ops0` touches TensorCore references only. -/
theorem ops0_sub : (ops0 : List (HloOp τ sig (Elt F))).Forall fun op => op.bufs ⊆ tcRefs τ sig := by
  unfold ops0
  exact ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub ..⟩

/-- Every operation of `ops0` determines its results. -/
theorem ops0_fresh : (ops0 : List (HloOp τ sig (Elt F))).Forall fun op => op.fresh = ∅ := by
  unfold ops0; simp only [List.Forall]; repeat' constructor

/-- Each operation of `ops0` writes its one result buffer, a member of `ops0_W`. -/
theorem ops0_writes : (ops0 : List (HloOp τ sig (Elt F))).Forall fun op => op.writes ⊆ (ops0_W.map (Proc.devRef (τ := τ) .tc)).toFinset := by
  unfold ops0
  exact ⟨f_w (y := main_v0) (by decide), f_w (y := main_v1) (by decide), f_w (y := main_v2) (by decide), f_w (y := main_v3) (by decide), f_w (y := main_v4) (by decide), f_w (y := main_v5) (by decide), f_w (y := main_v6) (by decide), f_w (y := main_cst) (by decide), f_w (y := main_v7) (by decide), f_w (y := main_cst_0) (by decide), f_w (y := main_v8) (by decide), f_w (y := main_v9) (by decide), f_w (y := main_v10) (by decide), f_w (y := main_v11) (by decide), f_w (y := main_v12) (by decide), f_w (y := main_c) (by decide), f_w (y := main_v13) (by decide), f_w (y := main_v14) (by decide), f_w (y := main_c_1) (by decide), f_w (y := main_v15) (by decide), f_w (y := main_v16) (by decide), f_w (y := main_v17) (by decide), f_w (y := main_v18) (by decide), f_w (y := main_v19) (by decide), f_w (y := main_c_2) (by decide), f_w (y := main_v20) (by decide), f_w (y := main_v21) (by decide), f_w (y := main_c_3) (by decide), f_w (y := main_v22) (by decide), f_w (y := main_v23) (by decide), f_w (y := main_v24) (by decide), f_w (y := main_v25) (by decide), f_w (y := main_v26) (by decide), f_w (y := main_v27) (by decide), f_w (y := main_c_4) (by decide), f_w (y := main_v28) (by decide), f_w (y := main_v29) (by decide), f_w (y := main_c_5) (by decide), f_w (y := main_v30) (by decide), f_w (y := main_v31) (by decide), f_w (y := main_v32) (by decide)⟩

/-- A reference `ops0` does not write keeps its contents over the piece. -/
theorem ops0_kept (V : Valuation τ sig (Elt F)) {r : Ref sig .tc} (h : r ∉ ops0_W) :
    after ops0 V (Proc.devRef .tc r) = V (Proc.devRef .tc r) :=
  after_of_writes_sub ops0 V ops0_writes h

/-! ### Piece 1 -/

/-- Every operation of `ops1` touches TensorCore references only. -/
theorem ops1_sub : (ops1 : List (HloOp τ sig (Elt F))).Forall fun op => op.bufs ⊆ tcRefs τ sig := by
  unfold ops1
  exact ⟨unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

/-- Every operation of `ops1` determines its results. -/
theorem ops1_fresh : (ops1 : List (HloOp τ sig (Elt F))).Forall fun op => op.fresh = ∅ := by
  unfold ops1; simp only [List.Forall]; repeat' constructor

/-- Each operation of `ops1` writes its one result buffer, a member of `ops1_W`. -/
theorem ops1_writes : (ops1 : List (HloOp τ sig (Elt F))).Forall fun op => op.writes ⊆ (ops1_W.map (Proc.devRef (τ := τ) .tc)).toFinset := by
  unfold ops1
  exact ⟨f_w (y := main_v33) (by decide), f_w (y := main_v34) (by decide), f_w (y := main_v35) (by decide), f_w (y := main_v36) (by decide), f_w (y := main_v37) (by decide), f_w (y := main_cst_6) (by decide), f_w (y := main_v38) (by decide), f_w (y := main_v39) (by decide), f_w (y := main_v40) (by decide), f_w (y := main_v41) (by decide), f_w (y := main_v42) (by decide), f_w (y := main_v43) (by decide), f_w (y := main_cst_7) (by decide), f_w (y := main_v44) (by decide), f_w (y := main_cst_8) (by decide), f_w (y := main_v45) (by decide), f_w (y := main_v46) (by decide), f_w (y := main_c_9) (by decide), f_w (y := main_call0_cst) (by decide), f_w (y := main_call0_v0) (by decide), f_w (y := main_call0_v1) (by decide), f_w (y := main_call0_cst_0) (by decide), f_w (y := main_call0_v2) (by decide), f_w (y := main_call0_v3) (by decide), f_w (y := main_call0_v4) (by decide), f_w (y := main_call0_v5) (by decide), f_w (y := main_call0_v6) (by decide), f_w (y := main_call0_v7) (by decide), f_w (y := main_call0_cst_1) (by decide), f_w (y := main_call0_v8) (by decide), f_w (y := main_call0_cst_2) (by decide), f_w (y := main_call0_v9) (by decide), f_w (y := main_call0_v10) (by decide), f_w (y := main_call0_v11) (by decide), f_w (y := main_call0_cst_3) (by decide), f_w (y := main_call0_v12) (by decide), f_w (y := main_call0_cst_4) (by decide), f_w (y := main_call0_call0_v0) (by decide), f_w (y := main_call0_call0_v1) (by decide), f_w (y := main_v47) (by decide)⟩

/-- A reference `ops1` does not write keeps its contents over the piece. -/
theorem ops1_kept (V : Valuation τ sig (Elt F)) {r : Ref sig .tc} (h : r ∉ ops1_W) :
    after ops1 V (Proc.devRef .tc r) = V (Proc.devRef .tc r) :=
  after_of_writes_sub ops1 V ops1_writes h

/-! ### Piece 2 -/

/-- Every operation of `ops2` touches TensorCore references only. -/
theorem ops2_sub : (ops2 : List (HloOp τ sig (Elt F))).Forall fun op => op.bufs ⊆ tcRefs τ sig := by
  unfold ops2
  exact ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub ..⟩

/-- Every operation of `ops2` determines its results. -/
theorem ops2_fresh : (ops2 : List (HloOp τ sig (Elt F))).Forall fun op => op.fresh = ∅ := by
  unfold ops2; simp only [List.Forall]; repeat' constructor

/-- Each operation of `ops2` writes its one result buffer, a member of `ops2_W`. -/
theorem ops2_writes : (ops2 : List (HloOp τ sig (Elt F))).Forall fun op => op.writes ⊆ (ops2_W.map (Proc.devRef (τ := τ) .tc)).toFinset := by
  unfold ops2
  exact ⟨f_w (y := main_v48) (by decide), f_w (y := main_v49) (by decide), f_w (y := main_v50) (by decide), f_w (y := main_v51) (by decide), f_w (y := main_v52) (by decide), f_w (y := main_v53) (by decide), f_w (y := main_cst_10) (by decide), f_w (y := main_v54) (by decide), f_w (y := main_v55) (by decide), f_w (y := main_v56) (by decide), f_w (y := main_v57) (by decide), f_w (y := main_v58) (by decide), f_w (y := main_v59) (by decide), f_w (y := main_v60) (by decide), f_w (y := main_v61) (by decide), f_w (y := main_v62) (by decide), f_w (y := main_call1_cst) (by decide), f_w (y := main_call1_v0) (by decide), f_w (y := main_v63) (by decide), f_w (y := main_v64) (by decide), f_w (y := main_c_11) (by decide), f_w (y := main_v65) (by decide), f_w (y := main_v66) (by decide), f_w (y := main_c_12) (by decide), f_w (y := main_v67) (by decide), f_w (y := main_v68) (by decide), f_w (y := main_v69) (by decide), f_w (y := main_v70) (by decide), f_w (y := main_v71) (by decide), f_w (y := main_c_13) (by decide), f_w (y := main_v72) (by decide)⟩

/-- A reference `ops2` does not write keeps its contents over the piece. -/
theorem ops2_kept (V : Valuation τ sig (Elt F)) {r : Ref sig .tc} (h : r ∉ ops2_W) :
    after ops2 V (Proc.devRef .tc r) = V (Proc.devRef .tc r) :=
  after_of_writes_sub ops2 V ops2_writes h

/-! ### Piece 3 -/

/-- Every operation of `ops3` touches TensorCore references only. -/
theorem ops3_sub : (ops3 : List (HloOp τ sig (Elt F))).Forall fun op => op.bufs ⊆ tcRefs τ sig := by
  unfold ops3
  exact ⟨binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub ..⟩

/-- Every operation of `ops3` determines its results. -/
theorem ops3_fresh : (ops3 : List (HloOp τ sig (Elt F))).Forall fun op => op.fresh = ∅ := by
  unfold ops3; simp only [List.Forall]; repeat' constructor

/-- Each operation of `ops3` writes its one result buffer, a member of `ops3_W`. -/
theorem ops3_writes : (ops3 : List (HloOp τ sig (Elt F))).Forall fun op => op.writes ⊆ (ops3_W.map (Proc.devRef (τ := τ) .tc)).toFinset := by
  unfold ops3
  exact ⟨f_w (y := main_v73) (by decide), f_w (y := main_c_14) (by decide), f_w (y := main_v74) (by decide), f_w (y := main_v75) (by decide), f_w (y := main_v76) (by decide), f_w (y := main_v77) (by decide), f_w (y := main_v78) (by decide), f_w (y := main_v79) (by decide), f_w (y := main_c_15) (by decide), f_w (y := main_v80) (by decide), f_w (y := main_v81) (by decide), f_w (y := main_c_16) (by decide), f_w (y := main_v82) (by decide), f_w (y := main_v83) (by decide), f_w (y := main_v84) (by decide), f_w (y := main_v85) (by decide), f_w (y := main_v86) (by decide), f_w (y := main_v87) (by decide), f_w (y := main_v88) (by decide), f_w (y := main_v89) (by decide), f_w (y := main_cst_17) (by decide), f_w (y := main_v90) (by decide), f_w (y := main_v91) (by decide), f_w (y := main_v92) (by decide), f_w (y := main_v93) (by decide), f_w (y := main_v94) (by decide), f_w (y := main_v95) (by decide), f_w (y := main_cst_18) (by decide), f_w (y := main_v96) (by decide), f_w (y := main_cst_19) (by decide), f_w (y := main_v97) (by decide)⟩

/-- A reference `ops3` does not write keeps its contents over the piece. -/
theorem ops3_kept (V : Valuation τ sig (Elt F)) {r : Ref sig .tc} (h : r ∉ ops3_W) :
    after ops3 V (Proc.devRef .tc r) = V (Proc.devRef .tc r) :=
  after_of_writes_sub ops3 V ops3_writes h

/-! ### Piece 4 -/

/-- Every operation of `ops4` touches TensorCore references only. -/
theorem ops4_sub : (ops4 : List (HloOp τ sig (Elt F))).Forall fun op => op.bufs ⊆ tcRefs τ sig := by
  unfold ops4
  exact ⟨binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub ..⟩

/-- Every operation of `ops4` determines its results. -/
theorem ops4_fresh : (ops4 : List (HloOp τ sig (Elt F))).Forall fun op => op.fresh = ∅ := by
  unfold ops4; simp only [List.Forall]; repeat' constructor

/-- Each operation of `ops4` writes its one result buffer, a member of `ops4_W`. -/
theorem ops4_writes : (ops4 : List (HloOp τ sig (Elt F))).Forall fun op => op.writes ⊆ (ops4_W.map (Proc.devRef (τ := τ) .tc)).toFinset := by
  unfold ops4
  exact ⟨f_w (y := main_v98) (by decide), f_w (y := main_c_20) (by decide), f_w (y := main_call2_cst) (by decide), f_w (y := main_call2_v0) (by decide), f_w (y := main_call2_v1) (by decide), f_w (y := main_call2_cst_0) (by decide), f_w (y := main_call2_v2) (by decide), f_w (y := main_call2_v3) (by decide), f_w (y := main_call2_v4) (by decide), f_w (y := main_call2_v5) (by decide), f_w (y := main_call2_v6) (by decide), f_w (y := main_call2_v7) (by decide), f_w (y := main_call2_cst_1) (by decide), f_w (y := main_call2_v8) (by decide), f_w (y := main_call2_cst_2) (by decide), f_w (y := main_call2_v9) (by decide), f_w (y := main_call2_v10) (by decide), f_w (y := main_call2_v11) (by decide), f_w (y := main_call2_cst_3) (by decide), f_w (y := main_call2_v12) (by decide), f_w (y := main_call2_cst_4) (by decide), f_w (y := main_call2_call0_v0) (by decide), f_w (y := main_call2_call0_v1) (by decide), f_w (y := main_v99) (by decide), f_w (y := main_v100) (by decide), f_w (y := main_v101) (by decide), f_w (y := main_v102) (by decide), f_w (y := main_v103) (by decide), f_w (y := main_v104) (by decide), f_w (y := main_v105) (by decide), f_w (y := main_cst_21) (by decide), f_w (y := main_v106) (by decide), f_w (y := main_v107) (by decide), f_w (y := main_v108) (by decide), f_w (y := main_v109) (by decide), f_w (y := main_v110) (by decide)⟩

/-- A reference `ops4` does not write keeps its contents over the piece. -/
theorem ops4_kept (V : Valuation τ sig (Elt F)) {r : Ref sig .tc} (h : r ∉ ops4_W) :
    after ops4 V (Proc.devRef .tc r) = V (Proc.devRef .tc r) :=
  after_of_writes_sub ops4 V ops4_writes h

/-! ### Piece 5 -/

/-- Every operation of `ops5` touches TensorCore references only. -/
theorem ops5_sub : (ops5 : List (HloOp τ sig (Elt F))).Forall fun op => op.bufs ⊆ tcRefs τ sig := by
  unfold ops5
  exact ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub ..⟩

/-- Every operation of `ops5` determines its results. -/
theorem ops5_fresh : (ops5 : List (HloOp τ sig (Elt F))).Forall fun op => op.fresh = ∅ := by
  unfold ops5; simp only [List.Forall]; repeat' constructor

/-- Each operation of `ops5` writes its one result buffer, a member of `ops5_W`. -/
theorem ops5_writes : (ops5 : List (HloOp τ sig (Elt F))).Forall fun op => op.writes ⊆ (ops5_W.map (Proc.devRef (τ := τ) .tc)).toFinset := by
  unfold ops5
  exact ⟨f_w (y := main_v111) (by decide), f_w (y := main_v112) (by decide), f_w (y := main_v113) (by decide), f_w (y := main_v114) (by decide), f_w (y := main_call3_cst) (by decide), f_w (y := main_call3_v0) (by decide), f_w (y := main_v115) (by decide), f_w (y := main_v116) (by decide), f_w (y := main_v117) (by decide), f_w (y := main_v118) (by decide), f_w (y := main_v119) (by decide), f_w (y := main_cst_22) (by decide), f_w (y := main_v120) (by decide), f_w (y := main_cst_23) (by decide), f_w (y := main_v121) (by decide), f_w (y := main_v122) (by decide), f_w (y := main_c_24) (by decide), f_w (y := main_call4_cst) (by decide), f_w (y := main_call4_v0) (by decide), f_w (y := main_call4_v1) (by decide), f_w (y := main_call4_cst_0) (by decide), f_w (y := main_call4_v2) (by decide), f_w (y := main_call4_v3) (by decide), f_w (y := main_call4_v4) (by decide), f_w (y := main_call4_v5) (by decide), f_w (y := main_call4_v6) (by decide), f_w (y := main_call4_v7) (by decide), f_w (y := main_call4_cst_1) (by decide), f_w (y := main_call4_v8) (by decide), f_w (y := main_call4_cst_2) (by decide), f_w (y := main_call4_v9) (by decide), f_w (y := main_call4_v10) (by decide), f_w (y := main_call4_v11) (by decide), f_w (y := main_call4_cst_3) (by decide), f_w (y := main_call4_v12) (by decide), f_w (y := main_call4_cst_4) (by decide)⟩

/-- A reference `ops5` does not write keeps its contents over the piece. -/
theorem ops5_kept (V : Valuation τ sig (Elt F)) {r : Ref sig .tc} (h : r ∉ ops5_W) :
    after ops5 V (Proc.devRef .tc r) = V (Proc.devRef .tc r) :=
  after_of_writes_sub ops5 V ops5_writes h

/-! ### Piece 6 -/

/-- Every operation of `ops6` touches TensorCore references only. -/
theorem ops6_sub : (ops6 : List (HloOp τ sig (Elt F))).Forall fun op => op.bufs ⊆ tcRefs τ sig := by
  unfold ops6
  exact ⟨unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

/-- Every operation of `ops6` determines its results. -/
theorem ops6_fresh : (ops6 : List (HloOp τ sig (Elt F))).Forall fun op => op.fresh = ∅ := by
  unfold ops6; simp only [List.Forall]; repeat' constructor

/-- Each operation of `ops6` writes its one result buffer, a member of `ops6_W`. -/
theorem ops6_writes : (ops6 : List (HloOp τ sig (Elt F))).Forall fun op => op.writes ⊆ (ops6_W.map (Proc.devRef (τ := τ) .tc)).toFinset := by
  unfold ops6
  exact ⟨f_w (y := main_call4_call0_v0) (by decide), f_w (y := main_call4_call0_v1) (by decide), f_w (y := main_v123) (by decide), f_w (y := main_v124) (by decide), f_w (y := main_v125) (by decide), f_w (y := main_v126) (by decide), f_w (y := main_v127) (by decide), f_w (y := main_v128) (by decide), f_w (y := main_v129) (by decide), f_w (y := main_cst_25) (by decide), f_w (y := main_v130) (by decide), f_w (y := main_v131) (by decide), f_w (y := main_v132) (by decide), f_w (y := main_v133) (by decide), f_w (y := main_v134) (by decide), f_w (y := main_v135) (by decide), f_w (y := main_v136) (by decide), f_w (y := main_v137) (by decide), f_w (y := main_v138) (by decide), f_w (y := main_call5_cst) (by decide), f_w (y := main_call5_v0) (by decide), f_w (y := main_v139) (by decide), f_w (y := main_v140) (by decide), f_w (y := main_v141) (by decide), f_w (y := main_v142) (by decide), f_w (y := main_v143) (by decide), f_w (y := main_call6_v0) (by decide), f_w (y := main_call6_cst) (by decide), f_w (y := main_call6_v1) (by decide), f_w (y := main_call6_v2) (by decide), f_w (y := main_v144) (by decide), f_w (y := main_cst_26) (by decide), f_w (y := main_v145) (by decide), f_w (y := main_v146) (by decide), f_w (y := main_v147) (by decide), f_w (y := main_v148) (by decide)⟩

/-- A reference `ops6` does not write keeps its contents over the piece. -/
theorem ops6_kept (V : Valuation τ sig (Elt F)) {r : Ref sig .tc} (h : r ∉ ops6_W) :
    after ops6 V (Proc.devRef .tc r) = V (Proc.devRef .tc r) :=
  after_of_writes_sub ops6 V ops6_writes h

/-! ### The whole list -/

theorem ops_sub : (ops : List (HloOp τ sig (Elt F))).Forall fun op => op.bufs ⊆ tcRefs τ sig :=
  (List.forall_append.mpr ⟨(List.forall_append.mpr ⟨(List.forall_append.mpr ⟨(List.forall_append.mpr ⟨(List.forall_append.mpr ⟨(List.forall_append.mpr ⟨ops0_sub, ops1_sub⟩), ops2_sub⟩), ops3_sub⟩), ops4_sub⟩), ops5_sub⟩), ops6_sub⟩)

theorem ops_fresh : (ops : List (HloOp τ sig (Elt F))).Forall fun op => op.fresh = ∅ :=
  (List.forall_append.mpr ⟨(List.forall_append.mpr ⟨(List.forall_append.mpr ⟨(List.forall_append.mpr ⟨(List.forall_append.mpr ⟨(List.forall_append.mpr ⟨ops0_fresh, ops1_fresh⟩), ops2_fresh⟩), ops3_fresh⟩), ops4_fresh⟩), ops5_fresh⟩), ops6_fresh⟩)

/-- Each operation of the program writes one buffer, a member of `ops_W`. -/
theorem ops_writes : (ops : List (HloOp τ sig (Elt F))).Forall fun op => op.writes ⊆ (ops_W.map (Proc.devRef (τ := τ) .tc)).toFinset :=
  (List.forall_append.mpr ⟨(List.forall_append.mpr ⟨(List.forall_append.mpr ⟨(List.forall_append.mpr ⟨(List.forall_append.mpr ⟨(List.forall_append.mpr ⟨(f_writes_mono (fun x h => (List.mem_append_left _ (List.mem_append_left _ (List.mem_append_left _ (List.mem_append_left _ (List.mem_append_left _ (List.mem_append_left _ h))))))) ops0_writes), (f_writes_mono (fun x h => (List.mem_append_left _ (List.mem_append_left _ (List.mem_append_left _ (List.mem_append_left _ (List.mem_append_left _ (List.mem_append_right _ h))))))) ops1_writes)⟩), (f_writes_mono (fun x h => (List.mem_append_left _ (List.mem_append_left _ (List.mem_append_left _ (List.mem_append_left _ (List.mem_append_right _ h)))))) ops2_writes)⟩), (f_writes_mono (fun x h => (List.mem_append_left _ (List.mem_append_left _ (List.mem_append_left _ (List.mem_append_right _ h))))) ops3_writes)⟩), (f_writes_mono (fun x h => (List.mem_append_left _ (List.mem_append_left _ (List.mem_append_right _ h)))) ops4_writes)⟩), (f_writes_mono (fun x h => (List.mem_append_left _ (List.mem_append_right _ h))) ops5_writes)⟩), (f_writes_mono (fun x h => (List.mem_append_right _ h)) ops6_writes)⟩)

/-- The fold over the whole list is the pieces' folds, one over the other. -/
theorem after_ops (V : Valuation τ sig (Elt F)) :
    after ops V = after ops6 (after ops5 (after ops4 (after ops3 (after ops2 (after ops1 (after ops0 (V))))))) := by
  simp only [ops, f_after_append]

/-- A reference the program does not write keeps its contents over the whole list. -/
theorem ops_kept (V : Valuation τ sig (Elt F)) {r : Ref sig .tc} (h : r ∉ ops_W) :
    after ops V (Proc.devRef .tc r) = V (Proc.devRef .tc r) :=
  after_of_writes_sub ops V ops_writes h

/-! ### The run and the frame -/

/-- For any float values, from any memory with zero counters: every weakly fair execution of the entry function on the
    TensorCores terminates, and every final state has each TensorCore buffer at the operations' fold over the launch
    contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

/-- The program runs and its sixteen argument arrays end unchanged: no operation writes an argument. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(h c main_arg0).trans (ops_kept _ (by decide)),
      (h c main_arg1).trans (ops_kept _ (by decide)),
      (h c main_arg2).trans (ops_kept _ (by decide)),
      (h c main_arg3).trans (ops_kept _ (by decide)),
      (h c main_arg4).trans (ops_kept _ (by decide)),
      (h c main_arg5).trans (ops_kept _ (by decide)),
      (h c main_arg6).trans (ops_kept _ (by decide)),
      (h c main_arg7).trans (ops_kept _ (by decide)),
      (h c main_arg8).trans (ops_kept _ (by decide)),
      (h c main_arg9).trans (ops_kept _ (by decide)),
      (h c main_arg10).trans (ops_kept _ (by decide)),
      (h c main_arg11).trans (ops_kept _ (by decide)),
      (h c main_arg12).trans (ops_kept _ (by decide)),
      (h c main_arg13).trans (ops_kept _ (by decide)),
      (h c main_arg14).trans (ops_kept _ (by decide)),
      (h c main_arg15).trans (ops_kept _ (by decide))⟩)
    (run m ρ)

/-- The launch contents of a TensorCore reference are the memory at that thread's location of it. -/
theorem launchContents_eq (m : (ℓ : Loc nD τ sig) → Buf (Elt F) ℓ) (c : Dev nD) (b : Ref sig .tc) :
    launchContents m c (Proc.devRef .tc b) = m ((c.tc : Thread nD τ).loc b) := rfl

/-- The program runs, its result array ends at the fold of the operations over the launch contents, and its sixteen
    argument arrays end unchanged. -/
theorem run_val (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v148) = after ops (launchContents m c) (Proc.devRef .tc main_v148)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨h c main_v148,
      (h c main_arg0).trans (ops_kept _ (by decide)),
      (h c main_arg1).trans (ops_kept _ (by decide)),
      (h c main_arg2).trans (ops_kept _ (by decide)),
      (h c main_arg3).trans (ops_kept _ (by decide)),
      (h c main_arg4).trans (ops_kept _ (by decide)),
      (h c main_arg5).trans (ops_kept _ (by decide)),
      (h c main_arg6).trans (ops_kept _ (by decide)),
      (h c main_arg7).trans (ops_kept _ (by decide)),
      (h c main_arg8).trans (ops_kept _ (by decide)),
      (h c main_arg9).trans (ops_kept _ (by decide)),
      (h c main_arg10).trans (ops_kept _ (by decide)),
      (h c main_arg11).trans (ops_kept _ (by decide)),
      (h c main_arg12).trans (ops_kept _ (by decide)),
      (h c main_arg13).trans (ops_kept _ (by decide)),
      (h c main_arg14).trans (ops_kept _ (by decide)),
      (h c main_arg15).trans (ops_kept _ (by decide))⟩)
    (run m ρ)

end Cert.ReferenceIdeal.Hand

end
-- ==== Proof.Ref.Eqns.lean ====
/-
  The reference program in single-assignment form. Every operation of the program writes one buffer, no buffer is
  written twice, and an operation reads only arguments and buffers written before it. So after the whole list has run,
  each result buffer holds its operation's function of what the operand buffers hold after the whole list: one equation
  per operation (`val_‹buffer›`), and the sixteen arguments hold what they held (`arg_‹k›`). Together the equations
  determine the fold of the list at every buffer without unrolling it.
-/
import proofs.«115743_j55052890800725_2_alg».proof.Proof.Ref.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192

/-! ## Reading a buffer of a single-assignment line

Every operation of the program writes one buffer, no buffer is written twice, and an operation reads only buffers
written before it (or arguments). So the fold of the whole line at an operation's result buffer is the operation's
function of the fold at its operand buffers: the operations after it change neither. -/

section Generic

variable {τ' : Topo} {sig' : RefSig} {Val : EltTy → Type}

/-- Each operation of the list writes exactly the buffer of the reference paired with it by position. -/
abbrev f_Pairs (l : List (HloOp τ' sig' Val)) (Wl : List (Ref sig' .tc)) : Prop :=
  List.Forall₂ (fun op y => op.writes = {Proc.devRef (τ := τ') .tc y}) l Wl

/-- A reference not among the paired ones keeps its contents. -/
theorem f_kept : ∀ {l : List (HloOp τ' sig' Val)} {Wl : List (Ref sig' .tc)}, f_Pairs l Wl →
    ∀ (V : Valuation τ' sig' Val) {r : Ref sig' .tc}, r ∉ Wl → after l V (Proc.devRef .tc r) = V (Proc.devRef .tc r)
  | _, _, .nil, _, _, _ => rfl
  | _, _, .cons (a := op) (b := y) hop h, V, r, hr => by
    rw [after_cons, f_kept h _ (fun hm => hr (List.mem_cons_of_mem _ hm)), op.result_of_not_mem]
    rw [hop, Finset.mem_singleton]
    exact devRef_ne_of_ne (fun e => hr (e ▸ List.mem_cons_self))

theorem f_fold_append (l₁ l₂ : List (HloOp τ' sig' Val)) (X : Valuation τ' sig' Val) :
    after (l₁ ++ l₂) X = after l₂ (after l₁ X) := by
  induction l₁ generalizing X with
  | nil => rfl
  | cons op l ih => exact ih (op.result X)

/-- The fold is the fold of the operations from the `n`-th on over the fold of the first `n`. -/
theorem f_split (l : List (HloOp τ' sig' Val)) (n : Nat) (V : Valuation τ' sig' Val) :
    after l V = after (l.drop n) (after (l.take n) V) := by
  rw [← f_fold_append, List.take_append_drop]

/-- A reference none of the operations from the `i`-th on writes holds after the line what it holds after the first `i`. -/
theorem f_pre {l : List (HloOp τ' sig' Val)} {Wl : List (Ref sig' .tc)} (h : f_Pairs l Wl) (i : Nat)
    (V : Valuation τ' sig' Val) {r : Ref sig' .tc} (hr : r ∉ Wl.drop i) :
    after l V (Proc.devRef .tc r) = after (l.take i) V (Proc.devRef .tc r) := by
  rw [f_split l i V]; exact f_kept (List.forall₂_drop i h) _ hr

/-- A reference none of the operations after the `i`-th writes holds after the line what the `i`-th leaves in it. -/
theorem f_at {l : List (HloOp τ' sig' Val)} {Wl : List (Ref sig' .tc)} (h : f_Pairs l Wl) (i : Nat) (hi : i < Wl.length)
    (V : Valuation τ' sig' Val) {r : Ref sig' .tc} (hr : r ∉ Wl.drop (i + 1)) :
    after l V (Proc.devRef .tc r) = (l[i]'(h.length_eq ▸ hi)).result (after (l.take i) V) (Proc.devRef .tc r) := by
  rw [f_split l (i + 1) V, f_kept (List.forall₂_drop (i + 1) h) _ hr, List.take_succ_eq_append_getElem (h.length_eq ▸ hi), f_fold_append]
  rfl

variable {l : List (HloOp τ' sig' Val)} {Wl : List (Ref sig' .tc)} (h : f_Pairs l Wl) (i : Nat) (hi : i < Wl.length)
  (X : Valuation τ' sig' Val) (y : Ref sig' .tc) (hy : y ∉ Wl.drop (i + 1))
include h hi hy

/-- The `i`-th operation's result, for an operation of no operand. -/
theorem f_eqn0 {v : (Proc.devRef (τ := τ') .tc y).ty.Contents Val}
    (hres : ∀ G : Valuation τ' sig' Val, (l[i]'(h.length_eq ▸ hi)).result G (Proc.devRef .tc y) = v) :
    after l X (Proc.devRef .tc y) = v :=
  (f_at h i hi X hy).trans (hres _)

/-- The `i`-th operation's result, for an operation of one operand. -/
theorem f_eqn1 (a : Ref sig' .tc) (ha : a ∉ Wl.drop i)
    {g : (Proc.devRef (τ := τ') .tc a).ty.Contents Val → (Proc.devRef (τ := τ') .tc y).ty.Contents Val}
    (hres : ∀ G : Valuation τ' sig' Val, (l[i]'(h.length_eq ▸ hi)).result G (Proc.devRef .tc y) = g (G (Proc.devRef .tc a))) :
    after l X (Proc.devRef .tc y) = g (after l X (Proc.devRef .tc a)) :=
  (f_at h i hi X hy).trans ((hres _).trans (by simp only [f_pre h i X ha]))

/-- The `i`-th operation's result, for an operation of two operands. -/
theorem f_eqn2 (a b : Ref sig' .tc) (ha : a ∉ Wl.drop i) (hb : b ∉ Wl.drop i)
    {g : (Proc.devRef (τ := τ') .tc a).ty.Contents Val → (Proc.devRef (τ := τ') .tc b).ty.Contents Val →
      (Proc.devRef (τ := τ') .tc y).ty.Contents Val}
    (hres : ∀ G : Valuation τ' sig' Val, (l[i]'(h.length_eq ▸ hi)).result G (Proc.devRef .tc y) = g (G (Proc.devRef .tc a)) (G (Proc.devRef .tc b))) :
    after l X (Proc.devRef .tc y) = g (after l X (Proc.devRef .tc a)) (after l X (Proc.devRef .tc b)) :=
  (f_at h i hi X hy).trans ((hres _).trans (by simp only [f_pre h i X ha, f_pre h i X hb]))

/-- The `i`-th operation's result, for an operation of three operands. -/
theorem f_eqn3 (c a b : Ref sig' .tc) (hc : c ∉ Wl.drop i) (ha : a ∉ Wl.drop i) (hb : b ∉ Wl.drop i)
    {g : (Proc.devRef (τ := τ') .tc c).ty.Contents Val → (Proc.devRef (τ := τ') .tc a).ty.Contents Val →
      (Proc.devRef (τ := τ') .tc b).ty.Contents Val → (Proc.devRef (τ := τ') .tc y).ty.Contents Val}
    (hres : ∀ G : Valuation τ' sig' Val, (l[i]'(h.length_eq ▸ hi)).result G (Proc.devRef .tc y)
      = g (G (Proc.devRef .tc c)) (G (Proc.devRef .tc a)) (G (Proc.devRef .tc b))) :
    after l X (Proc.devRef .tc y)
      = g (after l X (Proc.devRef .tc c)) (after l X (Proc.devRef .tc a)) (after l X (Proc.devRef .tc b)) :=
  (f_at h i hi X hy).trans ((hres _).trans (by simp only [f_pre h i X hc, f_pre h i X ha, f_pre h i X hb]))

end Generic

/-! ## The pieces, position by position -/

/-- Piece 0's operations write the references of `ops0_W`, position by position. -/
theorem ops0_pairs : f_Pairs (ops0 : List (HloOp τ sig (Elt F))) ops0_W := by
  unfold ops0
  exact .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))

/-- Piece 1's operations write the references of `ops1_W`, position by position. -/
theorem ops1_pairs : f_Pairs (ops1 : List (HloOp τ sig (Elt F))) ops1_W := by
  unfold ops1
  exact .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))

/-- Piece 2's operations write the references of `ops2_W`, position by position. -/
theorem ops2_pairs : f_Pairs (ops2 : List (HloOp τ sig (Elt F))) ops2_W := by
  unfold ops2
  exact .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))

/-- Piece 3's operations write the references of `ops3_W`, position by position. -/
theorem ops3_pairs : f_Pairs (ops3 : List (HloOp τ sig (Elt F))) ops3_W := by
  unfold ops3
  exact .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))

/-- Piece 4's operations write the references of `ops4_W`, position by position. -/
theorem ops4_pairs : f_Pairs (ops4 : List (HloOp τ sig (Elt F))) ops4_W := by
  unfold ops4
  exact .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))

/-- Piece 5's operations write the references of `ops5_W`, position by position. -/
theorem ops5_pairs : f_Pairs (ops5 : List (HloOp τ sig (Elt F))) ops5_W := by
  unfold ops5
  exact .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))

/-- Piece 6's operations write the references of `ops6_W`, position by position. -/
theorem ops6_pairs : f_Pairs (ops6 : List (HloOp τ sig (Elt F))) ops6_W := by
  unfold ops6
  exact .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))

/-- The buffers' contents before piece `k`: the fold of the pieces before it. -/
abbrev pre0 (V : Valuation τ sig (Elt F)) : Valuation τ sig (Elt F) := V
abbrev pre1 (V : Valuation τ sig (Elt F)) : Valuation τ sig (Elt F) := after ops0 (pre0 V)
abbrev pre2 (V : Valuation τ sig (Elt F)) : Valuation τ sig (Elt F) := after ops1 (pre1 V)
abbrev pre3 (V : Valuation τ sig (Elt F)) : Valuation τ sig (Elt F) := after ops2 (pre2 V)
abbrev pre4 (V : Valuation τ sig (Elt F)) : Valuation τ sig (Elt F) := after ops3 (pre3 V)
abbrev pre5 (V : Valuation τ sig (Elt F)) : Valuation τ sig (Elt F) := after ops4 (pre4 V)
abbrev pre6 (V : Valuation τ sig (Elt F)) : Valuation τ sig (Elt F) := after ops5 (pre5 V)

/-- The references written after piece `k`. -/
abbrev sfx5 : List (Ref sig .tc) := ops6_W
abbrev sfx4 : List (Ref sig .tc) := ops5_W ++ sfx5
abbrev sfx3 : List (Ref sig .tc) := ops4_W ++ sfx4
abbrev sfx2 : List (Ref sig .tc) := ops3_W ++ sfx3
abbrev sfx1 : List (Ref sig .tc) := ops2_W ++ sfx2
abbrev sfx0 : List (Ref sig .tc) := ops1_W ++ sfx1

/-- The fold of the whole list at a reference the later pieces do not write is piece `k`'s fold at it, over the fold of
    the pieces before. -/
theorem read6 (V : Valuation τ sig (Elt F)) (r : Ref sig .tc) :
    after ops V (Proc.devRef .tc r) = after ops6 (pre6 V) (Proc.devRef .tc r) := by
  rw [after_ops]
theorem read5 (V : Valuation τ sig (Elt F)) {r : Ref sig .tc} (h : r ∉ sfx5) :
    after ops V (Proc.devRef .tc r) = after ops5 (pre5 V) (Proc.devRef .tc r) := by
  rw [read6 V r, pre6, ops6_kept _ h]
theorem read4 (V : Valuation τ sig (Elt F)) {r : Ref sig .tc} (h : r ∉ sfx4) :
    after ops V (Proc.devRef .tc r) = after ops4 (pre4 V) (Proc.devRef .tc r) := by
  rw [read5 V (fun hm => h (List.mem_append_right _ hm)), pre5, ops5_kept _ (fun hm => h (List.mem_append_left _ hm))]
theorem read3 (V : Valuation τ sig (Elt F)) {r : Ref sig .tc} (h : r ∉ sfx3) :
    after ops V (Proc.devRef .tc r) = after ops3 (pre3 V) (Proc.devRef .tc r) := by
  rw [read4 V (fun hm => h (List.mem_append_right _ hm)), pre4, ops4_kept _ (fun hm => h (List.mem_append_left _ hm))]
theorem read2 (V : Valuation τ sig (Elt F)) {r : Ref sig .tc} (h : r ∉ sfx2) :
    after ops V (Proc.devRef .tc r) = after ops2 (pre2 V) (Proc.devRef .tc r) := by
  rw [read3 V (fun hm => h (List.mem_append_right _ hm)), pre3, ops3_kept _ (fun hm => h (List.mem_append_left _ hm))]
theorem read1 (V : Valuation τ sig (Elt F)) {r : Ref sig .tc} (h : r ∉ sfx1) :
    after ops V (Proc.devRef .tc r) = after ops1 (pre1 V) (Proc.devRef .tc r) := by
  rw [read2 V (fun hm => h (List.mem_append_right _ hm)), pre2, ops2_kept _ (fun hm => h (List.mem_append_left _ hm))]
theorem read0 (V : Valuation τ sig (Elt F)) {r : Ref sig .tc} (h : r ∉ sfx0) :
    after ops V (Proc.devRef .tc r) = after ops0 (pre0 V) (Proc.devRef .tc r) := by
  rw [read1 V (fun hm => h (List.mem_append_right _ hm)), pre1, ops1_kept _ (fun hm => h (List.mem_append_left _ hm))]

/-! ## The arguments -/

theorem arg_0 (V : Valuation τ sig (Elt F)) :
    after (ops (F := F)) V (Proc.devRef .tc main_arg0) = V (Proc.devRef .tc main_arg0) := ops_kept V (by decide)
theorem arg_1 (V : Valuation τ sig (Elt F)) :
    after (ops (F := F)) V (Proc.devRef .tc main_arg1) = V (Proc.devRef .tc main_arg1) := ops_kept V (by decide)
theorem arg_2 (V : Valuation τ sig (Elt F)) :
    after (ops (F := F)) V (Proc.devRef .tc main_arg2) = V (Proc.devRef .tc main_arg2) := ops_kept V (by decide)
theorem arg_3 (V : Valuation τ sig (Elt F)) :
    after (ops (F := F)) V (Proc.devRef .tc main_arg3) = V (Proc.devRef .tc main_arg3) := ops_kept V (by decide)
theorem arg_4 (V : Valuation τ sig (Elt F)) :
    after (ops (F := F)) V (Proc.devRef .tc main_arg4) = V (Proc.devRef .tc main_arg4) := ops_kept V (by decide)
theorem arg_5 (V : Valuation τ sig (Elt F)) :
    after (ops (F := F)) V (Proc.devRef .tc main_arg5) = V (Proc.devRef .tc main_arg5) := ops_kept V (by decide)
theorem arg_6 (V : Valuation τ sig (Elt F)) :
    after (ops (F := F)) V (Proc.devRef .tc main_arg6) = V (Proc.devRef .tc main_arg6) := ops_kept V (by decide)
theorem arg_7 (V : Valuation τ sig (Elt F)) :
    after (ops (F := F)) V (Proc.devRef .tc main_arg7) = V (Proc.devRef .tc main_arg7) := ops_kept V (by decide)
theorem arg_8 (V : Valuation τ sig (Elt F)) :
    after (ops (F := F)) V (Proc.devRef .tc main_arg8) = V (Proc.devRef .tc main_arg8) := ops_kept V (by decide)
theorem arg_9 (V : Valuation τ sig (Elt F)) :
    after (ops (F := F)) V (Proc.devRef .tc main_arg9) = V (Proc.devRef .tc main_arg9) := ops_kept V (by decide)
theorem arg_10 (V : Valuation τ sig (Elt F)) :
    after (ops (F := F)) V (Proc.devRef .tc main_arg10) = V (Proc.devRef .tc main_arg10) := ops_kept V (by decide)
theorem arg_11 (V : Valuation τ sig (Elt F)) :
    after (ops (F := F)) V (Proc.devRef .tc main_arg11) = V (Proc.devRef .tc main_arg11) := ops_kept V (by decide)
theorem arg_12 (V : Valuation τ sig (Elt F)) :
    after (ops (F := F)) V (Proc.devRef .tc main_arg12) = V (Proc.devRef .tc main_arg12) := ops_kept V (by decide)
theorem arg_13 (V : Valuation τ sig (Elt F)) :
    after (ops (F := F)) V (Proc.devRef .tc main_arg13) = V (Proc.devRef .tc main_arg13) := ops_kept V (by decide)
theorem arg_14 (V : Valuation τ sig (Elt F)) :
    after (ops (F := F)) V (Proc.devRef .tc main_arg14) = V (Proc.devRef .tc main_arg14) := ops_kept V (by decide)
theorem arg_15 (V : Valuation τ sig (Elt F)) :
    after (ops (F := F)) V (Proc.devRef .tc main_arg15) = V (Proc.devRef .tc main_arg15) := ops_kept V (by decide)

/-! ## Piece 0 -/

theorem val_main_v0 (V : Valuation τ sig (Elt F)) :
    after (ops (F := F)) V (Proc.devRef .tc main_v0) = (iotaInDim S50000 32 0) := by
  rw [read0 V (r := main_v0) (by decide)]
  refine f_eqn0 (ops0_pairs (F := F)) 0 (by decide) _ main_v0 (by decide) ?_
  intro G
  rfl

theorem val_main_v1 (V : Valuation τ sig (Elt F)) :
    after (ops (F := F)) V (Proc.devRef .tc main_v1) = ((extractStridedSlice S1x800000 ![0, 0] · slices_S2x800000_S1x800000_0_0) : (⟨S2x800000, .i32⟩ : BufTy).Contents (Elt F) → (⟨S1x800000, .i32⟩ : BufTy).Contents (Elt F)) (after (ops (F := F)) V (Proc.devRef .tc main_arg1)) := by
  rw [read0 V (r := main_v1) (by decide), read0 V (r := main_arg1) (by decide)]
  refine f_eqn1 (ops0_pairs (F := F)) 1 (by decide) _ main_v1 (by decide) main_arg1 (by decide) (g := ((extractStridedSlice S1x800000 ![0, 0] · slices_S2x800000_S1x800000_0_0) : (⟨S2x800000, .i32⟩ : BufTy).Contents (Elt F) → (⟨S1x800000, .i32⟩ : BufTy).Contents (Elt F))) ?_
  intro G
  rfl

theorem val_main_v2 (V : Valuation τ sig (Elt F)) :
    after (ops (F := F)) V (Proc.devRef .tc main_v2) = fun i => shapeCast S800000 (after (ops (F := F)) V (Proc.devRef .tc main_v1)) shapeCasts_S1x800000_S800000 i := by
  rw [read0 V (r := main_v2) (by decide), read0 V (r := main_v1) (by decide)]
  refine f_eqn1 (ops0_pairs (F := F)) 2 (by decide) _ main_v2 (by decide) main_v1 (by decide) (g := (fun u i => shapeCast S800000 u shapeCasts_S1x800000_S800000 i : (⟨S1x800000, .i32⟩ : BufTy).Contents (Elt F) → (⟨S800000, .i32⟩ : BufTy).Contents (Elt F))) ?_
  intro G
  rfl

theorem val_main_v3 (V : Valuation τ sig (Elt F)) :
    after (ops (F := F)) V (Proc.devRef .tc main_v3) = ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) (after (ops (F := F)) V (Proc.devRef .tc main_v2)) (after (ops (F := F)) V (Proc.devRef .tc main_v0)) := by
  rw [read0 V (r := main_v3) (by decide), read0 V (r := main_v2) (by decide), read0 V (r := main_v0) (by decide)]
  refine f_eqn2 (ops0_pairs (F := F)) 3 (by decide) _ main_v3 (by decide) main_v2 main_v0 (by decide) (by decide) (g := ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F))) ?_
  intro G
  rfl

theorem val_main_v4 (V : Valuation τ sig (Elt F)) :
    after (ops (F := F)) V (Proc.devRef .tc main_v4) = ((extractStridedSlice S1x800000 ![1, 0] · slices_S2x800000_S1x800000_1_0) : (⟨S2x800000, .i32⟩ : BufTy).Contents (Elt F) → (⟨S1x800000, .i32⟩ : BufTy).Contents (Elt F)) (after (ops (F := F)) V (Proc.devRef .tc main_arg1)) := by
  rw [read0 V (r := main_v4) (by decide), read0 V (r := main_arg1) (by decide)]
  refine f_eqn1 (ops0_pairs (F := F)) 4 (by decide) _ main_v4 (by decide) main_arg1 (by decide) (g := ((extractStridedSlice S1x800000 ![1, 0] · slices_S2x800000_S1x800000_1_0) : (⟨S2x800000, .i32⟩ : BufTy).Contents (Elt F) → (⟨S1x800000, .i32⟩ : BufTy).Contents (Elt F))) ?_
  intro G
  rfl

theorem val_main_v5 (V : Valuation τ sig (Elt F)) :
    after (ops (F := F)) V (Proc.devRef .tc main_v5) = fun i => shapeCast S800000 (after (ops (F := F)) V (Proc.devRef .tc main_v4)) shapeCasts_S1x800000_S800000 i := by
  rw [read0 V (r := main_v5) (by decide), read0 V (r := main_v4) (by decide)]
  refine f_eqn1 (ops0_pairs (F := F)) 5 (by decide) _ main_v5 (by decide) main_v4 (by decide) (g := (fun u i => shapeCast S800000 u shapeCasts_S1x800000_S800000 i : (⟨S1x800000, .i32⟩ : BufTy).Contents (Elt F) → (⟨S800000, .i32⟩ : BufTy).Contents (Elt F))) ?_
  intro G
  rfl

theorem val_main_v6 (V : Valuation τ sig (Elt F)) :
    after (ops (F := F)) V (Proc.devRef .tc main_v6) = ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) (after (ops (F := F)) V (Proc.devRef .tc main_v5)) (after (ops (F := F)) V (Proc.devRef .tc main_v0)) := by
  rw [read0 V (r := main_v6) (by decide), read0 V (r := main_v5) (by decide), read0 V (r := main_v0) (by decide)]
  refine f_eqn2 (ops0_pairs (F := F)) 6 (by decide) _ main_v6 (by decide) main_v5 main_v0 (by decide) (by decide) (g := ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F))) ?_
  intro G
  rfl

theorem val_main_cst (V : Valuation τ sig (Elt F)) :
    after (ops (F := F)) V (Proc.devRef .tc main_cst) = (constant S_ .f32 0x3F800000#32) := by
  rw [read0 V (r := main_cst) (by decide)]
  refine f_eqn0 (ops0_pairs (F := F)) 7 (by decide) _ main_cst (by decide) ?_
  intro G
  rfl

theorem val_main_v7 (V : Valuation τ sig (Elt F)) :
    after (ops (F := F)) V (Proc.devRef .tc main_v7) = (broadcastInDim S850000 ![] bcast_S_S850000 : (⟨S_, .f32⟩ : BufTy).Contents (Elt F) → (⟨S850000, .f32⟩ : BufTy).Contents (Elt F)) (after (ops (F := F)) V (Proc.devRef .tc main_cst)) := by
  rw [read0 V (r := main_v7) (by decide), read0 V (r := main_cst) (by decide)]
  refine f_eqn1 (ops0_pairs (F := F)) 8 (by decide) _ main_v7 (by decide) main_cst (by decide) (g := (broadcastInDim S850000 ![] bcast_S_S850000 : (⟨S_, .f32⟩ : BufTy).Contents (Elt F) → (⟨S850000, .f32⟩ : BufTy).Contents (Elt F))) ?_
  intro G
  rfl

theorem val_main_cst_0 (V : Valuation τ sig (Elt F)) :
    after (ops (F := F)) V (Proc.devRef .tc main_cst_0) = (constant S_ .f32 0x00000000#32) := by
  rw [read0 V (r := main_cst_0) (by decide)]
  refine f_eqn0 (ops0_pairs (F := F)) 9 (by decide) _ main_cst_0 (by decide) ?_
  intro G
  rfl

theorem val_main_v8 (V : Valuation τ sig (Elt F)) :
    after (ops (F := F)) V (Proc.devRef .tc main_v8) = (broadcastInDim S50000 ![] bcast_S_S50000 : (⟨S_, .f32⟩ : BufTy).Contents (Elt F) → (⟨S50000, .f32⟩ : BufTy).Contents (Elt F)) (after (ops (F := F)) V (Proc.devRef .tc main_cst_0)) := by
  rw [read0 V (r := main_v8) (by decide), read0 V (r := main_cst_0) (by decide)]
  refine f_eqn1 (ops0_pairs (F := F)) 10 (by decide) _ main_v8 (by decide) main_cst_0 (by decide) (g := (broadcastInDim S50000 ![] bcast_S_S50000 : (⟨S_, .f32⟩ : BufTy).Contents (Elt F) → (⟨S50000, .f32⟩ : BufTy).Contents (Elt F))) ?_
  intro G
  rfl

theorem val_main_v9 (V : Valuation τ sig (Elt F)) :
    after (ops (F := F)) V (Proc.devRef .tc main_v9) = (broadcastInDim S850000x1 ![0] bcast_S850000_S850000x1_0 : (⟨S850000, .i32⟩ : BufTy).Contents (Elt F) → (⟨S850000x1, .i32⟩ : BufTy).Contents (Elt F)) (after (ops (F := F)) V (Proc.devRef .tc main_v6)) := by
  rw [read0 V (r := main_v9) (by decide), read0 V (r := main_v6) (by decide)]
  refine f_eqn1 (ops0_pairs (F := F)) 11 (by decide) _ main_v9 (by decide) main_v6 (by decide) (g := (broadcastInDim S850000x1 ![0] bcast_S850000_S850000x1_0 : (⟨S850000, .i32⟩ : BufTy).Contents (Elt F) → (⟨S850000x1, .i32⟩ : BufTy).Contents (Elt F))) ?_
  intro G
  rfl

theorem val_main_v10 (V : Valuation τ sig (Elt F)) :
    after (ops (F := F)) V (Proc.devRef .tc main_v10) = ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)) (after (ops (F := F)) V (Proc.devRef .tc main_v8)) (after (ops (F := F)) V (Proc.devRef .tc main_v9)) (after (ops (F := F)) V (Proc.devRef .tc main_v7)) := by
  rw [read0 V (r := main_v10) (by decide), read0 V (r := main_v8) (by decide), read0 V (r := main_v9) (by decide), read0 V (r := main_v7) (by decide)]
  refine f_eqn3 (ops0_pairs (F := F)) 12 (by decide) _ main_v10 (by decide) main_v8 main_v9 main_v7 (by decide) (by decide) (by decide) (g := ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F))) ?_
  intro G
  rfl

theorem val_main_v11 (V : Valuation τ sig (Elt F)) :
    after (ops (F := F)) V (Proc.devRef .tc main_v11) = (Host.rsqrt : (⟨S50000, .f32⟩ : BufTy).Contents (Elt F) → (⟨S50000, .f32⟩ : BufTy).Contents (Elt F)) (after (ops (F := F)) V (Proc.devRef .tc main_v10)) := by
  rw [read0 V (r := main_v11) (by decide), read0 V (r := main_v10) (by decide)]
  refine f_eqn1 (ops0_pairs (F := F)) 13 (by decide) _ main_v11 (by decide) main_v10 (by decide) (g := (Host.rsqrt : (⟨S50000, .f32⟩ : BufTy).Contents (Elt F) → (⟨S50000, .f32⟩ : BufTy).Contents (Elt F))) ?_
  intro G
  rfl

theorem val_main_v12 (V : Valuation τ sig (Elt F)) :
    after (ops (F := F)) V (Proc.devRef .tc main_v12) = ((fun l r => Host.dotGeneral dot_S50000x128_S128x96_S50000x96_1_0_0_1_n_n none l r) : (⟨S50000x128, .f32⟩ : BufTy).Contents (Elt F) → (⟨S128x96, .f32⟩ : BufTy).Contents (Elt F) → (⟨S50000x96, .f32⟩ : BufTy).Contents (Elt F)) (after (ops (F := F)) V (Proc.devRef .tc main_arg0)) (after (ops (F := F)) V (Proc.devRef .tc main_arg2)) := by
  rw [read0 V (r := main_v12) (by decide), read0 V (r := main_arg0) (by decide), read0 V (r := main_arg2) (by decide)]
  refine f_eqn2 (ops0_pairs (F := F)) 14 (by decide) _ main_v12 (by decide) main_arg0 main_arg2 (by decide) (by decide) (g := ((fun l r => Host.dotGeneral dot_S50000x128_S128x96_S50000x96_1_0_0_1_n_n none l r) : (⟨S50000x128, .f32⟩ : BufTy).Contents (Elt F) → (⟨S128x96, .f32⟩ : BufTy).Contents (Elt F) → (⟨S50000x96, .f32⟩ : BufTy).Contents (Elt F))) ?_
  intro G
  rfl

theorem val_main_c (V : Valuation τ sig (Elt F)) :
    after (ops (F := F)) V (Proc.devRef .tc main_c) = (constantI S_ 32 0#32) := by
  rw [read0 V (r := main_c) (by decide)]
  refine f_eqn0 (ops0_pairs (F := F)) 15 (by decide) _ main_c (by decide) ?_
  intro G
  rfl

theorem val_main_v13 (V : Valuation τ sig (Elt F)) :
    after (ops (F := F)) V (Proc.devRef .tc main_v13) = (broadcastInDim S850000 ![] bcast_S_S850000 : (⟨S_, .i32⟩ : BufTy).Contents (Elt F) → (⟨S850000, .i32⟩ : BufTy).Contents (Elt F)) (after (ops (F := F)) V (Proc.devRef .tc main_c)) := by
  rw [read0 V (r := main_v13) (by decide), read0 V (r := main_c) (by decide)]
  refine f_eqn1 (ops0_pairs (F := F)) 16 (by decide) _ main_v13 (by decide) main_c (by decide) (g := (broadcastInDim S850000 ![] bcast_S_S850000 : (⟨S_, .i32⟩ : BufTy).Contents (Elt F) → (⟨S850000, .i32⟩ : BufTy).Contents (Elt F))) ?_
  intro G
  rfl

theorem val_main_v14 (V : Valuation τ sig (Elt F)) :
    after (ops (F := F)) V (Proc.devRef .tc main_v14) = (cmpi .slt : (⟨S850000, .i32⟩ : BufTy).Contents (Elt F) → (⟨S850000, .i32⟩ : BufTy).Contents (Elt F) → (⟨S850000, .i1⟩ : BufTy).Contents (Elt F)) (after (ops (F := F)) V (Proc.devRef .tc main_v3)) (after (ops (F := F)) V (Proc.devRef .tc main_v13)) := by
  rw [read0 V (r := main_v14) (by decide), read0 V (r := main_v3) (by decide), read0 V (r := main_v13) (by decide)]
  refine f_eqn2 (ops0_pairs (F := F)) 17 (by decide) _ main_v14 (by decide) main_v3 main_v13 (by decide) (by decide) (g := (cmpi .slt : (⟨S850000, .i32⟩ : BufTy).Contents (Elt F) → (⟨S850000, .i32⟩ : BufTy).Contents (Elt F) → (⟨S850000, .i1⟩ : BufTy).Contents (Elt F))) ?_
  intro G
  rfl

theorem val_main_c_1 (V : Valuation τ sig (Elt F)) :
    after (ops (F := F)) V (Proc.devRef .tc main_c_1) = (constantI S_ 32 50000#32) := by
  rw [read0 V (r := main_c_1) (by decide)]
  refine f_eqn0 (ops0_pairs (F := F)) 18 (by decide) _ main_c_1 (by decide) ?_
  intro G
  rfl

theorem val_main_v15 (V : Valuation τ sig (Elt F)) :
    after (ops (F := F)) V (Proc.devRef .tc main_v15) = (broadcastInDim S850000 ![] bcast_S_S850000 : (⟨S_, .i32⟩ : BufTy).Contents (Elt F) → (⟨S850000, .i32⟩ : BufTy).Contents (Elt F)) (after (ops (F := F)) V (Proc.devRef .tc main_c_1)) := by
  rw [read0 V (r := main_v15) (by decide), read0 V (r := main_c_1) (by decide)]
  refine f_eqn1 (ops0_pairs (F := F)) 19 (by decide) _ main_v15 (by decide) main_c_1 (by decide) (g := (broadcastInDim S850000 ![] bcast_S_S850000 : (⟨S_, .i32⟩ : BufTy).Contents (Elt F) → (⟨S850000, .i32⟩ : BufTy).Contents (Elt F))) ?_
  intro G
  rfl

theorem val_main_v16 (V : Valuation τ sig (Elt F)) :
    after (ops (F := F)) V (Proc.devRef .tc main_v16) = (addi : (⟨S850000, .i32⟩ : BufTy).Contents (Elt F) → (⟨S850000, .i32⟩ : BufTy).Contents (Elt F) → (⟨S850000, .i32⟩ : BufTy).Contents (Elt F)) (after (ops (F := F)) V (Proc.devRef .tc main_v3)) (after (ops (F := F)) V (Proc.devRef .tc main_v15)) := by
  rw [read0 V (r := main_v16) (by decide), read0 V (r := main_v3) (by decide), read0 V (r := main_v15) (by decide)]
  refine f_eqn2 (ops0_pairs (F := F)) 20 (by decide) _ main_v16 (by decide) main_v3 main_v15 (by decide) (by decide) (g := (addi : (⟨S850000, .i32⟩ : BufTy).Contents (Elt F) → (⟨S850000, .i32⟩ : BufTy).Contents (Elt F) → (⟨S850000, .i32⟩ : BufTy).Contents (Elt F))) ?_
  intro G
  rfl

theorem val_main_v17 (V : Valuation τ sig (Elt F)) :
    after (ops (F := F)) V (Proc.devRef .tc main_v17) = (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) (after (ops (F := F)) V (Proc.devRef .tc main_v14)) (after (ops (F := F)) V (Proc.devRef .tc main_v16)) (after (ops (F := F)) V (Proc.devRef .tc main_v3)) := by
  rw [read0 V (r := main_v17) (by decide), read0 V (r := main_v14) (by decide), read0 V (r := main_v16) (by decide), read0 V (r := main_v3) (by decide)]
  refine f_eqn3 (ops0_pairs (F := F)) 21 (by decide) _ main_v17 (by decide) main_v14 main_v16 main_v3 (by decide) (by decide) (by decide) (g := (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F))) ?_
  intro G
  rfl

theorem val_main_v18 (V : Valuation τ sig (Elt F)) :
    after (ops (F := F)) V (Proc.devRef .tc main_v18) = (broadcastInDim S850000x1 ![0] bcast_S850000_S850000x1_0 : (⟨S850000, .i32⟩ : BufTy).Contents (Elt F) → (⟨S850000x1, .i32⟩ : BufTy).Contents (Elt F)) (after (ops (F := F)) V (Proc.devRef .tc main_v17)) := by
  rw [read0 V (r := main_v18) (by decide), read0 V (r := main_v17) (by decide)]
  refine f_eqn1 (ops0_pairs (F := F)) 22 (by decide) _ main_v18 (by decide) main_v17 (by decide) (g := (broadcastInDim S850000x1 ![0] bcast_S850000_S850000x1_0 : (⟨S850000, .i32⟩ : BufTy).Contents (Elt F) → (⟨S850000x1, .i32⟩ : BufTy).Contents (Elt F))) ?_
  intro G
  rfl

theorem val_main_v19 (V : Valuation τ sig (Elt F)) :
    after (ops (F := F)) V (Proc.devRef .tc main_v19) = ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)) (after (ops (F := F)) V (Proc.devRef .tc main_v11)) (after (ops (F := F)) V (Proc.devRef .tc main_v18)) := by
  rw [read0 V (r := main_v19) (by decide), read0 V (r := main_v11) (by decide), read0 V (r := main_v18) (by decide)]
  refine f_eqn2 (ops0_pairs (F := F)) 23 (by decide) _ main_v19 (by decide) main_v11 main_v18 (by decide) (by decide) (g := ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F))) ?_
  intro G
  rfl

theorem val_main_c_2 (V : Valuation τ sig (Elt F)) :
    after (ops (F := F)) V (Proc.devRef .tc main_c_2) = (constantI S_ 32 0#32) := by
  rw [read0 V (r := main_c_2) (by decide)]
  refine f_eqn0 (ops0_pairs (F := F)) 24 (by decide) _ main_c_2 (by decide) ?_
  intro G
  rfl

theorem val_main_v20 (V : Valuation τ sig (Elt F)) :
    after (ops (F := F)) V (Proc.devRef .tc main_v20) = (broadcastInDim S850000 ![] bcast_S_S850000 : (⟨S_, .i32⟩ : BufTy).Contents (Elt F) → (⟨S850000, .i32⟩ : BufTy).Contents (Elt F)) (after (ops (F := F)) V (Proc.devRef .tc main_c_2)) := by
  rw [read0 V (r := main_v20) (by decide), read0 V (r := main_c_2) (by decide)]
  refine f_eqn1 (ops0_pairs (F := F)) 25 (by decide) _ main_v20 (by decide) main_c_2 (by decide) (g := (broadcastInDim S850000 ![] bcast_S_S850000 : (⟨S_, .i32⟩ : BufTy).Contents (Elt F) → (⟨S850000, .i32⟩ : BufTy).Contents (Elt F))) ?_
  intro G
  rfl

theorem val_main_v21 (V : Valuation τ sig (Elt F)) :
    after (ops (F := F)) V (Proc.devRef .tc main_v21) = (cmpi .slt : (⟨S850000, .i32⟩ : BufTy).Contents (Elt F) → (⟨S850000, .i32⟩ : BufTy).Contents (Elt F) → (⟨S850000, .i1⟩ : BufTy).Contents (Elt F)) (after (ops (F := F)) V (Proc.devRef .tc main_v6)) (after (ops (F := F)) V (Proc.devRef .tc main_v20)) := by
  rw [read0 V (r := main_v21) (by decide), read0 V (r := main_v6) (by decide), read0 V (r := main_v20) (by decide)]
  refine f_eqn2 (ops0_pairs (F := F)) 26 (by decide) _ main_v21 (by decide) main_v6 main_v20 (by decide) (by decide) (g := (cmpi .slt : (⟨S850000, .i32⟩ : BufTy).Contents (Elt F) → (⟨S850000, .i32⟩ : BufTy).Contents (Elt F) → (⟨S850000, .i1⟩ : BufTy).Contents (Elt F))) ?_
  intro G
  rfl

theorem val_main_c_3 (V : Valuation τ sig (Elt F)) :
    after (ops (F := F)) V (Proc.devRef .tc main_c_3) = (constantI S_ 32 50000#32) := by
  rw [read0 V (r := main_c_3) (by decide)]
  refine f_eqn0 (ops0_pairs (F := F)) 27 (by decide) _ main_c_3 (by decide) ?_
  intro G
  rfl

theorem val_main_v22 (V : Valuation τ sig (Elt F)) :
    after (ops (F := F)) V (Proc.devRef .tc main_v22) = (broadcastInDim S850000 ![] bcast_S_S850000 : (⟨S_, .i32⟩ : BufTy).Contents (Elt F) → (⟨S850000, .i32⟩ : BufTy).Contents (Elt F)) (after (ops (F := F)) V (Proc.devRef .tc main_c_3)) := by
  rw [read0 V (r := main_v22) (by decide), read0 V (r := main_c_3) (by decide)]
  refine f_eqn1 (ops0_pairs (F := F)) 28 (by decide) _ main_v22 (by decide) main_c_3 (by decide) (g := (broadcastInDim S850000 ![] bcast_S_S850000 : (⟨S_, .i32⟩ : BufTy).Contents (Elt F) → (⟨S850000, .i32⟩ : BufTy).Contents (Elt F))) ?_
  intro G
  rfl

theorem val_main_v23 (V : Valuation τ sig (Elt F)) :
    after (ops (F := F)) V (Proc.devRef .tc main_v23) = (addi : (⟨S850000, .i32⟩ : BufTy).Contents (Elt F) → (⟨S850000, .i32⟩ : BufTy).Contents (Elt F) → (⟨S850000, .i32⟩ : BufTy).Contents (Elt F)) (after (ops (F := F)) V (Proc.devRef .tc main_v6)) (after (ops (F := F)) V (Proc.devRef .tc main_v22)) := by
  rw [read0 V (r := main_v23) (by decide), read0 V (r := main_v6) (by decide), read0 V (r := main_v22) (by decide)]
  refine f_eqn2 (ops0_pairs (F := F)) 29 (by decide) _ main_v23 (by decide) main_v6 main_v22 (by decide) (by decide) (g := (addi : (⟨S850000, .i32⟩ : BufTy).Contents (Elt F) → (⟨S850000, .i32⟩ : BufTy).Contents (Elt F) → (⟨S850000, .i32⟩ : BufTy).Contents (Elt F))) ?_
  intro G
  rfl

theorem val_main_v24 (V : Valuation τ sig (Elt F)) :
    after (ops (F := F)) V (Proc.devRef .tc main_v24) = (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) (after (ops (F := F)) V (Proc.devRef .tc main_v21)) (after (ops (F := F)) V (Proc.devRef .tc main_v23)) (after (ops (F := F)) V (Proc.devRef .tc main_v6)) := by
  rw [read0 V (r := main_v24) (by decide), read0 V (r := main_v21) (by decide), read0 V (r := main_v23) (by decide), read0 V (r := main_v6) (by decide)]
  refine f_eqn3 (ops0_pairs (F := F)) 30 (by decide) _ main_v24 (by decide) main_v21 main_v23 main_v6 (by decide) (by decide) (by decide) (g := (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F))) ?_
  intro G
  rfl

theorem val_main_v25 (V : Valuation τ sig (Elt F)) :
    after (ops (F := F)) V (Proc.devRef .tc main_v25) = (broadcastInDim S850000x1 ![0] bcast_S850000_S850000x1_0 : (⟨S850000, .i32⟩ : BufTy).Contents (Elt F) → (⟨S850000x1, .i32⟩ : BufTy).Contents (Elt F)) (after (ops (F := F)) V (Proc.devRef .tc main_v24)) := by
  rw [read0 V (r := main_v25) (by decide), read0 V (r := main_v24) (by decide)]
  refine f_eqn1 (ops0_pairs (F := F)) 31 (by decide) _ main_v25 (by decide) main_v24 (by decide) (g := (broadcastInDim S850000x1 ![0] bcast_S850000_S850000x1_0 : (⟨S850000, .i32⟩ : BufTy).Contents (Elt F) → (⟨S850000x1, .i32⟩ : BufTy).Contents (Elt F))) ?_
  intro G
  rfl

theorem val_main_v26 (V : Valuation τ sig (Elt F)) :
    after (ops (F := F)) V (Proc.devRef .tc main_v26) = ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)) (after (ops (F := F)) V (Proc.devRef .tc main_v11)) (after (ops (F := F)) V (Proc.devRef .tc main_v25)) := by
  rw [read0 V (r := main_v26) (by decide), read0 V (r := main_v11) (by decide), read0 V (r := main_v25) (by decide)]
  refine f_eqn2 (ops0_pairs (F := F)) 32 (by decide) _ main_v26 (by decide) main_v11 main_v25 (by decide) (by decide) (g := ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F))) ?_
  intro G
  rfl

theorem val_main_v27 (V : Valuation τ sig (Elt F)) :
    after (ops (F := F)) V (Proc.devRef .tc main_v27) = (mulf : (⟨S850000, .f32⟩ : BufTy).Contents (Elt F) → (⟨S850000, .f32⟩ : BufTy).Contents (Elt F) → (⟨S850000, .f32⟩ : BufTy).Contents (Elt F)) (after (ops (F := F)) V (Proc.devRef .tc main_v19)) (after (ops (F := F)) V (Proc.devRef .tc main_v26)) := by
  rw [read0 V (r := main_v27) (by decide), read0 V (r := main_v19) (by decide), read0 V (r := main_v26) (by decide)]
  refine f_eqn2 (ops0_pairs (F := F)) 33 (by decide) _ main_v27 (by decide) main_v19 main_v26 (by decide) (by decide) (g := (mulf : (⟨S850000, .f32⟩ : BufTy).Contents (Elt F) → (⟨S850000, .f32⟩ : BufTy).Contents (Elt F) → (⟨S850000, .f32⟩ : BufTy).Contents (Elt F))) ?_
  intro G
  rfl

theorem val_main_c_4 (V : Valuation τ sig (Elt F)) :
    after (ops (F := F)) V (Proc.devRef .tc main_c_4) = (constantI S_ 32 0#32) := by
  rw [read0 V (r := main_c_4) (by decide)]
  refine f_eqn0 (ops0_pairs (F := F)) 34 (by decide) _ main_c_4 (by decide) ?_
  intro G
  rfl

theorem val_main_v28 (V : Valuation τ sig (Elt F)) :
    after (ops (F := F)) V (Proc.devRef .tc main_v28) = (broadcastInDim S850000 ![] bcast_S_S850000 : (⟨S_, .i32⟩ : BufTy).Contents (Elt F) → (⟨S850000, .i32⟩ : BufTy).Contents (Elt F)) (after (ops (F := F)) V (Proc.devRef .tc main_c_4)) := by
  rw [read0 V (r := main_v28) (by decide), read0 V (r := main_c_4) (by decide)]
  refine f_eqn1 (ops0_pairs (F := F)) 35 (by decide) _ main_v28 (by decide) main_c_4 (by decide) (g := (broadcastInDim S850000 ![] bcast_S_S850000 : (⟨S_, .i32⟩ : BufTy).Contents (Elt F) → (⟨S850000, .i32⟩ : BufTy).Contents (Elt F))) ?_
  intro G
  rfl

theorem val_main_v29 (V : Valuation τ sig (Elt F)) :
    after (ops (F := F)) V (Proc.devRef .tc main_v29) = (cmpi .slt : (⟨S850000, .i32⟩ : BufTy).Contents (Elt F) → (⟨S850000, .i32⟩ : BufTy).Contents (Elt F) → (⟨S850000, .i1⟩ : BufTy).Contents (Elt F)) (after (ops (F := F)) V (Proc.devRef .tc main_v3)) (after (ops (F := F)) V (Proc.devRef .tc main_v28)) := by
  rw [read0 V (r := main_v29) (by decide), read0 V (r := main_v3) (by decide), read0 V (r := main_v28) (by decide)]
  refine f_eqn2 (ops0_pairs (F := F)) 36 (by decide) _ main_v29 (by decide) main_v3 main_v28 (by decide) (by decide) (g := (cmpi .slt : (⟨S850000, .i32⟩ : BufTy).Contents (Elt F) → (⟨S850000, .i32⟩ : BufTy).Contents (Elt F) → (⟨S850000, .i1⟩ : BufTy).Contents (Elt F))) ?_
  intro G
  rfl

theorem val_main_c_5 (V : Valuation τ sig (Elt F)) :
    after (ops (F := F)) V (Proc.devRef .tc main_c_5) = (constantI S_ 32 50000#32) := by
  rw [read0 V (r := main_c_5) (by decide)]
  refine f_eqn0 (ops0_pairs (F := F)) 37 (by decide) _ main_c_5 (by decide) ?_
  intro G
  rfl

theorem val_main_v30 (V : Valuation τ sig (Elt F)) :
    after (ops (F := F)) V (Proc.devRef .tc main_v30) = (broadcastInDim S850000 ![] bcast_S_S850000 : (⟨S_, .i32⟩ : BufTy).Contents (Elt F) → (⟨S850000, .i32⟩ : BufTy).Contents (Elt F)) (after (ops (F := F)) V (Proc.devRef .tc main_c_5)) := by
  rw [read0 V (r := main_v30) (by decide), read0 V (r := main_c_5) (by decide)]
  refine f_eqn1 (ops0_pairs (F := F)) 38 (by decide) _ main_v30 (by decide) main_c_5 (by decide) (g := (broadcastInDim S850000 ![] bcast_S_S850000 : (⟨S_, .i32⟩ : BufTy).Contents (Elt F) → (⟨S850000, .i32⟩ : BufTy).Contents (Elt F))) ?_
  intro G
  rfl

theorem val_main_v31 (V : Valuation τ sig (Elt F)) :
    after (ops (F := F)) V (Proc.devRef .tc main_v31) = (addi : (⟨S850000, .i32⟩ : BufTy).Contents (Elt F) → (⟨S850000, .i32⟩ : BufTy).Contents (Elt F) → (⟨S850000, .i32⟩ : BufTy).Contents (Elt F)) (after (ops (F := F)) V (Proc.devRef .tc main_v3)) (after (ops (F := F)) V (Proc.devRef .tc main_v30)) := by
  rw [read0 V (r := main_v31) (by decide), read0 V (r := main_v3) (by decide), read0 V (r := main_v30) (by decide)]
  refine f_eqn2 (ops0_pairs (F := F)) 39 (by decide) _ main_v31 (by decide) main_v3 main_v30 (by decide) (by decide) (g := (addi : (⟨S850000, .i32⟩ : BufTy).Contents (Elt F) → (⟨S850000, .i32⟩ : BufTy).Contents (Elt F) → (⟨S850000, .i32⟩ : BufTy).Contents (Elt F))) ?_
  intro G
  rfl

theorem val_main_v32 (V : Valuation τ sig (Elt F)) :
    after (ops (F := F)) V (Proc.devRef .tc main_v32) = (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) (after (ops (F := F)) V (Proc.devRef .tc main_v29)) (after (ops (F := F)) V (Proc.devRef .tc main_v31)) (after (ops (F := F)) V (Proc.devRef .tc main_v3)) := by
  rw [read0 V (r := main_v32) (by decide), read0 V (r := main_v29) (by decide), read0 V (r := main_v31) (by decide), read0 V (r := main_v3) (by decide)]
  refine f_eqn3 (ops0_pairs (F := F)) 40 (by decide) _ main_v32 (by decide) main_v29 main_v31 main_v3 (by decide) (by decide) (by decide) (g := (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F))) ?_
  intro G
  rfl

/-! ## Piece 1 -/

theorem val_main_v33 (V : Valuation τ sig (Elt F)) :
    after (ops (F := F)) V (Proc.devRef .tc main_v33) = (broadcastInDim S850000x1 ![0] bcast_S850000_S850000x1_0 : (⟨S850000, .i32⟩ : BufTy).Contents (Elt F) → (⟨S850000x1, .i32⟩ : BufTy).Contents (Elt F)) (after (ops (F := F)) V (Proc.devRef .tc main_v32)) := by
  rw [read1 V (r := main_v33) (by decide), read1 V (r := main_v32) (by decide)]
  refine f_eqn1 (ops1_pairs (F := F)) 0 (by decide) _ main_v33 (by decide) main_v32 (by decide) (g := (broadcastInDim S850000x1 ![0] bcast_S850000_S850000x1_0 : (⟨S850000, .i32⟩ : BufTy).Contents (Elt F) → (⟨S850000x1, .i32⟩ : BufTy).Contents (Elt F))) ?_
  intro G
  rfl

theorem val_main_v34 (V : Valuation τ sig (Elt F)) :
    after (ops (F := F)) V (Proc.devRef .tc main_v34) = ((fun x i => Host.gather gather_S50000x96_S850000x1_S850000x96_1_0_n_n_0_1_196 x i) : (⟨S50000x96, .f32⟩ : BufTy).Contents (Elt F) → (⟨S850000x1, .i32⟩ : BufTy).Contents (Elt F) → (⟨S850000x96, .f32⟩ : BufTy).Contents (Elt F)) (after (ops (F := F)) V (Proc.devRef .tc main_v12)) (after (ops (F := F)) V (Proc.devRef .tc main_v33)) := by
  rw [read1 V (r := main_v34) (by decide), read1 V (r := main_v12) (by decide), read1 V (r := main_v33) (by decide)]
  refine f_eqn2 (ops1_pairs (F := F)) 1 (by decide) _ main_v34 (by decide) main_v12 main_v33 (by decide) (by decide) (g := ((fun x i => Host.gather gather_S50000x96_S850000x1_S850000x96_1_0_n_n_0_1_196 x i) : (⟨S50000x96, .f32⟩ : BufTy).Contents (Elt F) → (⟨S850000x1, .i32⟩ : BufTy).Contents (Elt F) → (⟨S850000x96, .f32⟩ : BufTy).Contents (Elt F))) ?_
  intro G
  rfl

theorem val_main_v35 (V : Valuation τ sig (Elt F)) :
    after (ops (F := F)) V (Proc.devRef .tc main_v35) = (broadcastInDim S850000x1 ![0] bcast_S850000_S850000x1_0 : (⟨S850000, .f32⟩ : BufTy).Contents (Elt F) → (⟨S850000x1, .f32⟩ : BufTy).Contents (Elt F)) (after (ops (F := F)) V (Proc.devRef .tc main_v27)) := by
  rw [read1 V (r := main_v35) (by decide), read1 V (r := main_v27) (by decide)]
  refine f_eqn1 (ops1_pairs (F := F)) 2 (by decide) _ main_v35 (by decide) main_v27 (by decide) (g := (broadcastInDim S850000x1 ![0] bcast_S850000_S850000x1_0 : (⟨S850000, .f32⟩ : BufTy).Contents (Elt F) → (⟨S850000x1, .f32⟩ : BufTy).Contents (Elt F))) ?_
  intro G
  rfl

theorem val_main_v36 (V : Valuation τ sig (Elt F)) :
    after (ops (F := F)) V (Proc.devRef .tc main_v36) = (broadcastInDim S850000x96 ![0, 1] bcast_S850000x1_S850000x96_0_1 : (⟨S850000x1, .f32⟩ : BufTy).Contents (Elt F) → (⟨S850000x96, .f32⟩ : BufTy).Contents (Elt F)) (after (ops (F := F)) V (Proc.devRef .tc main_v35)) := by
  rw [read1 V (r := main_v36) (by decide), read1 V (r := main_v35) (by decide)]
  refine f_eqn1 (ops1_pairs (F := F)) 3 (by decide) _ main_v36 (by decide) main_v35 (by decide) (g := (broadcastInDim S850000x96 ![0, 1] bcast_S850000x1_S850000x96_0_1 : (⟨S850000x1, .f32⟩ : BufTy).Contents (Elt F) → (⟨S850000x96, .f32⟩ : BufTy).Contents (Elt F))) ?_
  intro G
  rfl

theorem val_main_v37 (V : Valuation τ sig (Elt F)) :
    after (ops (F := F)) V (Proc.devRef .tc main_v37) = (mulf : (⟨S850000x96, .f32⟩ : BufTy).Contents (Elt F) → (⟨S850000x96, .f32⟩ : BufTy).Contents (Elt F) → (⟨S850000x96, .f32⟩ : BufTy).Contents (Elt F)) (after (ops (F := F)) V (Proc.devRef .tc main_v34)) (after (ops (F := F)) V (Proc.devRef .tc main_v36)) := by
  rw [read1 V (r := main_v37) (by decide), read1 V (r := main_v34) (by decide), read1 V (r := main_v36) (by decide)]
  refine f_eqn2 (ops1_pairs (F := F)) 4 (by decide) _ main_v37 (by decide) main_v34 main_v36 (by decide) (by decide) (g := (mulf : (⟨S850000x96, .f32⟩ : BufTy).Contents (Elt F) → (⟨S850000x96, .f32⟩ : BufTy).Contents (Elt F) → (⟨S850000x96, .f32⟩ : BufTy).Contents (Elt F))) ?_
  intro G
  rfl

theorem val_main_cst_6 (V : Valuation τ sig (Elt F)) :
    after (ops (F := F)) V (Proc.devRef .tc main_cst_6) = (constant S_ .f32 0x00000000#32) := by
  rw [read1 V (r := main_cst_6) (by decide)]
  refine f_eqn0 (ops1_pairs (F := F)) 5 (by decide) _ main_cst_6 (by decide) ?_
  intro G
  rfl

theorem val_main_v38 (V : Valuation τ sig (Elt F)) :
    after (ops (F := F)) V (Proc.devRef .tc main_v38) = (broadcastInDim S50000x96 ![] bcast_S_S50000x96 : (⟨S_, .f32⟩ : BufTy).Contents (Elt F) → (⟨S50000x96, .f32⟩ : BufTy).Contents (Elt F)) (after (ops (F := F)) V (Proc.devRef .tc main_cst_6)) := by
  rw [read1 V (r := main_v38) (by decide), read1 V (r := main_cst_6) (by decide)]
  refine f_eqn1 (ops1_pairs (F := F)) 6 (by decide) _ main_v38 (by decide) main_cst_6 (by decide) (g := (broadcastInDim S50000x96 ![] bcast_S_S50000x96 : (⟨S_, .f32⟩ : BufTy).Contents (Elt F) → (⟨S50000x96, .f32⟩ : BufTy).Contents (Elt F))) ?_
  intro G
  rfl

theorem val_main_v39 (V : Valuation τ sig (Elt F)) :
    after (ops (F := F)) V (Proc.devRef .tc main_v39) = (broadcastInDim S850000x1 ![0] bcast_S850000_S850000x1_0 : (⟨S850000, .i32⟩ : BufTy).Contents (Elt F) → (⟨S850000x1, .i32⟩ : BufTy).Contents (Elt F)) (after (ops (F := F)) V (Proc.devRef .tc main_v6)) := by
  rw [read1 V (r := main_v39) (by decide), read1 V (r := main_v6) (by decide)]
  refine f_eqn1 (ops1_pairs (F := F)) 7 (by decide) _ main_v39 (by decide) main_v6 (by decide) (g := (broadcastInDim S850000x1 ![0] bcast_S850000_S850000x1_0 : (⟨S850000, .i32⟩ : BufTy).Contents (Elt F) → (⟨S850000x1, .i32⟩ : BufTy).Contents (Elt F))) ?_
  intro G
  rfl

theorem val_main_v40 (V : Valuation τ sig (Elt F)) :
    after (ops (F := F)) V (Proc.devRef .tc main_v40) = ((fun x i u => Host.scatterAdd scatter_S50000x96_S850000x1_S850000x96_1_0_0_1 x i u) : (⟨S50000x96, .f32⟩ : BufTy).Contents (Elt F) → (⟨S850000x1, .i32⟩ : BufTy).Contents (Elt F) → (⟨S850000x96, .f32⟩ : BufTy).Contents (Elt F) → (⟨S50000x96, .f32⟩ : BufTy).Contents (Elt F)) (after (ops (F := F)) V (Proc.devRef .tc main_v38)) (after (ops (F := F)) V (Proc.devRef .tc main_v39)) (after (ops (F := F)) V (Proc.devRef .tc main_v37)) := by
  rw [read1 V (r := main_v40) (by decide), read1 V (r := main_v38) (by decide), read1 V (r := main_v39) (by decide), read1 V (r := main_v37) (by decide)]
  refine f_eqn3 (ops1_pairs (F := F)) 8 (by decide) _ main_v40 (by decide) main_v38 main_v39 main_v37 (by decide) (by decide) (by decide) (g := ((fun x i u => Host.scatterAdd scatter_S50000x96_S850000x1_S850000x96_1_0_0_1 x i u) : (⟨S50000x96, .f32⟩ : BufTy).Contents (Elt F) → (⟨S850000x1, .i32⟩ : BufTy).Contents (Elt F) → (⟨S850000x96, .f32⟩ : BufTy).Contents (Elt F) → (⟨S50000x96, .f32⟩ : BufTy).Contents (Elt F))) ?_
  intro G
  rfl

theorem val_main_v41 (V : Valuation τ sig (Elt F)) :
    after (ops (F := F)) V (Proc.devRef .tc main_v41) = (broadcastInDim S1x96 ![1] bcast_S96_S1x96_1 : (⟨S96, .f32⟩ : BufTy).Contents (Elt F) → (⟨S1x96, .f32⟩ : BufTy).Contents (Elt F)) (after (ops (F := F)) V (Proc.devRef .tc main_arg3)) := by
  rw [read1 V (r := main_v41) (by decide), read1 V (r := main_arg3) (by decide)]
  refine f_eqn1 (ops1_pairs (F := F)) 9 (by decide) _ main_v41 (by decide) main_arg3 (by decide) (g := (broadcastInDim S1x96 ![1] bcast_S96_S1x96_1 : (⟨S96, .f32⟩ : BufTy).Contents (Elt F) → (⟨S1x96, .f32⟩ : BufTy).Contents (Elt F))) ?_
  intro G
  rfl

theorem val_main_v42 (V : Valuation τ sig (Elt F)) :
    after (ops (F := F)) V (Proc.devRef .tc main_v42) = (broadcastInDim S50000x96 ![0, 1] bcast_S1x96_S50000x96_0_1 : (⟨S1x96, .f32⟩ : BufTy).Contents (Elt F) → (⟨S50000x96, .f32⟩ : BufTy).Contents (Elt F)) (after (ops (F := F)) V (Proc.devRef .tc main_v41)) := by
  rw [read1 V (r := main_v42) (by decide), read1 V (r := main_v41) (by decide)]
  refine f_eqn1 (ops1_pairs (F := F)) 10 (by decide) _ main_v42 (by decide) main_v41 (by decide) (g := (broadcastInDim S50000x96 ![0, 1] bcast_S1x96_S50000x96_0_1 : (⟨S1x96, .f32⟩ : BufTy).Contents (Elt F) → (⟨S50000x96, .f32⟩ : BufTy).Contents (Elt F))) ?_
  intro G
  rfl

theorem val_main_v43 (V : Valuation τ sig (Elt F)) :
    after (ops (F := F)) V (Proc.devRef .tc main_v43) = (addf : (⟨S50000x96, .f32⟩ : BufTy).Contents (Elt F) → (⟨S50000x96, .f32⟩ : BufTy).Contents (Elt F) → (⟨S50000x96, .f32⟩ : BufTy).Contents (Elt F)) (after (ops (F := F)) V (Proc.devRef .tc main_v40)) (after (ops (F := F)) V (Proc.devRef .tc main_v42)) := by
  rw [read1 V (r := main_v43) (by decide), read1 V (r := main_v40) (by decide), read1 V (r := main_v42) (by decide)]
  refine f_eqn2 (ops1_pairs (F := F)) 11 (by decide) _ main_v43 (by decide) main_v40 main_v42 (by decide) (by decide) (g := (addf : (⟨S50000x96, .f32⟩ : BufTy).Contents (Elt F) → (⟨S50000x96, .f32⟩ : BufTy).Contents (Elt F) → (⟨S50000x96, .f32⟩ : BufTy).Contents (Elt F))) ?_
  intro G
  rfl

theorem val_main_cst_7 (V : Valuation τ sig (Elt F)) :
    after (ops (F := F)) V (Proc.devRef .tc main_cst_7) = (constant S_ .f32 0x00000000#32) := by
  rw [read1 V (r := main_cst_7) (by decide)]
  refine f_eqn0 (ops1_pairs (F := F)) 12 (by decide) _ main_cst_7 (by decide) ?_
  intro G
  rfl

theorem val_main_v44 (V : Valuation τ sig (Elt F)) :
    after (ops (F := F)) V (Proc.devRef .tc main_v44) = ((fun x v => Host.reduceAdd x v reducesTo_S50000x96_S96_d0 h_S_) : (⟨S50000x96, .f32⟩ : BufTy).Contents (Elt F) → (⟨S_, .f32⟩ : BufTy).Contents (Elt F) → (⟨S96, .f32⟩ : BufTy).Contents (Elt F)) (after (ops (F := F)) V (Proc.devRef .tc main_v43)) (after (ops (F := F)) V (Proc.devRef .tc main_cst_7)) := by
  rw [read1 V (r := main_v44) (by decide), read1 V (r := main_v43) (by decide), read1 V (r := main_cst_7) (by decide)]
  refine f_eqn2 (ops1_pairs (F := F)) 13 (by decide) _ main_v44 (by decide) main_v43 main_cst_7 (by decide) (by decide) (g := ((fun x v => Host.reduceAdd x v reducesTo_S50000x96_S96_d0 h_S_) : (⟨S50000x96, .f32⟩ : BufTy).Contents (Elt F) → (⟨S_, .f32⟩ : BufTy).Contents (Elt F) → (⟨S96, .f32⟩ : BufTy).Contents (Elt F))) ?_
  intro G
  rfl

theorem val_main_cst_8 (V : Valuation τ sig (Elt F)) :
    after (ops (F := F)) V (Proc.devRef .tc main_cst_8) = (constant S_ .f32 0x47435000#32) := by
  rw [read1 V (r := main_cst_8) (by decide)]
  refine f_eqn0 (ops1_pairs (F := F)) 14 (by decide) _ main_cst_8 (by decide) ?_
  intro G
  rfl

theorem val_main_v45 (V : Valuation τ sig (Elt F)) :
    after (ops (F := F)) V (Proc.devRef .tc main_v45) = (broadcastInDim S96 ![] bcast_S_S96 : (⟨S_, .f32⟩ : BufTy).Contents (Elt F) → (⟨S96, .f32⟩ : BufTy).Contents (Elt F)) (after (ops (F := F)) V (Proc.devRef .tc main_cst_8)) := by
  rw [read1 V (r := main_v45) (by decide), read1 V (r := main_cst_8) (by decide)]
  refine f_eqn1 (ops1_pairs (F := F)) 15 (by decide) _ main_v45 (by decide) main_cst_8 (by decide) (g := (broadcastInDim S96 ![] bcast_S_S96 : (⟨S_, .f32⟩ : BufTy).Contents (Elt F) → (⟨S96, .f32⟩ : BufTy).Contents (Elt F))) ?_
  intro G
  rfl

theorem val_main_v46 (V : Valuation τ sig (Elt F)) :
    after (ops (F := F)) V (Proc.devRef .tc main_v46) = (Host.divf : (⟨S96, .f32⟩ : BufTy).Contents (Elt F) → (⟨S96, .f32⟩ : BufTy).Contents (Elt F) → (⟨S96, .f32⟩ : BufTy).Contents (Elt F)) (after (ops (F := F)) V (Proc.devRef .tc main_v44)) (after (ops (F := F)) V (Proc.devRef .tc main_v45)) := by
  rw [read1 V (r := main_v46) (by decide), read1 V (r := main_v44) (by decide), read1 V (r := main_v45) (by decide)]
  refine f_eqn2 (ops1_pairs (F := F)) 16 (by decide) _ main_v46 (by decide) main_v44 main_v45 (by decide) (by decide) (g := (Host.divf : (⟨S96, .f32⟩ : BufTy).Contents (Elt F) → (⟨S96, .f32⟩ : BufTy).Contents (Elt F) → (⟨S96, .f32⟩ : BufTy).Contents (Elt F))) ?_
  intro G
  rfl

theorem val_main_c_9 (V : Valuation τ sig (Elt F)) :
    after (ops (F := F)) V (Proc.devRef .tc main_c_9) = (constantI S_ 32 0#32) := by
  rw [read1 V (r := main_c_9) (by decide)]
  refine f_eqn0 (ops1_pairs (F := F)) 17 (by decide) _ main_c_9 (by decide) ?_
  intro G
  rfl

theorem val_main_call0_cst (V : Valuation τ sig (Elt F)) :
    after (ops (F := F)) V (Proc.devRef .tc main_call0_cst) = (constant S_ .f32 0x00000000#32) := by
  rw [read1 V (r := main_call0_cst) (by decide)]
  refine f_eqn0 (ops1_pairs (F := F)) 18 (by decide) _ main_call0_cst (by decide) ?_
  intro G
  rfl

theorem val_main_call0_v0 (V : Valuation τ sig (Elt F)) :
    after (ops (F := F)) V (Proc.devRef .tc main_call0_v0) = (fun x v => Host.reduceAdd x v reducesTo_S50000x96_S96_d0 h_S_ : (⟨S50000x96, .f32⟩ : BufTy).Contents (Elt F) → (⟨S_, .f32⟩ : BufTy).Contents (Elt F) → (⟨S96, .f32⟩ : BufTy).Contents (Elt F)) (after (ops (F := F)) V (Proc.devRef .tc main_v43)) (after (ops (F := F)) V (Proc.devRef .tc main_call0_cst)) := by
  rw [read1 V (r := main_call0_v0) (by decide), read1 V (r := main_v43) (by decide), read1 V (r := main_call0_cst) (by decide)]
  refine f_eqn2 (ops1_pairs (F := F)) 19 (by decide) _ main_call0_v0 (by decide) main_v43 main_call0_cst (by decide) (by decide) (g := (fun x v => Host.reduceAdd x v reducesTo_S50000x96_S96_d0 h_S_ : (⟨S50000x96, .f32⟩ : BufTy).Contents (Elt F) → (⟨S_, .f32⟩ : BufTy).Contents (Elt F) → (⟨S96, .f32⟩ : BufTy).Contents (Elt F))) ?_
  intro G
  rfl

theorem val_main_call0_v1 (V : Valuation τ sig (Elt F)) :
    after (ops (F := F)) V (Proc.devRef .tc main_call0_v1) = (broadcastInDim S1x96 ![1] bcast_S96_S1x96_1 : (⟨S96, .f32⟩ : BufTy).Contents (Elt F) → (⟨S1x96, .f32⟩ : BufTy).Contents (Elt F)) (after (ops (F := F)) V (Proc.devRef .tc main_call0_v0)) := by
  rw [read1 V (r := main_call0_v1) (by decide), read1 V (r := main_call0_v0) (by decide)]
  refine f_eqn1 (ops1_pairs (F := F)) 20 (by decide) _ main_call0_v1 (by decide) main_call0_v0 (by decide) (g := (broadcastInDim S1x96 ![1] bcast_S96_S1x96_1 : (⟨S96, .f32⟩ : BufTy).Contents (Elt F) → (⟨S1x96, .f32⟩ : BufTy).Contents (Elt F))) ?_
  intro G
  rfl

theorem val_main_call0_cst_0 (V : Valuation τ sig (Elt F)) :
    after (ops (F := F)) V (Proc.devRef .tc main_call0_cst_0) = (constant S_ .f32 0x47435000#32) := by
  rw [read1 V (r := main_call0_cst_0) (by decide)]
  refine f_eqn0 (ops1_pairs (F := F)) 21 (by decide) _ main_call0_cst_0 (by decide) ?_
  intro G
  rfl

theorem val_main_call0_v2 (V : Valuation τ sig (Elt F)) :
    after (ops (F := F)) V (Proc.devRef .tc main_call0_v2) = (broadcastInDim S1x96 ![] bcast_S_S1x96 : (⟨S_, .f32⟩ : BufTy).Contents (Elt F) → (⟨S1x96, .f32⟩ : BufTy).Contents (Elt F)) (after (ops (F := F)) V (Proc.devRef .tc main_call0_cst_0)) := by
  rw [read1 V (r := main_call0_v2) (by decide), read1 V (r := main_call0_cst_0) (by decide)]
  refine f_eqn1 (ops1_pairs (F := F)) 22 (by decide) _ main_call0_v2 (by decide) main_call0_cst_0 (by decide) (g := (broadcastInDim S1x96 ![] bcast_S_S1x96 : (⟨S_, .f32⟩ : BufTy).Contents (Elt F) → (⟨S1x96, .f32⟩ : BufTy).Contents (Elt F))) ?_
  intro G
  rfl

theorem val_main_call0_v3 (V : Valuation τ sig (Elt F)) :
    after (ops (F := F)) V (Proc.devRef .tc main_call0_v3) = (Host.divf : (⟨S1x96, .f32⟩ : BufTy).Contents (Elt F) → (⟨S1x96, .f32⟩ : BufTy).Contents (Elt F) → (⟨S1x96, .f32⟩ : BufTy).Contents (Elt F)) (after (ops (F := F)) V (Proc.devRef .tc main_call0_v1)) (after (ops (F := F)) V (Proc.devRef .tc main_call0_v2)) := by
  rw [read1 V (r := main_call0_v3) (by decide), read1 V (r := main_call0_v1) (by decide), read1 V (r := main_call0_v2) (by decide)]
  refine f_eqn2 (ops1_pairs (F := F)) 23 (by decide) _ main_call0_v3 (by decide) main_call0_v1 main_call0_v2 (by decide) (by decide) (g := (Host.divf : (⟨S1x96, .f32⟩ : BufTy).Contents (Elt F) → (⟨S1x96, .f32⟩ : BufTy).Contents (Elt F) → (⟨S1x96, .f32⟩ : BufTy).Contents (Elt F))) ?_
  intro G
  rfl

theorem val_main_call0_v4 (V : Valuation τ sig (Elt F)) :
    after (ops (F := F)) V (Proc.devRef .tc main_call0_v4) = (broadcastInDim S50000x96 ![0, 1] bcast_S1x96_S50000x96_0_1 : (⟨S1x96, .f32⟩ : BufTy).Contents (Elt F) → (⟨S50000x96, .f32⟩ : BufTy).Contents (Elt F)) (after (ops (F := F)) V (Proc.devRef .tc main_call0_v3)) := by
  rw [read1 V (r := main_call0_v4) (by decide), read1 V (r := main_call0_v3) (by decide)]
  refine f_eqn1 (ops1_pairs (F := F)) 24 (by decide) _ main_call0_v4 (by decide) main_call0_v3 (by decide) (g := (broadcastInDim S50000x96 ![0, 1] bcast_S1x96_S50000x96_0_1 : (⟨S1x96, .f32⟩ : BufTy).Contents (Elt F) → (⟨S50000x96, .f32⟩ : BufTy).Contents (Elt F))) ?_
  intro G
  rfl

theorem val_main_call0_v5 (V : Valuation τ sig (Elt F)) :
    after (ops (F := F)) V (Proc.devRef .tc main_call0_v5) = (subf : (⟨S50000x96, .f32⟩ : BufTy).Contents (Elt F) → (⟨S50000x96, .f32⟩ : BufTy).Contents (Elt F) → (⟨S50000x96, .f32⟩ : BufTy).Contents (Elt F)) (after (ops (F := F)) V (Proc.devRef .tc main_v43)) (after (ops (F := F)) V (Proc.devRef .tc main_call0_v4)) := by
  rw [read1 V (r := main_call0_v5) (by decide), read1 V (r := main_v43) (by decide), read1 V (r := main_call0_v4) (by decide)]
  refine f_eqn2 (ops1_pairs (F := F)) 25 (by decide) _ main_call0_v5 (by decide) main_v43 main_call0_v4 (by decide) (by decide) (g := (subf : (⟨S50000x96, .f32⟩ : BufTy).Contents (Elt F) → (⟨S50000x96, .f32⟩ : BufTy).Contents (Elt F) → (⟨S50000x96, .f32⟩ : BufTy).Contents (Elt F))) ?_
  intro G
  rfl

theorem val_main_call0_v6 (V : Valuation τ sig (Elt F)) :
    after (ops (F := F)) V (Proc.devRef .tc main_call0_v6) = (mulf : (⟨S50000x96, .f32⟩ : BufTy).Contents (Elt F) → (⟨S50000x96, .f32⟩ : BufTy).Contents (Elt F) → (⟨S50000x96, .f32⟩ : BufTy).Contents (Elt F)) (after (ops (F := F)) V (Proc.devRef .tc main_call0_v5)) (after (ops (F := F)) V (Proc.devRef .tc main_call0_v5)) := by
  rw [read1 V (r := main_call0_v6) (by decide), read1 V (r := main_call0_v5) (by decide)]
  refine f_eqn2 (ops1_pairs (F := F)) 26 (by decide) _ main_call0_v6 (by decide) main_call0_v5 main_call0_v5 (by decide) (by decide) (g := (mulf : (⟨S50000x96, .f32⟩ : BufTy).Contents (Elt F) → (⟨S50000x96, .f32⟩ : BufTy).Contents (Elt F) → (⟨S50000x96, .f32⟩ : BufTy).Contents (Elt F))) ?_
  intro G
  rfl

theorem val_main_call0_v7 (V : Valuation τ sig (Elt F)) :
    after (ops (F := F)) V (Proc.devRef .tc main_call0_v7) = (sitofp .f32 : (⟨S_, .i32⟩ : BufTy).Contents (Elt F) → (⟨S_, .f32⟩ : BufTy).Contents (Elt F)) (after (ops (F := F)) V (Proc.devRef .tc main_c_9)) := by
  rw [read1 V (r := main_call0_v7) (by decide), read1 V (r := main_c_9) (by decide)]
  refine f_eqn1 (ops1_pairs (F := F)) 27 (by decide) _ main_call0_v7 (by decide) main_c_9 (by decide) (g := (sitofp .f32 : (⟨S_, .i32⟩ : BufTy).Contents (Elt F) → (⟨S_, .f32⟩ : BufTy).Contents (Elt F))) ?_
  intro G
  rfl

theorem val_main_call0_cst_1 (V : Valuation τ sig (Elt F)) :
    after (ops (F := F)) V (Proc.devRef .tc main_call0_cst_1) = (constant S_ .f32 0x47435000#32) := by
  rw [read1 V (r := main_call0_cst_1) (by decide)]
  refine f_eqn0 (ops1_pairs (F := F)) 28 (by decide) _ main_call0_cst_1 (by decide) ?_
  intro G
  rfl

theorem val_main_call0_v8 (V : Valuation τ sig (Elt F)) :
    after (ops (F := F)) V (Proc.devRef .tc main_call0_v8) = (subf : (⟨S_, .f32⟩ : BufTy).Contents (Elt F) → (⟨S_, .f32⟩ : BufTy).Contents (Elt F) → (⟨S_, .f32⟩ : BufTy).Contents (Elt F)) (after (ops (F := F)) V (Proc.devRef .tc main_call0_cst_1)) (after (ops (F := F)) V (Proc.devRef .tc main_call0_v7)) := by
  rw [read1 V (r := main_call0_v8) (by decide), read1 V (r := main_call0_cst_1) (by decide), read1 V (r := main_call0_v7) (by decide)]
  refine f_eqn2 (ops1_pairs (F := F)) 29 (by decide) _ main_call0_v8 (by decide) main_call0_cst_1 main_call0_v7 (by decide) (by decide) (g := (subf : (⟨S_, .f32⟩ : BufTy).Contents (Elt F) → (⟨S_, .f32⟩ : BufTy).Contents (Elt F) → (⟨S_, .f32⟩ : BufTy).Contents (Elt F))) ?_
  intro G
  rfl

theorem val_main_call0_cst_2 (V : Valuation τ sig (Elt F)) :
    after (ops (F := F)) V (Proc.devRef .tc main_call0_cst_2) = (constant S_ .f32 0x00000000#32) := by
  rw [read1 V (r := main_call0_cst_2) (by decide)]
  refine f_eqn0 (ops1_pairs (F := F)) 30 (by decide) _ main_call0_cst_2 (by decide) ?_
  intro G
  rfl

theorem val_main_call0_v9 (V : Valuation τ sig (Elt F)) :
    after (ops (F := F)) V (Proc.devRef .tc main_call0_v9) = (fun x v => Host.reduceAdd x v reducesTo_S50000x96_S96_d0 h_S_ : (⟨S50000x96, .f32⟩ : BufTy).Contents (Elt F) → (⟨S_, .f32⟩ : BufTy).Contents (Elt F) → (⟨S96, .f32⟩ : BufTy).Contents (Elt F)) (after (ops (F := F)) V (Proc.devRef .tc main_call0_v6)) (after (ops (F := F)) V (Proc.devRef .tc main_call0_cst_2)) := by
  rw [read1 V (r := main_call0_v9) (by decide), read1 V (r := main_call0_v6) (by decide), read1 V (r := main_call0_cst_2) (by decide)]
  refine f_eqn2 (ops1_pairs (F := F)) 31 (by decide) _ main_call0_v9 (by decide) main_call0_v6 main_call0_cst_2 (by decide) (by decide) (g := (fun x v => Host.reduceAdd x v reducesTo_S50000x96_S96_d0 h_S_ : (⟨S50000x96, .f32⟩ : BufTy).Contents (Elt F) → (⟨S_, .f32⟩ : BufTy).Contents (Elt F) → (⟨S96, .f32⟩ : BufTy).Contents (Elt F))) ?_
  intro G
  rfl

theorem val_main_call0_v10 (V : Valuation τ sig (Elt F)) :
    after (ops (F := F)) V (Proc.devRef .tc main_call0_v10) = (broadcastInDim S96 ![] bcast_S_S96 : (⟨S_, .f32⟩ : BufTy).Contents (Elt F) → (⟨S96, .f32⟩ : BufTy).Contents (Elt F)) (after (ops (F := F)) V (Proc.devRef .tc main_call0_v8)) := by
  rw [read1 V (r := main_call0_v10) (by decide), read1 V (r := main_call0_v8) (by decide)]
  refine f_eqn1 (ops1_pairs (F := F)) 32 (by decide) _ main_call0_v10 (by decide) main_call0_v8 (by decide) (g := (broadcastInDim S96 ![] bcast_S_S96 : (⟨S_, .f32⟩ : BufTy).Contents (Elt F) → (⟨S96, .f32⟩ : BufTy).Contents (Elt F))) ?_
  intro G
  rfl

theorem val_main_call0_v11 (V : Valuation τ sig (Elt F)) :
    after (ops (F := F)) V (Proc.devRef .tc main_call0_v11) = (Host.divf : (⟨S96, .f32⟩ : BufTy).Contents (Elt F) → (⟨S96, .f32⟩ : BufTy).Contents (Elt F) → (⟨S96, .f32⟩ : BufTy).Contents (Elt F)) (after (ops (F := F)) V (Proc.devRef .tc main_call0_v9)) (after (ops (F := F)) V (Proc.devRef .tc main_call0_v10)) := by
  rw [read1 V (r := main_call0_v11) (by decide), read1 V (r := main_call0_v9) (by decide), read1 V (r := main_call0_v10) (by decide)]
  refine f_eqn2 (ops1_pairs (F := F)) 33 (by decide) _ main_call0_v11 (by decide) main_call0_v9 main_call0_v10 (by decide) (by decide) (g := (Host.divf : (⟨S96, .f32⟩ : BufTy).Contents (Elt F) → (⟨S96, .f32⟩ : BufTy).Contents (Elt F) → (⟨S96, .f32⟩ : BufTy).Contents (Elt F))) ?_
  intro G
  rfl

theorem val_main_call0_cst_3 (V : Valuation τ sig (Elt F)) :
    after (ops (F := F)) V (Proc.devRef .tc main_call0_cst_3) = (constant S_ .f32 0x00000000#32) := by
  rw [read1 V (r := main_call0_cst_3) (by decide)]
  refine f_eqn0 (ops1_pairs (F := F)) 34 (by decide) _ main_call0_cst_3 (by decide) ?_
  intro G
  rfl

theorem val_main_call0_v12 (V : Valuation τ sig (Elt F)) :
    after (ops (F := F)) V (Proc.devRef .tc main_call0_v12) = (cmpf .ogt : (⟨S_, .f32⟩ : BufTy).Contents (Elt F) → (⟨S_, .f32⟩ : BufTy).Contents (Elt F) → (⟨S_, .i1⟩ : BufTy).Contents (Elt F)) (after (ops (F := F)) V (Proc.devRef .tc main_call0_v8)) (after (ops (F := F)) V (Proc.devRef .tc main_call0_cst_3)) := by
  rw [read1 V (r := main_call0_v12) (by decide), read1 V (r := main_call0_v8) (by decide), read1 V (r := main_call0_cst_3) (by decide)]
  refine f_eqn2 (ops1_pairs (F := F)) 35 (by decide) _ main_call0_v12 (by decide) main_call0_v8 main_call0_cst_3 (by decide) (by decide) (g := (cmpf .ogt : (⟨S_, .f32⟩ : BufTy).Contents (Elt F) → (⟨S_, .f32⟩ : BufTy).Contents (Elt F) → (⟨S_, .i1⟩ : BufTy).Contents (Elt F))) ?_
  intro G
  rfl

theorem val_main_call0_cst_4 (V : Valuation τ sig (Elt F)) :
    after (ops (F := F)) V (Proc.devRef .tc main_call0_cst_4) = (constant S_ .f32 0x7FC00000#32) := by
  rw [read1 V (r := main_call0_cst_4) (by decide)]
  refine f_eqn0 (ops1_pairs (F := F)) 36 (by decide) _ main_call0_cst_4 (by decide) ?_
  intro G
  rfl

theorem val_main_call0_call0_v0 (V : Valuation τ sig (Elt F)) :
    after (ops (F := F)) V (Proc.devRef .tc main_call0_call0_v0) = (id : (⟨S_, .f32⟩ : BufTy).Contents (Elt F) → (⟨S_, .f32⟩ : BufTy).Contents (Elt F)) (after (ops (F := F)) V (Proc.devRef .tc main_call0_cst_4)) := by
  rw [read1 V (r := main_call0_call0_v0) (by decide), read1 V (r := main_call0_cst_4) (by decide)]
  refine f_eqn1 (ops1_pairs (F := F)) 37 (by decide) _ main_call0_call0_v0 (by decide) main_call0_cst_4 (by decide) (g := (id : (⟨S_, .f32⟩ : BufTy).Contents (Elt F) → (⟨S_, .f32⟩ : BufTy).Contents (Elt F))) ?_
  intro G
  rfl

theorem val_main_call0_call0_v1 (V : Valuation τ sig (Elt F)) :
    after (ops (F := F)) V (Proc.devRef .tc main_call0_call0_v1) = (broadcastInDim S96 ![] bcast_S_S96 : (⟨S_, .f32⟩ : BufTy).Contents (Elt F) → (⟨S96, .f32⟩ : BufTy).Contents (Elt F)) (after (ops (F := F)) V (Proc.devRef .tc main_call0_call0_v0)) := by
  rw [read1 V (r := main_call0_call0_v1) (by decide), read1 V (r := main_call0_call0_v0) (by decide)]
  refine f_eqn1 (ops1_pairs (F := F)) 38 (by decide) _ main_call0_call0_v1 (by decide) main_call0_call0_v0 (by decide) (g := (broadcastInDim S96 ![] bcast_S_S96 : (⟨S_, .f32⟩ : BufTy).Contents (Elt F) → (⟨S96, .f32⟩ : BufTy).Contents (Elt F))) ?_
  intro G
  rfl

theorem val_main_v47 (V : Valuation τ sig (Elt F)) :
    after (ops (F := F)) V (Proc.devRef .tc main_v47) = (fun p a b => select (broadcastInDim S96 ![] bcast_S_S96 p) a b : (⟨S_, .i1⟩ : BufTy).Contents (Elt F) → (⟨S96, .f32⟩ : BufTy).Contents (Elt F) → (⟨S96, .f32⟩ : BufTy).Contents (Elt F) → (⟨S96, .f32⟩ : BufTy).Contents (Elt F)) (after (ops (F := F)) V (Proc.devRef .tc main_call0_v12)) (after (ops (F := F)) V (Proc.devRef .tc main_call0_v11)) (after (ops (F := F)) V (Proc.devRef .tc main_call0_call0_v1)) := by
  rw [read1 V (r := main_v47) (by decide), read1 V (r := main_call0_v12) (by decide), read1 V (r := main_call0_v11) (by decide), read1 V (r := main_call0_call0_v1) (by decide)]
  refine f_eqn3 (ops1_pairs (F := F)) 39 (by decide) _ main_v47 (by decide) main_call0_v12 main_call0_v11 main_call0_call0_v1 (by decide) (by decide) (by decide) (g := (fun p a b => select (broadcastInDim S96 ![] bcast_S_S96 p) a b : (⟨S_, .i1⟩ : BufTy).Contents (Elt F) → (⟨S96, .f32⟩ : BufTy).Contents (Elt F) → (⟨S96, .f32⟩ : BufTy).Contents (Elt F) → (⟨S96, .f32⟩ : BufTy).Contents (Elt F))) ?_
  intro G
  rfl

/-! ## Piece 2 -/

theorem val_main_v48 (V : Valuation τ sig (Elt F)) :
    after (ops (F := F)) V (Proc.devRef .tc main_v48) = (broadcastInDim S1x96 ![1] bcast_S96_S1x96_1 : (⟨S96, .f32⟩ : BufTy).Contents (Elt F) → (⟨S1x96, .f32⟩ : BufTy).Contents (Elt F)) (after (ops (F := F)) V (Proc.devRef .tc main_v46)) := by
  rw [read2 V (r := main_v48) (by decide), read2 V (r := main_v46) (by decide)]
  refine f_eqn1 (ops2_pairs (F := F)) 0 (by decide) _ main_v48 (by decide) main_v46 (by decide) (g := (broadcastInDim S1x96 ![1] bcast_S96_S1x96_1 : (⟨S96, .f32⟩ : BufTy).Contents (Elt F) → (⟨S1x96, .f32⟩ : BufTy).Contents (Elt F))) ?_
  intro G
  rfl

theorem val_main_v49 (V : Valuation τ sig (Elt F)) :
    after (ops (F := F)) V (Proc.devRef .tc main_v49) = (broadcastInDim S50000x96 ![0, 1] bcast_S1x96_S50000x96_0_1 : (⟨S1x96, .f32⟩ : BufTy).Contents (Elt F) → (⟨S50000x96, .f32⟩ : BufTy).Contents (Elt F)) (after (ops (F := F)) V (Proc.devRef .tc main_v48)) := by
  rw [read2 V (r := main_v49) (by decide), read2 V (r := main_v48) (by decide)]
  refine f_eqn1 (ops2_pairs (F := F)) 1 (by decide) _ main_v49 (by decide) main_v48 (by decide) (g := (broadcastInDim S50000x96 ![0, 1] bcast_S1x96_S50000x96_0_1 : (⟨S1x96, .f32⟩ : BufTy).Contents (Elt F) → (⟨S50000x96, .f32⟩ : BufTy).Contents (Elt F))) ?_
  intro G
  rfl

theorem val_main_v50 (V : Valuation τ sig (Elt F)) :
    after (ops (F := F)) V (Proc.devRef .tc main_v50) = (subf : (⟨S50000x96, .f32⟩ : BufTy).Contents (Elt F) → (⟨S50000x96, .f32⟩ : BufTy).Contents (Elt F) → (⟨S50000x96, .f32⟩ : BufTy).Contents (Elt F)) (after (ops (F := F)) V (Proc.devRef .tc main_v43)) (after (ops (F := F)) V (Proc.devRef .tc main_v49)) := by
  rw [read2 V (r := main_v50) (by decide), read2 V (r := main_v43) (by decide), read2 V (r := main_v49) (by decide)]
  refine f_eqn2 (ops2_pairs (F := F)) 2 (by decide) _ main_v50 (by decide) main_v43 main_v49 (by decide) (by decide) (g := (subf : (⟨S50000x96, .f32⟩ : BufTy).Contents (Elt F) → (⟨S50000x96, .f32⟩ : BufTy).Contents (Elt F) → (⟨S50000x96, .f32⟩ : BufTy).Contents (Elt F))) ?_
  intro G
  rfl

theorem val_main_v51 (V : Valuation τ sig (Elt F)) :
    after (ops (F := F)) V (Proc.devRef .tc main_v51) = (broadcastInDim S1x96 ![1] bcast_S96_S1x96_1 : (⟨S96, .f32⟩ : BufTy).Contents (Elt F) → (⟨S1x96, .f32⟩ : BufTy).Contents (Elt F)) (after (ops (F := F)) V (Proc.devRef .tc main_arg4)) := by
  rw [read2 V (r := main_v51) (by decide), read2 V (r := main_arg4) (by decide)]
  refine f_eqn1 (ops2_pairs (F := F)) 3 (by decide) _ main_v51 (by decide) main_arg4 (by decide) (g := (broadcastInDim S1x96 ![1] bcast_S96_S1x96_1 : (⟨S96, .f32⟩ : BufTy).Contents (Elt F) → (⟨S1x96, .f32⟩ : BufTy).Contents (Elt F))) ?_
  intro G
  rfl

theorem val_main_v52 (V : Valuation τ sig (Elt F)) :
    after (ops (F := F)) V (Proc.devRef .tc main_v52) = (broadcastInDim S50000x96 ![0, 1] bcast_S1x96_S50000x96_0_1 : (⟨S1x96, .f32⟩ : BufTy).Contents (Elt F) → (⟨S50000x96, .f32⟩ : BufTy).Contents (Elt F)) (after (ops (F := F)) V (Proc.devRef .tc main_v51)) := by
  rw [read2 V (r := main_v52) (by decide), read2 V (r := main_v51) (by decide)]
  refine f_eqn1 (ops2_pairs (F := F)) 4 (by decide) _ main_v52 (by decide) main_v51 (by decide) (g := (broadcastInDim S50000x96 ![0, 1] bcast_S1x96_S50000x96_0_1 : (⟨S1x96, .f32⟩ : BufTy).Contents (Elt F) → (⟨S50000x96, .f32⟩ : BufTy).Contents (Elt F))) ?_
  intro G
  rfl

theorem val_main_v53 (V : Valuation τ sig (Elt F)) :
    after (ops (F := F)) V (Proc.devRef .tc main_v53) = (mulf : (⟨S50000x96, .f32⟩ : BufTy).Contents (Elt F) → (⟨S50000x96, .f32⟩ : BufTy).Contents (Elt F) → (⟨S50000x96, .f32⟩ : BufTy).Contents (Elt F)) (after (ops (F := F)) V (Proc.devRef .tc main_v52)) (after (ops (F := F)) V (Proc.devRef .tc main_v50)) := by
  rw [read2 V (r := main_v53) (by decide), read2 V (r := main_v52) (by decide), read2 V (r := main_v50) (by decide)]
  refine f_eqn2 (ops2_pairs (F := F)) 5 (by decide) _ main_v53 (by decide) main_v52 main_v50 (by decide) (by decide) (g := (mulf : (⟨S50000x96, .f32⟩ : BufTy).Contents (Elt F) → (⟨S50000x96, .f32⟩ : BufTy).Contents (Elt F) → (⟨S50000x96, .f32⟩ : BufTy).Contents (Elt F))) ?_
  intro G
  rfl

theorem val_main_cst_10 (V : Valuation τ sig (Elt F)) :
    after (ops (F := F)) V (Proc.devRef .tc main_cst_10) = (constant S_ .f32 0x3727C5AC#32) := by
  rw [read2 V (r := main_cst_10) (by decide)]
  refine f_eqn0 (ops2_pairs (F := F)) 6 (by decide) _ main_cst_10 (by decide) ?_
  intro G
  rfl

theorem val_main_v54 (V : Valuation τ sig (Elt F)) :
    after (ops (F := F)) V (Proc.devRef .tc main_v54) = (broadcastInDim S96 ![] bcast_S_S96 : (⟨S_, .f32⟩ : BufTy).Contents (Elt F) → (⟨S96, .f32⟩ : BufTy).Contents (Elt F)) (after (ops (F := F)) V (Proc.devRef .tc main_cst_10)) := by
  rw [read2 V (r := main_v54) (by decide), read2 V (r := main_cst_10) (by decide)]
  refine f_eqn1 (ops2_pairs (F := F)) 7 (by decide) _ main_v54 (by decide) main_cst_10 (by decide) (g := (broadcastInDim S96 ![] bcast_S_S96 : (⟨S_, .f32⟩ : BufTy).Contents (Elt F) → (⟨S96, .f32⟩ : BufTy).Contents (Elt F))) ?_
  intro G
  rfl

theorem val_main_v55 (V : Valuation τ sig (Elt F)) :
    after (ops (F := F)) V (Proc.devRef .tc main_v55) = (addf : (⟨S96, .f32⟩ : BufTy).Contents (Elt F) → (⟨S96, .f32⟩ : BufTy).Contents (Elt F) → (⟨S96, .f32⟩ : BufTy).Contents (Elt F)) (after (ops (F := F)) V (Proc.devRef .tc main_v47)) (after (ops (F := F)) V (Proc.devRef .tc main_v54)) := by
  rw [read2 V (r := main_v55) (by decide), read2 V (r := main_v47) (by decide), read2 V (r := main_v54) (by decide)]
  refine f_eqn2 (ops2_pairs (F := F)) 8 (by decide) _ main_v55 (by decide) main_v47 main_v54 (by decide) (by decide) (g := (addf : (⟨S96, .f32⟩ : BufTy).Contents (Elt F) → (⟨S96, .f32⟩ : BufTy).Contents (Elt F) → (⟨S96, .f32⟩ : BufTy).Contents (Elt F))) ?_
  intro G
  rfl

theorem val_main_v56 (V : Valuation τ sig (Elt F)) :
    after (ops (F := F)) V (Proc.devRef .tc main_v56) = (Host.rsqrt : (⟨S96, .f32⟩ : BufTy).Contents (Elt F) → (⟨S96, .f32⟩ : BufTy).Contents (Elt F)) (after (ops (F := F)) V (Proc.devRef .tc main_v55)) := by
  rw [read2 V (r := main_v56) (by decide), read2 V (r := main_v55) (by decide)]
  refine f_eqn1 (ops2_pairs (F := F)) 9 (by decide) _ main_v56 (by decide) main_v55 (by decide) (g := (Host.rsqrt : (⟨S96, .f32⟩ : BufTy).Contents (Elt F) → (⟨S96, .f32⟩ : BufTy).Contents (Elt F))) ?_
  intro G
  rfl

theorem val_main_v57 (V : Valuation τ sig (Elt F)) :
    after (ops (F := F)) V (Proc.devRef .tc main_v57) = (broadcastInDim S1x96 ![1] bcast_S96_S1x96_1 : (⟨S96, .f32⟩ : BufTy).Contents (Elt F) → (⟨S1x96, .f32⟩ : BufTy).Contents (Elt F)) (after (ops (F := F)) V (Proc.devRef .tc main_v56)) := by
  rw [read2 V (r := main_v57) (by decide), read2 V (r := main_v56) (by decide)]
  refine f_eqn1 (ops2_pairs (F := F)) 10 (by decide) _ main_v57 (by decide) main_v56 (by decide) (g := (broadcastInDim S1x96 ![1] bcast_S96_S1x96_1 : (⟨S96, .f32⟩ : BufTy).Contents (Elt F) → (⟨S1x96, .f32⟩ : BufTy).Contents (Elt F))) ?_
  intro G
  rfl

theorem val_main_v58 (V : Valuation τ sig (Elt F)) :
    after (ops (F := F)) V (Proc.devRef .tc main_v58) = (broadcastInDim S50000x96 ![0, 1] bcast_S1x96_S50000x96_0_1 : (⟨S1x96, .f32⟩ : BufTy).Contents (Elt F) → (⟨S50000x96, .f32⟩ : BufTy).Contents (Elt F)) (after (ops (F := F)) V (Proc.devRef .tc main_v57)) := by
  rw [read2 V (r := main_v58) (by decide), read2 V (r := main_v57) (by decide)]
  refine f_eqn1 (ops2_pairs (F := F)) 11 (by decide) _ main_v58 (by decide) main_v57 (by decide) (g := (broadcastInDim S50000x96 ![0, 1] bcast_S1x96_S50000x96_0_1 : (⟨S1x96, .f32⟩ : BufTy).Contents (Elt F) → (⟨S50000x96, .f32⟩ : BufTy).Contents (Elt F))) ?_
  intro G
  rfl

theorem val_main_v59 (V : Valuation τ sig (Elt F)) :
    after (ops (F := F)) V (Proc.devRef .tc main_v59) = (mulf : (⟨S50000x96, .f32⟩ : BufTy).Contents (Elt F) → (⟨S50000x96, .f32⟩ : BufTy).Contents (Elt F) → (⟨S50000x96, .f32⟩ : BufTy).Contents (Elt F)) (after (ops (F := F)) V (Proc.devRef .tc main_v53)) (after (ops (F := F)) V (Proc.devRef .tc main_v58)) := by
  rw [read2 V (r := main_v59) (by decide), read2 V (r := main_v53) (by decide), read2 V (r := main_v58) (by decide)]
  refine f_eqn2 (ops2_pairs (F := F)) 12 (by decide) _ main_v59 (by decide) main_v53 main_v58 (by decide) (by decide) (g := (mulf : (⟨S50000x96, .f32⟩ : BufTy).Contents (Elt F) → (⟨S50000x96, .f32⟩ : BufTy).Contents (Elt F) → (⟨S50000x96, .f32⟩ : BufTy).Contents (Elt F))) ?_
  intro G
  rfl

theorem val_main_v60 (V : Valuation τ sig (Elt F)) :
    after (ops (F := F)) V (Proc.devRef .tc main_v60) = (broadcastInDim S1x96 ![1] bcast_S96_S1x96_1 : (⟨S96, .f32⟩ : BufTy).Contents (Elt F) → (⟨S1x96, .f32⟩ : BufTy).Contents (Elt F)) (after (ops (F := F)) V (Proc.devRef .tc main_arg5)) := by
  rw [read2 V (r := main_v60) (by decide), read2 V (r := main_arg5) (by decide)]
  refine f_eqn1 (ops2_pairs (F := F)) 13 (by decide) _ main_v60 (by decide) main_arg5 (by decide) (g := (broadcastInDim S1x96 ![1] bcast_S96_S1x96_1 : (⟨S96, .f32⟩ : BufTy).Contents (Elt F) → (⟨S1x96, .f32⟩ : BufTy).Contents (Elt F))) ?_
  intro G
  rfl

theorem val_main_v61 (V : Valuation τ sig (Elt F)) :
    after (ops (F := F)) V (Proc.devRef .tc main_v61) = (broadcastInDim S50000x96 ![0, 1] bcast_S1x96_S50000x96_0_1 : (⟨S1x96, .f32⟩ : BufTy).Contents (Elt F) → (⟨S50000x96, .f32⟩ : BufTy).Contents (Elt F)) (after (ops (F := F)) V (Proc.devRef .tc main_v60)) := by
  rw [read2 V (r := main_v61) (by decide), read2 V (r := main_v60) (by decide)]
  refine f_eqn1 (ops2_pairs (F := F)) 14 (by decide) _ main_v61 (by decide) main_v60 (by decide) (g := (broadcastInDim S50000x96 ![0, 1] bcast_S1x96_S50000x96_0_1 : (⟨S1x96, .f32⟩ : BufTy).Contents (Elt F) → (⟨S50000x96, .f32⟩ : BufTy).Contents (Elt F))) ?_
  intro G
  rfl

theorem val_main_v62 (V : Valuation τ sig (Elt F)) :
    after (ops (F := F)) V (Proc.devRef .tc main_v62) = (addf : (⟨S50000x96, .f32⟩ : BufTy).Contents (Elt F) → (⟨S50000x96, .f32⟩ : BufTy).Contents (Elt F) → (⟨S50000x96, .f32⟩ : BufTy).Contents (Elt F)) (after (ops (F := F)) V (Proc.devRef .tc main_v59)) (after (ops (F := F)) V (Proc.devRef .tc main_v61)) := by
  rw [read2 V (r := main_v62) (by decide), read2 V (r := main_v59) (by decide), read2 V (r := main_v61) (by decide)]
  refine f_eqn2 (ops2_pairs (F := F)) 15 (by decide) _ main_v62 (by decide) main_v59 main_v61 (by decide) (by decide) (g := (addf : (⟨S50000x96, .f32⟩ : BufTy).Contents (Elt F) → (⟨S50000x96, .f32⟩ : BufTy).Contents (Elt F) → (⟨S50000x96, .f32⟩ : BufTy).Contents (Elt F))) ?_
  intro G
  rfl

theorem val_main_call1_cst (V : Valuation τ sig (Elt F)) :
    after (ops (F := F)) V (Proc.devRef .tc main_call1_cst) = (constant S_ .f32 0x00000000#32) := by
  rw [read2 V (r := main_call1_cst) (by decide)]
  refine f_eqn0 (ops2_pairs (F := F)) 16 (by decide) _ main_call1_cst (by decide) ?_
  intro G
  rfl

theorem val_main_call1_v0 (V : Valuation τ sig (Elt F)) :
    after (ops (F := F)) V (Proc.devRef .tc main_call1_v0) = (broadcastInDim S50000x96 ![] bcast_S_S50000x96 : (⟨S_, .f32⟩ : BufTy).Contents (Elt F) → (⟨S50000x96, .f32⟩ : BufTy).Contents (Elt F)) (after (ops (F := F)) V (Proc.devRef .tc main_call1_cst)) := by
  rw [read2 V (r := main_call1_v0) (by decide), read2 V (r := main_call1_cst) (by decide)]
  refine f_eqn1 (ops2_pairs (F := F)) 17 (by decide) _ main_call1_v0 (by decide) main_call1_cst (by decide) (g := (broadcastInDim S50000x96 ![] bcast_S_S50000x96 : (⟨S_, .f32⟩ : BufTy).Contents (Elt F) → (⟨S50000x96, .f32⟩ : BufTy).Contents (Elt F))) ?_
  intro G
  rfl

theorem val_main_v63 (V : Valuation τ sig (Elt F)) :
    after (ops (F := F)) V (Proc.devRef .tc main_v63) = (maximumf : (⟨S50000x96, .f32⟩ : BufTy).Contents (Elt F) → (⟨S50000x96, .f32⟩ : BufTy).Contents (Elt F) → (⟨S50000x96, .f32⟩ : BufTy).Contents (Elt F)) (after (ops (F := F)) V (Proc.devRef .tc main_v62)) (after (ops (F := F)) V (Proc.devRef .tc main_call1_v0)) := by
  rw [read2 V (r := main_v63) (by decide), read2 V (r := main_v62) (by decide), read2 V (r := main_call1_v0) (by decide)]
  refine f_eqn2 (ops2_pairs (F := F)) 18 (by decide) _ main_v63 (by decide) main_v62 main_call1_v0 (by decide) (by decide) (g := (maximumf : (⟨S50000x96, .f32⟩ : BufTy).Contents (Elt F) → (⟨S50000x96, .f32⟩ : BufTy).Contents (Elt F) → (⟨S50000x96, .f32⟩ : BufTy).Contents (Elt F))) ?_
  intro G
  rfl

theorem val_main_v64 (V : Valuation τ sig (Elt F)) :
    after (ops (F := F)) V (Proc.devRef .tc main_v64) = ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)) (after (ops (F := F)) V (Proc.devRef .tc main_v63)) (after (ops (F := F)) V (Proc.devRef .tc main_arg6)) := by
  rw [read2 V (r := main_v64) (by decide), read2 V (r := main_v63) (by decide), read2 V (r := main_arg6) (by decide)]
  refine f_eqn2 (ops2_pairs (F := F)) 19 (by decide) _ main_v64 (by decide) main_v63 main_arg6 (by decide) (by decide) (g := ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F))) ?_
  intro G
  rfl

theorem val_main_c_11 (V : Valuation τ sig (Elt F)) :
    after (ops (F := F)) V (Proc.devRef .tc main_c_11) = (constantI S_ 32 0#32) := by
  rw [read2 V (r := main_c_11) (by decide)]
  refine f_eqn0 (ops2_pairs (F := F)) 20 (by decide) _ main_c_11 (by decide) ?_
  intro G
  rfl

theorem val_main_v65 (V : Valuation τ sig (Elt F)) :
    after (ops (F := F)) V (Proc.devRef .tc main_v65) = (broadcastInDim S850000 ![] bcast_S_S850000 : (⟨S_, .i32⟩ : BufTy).Contents (Elt F) → (⟨S850000, .i32⟩ : BufTy).Contents (Elt F)) (after (ops (F := F)) V (Proc.devRef .tc main_c_11)) := by
  rw [read2 V (r := main_v65) (by decide), read2 V (r := main_c_11) (by decide)]
  refine f_eqn1 (ops2_pairs (F := F)) 21 (by decide) _ main_v65 (by decide) main_c_11 (by decide) (g := (broadcastInDim S850000 ![] bcast_S_S850000 : (⟨S_, .i32⟩ : BufTy).Contents (Elt F) → (⟨S850000, .i32⟩ : BufTy).Contents (Elt F))) ?_
  intro G
  rfl

theorem val_main_v66 (V : Valuation τ sig (Elt F)) :
    after (ops (F := F)) V (Proc.devRef .tc main_v66) = (cmpi .slt : (⟨S850000, .i32⟩ : BufTy).Contents (Elt F) → (⟨S850000, .i32⟩ : BufTy).Contents (Elt F) → (⟨S850000, .i1⟩ : BufTy).Contents (Elt F)) (after (ops (F := F)) V (Proc.devRef .tc main_v3)) (after (ops (F := F)) V (Proc.devRef .tc main_v65)) := by
  rw [read2 V (r := main_v66) (by decide), read2 V (r := main_v3) (by decide), read2 V (r := main_v65) (by decide)]
  refine f_eqn2 (ops2_pairs (F := F)) 22 (by decide) _ main_v66 (by decide) main_v3 main_v65 (by decide) (by decide) (g := (cmpi .slt : (⟨S850000, .i32⟩ : BufTy).Contents (Elt F) → (⟨S850000, .i32⟩ : BufTy).Contents (Elt F) → (⟨S850000, .i1⟩ : BufTy).Contents (Elt F))) ?_
  intro G
  rfl

theorem val_main_c_12 (V : Valuation τ sig (Elt F)) :
    after (ops (F := F)) V (Proc.devRef .tc main_c_12) = (constantI S_ 32 50000#32) := by
  rw [read2 V (r := main_c_12) (by decide)]
  refine f_eqn0 (ops2_pairs (F := F)) 23 (by decide) _ main_c_12 (by decide) ?_
  intro G
  rfl

theorem val_main_v67 (V : Valuation τ sig (Elt F)) :
    after (ops (F := F)) V (Proc.devRef .tc main_v67) = (broadcastInDim S850000 ![] bcast_S_S850000 : (⟨S_, .i32⟩ : BufTy).Contents (Elt F) → (⟨S850000, .i32⟩ : BufTy).Contents (Elt F)) (after (ops (F := F)) V (Proc.devRef .tc main_c_12)) := by
  rw [read2 V (r := main_v67) (by decide), read2 V (r := main_c_12) (by decide)]
  refine f_eqn1 (ops2_pairs (F := F)) 24 (by decide) _ main_v67 (by decide) main_c_12 (by decide) (g := (broadcastInDim S850000 ![] bcast_S_S850000 : (⟨S_, .i32⟩ : BufTy).Contents (Elt F) → (⟨S850000, .i32⟩ : BufTy).Contents (Elt F))) ?_
  intro G
  rfl

theorem val_main_v68 (V : Valuation τ sig (Elt F)) :
    after (ops (F := F)) V (Proc.devRef .tc main_v68) = (addi : (⟨S850000, .i32⟩ : BufTy).Contents (Elt F) → (⟨S850000, .i32⟩ : BufTy).Contents (Elt F) → (⟨S850000, .i32⟩ : BufTy).Contents (Elt F)) (after (ops (F := F)) V (Proc.devRef .tc main_v3)) (after (ops (F := F)) V (Proc.devRef .tc main_v67)) := by
  rw [read2 V (r := main_v68) (by decide), read2 V (r := main_v3) (by decide), read2 V (r := main_v67) (by decide)]
  refine f_eqn2 (ops2_pairs (F := F)) 25 (by decide) _ main_v68 (by decide) main_v3 main_v67 (by decide) (by decide) (g := (addi : (⟨S850000, .i32⟩ : BufTy).Contents (Elt F) → (⟨S850000, .i32⟩ : BufTy).Contents (Elt F) → (⟨S850000, .i32⟩ : BufTy).Contents (Elt F))) ?_
  intro G
  rfl

theorem val_main_v69 (V : Valuation τ sig (Elt F)) :
    after (ops (F := F)) V (Proc.devRef .tc main_v69) = (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) (after (ops (F := F)) V (Proc.devRef .tc main_v66)) (after (ops (F := F)) V (Proc.devRef .tc main_v68)) (after (ops (F := F)) V (Proc.devRef .tc main_v3)) := by
  rw [read2 V (r := main_v69) (by decide), read2 V (r := main_v66) (by decide), read2 V (r := main_v68) (by decide), read2 V (r := main_v3) (by decide)]
  refine f_eqn3 (ops2_pairs (F := F)) 26 (by decide) _ main_v69 (by decide) main_v66 main_v68 main_v3 (by decide) (by decide) (by decide) (g := (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F))) ?_
  intro G
  rfl

theorem val_main_v70 (V : Valuation τ sig (Elt F)) :
    after (ops (F := F)) V (Proc.devRef .tc main_v70) = (broadcastInDim S850000x1 ![0] bcast_S850000_S850000x1_0 : (⟨S850000, .i32⟩ : BufTy).Contents (Elt F) → (⟨S850000x1, .i32⟩ : BufTy).Contents (Elt F)) (after (ops (F := F)) V (Proc.devRef .tc main_v69)) := by
  rw [read2 V (r := main_v70) (by decide), read2 V (r := main_v69) (by decide)]
  refine f_eqn1 (ops2_pairs (F := F)) 27 (by decide) _ main_v70 (by decide) main_v69 (by decide) (g := (broadcastInDim S850000x1 ![0] bcast_S850000_S850000x1_0 : (⟨S850000, .i32⟩ : BufTy).Contents (Elt F) → (⟨S850000x1, .i32⟩ : BufTy).Contents (Elt F))) ?_
  intro G
  rfl

theorem val_main_v71 (V : Valuation τ sig (Elt F)) :
    after (ops (F := F)) V (Proc.devRef .tc main_v71) = ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)) (after (ops (F := F)) V (Proc.devRef .tc main_v11)) (after (ops (F := F)) V (Proc.devRef .tc main_v70)) := by
  rw [read2 V (r := main_v71) (by decide), read2 V (r := main_v11) (by decide), read2 V (r := main_v70) (by decide)]
  refine f_eqn2 (ops2_pairs (F := F)) 28 (by decide) _ main_v71 (by decide) main_v11 main_v70 (by decide) (by decide) (g := ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F))) ?_
  intro G
  rfl

theorem val_main_c_13 (V : Valuation τ sig (Elt F)) :
    after (ops (F := F)) V (Proc.devRef .tc main_c_13) = (constantI S_ 32 0#32) := by
  rw [read2 V (r := main_c_13) (by decide)]
  refine f_eqn0 (ops2_pairs (F := F)) 29 (by decide) _ main_c_13 (by decide) ?_
  intro G
  rfl

theorem val_main_v72 (V : Valuation τ sig (Elt F)) :
    after (ops (F := F)) V (Proc.devRef .tc main_v72) = (broadcastInDim S850000 ![] bcast_S_S850000 : (⟨S_, .i32⟩ : BufTy).Contents (Elt F) → (⟨S850000, .i32⟩ : BufTy).Contents (Elt F)) (after (ops (F := F)) V (Proc.devRef .tc main_c_13)) := by
  rw [read2 V (r := main_v72) (by decide), read2 V (r := main_c_13) (by decide)]
  refine f_eqn1 (ops2_pairs (F := F)) 30 (by decide) _ main_v72 (by decide) main_c_13 (by decide) (g := (broadcastInDim S850000 ![] bcast_S_S850000 : (⟨S_, .i32⟩ : BufTy).Contents (Elt F) → (⟨S850000, .i32⟩ : BufTy).Contents (Elt F))) ?_
  intro G
  rfl

/-! ## Piece 3 -/

theorem val_main_v73 (V : Valuation τ sig (Elt F)) :
    after (ops (F := F)) V (Proc.devRef .tc main_v73) = (cmpi .slt : (⟨S850000, .i32⟩ : BufTy).Contents (Elt F) → (⟨S850000, .i32⟩ : BufTy).Contents (Elt F) → (⟨S850000, .i1⟩ : BufTy).Contents (Elt F)) (after (ops (F := F)) V (Proc.devRef .tc main_v6)) (after (ops (F := F)) V (Proc.devRef .tc main_v72)) := by
  rw [read3 V (r := main_v73) (by decide), read3 V (r := main_v6) (by decide), read3 V (r := main_v72) (by decide)]
  refine f_eqn2 (ops3_pairs (F := F)) 0 (by decide) _ main_v73 (by decide) main_v6 main_v72 (by decide) (by decide) (g := (cmpi .slt : (⟨S850000, .i32⟩ : BufTy).Contents (Elt F) → (⟨S850000, .i32⟩ : BufTy).Contents (Elt F) → (⟨S850000, .i1⟩ : BufTy).Contents (Elt F))) ?_
  intro G
  rfl

theorem val_main_c_14 (V : Valuation τ sig (Elt F)) :
    after (ops (F := F)) V (Proc.devRef .tc main_c_14) = (constantI S_ 32 50000#32) := by
  rw [read3 V (r := main_c_14) (by decide)]
  refine f_eqn0 (ops3_pairs (F := F)) 1 (by decide) _ main_c_14 (by decide) ?_
  intro G
  rfl

theorem val_main_v74 (V : Valuation τ sig (Elt F)) :
    after (ops (F := F)) V (Proc.devRef .tc main_v74) = (broadcastInDim S850000 ![] bcast_S_S850000 : (⟨S_, .i32⟩ : BufTy).Contents (Elt F) → (⟨S850000, .i32⟩ : BufTy).Contents (Elt F)) (after (ops (F := F)) V (Proc.devRef .tc main_c_14)) := by
  rw [read3 V (r := main_v74) (by decide), read3 V (r := main_c_14) (by decide)]
  refine f_eqn1 (ops3_pairs (F := F)) 2 (by decide) _ main_v74 (by decide) main_c_14 (by decide) (g := (broadcastInDim S850000 ![] bcast_S_S850000 : (⟨S_, .i32⟩ : BufTy).Contents (Elt F) → (⟨S850000, .i32⟩ : BufTy).Contents (Elt F))) ?_
  intro G
  rfl

theorem val_main_v75 (V : Valuation τ sig (Elt F)) :
    after (ops (F := F)) V (Proc.devRef .tc main_v75) = (addi : (⟨S850000, .i32⟩ : BufTy).Contents (Elt F) → (⟨S850000, .i32⟩ : BufTy).Contents (Elt F) → (⟨S850000, .i32⟩ : BufTy).Contents (Elt F)) (after (ops (F := F)) V (Proc.devRef .tc main_v6)) (after (ops (F := F)) V (Proc.devRef .tc main_v74)) := by
  rw [read3 V (r := main_v75) (by decide), read3 V (r := main_v6) (by decide), read3 V (r := main_v74) (by decide)]
  refine f_eqn2 (ops3_pairs (F := F)) 3 (by decide) _ main_v75 (by decide) main_v6 main_v74 (by decide) (by decide) (g := (addi : (⟨S850000, .i32⟩ : BufTy).Contents (Elt F) → (⟨S850000, .i32⟩ : BufTy).Contents (Elt F) → (⟨S850000, .i32⟩ : BufTy).Contents (Elt F))) ?_
  intro G
  rfl

theorem val_main_v76 (V : Valuation τ sig (Elt F)) :
    after (ops (F := F)) V (Proc.devRef .tc main_v76) = (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) (after (ops (F := F)) V (Proc.devRef .tc main_v73)) (after (ops (F := F)) V (Proc.devRef .tc main_v75)) (after (ops (F := F)) V (Proc.devRef .tc main_v6)) := by
  rw [read3 V (r := main_v76) (by decide), read3 V (r := main_v73) (by decide), read3 V (r := main_v75) (by decide), read3 V (r := main_v6) (by decide)]
  refine f_eqn3 (ops3_pairs (F := F)) 4 (by decide) _ main_v76 (by decide) main_v73 main_v75 main_v6 (by decide) (by decide) (by decide) (g := (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F))) ?_
  intro G
  rfl

theorem val_main_v77 (V : Valuation τ sig (Elt F)) :
    after (ops (F := F)) V (Proc.devRef .tc main_v77) = (broadcastInDim S850000x1 ![0] bcast_S850000_S850000x1_0 : (⟨S850000, .i32⟩ : BufTy).Contents (Elt F) → (⟨S850000x1, .i32⟩ : BufTy).Contents (Elt F)) (after (ops (F := F)) V (Proc.devRef .tc main_v76)) := by
  rw [read3 V (r := main_v77) (by decide), read3 V (r := main_v76) (by decide)]
  refine f_eqn1 (ops3_pairs (F := F)) 5 (by decide) _ main_v77 (by decide) main_v76 (by decide) (g := (broadcastInDim S850000x1 ![0] bcast_S850000_S850000x1_0 : (⟨S850000, .i32⟩ : BufTy).Contents (Elt F) → (⟨S850000x1, .i32⟩ : BufTy).Contents (Elt F))) ?_
  intro G
  rfl

theorem val_main_v78 (V : Valuation τ sig (Elt F)) :
    after (ops (F := F)) V (Proc.devRef .tc main_v78) = ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)) (after (ops (F := F)) V (Proc.devRef .tc main_v11)) (after (ops (F := F)) V (Proc.devRef .tc main_v77)) := by
  rw [read3 V (r := main_v78) (by decide), read3 V (r := main_v11) (by decide), read3 V (r := main_v77) (by decide)]
  refine f_eqn2 (ops3_pairs (F := F)) 6 (by decide) _ main_v78 (by decide) main_v11 main_v77 (by decide) (by decide) (g := ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F))) ?_
  intro G
  rfl

theorem val_main_v79 (V : Valuation τ sig (Elt F)) :
    after (ops (F := F)) V (Proc.devRef .tc main_v79) = (mulf : (⟨S850000, .f32⟩ : BufTy).Contents (Elt F) → (⟨S850000, .f32⟩ : BufTy).Contents (Elt F) → (⟨S850000, .f32⟩ : BufTy).Contents (Elt F)) (after (ops (F := F)) V (Proc.devRef .tc main_v71)) (after (ops (F := F)) V (Proc.devRef .tc main_v78)) := by
  rw [read3 V (r := main_v79) (by decide), read3 V (r := main_v71) (by decide), read3 V (r := main_v78) (by decide)]
  refine f_eqn2 (ops3_pairs (F := F)) 7 (by decide) _ main_v79 (by decide) main_v71 main_v78 (by decide) (by decide) (g := (mulf : (⟨S850000, .f32⟩ : BufTy).Contents (Elt F) → (⟨S850000, .f32⟩ : BufTy).Contents (Elt F) → (⟨S850000, .f32⟩ : BufTy).Contents (Elt F))) ?_
  intro G
  rfl

theorem val_main_c_15 (V : Valuation τ sig (Elt F)) :
    after (ops (F := F)) V (Proc.devRef .tc main_c_15) = (constantI S_ 32 0#32) := by
  rw [read3 V (r := main_c_15) (by decide)]
  refine f_eqn0 (ops3_pairs (F := F)) 8 (by decide) _ main_c_15 (by decide) ?_
  intro G
  rfl

theorem val_main_v80 (V : Valuation τ sig (Elt F)) :
    after (ops (F := F)) V (Proc.devRef .tc main_v80) = (broadcastInDim S850000 ![] bcast_S_S850000 : (⟨S_, .i32⟩ : BufTy).Contents (Elt F) → (⟨S850000, .i32⟩ : BufTy).Contents (Elt F)) (after (ops (F := F)) V (Proc.devRef .tc main_c_15)) := by
  rw [read3 V (r := main_v80) (by decide), read3 V (r := main_c_15) (by decide)]
  refine f_eqn1 (ops3_pairs (F := F)) 9 (by decide) _ main_v80 (by decide) main_c_15 (by decide) (g := (broadcastInDim S850000 ![] bcast_S_S850000 : (⟨S_, .i32⟩ : BufTy).Contents (Elt F) → (⟨S850000, .i32⟩ : BufTy).Contents (Elt F))) ?_
  intro G
  rfl

theorem val_main_v81 (V : Valuation τ sig (Elt F)) :
    after (ops (F := F)) V (Proc.devRef .tc main_v81) = (cmpi .slt : (⟨S850000, .i32⟩ : BufTy).Contents (Elt F) → (⟨S850000, .i32⟩ : BufTy).Contents (Elt F) → (⟨S850000, .i1⟩ : BufTy).Contents (Elt F)) (after (ops (F := F)) V (Proc.devRef .tc main_v3)) (after (ops (F := F)) V (Proc.devRef .tc main_v80)) := by
  rw [read3 V (r := main_v81) (by decide), read3 V (r := main_v3) (by decide), read3 V (r := main_v80) (by decide)]
  refine f_eqn2 (ops3_pairs (F := F)) 10 (by decide) _ main_v81 (by decide) main_v3 main_v80 (by decide) (by decide) (g := (cmpi .slt : (⟨S850000, .i32⟩ : BufTy).Contents (Elt F) → (⟨S850000, .i32⟩ : BufTy).Contents (Elt F) → (⟨S850000, .i1⟩ : BufTy).Contents (Elt F))) ?_
  intro G
  rfl

theorem val_main_c_16 (V : Valuation τ sig (Elt F)) :
    after (ops (F := F)) V (Proc.devRef .tc main_c_16) = (constantI S_ 32 50000#32) := by
  rw [read3 V (r := main_c_16) (by decide)]
  refine f_eqn0 (ops3_pairs (F := F)) 11 (by decide) _ main_c_16 (by decide) ?_
  intro G
  rfl

theorem val_main_v82 (V : Valuation τ sig (Elt F)) :
    after (ops (F := F)) V (Proc.devRef .tc main_v82) = (broadcastInDim S850000 ![] bcast_S_S850000 : (⟨S_, .i32⟩ : BufTy).Contents (Elt F) → (⟨S850000, .i32⟩ : BufTy).Contents (Elt F)) (after (ops (F := F)) V (Proc.devRef .tc main_c_16)) := by
  rw [read3 V (r := main_v82) (by decide), read3 V (r := main_c_16) (by decide)]
  refine f_eqn1 (ops3_pairs (F := F)) 12 (by decide) _ main_v82 (by decide) main_c_16 (by decide) (g := (broadcastInDim S850000 ![] bcast_S_S850000 : (⟨S_, .i32⟩ : BufTy).Contents (Elt F) → (⟨S850000, .i32⟩ : BufTy).Contents (Elt F))) ?_
  intro G
  rfl

theorem val_main_v83 (V : Valuation τ sig (Elt F)) :
    after (ops (F := F)) V (Proc.devRef .tc main_v83) = (addi : (⟨S850000, .i32⟩ : BufTy).Contents (Elt F) → (⟨S850000, .i32⟩ : BufTy).Contents (Elt F) → (⟨S850000, .i32⟩ : BufTy).Contents (Elt F)) (after (ops (F := F)) V (Proc.devRef .tc main_v3)) (after (ops (F := F)) V (Proc.devRef .tc main_v82)) := by
  rw [read3 V (r := main_v83) (by decide), read3 V (r := main_v3) (by decide), read3 V (r := main_v82) (by decide)]
  refine f_eqn2 (ops3_pairs (F := F)) 13 (by decide) _ main_v83 (by decide) main_v3 main_v82 (by decide) (by decide) (g := (addi : (⟨S850000, .i32⟩ : BufTy).Contents (Elt F) → (⟨S850000, .i32⟩ : BufTy).Contents (Elt F) → (⟨S850000, .i32⟩ : BufTy).Contents (Elt F))) ?_
  intro G
  rfl

theorem val_main_v84 (V : Valuation τ sig (Elt F)) :
    after (ops (F := F)) V (Proc.devRef .tc main_v84) = (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) (after (ops (F := F)) V (Proc.devRef .tc main_v81)) (after (ops (F := F)) V (Proc.devRef .tc main_v83)) (after (ops (F := F)) V (Proc.devRef .tc main_v3)) := by
  rw [read3 V (r := main_v84) (by decide), read3 V (r := main_v81) (by decide), read3 V (r := main_v83) (by decide), read3 V (r := main_v3) (by decide)]
  refine f_eqn3 (ops3_pairs (F := F)) 14 (by decide) _ main_v84 (by decide) main_v81 main_v83 main_v3 (by decide) (by decide) (by decide) (g := (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F))) ?_
  intro G
  rfl

theorem val_main_v85 (V : Valuation τ sig (Elt F)) :
    after (ops (F := F)) V (Proc.devRef .tc main_v85) = (broadcastInDim S850000x1 ![0] bcast_S850000_S850000x1_0 : (⟨S850000, .i32⟩ : BufTy).Contents (Elt F) → (⟨S850000x1, .i32⟩ : BufTy).Contents (Elt F)) (after (ops (F := F)) V (Proc.devRef .tc main_v84)) := by
  rw [read3 V (r := main_v85) (by decide), read3 V (r := main_v84) (by decide)]
  refine f_eqn1 (ops3_pairs (F := F)) 15 (by decide) _ main_v85 (by decide) main_v84 (by decide) (g := (broadcastInDim S850000x1 ![0] bcast_S850000_S850000x1_0 : (⟨S850000, .i32⟩ : BufTy).Contents (Elt F) → (⟨S850000x1, .i32⟩ : BufTy).Contents (Elt F))) ?_
  intro G
  rfl

theorem val_main_v86 (V : Valuation τ sig (Elt F)) :
    after (ops (F := F)) V (Proc.devRef .tc main_v86) = ((fun x i => Host.gather gather_S50000x96_S850000x1_S850000x96_1_0_n_n_0_1_196 x i) : (⟨S50000x96, .f32⟩ : BufTy).Contents (Elt F) → (⟨S850000x1, .i32⟩ : BufTy).Contents (Elt F) → (⟨S850000x96, .f32⟩ : BufTy).Contents (Elt F)) (after (ops (F := F)) V (Proc.devRef .tc main_v64)) (after (ops (F := F)) V (Proc.devRef .tc main_v85)) := by
  rw [read3 V (r := main_v86) (by decide), read3 V (r := main_v64) (by decide), read3 V (r := main_v85) (by decide)]
  refine f_eqn2 (ops3_pairs (F := F)) 16 (by decide) _ main_v86 (by decide) main_v64 main_v85 (by decide) (by decide) (g := ((fun x i => Host.gather gather_S50000x96_S850000x1_S850000x96_1_0_n_n_0_1_196 x i) : (⟨S50000x96, .f32⟩ : BufTy).Contents (Elt F) → (⟨S850000x1, .i32⟩ : BufTy).Contents (Elt F) → (⟨S850000x96, .f32⟩ : BufTy).Contents (Elt F))) ?_
  intro G
  rfl

theorem val_main_v87 (V : Valuation τ sig (Elt F)) :
    after (ops (F := F)) V (Proc.devRef .tc main_v87) = (broadcastInDim S850000x1 ![0] bcast_S850000_S850000x1_0 : (⟨S850000, .f32⟩ : BufTy).Contents (Elt F) → (⟨S850000x1, .f32⟩ : BufTy).Contents (Elt F)) (after (ops (F := F)) V (Proc.devRef .tc main_v79)) := by
  rw [read3 V (r := main_v87) (by decide), read3 V (r := main_v79) (by decide)]
  refine f_eqn1 (ops3_pairs (F := F)) 17 (by decide) _ main_v87 (by decide) main_v79 (by decide) (g := (broadcastInDim S850000x1 ![0] bcast_S850000_S850000x1_0 : (⟨S850000, .f32⟩ : BufTy).Contents (Elt F) → (⟨S850000x1, .f32⟩ : BufTy).Contents (Elt F))) ?_
  intro G
  rfl

theorem val_main_v88 (V : Valuation τ sig (Elt F)) :
    after (ops (F := F)) V (Proc.devRef .tc main_v88) = (broadcastInDim S850000x96 ![0, 1] bcast_S850000x1_S850000x96_0_1 : (⟨S850000x1, .f32⟩ : BufTy).Contents (Elt F) → (⟨S850000x96, .f32⟩ : BufTy).Contents (Elt F)) (after (ops (F := F)) V (Proc.devRef .tc main_v87)) := by
  rw [read3 V (r := main_v88) (by decide), read3 V (r := main_v87) (by decide)]
  refine f_eqn1 (ops3_pairs (F := F)) 18 (by decide) _ main_v88 (by decide) main_v87 (by decide) (g := (broadcastInDim S850000x96 ![0, 1] bcast_S850000x1_S850000x96_0_1 : (⟨S850000x1, .f32⟩ : BufTy).Contents (Elt F) → (⟨S850000x96, .f32⟩ : BufTy).Contents (Elt F))) ?_
  intro G
  rfl

theorem val_main_v89 (V : Valuation τ sig (Elt F)) :
    after (ops (F := F)) V (Proc.devRef .tc main_v89) = (mulf : (⟨S850000x96, .f32⟩ : BufTy).Contents (Elt F) → (⟨S850000x96, .f32⟩ : BufTy).Contents (Elt F) → (⟨S850000x96, .f32⟩ : BufTy).Contents (Elt F)) (after (ops (F := F)) V (Proc.devRef .tc main_v86)) (after (ops (F := F)) V (Proc.devRef .tc main_v88)) := by
  rw [read3 V (r := main_v89) (by decide), read3 V (r := main_v86) (by decide), read3 V (r := main_v88) (by decide)]
  refine f_eqn2 (ops3_pairs (F := F)) 19 (by decide) _ main_v89 (by decide) main_v86 main_v88 (by decide) (by decide) (g := (mulf : (⟨S850000x96, .f32⟩ : BufTy).Contents (Elt F) → (⟨S850000x96, .f32⟩ : BufTy).Contents (Elt F) → (⟨S850000x96, .f32⟩ : BufTy).Contents (Elt F))) ?_
  intro G
  rfl

theorem val_main_cst_17 (V : Valuation τ sig (Elt F)) :
    after (ops (F := F)) V (Proc.devRef .tc main_cst_17) = (constant S_ .f32 0x00000000#32) := by
  rw [read3 V (r := main_cst_17) (by decide)]
  refine f_eqn0 (ops3_pairs (F := F)) 20 (by decide) _ main_cst_17 (by decide) ?_
  intro G
  rfl

theorem val_main_v90 (V : Valuation τ sig (Elt F)) :
    after (ops (F := F)) V (Proc.devRef .tc main_v90) = (broadcastInDim S50000x96 ![] bcast_S_S50000x96 : (⟨S_, .f32⟩ : BufTy).Contents (Elt F) → (⟨S50000x96, .f32⟩ : BufTy).Contents (Elt F)) (after (ops (F := F)) V (Proc.devRef .tc main_cst_17)) := by
  rw [read3 V (r := main_v90) (by decide), read3 V (r := main_cst_17) (by decide)]
  refine f_eqn1 (ops3_pairs (F := F)) 21 (by decide) _ main_v90 (by decide) main_cst_17 (by decide) (g := (broadcastInDim S50000x96 ![] bcast_S_S50000x96 : (⟨S_, .f32⟩ : BufTy).Contents (Elt F) → (⟨S50000x96, .f32⟩ : BufTy).Contents (Elt F))) ?_
  intro G
  rfl

theorem val_main_v91 (V : Valuation τ sig (Elt F)) :
    after (ops (F := F)) V (Proc.devRef .tc main_v91) = (broadcastInDim S850000x1 ![0] bcast_S850000_S850000x1_0 : (⟨S850000, .i32⟩ : BufTy).Contents (Elt F) → (⟨S850000x1, .i32⟩ : BufTy).Contents (Elt F)) (after (ops (F := F)) V (Proc.devRef .tc main_v6)) := by
  rw [read3 V (r := main_v91) (by decide), read3 V (r := main_v6) (by decide)]
  refine f_eqn1 (ops3_pairs (F := F)) 22 (by decide) _ main_v91 (by decide) main_v6 (by decide) (g := (broadcastInDim S850000x1 ![0] bcast_S850000_S850000x1_0 : (⟨S850000, .i32⟩ : BufTy).Contents (Elt F) → (⟨S850000x1, .i32⟩ : BufTy).Contents (Elt F))) ?_
  intro G
  rfl

theorem val_main_v92 (V : Valuation τ sig (Elt F)) :
    after (ops (F := F)) V (Proc.devRef .tc main_v92) = ((fun x i u => Host.scatterAdd scatter_S50000x96_S850000x1_S850000x96_1_0_0_1 x i u) : (⟨S50000x96, .f32⟩ : BufTy).Contents (Elt F) → (⟨S850000x1, .i32⟩ : BufTy).Contents (Elt F) → (⟨S850000x96, .f32⟩ : BufTy).Contents (Elt F) → (⟨S50000x96, .f32⟩ : BufTy).Contents (Elt F)) (after (ops (F := F)) V (Proc.devRef .tc main_v90)) (after (ops (F := F)) V (Proc.devRef .tc main_v91)) (after (ops (F := F)) V (Proc.devRef .tc main_v89)) := by
  rw [read3 V (r := main_v92) (by decide), read3 V (r := main_v90) (by decide), read3 V (r := main_v91) (by decide), read3 V (r := main_v89) (by decide)]
  refine f_eqn3 (ops3_pairs (F := F)) 23 (by decide) _ main_v92 (by decide) main_v90 main_v91 main_v89 (by decide) (by decide) (by decide) (g := ((fun x i u => Host.scatterAdd scatter_S50000x96_S850000x1_S850000x96_1_0_0_1 x i u) : (⟨S50000x96, .f32⟩ : BufTy).Contents (Elt F) → (⟨S850000x1, .i32⟩ : BufTy).Contents (Elt F) → (⟨S850000x96, .f32⟩ : BufTy).Contents (Elt F) → (⟨S50000x96, .f32⟩ : BufTy).Contents (Elt F))) ?_
  intro G
  rfl

theorem val_main_v93 (V : Valuation τ sig (Elt F)) :
    after (ops (F := F)) V (Proc.devRef .tc main_v93) = (broadcastInDim S1x96 ![1] bcast_S96_S1x96_1 : (⟨S96, .f32⟩ : BufTy).Contents (Elt F) → (⟨S1x96, .f32⟩ : BufTy).Contents (Elt F)) (after (ops (F := F)) V (Proc.devRef .tc main_arg7)) := by
  rw [read3 V (r := main_v93) (by decide), read3 V (r := main_arg7) (by decide)]
  refine f_eqn1 (ops3_pairs (F := F)) 24 (by decide) _ main_v93 (by decide) main_arg7 (by decide) (g := (broadcastInDim S1x96 ![1] bcast_S96_S1x96_1 : (⟨S96, .f32⟩ : BufTy).Contents (Elt F) → (⟨S1x96, .f32⟩ : BufTy).Contents (Elt F))) ?_
  intro G
  rfl

theorem val_main_v94 (V : Valuation τ sig (Elt F)) :
    after (ops (F := F)) V (Proc.devRef .tc main_v94) = (broadcastInDim S50000x96 ![0, 1] bcast_S1x96_S50000x96_0_1 : (⟨S1x96, .f32⟩ : BufTy).Contents (Elt F) → (⟨S50000x96, .f32⟩ : BufTy).Contents (Elt F)) (after (ops (F := F)) V (Proc.devRef .tc main_v93)) := by
  rw [read3 V (r := main_v94) (by decide), read3 V (r := main_v93) (by decide)]
  refine f_eqn1 (ops3_pairs (F := F)) 25 (by decide) _ main_v94 (by decide) main_v93 (by decide) (g := (broadcastInDim S50000x96 ![0, 1] bcast_S1x96_S50000x96_0_1 : (⟨S1x96, .f32⟩ : BufTy).Contents (Elt F) → (⟨S50000x96, .f32⟩ : BufTy).Contents (Elt F))) ?_
  intro G
  rfl

theorem val_main_v95 (V : Valuation τ sig (Elt F)) :
    after (ops (F := F)) V (Proc.devRef .tc main_v95) = (addf : (⟨S50000x96, .f32⟩ : BufTy).Contents (Elt F) → (⟨S50000x96, .f32⟩ : BufTy).Contents (Elt F) → (⟨S50000x96, .f32⟩ : BufTy).Contents (Elt F)) (after (ops (F := F)) V (Proc.devRef .tc main_v92)) (after (ops (F := F)) V (Proc.devRef .tc main_v94)) := by
  rw [read3 V (r := main_v95) (by decide), read3 V (r := main_v92) (by decide), read3 V (r := main_v94) (by decide)]
  refine f_eqn2 (ops3_pairs (F := F)) 26 (by decide) _ main_v95 (by decide) main_v92 main_v94 (by decide) (by decide) (g := (addf : (⟨S50000x96, .f32⟩ : BufTy).Contents (Elt F) → (⟨S50000x96, .f32⟩ : BufTy).Contents (Elt F) → (⟨S50000x96, .f32⟩ : BufTy).Contents (Elt F))) ?_
  intro G
  rfl

theorem val_main_cst_18 (V : Valuation τ sig (Elt F)) :
    after (ops (F := F)) V (Proc.devRef .tc main_cst_18) = (constant S_ .f32 0x00000000#32) := by
  rw [read3 V (r := main_cst_18) (by decide)]
  refine f_eqn0 (ops3_pairs (F := F)) 27 (by decide) _ main_cst_18 (by decide) ?_
  intro G
  rfl

theorem val_main_v96 (V : Valuation τ sig (Elt F)) :
    after (ops (F := F)) V (Proc.devRef .tc main_v96) = ((fun x v => Host.reduceAdd x v reducesTo_S50000x96_S96_d0 h_S_) : (⟨S50000x96, .f32⟩ : BufTy).Contents (Elt F) → (⟨S_, .f32⟩ : BufTy).Contents (Elt F) → (⟨S96, .f32⟩ : BufTy).Contents (Elt F)) (after (ops (F := F)) V (Proc.devRef .tc main_v95)) (after (ops (F := F)) V (Proc.devRef .tc main_cst_18)) := by
  rw [read3 V (r := main_v96) (by decide), read3 V (r := main_v95) (by decide), read3 V (r := main_cst_18) (by decide)]
  refine f_eqn2 (ops3_pairs (F := F)) 28 (by decide) _ main_v96 (by decide) main_v95 main_cst_18 (by decide) (by decide) (g := ((fun x v => Host.reduceAdd x v reducesTo_S50000x96_S96_d0 h_S_) : (⟨S50000x96, .f32⟩ : BufTy).Contents (Elt F) → (⟨S_, .f32⟩ : BufTy).Contents (Elt F) → (⟨S96, .f32⟩ : BufTy).Contents (Elt F))) ?_
  intro G
  rfl

theorem val_main_cst_19 (V : Valuation τ sig (Elt F)) :
    after (ops (F := F)) V (Proc.devRef .tc main_cst_19) = (constant S_ .f32 0x47435000#32) := by
  rw [read3 V (r := main_cst_19) (by decide)]
  refine f_eqn0 (ops3_pairs (F := F)) 29 (by decide) _ main_cst_19 (by decide) ?_
  intro G
  rfl

theorem val_main_v97 (V : Valuation τ sig (Elt F)) :
    after (ops (F := F)) V (Proc.devRef .tc main_v97) = (broadcastInDim S96 ![] bcast_S_S96 : (⟨S_, .f32⟩ : BufTy).Contents (Elt F) → (⟨S96, .f32⟩ : BufTy).Contents (Elt F)) (after (ops (F := F)) V (Proc.devRef .tc main_cst_19)) := by
  rw [read3 V (r := main_v97) (by decide), read3 V (r := main_cst_19) (by decide)]
  refine f_eqn1 (ops3_pairs (F := F)) 30 (by decide) _ main_v97 (by decide) main_cst_19 (by decide) (g := (broadcastInDim S96 ![] bcast_S_S96 : (⟨S_, .f32⟩ : BufTy).Contents (Elt F) → (⟨S96, .f32⟩ : BufTy).Contents (Elt F))) ?_
  intro G
  rfl

/-! ## Piece 4 -/

theorem val_main_v98 (V : Valuation τ sig (Elt F)) :
    after (ops (F := F)) V (Proc.devRef .tc main_v98) = (Host.divf : (⟨S96, .f32⟩ : BufTy).Contents (Elt F) → (⟨S96, .f32⟩ : BufTy).Contents (Elt F) → (⟨S96, .f32⟩ : BufTy).Contents (Elt F)) (after (ops (F := F)) V (Proc.devRef .tc main_v96)) (after (ops (F := F)) V (Proc.devRef .tc main_v97)) := by
  rw [read4 V (r := main_v98) (by decide), read4 V (r := main_v96) (by decide), read4 V (r := main_v97) (by decide)]
  refine f_eqn2 (ops4_pairs (F := F)) 0 (by decide) _ main_v98 (by decide) main_v96 main_v97 (by decide) (by decide) (g := (Host.divf : (⟨S96, .f32⟩ : BufTy).Contents (Elt F) → (⟨S96, .f32⟩ : BufTy).Contents (Elt F) → (⟨S96, .f32⟩ : BufTy).Contents (Elt F))) ?_
  intro G
  rfl

theorem val_main_c_20 (V : Valuation τ sig (Elt F)) :
    after (ops (F := F)) V (Proc.devRef .tc main_c_20) = (constantI S_ 32 0#32) := by
  rw [read4 V (r := main_c_20) (by decide)]
  refine f_eqn0 (ops4_pairs (F := F)) 1 (by decide) _ main_c_20 (by decide) ?_
  intro G
  rfl

theorem val_main_call2_cst (V : Valuation τ sig (Elt F)) :
    after (ops (F := F)) V (Proc.devRef .tc main_call2_cst) = (constant S_ .f32 0x00000000#32) := by
  rw [read4 V (r := main_call2_cst) (by decide)]
  refine f_eqn0 (ops4_pairs (F := F)) 2 (by decide) _ main_call2_cst (by decide) ?_
  intro G
  rfl

theorem val_main_call2_v0 (V : Valuation τ sig (Elt F)) :
    after (ops (F := F)) V (Proc.devRef .tc main_call2_v0) = (fun x v => Host.reduceAdd x v reducesTo_S50000x96_S96_d0 h_S_ : (⟨S50000x96, .f32⟩ : BufTy).Contents (Elt F) → (⟨S_, .f32⟩ : BufTy).Contents (Elt F) → (⟨S96, .f32⟩ : BufTy).Contents (Elt F)) (after (ops (F := F)) V (Proc.devRef .tc main_v95)) (after (ops (F := F)) V (Proc.devRef .tc main_call2_cst)) := by
  rw [read4 V (r := main_call2_v0) (by decide), read4 V (r := main_v95) (by decide), read4 V (r := main_call2_cst) (by decide)]
  refine f_eqn2 (ops4_pairs (F := F)) 3 (by decide) _ main_call2_v0 (by decide) main_v95 main_call2_cst (by decide) (by decide) (g := (fun x v => Host.reduceAdd x v reducesTo_S50000x96_S96_d0 h_S_ : (⟨S50000x96, .f32⟩ : BufTy).Contents (Elt F) → (⟨S_, .f32⟩ : BufTy).Contents (Elt F) → (⟨S96, .f32⟩ : BufTy).Contents (Elt F))) ?_
  intro G
  rfl

theorem val_main_call2_v1 (V : Valuation τ sig (Elt F)) :
    after (ops (F := F)) V (Proc.devRef .tc main_call2_v1) = (broadcastInDim S1x96 ![1] bcast_S96_S1x96_1 : (⟨S96, .f32⟩ : BufTy).Contents (Elt F) → (⟨S1x96, .f32⟩ : BufTy).Contents (Elt F)) (after (ops (F := F)) V (Proc.devRef .tc main_call2_v0)) := by
  rw [read4 V (r := main_call2_v1) (by decide), read4 V (r := main_call2_v0) (by decide)]
  refine f_eqn1 (ops4_pairs (F := F)) 4 (by decide) _ main_call2_v1 (by decide) main_call2_v0 (by decide) (g := (broadcastInDim S1x96 ![1] bcast_S96_S1x96_1 : (⟨S96, .f32⟩ : BufTy).Contents (Elt F) → (⟨S1x96, .f32⟩ : BufTy).Contents (Elt F))) ?_
  intro G
  rfl

theorem val_main_call2_cst_0 (V : Valuation τ sig (Elt F)) :
    after (ops (F := F)) V (Proc.devRef .tc main_call2_cst_0) = (constant S_ .f32 0x47435000#32) := by
  rw [read4 V (r := main_call2_cst_0) (by decide)]
  refine f_eqn0 (ops4_pairs (F := F)) 5 (by decide) _ main_call2_cst_0 (by decide) ?_
  intro G
  rfl

theorem val_main_call2_v2 (V : Valuation τ sig (Elt F)) :
    after (ops (F := F)) V (Proc.devRef .tc main_call2_v2) = (broadcastInDim S1x96 ![] bcast_S_S1x96 : (⟨S_, .f32⟩ : BufTy).Contents (Elt F) → (⟨S1x96, .f32⟩ : BufTy).Contents (Elt F)) (after (ops (F := F)) V (Proc.devRef .tc main_call2_cst_0)) := by
  rw [read4 V (r := main_call2_v2) (by decide), read4 V (r := main_call2_cst_0) (by decide)]
  refine f_eqn1 (ops4_pairs (F := F)) 6 (by decide) _ main_call2_v2 (by decide) main_call2_cst_0 (by decide) (g := (broadcastInDim S1x96 ![] bcast_S_S1x96 : (⟨S_, .f32⟩ : BufTy).Contents (Elt F) → (⟨S1x96, .f32⟩ : BufTy).Contents (Elt F))) ?_
  intro G
  rfl

theorem val_main_call2_v3 (V : Valuation τ sig (Elt F)) :
    after (ops (F := F)) V (Proc.devRef .tc main_call2_v3) = (Host.divf : (⟨S1x96, .f32⟩ : BufTy).Contents (Elt F) → (⟨S1x96, .f32⟩ : BufTy).Contents (Elt F) → (⟨S1x96, .f32⟩ : BufTy).Contents (Elt F)) (after (ops (F := F)) V (Proc.devRef .tc main_call2_v1)) (after (ops (F := F)) V (Proc.devRef .tc main_call2_v2)) := by
  rw [read4 V (r := main_call2_v3) (by decide), read4 V (r := main_call2_v1) (by decide), read4 V (r := main_call2_v2) (by decide)]
  refine f_eqn2 (ops4_pairs (F := F)) 7 (by decide) _ main_call2_v3 (by decide) main_call2_v1 main_call2_v2 (by decide) (by decide) (g := (Host.divf : (⟨S1x96, .f32⟩ : BufTy).Contents (Elt F) → (⟨S1x96, .f32⟩ : BufTy).Contents (Elt F) → (⟨S1x96, .f32⟩ : BufTy).Contents (Elt F))) ?_
  intro G
  rfl

theorem val_main_call2_v4 (V : Valuation τ sig (Elt F)) :
    after (ops (F := F)) V (Proc.devRef .tc main_call2_v4) = (broadcastInDim S50000x96 ![0, 1] bcast_S1x96_S50000x96_0_1 : (⟨S1x96, .f32⟩ : BufTy).Contents (Elt F) → (⟨S50000x96, .f32⟩ : BufTy).Contents (Elt F)) (after (ops (F := F)) V (Proc.devRef .tc main_call2_v3)) := by
  rw [read4 V (r := main_call2_v4) (by decide), read4 V (r := main_call2_v3) (by decide)]
  refine f_eqn1 (ops4_pairs (F := F)) 8 (by decide) _ main_call2_v4 (by decide) main_call2_v3 (by decide) (g := (broadcastInDim S50000x96 ![0, 1] bcast_S1x96_S50000x96_0_1 : (⟨S1x96, .f32⟩ : BufTy).Contents (Elt F) → (⟨S50000x96, .f32⟩ : BufTy).Contents (Elt F))) ?_
  intro G
  rfl

theorem val_main_call2_v5 (V : Valuation τ sig (Elt F)) :
    after (ops (F := F)) V (Proc.devRef .tc main_call2_v5) = (subf : (⟨S50000x96, .f32⟩ : BufTy).Contents (Elt F) → (⟨S50000x96, .f32⟩ : BufTy).Contents (Elt F) → (⟨S50000x96, .f32⟩ : BufTy).Contents (Elt F)) (after (ops (F := F)) V (Proc.devRef .tc main_v95)) (after (ops (F := F)) V (Proc.devRef .tc main_call2_v4)) := by
  rw [read4 V (r := main_call2_v5) (by decide), read4 V (r := main_v95) (by decide), read4 V (r := main_call2_v4) (by decide)]
  refine f_eqn2 (ops4_pairs (F := F)) 9 (by decide) _ main_call2_v5 (by decide) main_v95 main_call2_v4 (by decide) (by decide) (g := (subf : (⟨S50000x96, .f32⟩ : BufTy).Contents (Elt F) → (⟨S50000x96, .f32⟩ : BufTy).Contents (Elt F) → (⟨S50000x96, .f32⟩ : BufTy).Contents (Elt F))) ?_
  intro G
  rfl

theorem val_main_call2_v6 (V : Valuation τ sig (Elt F)) :
    after (ops (F := F)) V (Proc.devRef .tc main_call2_v6) = (mulf : (⟨S50000x96, .f32⟩ : BufTy).Contents (Elt F) → (⟨S50000x96, .f32⟩ : BufTy).Contents (Elt F) → (⟨S50000x96, .f32⟩ : BufTy).Contents (Elt F)) (after (ops (F := F)) V (Proc.devRef .tc main_call2_v5)) (after (ops (F := F)) V (Proc.devRef .tc main_call2_v5)) := by
  rw [read4 V (r := main_call2_v6) (by decide), read4 V (r := main_call2_v5) (by decide)]
  refine f_eqn2 (ops4_pairs (F := F)) 10 (by decide) _ main_call2_v6 (by decide) main_call2_v5 main_call2_v5 (by decide) (by decide) (g := (mulf : (⟨S50000x96, .f32⟩ : BufTy).Contents (Elt F) → (⟨S50000x96, .f32⟩ : BufTy).Contents (Elt F) → (⟨S50000x96, .f32⟩ : BufTy).Contents (Elt F))) ?_
  intro G
  rfl

theorem val_main_call2_v7 (V : Valuation τ sig (Elt F)) :
    after (ops (F := F)) V (Proc.devRef .tc main_call2_v7) = (sitofp .f32 : (⟨S_, .i32⟩ : BufTy).Contents (Elt F) → (⟨S_, .f32⟩ : BufTy).Contents (Elt F)) (after (ops (F := F)) V (Proc.devRef .tc main_c_20)) := by
  rw [read4 V (r := main_call2_v7) (by decide), read4 V (r := main_c_20) (by decide)]
  refine f_eqn1 (ops4_pairs (F := F)) 11 (by decide) _ main_call2_v7 (by decide) main_c_20 (by decide) (g := (sitofp .f32 : (⟨S_, .i32⟩ : BufTy).Contents (Elt F) → (⟨S_, .f32⟩ : BufTy).Contents (Elt F))) ?_
  intro G
  rfl

theorem val_main_call2_cst_1 (V : Valuation τ sig (Elt F)) :
    after (ops (F := F)) V (Proc.devRef .tc main_call2_cst_1) = (constant S_ .f32 0x47435000#32) := by
  rw [read4 V (r := main_call2_cst_1) (by decide)]
  refine f_eqn0 (ops4_pairs (F := F)) 12 (by decide) _ main_call2_cst_1 (by decide) ?_
  intro G
  rfl

theorem val_main_call2_v8 (V : Valuation τ sig (Elt F)) :
    after (ops (F := F)) V (Proc.devRef .tc main_call2_v8) = (subf : (⟨S_, .f32⟩ : BufTy).Contents (Elt F) → (⟨S_, .f32⟩ : BufTy).Contents (Elt F) → (⟨S_, .f32⟩ : BufTy).Contents (Elt F)) (after (ops (F := F)) V (Proc.devRef .tc main_call2_cst_1)) (after (ops (F := F)) V (Proc.devRef .tc main_call2_v7)) := by
  rw [read4 V (r := main_call2_v8) (by decide), read4 V (r := main_call2_cst_1) (by decide), read4 V (r := main_call2_v7) (by decide)]
  refine f_eqn2 (ops4_pairs (F := F)) 13 (by decide) _ main_call2_v8 (by decide) main_call2_cst_1 main_call2_v7 (by decide) (by decide) (g := (subf : (⟨S_, .f32⟩ : BufTy).Contents (Elt F) → (⟨S_, .f32⟩ : BufTy).Contents (Elt F) → (⟨S_, .f32⟩ : BufTy).Contents (Elt F))) ?_
  intro G
  rfl

theorem val_main_call2_cst_2 (V : Valuation τ sig (Elt F)) :
    after (ops (F := F)) V (Proc.devRef .tc main_call2_cst_2) = (constant S_ .f32 0x00000000#32) := by
  rw [read4 V (r := main_call2_cst_2) (by decide)]
  refine f_eqn0 (ops4_pairs (F := F)) 14 (by decide) _ main_call2_cst_2 (by decide) ?_
  intro G
  rfl

theorem val_main_call2_v9 (V : Valuation τ sig (Elt F)) :
    after (ops (F := F)) V (Proc.devRef .tc main_call2_v9) = (fun x v => Host.reduceAdd x v reducesTo_S50000x96_S96_d0 h_S_ : (⟨S50000x96, .f32⟩ : BufTy).Contents (Elt F) → (⟨S_, .f32⟩ : BufTy).Contents (Elt F) → (⟨S96, .f32⟩ : BufTy).Contents (Elt F)) (after (ops (F := F)) V (Proc.devRef .tc main_call2_v6)) (after (ops (F := F)) V (Proc.devRef .tc main_call2_cst_2)) := by
  rw [read4 V (r := main_call2_v9) (by decide), read4 V (r := main_call2_v6) (by decide), read4 V (r := main_call2_cst_2) (by decide)]
  refine f_eqn2 (ops4_pairs (F := F)) 15 (by decide) _ main_call2_v9 (by decide) main_call2_v6 main_call2_cst_2 (by decide) (by decide) (g := (fun x v => Host.reduceAdd x v reducesTo_S50000x96_S96_d0 h_S_ : (⟨S50000x96, .f32⟩ : BufTy).Contents (Elt F) → (⟨S_, .f32⟩ : BufTy).Contents (Elt F) → (⟨S96, .f32⟩ : BufTy).Contents (Elt F))) ?_
  intro G
  rfl

theorem val_main_call2_v10 (V : Valuation τ sig (Elt F)) :
    after (ops (F := F)) V (Proc.devRef .tc main_call2_v10) = (broadcastInDim S96 ![] bcast_S_S96 : (⟨S_, .f32⟩ : BufTy).Contents (Elt F) → (⟨S96, .f32⟩ : BufTy).Contents (Elt F)) (after (ops (F := F)) V (Proc.devRef .tc main_call2_v8)) := by
  rw [read4 V (r := main_call2_v10) (by decide), read4 V (r := main_call2_v8) (by decide)]
  refine f_eqn1 (ops4_pairs (F := F)) 16 (by decide) _ main_call2_v10 (by decide) main_call2_v8 (by decide) (g := (broadcastInDim S96 ![] bcast_S_S96 : (⟨S_, .f32⟩ : BufTy).Contents (Elt F) → (⟨S96, .f32⟩ : BufTy).Contents (Elt F))) ?_
  intro G
  rfl

theorem val_main_call2_v11 (V : Valuation τ sig (Elt F)) :
    after (ops (F := F)) V (Proc.devRef .tc main_call2_v11) = (Host.divf : (⟨S96, .f32⟩ : BufTy).Contents (Elt F) → (⟨S96, .f32⟩ : BufTy).Contents (Elt F) → (⟨S96, .f32⟩ : BufTy).Contents (Elt F)) (after (ops (F := F)) V (Proc.devRef .tc main_call2_v9)) (after (ops (F := F)) V (Proc.devRef .tc main_call2_v10)) := by
  rw [read4 V (r := main_call2_v11) (by decide), read4 V (r := main_call2_v9) (by decide), read4 V (r := main_call2_v10) (by decide)]
  refine f_eqn2 (ops4_pairs (F := F)) 17 (by decide) _ main_call2_v11 (by decide) main_call2_v9 main_call2_v10 (by decide) (by decide) (g := (Host.divf : (⟨S96, .f32⟩ : BufTy).Contents (Elt F) → (⟨S96, .f32⟩ : BufTy).Contents (Elt F) → (⟨S96, .f32⟩ : BufTy).Contents (Elt F))) ?_
  intro G
  rfl

theorem val_main_call2_cst_3 (V : Valuation τ sig (Elt F)) :
    after (ops (F := F)) V (Proc.devRef .tc main_call2_cst_3) = (constant S_ .f32 0x00000000#32) := by
  rw [read4 V (r := main_call2_cst_3) (by decide)]
  refine f_eqn0 (ops4_pairs (F := F)) 18 (by decide) _ main_call2_cst_3 (by decide) ?_
  intro G
  rfl

theorem val_main_call2_v12 (V : Valuation τ sig (Elt F)) :
    after (ops (F := F)) V (Proc.devRef .tc main_call2_v12) = (cmpf .ogt : (⟨S_, .f32⟩ : BufTy).Contents (Elt F) → (⟨S_, .f32⟩ : BufTy).Contents (Elt F) → (⟨S_, .i1⟩ : BufTy).Contents (Elt F)) (after (ops (F := F)) V (Proc.devRef .tc main_call2_v8)) (after (ops (F := F)) V (Proc.devRef .tc main_call2_cst_3)) := by
  rw [read4 V (r := main_call2_v12) (by decide), read4 V (r := main_call2_v8) (by decide), read4 V (r := main_call2_cst_3) (by decide)]
  refine f_eqn2 (ops4_pairs (F := F)) 19 (by decide) _ main_call2_v12 (by decide) main_call2_v8 main_call2_cst_3 (by decide) (by decide) (g := (cmpf .ogt : (⟨S_, .f32⟩ : BufTy).Contents (Elt F) → (⟨S_, .f32⟩ : BufTy).Contents (Elt F) → (⟨S_, .i1⟩ : BufTy).Contents (Elt F))) ?_
  intro G
  rfl

theorem val_main_call2_cst_4 (V : Valuation τ sig (Elt F)) :
    after (ops (F := F)) V (Proc.devRef .tc main_call2_cst_4) = (constant S_ .f32 0x7FC00000#32) := by
  rw [read4 V (r := main_call2_cst_4) (by decide)]
  refine f_eqn0 (ops4_pairs (F := F)) 20 (by decide) _ main_call2_cst_4 (by decide) ?_
  intro G
  rfl

theorem val_main_call2_call0_v0 (V : Valuation τ sig (Elt F)) :
    after (ops (F := F)) V (Proc.devRef .tc main_call2_call0_v0) = (id : (⟨S_, .f32⟩ : BufTy).Contents (Elt F) → (⟨S_, .f32⟩ : BufTy).Contents (Elt F)) (after (ops (F := F)) V (Proc.devRef .tc main_call2_cst_4)) := by
  rw [read4 V (r := main_call2_call0_v0) (by decide), read4 V (r := main_call2_cst_4) (by decide)]
  refine f_eqn1 (ops4_pairs (F := F)) 21 (by decide) _ main_call2_call0_v0 (by decide) main_call2_cst_4 (by decide) (g := (id : (⟨S_, .f32⟩ : BufTy).Contents (Elt F) → (⟨S_, .f32⟩ : BufTy).Contents (Elt F))) ?_
  intro G
  rfl

theorem val_main_call2_call0_v1 (V : Valuation τ sig (Elt F)) :
    after (ops (F := F)) V (Proc.devRef .tc main_call2_call0_v1) = (broadcastInDim S96 ![] bcast_S_S96 : (⟨S_, .f32⟩ : BufTy).Contents (Elt F) → (⟨S96, .f32⟩ : BufTy).Contents (Elt F)) (after (ops (F := F)) V (Proc.devRef .tc main_call2_call0_v0)) := by
  rw [read4 V (r := main_call2_call0_v1) (by decide), read4 V (r := main_call2_call0_v0) (by decide)]
  refine f_eqn1 (ops4_pairs (F := F)) 22 (by decide) _ main_call2_call0_v1 (by decide) main_call2_call0_v0 (by decide) (g := (broadcastInDim S96 ![] bcast_S_S96 : (⟨S_, .f32⟩ : BufTy).Contents (Elt F) → (⟨S96, .f32⟩ : BufTy).Contents (Elt F))) ?_
  intro G
  rfl

theorem val_main_v99 (V : Valuation τ sig (Elt F)) :
    after (ops (F := F)) V (Proc.devRef .tc main_v99) = (fun p a b => select (broadcastInDim S96 ![] bcast_S_S96 p) a b : (⟨S_, .i1⟩ : BufTy).Contents (Elt F) → (⟨S96, .f32⟩ : BufTy).Contents (Elt F) → (⟨S96, .f32⟩ : BufTy).Contents (Elt F) → (⟨S96, .f32⟩ : BufTy).Contents (Elt F)) (after (ops (F := F)) V (Proc.devRef .tc main_call2_v12)) (after (ops (F := F)) V (Proc.devRef .tc main_call2_v11)) (after (ops (F := F)) V (Proc.devRef .tc main_call2_call0_v1)) := by
  rw [read4 V (r := main_v99) (by decide), read4 V (r := main_call2_v12) (by decide), read4 V (r := main_call2_v11) (by decide), read4 V (r := main_call2_call0_v1) (by decide)]
  refine f_eqn3 (ops4_pairs (F := F)) 23 (by decide) _ main_v99 (by decide) main_call2_v12 main_call2_v11 main_call2_call0_v1 (by decide) (by decide) (by decide) (g := (fun p a b => select (broadcastInDim S96 ![] bcast_S_S96 p) a b : (⟨S_, .i1⟩ : BufTy).Contents (Elt F) → (⟨S96, .f32⟩ : BufTy).Contents (Elt F) → (⟨S96, .f32⟩ : BufTy).Contents (Elt F) → (⟨S96, .f32⟩ : BufTy).Contents (Elt F))) ?_
  intro G
  rfl

theorem val_main_v100 (V : Valuation τ sig (Elt F)) :
    after (ops (F := F)) V (Proc.devRef .tc main_v100) = (broadcastInDim S1x96 ![1] bcast_S96_S1x96_1 : (⟨S96, .f32⟩ : BufTy).Contents (Elt F) → (⟨S1x96, .f32⟩ : BufTy).Contents (Elt F)) (after (ops (F := F)) V (Proc.devRef .tc main_v98)) := by
  rw [read4 V (r := main_v100) (by decide), read4 V (r := main_v98) (by decide)]
  refine f_eqn1 (ops4_pairs (F := F)) 24 (by decide) _ main_v100 (by decide) main_v98 (by decide) (g := (broadcastInDim S1x96 ![1] bcast_S96_S1x96_1 : (⟨S96, .f32⟩ : BufTy).Contents (Elt F) → (⟨S1x96, .f32⟩ : BufTy).Contents (Elt F))) ?_
  intro G
  rfl

theorem val_main_v101 (V : Valuation τ sig (Elt F)) :
    after (ops (F := F)) V (Proc.devRef .tc main_v101) = (broadcastInDim S50000x96 ![0, 1] bcast_S1x96_S50000x96_0_1 : (⟨S1x96, .f32⟩ : BufTy).Contents (Elt F) → (⟨S50000x96, .f32⟩ : BufTy).Contents (Elt F)) (after (ops (F := F)) V (Proc.devRef .tc main_v100)) := by
  rw [read4 V (r := main_v101) (by decide), read4 V (r := main_v100) (by decide)]
  refine f_eqn1 (ops4_pairs (F := F)) 25 (by decide) _ main_v101 (by decide) main_v100 (by decide) (g := (broadcastInDim S50000x96 ![0, 1] bcast_S1x96_S50000x96_0_1 : (⟨S1x96, .f32⟩ : BufTy).Contents (Elt F) → (⟨S50000x96, .f32⟩ : BufTy).Contents (Elt F))) ?_
  intro G
  rfl

theorem val_main_v102 (V : Valuation τ sig (Elt F)) :
    after (ops (F := F)) V (Proc.devRef .tc main_v102) = (subf : (⟨S50000x96, .f32⟩ : BufTy).Contents (Elt F) → (⟨S50000x96, .f32⟩ : BufTy).Contents (Elt F) → (⟨S50000x96, .f32⟩ : BufTy).Contents (Elt F)) (after (ops (F := F)) V (Proc.devRef .tc main_v95)) (after (ops (F := F)) V (Proc.devRef .tc main_v101)) := by
  rw [read4 V (r := main_v102) (by decide), read4 V (r := main_v95) (by decide), read4 V (r := main_v101) (by decide)]
  refine f_eqn2 (ops4_pairs (F := F)) 26 (by decide) _ main_v102 (by decide) main_v95 main_v101 (by decide) (by decide) (g := (subf : (⟨S50000x96, .f32⟩ : BufTy).Contents (Elt F) → (⟨S50000x96, .f32⟩ : BufTy).Contents (Elt F) → (⟨S50000x96, .f32⟩ : BufTy).Contents (Elt F))) ?_
  intro G
  rfl

theorem val_main_v103 (V : Valuation τ sig (Elt F)) :
    after (ops (F := F)) V (Proc.devRef .tc main_v103) = (broadcastInDim S1x96 ![1] bcast_S96_S1x96_1 : (⟨S96, .f32⟩ : BufTy).Contents (Elt F) → (⟨S1x96, .f32⟩ : BufTy).Contents (Elt F)) (after (ops (F := F)) V (Proc.devRef .tc main_arg8)) := by
  rw [read4 V (r := main_v103) (by decide), read4 V (r := main_arg8) (by decide)]
  refine f_eqn1 (ops4_pairs (F := F)) 27 (by decide) _ main_v103 (by decide) main_arg8 (by decide) (g := (broadcastInDim S1x96 ![1] bcast_S96_S1x96_1 : (⟨S96, .f32⟩ : BufTy).Contents (Elt F) → (⟨S1x96, .f32⟩ : BufTy).Contents (Elt F))) ?_
  intro G
  rfl

theorem val_main_v104 (V : Valuation τ sig (Elt F)) :
    after (ops (F := F)) V (Proc.devRef .tc main_v104) = (broadcastInDim S50000x96 ![0, 1] bcast_S1x96_S50000x96_0_1 : (⟨S1x96, .f32⟩ : BufTy).Contents (Elt F) → (⟨S50000x96, .f32⟩ : BufTy).Contents (Elt F)) (after (ops (F := F)) V (Proc.devRef .tc main_v103)) := by
  rw [read4 V (r := main_v104) (by decide), read4 V (r := main_v103) (by decide)]
  refine f_eqn1 (ops4_pairs (F := F)) 28 (by decide) _ main_v104 (by decide) main_v103 (by decide) (g := (broadcastInDim S50000x96 ![0, 1] bcast_S1x96_S50000x96_0_1 : (⟨S1x96, .f32⟩ : BufTy).Contents (Elt F) → (⟨S50000x96, .f32⟩ : BufTy).Contents (Elt F))) ?_
  intro G
  rfl

theorem val_main_v105 (V : Valuation τ sig (Elt F)) :
    after (ops (F := F)) V (Proc.devRef .tc main_v105) = (mulf : (⟨S50000x96, .f32⟩ : BufTy).Contents (Elt F) → (⟨S50000x96, .f32⟩ : BufTy).Contents (Elt F) → (⟨S50000x96, .f32⟩ : BufTy).Contents (Elt F)) (after (ops (F := F)) V (Proc.devRef .tc main_v104)) (after (ops (F := F)) V (Proc.devRef .tc main_v102)) := by
  rw [read4 V (r := main_v105) (by decide), read4 V (r := main_v104) (by decide), read4 V (r := main_v102) (by decide)]
  refine f_eqn2 (ops4_pairs (F := F)) 29 (by decide) _ main_v105 (by decide) main_v104 main_v102 (by decide) (by decide) (g := (mulf : (⟨S50000x96, .f32⟩ : BufTy).Contents (Elt F) → (⟨S50000x96, .f32⟩ : BufTy).Contents (Elt F) → (⟨S50000x96, .f32⟩ : BufTy).Contents (Elt F))) ?_
  intro G
  rfl

theorem val_main_cst_21 (V : Valuation τ sig (Elt F)) :
    after (ops (F := F)) V (Proc.devRef .tc main_cst_21) = (constant S_ .f32 0x3727C5AC#32) := by
  rw [read4 V (r := main_cst_21) (by decide)]
  refine f_eqn0 (ops4_pairs (F := F)) 30 (by decide) _ main_cst_21 (by decide) ?_
  intro G
  rfl

theorem val_main_v106 (V : Valuation τ sig (Elt F)) :
    after (ops (F := F)) V (Proc.devRef .tc main_v106) = (broadcastInDim S96 ![] bcast_S_S96 : (⟨S_, .f32⟩ : BufTy).Contents (Elt F) → (⟨S96, .f32⟩ : BufTy).Contents (Elt F)) (after (ops (F := F)) V (Proc.devRef .tc main_cst_21)) := by
  rw [read4 V (r := main_v106) (by decide), read4 V (r := main_cst_21) (by decide)]
  refine f_eqn1 (ops4_pairs (F := F)) 31 (by decide) _ main_v106 (by decide) main_cst_21 (by decide) (g := (broadcastInDim S96 ![] bcast_S_S96 : (⟨S_, .f32⟩ : BufTy).Contents (Elt F) → (⟨S96, .f32⟩ : BufTy).Contents (Elt F))) ?_
  intro G
  rfl

theorem val_main_v107 (V : Valuation τ sig (Elt F)) :
    after (ops (F := F)) V (Proc.devRef .tc main_v107) = (addf : (⟨S96, .f32⟩ : BufTy).Contents (Elt F) → (⟨S96, .f32⟩ : BufTy).Contents (Elt F) → (⟨S96, .f32⟩ : BufTy).Contents (Elt F)) (after (ops (F := F)) V (Proc.devRef .tc main_v99)) (after (ops (F := F)) V (Proc.devRef .tc main_v106)) := by
  rw [read4 V (r := main_v107) (by decide), read4 V (r := main_v99) (by decide), read4 V (r := main_v106) (by decide)]
  refine f_eqn2 (ops4_pairs (F := F)) 32 (by decide) _ main_v107 (by decide) main_v99 main_v106 (by decide) (by decide) (g := (addf : (⟨S96, .f32⟩ : BufTy).Contents (Elt F) → (⟨S96, .f32⟩ : BufTy).Contents (Elt F) → (⟨S96, .f32⟩ : BufTy).Contents (Elt F))) ?_
  intro G
  rfl

theorem val_main_v108 (V : Valuation τ sig (Elt F)) :
    after (ops (F := F)) V (Proc.devRef .tc main_v108) = (Host.rsqrt : (⟨S96, .f32⟩ : BufTy).Contents (Elt F) → (⟨S96, .f32⟩ : BufTy).Contents (Elt F)) (after (ops (F := F)) V (Proc.devRef .tc main_v107)) := by
  rw [read4 V (r := main_v108) (by decide), read4 V (r := main_v107) (by decide)]
  refine f_eqn1 (ops4_pairs (F := F)) 33 (by decide) _ main_v108 (by decide) main_v107 (by decide) (g := (Host.rsqrt : (⟨S96, .f32⟩ : BufTy).Contents (Elt F) → (⟨S96, .f32⟩ : BufTy).Contents (Elt F))) ?_
  intro G
  rfl

theorem val_main_v109 (V : Valuation τ sig (Elt F)) :
    after (ops (F := F)) V (Proc.devRef .tc main_v109) = (broadcastInDim S1x96 ![1] bcast_S96_S1x96_1 : (⟨S96, .f32⟩ : BufTy).Contents (Elt F) → (⟨S1x96, .f32⟩ : BufTy).Contents (Elt F)) (after (ops (F := F)) V (Proc.devRef .tc main_v108)) := by
  rw [read4 V (r := main_v109) (by decide), read4 V (r := main_v108) (by decide)]
  refine f_eqn1 (ops4_pairs (F := F)) 34 (by decide) _ main_v109 (by decide) main_v108 (by decide) (g := (broadcastInDim S1x96 ![1] bcast_S96_S1x96_1 : (⟨S96, .f32⟩ : BufTy).Contents (Elt F) → (⟨S1x96, .f32⟩ : BufTy).Contents (Elt F))) ?_
  intro G
  rfl

theorem val_main_v110 (V : Valuation τ sig (Elt F)) :
    after (ops (F := F)) V (Proc.devRef .tc main_v110) = (broadcastInDim S50000x96 ![0, 1] bcast_S1x96_S50000x96_0_1 : (⟨S1x96, .f32⟩ : BufTy).Contents (Elt F) → (⟨S50000x96, .f32⟩ : BufTy).Contents (Elt F)) (after (ops (F := F)) V (Proc.devRef .tc main_v109)) := by
  rw [read4 V (r := main_v110) (by decide), read4 V (r := main_v109) (by decide)]
  refine f_eqn1 (ops4_pairs (F := F)) 35 (by decide) _ main_v110 (by decide) main_v109 (by decide) (g := (broadcastInDim S50000x96 ![0, 1] bcast_S1x96_S50000x96_0_1 : (⟨S1x96, .f32⟩ : BufTy).Contents (Elt F) → (⟨S50000x96, .f32⟩ : BufTy).Contents (Elt F))) ?_
  intro G
  rfl

/-! ## Piece 5 -/

theorem val_main_v111 (V : Valuation τ sig (Elt F)) :
    after (ops (F := F)) V (Proc.devRef .tc main_v111) = (mulf : (⟨S50000x96, .f32⟩ : BufTy).Contents (Elt F) → (⟨S50000x96, .f32⟩ : BufTy).Contents (Elt F) → (⟨S50000x96, .f32⟩ : BufTy).Contents (Elt F)) (after (ops (F := F)) V (Proc.devRef .tc main_v105)) (after (ops (F := F)) V (Proc.devRef .tc main_v110)) := by
  rw [read5 V (r := main_v111) (by decide), read5 V (r := main_v105) (by decide), read5 V (r := main_v110) (by decide)]
  refine f_eqn2 (ops5_pairs (F := F)) 0 (by decide) _ main_v111 (by decide) main_v105 main_v110 (by decide) (by decide) (g := (mulf : (⟨S50000x96, .f32⟩ : BufTy).Contents (Elt F) → (⟨S50000x96, .f32⟩ : BufTy).Contents (Elt F) → (⟨S50000x96, .f32⟩ : BufTy).Contents (Elt F))) ?_
  intro G
  rfl

theorem val_main_v112 (V : Valuation τ sig (Elt F)) :
    after (ops (F := F)) V (Proc.devRef .tc main_v112) = (broadcastInDim S1x96 ![1] bcast_S96_S1x96_1 : (⟨S96, .f32⟩ : BufTy).Contents (Elt F) → (⟨S1x96, .f32⟩ : BufTy).Contents (Elt F)) (after (ops (F := F)) V (Proc.devRef .tc main_arg9)) := by
  rw [read5 V (r := main_v112) (by decide), read5 V (r := main_arg9) (by decide)]
  refine f_eqn1 (ops5_pairs (F := F)) 1 (by decide) _ main_v112 (by decide) main_arg9 (by decide) (g := (broadcastInDim S1x96 ![1] bcast_S96_S1x96_1 : (⟨S96, .f32⟩ : BufTy).Contents (Elt F) → (⟨S1x96, .f32⟩ : BufTy).Contents (Elt F))) ?_
  intro G
  rfl

theorem val_main_v113 (V : Valuation τ sig (Elt F)) :
    after (ops (F := F)) V (Proc.devRef .tc main_v113) = (broadcastInDim S50000x96 ![0, 1] bcast_S1x96_S50000x96_0_1 : (⟨S1x96, .f32⟩ : BufTy).Contents (Elt F) → (⟨S50000x96, .f32⟩ : BufTy).Contents (Elt F)) (after (ops (F := F)) V (Proc.devRef .tc main_v112)) := by
  rw [read5 V (r := main_v113) (by decide), read5 V (r := main_v112) (by decide)]
  refine f_eqn1 (ops5_pairs (F := F)) 2 (by decide) _ main_v113 (by decide) main_v112 (by decide) (g := (broadcastInDim S50000x96 ![0, 1] bcast_S1x96_S50000x96_0_1 : (⟨S1x96, .f32⟩ : BufTy).Contents (Elt F) → (⟨S50000x96, .f32⟩ : BufTy).Contents (Elt F))) ?_
  intro G
  rfl

theorem val_main_v114 (V : Valuation τ sig (Elt F)) :
    after (ops (F := F)) V (Proc.devRef .tc main_v114) = (addf : (⟨S50000x96, .f32⟩ : BufTy).Contents (Elt F) → (⟨S50000x96, .f32⟩ : BufTy).Contents (Elt F) → (⟨S50000x96, .f32⟩ : BufTy).Contents (Elt F)) (after (ops (F := F)) V (Proc.devRef .tc main_v111)) (after (ops (F := F)) V (Proc.devRef .tc main_v113)) := by
  rw [read5 V (r := main_v114) (by decide), read5 V (r := main_v111) (by decide), read5 V (r := main_v113) (by decide)]
  refine f_eqn2 (ops5_pairs (F := F)) 3 (by decide) _ main_v114 (by decide) main_v111 main_v113 (by decide) (by decide) (g := (addf : (⟨S50000x96, .f32⟩ : BufTy).Contents (Elt F) → (⟨S50000x96, .f32⟩ : BufTy).Contents (Elt F) → (⟨S50000x96, .f32⟩ : BufTy).Contents (Elt F))) ?_
  intro G
  rfl

theorem val_main_call3_cst (V : Valuation τ sig (Elt F)) :
    after (ops (F := F)) V (Proc.devRef .tc main_call3_cst) = (constant S_ .f32 0x00000000#32) := by
  rw [read5 V (r := main_call3_cst) (by decide)]
  refine f_eqn0 (ops5_pairs (F := F)) 4 (by decide) _ main_call3_cst (by decide) ?_
  intro G
  rfl

theorem val_main_call3_v0 (V : Valuation τ sig (Elt F)) :
    after (ops (F := F)) V (Proc.devRef .tc main_call3_v0) = (broadcastInDim S50000x96 ![] bcast_S_S50000x96 : (⟨S_, .f32⟩ : BufTy).Contents (Elt F) → (⟨S50000x96, .f32⟩ : BufTy).Contents (Elt F)) (after (ops (F := F)) V (Proc.devRef .tc main_call3_cst)) := by
  rw [read5 V (r := main_call3_v0) (by decide), read5 V (r := main_call3_cst) (by decide)]
  refine f_eqn1 (ops5_pairs (F := F)) 5 (by decide) _ main_call3_v0 (by decide) main_call3_cst (by decide) (g := (broadcastInDim S50000x96 ![] bcast_S_S50000x96 : (⟨S_, .f32⟩ : BufTy).Contents (Elt F) → (⟨S50000x96, .f32⟩ : BufTy).Contents (Elt F))) ?_
  intro G
  rfl

theorem val_main_v115 (V : Valuation τ sig (Elt F)) :
    after (ops (F := F)) V (Proc.devRef .tc main_v115) = (maximumf : (⟨S50000x96, .f32⟩ : BufTy).Contents (Elt F) → (⟨S50000x96, .f32⟩ : BufTy).Contents (Elt F) → (⟨S50000x96, .f32⟩ : BufTy).Contents (Elt F)) (after (ops (F := F)) V (Proc.devRef .tc main_v114)) (after (ops (F := F)) V (Proc.devRef .tc main_call3_v0)) := by
  rw [read5 V (r := main_v115) (by decide), read5 V (r := main_v114) (by decide), read5 V (r := main_call3_v0) (by decide)]
  refine f_eqn2 (ops5_pairs (F := F)) 6 (by decide) _ main_v115 (by decide) main_v114 main_call3_v0 (by decide) (by decide) (g := (maximumf : (⟨S50000x96, .f32⟩ : BufTy).Contents (Elt F) → (⟨S50000x96, .f32⟩ : BufTy).Contents (Elt F) → (⟨S50000x96, .f32⟩ : BufTy).Contents (Elt F))) ?_
  intro G
  rfl

theorem val_main_v116 (V : Valuation τ sig (Elt F)) :
    after (ops (F := F)) V (Proc.devRef .tc main_v116) = ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)) (after (ops (F := F)) V (Proc.devRef .tc main_v115)) (after (ops (F := F)) V (Proc.devRef .tc main_arg10)) := by
  rw [read5 V (r := main_v116) (by decide), read5 V (r := main_v115) (by decide), read5 V (r := main_arg10) (by decide)]
  refine f_eqn2 (ops5_pairs (F := F)) 7 (by decide) _ main_v116 (by decide) main_v115 main_arg10 (by decide) (by decide) (g := ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F))) ?_
  intro G
  rfl

theorem val_main_v117 (V : Valuation τ sig (Elt F)) :
    after (ops (F := F)) V (Proc.devRef .tc main_v117) = (broadcastInDim S1x96 ![1] bcast_S96_S1x96_1 : (⟨S96, .f32⟩ : BufTy).Contents (Elt F) → (⟨S1x96, .f32⟩ : BufTy).Contents (Elt F)) (after (ops (F := F)) V (Proc.devRef .tc main_arg11)) := by
  rw [read5 V (r := main_v117) (by decide), read5 V (r := main_arg11) (by decide)]
  refine f_eqn1 (ops5_pairs (F := F)) 8 (by decide) _ main_v117 (by decide) main_arg11 (by decide) (g := (broadcastInDim S1x96 ![1] bcast_S96_S1x96_1 : (⟨S96, .f32⟩ : BufTy).Contents (Elt F) → (⟨S1x96, .f32⟩ : BufTy).Contents (Elt F))) ?_
  intro G
  rfl

theorem val_main_v118 (V : Valuation τ sig (Elt F)) :
    after (ops (F := F)) V (Proc.devRef .tc main_v118) = (broadcastInDim S50000x96 ![0, 1] bcast_S1x96_S50000x96_0_1 : (⟨S1x96, .f32⟩ : BufTy).Contents (Elt F) → (⟨S50000x96, .f32⟩ : BufTy).Contents (Elt F)) (after (ops (F := F)) V (Proc.devRef .tc main_v117)) := by
  rw [read5 V (r := main_v118) (by decide), read5 V (r := main_v117) (by decide)]
  refine f_eqn1 (ops5_pairs (F := F)) 9 (by decide) _ main_v118 (by decide) main_v117 (by decide) (g := (broadcastInDim S50000x96 ![0, 1] bcast_S1x96_S50000x96_0_1 : (⟨S1x96, .f32⟩ : BufTy).Contents (Elt F) → (⟨S50000x96, .f32⟩ : BufTy).Contents (Elt F))) ?_
  intro G
  rfl

theorem val_main_v119 (V : Valuation τ sig (Elt F)) :
    after (ops (F := F)) V (Proc.devRef .tc main_v119) = (addf : (⟨S50000x96, .f32⟩ : BufTy).Contents (Elt F) → (⟨S50000x96, .f32⟩ : BufTy).Contents (Elt F) → (⟨S50000x96, .f32⟩ : BufTy).Contents (Elt F)) (after (ops (F := F)) V (Proc.devRef .tc main_v116)) (after (ops (F := F)) V (Proc.devRef .tc main_v118)) := by
  rw [read5 V (r := main_v119) (by decide), read5 V (r := main_v116) (by decide), read5 V (r := main_v118) (by decide)]
  refine f_eqn2 (ops5_pairs (F := F)) 10 (by decide) _ main_v119 (by decide) main_v116 main_v118 (by decide) (by decide) (g := (addf : (⟨S50000x96, .f32⟩ : BufTy).Contents (Elt F) → (⟨S50000x96, .f32⟩ : BufTy).Contents (Elt F) → (⟨S50000x96, .f32⟩ : BufTy).Contents (Elt F))) ?_
  intro G
  rfl

theorem val_main_cst_22 (V : Valuation τ sig (Elt F)) :
    after (ops (F := F)) V (Proc.devRef .tc main_cst_22) = (constant S_ .f32 0x00000000#32) := by
  rw [read5 V (r := main_cst_22) (by decide)]
  refine f_eqn0 (ops5_pairs (F := F)) 11 (by decide) _ main_cst_22 (by decide) ?_
  intro G
  rfl

theorem val_main_v120 (V : Valuation τ sig (Elt F)) :
    after (ops (F := F)) V (Proc.devRef .tc main_v120) = ((fun x v => Host.reduceAdd x v reducesTo_S50000x96_S96_d0 h_S_) : (⟨S50000x96, .f32⟩ : BufTy).Contents (Elt F) → (⟨S_, .f32⟩ : BufTy).Contents (Elt F) → (⟨S96, .f32⟩ : BufTy).Contents (Elt F)) (after (ops (F := F)) V (Proc.devRef .tc main_v119)) (after (ops (F := F)) V (Proc.devRef .tc main_cst_22)) := by
  rw [read5 V (r := main_v120) (by decide), read5 V (r := main_v119) (by decide), read5 V (r := main_cst_22) (by decide)]
  refine f_eqn2 (ops5_pairs (F := F)) 12 (by decide) _ main_v120 (by decide) main_v119 main_cst_22 (by decide) (by decide) (g := ((fun x v => Host.reduceAdd x v reducesTo_S50000x96_S96_d0 h_S_) : (⟨S50000x96, .f32⟩ : BufTy).Contents (Elt F) → (⟨S_, .f32⟩ : BufTy).Contents (Elt F) → (⟨S96, .f32⟩ : BufTy).Contents (Elt F))) ?_
  intro G
  rfl

theorem val_main_cst_23 (V : Valuation τ sig (Elt F)) :
    after (ops (F := F)) V (Proc.devRef .tc main_cst_23) = (constant S_ .f32 0x47435000#32) := by
  rw [read5 V (r := main_cst_23) (by decide)]
  refine f_eqn0 (ops5_pairs (F := F)) 13 (by decide) _ main_cst_23 (by decide) ?_
  intro G
  rfl

theorem val_main_v121 (V : Valuation τ sig (Elt F)) :
    after (ops (F := F)) V (Proc.devRef .tc main_v121) = (broadcastInDim S96 ![] bcast_S_S96 : (⟨S_, .f32⟩ : BufTy).Contents (Elt F) → (⟨S96, .f32⟩ : BufTy).Contents (Elt F)) (after (ops (F := F)) V (Proc.devRef .tc main_cst_23)) := by
  rw [read5 V (r := main_v121) (by decide), read5 V (r := main_cst_23) (by decide)]
  refine f_eqn1 (ops5_pairs (F := F)) 14 (by decide) _ main_v121 (by decide) main_cst_23 (by decide) (g := (broadcastInDim S96 ![] bcast_S_S96 : (⟨S_, .f32⟩ : BufTy).Contents (Elt F) → (⟨S96, .f32⟩ : BufTy).Contents (Elt F))) ?_
  intro G
  rfl

theorem val_main_v122 (V : Valuation τ sig (Elt F)) :
    after (ops (F := F)) V (Proc.devRef .tc main_v122) = (Host.divf : (⟨S96, .f32⟩ : BufTy).Contents (Elt F) → (⟨S96, .f32⟩ : BufTy).Contents (Elt F) → (⟨S96, .f32⟩ : BufTy).Contents (Elt F)) (after (ops (F := F)) V (Proc.devRef .tc main_v120)) (after (ops (F := F)) V (Proc.devRef .tc main_v121)) := by
  rw [read5 V (r := main_v122) (by decide), read5 V (r := main_v120) (by decide), read5 V (r := main_v121) (by decide)]
  refine f_eqn2 (ops5_pairs (F := F)) 15 (by decide) _ main_v122 (by decide) main_v120 main_v121 (by decide) (by decide) (g := (Host.divf : (⟨S96, .f32⟩ : BufTy).Contents (Elt F) → (⟨S96, .f32⟩ : BufTy).Contents (Elt F) → (⟨S96, .f32⟩ : BufTy).Contents (Elt F))) ?_
  intro G
  rfl

theorem val_main_c_24 (V : Valuation τ sig (Elt F)) :
    after (ops (F := F)) V (Proc.devRef .tc main_c_24) = (constantI S_ 32 0#32) := by
  rw [read5 V (r := main_c_24) (by decide)]
  refine f_eqn0 (ops5_pairs (F := F)) 16 (by decide) _ main_c_24 (by decide) ?_
  intro G
  rfl

theorem val_main_call4_cst (V : Valuation τ sig (Elt F)) :
    after (ops (F := F)) V (Proc.devRef .tc main_call4_cst) = (constant S_ .f32 0x00000000#32) := by
  rw [read5 V (r := main_call4_cst) (by decide)]
  refine f_eqn0 (ops5_pairs (F := F)) 17 (by decide) _ main_call4_cst (by decide) ?_
  intro G
  rfl

theorem val_main_call4_v0 (V : Valuation τ sig (Elt F)) :
    after (ops (F := F)) V (Proc.devRef .tc main_call4_v0) = (fun x v => Host.reduceAdd x v reducesTo_S50000x96_S96_d0 h_S_ : (⟨S50000x96, .f32⟩ : BufTy).Contents (Elt F) → (⟨S_, .f32⟩ : BufTy).Contents (Elt F) → (⟨S96, .f32⟩ : BufTy).Contents (Elt F)) (after (ops (F := F)) V (Proc.devRef .tc main_v119)) (after (ops (F := F)) V (Proc.devRef .tc main_call4_cst)) := by
  rw [read5 V (r := main_call4_v0) (by decide), read5 V (r := main_v119) (by decide), read5 V (r := main_call4_cst) (by decide)]
  refine f_eqn2 (ops5_pairs (F := F)) 18 (by decide) _ main_call4_v0 (by decide) main_v119 main_call4_cst (by decide) (by decide) (g := (fun x v => Host.reduceAdd x v reducesTo_S50000x96_S96_d0 h_S_ : (⟨S50000x96, .f32⟩ : BufTy).Contents (Elt F) → (⟨S_, .f32⟩ : BufTy).Contents (Elt F) → (⟨S96, .f32⟩ : BufTy).Contents (Elt F))) ?_
  intro G
  rfl

theorem val_main_call4_v1 (V : Valuation τ sig (Elt F)) :
    after (ops (F := F)) V (Proc.devRef .tc main_call4_v1) = (broadcastInDim S1x96 ![1] bcast_S96_S1x96_1 : (⟨S96, .f32⟩ : BufTy).Contents (Elt F) → (⟨S1x96, .f32⟩ : BufTy).Contents (Elt F)) (after (ops (F := F)) V (Proc.devRef .tc main_call4_v0)) := by
  rw [read5 V (r := main_call4_v1) (by decide), read5 V (r := main_call4_v0) (by decide)]
  refine f_eqn1 (ops5_pairs (F := F)) 19 (by decide) _ main_call4_v1 (by decide) main_call4_v0 (by decide) (g := (broadcastInDim S1x96 ![1] bcast_S96_S1x96_1 : (⟨S96, .f32⟩ : BufTy).Contents (Elt F) → (⟨S1x96, .f32⟩ : BufTy).Contents (Elt F))) ?_
  intro G
  rfl

theorem val_main_call4_cst_0 (V : Valuation τ sig (Elt F)) :
    after (ops (F := F)) V (Proc.devRef .tc main_call4_cst_0) = (constant S_ .f32 0x47435000#32) := by
  rw [read5 V (r := main_call4_cst_0) (by decide)]
  refine f_eqn0 (ops5_pairs (F := F)) 20 (by decide) _ main_call4_cst_0 (by decide) ?_
  intro G
  rfl

theorem val_main_call4_v2 (V : Valuation τ sig (Elt F)) :
    after (ops (F := F)) V (Proc.devRef .tc main_call4_v2) = (broadcastInDim S1x96 ![] bcast_S_S1x96 : (⟨S_, .f32⟩ : BufTy).Contents (Elt F) → (⟨S1x96, .f32⟩ : BufTy).Contents (Elt F)) (after (ops (F := F)) V (Proc.devRef .tc main_call4_cst_0)) := by
  rw [read5 V (r := main_call4_v2) (by decide), read5 V (r := main_call4_cst_0) (by decide)]
  refine f_eqn1 (ops5_pairs (F := F)) 21 (by decide) _ main_call4_v2 (by decide) main_call4_cst_0 (by decide) (g := (broadcastInDim S1x96 ![] bcast_S_S1x96 : (⟨S_, .f32⟩ : BufTy).Contents (Elt F) → (⟨S1x96, .f32⟩ : BufTy).Contents (Elt F))) ?_
  intro G
  rfl

theorem val_main_call4_v3 (V : Valuation τ sig (Elt F)) :
    after (ops (F := F)) V (Proc.devRef .tc main_call4_v3) = (Host.divf : (⟨S1x96, .f32⟩ : BufTy).Contents (Elt F) → (⟨S1x96, .f32⟩ : BufTy).Contents (Elt F) → (⟨S1x96, .f32⟩ : BufTy).Contents (Elt F)) (after (ops (F := F)) V (Proc.devRef .tc main_call4_v1)) (after (ops (F := F)) V (Proc.devRef .tc main_call4_v2)) := by
  rw [read5 V (r := main_call4_v3) (by decide), read5 V (r := main_call4_v1) (by decide), read5 V (r := main_call4_v2) (by decide)]
  refine f_eqn2 (ops5_pairs (F := F)) 22 (by decide) _ main_call4_v3 (by decide) main_call4_v1 main_call4_v2 (by decide) (by decide) (g := (Host.divf : (⟨S1x96, .f32⟩ : BufTy).Contents (Elt F) → (⟨S1x96, .f32⟩ : BufTy).Contents (Elt F) → (⟨S1x96, .f32⟩ : BufTy).Contents (Elt F))) ?_
  intro G
  rfl

theorem val_main_call4_v4 (V : Valuation τ sig (Elt F)) :
    after (ops (F := F)) V (Proc.devRef .tc main_call4_v4) = (broadcastInDim S50000x96 ![0, 1] bcast_S1x96_S50000x96_0_1 : (⟨S1x96, .f32⟩ : BufTy).Contents (Elt F) → (⟨S50000x96, .f32⟩ : BufTy).Contents (Elt F)) (after (ops (F := F)) V (Proc.devRef .tc main_call4_v3)) := by
  rw [read5 V (r := main_call4_v4) (by decide), read5 V (r := main_call4_v3) (by decide)]
  refine f_eqn1 (ops5_pairs (F := F)) 23 (by decide) _ main_call4_v4 (by decide) main_call4_v3 (by decide) (g := (broadcastInDim S50000x96 ![0, 1] bcast_S1x96_S50000x96_0_1 : (⟨S1x96, .f32⟩ : BufTy).Contents (Elt F) → (⟨S50000x96, .f32⟩ : BufTy).Contents (Elt F))) ?_
  intro G
  rfl

theorem val_main_call4_v5 (V : Valuation τ sig (Elt F)) :
    after (ops (F := F)) V (Proc.devRef .tc main_call4_v5) = (subf : (⟨S50000x96, .f32⟩ : BufTy).Contents (Elt F) → (⟨S50000x96, .f32⟩ : BufTy).Contents (Elt F) → (⟨S50000x96, .f32⟩ : BufTy).Contents (Elt F)) (after (ops (F := F)) V (Proc.devRef .tc main_v119)) (after (ops (F := F)) V (Proc.devRef .tc main_call4_v4)) := by
  rw [read5 V (r := main_call4_v5) (by decide), read5 V (r := main_v119) (by decide), read5 V (r := main_call4_v4) (by decide)]
  refine f_eqn2 (ops5_pairs (F := F)) 24 (by decide) _ main_call4_v5 (by decide) main_v119 main_call4_v4 (by decide) (by decide) (g := (subf : (⟨S50000x96, .f32⟩ : BufTy).Contents (Elt F) → (⟨S50000x96, .f32⟩ : BufTy).Contents (Elt F) → (⟨S50000x96, .f32⟩ : BufTy).Contents (Elt F))) ?_
  intro G
  rfl

theorem val_main_call4_v6 (V : Valuation τ sig (Elt F)) :
    after (ops (F := F)) V (Proc.devRef .tc main_call4_v6) = (mulf : (⟨S50000x96, .f32⟩ : BufTy).Contents (Elt F) → (⟨S50000x96, .f32⟩ : BufTy).Contents (Elt F) → (⟨S50000x96, .f32⟩ : BufTy).Contents (Elt F)) (after (ops (F := F)) V (Proc.devRef .tc main_call4_v5)) (after (ops (F := F)) V (Proc.devRef .tc main_call4_v5)) := by
  rw [read5 V (r := main_call4_v6) (by decide), read5 V (r := main_call4_v5) (by decide)]
  refine f_eqn2 (ops5_pairs (F := F)) 25 (by decide) _ main_call4_v6 (by decide) main_call4_v5 main_call4_v5 (by decide) (by decide) (g := (mulf : (⟨S50000x96, .f32⟩ : BufTy).Contents (Elt F) → (⟨S50000x96, .f32⟩ : BufTy).Contents (Elt F) → (⟨S50000x96, .f32⟩ : BufTy).Contents (Elt F))) ?_
  intro G
  rfl

theorem val_main_call4_v7 (V : Valuation τ sig (Elt F)) :
    after (ops (F := F)) V (Proc.devRef .tc main_call4_v7) = (sitofp .f32 : (⟨S_, .i32⟩ : BufTy).Contents (Elt F) → (⟨S_, .f32⟩ : BufTy).Contents (Elt F)) (after (ops (F := F)) V (Proc.devRef .tc main_c_24)) := by
  rw [read5 V (r := main_call4_v7) (by decide), read5 V (r := main_c_24) (by decide)]
  refine f_eqn1 (ops5_pairs (F := F)) 26 (by decide) _ main_call4_v7 (by decide) main_c_24 (by decide) (g := (sitofp .f32 : (⟨S_, .i32⟩ : BufTy).Contents (Elt F) → (⟨S_, .f32⟩ : BufTy).Contents (Elt F))) ?_
  intro G
  rfl

theorem val_main_call4_cst_1 (V : Valuation τ sig (Elt F)) :
    after (ops (F := F)) V (Proc.devRef .tc main_call4_cst_1) = (constant S_ .f32 0x47435000#32) := by
  rw [read5 V (r := main_call4_cst_1) (by decide)]
  refine f_eqn0 (ops5_pairs (F := F)) 27 (by decide) _ main_call4_cst_1 (by decide) ?_
  intro G
  rfl

theorem val_main_call4_v8 (V : Valuation τ sig (Elt F)) :
    after (ops (F := F)) V (Proc.devRef .tc main_call4_v8) = (subf : (⟨S_, .f32⟩ : BufTy).Contents (Elt F) → (⟨S_, .f32⟩ : BufTy).Contents (Elt F) → (⟨S_, .f32⟩ : BufTy).Contents (Elt F)) (after (ops (F := F)) V (Proc.devRef .tc main_call4_cst_1)) (after (ops (F := F)) V (Proc.devRef .tc main_call4_v7)) := by
  rw [read5 V (r := main_call4_v8) (by decide), read5 V (r := main_call4_cst_1) (by decide), read5 V (r := main_call4_v7) (by decide)]
  refine f_eqn2 (ops5_pairs (F := F)) 28 (by decide) _ main_call4_v8 (by decide) main_call4_cst_1 main_call4_v7 (by decide) (by decide) (g := (subf : (⟨S_, .f32⟩ : BufTy).Contents (Elt F) → (⟨S_, .f32⟩ : BufTy).Contents (Elt F) → (⟨S_, .f32⟩ : BufTy).Contents (Elt F))) ?_
  intro G
  rfl

theorem val_main_call4_cst_2 (V : Valuation τ sig (Elt F)) :
    after (ops (F := F)) V (Proc.devRef .tc main_call4_cst_2) = (constant S_ .f32 0x00000000#32) := by
  rw [read5 V (r := main_call4_cst_2) (by decide)]
  refine f_eqn0 (ops5_pairs (F := F)) 29 (by decide) _ main_call4_cst_2 (by decide) ?_
  intro G
  rfl

theorem val_main_call4_v9 (V : Valuation τ sig (Elt F)) :
    after (ops (F := F)) V (Proc.devRef .tc main_call4_v9) = (fun x v => Host.reduceAdd x v reducesTo_S50000x96_S96_d0 h_S_ : (⟨S50000x96, .f32⟩ : BufTy).Contents (Elt F) → (⟨S_, .f32⟩ : BufTy).Contents (Elt F) → (⟨S96, .f32⟩ : BufTy).Contents (Elt F)) (after (ops (F := F)) V (Proc.devRef .tc main_call4_v6)) (after (ops (F := F)) V (Proc.devRef .tc main_call4_cst_2)) := by
  rw [read5 V (r := main_call4_v9) (by decide), read5 V (r := main_call4_v6) (by decide), read5 V (r := main_call4_cst_2) (by decide)]
  refine f_eqn2 (ops5_pairs (F := F)) 30 (by decide) _ main_call4_v9 (by decide) main_call4_v6 main_call4_cst_2 (by decide) (by decide) (g := (fun x v => Host.reduceAdd x v reducesTo_S50000x96_S96_d0 h_S_ : (⟨S50000x96, .f32⟩ : BufTy).Contents (Elt F) → (⟨S_, .f32⟩ : BufTy).Contents (Elt F) → (⟨S96, .f32⟩ : BufTy).Contents (Elt F))) ?_
  intro G
  rfl

theorem val_main_call4_v10 (V : Valuation τ sig (Elt F)) :
    after (ops (F := F)) V (Proc.devRef .tc main_call4_v10) = (broadcastInDim S96 ![] bcast_S_S96 : (⟨S_, .f32⟩ : BufTy).Contents (Elt F) → (⟨S96, .f32⟩ : BufTy).Contents (Elt F)) (after (ops (F := F)) V (Proc.devRef .tc main_call4_v8)) := by
  rw [read5 V (r := main_call4_v10) (by decide), read5 V (r := main_call4_v8) (by decide)]
  refine f_eqn1 (ops5_pairs (F := F)) 31 (by decide) _ main_call4_v10 (by decide) main_call4_v8 (by decide) (g := (broadcastInDim S96 ![] bcast_S_S96 : (⟨S_, .f32⟩ : BufTy).Contents (Elt F) → (⟨S96, .f32⟩ : BufTy).Contents (Elt F))) ?_
  intro G
  rfl

theorem val_main_call4_v11 (V : Valuation τ sig (Elt F)) :
    after (ops (F := F)) V (Proc.devRef .tc main_call4_v11) = (Host.divf : (⟨S96, .f32⟩ : BufTy).Contents (Elt F) → (⟨S96, .f32⟩ : BufTy).Contents (Elt F) → (⟨S96, .f32⟩ : BufTy).Contents (Elt F)) (after (ops (F := F)) V (Proc.devRef .tc main_call4_v9)) (after (ops (F := F)) V (Proc.devRef .tc main_call4_v10)) := by
  rw [read5 V (r := main_call4_v11) (by decide), read5 V (r := main_call4_v9) (by decide), read5 V (r := main_call4_v10) (by decide)]
  refine f_eqn2 (ops5_pairs (F := F)) 32 (by decide) _ main_call4_v11 (by decide) main_call4_v9 main_call4_v10 (by decide) (by decide) (g := (Host.divf : (⟨S96, .f32⟩ : BufTy).Contents (Elt F) → (⟨S96, .f32⟩ : BufTy).Contents (Elt F) → (⟨S96, .f32⟩ : BufTy).Contents (Elt F))) ?_
  intro G
  rfl

theorem val_main_call4_cst_3 (V : Valuation τ sig (Elt F)) :
    after (ops (F := F)) V (Proc.devRef .tc main_call4_cst_3) = (constant S_ .f32 0x00000000#32) := by
  rw [read5 V (r := main_call4_cst_3) (by decide)]
  refine f_eqn0 (ops5_pairs (F := F)) 33 (by decide) _ main_call4_cst_3 (by decide) ?_
  intro G
  rfl

theorem val_main_call4_v12 (V : Valuation τ sig (Elt F)) :
    after (ops (F := F)) V (Proc.devRef .tc main_call4_v12) = (cmpf .ogt : (⟨S_, .f32⟩ : BufTy).Contents (Elt F) → (⟨S_, .f32⟩ : BufTy).Contents (Elt F) → (⟨S_, .i1⟩ : BufTy).Contents (Elt F)) (after (ops (F := F)) V (Proc.devRef .tc main_call4_v8)) (after (ops (F := F)) V (Proc.devRef .tc main_call4_cst_3)) := by
  rw [read5 V (r := main_call4_v12) (by decide), read5 V (r := main_call4_v8) (by decide), read5 V (r := main_call4_cst_3) (by decide)]
  refine f_eqn2 (ops5_pairs (F := F)) 34 (by decide) _ main_call4_v12 (by decide) main_call4_v8 main_call4_cst_3 (by decide) (by decide) (g := (cmpf .ogt : (⟨S_, .f32⟩ : BufTy).Contents (Elt F) → (⟨S_, .f32⟩ : BufTy).Contents (Elt F) → (⟨S_, .i1⟩ : BufTy).Contents (Elt F))) ?_
  intro G
  rfl

theorem val_main_call4_cst_4 (V : Valuation τ sig (Elt F)) :
    after (ops (F := F)) V (Proc.devRef .tc main_call4_cst_4) = (constant S_ .f32 0x7FC00000#32) := by
  rw [read5 V (r := main_call4_cst_4) (by decide)]
  refine f_eqn0 (ops5_pairs (F := F)) 35 (by decide) _ main_call4_cst_4 (by decide) ?_
  intro G
  rfl

/-! ## Piece 6 -/

theorem val_main_call4_call0_v0 (V : Valuation τ sig (Elt F)) :
    after (ops (F := F)) V (Proc.devRef .tc main_call4_call0_v0) = (id : (⟨S_, .f32⟩ : BufTy).Contents (Elt F) → (⟨S_, .f32⟩ : BufTy).Contents (Elt F)) (after (ops (F := F)) V (Proc.devRef .tc main_call4_cst_4)) := by
  rw [read6 V main_call4_call0_v0, read6 V main_call4_cst_4]
  refine f_eqn1 (ops6_pairs (F := F)) 0 (by decide) _ main_call4_call0_v0 (by decide) main_call4_cst_4 (by decide) (g := (id : (⟨S_, .f32⟩ : BufTy).Contents (Elt F) → (⟨S_, .f32⟩ : BufTy).Contents (Elt F))) ?_
  intro G
  rfl

theorem val_main_call4_call0_v1 (V : Valuation τ sig (Elt F)) :
    after (ops (F := F)) V (Proc.devRef .tc main_call4_call0_v1) = (broadcastInDim S96 ![] bcast_S_S96 : (⟨S_, .f32⟩ : BufTy).Contents (Elt F) → (⟨S96, .f32⟩ : BufTy).Contents (Elt F)) (after (ops (F := F)) V (Proc.devRef .tc main_call4_call0_v0)) := by
  rw [read6 V main_call4_call0_v1, read6 V main_call4_call0_v0]
  refine f_eqn1 (ops6_pairs (F := F)) 1 (by decide) _ main_call4_call0_v1 (by decide) main_call4_call0_v0 (by decide) (g := (broadcastInDim S96 ![] bcast_S_S96 : (⟨S_, .f32⟩ : BufTy).Contents (Elt F) → (⟨S96, .f32⟩ : BufTy).Contents (Elt F))) ?_
  intro G
  rfl

theorem val_main_v123 (V : Valuation τ sig (Elt F)) :
    after (ops (F := F)) V (Proc.devRef .tc main_v123) = (fun p a b => select (broadcastInDim S96 ![] bcast_S_S96 p) a b : (⟨S_, .i1⟩ : BufTy).Contents (Elt F) → (⟨S96, .f32⟩ : BufTy).Contents (Elt F) → (⟨S96, .f32⟩ : BufTy).Contents (Elt F) → (⟨S96, .f32⟩ : BufTy).Contents (Elt F)) (after (ops (F := F)) V (Proc.devRef .tc main_call4_v12)) (after (ops (F := F)) V (Proc.devRef .tc main_call4_v11)) (after (ops (F := F)) V (Proc.devRef .tc main_call4_call0_v1)) := by
  rw [read6 V main_v123, read6 V main_call4_v12, read6 V main_call4_v11, read6 V main_call4_call0_v1]
  refine f_eqn3 (ops6_pairs (F := F)) 2 (by decide) _ main_v123 (by decide) main_call4_v12 main_call4_v11 main_call4_call0_v1 (by decide) (by decide) (by decide) (g := (fun p a b => select (broadcastInDim S96 ![] bcast_S_S96 p) a b : (⟨S_, .i1⟩ : BufTy).Contents (Elt F) → (⟨S96, .f32⟩ : BufTy).Contents (Elt F) → (⟨S96, .f32⟩ : BufTy).Contents (Elt F) → (⟨S96, .f32⟩ : BufTy).Contents (Elt F))) ?_
  intro G
  rfl

theorem val_main_v124 (V : Valuation τ sig (Elt F)) :
    after (ops (F := F)) V (Proc.devRef .tc main_v124) = (broadcastInDim S1x96 ![1] bcast_S96_S1x96_1 : (⟨S96, .f32⟩ : BufTy).Contents (Elt F) → (⟨S1x96, .f32⟩ : BufTy).Contents (Elt F)) (after (ops (F := F)) V (Proc.devRef .tc main_v122)) := by
  rw [read6 V main_v124, read6 V main_v122]
  refine f_eqn1 (ops6_pairs (F := F)) 3 (by decide) _ main_v124 (by decide) main_v122 (by decide) (g := (broadcastInDim S1x96 ![1] bcast_S96_S1x96_1 : (⟨S96, .f32⟩ : BufTy).Contents (Elt F) → (⟨S1x96, .f32⟩ : BufTy).Contents (Elt F))) ?_
  intro G
  rfl

theorem val_main_v125 (V : Valuation τ sig (Elt F)) :
    after (ops (F := F)) V (Proc.devRef .tc main_v125) = (broadcastInDim S50000x96 ![0, 1] bcast_S1x96_S50000x96_0_1 : (⟨S1x96, .f32⟩ : BufTy).Contents (Elt F) → (⟨S50000x96, .f32⟩ : BufTy).Contents (Elt F)) (after (ops (F := F)) V (Proc.devRef .tc main_v124)) := by
  rw [read6 V main_v125, read6 V main_v124]
  refine f_eqn1 (ops6_pairs (F := F)) 4 (by decide) _ main_v125 (by decide) main_v124 (by decide) (g := (broadcastInDim S50000x96 ![0, 1] bcast_S1x96_S50000x96_0_1 : (⟨S1x96, .f32⟩ : BufTy).Contents (Elt F) → (⟨S50000x96, .f32⟩ : BufTy).Contents (Elt F))) ?_
  intro G
  rfl

theorem val_main_v126 (V : Valuation τ sig (Elt F)) :
    after (ops (F := F)) V (Proc.devRef .tc main_v126) = (subf : (⟨S50000x96, .f32⟩ : BufTy).Contents (Elt F) → (⟨S50000x96, .f32⟩ : BufTy).Contents (Elt F) → (⟨S50000x96, .f32⟩ : BufTy).Contents (Elt F)) (after (ops (F := F)) V (Proc.devRef .tc main_v119)) (after (ops (F := F)) V (Proc.devRef .tc main_v125)) := by
  rw [read6 V main_v126, read6 V main_v119, read6 V main_v125]
  refine f_eqn2 (ops6_pairs (F := F)) 5 (by decide) _ main_v126 (by decide) main_v119 main_v125 (by decide) (by decide) (g := (subf : (⟨S50000x96, .f32⟩ : BufTy).Contents (Elt F) → (⟨S50000x96, .f32⟩ : BufTy).Contents (Elt F) → (⟨S50000x96, .f32⟩ : BufTy).Contents (Elt F))) ?_
  intro G
  rfl

theorem val_main_v127 (V : Valuation τ sig (Elt F)) :
    after (ops (F := F)) V (Proc.devRef .tc main_v127) = (broadcastInDim S1x96 ![1] bcast_S96_S1x96_1 : (⟨S96, .f32⟩ : BufTy).Contents (Elt F) → (⟨S1x96, .f32⟩ : BufTy).Contents (Elt F)) (after (ops (F := F)) V (Proc.devRef .tc main_arg12)) := by
  rw [read6 V main_v127, read6 V main_arg12]
  refine f_eqn1 (ops6_pairs (F := F)) 6 (by decide) _ main_v127 (by decide) main_arg12 (by decide) (g := (broadcastInDim S1x96 ![1] bcast_S96_S1x96_1 : (⟨S96, .f32⟩ : BufTy).Contents (Elt F) → (⟨S1x96, .f32⟩ : BufTy).Contents (Elt F))) ?_
  intro G
  rfl

theorem val_main_v128 (V : Valuation τ sig (Elt F)) :
    after (ops (F := F)) V (Proc.devRef .tc main_v128) = (broadcastInDim S50000x96 ![0, 1] bcast_S1x96_S50000x96_0_1 : (⟨S1x96, .f32⟩ : BufTy).Contents (Elt F) → (⟨S50000x96, .f32⟩ : BufTy).Contents (Elt F)) (after (ops (F := F)) V (Proc.devRef .tc main_v127)) := by
  rw [read6 V main_v128, read6 V main_v127]
  refine f_eqn1 (ops6_pairs (F := F)) 7 (by decide) _ main_v128 (by decide) main_v127 (by decide) (g := (broadcastInDim S50000x96 ![0, 1] bcast_S1x96_S50000x96_0_1 : (⟨S1x96, .f32⟩ : BufTy).Contents (Elt F) → (⟨S50000x96, .f32⟩ : BufTy).Contents (Elt F))) ?_
  intro G
  rfl

theorem val_main_v129 (V : Valuation τ sig (Elt F)) :
    after (ops (F := F)) V (Proc.devRef .tc main_v129) = (mulf : (⟨S50000x96, .f32⟩ : BufTy).Contents (Elt F) → (⟨S50000x96, .f32⟩ : BufTy).Contents (Elt F) → (⟨S50000x96, .f32⟩ : BufTy).Contents (Elt F)) (after (ops (F := F)) V (Proc.devRef .tc main_v128)) (after (ops (F := F)) V (Proc.devRef .tc main_v126)) := by
  rw [read6 V main_v129, read6 V main_v128, read6 V main_v126]
  refine f_eqn2 (ops6_pairs (F := F)) 8 (by decide) _ main_v129 (by decide) main_v128 main_v126 (by decide) (by decide) (g := (mulf : (⟨S50000x96, .f32⟩ : BufTy).Contents (Elt F) → (⟨S50000x96, .f32⟩ : BufTy).Contents (Elt F) → (⟨S50000x96, .f32⟩ : BufTy).Contents (Elt F))) ?_
  intro G
  rfl

theorem val_main_cst_25 (V : Valuation τ sig (Elt F)) :
    after (ops (F := F)) V (Proc.devRef .tc main_cst_25) = (constant S_ .f32 0x3727C5AC#32) := by
  rw [read6 V main_cst_25]
  refine f_eqn0 (ops6_pairs (F := F)) 9 (by decide) _ main_cst_25 (by decide) ?_
  intro G
  rfl

theorem val_main_v130 (V : Valuation τ sig (Elt F)) :
    after (ops (F := F)) V (Proc.devRef .tc main_v130) = (broadcastInDim S96 ![] bcast_S_S96 : (⟨S_, .f32⟩ : BufTy).Contents (Elt F) → (⟨S96, .f32⟩ : BufTy).Contents (Elt F)) (after (ops (F := F)) V (Proc.devRef .tc main_cst_25)) := by
  rw [read6 V main_v130, read6 V main_cst_25]
  refine f_eqn1 (ops6_pairs (F := F)) 10 (by decide) _ main_v130 (by decide) main_cst_25 (by decide) (g := (broadcastInDim S96 ![] bcast_S_S96 : (⟨S_, .f32⟩ : BufTy).Contents (Elt F) → (⟨S96, .f32⟩ : BufTy).Contents (Elt F))) ?_
  intro G
  rfl

theorem val_main_v131 (V : Valuation τ sig (Elt F)) :
    after (ops (F := F)) V (Proc.devRef .tc main_v131) = (addf : (⟨S96, .f32⟩ : BufTy).Contents (Elt F) → (⟨S96, .f32⟩ : BufTy).Contents (Elt F) → (⟨S96, .f32⟩ : BufTy).Contents (Elt F)) (after (ops (F := F)) V (Proc.devRef .tc main_v123)) (after (ops (F := F)) V (Proc.devRef .tc main_v130)) := by
  rw [read6 V main_v131, read6 V main_v123, read6 V main_v130]
  refine f_eqn2 (ops6_pairs (F := F)) 11 (by decide) _ main_v131 (by decide) main_v123 main_v130 (by decide) (by decide) (g := (addf : (⟨S96, .f32⟩ : BufTy).Contents (Elt F) → (⟨S96, .f32⟩ : BufTy).Contents (Elt F) → (⟨S96, .f32⟩ : BufTy).Contents (Elt F))) ?_
  intro G
  rfl

theorem val_main_v132 (V : Valuation τ sig (Elt F)) :
    after (ops (F := F)) V (Proc.devRef .tc main_v132) = (Host.rsqrt : (⟨S96, .f32⟩ : BufTy).Contents (Elt F) → (⟨S96, .f32⟩ : BufTy).Contents (Elt F)) (after (ops (F := F)) V (Proc.devRef .tc main_v131)) := by
  rw [read6 V main_v132, read6 V main_v131]
  refine f_eqn1 (ops6_pairs (F := F)) 12 (by decide) _ main_v132 (by decide) main_v131 (by decide) (g := (Host.rsqrt : (⟨S96, .f32⟩ : BufTy).Contents (Elt F) → (⟨S96, .f32⟩ : BufTy).Contents (Elt F))) ?_
  intro G
  rfl

theorem val_main_v133 (V : Valuation τ sig (Elt F)) :
    after (ops (F := F)) V (Proc.devRef .tc main_v133) = (broadcastInDim S1x96 ![1] bcast_S96_S1x96_1 : (⟨S96, .f32⟩ : BufTy).Contents (Elt F) → (⟨S1x96, .f32⟩ : BufTy).Contents (Elt F)) (after (ops (F := F)) V (Proc.devRef .tc main_v132)) := by
  rw [read6 V main_v133, read6 V main_v132]
  refine f_eqn1 (ops6_pairs (F := F)) 13 (by decide) _ main_v133 (by decide) main_v132 (by decide) (g := (broadcastInDim S1x96 ![1] bcast_S96_S1x96_1 : (⟨S96, .f32⟩ : BufTy).Contents (Elt F) → (⟨S1x96, .f32⟩ : BufTy).Contents (Elt F))) ?_
  intro G
  rfl

theorem val_main_v134 (V : Valuation τ sig (Elt F)) :
    after (ops (F := F)) V (Proc.devRef .tc main_v134) = (broadcastInDim S50000x96 ![0, 1] bcast_S1x96_S50000x96_0_1 : (⟨S1x96, .f32⟩ : BufTy).Contents (Elt F) → (⟨S50000x96, .f32⟩ : BufTy).Contents (Elt F)) (after (ops (F := F)) V (Proc.devRef .tc main_v133)) := by
  rw [read6 V main_v134, read6 V main_v133]
  refine f_eqn1 (ops6_pairs (F := F)) 14 (by decide) _ main_v134 (by decide) main_v133 (by decide) (g := (broadcastInDim S50000x96 ![0, 1] bcast_S1x96_S50000x96_0_1 : (⟨S1x96, .f32⟩ : BufTy).Contents (Elt F) → (⟨S50000x96, .f32⟩ : BufTy).Contents (Elt F))) ?_
  intro G
  rfl

theorem val_main_v135 (V : Valuation τ sig (Elt F)) :
    after (ops (F := F)) V (Proc.devRef .tc main_v135) = (mulf : (⟨S50000x96, .f32⟩ : BufTy).Contents (Elt F) → (⟨S50000x96, .f32⟩ : BufTy).Contents (Elt F) → (⟨S50000x96, .f32⟩ : BufTy).Contents (Elt F)) (after (ops (F := F)) V (Proc.devRef .tc main_v129)) (after (ops (F := F)) V (Proc.devRef .tc main_v134)) := by
  rw [read6 V main_v135, read6 V main_v129, read6 V main_v134]
  refine f_eqn2 (ops6_pairs (F := F)) 15 (by decide) _ main_v135 (by decide) main_v129 main_v134 (by decide) (by decide) (g := (mulf : (⟨S50000x96, .f32⟩ : BufTy).Contents (Elt F) → (⟨S50000x96, .f32⟩ : BufTy).Contents (Elt F) → (⟨S50000x96, .f32⟩ : BufTy).Contents (Elt F))) ?_
  intro G
  rfl

theorem val_main_v136 (V : Valuation τ sig (Elt F)) :
    after (ops (F := F)) V (Proc.devRef .tc main_v136) = (broadcastInDim S1x96 ![1] bcast_S96_S1x96_1 : (⟨S96, .f32⟩ : BufTy).Contents (Elt F) → (⟨S1x96, .f32⟩ : BufTy).Contents (Elt F)) (after (ops (F := F)) V (Proc.devRef .tc main_arg13)) := by
  rw [read6 V main_v136, read6 V main_arg13]
  refine f_eqn1 (ops6_pairs (F := F)) 16 (by decide) _ main_v136 (by decide) main_arg13 (by decide) (g := (broadcastInDim S1x96 ![1] bcast_S96_S1x96_1 : (⟨S96, .f32⟩ : BufTy).Contents (Elt F) → (⟨S1x96, .f32⟩ : BufTy).Contents (Elt F))) ?_
  intro G
  rfl

theorem val_main_v137 (V : Valuation τ sig (Elt F)) :
    after (ops (F := F)) V (Proc.devRef .tc main_v137) = (broadcastInDim S50000x96 ![0, 1] bcast_S1x96_S50000x96_0_1 : (⟨S1x96, .f32⟩ : BufTy).Contents (Elt F) → (⟨S50000x96, .f32⟩ : BufTy).Contents (Elt F)) (after (ops (F := F)) V (Proc.devRef .tc main_v136)) := by
  rw [read6 V main_v137, read6 V main_v136]
  refine f_eqn1 (ops6_pairs (F := F)) 17 (by decide) _ main_v137 (by decide) main_v136 (by decide) (g := (broadcastInDim S50000x96 ![0, 1] bcast_S1x96_S50000x96_0_1 : (⟨S1x96, .f32⟩ : BufTy).Contents (Elt F) → (⟨S50000x96, .f32⟩ : BufTy).Contents (Elt F))) ?_
  intro G
  rfl

theorem val_main_v138 (V : Valuation τ sig (Elt F)) :
    after (ops (F := F)) V (Proc.devRef .tc main_v138) = (addf : (⟨S50000x96, .f32⟩ : BufTy).Contents (Elt F) → (⟨S50000x96, .f32⟩ : BufTy).Contents (Elt F) → (⟨S50000x96, .f32⟩ : BufTy).Contents (Elt F)) (after (ops (F := F)) V (Proc.devRef .tc main_v135)) (after (ops (F := F)) V (Proc.devRef .tc main_v137)) := by
  rw [read6 V main_v138, read6 V main_v135, read6 V main_v137]
  refine f_eqn2 (ops6_pairs (F := F)) 18 (by decide) _ main_v138 (by decide) main_v135 main_v137 (by decide) (by decide) (g := (addf : (⟨S50000x96, .f32⟩ : BufTy).Contents (Elt F) → (⟨S50000x96, .f32⟩ : BufTy).Contents (Elt F) → (⟨S50000x96, .f32⟩ : BufTy).Contents (Elt F))) ?_
  intro G
  rfl

theorem val_main_call5_cst (V : Valuation τ sig (Elt F)) :
    after (ops (F := F)) V (Proc.devRef .tc main_call5_cst) = (constant S_ .f32 0x00000000#32) := by
  rw [read6 V main_call5_cst]
  refine f_eqn0 (ops6_pairs (F := F)) 19 (by decide) _ main_call5_cst (by decide) ?_
  intro G
  rfl

theorem val_main_call5_v0 (V : Valuation τ sig (Elt F)) :
    after (ops (F := F)) V (Proc.devRef .tc main_call5_v0) = (broadcastInDim S50000x96 ![] bcast_S_S50000x96 : (⟨S_, .f32⟩ : BufTy).Contents (Elt F) → (⟨S50000x96, .f32⟩ : BufTy).Contents (Elt F)) (after (ops (F := F)) V (Proc.devRef .tc main_call5_cst)) := by
  rw [read6 V main_call5_v0, read6 V main_call5_cst]
  refine f_eqn1 (ops6_pairs (F := F)) 20 (by decide) _ main_call5_v0 (by decide) main_call5_cst (by decide) (g := (broadcastInDim S50000x96 ![] bcast_S_S50000x96 : (⟨S_, .f32⟩ : BufTy).Contents (Elt F) → (⟨S50000x96, .f32⟩ : BufTy).Contents (Elt F))) ?_
  intro G
  rfl

theorem val_main_v139 (V : Valuation τ sig (Elt F)) :
    after (ops (F := F)) V (Proc.devRef .tc main_v139) = (maximumf : (⟨S50000x96, .f32⟩ : BufTy).Contents (Elt F) → (⟨S50000x96, .f32⟩ : BufTy).Contents (Elt F) → (⟨S50000x96, .f32⟩ : BufTy).Contents (Elt F)) (after (ops (F := F)) V (Proc.devRef .tc main_v138)) (after (ops (F := F)) V (Proc.devRef .tc main_call5_v0)) := by
  rw [read6 V main_v139, read6 V main_v138, read6 V main_call5_v0]
  refine f_eqn2 (ops6_pairs (F := F)) 21 (by decide) _ main_v139 (by decide) main_v138 main_call5_v0 (by decide) (by decide) (g := (maximumf : (⟨S50000x96, .f32⟩ : BufTy).Contents (Elt F) → (⟨S50000x96, .f32⟩ : BufTy).Contents (Elt F) → (⟨S50000x96, .f32⟩ : BufTy).Contents (Elt F))) ?_
  intro G
  rfl

theorem val_main_v140 (V : Valuation τ sig (Elt F)) :
    after (ops (F := F)) V (Proc.devRef .tc main_v140) = ((fun l r => Host.dotGeneral dot_S50000x96_S96x64_S50000x64_1_0_0_1_n_n none l r) : (⟨S50000x96, .f32⟩ : BufTy).Contents (Elt F) → (⟨S96x64, .f32⟩ : BufTy).Contents (Elt F) → (⟨S50000x64, .f32⟩ : BufTy).Contents (Elt F)) (after (ops (F := F)) V (Proc.devRef .tc main_v139)) (after (ops (F := F)) V (Proc.devRef .tc main_arg14)) := by
  rw [read6 V main_v140, read6 V main_v139, read6 V main_arg14]
  refine f_eqn2 (ops6_pairs (F := F)) 22 (by decide) _ main_v140 (by decide) main_v139 main_arg14 (by decide) (by decide) (g := ((fun l r => Host.dotGeneral dot_S50000x96_S96x64_S50000x64_1_0_0_1_n_n none l r) : (⟨S50000x96, .f32⟩ : BufTy).Contents (Elt F) → (⟨S96x64, .f32⟩ : BufTy).Contents (Elt F) → (⟨S50000x64, .f32⟩ : BufTy).Contents (Elt F))) ?_
  intro G
  rfl

theorem val_main_v141 (V : Valuation τ sig (Elt F)) :
    after (ops (F := F)) V (Proc.devRef .tc main_v141) = (broadcastInDim S1x64 ![1] bcast_S64_S1x64_1 : (⟨S64, .f32⟩ : BufTy).Contents (Elt F) → (⟨S1x64, .f32⟩ : BufTy).Contents (Elt F)) (after (ops (F := F)) V (Proc.devRef .tc main_arg15)) := by
  rw [read6 V main_v141, read6 V main_arg15]
  refine f_eqn1 (ops6_pairs (F := F)) 23 (by decide) _ main_v141 (by decide) main_arg15 (by decide) (g := (broadcastInDim S1x64 ![1] bcast_S64_S1x64_1 : (⟨S64, .f32⟩ : BufTy).Contents (Elt F) → (⟨S1x64, .f32⟩ : BufTy).Contents (Elt F))) ?_
  intro G
  rfl

theorem val_main_v142 (V : Valuation τ sig (Elt F)) :
    after (ops (F := F)) V (Proc.devRef .tc main_v142) = (broadcastInDim S50000x64 ![0, 1] bcast_S1x64_S50000x64_0_1 : (⟨S1x64, .f32⟩ : BufTy).Contents (Elt F) → (⟨S50000x64, .f32⟩ : BufTy).Contents (Elt F)) (after (ops (F := F)) V (Proc.devRef .tc main_v141)) := by
  rw [read6 V main_v142, read6 V main_v141]
  refine f_eqn1 (ops6_pairs (F := F)) 24 (by decide) _ main_v142 (by decide) main_v141 (by decide) (g := (broadcastInDim S50000x64 ![0, 1] bcast_S1x64_S50000x64_0_1 : (⟨S1x64, .f32⟩ : BufTy).Contents (Elt F) → (⟨S50000x64, .f32⟩ : BufTy).Contents (Elt F))) ?_
  intro G
  rfl

theorem val_main_v143 (V : Valuation τ sig (Elt F)) :
    after (ops (F := F)) V (Proc.devRef .tc main_v143) = (addf : (⟨S50000x64, .f32⟩ : BufTy).Contents (Elt F) → (⟨S50000x64, .f32⟩ : BufTy).Contents (Elt F) → (⟨S50000x64, .f32⟩ : BufTy).Contents (Elt F)) (after (ops (F := F)) V (Proc.devRef .tc main_v140)) (after (ops (F := F)) V (Proc.devRef .tc main_v142)) := by
  rw [read6 V main_v143, read6 V main_v140, read6 V main_v142]
  refine f_eqn2 (ops6_pairs (F := F)) 25 (by decide) _ main_v143 (by decide) main_v140 main_v142 (by decide) (by decide) (g := (addf : (⟨S50000x64, .f32⟩ : BufTy).Contents (Elt F) → (⟨S50000x64, .f32⟩ : BufTy).Contents (Elt F) → (⟨S50000x64, .f32⟩ : BufTy).Contents (Elt F))) ?_
  intro G
  rfl

theorem val_main_call6_v0 (V : Valuation τ sig (Elt F)) :
    after (ops (F := F)) V (Proc.devRef .tc main_call6_v0) = (mulf : (⟨S50000x64, .f32⟩ : BufTy).Contents (Elt F) → (⟨S50000x64, .f32⟩ : BufTy).Contents (Elt F) → (⟨S50000x64, .f32⟩ : BufTy).Contents (Elt F)) (after (ops (F := F)) V (Proc.devRef .tc main_v143)) (after (ops (F := F)) V (Proc.devRef .tc main_v143)) := by
  rw [read6 V main_call6_v0, read6 V main_v143]
  refine f_eqn2 (ops6_pairs (F := F)) 26 (by decide) _ main_call6_v0 (by decide) main_v143 main_v143 (by decide) (by decide) (g := (mulf : (⟨S50000x64, .f32⟩ : BufTy).Contents (Elt F) → (⟨S50000x64, .f32⟩ : BufTy).Contents (Elt F) → (⟨S50000x64, .f32⟩ : BufTy).Contents (Elt F))) ?_
  intro G
  rfl

theorem val_main_call6_cst (V : Valuation τ sig (Elt F)) :
    after (ops (F := F)) V (Proc.devRef .tc main_call6_cst) = (constant S_ .f32 0x00000000#32) := by
  rw [read6 V main_call6_cst]
  refine f_eqn0 (ops6_pairs (F := F)) 27 (by decide) _ main_call6_cst (by decide) ?_
  intro G
  rfl

theorem val_main_call6_v1 (V : Valuation τ sig (Elt F)) :
    after (ops (F := F)) V (Proc.devRef .tc main_call6_v1) = (fun x v => Host.reduceAdd x v reducesTo_S50000x64_S50000_d1 h_S_ : (⟨S50000x64, .f32⟩ : BufTy).Contents (Elt F) → (⟨S_, .f32⟩ : BufTy).Contents (Elt F) → (⟨S50000, .f32⟩ : BufTy).Contents (Elt F)) (after (ops (F := F)) V (Proc.devRef .tc main_call6_v0)) (after (ops (F := F)) V (Proc.devRef .tc main_call6_cst)) := by
  rw [read6 V main_call6_v1, read6 V main_call6_v0, read6 V main_call6_cst]
  refine f_eqn2 (ops6_pairs (F := F)) 28 (by decide) _ main_call6_v1 (by decide) main_call6_v0 main_call6_cst (by decide) (by decide) (g := (fun x v => Host.reduceAdd x v reducesTo_S50000x64_S50000_d1 h_S_ : (⟨S50000x64, .f32⟩ : BufTy).Contents (Elt F) → (⟨S_, .f32⟩ : BufTy).Contents (Elt F) → (⟨S50000, .f32⟩ : BufTy).Contents (Elt F))) ?_
  intro G
  rfl

theorem val_main_call6_v2 (V : Valuation τ sig (Elt F)) :
    after (ops (F := F)) V (Proc.devRef .tc main_call6_v2) = (broadcastInDim S50000x1 ![0] bcast_S50000_S50000x1_0 : (⟨S50000, .f32⟩ : BufTy).Contents (Elt F) → (⟨S50000x1, .f32⟩ : BufTy).Contents (Elt F)) (after (ops (F := F)) V (Proc.devRef .tc main_call6_v1)) := by
  rw [read6 V main_call6_v2, read6 V main_call6_v1]
  refine f_eqn1 (ops6_pairs (F := F)) 29 (by decide) _ main_call6_v2 (by decide) main_call6_v1 (by decide) (g := (broadcastInDim S50000x1 ![0] bcast_S50000_S50000x1_0 : (⟨S50000, .f32⟩ : BufTy).Contents (Elt F) → (⟨S50000x1, .f32⟩ : BufTy).Contents (Elt F))) ?_
  intro G
  rfl

theorem val_main_v144 (V : Valuation τ sig (Elt F)) :
    after (ops (F := F)) V (Proc.devRef .tc main_v144) = (Host.sqrt : (⟨S50000x1, .f32⟩ : BufTy).Contents (Elt F) → (⟨S50000x1, .f32⟩ : BufTy).Contents (Elt F)) (after (ops (F := F)) V (Proc.devRef .tc main_call6_v2)) := by
  rw [read6 V main_v144, read6 V main_call6_v2]
  refine f_eqn1 (ops6_pairs (F := F)) 30 (by decide) _ main_v144 (by decide) main_call6_v2 (by decide) (g := (Host.sqrt : (⟨S50000x1, .f32⟩ : BufTy).Contents (Elt F) → (⟨S50000x1, .f32⟩ : BufTy).Contents (Elt F))) ?_
  intro G
  rfl

theorem val_main_cst_26 (V : Valuation τ sig (Elt F)) :
    after (ops (F := F)) V (Proc.devRef .tc main_cst_26) = (constant S_ .f32 0x2B8CBCCC#32) := by
  rw [read6 V main_cst_26]
  refine f_eqn0 (ops6_pairs (F := F)) 31 (by decide) _ main_cst_26 (by decide) ?_
  intro G
  rfl

theorem val_main_v145 (V : Valuation τ sig (Elt F)) :
    after (ops (F := F)) V (Proc.devRef .tc main_v145) = (broadcastInDim S50000x1 ![] bcast_S_S50000x1 : (⟨S_, .f32⟩ : BufTy).Contents (Elt F) → (⟨S50000x1, .f32⟩ : BufTy).Contents (Elt F)) (after (ops (F := F)) V (Proc.devRef .tc main_cst_26)) := by
  rw [read6 V main_v145, read6 V main_cst_26]
  refine f_eqn1 (ops6_pairs (F := F)) 32 (by decide) _ main_v145 (by decide) main_cst_26 (by decide) (g := (broadcastInDim S50000x1 ![] bcast_S_S50000x1 : (⟨S_, .f32⟩ : BufTy).Contents (Elt F) → (⟨S50000x1, .f32⟩ : BufTy).Contents (Elt F))) ?_
  intro G
  rfl

theorem val_main_v146 (V : Valuation τ sig (Elt F)) :
    after (ops (F := F)) V (Proc.devRef .tc main_v146) = (maximumf : (⟨S50000x1, .f32⟩ : BufTy).Contents (Elt F) → (⟨S50000x1, .f32⟩ : BufTy).Contents (Elt F) → (⟨S50000x1, .f32⟩ : BufTy).Contents (Elt F)) (after (ops (F := F)) V (Proc.devRef .tc main_v144)) (after (ops (F := F)) V (Proc.devRef .tc main_v145)) := by
  rw [read6 V main_v146, read6 V main_v144, read6 V main_v145]
  refine f_eqn2 (ops6_pairs (F := F)) 33 (by decide) _ main_v146 (by decide) main_v144 main_v145 (by decide) (by decide) (g := (maximumf : (⟨S50000x1, .f32⟩ : BufTy).Contents (Elt F) → (⟨S50000x1, .f32⟩ : BufTy).Contents (Elt F) → (⟨S50000x1, .f32⟩ : BufTy).Contents (Elt F))) ?_
  intro G
  rfl

theorem val_main_v147 (V : Valuation τ sig (Elt F)) :
    after (ops (F := F)) V (Proc.devRef .tc main_v147) = (broadcastInDim S50000x64 ![0, 1] bcast_S50000x1_S50000x64_0_1 : (⟨S50000x1, .f32⟩ : BufTy).Contents (Elt F) → (⟨S50000x64, .f32⟩ : BufTy).Contents (Elt F)) (after (ops (F := F)) V (Proc.devRef .tc main_v146)) := by
  rw [read6 V main_v147, read6 V main_v146]
  refine f_eqn1 (ops6_pairs (F := F)) 34 (by decide) _ main_v147 (by decide) main_v146 (by decide) (g := (broadcastInDim S50000x64 ![0, 1] bcast_S50000x1_S50000x64_0_1 : (⟨S50000x1, .f32⟩ : BufTy).Contents (Elt F) → (⟨S50000x64, .f32⟩ : BufTy).Contents (Elt F))) ?_
  intro G
  rfl

theorem val_main_v148 (V : Valuation τ sig (Elt F)) :
    after (ops (F := F)) V (Proc.devRef .tc main_v148) = (Host.divf : (⟨S50000x64, .f32⟩ : BufTy).Contents (Elt F) → (⟨S50000x64, .f32⟩ : BufTy).Contents (Elt F) → (⟨S50000x64, .f32⟩ : BufTy).Contents (Elt F)) (after (ops (F := F)) V (Proc.devRef .tc main_v143)) (after (ops (F := F)) V (Proc.devRef .tc main_v147)) := by
  rw [read6 V main_v148, read6 V main_v143, read6 V main_v147]
  refine f_eqn2 (ops6_pairs (F := F)) 35 (by decide) _ main_v148 (by decide) main_v143 main_v147 (by decide) (by decide) (g := (Host.divf : (⟨S50000x64, .f32⟩ : BufTy).Contents (Elt F) → (⟨S50000x64, .f32⟩ : BufTy).Contents (Elt F) → (⟨S50000x64, .f32⟩ : BufTy).Contents (Elt F))) ?_
  intro G
  rfl

end Cert.ReferenceIdeal.Hand

end
-- ==== Proof.Ref.ValTerms.lean ====
/-
  The reference program's operations, stage by stage, as terms over variable arrays. Each definition below is the
  composition of the tensor operations the program applies between two of its meeting points, with the arrays the
  stage reads as parameters: the edge words, the normalisation factors, a layer's value before normalisation, its
  column mean and variance, the normalised and clipped output, a product plus a bias, and the row normalisation.
  Nothing is proved here; the definitions are generic in the float values.
-/
import proofs.«115743_j55052890800725_2_alg».proof.Proof.Gen.ReferenceIdeal

noncomputable section

namespace Cert.ReferenceIdeal.Val

open Cert.ReferenceIdeal Cert.ReferenceIdeal.Gen Idealize.ShloMosaic

variable {F : FTy → Type} [FloatOps F]

/-! ## The edge words -/

/-- Row `r` of the edge array followed by the node numbers: the words of the 850000 edges, self loops last. -/
def tRow0 (ei : IVec S2x800000 32) : IVec S850000 32 :=
  concatenate S850000 0 [⟨S800000, fun i => shapeCast S800000 (extractStridedSlice S1x800000 ![0, 0] ei slices_S2x800000_S1x800000_0_0) shapeCasts_S1x800000_S800000 i⟩, ⟨S50000, iotaInDim S50000 32 0⟩] concatenates_S800000_S50000_S850000_d0
def tRow1 (ei : IVec S2x800000 32) : IVec S850000 32 :=
  concatenate S850000 0 [⟨S800000, fun i => shapeCast S800000 (extractStridedSlice S1x800000 ![1, 0] ei slices_S2x800000_S1x800000_1_0) shapeCasts_S1x800000_S800000 i⟩, ⟨S50000, iotaInDim S50000 32 0⟩] concatenates_S800000_S50000_S850000_d0
/-- The all-zero words an index word is compared with. -/
def tZeros : IVec S850000 32 := broadcastInDim S850000 ![] bcast_S_S850000 (constantI S_ 32 0#32)
/-- A gather's index words: a word below `z`'s wraps by the node count. -/
def tWrapZ (z w : IVec S850000 32) : IVec S850000 32 :=
  select (cmpi .slt w z) (addi w (broadcastInDim S850000 ![] bcast_S_S850000 (constantI S_ 32 50000#32))) w
/-- A gather's index words: a negative word wraps by the node count. -/
def tWrap (w : IVec S850000 32) : IVec S850000 32 := tWrapZ tZeros w
def tCol (w : IVec S850000 32) : IVec S850000x1 32 := broadcastInDim S850000x1 ![0] bcast_S850000_S850000x1_0 w

/-! ## The normalisation factors -/

/-- The inverse square root of the number of edges landing at each node. -/
def tDis (dst : IVec S850000 32) : FVec F S50000 .f32 :=
  Host.rsqrt (Host.scatterAdd scatter_S50000_S850000x1_S850000_n_0_0_1 (broadcastInDim S50000 ![] bcast_S_S50000 (constant S_ .f32 0x00000000#32)) (tCol dst) (broadcastInDim S850000 ![] bcast_S_S850000 (constant S_ .f32 0x3F800000#32)))
/-- Per edge, the product of its two ends' factors. -/
def tCoef (dis : FVec F S50000 .f32) (src dst : IVec S850000 32) : FVec F S850000 .f32 :=
  mulf (Host.gather gather_S50000_S850000x1_S850000_n_0_n_n_0_1_1 dis (tCol (tWrap src))) (Host.gather gather_S50000_S850000x1_S850000_n_0_n_n_0_1_1 dis (tCol (tWrap dst)))

/-! ## A layer's value before normalisation -/

/-- The messages (the rows of `P` at the wrapped source words, each scaled by its edge's coefficient) aggregated at their
    destinations, plus the bias row. -/
def tAgg (P : FVec F S50000x96 .f32) (coef : FVec F S850000 .f32) (wsrc dst : IVec S850000 32) (b : FVec F S96 .f32) : FVec F S50000x96 .f32 :=
  addf (Host.scatterAdd scatter_S50000x96_S850000x1_S850000x96_1_0_0_1 (broadcastInDim S50000x96 ![] bcast_S_S50000x96 (constant S_ .f32 0x00000000#32)) (tCol dst)
      (mulf (Host.gather gather_S50000x96_S850000x1_S850000x96_1_0_n_n_0_1_196 P (tCol wsrc))
        (broadcastInDim S850000x96 ![0, 1] bcast_S850000x1_S850000x96_0_1 (broadcastInDim S850000x1 ![0] bcast_S850000_S850000x1_0 coef))))
    (broadcastInDim S50000x96 ![0, 1] bcast_S1x96_S50000x96_0_1 (broadcastInDim S1x96 ![1] bcast_S96_S1x96_1 b))

/-! ## Column mean and variance -/

/-- The column mean: the column sums divided by the node count. -/
def tMean (X : FVec F S50000x96 .f32) : FVec F S96 .f32 :=
  Host.divf (Host.reduceAdd X (constant S_ .f32 0x00000000#32) reducesTo_S50000x96_S96_d0 h_S_) (broadcastInDim S96 ![] bcast_S_S96 (constant S_ .f32 0x47435000#32))
/-- The divisor of the variance: the node count less the correction read from an integer word. -/
def tDiv (c : IVec S_ 32) : FVec F S_ .f32 := subf (constant S_ .f32 0x47435000#32) (sitofp .f32 c)
/-- The column variance as the variance function computes it: mean squared deviation, guarded by its divisor's sign. -/
def tVar (X : FVec F S50000x96 .f32) (c : IVec S_ 32) : FVec F S96 .f32 :=
  select (broadcastInDim S96 ![] bcast_S_S96 (cmpf .ogt (tDiv (F := F) c) (constant S_ .f32 0x00000000#32)))
    (Host.divf
      (Host.reduceAdd
        (mulf
          (subf X (broadcastInDim S50000x96 ![0, 1] bcast_S1x96_S50000x96_0_1 (Host.divf (broadcastInDim S1x96 ![1] bcast_S96_S1x96_1 (Host.reduceAdd X (constant S_ .f32 0x00000000#32) reducesTo_S50000x96_S96_d0 h_S_)) (broadcastInDim S1x96 ![] bcast_S_S1x96 (constant S_ .f32 0x47435000#32)))))
          (subf X (broadcastInDim S50000x96 ![0, 1] bcast_S1x96_S50000x96_0_1 (Host.divf (broadcastInDim S1x96 ![1] bcast_S96_S1x96_1 (Host.reduceAdd X (constant S_ .f32 0x00000000#32) reducesTo_S50000x96_S96_d0 h_S_)) (broadcastInDim S1x96 ![] bcast_S_S1x96 (constant S_ .f32 0x47435000#32))))))
        (constant S_ .f32 0x00000000#32) reducesTo_S50000x96_S96_d0 h_S_)
      (broadcastInDim S96 ![] bcast_S_S96 (tDiv (F := F) c)))
    (broadcastInDim S96 ![] bcast_S_S96 (id (constant S_ .f32 0x7FC00000#32)))

/-! ## Normalisation, scale, shift, clip -/

def tBcRow (v : FVec F S96 .f32) : FVec F S50000x96 .f32 :=
  broadcastInDim S50000x96 ![0, 1] bcast_S1x96_S50000x96_0_1 (broadcastInDim S1x96 ![1] bcast_S96_S1x96_1 v)

/-- The value less its column mean, scaled, times the inverse deviation, shifted, clipped at zero. -/
def tNorm (X : FVec F S50000x96 .f32) (mean var γ β : FVec F S96 .f32) : FVec F S50000x96 .f32 :=
  maximumf
    (addf (mulf (mulf (tBcRow γ) (subf X (tBcRow mean)))
        (tBcRow (Host.rsqrt (addf var (broadcastInDim S96 ![] bcast_S_S96 (constant S_ .f32 0x3727C5AC#32))))))
      (tBcRow β))
    (broadcastInDim S50000x96 ![] bcast_S_S50000x96 (constant S_ .f32 0x00000000#32))

/-! ## The projector's products and the row normalisation -/

def tMmB96 (H : FVec F S50000x96 .f32) (w : FVec F S96x96 .f32) (b : FVec F S96 .f32) : FVec F S50000x96 .f32 :=
  addf (Host.dotGeneral dot_S50000x96_S96x96_S50000x96_1_0_0_1_n_n none H w) (tBcRow b)
def tMmB64 (H : FVec F S50000x96 .f32) (w : FVec F S96x64 .f32) (b : FVec F S64 .f32) : FVec F S50000x64 .f32 :=
  addf (Host.dotGeneral dot_S50000x96_S96x64_S50000x64_1_0_0_1_n_n none H w)
    (broadcastInDim S50000x64 ![0, 1] bcast_S1x64_S50000x64_0_1 (broadcastInDim S1x64 ![1] bcast_S64_S1x64_1 b))
/-- Every row divided by its Euclidean norm, guarded from below. -/
def tL2 (Z : FVec F S50000x64 .f32) : FVec F S50000x64 .f32 :=
  Host.divf Z
    (broadcastInDim S50000x64 ![0, 1] bcast_S50000x1_S50000x64_0_1
      (maximumf (Host.sqrt (broadcastInDim S50000x1 ![0] bcast_S50000_S50000x1_0 (Host.reduceAdd (mulf Z Z) (constant S_ .f32 0x00000000#32) reducesTo_S50000x64_S50000_d1 h_S_)))
        (broadcastInDim S50000x1 ![] bcast_S_S50000x1 (constant S_ .f32 0x2B8CBCCC#32))))

/-! ## The whole network -/

/-- The integer word the variance function is called with. -/
def tC0 : IVec S_ 32 := constantI S_ 32 0#32
/-- Normalisation of a value by its own column mean and variance. -/
def tBN (X : FVec F S50000x96 .f32) (γ β : FVec F S96 .f32) : FVec F S50000x96 .f32 :=
  tNorm X (tMean X) (tVar X tC0) γ β
/-- The first layer's value: the product with the weight, aggregated over the edges, plus the bias. -/
def tVal1 (x : FVec F S50000x128 .f32) (w : FVec F S128x96 .f32) (ei : IVec S2x800000 32) (b : FVec F S96 .f32) : FVec F S50000x96 .f32 :=
  tAgg (Host.dotGeneral dot_S50000x128_S128x96_S50000x96_1_0_0_1_n_n none x w) (tCoef (tDis (tRow1 ei)) (tRow0 ei) (tRow1 ei)) (tWrap (tRow0 ei)) (tRow1 ei) b
/-- The second layer's value. -/
def tVal2 (H : FVec F S50000x96 .f32) (w : FVec F S96x96 .f32) (ei : IVec S2x800000 32) (b : FVec F S96 .f32) : FVec F S50000x96 .f32 :=
  tAgg (Host.dotGeneral dot_S50000x96_S96x96_S50000x96_1_0_0_1_n_n none H w) (tCoef (tDis (tRow1 ei)) (tRow0 ei) (tRow1 ei)) (tWrap (tRow0 ei)) (tRow1 ei) b
/-- The program's result as one term over its sixteen arguments. -/
def tOut (x : FVec F S50000x128 .f32) (ei : IVec S2x800000 32) (w1 : FVec F S128x96 .f32) (b1 g1 be1 : FVec F S96 .f32)
    (w2 : FVec F S96x96 .f32) (b2 g2 be2 : FVec F S96 .f32) (wp1 : FVec F S96x96 .f32) (bp1 gp bep : FVec F S96 .f32)
    (wp2 : FVec F S96x64 .f32) (bp2 : FVec F S64 .f32) : FVec F S50000x64 .f32 :=
  tL2 (tMmB64 (tBN (tMmB96 (tBN (tVal2 (tBN (tVal1 x w1 ei b1) g1 be1) w2 ei b2) g2 be2) wp1 bp1) gp bep) wp2 bp2)

end Cert.ReferenceIdeal.Val

end
-- ==== Proof.Ref.StageFold.lean ====
/-
  The fold of the reference program's operations at its result buffer, as the network's term over the contents of the
  sixteen argument buffers. Each stage of the network (the edge words, the normalisation factors, a layer's aggregation,
  a column mean and variance, a normalisation, a product plus bias, the row normalisation) is the composition of the
  operations between two meeting points: the single-assignment equations of the operations in the stage, substituted
  one into the next, give the stage's term by computation; the stages composed give the whole.
-/
import proofs.«115743_j55052890800725_2_alg».proof.Proof.Ref.Eqns
import proofs.«115743_j55052890800725_2_alg».proof.Proof.Ref.ValTerms

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192

/-- The source words of the edges, self loops last. -/
theorem st_row0 (V : Valuation τ sig (Elt F)) :
    after (ops (F := F)) V (Proc.devRef .tc main_v3) = Val.tRow0 (after (ops (F := F)) V (Proc.devRef .tc main_arg1)) := by
  rw [val_main_v3 V, val_main_v2 V, val_main_v1 V, val_main_v0 V]
  rfl

/-- The destination words of the edges, self loops last. -/
theorem st_row1 (V : Valuation τ sig (Elt F)) :
    after (ops (F := F)) V (Proc.devRef .tc main_v6) = Val.tRow1 (after (ops (F := F)) V (Proc.devRef .tc main_arg1)) := by
  rw [val_main_v6 V, val_main_v5 V, val_main_v4 V, val_main_v0 V]
  rfl

/-- The inverse square root of each node's number of incoming edges. -/
theorem st_dis (V : Valuation τ sig (Elt F)) :
    after (ops (F := F)) V (Proc.devRef .tc main_v11) = Val.tDis (after (ops (F := F)) V (Proc.devRef .tc main_v6)) := by
  rw [val_main_v11 V, val_main_v10 V, val_main_v9 V, val_main_v8 V, val_main_cst_0 V, val_main_v7 V, val_main_cst V]
  rfl

/-- The first layer's edge coefficients. -/
theorem st_coef1 (V : Valuation τ sig (Elt F)) :
    after (ops (F := F)) V (Proc.devRef .tc main_v27) = Val.tCoef (after (ops (F := F)) V (Proc.devRef .tc main_v11)) (after (ops (F := F)) V (Proc.devRef .tc main_v3)) (after (ops (F := F)) V (Proc.devRef .tc main_v6)) := by
  rw [val_main_v27 V, val_main_v26 V, val_main_v25 V, val_main_v24 V, val_main_v23 V, val_main_v22 V, val_main_c_3 V, val_main_v21 V, val_main_v20 V, val_main_c_2 V, val_main_v19 V, val_main_v18 V, val_main_v17 V, val_main_v16 V, val_main_v15 V, val_main_c_1 V, val_main_v14 V, val_main_v13 V, val_main_c V]
  rfl

/-- The first layer's aggregation plus bias. -/
theorem st_agg1 (V : Valuation τ sig (Elt F)) :
    after (ops (F := F)) V (Proc.devRef .tc main_v43) = Val.tAgg (after (ops (F := F)) V (Proc.devRef .tc main_v12)) (after (ops (F := F)) V (Proc.devRef .tc main_v27)) (Val.tWrap (after (ops (F := F)) V (Proc.devRef .tc main_v3))) (after (ops (F := F)) V (Proc.devRef .tc main_v6)) (after (ops (F := F)) V (Proc.devRef .tc main_arg3)) := by
  rw [val_main_v43 V, val_main_v42 V, val_main_v41 V, val_main_v40 V, val_main_v39 V, val_main_v38 V, val_main_cst_6 V, val_main_v37 V, val_main_v36 V, val_main_v35 V, val_main_v34 V, val_main_v33 V, val_main_v32 V, val_main_v31 V, val_main_v30 V, val_main_c_5 V, val_main_v29 V, val_main_v28 V, val_main_c_4 V]
  rfl

/-- The first column mean. -/
theorem st_mean1 (V : Valuation τ sig (Elt F)) :
    after (ops (F := F)) V (Proc.devRef .tc main_v46) = Val.tMean (after (ops (F := F)) V (Proc.devRef .tc main_v43)) := by
  rw [val_main_v46 V, val_main_v45 V, val_main_cst_8 V, val_main_v44 V, val_main_cst_7 V]
  rfl

/-- The first column variance. -/
theorem st_var1 (V : Valuation τ sig (Elt F)) :
    after (ops (F := F)) V (Proc.devRef .tc main_v47) = Val.tVar (after (ops (F := F)) V (Proc.devRef .tc main_v43)) Val.tC0 := by
  rw [val_main_v47 V, val_main_call0_call0_v1 V, val_main_call0_call0_v0 V, val_main_call0_cst_4 V, val_main_call0_v12 V, val_main_call0_cst_3 V, val_main_call0_v11 V, val_main_call0_v10 V, val_main_call0_v9 V, val_main_call0_cst_2 V, val_main_call0_v8 V, val_main_call0_cst_1 V, val_main_call0_v7 V, val_main_call0_v6 V, val_main_call0_v5 V, val_main_call0_v4 V, val_main_call0_v3 V, val_main_call0_v2 V, val_main_call0_cst_0 V, val_main_call0_v1 V, val_main_call0_v0 V, val_main_call0_cst V, val_main_c_9 V]
  rfl

/-- The first normalisation, scaled, shifted and clipped. -/
theorem st_norm1 (V : Valuation τ sig (Elt F)) :
    after (ops (F := F)) V (Proc.devRef .tc main_v63) = Val.tNorm (after (ops (F := F)) V (Proc.devRef .tc main_v43)) (after (ops (F := F)) V (Proc.devRef .tc main_v46)) (after (ops (F := F)) V (Proc.devRef .tc main_v47)) (after (ops (F := F)) V (Proc.devRef .tc main_arg4)) (after (ops (F := F)) V (Proc.devRef .tc main_arg5)) := by
  rw [val_main_v63 V, val_main_call1_v0 V, val_main_call1_cst V, val_main_v62 V, val_main_v61 V, val_main_v60 V, val_main_v59 V, val_main_v58 V, val_main_v57 V, val_main_v56 V, val_main_v55 V, val_main_v54 V, val_main_cst_10 V, val_main_v53 V, val_main_v52 V, val_main_v51 V, val_main_v50 V, val_main_v49 V, val_main_v48 V]
  rfl

/-- The second layer's edge coefficients. -/
theorem st_coef2 (V : Valuation τ sig (Elt F)) :
    after (ops (F := F)) V (Proc.devRef .tc main_v79) = Val.tCoef (after (ops (F := F)) V (Proc.devRef .tc main_v11)) (after (ops (F := F)) V (Proc.devRef .tc main_v3)) (after (ops (F := F)) V (Proc.devRef .tc main_v6)) := by
  rw [val_main_v79 V, val_main_v78 V, val_main_v77 V, val_main_v76 V, val_main_v75 V, val_main_v74 V, val_main_c_14 V, val_main_v73 V, val_main_v72 V, val_main_c_13 V, val_main_v71 V, val_main_v70 V, val_main_v69 V, val_main_v68 V, val_main_v67 V, val_main_c_12 V, val_main_v66 V, val_main_v65 V, val_main_c_11 V]
  rfl

/-- The second layer's aggregation plus bias. -/
theorem st_agg2 (V : Valuation τ sig (Elt F)) :
    after (ops (F := F)) V (Proc.devRef .tc main_v95) = Val.tAgg (after (ops (F := F)) V (Proc.devRef .tc main_v64)) (after (ops (F := F)) V (Proc.devRef .tc main_v79)) (Val.tWrap (after (ops (F := F)) V (Proc.devRef .tc main_v3))) (after (ops (F := F)) V (Proc.devRef .tc main_v6)) (after (ops (F := F)) V (Proc.devRef .tc main_arg7)) := by
  rw [val_main_v95 V, val_main_v94 V, val_main_v93 V, val_main_v92 V, val_main_v91 V, val_main_v90 V, val_main_cst_17 V, val_main_v89 V, val_main_v88 V, val_main_v87 V, val_main_v86 V, val_main_v85 V, val_main_v84 V, val_main_v83 V, val_main_v82 V, val_main_c_16 V, val_main_v81 V, val_main_v80 V, val_main_c_15 V]
  rfl

/-- The second column mean. -/
theorem st_mean2 (V : Valuation τ sig (Elt F)) :
    after (ops (F := F)) V (Proc.devRef .tc main_v98) = Val.tMean (after (ops (F := F)) V (Proc.devRef .tc main_v95)) := by
  rw [val_main_v98 V, val_main_v97 V, val_main_cst_19 V, val_main_v96 V, val_main_cst_18 V]
  rfl

/-- The second column variance. -/
theorem st_var2 (V : Valuation τ sig (Elt F)) :
    after (ops (F := F)) V (Proc.devRef .tc main_v99) = Val.tVar (after (ops (F := F)) V (Proc.devRef .tc main_v95)) Val.tC0 := by
  rw [val_main_v99 V, val_main_call2_call0_v1 V, val_main_call2_call0_v0 V, val_main_call2_cst_4 V, val_main_call2_v12 V, val_main_call2_cst_3 V, val_main_call2_v11 V, val_main_call2_v10 V, val_main_call2_v9 V, val_main_call2_cst_2 V, val_main_call2_v8 V, val_main_call2_cst_1 V, val_main_call2_v7 V, val_main_call2_v6 V, val_main_call2_v5 V, val_main_call2_v4 V, val_main_call2_v3 V, val_main_call2_v2 V, val_main_call2_cst_0 V, val_main_call2_v1 V, val_main_call2_v0 V, val_main_call2_cst V, val_main_c_20 V]
  rfl

/-- The second normalisation, scaled, shifted and clipped. -/
theorem st_norm2 (V : Valuation τ sig (Elt F)) :
    after (ops (F := F)) V (Proc.devRef .tc main_v115) = Val.tNorm (after (ops (F := F)) V (Proc.devRef .tc main_v95)) (after (ops (F := F)) V (Proc.devRef .tc main_v98)) (after (ops (F := F)) V (Proc.devRef .tc main_v99)) (after (ops (F := F)) V (Proc.devRef .tc main_arg8)) (after (ops (F := F)) V (Proc.devRef .tc main_arg9)) := by
  rw [val_main_v115 V, val_main_call3_v0 V, val_main_call3_cst V, val_main_v114 V, val_main_v113 V, val_main_v112 V, val_main_v111 V, val_main_v110 V, val_main_v109 V, val_main_v108 V, val_main_v107 V, val_main_v106 V, val_main_cst_21 V, val_main_v105 V, val_main_v104 V, val_main_v103 V, val_main_v102 V, val_main_v101 V, val_main_v100 V]
  rfl

/-- The projector's first product plus bias. -/
theorem st_mm96 (V : Valuation τ sig (Elt F)) :
    after (ops (F := F)) V (Proc.devRef .tc main_v119) = Val.tMmB96 (after (ops (F := F)) V (Proc.devRef .tc main_v115)) (after (ops (F := F)) V (Proc.devRef .tc main_arg10)) (after (ops (F := F)) V (Proc.devRef .tc main_arg11)) := by
  rw [val_main_v119 V, val_main_v118 V, val_main_v117 V, val_main_v116 V]
  rfl

/-- The third column mean. -/
theorem st_mean3 (V : Valuation τ sig (Elt F)) :
    after (ops (F := F)) V (Proc.devRef .tc main_v122) = Val.tMean (after (ops (F := F)) V (Proc.devRef .tc main_v119)) := by
  rw [val_main_v122 V, val_main_v121 V, val_main_cst_23 V, val_main_v120 V, val_main_cst_22 V]
  rfl

/-- The third column variance. -/
theorem st_var3 (V : Valuation τ sig (Elt F)) :
    after (ops (F := F)) V (Proc.devRef .tc main_v123) = Val.tVar (after (ops (F := F)) V (Proc.devRef .tc main_v119)) Val.tC0 := by
  rw [val_main_v123 V, val_main_call4_call0_v1 V, val_main_call4_call0_v0 V, val_main_call4_cst_4 V, val_main_call4_v12 V, val_main_call4_cst_3 V, val_main_call4_v11 V, val_main_call4_v10 V, val_main_call4_v9 V, val_main_call4_cst_2 V, val_main_call4_v8 V, val_main_call4_cst_1 V, val_main_call4_v7 V, val_main_call4_v6 V, val_main_call4_v5 V, val_main_call4_v4 V, val_main_call4_v3 V, val_main_call4_v2 V, val_main_call4_cst_0 V, val_main_call4_v1 V, val_main_call4_v0 V, val_main_call4_cst V, val_main_c_24 V]
  rfl

/-- The third normalisation, scaled, shifted and clipped. -/
theorem st_norm3 (V : Valuation τ sig (Elt F)) :
    after (ops (F := F)) V (Proc.devRef .tc main_v139) = Val.tNorm (after (ops (F := F)) V (Proc.devRef .tc main_v119)) (after (ops (F := F)) V (Proc.devRef .tc main_v122)) (after (ops (F := F)) V (Proc.devRef .tc main_v123)) (after (ops (F := F)) V (Proc.devRef .tc main_arg12)) (after (ops (F := F)) V (Proc.devRef .tc main_arg13)) := by
  rw [val_main_v139 V, val_main_call5_v0 V, val_main_call5_cst V, val_main_v138 V, val_main_v137 V, val_main_v136 V, val_main_v135 V, val_main_v134 V, val_main_v133 V, val_main_v132 V, val_main_v131 V, val_main_v130 V, val_main_cst_25 V, val_main_v129 V, val_main_v128 V, val_main_v127 V, val_main_v126 V, val_main_v125 V, val_main_v124 V]
  rfl

/-- The projector's second product plus bias. -/
theorem st_mm64 (V : Valuation τ sig (Elt F)) :
    after (ops (F := F)) V (Proc.devRef .tc main_v143) = Val.tMmB64 (after (ops (F := F)) V (Proc.devRef .tc main_v139)) (after (ops (F := F)) V (Proc.devRef .tc main_arg14)) (after (ops (F := F)) V (Proc.devRef .tc main_arg15)) := by
  rw [val_main_v143 V, val_main_v142 V, val_main_v141 V, val_main_v140 V]
  rfl

/-- The row normalisation. -/
theorem st_l2 (V : Valuation τ sig (Elt F)) :
    after (ops (F := F)) V (Proc.devRef .tc main_v148) = Val.tL2 (after (ops (F := F)) V (Proc.devRef .tc main_v143)) := by
  rw [val_main_v148 V, val_main_v147 V, val_main_v146 V, val_main_v145 V, val_main_cst_26 V, val_main_v144 V, val_main_call6_v2 V, val_main_call6_v1 V, val_main_call6_cst V, val_main_call6_v0 V]
  rfl

/-- The first layer's value before normalisation. -/
theorem st_val1 (V : Valuation τ sig (Elt F)) :
    after (ops (F := F)) V (Proc.devRef .tc main_v43) = Val.tVal1 (after (ops (F := F)) V (Proc.devRef .tc main_arg0)) (after (ops (F := F)) V (Proc.devRef .tc main_arg2)) (after (ops (F := F)) V (Proc.devRef .tc main_arg1)) (after (ops (F := F)) V (Proc.devRef .tc main_arg3)) := by
  rw [st_agg1 V, val_main_v12 V, st_coef1 V, st_dis V, st_row0 V, st_row1 V]
  rfl

/-- The first layer's output. -/
theorem st_bn1 (V : Valuation τ sig (Elt F)) :
    after (ops (F := F)) V (Proc.devRef .tc main_v63) = Val.tBN (after (ops (F := F)) V (Proc.devRef .tc main_v43)) (after (ops (F := F)) V (Proc.devRef .tc main_arg4)) (after (ops (F := F)) V (Proc.devRef .tc main_arg5)) := by
  rw [st_norm1 V, st_mean1 V, st_var1 V]
  rfl

/-- The second layer's value before normalisation. -/
theorem st_val2 (V : Valuation τ sig (Elt F)) :
    after (ops (F := F)) V (Proc.devRef .tc main_v95) = Val.tVal2 (after (ops (F := F)) V (Proc.devRef .tc main_v63)) (after (ops (F := F)) V (Proc.devRef .tc main_arg6)) (after (ops (F := F)) V (Proc.devRef .tc main_arg1)) (after (ops (F := F)) V (Proc.devRef .tc main_arg7)) := by
  rw [st_agg2 V, val_main_v64 V, st_coef2 V, st_dis V, st_row0 V, st_row1 V]
  rfl

/-- The second layer's output. -/
theorem st_bn2 (V : Valuation τ sig (Elt F)) :
    after (ops (F := F)) V (Proc.devRef .tc main_v115) = Val.tBN (after (ops (F := F)) V (Proc.devRef .tc main_v95)) (after (ops (F := F)) V (Proc.devRef .tc main_arg8)) (after (ops (F := F)) V (Proc.devRef .tc main_arg9)) := by
  rw [st_norm2 V, st_mean2 V, st_var2 V]
  rfl

/-- The projector's normalised hidden value. -/
theorem st_bn3 (V : Valuation τ sig (Elt F)) :
    after (ops (F := F)) V (Proc.devRef .tc main_v139) = Val.tBN (after (ops (F := F)) V (Proc.devRef .tc main_v119)) (after (ops (F := F)) V (Proc.devRef .tc main_arg12)) (after (ops (F := F)) V (Proc.devRef .tc main_arg13)) := by
  rw [st_norm3 V, st_mean3 V, st_var3 V]
  rfl

/-- The fold of the whole program at its result buffer is the network's term over the sixteen arguments' contents. -/
theorem fold (W : Valuation τ sig (Elt F)) :
    after (ops (F := F)) W (Proc.devRef .tc main_v148)
      = Val.tOut (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) := by
  rw [st_l2 W, st_mm64 W, st_bn3 W, st_mm96 W, st_bn2 W, st_val2 W, st_bn1 W, st_val1 W]
  rw [arg_0 W, arg_1 W, arg_2 W, arg_3 W, arg_4 W, arg_5 W, arg_6 W, arg_7 W, arg_8 W, arg_9 W, arg_10 W, arg_11 W, arg_12 W, arg_13 W, arg_14 W, arg_15 W]
  rfl

end Cert.ReferenceIdeal.Hand

end
-- ==== Proof.Math.lean ====
/-
  The two arrangements of the network are one function on finite inputs.

  Three facts carry it.  (1) A node's normalisation factor is a positive real (every node has its self loop), and a
  nonnegative real factor moves across a finite sum of extended reals; an edge landing at a node has that node as its
  destination row; so scaling the source rows before the aggregation and the sum after it is scaling every message by
  both factors.  (2) Over the reals, with as many terms as the divisor counts, the mean of the squares minus the
  squared mean is the mean squared deviation.  (3) Every stage of a layer keeps finite values finite: sums and products
  of reals are real, the variance is a nonnegative real, the guard is a positive real, so the inverse square root is a
  real.  Fact (2) needs the layer's value to be real, which is why finiteness is carried from the inputs through both
  layers and the projector's first product.
-/
import Idealize.ShloMosaic.PureOps.Ideal
import Idealize.ShloMosaic.PureOps.Ideal.Laws
import proofs.«115743_j55052890800725_2_alg».proof.Proof.Spec

noncomputable section

open scoped BigOperators

namespace Cert.Math

open Idealize.ShloMosaic Idealize.ShloMosaic.ValueIdx Cert.Spec

/-! ## Extended reals that are reals -/

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.max0 {x : EReal} (hx : IsReal x) : IsReal (max x 0) := by
  rcases le_total x 0 with h | h
  · rw [max_eq_right h]; exact IsReal.zero
  · rw [max_eq_left h]; exact hx
theorem IsReal.sum {ι : Type} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- The coercion of a finite sum of reals is the sum of the coercions. -/
theorem coe_sum {ι : Type} (s : Finset ι) (r : ι → ℝ) : ((∑ i ∈ s, r i : ℝ) : EReal) = ∑ i ∈ s, (r i : EReal) := by
  classical
  induction s using Finset.induction_on with
  | empty => simp
  | insert a s ha ih => rw [Finset.sum_insert ha, Finset.sum_insert ha, EReal.coe_add, ih]

/-- A nonnegative real factor moves across a finite sum of extended reals. -/
theorem sum_mul_coe {ι : Type} (s : Finset ι) (f : ι → EReal) (d : ℝ) (hd : 0 ≤ d) :
    (∑ i ∈ s, f i) * (d : EReal) = ∑ i ∈ s, f i * (d : EReal) := by
  classical
  induction s using Finset.induction_on with
  | empty => simp
  | insert a s ha ih =>
    rw [Finset.sum_insert ha, Finset.sum_insert ha,
      EReal.right_distrib_of_nonneg_of_ne_top (EReal.coe_nonneg.mpr hd) (EReal.coe_ne_top d), ih]

/-! ## The shared float words -/

/-- The node count's word denotes 50000. -/
theorem cN_eq : cN = ((50000 : ℝ) : EReal) := by
  unfold cN; simp [Ideal.ofBits, Ideal.ieee, -EReal.coe_mul]; norm_num

/-- The variance guard's word denotes a positive real. -/
theorem epsBN_pos : ∃ e : ℝ, 0 < e ∧ epsBN = (e : EReal) := by
  unfold epsBN
  simp [Ideal.ofBits, Ideal.ieee, -EReal.coe_mul]

/-! ## The normalisation factor -/

variable (G : Graph)

/-- The degree is the number of edges landing at the node, as a real. -/
theorem deg_eq (n : Fin NN) : deg G n = (((G.lands n).card : ℝ) : EReal) := by
  unfold deg
  generalize G.lands n = s
  classical
  induction s using Finset.induction_on with
  | empty => simp
  | insert a s ha ih =>
    rw [Finset.sum_insert ha, ih, Finset.card_insert_of_notMem ha, Nat.cast_succ, EReal.coe_add, EReal.coe_one, add_comm]

/-- A node's factor is a positive real. -/
theorem dis_pos (n : Fin NN) : ∃ d : ℝ, 0 < d ∧ dis G n = (d : EReal) := by
  have hc : (0 : ℝ) < ((G.lands n).card : ℝ) := by exact_mod_cast Finset.card_pos.mpr (G.hself n)
  refine ⟨(Real.sqrt ((G.lands n).card : ℝ))⁻¹, inv_pos.mpr (Real.sqrt_pos.mpr hc), ?_⟩
  unfold dis
  rw [deg_eq, Ideal.rsqrt_coe, if_neg (not_lt.mpr hc.le), if_neg hc.ne']

theorem dis_real (n : Fin NN) : IsReal (dis G n) := by
  obtain ⟨d, -, h⟩ := dis_pos G n; exact ⟨d, h⟩

/-! ## The layer law -/

/-- A layer's value before normalisation is the same in the two arrangements. -/
theorem kVal_eq_rVal {k d : Nat} (H : Mat NN k) (W : Mat k d) (b : Vct d) : kVal G H W b = rVal G H W b := by
  funext j
  obtain ⟨dn, hdn, hdis⟩ := dis_pos G (j 0)
  show (∑ e ∈ G.lands (j 0), mm H W (ix2 (G.src e) (j 1)) * dis G (G.src e)) * dis G (j 0) + b (ix1 (j 1))
      = (∑ e ∈ G.lands (j 0), mm H W (ix2 (G.src e) (j 1)) * (dis G (G.src e) * dis G (G.dst e))) + b (ix1 (j 1))
  rw [hdis, sum_mul_coe _ _ dn hdn.le]
  refine congrArg (· + b (ix1 (j 1))) (Finset.sum_congr rfl fun e he => ?_)
  rw [G.hdst _ e he, hdis, mul_assoc]

/-- The product plus a bias row is the product plus the bias along the rows. -/
theorem mmBias_row {k d : Nat} (H : Mat NN k) (W : Mat k d) (b : Vct d) : mmBias H W (row b) = rmmBias H W b := rfl

/-! ## The variance -/

/-- Over the reals: the mean of the squares minus the squared mean is the mean squared deviation, when the divisor
    counts the terms. -/
theorem var_real {ι : Type} [Fintype ι] (r : ι → ℝ) (c : ℝ) (hc : c ≠ 0) (hcard : (Fintype.card ι : ℝ) = c) :
    (∑ n, r n * r n) * (1 / c) - (∑ n, r n) * (1 / c) * ((∑ n, r n) * (1 / c))
      = (∑ n, (r n - (∑ n, r n) * (1 / c)) * (r n - (∑ n, r n) * (1 / c))) * (1 / c) := by
  set μ := (∑ n, r n) * (1 / c) with hμ
  have hsum : ∑ n, r n = c * μ := by rw [hμ]; field_simp
  have hexp : ∑ n, (r n - μ) * (r n - μ) = ∑ n, r n * r n - 2 * μ * ∑ n, r n + c * (μ * μ) := by
    have : ∀ n, (r n - μ) * (r n - μ) = r n * r n - 2 * μ * r n + μ * μ := fun n => by ring
    simp only [this, Finset.sum_add_distrib, Finset.sum_sub_distrib, ← Finset.mul_sum, Finset.sum_const, Finset.card_univ,
      nsmul_eq_mul, hcard]
    ring
  rw [hexp, hsum]
  field_simp
  ring

/-- The two variances of a real column agree. -/
theorem var_eq {d : Nat} (X : Mat NN d) (hX : ∀ j, IsReal (X j)) (q : Fin d) :
    varRow (colSum X) (colSumSq X) (ix2 0 q) = rVar X (ix1 q) := by
  choose r hr using hX
  show Ideal.div (∑ n : Fin NN, X (ix2 n q) * X (ix2 n q)) cN
        - Ideal.div (∑ n : Fin NN, X (ix2 n q)) cN * Ideal.div (∑ n : Fin NN, X (ix2 n q)) cN
      = Ideal.div (∑ n : Fin NN, (X (ix2 n q) - Ideal.div (∑ n : Fin NN, X (ix2 n q)) cN)
          * (X (ix2 n q) - Ideal.div (∑ n : Fin NN, X (ix2 n q)) cN)) cN
  have h50 : (50000 : ℝ) ≠ 0 := by norm_num
  simp only [hr, cN_eq, Ideal.div_coe h50, ← EReal.coe_mul, ← coe_sum, ← EReal.coe_sub]
  refine congrArg _ (var_real (fun n => r (ix2 n q)) 50000 h50 ?_)
  rw [Fintype.card_fin]; norm_num

/-- The column mean is a real when the column is. -/
theorem rMean_real {d : Nat} (X : Mat NN d) (hX : ∀ j, IsReal (X j)) (c : (⟨1, ![d]⟩ : Shape).Idx) : IsReal (rMean X c) := by
  unfold rMean
  rw [cN_eq, Ideal.div_coe (by norm_num : (50000 : ℝ) ≠ 0)]
  exact (IsReal.sum _ _ fun n _ => hX _).mul (IsReal.coe _)

/-- The column variance plus the guard is a positive real when the column is real. -/
theorem rVar_guard {d : Nat} (X : Mat NN d) (hX : ∀ j, IsReal (X j)) (c : (⟨1, ![d]⟩ : Shape).Idx) :
    ∃ v : ℝ, 0 < v ∧ rVar X c + epsBN = (v : EReal) := by
  obtain ⟨e, he, hE⟩ := epsBN_pos
  obtain ⟨μ, hμ⟩ := rMean_real X hX c
  choose r hr using hX
  have h50 : (50000 : ℝ) ≠ 0 := by norm_num
  refine ⟨(∑ n : Fin NN, (r (ix2 n (c 0)) - μ) * (r (ix2 n (c 0)) - μ)) * (1 / 50000) + e, ?_, ?_⟩
  · have : 0 ≤ ∑ n : Fin NN, (r (ix2 n (c 0)) - μ) * (r (ix2 n (c 0)) - μ) :=
      Finset.sum_nonneg fun n _ => mul_self_nonneg _
    exact add_pos_of_nonneg_of_pos (mul_nonneg this (by norm_num)) he
  · unfold rVar
    rw [hμ, hE]
    simp only [hr, cN_eq, Ideal.div_coe h50, ← EReal.coe_mul, ← coe_sum, ← EReal.coe_sub, ← EReal.coe_add]

/-- Normalisation from the sums is normalisation by the column mean and variance, on a real value. -/
theorem kNorm_eq_rNorm {d : Nat} (X : Mat NN d) (γ β : Vct d) (hX : ∀ j, IsReal (X j)) : kNorm X γ β = rNorm X γ β := by
  funext j
  show max (γ (ix1 (j 1)) * (X j - Ideal.div (∑ n : Fin NN, X (ix2 n (j 1))) cN)
        * Ideal.rsqrt (varRow (colSum X) (colSumSq X) (ix2 0 (j 1)) + epsBN) + β (ix1 (j 1))) 0
      = max (γ (ix1 (j 1)) * (X j - rMean X (ix1 (j 1))) * Ideal.rsqrt (rVar X (ix1 (j 1)) + epsBN) + β (ix1 (j 1))) 0
  rw [var_eq X hX (j 1)]
  rfl

/-! ## Finite values stay finite -/

theorem mm_real {a k b : Nat} (L : Mat a k) (R : Mat k b) (hL : ∀ j, IsReal (L j)) (hR : ∀ j, IsReal (R j)) (j) :
    IsReal (mm L R j) :=
  IsReal.sum _ _ fun κ _ => (hL _).mul (hR _)

theorem rVal_real {k d : Nat} (H : Mat NN k) (W : Mat k d) (b : Vct d) (hH : ∀ j, IsReal (H j)) (hW : ∀ j, IsReal (W j))
    (hb : ∀ j, IsReal (b j)) (j) : IsReal (rVal G H W b j) :=
  (IsReal.sum _ _ fun e _ => (mm_real H W hH hW _).mul ((dis_real G _).mul (dis_real G _))).add (hb _)

theorem rNorm_real {d : Nat} (X : Mat NN d) (γ β : Vct d) (hX : ∀ j, IsReal (X j)) (hγ : ∀ j, IsReal (γ j))
    (hβ : ∀ j, IsReal (β j)) (j) : IsReal (rNorm X γ β j) := by
  obtain ⟨v, hv, hV⟩ := rVar_guard X hX (ix1 (j 1))
  unfold rNorm
  rw [hV, Ideal.rsqrt_coe, if_neg (not_lt.mpr hv.le), if_neg hv.ne']
  exact ((((hγ _).mul ((hX _).sub (rMean_real X hX _))).mul (IsReal.coe _)).add (hβ _)).max0

theorem rmmBias_real {k d : Nat} (H : Mat NN k) (W : Mat k d) (b : Vct d) (hH : ∀ j, IsReal (H j)) (hW : ∀ j, IsReal (W j))
    (hb : ∀ j, IsReal (b j)) (j) : IsReal (rmmBias H W b j) :=
  (mm_real H W hH hW _).add (hb _)

/-! ## The two arrangements agree -/

/-- A whole layer is the same in the two arrangements, on finite inputs. -/
theorem kLayer_eq_rLayer {k d : Nat} (H : Mat NN k) (W : Mat k d) (b γ β : Vct d) (hH : ∀ j, IsReal (H j))
    (hW : ∀ j, IsReal (W j)) (hb : ∀ j, IsReal (b j)) : kLayer G H W b γ β = rLayer G H W b γ β := by
  unfold kLayer rLayer
  rw [kVal_eq_rVal]
  exact kNorm_eq_rNorm _ _ _ (rVal_real G H W b hH hW hb)

theorem rLayer_real {k d : Nat} (H : Mat NN k) (W : Mat k d) (b γ β : Vct d) (hH : ∀ j, IsReal (H j))
    (hW : ∀ j, IsReal (W j)) (hb : ∀ j, IsReal (b j)) (hγ : ∀ j, IsReal (γ j)) (hβ : ∀ j, IsReal (β j)) (j) :
    IsReal (rLayer G H W b γ β j) :=
  rNorm_real _ _ _ (rVal_real G H W b hH hW hb) hγ hβ j

/-- THE LAW: on finite inputs the kernel's arrangement and the reference's compute one array. -/
theorem kernelOut_eq_refOut (x : Mat NN 128) (W1 : Mat 128 96) (b1 g1 be1 : Vct 96) (W2 : Mat 96 96) (b2 g2 be2 : Vct 96)
    (Wp1 : Mat 96 96) (bp1 gp bep : Vct 96) (Wp2 : Mat 96 64) (bp2 : Vct 64)
    (hx : ∀ j, IsReal (x j)) (hW1 : ∀ j, IsReal (W1 j)) (hb1 : ∀ j, IsReal (b1 j)) (hg1 : ∀ j, IsReal (g1 j))
    (hbe1 : ∀ j, IsReal (be1 j)) (hW2 : ∀ j, IsReal (W2 j)) (hb2 : ∀ j, IsReal (b2 j)) (hg2 : ∀ j, IsReal (g2 j))
    (hbe2 : ∀ j, IsReal (be2 j)) (hWp1 : ∀ j, IsReal (Wp1 j)) (hbp1 : ∀ j, IsReal (bp1 j)) :
    kernelOut G x W1 b1 g1 be1 W2 b2 g2 be2 Wp1 bp1 gp bep Wp2 bp2
      = refOut G x W1 b1 g1 be1 W2 b2 g2 be2 Wp1 bp1 gp bep Wp2 bp2 := by
  have h1 := kLayer_eq_rLayer G x W1 b1 g1 be1 hx hW1 hb1
  have r1 := rLayer_real G x W1 b1 g1 be1 hx hW1 hb1 hg1 hbe1
  have h2 := kLayer_eq_rLayer G (rLayer G x W1 b1 g1 be1) W2 b2 g2 be2 r1 hW2 hb2
  have r2 := rLayer_real G (rLayer G x W1 b1 g1 be1) W2 b2 g2 be2 r1 hW2 hb2 hg2 hbe2
  have r3 := rmmBias_real (rLayer G (rLayer G x W1 b1 g1 be1) W2 b2 g2 be2) Wp1 bp1 r2 hWp1 hbp1
  unfold kernelOut refOut
  rw [h1, h2, mmBias_row, mmBias_row, kNorm_eq_rNorm _ gp bep r3]

end Cert.Math

end
-- ==== Proof.Ref.ValMath.lean ====
/-
  The reference program's stage terms at the exact instance are the functions of the specification.

  Every stage term of `ValTerms.lean` is read at an index: an elementwise operation is the operation on the elements, a
  broadcast reads its operand at the coordinates it keeps, a reduction over one axis is the sum over that axis, a product
  of two matrices is the sum over the contracted axis, a gather reads the row its index word names and a scatter-add
  sums the updates landing at a row. With these the normalisation factors are the inverse square roots of the degrees,
  a layer's value is the aggregated messages plus the bias, the column mean and variance are the specification's (the
  variance function's divisor is the node count, its correction word being zero, so its guard selects the quotient),
  and the whole network is the specification's reference arrangement over the graph the edge words give.
-/
import proofs.«115743_j55052890800725_2_alg».proof.Proof.Spec
import proofs.«115743_j55052890800725_2_alg».proof.Proof.Ref.ValTerms
import proofs.«115743_j55052890800725_2_alg».proof.Proof.LibDense
import proofs.«115743_j55052890800725_2_alg».proof.Proof.Math
import proofs.«115743_j55052890800725_2_alg».proof.Proof.NetGather
import proofs.«115743_j55052890800725_2_alg».proof.Proof.NetScatter
import Idealize.ShloMosaic.Lib.IdealHost
import Idealize.ShloMosaic.Lib.Pipeline.Value

noncomputable section

open scoped BigOperators

set_option Elab.async false

namespace Cert.ReferenceIdeal.Val

open Cert.ReferenceIdeal Cert.ReferenceIdeal.Gen Idealize.ShloMosaic Idealize.ShloMosaic.ValueIdx
open Cert (Spec.Mat Spec.Vct)
open scoped BigOperators

/-! ## Index words -/
theorem tRow0_eq (ei : IVec S2x800000 32) : tRow0 ei = Cert.Net.srcW ei := rfl
theorem tRow1_eq (ei : IVec S2x800000 32) : tRow1 ei = Cert.Net.dstW ei := rfl
theorem tCol_wrap_eq (w : IVec S850000 32) : tCol (tWrap w) = Cert.Net.normIdx w := rfl
theorem tCol_eq (w : IVec S850000 32) : tCol w = Cert.Net.dstCol w := rfl

-- from here on the word lists are read only through the four equations above
attribute [local irreducible] Cert.Net.srcW Cert.Net.dstW Cert.Net.normIdx Cert.Net.dstCol Cert.Net.graph tRow0 tRow1 tCol tWrap tWrapZ

/-! ## Constants and broadcasts at the exact instance -/
theorem bc0 (T : Shape) (h : S_.BroadcastsInDim T ![]) :
    (broadcastInDim T ![] h (constant S_ .f32 0x00000000#32) : FVec Ideal T .f32) = fun _ => (0 : EReal) := by
  funext j; rw [broadcastInDim_scalar_apply]; exact Ideal.ofBits_zero_f32
theorem bc1 (T : Shape) (h : S_.BroadcastsInDim T ![]) :
    (broadcastInDim T ![] h (constant S_ .f32 0x3F800000#32) : FVec Ideal T .f32) = fun _ => (1 : EReal) := by
  funext j; rw [broadcastInDim_scalar_apply]; exact Ideal.ofBits_one_f32

theorem tBcRow_apply (v : FVec Ideal S96 .f32) (j : S50000x96.Idx) : tBcRow v j = v (ix1 (j 1)) := by
  unfold tBcRow broadcastInDim
  exact congrArg v (funext fun a => match a with | ⟨0, _⟩ => Fin.ext rfl)

theorem bcEdge_apply (c : FVec Ideal S850000 .f32) (u : S850000x96.Idx) :
    broadcastInDim S850000x96 ![0, 1] bcast_S850000x1_S850000x96_0_1 (broadcastInDim S850000x1 ![0] bcast_S850000_S850000x1_0 c) u = c (ix1 (u 0)) := by
  unfold broadcastInDim
  exact congrArg c (funext fun a => match a with | ⟨0, _⟩ => Fin.ext rfl)

/-! ## Small reading lemmas -/
theorem g_ix1_0 {n : Nat} (a : Fin n) : (ix1 a) 0 = a := rfl
theorem g_ix2_0 {n0 n1 : Nat} (a : Fin n0) (b : Fin n1) : (ix2 a b) 0 = a := rfl
theorem g_ix2_1 {n0 n1 : Nat} (a : Fin n0) (b : Fin n1) : (ix2 a b) 1 = b := rfl
theorem g_mulf_apply {s : Shape} (a b : FVec Ideal s .f32) (i : s.Idx) : mulf a b i = a i * b i := rfl
theorem g_subf_apply {s : Shape} (a b : FVec Ideal s .f32) (i : s.Idx) : subf a b i = a i - b i := rfl
theorem g_addf_apply {s : Shape} (a b : FVec Ideal s .f32) (i : s.Idx) : addf a b i = a i + b i := rfl
theorem g_maxf_apply {s : Shape} (a b : FVec Ideal s .f32) (i : s.Idx) : maximumf a b i = max (a i) (b i) := rfl
theorem g_rsqrt_apply {s : Shape} (a : FVec Ideal s .f32) (i : s.Idx) : Host.rsqrt a i = Ideal.rsqrt (a i) := rfl
theorem g_sqrt_apply {s : Shape} (a : FVec Ideal s .f32) (i : s.Idx) : Host.sqrt a i = Ideal.sqrt (a i) := rfl

/-! ## The normalisation factors -/
theorem tDis_eq (ei : IVec S2x800000 32) :
    tDis (F := Ideal) (tRow1 ei) = fun i => Cert.Spec.dis (Cert.Net.graph ei) (i 0) := by
  unfold tDis
  rw [tRow1_eq, tCol_eq, bc0, bc1, Cert.Net.scatter_deg]
  funext i
  rw [g_rsqrt_apply]
  unfold Cert.Spec.dis
  with_reducible rfl

theorem tCoef_eq (ei : IVec S2x800000 32) (dis : FVec Ideal S50000 .f32) :
    tCoef dis (tRow0 ei) (tRow1 ei)
      = fun e => dis (ix1 ((Cert.Net.graph ei).src (e 0))) * dis (ix1 ((Cert.Net.graph ei).dst (e 0))) := by
  unfold tCoef
  rw [tCol_wrap_eq, tCol_wrap_eq, tRow0_eq, tRow1_eq, Cert.Net.gather_vsrc, Cert.Net.gather_vdst]
  funext e
  rw [g_mulf_apply]

/-! ## Products -/
theorem plain128 : Cert.LibDense.PlainDot dot_S50000x128_S128x96_S50000x96_1_0_0_1_n_n :=
  ⟨rfl, rfl, fun _ _ => rfl, fun _ _ => rfl, fun _ _ => rfl, fun _ _ => rfl⟩
theorem plain96 : Cert.LibDense.PlainDot dot_S50000x96_S96x96_S50000x96_1_0_0_1_n_n :=
  ⟨rfl, rfl, fun _ _ => rfl, fun _ _ => rfl, fun _ _ => rfl, fun _ _ => rfl⟩
theorem plain64 : Cert.LibDense.PlainDot dot_S50000x96_S96x64_S50000x64_1_0_0_1_n_n :=
  ⟨rfl, rfl, fun _ _ => rfl, fun _ _ => rfl, fun _ _ => rfl, fun _ _ => rfl⟩

theorem dot128_eq (x : Cert.Spec.Mat Cert.Spec.NN 128) (w : Cert.Spec.Mat 128 96) :
    Host.dotGeneral (F := Ideal) (φ₁ := .f32) (φ₂ := .f32) dot_S50000x128_S128x96_S50000x96_1_0_0_1_n_n none x w = Cert.Spec.mm x w := by
  funext j; exact Cert.LibDense.dotGeneral_plain plain128 none .single x w j
theorem dot96_eq (x : Cert.Spec.Mat Cert.Spec.NN 96) (w : Cert.Spec.Mat 96 96) :
    Host.dotGeneral (F := Ideal) (φ₁ := .f32) (φ₂ := .f32) dot_S50000x96_S96x96_S50000x96_1_0_0_1_n_n none x w = Cert.Spec.mm x w := by
  funext j; exact Cert.LibDense.dotGeneral_plain plain96 none .single x w j
theorem dot64_eq (x : Cert.Spec.Mat Cert.Spec.NN 96) (w : Cert.Spec.Mat 96 64) :
    Host.dotGeneral (F := Ideal) (φ₁ := .f32) (φ₂ := .f32) dot_S50000x96_S96x64_S50000x64_1_0_0_1_n_n none x w = Cert.Spec.mm x w := by
  funext j; exact Cert.LibDense.dotGeneral_plain plain64 none .single x w j

theorem bcRow96_apply (v : FVec Ideal S96 .f32) (j : S50000x96.Idx) :
    broadcastInDim S50000x96 ![0, 1] bcast_S1x96_S50000x96_0_1 (broadcastInDim S1x96 ![1] bcast_S96_S1x96_1 v) j = v (ix1 (j 1)) := by
  unfold broadcastInDim
  exact congrArg v (funext fun a => match a with | ⟨0, _⟩ => Fin.ext rfl)

/-- Per edge, the product of the two ends' normalisation factors. -/
theorem tCoefG_eq (ei : IVec S2x800000 32) :
    tCoef (F := Ideal) (tDis (tRow1 ei)) (tRow0 ei) (tRow1 ei)
      = fun e => Cert.Spec.dis (Cert.Net.graph ei) ((Cert.Net.graph ei).src (e 0)) * Cert.Spec.dis (Cert.Net.graph ei) ((Cert.Net.graph ei).dst (e 0)) := by
  rw [tDis_eq, tCoef_eq]

/-! ## A layer's value -/
theorem tVal_eq (ei : IVec S2x800000 32) {k : Nat} (H : Cert.Spec.Mat Cert.Spec.NN k) (w : Cert.Spec.Mat k 96) (b : Cert.Spec.Vct 96) :
    tAgg (F := Ideal) (Cert.Spec.mm H w) (tCoef (tDis (tRow1 ei)) (tRow0 ei) (tRow1 ei)) (tWrap (tRow0 ei)) (tRow1 ei) b
      = Cert.Spec.rVal (Cert.Net.graph ei) H w b := by
  have hU : (mulf (F := Ideal) (φ := .f32) (Cert.Spec.gatherSrc (Cert.Net.graph ei) (Cert.Spec.mm H w))
        (broadcastInDim S850000x96 ![0, 1] bcast_S850000x1_S850000x96_0_1 (broadcastInDim S850000x1 ![0] bcast_S850000_S850000x1_0
          (fun e : S850000.Idx => Cert.Spec.dis (Cert.Net.graph ei) ((Cert.Net.graph ei).src (e 0)) * Cert.Spec.dis (Cert.Net.graph ei) ((Cert.Net.graph ei).dst (e 0))))))
      = Cert.Spec.rMsg (Cert.Net.graph ei) H w := by
    funext u
    rw [g_mulf_apply, bcEdge_apply]
    unfold Cert.Spec.rMsg Cert.Spec.gatherSrc
    with_reducible rfl
  rw [tCoefG_eq]
  unfold tAgg
  rw [tCol_wrap_eq, tCol_eq, tRow0_eq, tRow1_eq, bc0, Cert.Net.gather_rows, hU, Cert.Net.scatter_rows]
  funext j
  rw [g_addf_apply, bcRow96_apply]
  unfold Cert.Spec.rVal
  with_reducible rfl

attribute [local irreducible] Finset.sum

/-! ## More broadcasts read at an index -/
theorem bc01_apply {α : Type} (M : S1x96.Idx → α) (j : S50000x96.Idx) :
    broadcastInDim S50000x96 ![0, 1] bcast_S1x96_S50000x96_0_1 M j = M (ix2 0 (j 1)) := by
  unfold broadcastInDim
  exact congrArg M (funext fun a => match a with | ⟨0, _⟩ => Fin.ext rfl | ⟨1, _⟩ => Fin.ext rfl)
theorem bc1_apply {α : Type} (v : S96.Idx → α) (k : S1x96.Idx) :
    broadcastInDim S1x96 ![1] bcast_S96_S1x96_1 v k = v (ix1 (k 1)) := by
  unfold broadcastInDim
  exact congrArg v (funext fun a => match a with | ⟨0, _⟩ => Fin.ext rfl)
theorem bcRow64_apply {α : Type} (v : S64.Idx → α) (j : S50000x64.Idx) :
    broadcastInDim S50000x64 ![0, 1] bcast_S1x64_S50000x64_0_1 (broadcastInDim S1x64 ![1] bcast_S64_S1x64_1 v) j = v (ix1 (j 1)) := by
  unfold broadcastInDim
  exact congrArg v (funext fun a => match a with | ⟨0, _⟩ => Fin.ext rfl)
theorem bcN1_apply {α : Type} (v : S50000.Idx → α) (k : S50000x1.Idx) :
    broadcastInDim S50000x1 ![0] bcast_S50000_S50000x1_0 v k = v (ix1 (k 0)) := by
  unfold broadcastInDim
  exact congrArg v (funext fun a => match a with | ⟨0, _⟩ => Fin.ext rfl)
theorem bcN64_apply {α : Type} (M : S50000x1.Idx → α) (j : S50000x64.Idx) :
    broadcastInDim S50000x64 ![0, 1] bcast_S50000x1_S50000x64_0_1 M j = M (ix2 (j 0) 0) := by
  unfold broadcastInDim
  exact congrArg M (funext fun a => match a with | ⟨0, _⟩ => Fin.ext rfl | ⟨1, _⟩ => Fin.ext rfl)

/-- The three float words, broadcast anywhere, read their values; the zero word reads zero. -/
theorem cN_bc (T : Shape) (h : S_.BroadcastsInDim T ![]) (j : T.Idx) :
    (broadcastInDim T ![] h (constant S_ .f32 0x47435000#32) : FVec Ideal T .f32) j = Cert.Spec.cN := by
  rw [broadcastInDim_scalar_apply]; rfl
theorem epsBN_bc (T : Shape) (h : S_.BroadcastsInDim T ![]) (j : T.Idx) :
    (broadcastInDim T ![] h (constant S_ .f32 0x3727C5AC#32) : FVec Ideal T .f32) j = Cert.Spec.epsBN := by
  rw [broadcastInDim_scalar_apply]; rfl
theorem epsL2_bc (T : Shape) (h : S_.BroadcastsInDim T ![]) (j : T.Idx) :
    (broadcastInDim T ![] h (constant S_ .f32 0x2B8CBCCC#32) : FVec Ideal T .f32) j = Cert.Spec.epsL2 := by
  rw [broadcastInDim_scalar_apply]; rfl
theorem zero_bc (T : Shape) (h : S_.BroadcastsInDim T ![]) (j : T.Idx) :
    (broadcastInDim T ![] h (constant S_ .f32 0x00000000#32) : FVec Ideal T .f32) j = 0 := by
  rw [broadcastInDim_scalar_apply]; exact Ideal.ofBits_zero_f32

/-! ## Column sums, mean, variance -/
theorem lift96 (h : S50000x96.Reduces [0] S96) (c : S96.Idx) (k : Fin (S50000x96.size 0)) :
    h.lift c k = ix2 k (c 0) := by
  funext d
  match d with
  | ⟨0, _⟩ => exact Fin.ext rfl
  | ⟨1, _⟩ => exact Fin.ext rfl

theorem colsum_eq (X : Cert.Spec.Mat Cert.Spec.NN 96) (c : S96.Idx) :
    Host.reduceAdd (F := Ideal) (φ := .f32) X (constant S_ .f32 0x00000000#32) reducesTo_S50000x96_S96_d0 h_S_ c
      = ∑ n : Fin Cert.Spec.NN, X (ix2 n (c 0)) := by
  rw [hostReduceAdd_apply, Ideal.hostReduceAdd_single _ (by decide : S50000x96.Reduces [0] S96)]
  show Ideal.ofBits .f32 0x00000000#32 + _ = _
  rw [Ideal.ofBits_zero_f32, zero_add]
  exact Finset.sum_congr rfl fun k _ => congrArg X (lift96 _ c k)

theorem tMean_eq (X : Cert.Spec.Mat Cert.Spec.NN 96) : tMean (F := Ideal) X = Cert.Spec.rMean X := by
  funext c
  unfold tMean Cert.Spec.rMean
  rw [hostDivf_apply, colsum_eq, cN_bc]

/-- The deviation from the column mean as the variance function computes it. -/
theorem dev_apply (X : Cert.Spec.Mat Cert.Spec.NN 96) (j : S50000x96.Idx) :
    subf (F := Ideal) X (broadcastInDim S50000x96 ![0, 1] bcast_S1x96_S50000x96_0_1 (Host.divf (broadcastInDim S1x96 ![1] bcast_S96_S1x96_1 (Host.reduceAdd X (constant S_ .f32 0x00000000#32) reducesTo_S50000x96_S96_d0 h_S_)) (broadcastInDim S1x96 ![] bcast_S_S1x96 (constant S_ .f32 0x47435000#32)))) j
      = X j - Cert.Spec.rMean X (ix1 (j 1)) := by
  rw [g_subf_apply, bc01_apply, hostDivf_apply, bc1_apply, show (ix2 (0 : Fin 1) (j 1) : S1x96.Idx) 1 = j 1 from rfl, colsum_eq, cN_bc]
  unfold Cert.Spec.rMean
  with_reducible rfl

theorem cN_pos : (0 : EReal) < Cert.Spec.cN := by
  rw [Cert.Math.cN_eq]; exact EReal.coe_pos.mpr (by norm_num)

/-- The variance's divisor is the node count: the correction word is zero. -/
theorem tDiv_eq (j : S_.Idx) : tDiv (F := Ideal) tC0 j = Cert.Spec.cN := by
  show Cert.Spec.cN - (((0#32 : BitVec 32).toInt : ℝ) : EReal) = Cert.Spec.cN
  have h0 : (0#32 : BitVec 32).toInt = 0 := by decide
  rw [h0, Int.cast_zero, EReal.coe_zero, sub_zero]

theorem tVar_eq (X : Cert.Spec.Mat Cert.Spec.NN 96) : tVar (F := Ideal) X tC0 = Cert.Spec.rVar X := by
  funext c
  obtain ⟨q, rfl⟩ : ∃ q, c = ix1 q := ⟨c 0, eq_ix1 c⟩
  have hc : cmpf .ogt (tDiv (F := Ideal) tC0) (constant S_ .f32 0x00000000#32) ix0 = 1 := by
    show Ideal.cmp .ogt (tDiv (F := Ideal) tC0 ix0) (Ideal.ofBits .f32 0x00000000#32) = 1
    rw [tDiv_eq, Ideal.ofBits_zero_f32]
    simp [Ideal.cmp, cN_pos]
  unfold tVar
  show Scalar.select (broadcastInDim S96 ![] bcast_S_S96 (cmpf .ogt (tDiv (F := Ideal) tC0) (constant S_ .f32 0x00000000#32)) (ix1 q)) _ _ = _
  rw [broadcastInDim_scalar_apply, hc]
  show Host.divf _ _ (ix1 q) = _
  rw [hostDivf_apply, broadcastInDim_scalar_apply, tDiv_eq, colsum_eq]
  unfold Cert.Spec.rVar
  refine congrArg (fun t => Ideal.div t Cert.Spec.cN) ?_
  refine Finset.sum_congr rfl fun n _ => ?_
  rw [g_mulf_apply, dev_apply, g_ix1_0, g_ix2_1]

/-! ## Normalisation -/
theorem tNorm_eq (X : Cert.Spec.Mat Cert.Spec.NN 96) (mean var γ β : Cert.Spec.Vct 96) :
    tNorm (F := Ideal) X mean var γ β
      = fun j => max (γ (ix1 (j 1)) * (X j - mean (ix1 (j 1))) * Ideal.rsqrt (var (ix1 (j 1)) + Cert.Spec.epsBN) + β (ix1 (j 1))) 0 := by
  funext j
  unfold tNorm
  rw [g_maxf_apply, g_addf_apply, g_mulf_apply, g_mulf_apply, g_subf_apply, tBcRow_apply, tBcRow_apply, tBcRow_apply, tBcRow_apply,
    g_rsqrt_apply, g_addf_apply, epsBN_bc, zero_bc]

theorem tBN_eq (X : Cert.Spec.Mat Cert.Spec.NN 96) (γ β : Cert.Spec.Vct 96) : tBN (F := Ideal) X γ β = Cert.Spec.rNorm X γ β := by
  unfold tBN
  rw [tNorm_eq, tMean_eq, tVar_eq]
  unfold Cert.Spec.rNorm
  with_reducible rfl

/-! ## Product plus bias -/
theorem tMmB96_eq (H : Cert.Spec.Mat Cert.Spec.NN 96) (w : Cert.Spec.Mat 96 96) (b : Cert.Spec.Vct 96) :
    tMmB96 (F := Ideal) H w b = Cert.Spec.rmmBias H w b := by
  unfold tMmB96
  rw [dot96_eq]
  funext j
  rw [g_addf_apply, tBcRow_apply]
  unfold Cert.Spec.rmmBias
  with_reducible rfl
theorem tMmB64_eq (H : Cert.Spec.Mat Cert.Spec.NN 96) (w : Cert.Spec.Mat 96 64) (b : Cert.Spec.Vct 64) :
    tMmB64 (F := Ideal) H w b = Cert.Spec.rmmBias H w b := by
  unfold tMmB64
  rw [dot64_eq]
  funext j
  rw [g_addf_apply, bcRow64_apply]
  unfold Cert.Spec.rmmBias
  with_reducible rfl

/-! ## The row normalisation -/
theorem lift64 (h : S50000x64.Reduces [1] S50000) (i : S50000.Idx) (k : Fin (S50000x64.size 1)) :
    h.lift i k = ix2 (i 0) k := by
  funext d
  match d with
  | ⟨0, _⟩ => exact Fin.ext rfl
  | ⟨1, _⟩ => exact Fin.ext rfl

theorem rowsum_eq (Y : Cert.Spec.Mat Cert.Spec.NN 64) (i : S50000.Idx) :
    Host.reduceAdd (F := Ideal) (φ := .f32) Y (constant S_ .f32 0x00000000#32) reducesTo_S50000x64_S50000_d1 h_S_ i
      = ∑ κ : Fin 64, Y (ix2 (i 0) κ) := by
  rw [hostReduceAdd_apply, Ideal.hostReduceAdd_single _ (by decide : S50000x64.Reduces [1] S50000)]
  show Ideal.ofBits .f32 0x00000000#32 + _ = _
  rw [Ideal.ofBits_zero_f32, zero_add]
  exact Finset.sum_congr rfl fun k _ => congrArg Y (lift64 _ i k)

theorem tL2_eq (Z : Cert.Spec.Mat Cert.Spec.NN 64) : tL2 (F := Ideal) Z = Cert.Spec.l2n Z := by
  funext j
  unfold tL2 Cert.Spec.l2n
  rw [hostDivf_apply, bcN64_apply, g_maxf_apply, g_sqrt_apply, bcN1_apply, rowsum_eq, epsL2_bc,
    show (ix2 (j 0) (0 : Fin 1) : S50000x1.Idx) 0 = j 0 from rfl, show (ix1 (j 0) : S50000.Idx) 0 = j 0 from rfl]
  refine congrArg (fun t => Ideal.div (Z j) (max (Ideal.sqrt t) Cert.Spec.epsL2)) ?_
  refine Finset.sum_congr rfl fun κ _ => ?_
  rw [g_mulf_apply]

/-! ## The whole network -/
theorem tVal1_eq (x : Cert.Spec.Mat Cert.Spec.NN 128) (w : Cert.Spec.Mat 128 96) (ei : IVec S2x800000 32) (b : Cert.Spec.Vct 96) :
    tVal1 (F := Ideal) x w ei b = Cert.Spec.rVal (Cert.Net.graph ei) x w b := by
  unfold tVal1
  rw [dot128_eq]
  exact tVal_eq ei x w b
theorem tVal2_eq (H : Cert.Spec.Mat Cert.Spec.NN 96) (w : Cert.Spec.Mat 96 96) (ei : IVec S2x800000 32) (b : Cert.Spec.Vct 96) :
    tVal2 (F := Ideal) H w ei b = Cert.Spec.rVal (Cert.Net.graph ei) H w b := by
  unfold tVal2
  rw [dot96_eq]
  exact tVal_eq ei H w b

theorem tOut_eq (x : Cert.Spec.Mat Cert.Spec.NN 128) (ei : IVec S2x800000 32) (w1 : Cert.Spec.Mat 128 96) (b1 g1 be1 : Cert.Spec.Vct 96)
    (w2 : Cert.Spec.Mat 96 96) (b2 g2 be2 : Cert.Spec.Vct 96) (wp1 : Cert.Spec.Mat 96 96) (bp1 gp bep : Cert.Spec.Vct 96)
    (wp2 : Cert.Spec.Mat 96 64) (bp2 : Cert.Spec.Vct 64) :
    tOut (F := Ideal) x ei w1 b1 g1 be1 w2 b2 g2 be2 wp1 bp1 gp bep wp2 bp2
      = Cert.Spec.refOut (Cert.Net.graph ei) x w1 b1 g1 be1 w2 b2 g2 be2 wp1 bp1 gp bep wp2 bp2 := by
  unfold tOut
  rw [tL2_eq, tMmB64_eq, tBN_eq, tMmB96_eq, tBN_eq, tVal2_eq, tBN_eq, tVal1_eq]
  unfold Cert.Spec.refOut Cert.Spec.rLayer
  with_reducible rfl

end Cert.ReferenceIdeal.Val
end
-- ==== Proof.Ref.Val.lean ====
/-
  The reference program's result at the exact instance. After the program's operations, in order, from any contents of
  its buffers, its last buffer holds the specification's reference arrangement of the network — two graph-convolution
  layers and the projector, then the row normalisation — over the graph the edge words give, applied to the contents of
  the argument buffers: the fold of the operations is the composed stage term over the arguments, and that term at the
  exact instance is the specification's function.
-/
import proofs.«115743_j55052890800725_2_alg».proof.Proof.Ref.StageFold
import proofs.«115743_j55052890800725_2_alg».proof.Proof.Ref.ValMath

noncomputable section

namespace Cert.ReferenceIdeal.Val

open Cert.ReferenceIdeal Cert.ReferenceIdeal.Gen Idealize.ShloMosaic Idealize.ShloMosaic.StableHlo

-- the two sides meet through the stage term alone
attribute [local irreducible] Cert.Net.graph Cert.Spec.refOut tOut

/-- The program's last buffer after its operations is the reference arrangement over the argument buffers' contents. -/
theorem result (W : Valuation τ sig (Elt Ideal)) :
    StableHlo.after (Cert.ReferenceIdeal.Hand.ops (F := Ideal)) W (Proc.devRef .tc main_v148)
      = Cert.Spec.refOut (Cert.Net.graph (W (Proc.devRef .tc main_arg1))) (W (Proc.devRef .tc main_arg0)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) := by
  rw [Cert.ReferenceIdeal.Hand.fold]
  exact tOut_eq _ _ _ _ _ _ _ _ _ _ _ _ _ _ _ _

end Cert.ReferenceIdeal.Val

end
-- ==== Proof.PreReal.lean ====
/-
  The precondition gives finiteness.

  The precondition is the conjunction, over the fifteen float arguments, of "every entry's absolute value is below
  plus infinity".  An extended real whose absolute value (the larger of it and its negation) is below plus infinity is
  neither infinity, so it is a real number.  Each conjunct is a reduction by "and" of the entrywise comparisons; the
  reduction being one says every comparison is one.
-/
import Idealize.ShloMosaic.Lib.ReduceAll
import Idealize.ShloMosaic.Lib.ValueIdx
import proofs.«115743_j55052890800725_2_alg».proof.Pre_finite_inputs
import proofs.«115743_j55052890800725_2_alg».proof.Proof.Gen.Pre_finite_inputs
import proofs.«115743_j55052890800725_2_alg».proof.Proof.Math

noncomputable section

namespace Cert.PreReal

open Idealize.ShloMosaic Idealize.ShloMosaic.ValueIdx Cert.Pre_finite_inputs Cert.Pre_finite_inputs.Facts Cert.Math

instance : Subsingleton S_.Idx := ⟨fun a b => funext fun d => d.elim0⟩

/-- The comparison's right-hand word denotes plus infinity. -/
theorem inf_word : Ideal.ofBits .f32 0x7F800000#32 = ⊤ := by simp [Ideal.ofBits, Ideal.ieee]

/-- An extended real whose absolute value is below plus infinity is a real. -/
theorem real_of_abs_lt {x : EReal} (h : Ideal.cmp .olt (max x (-x)) ⊤ = 1#1) : IsReal x := by
  induction x using EReal.rec with
  | bot => simp [Ideal.cmp] at h
  | coe r => exact ⟨r, rfl⟩
  | top => simp [Ideal.cmp] at h

/-- One conjunct: the reduction by "and" of the entrywise comparisons against plus infinity is one, so every entry is real. -/
theorem all_real {S : Shape} {axes : List (Fin S.rank)} (v inf : FVec Ideal S .f32) (hinf : ∀ j, inf j = ⊤)
    (init : S_.Idx → BitVec 1) (red : S.ReducesTo axes S_) (hu : 0 < S_.numel)
    (e : Host.reduce IntOp.andi (cmpf .olt (Host.absf v) inf) init red hu ix0 = 1#1) (j : S.Idx) : IsReal (v j) := by
  have h1 := Host.reduce_andi_all _ init red hu ix0 e j
  have h2 : Ideal.cmp .olt (max (v j) (-(v j))) (inf j) = 1#1 := h1
  rw [hinf] at h2
  exact real_of_abs_lt h2

/-- The broadcast of the infinity word is plus infinity at every index. -/
theorem inf_at {S : Shape} (bc : S_.BroadcastsInDim S (![] : Fin 0 → Fin S.rank)) (j : S.Idx) :
    (broadcastInDim S ![] bc (constant (F := Ideal) S_ .f32 0x7F800000#32) : FVec Ideal S .f32) j = ⊤ :=
  (show _ = Ideal.ofBits .f32 0x7F800000#32 from rfl).trans inf_word

/-- The precondition at one device: every float argument's entries are reals. -/
theorem reals_of_pre (a0 : FVec Ideal S50000x128 .f32) (a1 : IVec S2x800000 32) (a2 : FVec Ideal S128x96 .f32) (a3 : FVec Ideal S96 .f32) (a4 : FVec Ideal S96 .f32) (a5 : FVec Ideal S96 .f32) (a6 : FVec Ideal S96x96 .f32) (a7 : FVec Ideal S96 .f32) (a8 : FVec Ideal S96 .f32) (a9 : FVec Ideal S96 .f32) (a10 : FVec Ideal S96x96 .f32) (a11 : FVec Ideal S96 .f32) (a12 : FVec Ideal S96 .f32) (a13 : FVec Ideal S96 .f32) (a14 : FVec Ideal S96x64 .f32) (a15 : FVec Ideal S64 .f32)
    (h : fn (F := Ideal) a0 a1 a2 a3 a4 a5 a6 a7 a8 a9 a10 a11 a12 a13 a14 a15 = fun _ => 1#1) :
    (∀ j, IsReal (a0 j)) ∧ (∀ j, IsReal (a2 j)) ∧ (∀ j, IsReal (a3 j)) ∧ (∀ j, IsReal (a4 j)) ∧ (∀ j, IsReal (a5 j)) ∧ (∀ j, IsReal (a6 j)) ∧ (∀ j, IsReal (a7 j)) ∧ (∀ j, IsReal (a8 j)) ∧ (∀ j, IsReal (a9 j)) ∧ (∀ j, IsReal (a10 j)) ∧ (∀ j, IsReal (a11 j)) ∧ (∀ j, IsReal (a12 j)) ∧ (∀ j, IsReal (a13 j)) ∧ (∀ j, IsReal (a14 j)) ∧ (∀ j, IsReal (a15 j)) := by
  have h0 := congrFun h ix0
  dsimp only [fn, fn_part1, fn_part2, fn_part3, fn_part4] at h0
  obtain ⟨h0, e_a15⟩ := IntOp.andi_eq_one.1 h0
  obtain ⟨h0, e_a14⟩ := IntOp.andi_eq_one.1 h0
  obtain ⟨h0, e_a13⟩ := IntOp.andi_eq_one.1 h0
  obtain ⟨h0, e_a12⟩ := IntOp.andi_eq_one.1 h0
  obtain ⟨h0, e_a11⟩ := IntOp.andi_eq_one.1 h0
  obtain ⟨h0, e_a10⟩ := IntOp.andi_eq_one.1 h0
  obtain ⟨h0, e_a9⟩ := IntOp.andi_eq_one.1 h0
  obtain ⟨h0, e_a8⟩ := IntOp.andi_eq_one.1 h0
  obtain ⟨h0, e_a7⟩ := IntOp.andi_eq_one.1 h0
  obtain ⟨h0, e_a6⟩ := IntOp.andi_eq_one.1 h0
  obtain ⟨h0, e_a5⟩ := IntOp.andi_eq_one.1 h0
  obtain ⟨h0, e_a4⟩ := IntOp.andi_eq_one.1 h0
  obtain ⟨h0, e_a3⟩ := IntOp.andi_eq_one.1 h0
  obtain ⟨e_a0, e_a2⟩ := IntOp.andi_eq_one.1 h0
  exact ⟨all_real a0 _ (inf_at _) _ _ _ e_a0,
    all_real a2 _ (inf_at _) _ _ _ e_a2,
    all_real a3 _ (inf_at _) _ _ _ e_a3,
    all_real a4 _ (inf_at _) _ _ _ e_a4,
    all_real a5 _ (inf_at _) _ _ _ e_a5,
    all_real a6 _ (inf_at _) _ _ _ e_a6,
    all_real a7 _ (inf_at _) _ _ _ e_a7,
    all_real a8 _ (inf_at _) _ _ _ e_a8,
    all_real a9 _ (inf_at _) _ _ _ e_a9,
    all_real a10 _ (inf_at _) _ _ _ e_a10,
    all_real a11 _ (inf_at _) _ _ _ e_a11,
    all_real a12 _ (inf_at _) _ _ _ e_a12,
    all_real a13 _ (inf_at _) _ _ _ e_a13,
    all_real a14 _ (inf_at _) _ _ _ e_a14,
    all_real a15 _ (inf_at _) _ _ _ e_a15⟩

end Cert.PreReal

end
-- ==== Proof.lean ====
/-
  The claims.

  The three programs run to the end and leave their arguments as they found them.  The idealised kernel's result
  array is the network in the kernel's arrangement, a function of the argument arrays; the idealised reference's is the
  network in the reference's arrangement of the same arrays; on finite arguments the two arrangements are one function.
-/
import proofs.«115743_j55052890800725_2_alg».proof.Defs
import proofs.«115743_j55052890800725_2_alg».proof.Proof.Gen.Kernel
import proofs.«115743_j55052890800725_2_alg».proof.Proof.Gen.KernelIdeal
import proofs.«115743_j55052890800725_2_alg».proof.Proof.Gen.ReferenceIdeal
import proofs.«115743_j55052890800725_2_alg».proof.Proof.Gen.Pre_finite_inputs
import proofs.«115743_j55052890800725_2_alg».proof.Proof.K.Run
import proofs.«115743_j55052890800725_2_alg».proof.Proof.KI.Run
import proofs.«115743_j55052890800725_2_alg».proof.Proof.KI.Chain
import proofs.«115743_j55052890800725_2_alg».proof.Proof.Ref.Val
import proofs.«115743_j55052890800725_2_alg».proof.Proof.Ref.Run
import proofs.«115743_j55052890800725_2_alg».proof.Proof.Net
import proofs.«115743_j55052890800725_2_alg».proof.Proof.Math
import proofs.«115743_j55052890800725_2_alg».proof.Proof.PreReal
import Idealize.ShloMosaic.Adequacy
import Idealize.ShloMosaic.Init

noncomputable section

namespace Cert.Proof

open Idealize.ShloMosaic Idealize.SL.Sem

theorem frame_ri : Cert.frame_ReferenceIdeal := fun m ρ _ => Cert.ReferenceIdeal.Hand.frame m ρ
theorem frame_k : Cert.frame_Kernel := fun m ρ _ => Cert.Kernel.Hand.frame m ρ
theorem frame_ki : Cert.frame_KernelIdeal := fun m ρ _ => Cert.KernelIdeal.Hand.frame m ρ
theorem preserves : Cert.preserves_Kernel_KernelIdeal := trivial

/-- The two idealised programs, from memories agreeing on the arguments, end with one result: the reference's array is
    its arrangement of the arguments it was given, which are the kernel's; the kernel's array is its own arrangement;
    the precondition makes every float argument finite, and on finite arguments the arrangements agree. -/
theorem algebraic : Cert.algebraic_KernelIdeal_ReferenceIdeal := by
  intro m ρ m' ρ' hpre hagree
  refine ⟨fun c => Cert.KernelIdeal.Hand.W16 (F := Ideal) m ρ c (Proc.devRef .tc Cert.KernelIdeal.main_v85), Cert.KernelIdeal.Hand.run_val m ρ, ?_⟩
  refine (θ_run (Cert.ReferenceIdeal.defs (F := Ideal)) _ _).mono (fun r h c => ⟨(h c).1.trans ?_, (h c).2⟩)
    (Cert.ReferenceIdeal.Hand.run_val m' ρ')
  obtain ⟨e0, e1, e2, e3, e4, e5, e6, e7, e8, e9, e10, e11, e12, e13, e14, e15⟩ := hagree c
  obtain ⟨r0, r2, r3, r4, r5, r6, r7, r8, r9, r10, r11, r12, r13, r14, r15⟩ :=
    Cert.PreReal.reals_of_pre _ _ _ _ _ _ _ _ _ _ _ _ _ _ _ _ (hpre c)
  beta_reduce
  rw [Cert.ReferenceIdeal.Val.result, Cert.KernelIdeal.HostVal.result]
  rw [show StableHlo.launchContents m' c (Proc.devRef .tc Cert.ReferenceIdeal.main_arg0) = _ from e0,
    show StableHlo.launchContents m' c (Proc.devRef .tc Cert.ReferenceIdeal.main_arg1) = _ from e1,
    show StableHlo.launchContents m' c (Proc.devRef .tc Cert.ReferenceIdeal.main_arg2) = _ from e2,
    show StableHlo.launchContents m' c (Proc.devRef .tc Cert.ReferenceIdeal.main_arg3) = _ from e3,
    show StableHlo.launchContents m' c (Proc.devRef .tc Cert.ReferenceIdeal.main_arg4) = _ from e4,
    show StableHlo.launchContents m' c (Proc.devRef .tc Cert.ReferenceIdeal.main_arg5) = _ from e5,
    show StableHlo.launchContents m' c (Proc.devRef .tc Cert.ReferenceIdeal.main_arg6) = _ from e6,
    show StableHlo.launchContents m' c (Proc.devRef .tc Cert.ReferenceIdeal.main_arg7) = _ from e7,
    show StableHlo.launchContents m' c (Proc.devRef .tc Cert.ReferenceIdeal.main_arg8) = _ from e8,
    show StableHlo.launchContents m' c (Proc.devRef .tc Cert.ReferenceIdeal.main_arg9) = _ from e9,
    show StableHlo.launchContents m' c (Proc.devRef .tc Cert.ReferenceIdeal.main_arg10) = _ from e10,
    show StableHlo.launchContents m' c (Proc.devRef .tc Cert.ReferenceIdeal.main_arg11) = _ from e11,
    show StableHlo.launchContents m' c (Proc.devRef .tc Cert.ReferenceIdeal.main_arg12) = _ from e12,
    show StableHlo.launchContents m' c (Proc.devRef .tc Cert.ReferenceIdeal.main_arg13) = _ from e13,
    show StableHlo.launchContents m' c (Proc.devRef .tc Cert.ReferenceIdeal.main_arg14) = _ from e14,
    show StableHlo.launchContents m' c (Proc.devRef .tc Cert.ReferenceIdeal.main_arg15) = _ from e15]
  exact (Cert.Math.kernelOut_eq_refOut _ _ _ _ _ _ _ _ _ _ _ _ _ _ _ _ r0 r2 r3 r4 r5 r6 r7 r8 r9 r10 r11).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
